-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 4096]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 256]⟩ ⟨2, ![4, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x512x256 : Shape := ⟨3, ![4, 512, 256]⟩
abbrev S4x256 : Shape := ⟨2, ![4, 256]⟩
abbrev S256x256 : Shape := ⟨2, ![256, 256]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4x512x256 .f32) (main_arg1 : FVec F S4x256 .f32) (main_arg2 : FVec F S256x256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Pre_finite_inputs_ReferenceIdeal.lean ====
abbrev S4x512x4096 : Shape := ⟨3, ![4, 512, 4096]⟩
abbrev S4x4096 : Shape := ⟨2, ![4, 4096]⟩
abbrev S4096x256 : Shape := ⟨2, ![4096, 256]⟩
abbrev S_ : Shape := ⟨0, ![]⟩

class Facts : Prop where
  bcast_S_S4x512x4096 : S_.BroadcastsInDim S4x512x4096 (![] : Fin 0 → Fin S4x512x4096.rank)
  reducesTo_S4x512x4096_S_d0_1_2 : S4x512x4096.ReducesTo [0, 1, 2] S_
  h_S_ : 0 < S_.numel
  bcast_S_S4x4096 : S_.BroadcastsInDim S4x4096 (![] : Fin 0 → Fin S4x4096.rank)
  reducesTo_S4x4096_S_d0_1 : S4x4096.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4x512x4096 .f32) (main_arg1 : FVec F S4x4096 .f32) (main_arg2 : FVec F S4096x256 .f32) : IVec S_ 1 :=
  let main_v0 : FVec F S4x512x4096 .f32 := Host.absf main_arg0
  let main_cst : FVec F S_ .f32 := constant S_ .f32 0x7F800000#32
  let main_v1 : FVec F S4x512x4096 .f32 := broadcastInDim S4x512x4096 ![] bcast_S_S4x512x4096 main_cst
  let main_v2 : IVec S4x512x4096 1 := cmpf .olt main_v0 main_v1
  let main_c : IVec S_ 1 := constantI S_ 1 1#1
  let main_v3 : IVec S_ 1 := (fun x v => Host.reduce IntOp.andi x v reducesTo_S4x512x4096_S_d0_1_2 h_S_) main_v2 main_c
  let main_v4 : FVec F S4x4096 .f32 := Host.absf main_arg1
  let main_cst_0 : FVec F S_ .f32 := constant S_ .f32 0x7F800000#32
  let main_v5 : FVec F S4x4096 .f32 := broadcastInDim S4x4096 ![] bcast_S_S4x4096 main_cst_0
  let main_v6 : IVec S4x4096 1 := cmpf .olt main_v4 main_v5
  let main_c_1 : IVec S_ 1 := constantI S_ 1 1#1
  let main_v7 : IVec S_ 1 := (fun x v => Host.reduce IntOp.andi x v reducesTo_S4x4096_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4x512x256 : Shape := ⟨3, ![4, 512, 256]⟩
abbrev S4x256 : Shape := ⟨2, ![4, 256]⟩
abbrev S256x256 : Shape := ⟨2, ![256, 256]⟩
abbrev S16x128x256 : Shape := ⟨3, ![16, 128, 256]⟩
abbrev S16 : Shape := ⟨1, ![16]⟩
abbrev S_ : Shape := ⟨0, ![]⟩
abbrev S1x256 : Shape := ⟨2, ![1, 256]⟩
abbrev S1x1x256 : Shape := ⟨3, ![1, 1, 256]⟩
abbrev S4x3x256 : Shape := ⟨3, ![4, 3, 256]⟩
abbrev S4x509x256 : Shape := ⟨3, ![4, 509, 256]⟩
abbrev S4x2x256 : Shape := ⟨3, ![4, 2, 256]⟩
abbrev S4x510x256 : Shape := ⟨3, ![4, 510, 256]⟩
abbrev S4x1x256 : Shape := ⟨3, ![4, 1, 256]⟩
abbrev S4x511x256 : Shape := ⟨3, ![4, 511, 256]⟩
abbrev S2048x256 : Shape := ⟨2, ![2048, 256]⟩
abbrev S1 : Shape := ⟨1, ![1]⟩
abbrev S1x128x256 : Shape := ⟨3, ![1, 128, 256]⟩
abbrev S128x256 : Shape := ⟨2, ![128, 256]⟩

abbrev nBuf : Space → Nat
  | .hbm => 4
  | .vmem => 6
  | .smem => 0
  | _ => 0

abbrev bufTy : (tb : Table) → Fin (tcTables nBuf tb) → BufTy
  | .hbm, ⟨0, _⟩ => ⟨S4x512x256, .f32⟩
  | .hbm, ⟨1, _⟩ => ⟨S4x256, .f32⟩
  | .hbm, ⟨2, _⟩ => ⟨S256x256, .f32⟩
  | .hbm, ⟨3, _⟩ => ⟨S4x512x256, .bf16⟩
  | .local _ .vmem, ⟨0, _⟩ => ⟨S4x512x256, .f32⟩
  | .local _ .vmem, ⟨1, _⟩ => ⟨S4x256, .f32⟩
  | .local _ .vmem, ⟨2, _⟩ => ⟨S256x256, .f32⟩
  | .local _ .vmem, ⟨3, _⟩ => ⟨S4x512x256, .bf16⟩
  | .local _ .vmem, ⟨4, _⟩ => ⟨S16x128x256, .bf16⟩
  | .local _ .vmem, ⟨5, _⟩ => ⟨S16x128x256, .bf16⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  { ofTc nBuf bufTy 1 68 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_11 : BitVec 32 := 1#32
  let v32 : BitVec 32 := Scalar.addi v2 c1_i32_11
  let c16_i32_12 : BitVec 32 := 16#32
  let c0_i32_13 : BitVec 32 := 0#32
  let v33 : BitVec 1 := Scalar.cmpi .eq c16_i32_12 c0_i32_13
  let c1_i32_14 : BitVec 32 := 1#32
  let v34 : BitVec 32 := Scalar.select v33 c1_i32_14 c16_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c1_i32_19 : BitVec 32 := 1#32
  let v43 : BitVec 32 := Scalar.muli v42 c1_i32_19
  let v44 : BitVec 32 := Scalar.addi c0_i32_20 v43
  v44.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v45 : BitVec 32 := Scalar.addi v2 c2_i32
  let c16_i32_21 : BitVec 32 := 16#32
  let c0_i32_22 : BitVec 32 := 0#32
  let v46 : BitVec 1 := Scalar.cmpi .eq c16_i32_21 c0_i32_22
  let c1_i32_23 : BitVec 32 := 1#32
  let v47 : BitVec 32 := Scalar.select v46 c1_i32_23 c16_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c1_i32_28 : BitVec 32 := 1#32
  let v56 : BitVec 32 := Scalar.muli v55 c1_i32_28
  let v57 : BitVec 32 := Scalar.addi c0_i32_29 v56
  v57.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v58 : BitVec 32 := Scalar.addi v2 c3_i32
  let c16_i32_30 : BitVec 32 := 16#32
  let c0_i32_31 : BitVec 32 := 0#32
  let v59 : BitVec 1 := Scalar.cmpi .eq c16_i32_30 c0_i32_31
  let c1_i32_32 : BitVec 32 := 1#32
  let v60 : BitVec 32 := Scalar.select v59 c1_i32_32 c16_i32_30
  let v61 : BitVec 32 := Scalar.remsi v58 v60
  let c0_i32_34 : BitVec 32 := 0#32
  let v63 : BitVec 1 := Scalar.cmpi .slt v61 c0_i32_34
  let c0_i32_35 : BitVec 32 := 0#32
  let v64 : BitVec 1 := Scalar.cmpi .slt v60 c0_i32_35
  let v65 : BitVec 1 := Scalar.xori v63 v64
  let c0_i32_33 : BitVec 32 := 0#32
  let v62 : BitVec 1 := Scalar.cmpi .ne v61 c0_i32_33
  let v66 : BitVec 1 := Scalar.andi v65 v62
  let v67 : BitVec 32 := Scalar.addi v61 v60
  let v68 : BitVec 32 := Scalar.select v66 v67 v61
  let c1_i32_37 : BitVec 32 := 1#32
  let v69 : BitVec 32 := Scalar.muli v68 c1_i32_37
  let v70 : BitVec 32 := Scalar.addi c0_i32_38 v69
  v70.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v71 : BitVec 32 := Scalar.addi v2 c4_i32_39
  let c16_i32_40 : BitVec 32 := 16#32
  let c0_i32_41 : BitVec 32 := 0#32
  let v72 : BitVec 1 := Scalar.cmpi .eq c16_i32_40 c0_i32_41
  let c1_i32_42 : BitVec 32 := 1#32
  let v73 : BitVec 32 := Scalar.select v72 c1_i32_42 c16_i32_40
  let v74 : BitVec 32 := Scalar.remsi v71 v73
  let c0_i32_44 : BitVec 32 := 0#32
  let v76 : BitVec 1 := Scalar.cmpi .slt v74 c0_i32_44
  let c0_i32_45 : BitVec 32 := 0#32
  let v77 : BitVec 1 := Scalar.cmpi .slt v73 c0_i32_45
  let v78 : BitVec 1 := Scalar.xori v76 v77
  let c0_i32_43 : BitVec 32 := 0#32
  let v75 : BitVec 1 := Scalar.cmpi .ne v74 c0_i32_43
  let v79 : BitVec 1 := Scalar.andi v78 v75
  let v80 : BitVec 32 := Scalar.addi v74 v73
  let v81 : BitVec 32 := Scalar.select v79 v80 v74
  let c1_i32_47 : BitVec 32 := 1#32
  let v82 : BitVec 32 := Scalar.muli v81 c1_i32_47
  let v83 : BitVec 32 := Scalar.addi c0_i32_48 v82
  v83.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v84 : BitVec 32 := Scalar.addi v2 c5_i32
  let c16_i32_49 : BitVec 32 := 16#32
  let c0_i32_50 : BitVec 32 := 0#32
  let v85 : BitVec 1 := Scalar.cmpi .eq c16_i32_49 c0_i32_50
  let c1_i32_51 : BitVec 32 := 1#32
  let v86 : BitVec 32 := Scalar.select v85 c1_i32_51 c16_i32_49
  let v87 : BitVec 32 := Scalar.remsi v84 v86
  let c0_i32_53 : BitVec 32 := 0#32
  let v89 : BitVec 1 := Scalar.cmpi .slt v87 c0_i32_53
  let c0_i32_54 : BitVec 32 := 0#32
  let v90 : BitVec 1 := Scalar.cmpi .slt v86 c0_i32_54
  let v91 : BitVec 1 := Scalar.xori v89 v90
  let c0_i32_52 : BitVec 32 := 0#32
  let v88 : BitVec 1 := Scalar.cmpi .ne v87 c0_i32_52
  let v92 : BitVec 1 := Scalar.andi v91 v88
  let v93 : BitVec 32 := Scalar.addi v87 v86
  let v94 : BitVec 32 := Scalar.select v92 v93 v87
  let c1_i32_56 : BitVec 32 := 1#32
  let v95 : BitVec 32 := Scalar.muli v94 c1_i32_56
  let v96 : BitVec 32 := Scalar.addi c0_i32_57 v95
  v96.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v97 : BitVec 32 := Scalar.addi v2 c6_i32
  let c16_i32_58 : BitVec 32 := 16#32
  let c0_i32_59 : BitVec 32 := 0#32
  let v98 : BitVec 1 := Scalar.cmpi .eq c16_i32_58 c0_i32_59
  let c1_i32_60 : BitVec 32 := 1#32
  let v99 : BitVec 32 := Scalar.select v98 c1_i32_60 c16_i32_58
  let v100 : BitVec 32 := Scalar.remsi v97 v99
  let c0_i32_62 : BitVec 32 := 0#32
  let v102 : BitVec 1 := Scalar.cmpi .slt v100 c0_i32_62
  let c0_i32_63 : BitVec 32 := 0#32
  let v103 : BitVec 1 := Scalar.cmpi .slt v99 c0_i32_63
  let v104 : BitVec 1 := Scalar.xori v102 v103
  let c0_i32_61 : BitVec 32 := 0#32
  let v101 : BitVec 1 := Scalar.cmpi .ne v100 c0_i32_61
  let v105 : BitVec 1 := Scalar.andi v104 v101
  let v106 : BitVec 32 := Scalar.addi v100 v99
  let v107 : BitVec 32 := Scalar.select v105 v106 v100
  let c1_i32_65 : BitVec 32 := 1#32
  let v108 : BitVec 32 := Scalar.muli v107 c1_i32_65
  let v109 : BitVec 32 := Scalar.addi c0_i32_66 v108
  v109.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v110 : BitVec 32 := Scalar.addi v2 c7_i32
  let c16_i32_67 : BitVec 32 := 16#32
  let c0_i32_68 : BitVec 32 := 0#32
  let v111 : BitVec 1 := Scalar.cmpi .eq c16_i32_67 c0_i32_68
  let c1_i32_69 : BitVec 32 := 1#32
  let v112 : BitVec 32 := Scalar.select v111 c1_i32_69 c16_i32_67
  let v113 : BitVec 32 := Scalar.remsi v110 v112
  let c0_i32_71 : BitVec 32 := 0#32
  let v115 : BitVec 1 := Scalar.cmpi .slt v113 c0_i32_71
  let c0_i32_72 : BitVec 32 := 0#32
  let v116 : BitVec 1 := Scalar.cmpi .slt v112 c0_i32_72
  let v117 : BitVec 1 := Scalar.xori v115 v116
  let c0_i32_70 : BitVec 32 := 0#32
  let v114 : BitVec 1 := Scalar.cmpi .ne v113 c0_i32_70
  let v118 : BitVec 1 := Scalar.andi v117 v114
  let v119 : BitVec 32 := Scalar.addi v113 v112
  let v120 : BitVec 32 := Scalar.select v118 v119 v113
  let c1_i32_74 : BitVec 32 := 1#32
  let v121 : BitVec 32 := Scalar.muli v120 c1_i32_74
  let v122 : BitVec 32 := Scalar.addi c0_i32_75 v121
  v122.toNat
def k0_dev8 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v123 : BitVec 32 := Scalar.addi v2 c8_i32
  let c16_i32_76 : BitVec 32 := 16#32
  let c0_i32_77 : BitVec 32 := 0#32
  let v124 : BitVec 1 := Scalar.cmpi .eq c16_i32_76 c0_i32_77
  let c1_i32_78 : BitVec 32 := 1#32
  let v125 : BitVec 32 := Scalar.select v124 c1_i32_78 c16_i32_76
  let v126 : BitVec 32 := Scalar.remsi v123 v125
  let c0_i32_80 : BitVec 32 := 0#32
  let v128 : BitVec 1 := Scalar.cmpi .slt v126 c0_i32_80
  let c0_i32_81 : BitVec 32 := 0#32
  let v129 : BitVec 1 := Scalar.cmpi .slt v125 c0_i32_81
  let v130 : BitVec 1 := Scalar.xori v128 v129
  let c0_i32_79 : BitVec 32 := 0#32
  let v127 : BitVec 1 := Scalar.cmpi .ne v126 c0_i32_79
  let v131 : BitVec 1 := Scalar.andi v130 v127
  let v132 : BitVec 32 := Scalar.addi v126 v125
  let v133 : BitVec 32 := Scalar.select v131 v132 v126
  let c1_i32_83 : BitVec 32 := 1#32
  let v134 : BitVec 32 := Scalar.muli v133 c1_i32_83
  let v135 : BitVec 32 := Scalar.addi c0_i32_84 v134
  v135.toNat
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v136 : BitVec 32 := Scalar.addi v2 c9_i32
  let c16_i32_85 : BitVec 32 := 16#32
  let c0_i32_86 : BitVec 32 := 0#32
  let v137 : BitVec 1 := Scalar.cmpi .eq c16_i32_85 c0_i32_86
  let c1_i32_87 : BitVec 32 := 1#32
  let v138 : BitVec 32 := Scalar.select v137 c1_i32_87 c16_i32_85
  let v139 : BitVec 32 := Scalar.remsi v136 v138
  let c0_i32_89 : BitVec 32 := 0#32
  let v141 : BitVec 1 := Scalar.cmpi .slt v139 c0_i32_89
  let c0_i32_90 : BitVec 32 := 0#32
  let v142 : BitVec 1 := Scalar.cmpi .slt v138 c0_i32_90
  let v143 : BitVec 1 := Scalar.xori v141 v142
  let c0_i32_88 : BitVec 32 := 0#32
  let v140 : BitVec 1 := Scalar.cmpi .ne v139 c0_i32_88
  let v144 : BitVec 1 := Scalar.andi v143 v140
  let v145 : BitVec 32 := Scalar.addi v139 v138
  let v146 : BitVec 32 := Scalar.select v144 v145 v139
  let c1_i32_92 : BitVec 32 := 1#32
  let v147 : BitVec 32 := Scalar.muli v146 c1_i32_92
  let v148 : BitVec 32 := Scalar.addi c0_i32_93 v147
  v148.toNat
def k0_dev10 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v149 : BitVec 32 := Scalar.addi v2 c10_i32
  let c16_i32_94 : BitVec 32 := 16#32
  let c0_i32_95 : BitVec 32 := 0#32
  let v150 : BitVec 1 := Scalar.cmpi .eq c16_i32_94 c0_i32_95
  let c1_i32_96 : BitVec 32 := 1#32
  let v151 : BitVec 32 := Scalar.select v150 c1_i32_96 c16_i32_94
  let v152 : BitVec 32 := Scalar.remsi v149 v151
  let c0_i32_98 : BitVec 32 := 0#32
  let v154 : BitVec 1 := Scalar.cmpi .slt v152 c0_i32_98
  let c0_i32_99 : BitVec 32 := 0#32
  let v155 : BitVec 1 := Scalar.cmpi .slt v151 c0_i32_99
  let v156 : BitVec 1 := Scalar.xori v154 v155
  let c0_i32_97 : BitVec 32 := 0#32
  let v153 : BitVec 1 := Scalar.cmpi .ne v152 c0_i32_97
  let v157 : BitVec 1 := Scalar.andi v156 v153
  let v158 : BitVec 32 := Scalar.addi v152 v151
  let v159 : BitVec 32 := Scalar.select v157 v158 v152
  let c1_i32_101 : BitVec 32 := 1#32
  let v160 : BitVec 32 := Scalar.muli v159 c1_i32_101
  let v161 : BitVec 32 := Scalar.addi c0_i32_102 v160
  v161.toNat
def k0_dev11 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v162 : BitVec 32 := Scalar.addi v2 c11_i32
  let c16_i32_103 : BitVec 32 := 16#32
  let c0_i32_104 : BitVec 32 := 0#32
  let v163 : BitVec 1 := Scalar.cmpi .eq c16_i32_103 c0_i32_104
  let c1_i32_105 : BitVec 32 := 1#32
  let v164 : BitVec 32 := Scalar.select v163 c1_i32_105 c16_i32_103
  let v165 : BitVec 32 := Scalar.remsi v162 v164
  let c0_i32_107 : BitVec 32 := 0#32
  let v167 : BitVec 1 := Scalar.cmpi .slt v165 c0_i32_107
  let c0_i32_108 : BitVec 32 := 0#32
  let v168 : BitVec 1 := Scalar.cmpi .slt v164 c0_i32_108
  let v169 : BitVec 1 := Scalar.xori v167 v168
  let c0_i32_106 : BitVec 32 := 0#32
  let v166 : BitVec 1 := Scalar.cmpi .ne v165 c0_i32_106
  let v170 : BitVec 1 := Scalar.andi v169 v166
  let v171 : BitVec 32 := Scalar.addi v165 v164
  let v172 : BitVec 32 := Scalar.select v170 v171 v165
  let c1_i32_110 : BitVec 32 := 1#32
  let v173 : BitVec 32 := Scalar.muli v172 c1_i32_110
  let v174 : BitVec 32 := Scalar.addi c0_i32_111 v173
  v174.toNat
def k0_dev12 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v175 : BitVec 32 := Scalar.addi v2 c12_i32
  let c16_i32_112 : BitVec 32 := 16#32
  let c0_i32_113 : BitVec 32 := 0#32
  let v176 : BitVec 1 := Scalar.cmpi .eq c16_i32_112 c0_i32_113
  let c1_i32_114 : BitVec 32 := 1#32
  let v177 : BitVec 32 := Scalar.select v176 c1_i32_114 c16_i32_112
  let v178 : BitVec 32 := Scalar.remsi v175 v177
  let c0_i32_116 : BitVec 32 := 0#32
  let v180 : BitVec 1 := Scalar.cmpi .slt v178 c0_i32_116
  let c0_i32_117 : BitVec 32 := 0#32
  let v181 : BitVec 1 := Scalar.cmpi .slt v177 c0_i32_117
  let v182 : BitVec 1 := Scalar.xori v180 v181
  let c0_i32_115 : BitVec 32 := 0#32
  let v179 : BitVec 1 := Scalar.cmpi .ne v178 c0_i32_115
  let v183 : BitVec 1 := Scalar.andi v182 v179
  let v184 : BitVec 32 := Scalar.addi v178 v177
  let v185 : BitVec 32 := Scalar.select v183 v184 v178
  let c1_i32_119 : BitVec 32 := 1#32
  let v186 : BitVec 32 := Scalar.muli v185 c1_i32_119
  let v187 : BitVec 32 := Scalar.addi c0_i32_120 v186
  v187.toNat
def k0_dev13 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v188 : BitVec 32 := Scalar.addi v2 c13_i32
  let c16_i32_121 : BitVec 32 := 16#32
  let c0_i32_122 : BitVec 32 := 0#32
  let v189 : BitVec 1 := Scalar.cmpi .eq c16_i32_121 c0_i32_122
  let c1_i32_123 : BitVec 32 := 1#32
  let v190 : BitVec 32 := Scalar.select v189 c1_i32_123 c16_i32_121
  let v191 : BitVec 32 := Scalar.remsi v188 v190
  let c0_i32_125 : BitVec 32 := 0#32
  let v193 : BitVec 1 := Scalar.cmpi .slt v191 c0_i32_125
  let c0_i32_126 : BitVec 32 := 0#32
  let v194 : BitVec 1 := Scalar.cmpi .slt v190 c0_i32_126
  let v195 : BitVec 1 := Scalar.xori v193 v194
  let c0_i32_124 : BitVec 32 := 0#32
  let v192 : BitVec 1 := Scalar.cmpi .ne v191 c0_i32_124
  let v196 : BitVec 1 := Scalar.andi v195 v192
  let v197 : BitVec 32 := Scalar.addi v191 v190
  let v198 : BitVec 32 := Scalar.select v196 v197 v191
  let c1_i32_128 : BitVec 32 := 1#32
  let v199 : BitVec 32 := Scalar.muli v198 c1_i32_128
  let v200 : BitVec 32 := Scalar.addi c0_i32_129 v199
  v200.toNat
def k0_dev14 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v201 : BitVec 32 := Scalar.addi v2 c14_i32
  let c16_i32_130 : BitVec 32 := 16#32
  let c0_i32_131 : BitVec 32 := 0#32
  let v202 : BitVec 1 := Scalar.cmpi .eq c16_i32_130 c0_i32_131
  let c1_i32_132 : BitVec 32 := 1#32
  let v203 : BitVec 32 := Scalar.select v202 c1_i32_132 c16_i32_130
  let v204 : BitVec 32 := Scalar.remsi v201 v203
  let c0_i32_134 : BitVec 32 := 0#32
  let v206 : BitVec 1 := Scalar.cmpi .slt v204 c0_i32_134
  let c0_i32_135 : BitVec 32 := 0#32
  let v207 : BitVec 1 := Scalar.cmpi .slt v203 c0_i32_135
  let v208 : BitVec 1 := Scalar.xori v206 v207
  let c0_i32_133 : BitVec 32 := 0#32
  let v205 : BitVec 1 := Scalar.cmpi .ne v204 c0_i32_133
  let v209 : BitVec 1 := Scalar.andi v208 v205
  let v210 : BitVec 32 := Scalar.addi v204 v203
  let v211 : BitVec 32 := Scalar.select v209 v210 v204
  let c1_i32_137 : BitVec 32 := 1#32
  let v212 : BitVec 32 := Scalar.muli v211 c1_i32_137
  let v213 : BitVec 32 := Scalar.addi c0_i32_138 v212
  v213.toNat
def k0_dev15 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v214 : BitVec 32 := Scalar.addi v2 c15_i32
  let c16_i32_139 : BitVec 32 := 16#32
  let c0_i32_140 : BitVec 32 := 0#32
  let v215 : BitVec 1 := Scalar.cmpi .eq c16_i32_139 c0_i32_140
  let c1_i32_141 : BitVec 32 := 1#32
  let v216 : BitVec 32 := Scalar.select v215 c1_i32_141 c16_i32_139
  let v217 : BitVec 32 := Scalar.remsi v214 v216
  let c0_i32_143 : BitVec 32 := 0#32
  let v219 : BitVec 1 := Scalar.cmpi .slt v217 c0_i32_143
  let c0_i32_144 : BitVec 32 := 0#32
  let v220 : BitVec 1 := Scalar.cmpi .slt v216 c0_i32_144
  let v221 : BitVec 1 := Scalar.xori v219 v220
  let c0_i32_142 : BitVec 32 := 0#32
  let v218 : BitVec 1 := Scalar.cmpi .ne v217 c0_i32_142
  let v222 : BitVec 1 := Scalar.andi v221 v218
  let v223 : BitVec 32 := Scalar.addi v217 v216
  let v224 : BitVec 32 := Scalar.select v222 v223 v217
  let c1_i32_146 : BitVec 32 := 1#32
  let v225 : BitVec 32 := Scalar.muli v224 c1_i32_146
  let v226 : BitVec 32 := Scalar.addi c0_i32_147 v225
  v226.toNat
def k0_off1 (d0 : Dev nD) (c1_i32_161 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v272 : BitVec 32 := Scalar.addi v2 c1_i32_161
  let c16_i32_162 : BitVec 32 := 16#32
  let c0_i32_163 : BitVec 32 := 0#32
  let v273 : BitVec 1 := Scalar.cmpi .eq c16_i32_162 c0_i32_163
  let c1_i32_164 : BitVec 32 := 1#32
  let v274 : BitVec 32 := Scalar.select v273 c1_i32_164 c16_i32_162
  let v275 : BitVec 32 := Scalar.remsi v272 v274
  let c0_i32_166 : BitVec 32 := 0#32
  let v277 : BitVec 1 := Scalar.cmpi .slt v275 c0_i32_166
  let c0_i32_167 : BitVec 32 := 0#32
  let v278 : BitVec 1 := Scalar.cmpi .slt v274 c0_i32_167
  let v279 : BitVec 1 := Scalar.xori v277 v278
  let c0_i32_165 : BitVec 32 := 0#32
  let v276 : BitVec 1 := Scalar.cmpi .ne v275 c0_i32_165
  let v280 : BitVec 1 := Scalar.andi v279 v276
  let v281 : BitVec 32 := Scalar.addi v275 v274
  let v282 : BitVec 32 := Scalar.select v280 v281 v275
  let c0_i32_175 : BitVec 32 := 0#32
  let c0_i32_176 : BitVec 32 := 0#32
  ![v282.toNat, 0, 0]
def k0_dev16 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_161 : BitVec 32 := 1#32
  let v272 : BitVec 32 := Scalar.addi v2 c1_i32_161
  let c16_i32_162 : BitVec 32 := 16#32
  let c0_i32_163 : BitVec 32 := 0#32
  let v273 : BitVec 1 := Scalar.cmpi .eq c16_i32_162 c0_i32_163
  let c1_i32_164 : BitVec 32 := 1#32
  let v274 : BitVec 32 := Scalar.select v273 c1_i32_164 c16_i32_162
  let v275 : BitVec 32 := Scalar.remsi v272 v274
  let c0_i32_166 : BitVec 32 := 0#32
  let v277 : BitVec 1 := Scalar.cmpi .slt v275 c0_i32_166
  let c0_i32_167 : BitVec 32 := 0#32
  let v278 : BitVec 1 := Scalar.cmpi .slt v274 c0_i32_167
  let v279 : BitVec 1 := Scalar.xori v277 v278
  let c0_i32_165 : BitVec 32 := 0#32
  let v276 : BitVec 1 := Scalar.cmpi .ne v275 c0_i32_165
  let v280 : BitVec 1 := Scalar.andi v279 v276
  let v281 : BitVec 32 := Scalar.addi v275 v274
  let v282 : BitVec 32 := Scalar.select v280 v281 v275
  let c1_i32_171 : BitVec 32 := 1#32
  let v283 : BitVec 32 := Scalar.muli v282 c1_i32_171
  let v284 : BitVec 32 := Scalar.addi c0_i32_172 v283
  v284.toNat
def k0_dev17 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_177 : BitVec 32 := 2#32
  let v293 : BitVec 32 := Scalar.addi v2 c2_i32_177
  let c16_i32_178 : BitVec 32 := 16#32
  let c0_i32_179 : BitVec 32 := 0#32
  let v294 : BitVec 1 := Scalar.cmpi .eq c16_i32_178 c0_i32_179
  let c1_i32_180 : BitVec 32 := 1#32
  let v295 : BitVec 32 := Scalar.select v294 c1_i32_180 c16_i32_178
  let v296 : BitVec 32 := Scalar.remsi v293 v295
  let c0_i32_182 : BitVec 32 := 0#32
  let v298 : BitVec 1 := Scalar.cmpi .slt v296 c0_i32_182
  let c0_i32_183 : BitVec 32 := 0#32
  let v299 : BitVec 1 := Scalar.cmpi .slt v295 c0_i32_183
  let v300 : BitVec 1 := Scalar.xori v298 v299
  let c0_i32_181 : BitVec 32 := 0#32
  let v297 : BitVec 1 := Scalar.cmpi .ne v296 c0_i32_181
  let v301 : BitVec 1 := Scalar.andi v300 v297
  let v302 : BitVec 32 := Scalar.addi v296 v295
  let v303 : BitVec 32 := Scalar.select v301 v302 v296
  let c1_i32_187 : BitVec 32 := 1#32
  let v304 : BitVec 32 := Scalar.muli v303 c1_i32_187
  let v305 : BitVec 32 := Scalar.addi c0_i32_188 v304
  v305.toNat
def k0_dev18 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_193 : BitVec 32 := 3#32
  let v314 : BitVec 32 := Scalar.addi v2 c3_i32_193
  let c16_i32_194 : BitVec 32 := 16#32
  let c0_i32_195 : BitVec 32 := 0#32
  let v315 : BitVec 1 := Scalar.cmpi .eq c16_i32_194 c0_i32_195
  let c1_i32_196 : BitVec 32 := 1#32
  let v316 : BitVec 32 := Scalar.select v315 c1_i32_196 c16_i32_194
  let v317 : BitVec 32 := Scalar.remsi v314 v316
  let c0_i32_198 : BitVec 32 := 0#32
  let v319 : BitVec 1 := Scalar.cmpi .slt v317 c0_i32_198
  let c0_i32_199 : BitVec 32 := 0#32
  let v320 : BitVec 1 := Scalar.cmpi .slt v316 c0_i32_199
  let v321 : BitVec 1 := Scalar.xori v319 v320
  let c0_i32_197 : BitVec 32 := 0#32
  let v318 : BitVec 1 := Scalar.cmpi .ne v317 c0_i32_197
  let v322 : BitVec 1 := Scalar.andi v321 v318
  let v323 : BitVec 32 := Scalar.addi v317 v316
  let v324 : BitVec 32 := Scalar.select v322 v323 v317
  let c1_i32_203 : BitVec 32 := 1#32
  let v325 : BitVec 32 := Scalar.muli v324 c1_i32_203
  let v326 : BitVec 32 := Scalar.addi c0_i32_204 v325
  v326.toNat
def k0_dev19 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_209 : BitVec 32 := 4#32
  let v335 : BitVec 32 := Scalar.addi v2 c4_i32_209
  let c16_i32_210 : BitVec 32 := 16#32
  let c0_i32_211 : BitVec 32 := 0#32
  let v336 : BitVec 1 := Scalar.cmpi .eq c16_i32_210 c0_i32_211
  let c1_i32_212 : BitVec 32 := 1#32
  let v337 : BitVec 32 := Scalar.select v336 c1_i32_212 c16_i32_210
  let v338 : BitVec 32 := Scalar.remsi v335 v337
  let c0_i32_214 : BitVec 32 := 0#32
  let v340 : BitVec 1 := Scalar.cmpi .slt v338 c0_i32_214
  let c0_i32_215 : BitVec 32 := 0#32
  let v341 : BitVec 1 := Scalar.cmpi .slt v337 c0_i32_215
  let v342 : BitVec 1 := Scalar.xori v340 v341
  let c0_i32_213 : BitVec 32 := 0#32
  let v339 : BitVec 1 := Scalar.cmpi .ne v338 c0_i32_213
  let v343 : BitVec 1 := Scalar.andi v342 v339
  let v344 : BitVec 32 := Scalar.addi v338 v337
  let v345 : BitVec 32 := Scalar.select v343 v344 v338
  let c1_i32_219 : BitVec 32 := 1#32
  let v346 : BitVec 32 := Scalar.muli v345 c1_i32_219
  let v347 : BitVec 32 := Scalar.addi c0_i32_220 v346
  v347.toNat
def k0_dev20 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_225 : BitVec 32 := 5#32
  let v356 : BitVec 32 := Scalar.addi v2 c5_i32_225
  let c16_i32_226 : BitVec 32 := 16#32
  let c0_i32_227 : BitVec 32 := 0#32
  let v357 : BitVec 1 := Scalar.cmpi .eq c16_i32_226 c0_i32_227
  let c1_i32_228 : BitVec 32 := 1#32
  let v358 : BitVec 32 := Scalar.select v357 c1_i32_228 c16_i32_226
  let v359 : BitVec 32 := Scalar.remsi v356 v358
  let c0_i32_230 : BitVec 32 := 0#32
  let v361 : BitVec 1 := Scalar.cmpi .slt v359 c0_i32_230
  let c0_i32_231 : BitVec 32 := 0#32
  let v362 : BitVec 1 := Scalar.cmpi .slt v358 c0_i32_231
  let v363 : BitVec 1 := Scalar.xori v361 v362
  let c0_i32_229 : BitVec 32 := 0#32
  let v360 : BitVec 1 := Scalar.cmpi .ne v359 c0_i32_229
  let v364 : BitVec 1 := Scalar.andi v363 v360
  let v365 : BitVec 32 := Scalar.addi v359 v358
  let v366 : BitVec 32 := Scalar.select v364 v365 v359
  let c1_i32_235 : BitVec 32 := 1#32
  let v367 : BitVec 32 := Scalar.muli v366 c1_i32_235
  let v368 : BitVec 32 := Scalar.addi c0_i32_236 v367
  v368.toNat
def k0_dev21 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_241 : BitVec 32 := 6#32
  let v377 : BitVec 32 := Scalar.addi v2 c6_i32_241
  let c16_i32_242 : BitVec 32 := 16#32
  let c0_i32_243 : BitVec 32 := 0#32
  let v378 : BitVec 1 := Scalar.cmpi .eq c16_i32_242 c0_i32_243
  let c1_i32_244 : BitVec 32 := 1#32
  let v379 : BitVec 32 := Scalar.select v378 c1_i32_244 c16_i32_242
  let v380 : BitVec 32 := Scalar.remsi v377 v379
  let c0_i32_246 : BitVec 32 := 0#32
  let v382 : BitVec 1 := Scalar.cmpi .slt v380 c0_i32_246
  let c0_i32_247 : BitVec 32 := 0#32
  let v383 : BitVec 1 := Scalar.cmpi .slt v379 c0_i32_247
  let v384 : BitVec 1 := Scalar.xori v382 v383
  let c0_i32_245 : BitVec 32 := 0#32
  let v381 : BitVec 1 := Scalar.cmpi .ne v380 c0_i32_245
  let v385 : BitVec 1 := Scalar.andi v384 v381
  let v386 : BitVec 32 := Scalar.addi v380 v379
  let v387 : BitVec 32 := Scalar.select v385 v386 v380
  let c1_i32_251 : BitVec 32 := 1#32
  let v388 : BitVec 32 := Scalar.muli v387 c1_i32_251
  let v389 : BitVec 32 := Scalar.addi c0_i32_252 v388
  v389.toNat
def k0_dev22 (d0 : Dev nD) : Nat :=
  let c0_i32_268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_257 : BitVec 32 := 7#32
  let v398 : BitVec 32 := Scalar.addi v2 c7_i32_257
  let c16_i32_258 : BitVec 32 := 16#32
  let c0_i32_259 : BitVec 32 := 0#32
  let v399 : BitVec 1 := Scalar.cmpi .eq c16_i32_258 c0_i32_259
  let c1_i32_260 : BitVec 32 := 1#32
  let v400 : BitVec 32 := Scalar.select v399 c1_i32_260 c16_i32_258
  let v401 : BitVec 32 := Scalar.remsi v398 v400
  let c0_i32_262 : BitVec 32 := 0#32
  let v403 : BitVec 1 := Scalar.cmpi .slt v401 c0_i32_262
  let c0_i32_263 : BitVec 32 := 0#32
  let v404 : BitVec 1 := Scalar.cmpi .slt v400 c0_i32_263
  let v405 : BitVec 1 := Scalar.xori v403 v404
  let c0_i32_261 : BitVec 32 := 0#32
  let v402 : BitVec 1 := Scalar.cmpi .ne v401 c0_i32_261
  let v406 : BitVec 1 := Scalar.andi v405 v402
  let v407 : BitVec 32 := Scalar.addi v401 v400
  let v408 : BitVec 32 := Scalar.select v406 v407 v401
  let c1_i32_267 : BitVec 32 := 1#32
  let v409 : BitVec 32 := Scalar.muli v408 c1_i32_267
  let v410 : BitVec 32 := Scalar.addi c0_i32_268 v409
  v410.toNat
def k0_dev23 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_273 : BitVec 32 := 8#32
  let v419 : BitVec 32 := Scalar.addi v2 c8_i32_273
  let c16_i32_274 : BitVec 32 := 16#32
  let c0_i32_275 : BitVec 32 := 0#32
  let v420 : BitVec 1 := Scalar.cmpi .eq c16_i32_274 c0_i32_275
  let c1_i32_276 : BitVec 32 := 1#32
  let v421 : BitVec 32 := Scalar.select v420 c1_i32_276 c16_i32_274
  let v422 : BitVec 32 := Scalar.remsi v419 v421
  let c0_i32_278 : BitVec 32 := 0#32
  let v424 : BitVec 1 := Scalar.cmpi .slt v422 c0_i32_278
  let c0_i32_279 : BitVec 32 := 0#32
  let v425 : BitVec 1 := Scalar.cmpi .slt v421 c0_i32_279
  let v426 : BitVec 1 := Scalar.xori v424 v425
  let c0_i32_277 : BitVec 32 := 0#32
  let v423 : BitVec 1 := Scalar.cmpi .ne v422 c0_i32_277
  let v427 : BitVec 1 := Scalar.andi v426 v423
  let v428 : BitVec 32 := Scalar.addi v422 v421
  let v429 : BitVec 32 := Scalar.select v427 v428 v422
  let c1_i32_283 : BitVec 32 := 1#32
  let v430 : BitVec 32 := Scalar.muli v429 c1_i32_283
  let v431 : BitVec 32 := Scalar.addi c0_i32_284 v430
  v431.toNat
def k0_dev24 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_289 : BitVec 32 := 9#32
  let v440 : BitVec 32 := Scalar.addi v2 c9_i32_289
  let c16_i32_290 : BitVec 32 := 16#32
  let c0_i32_291 : BitVec 32 := 0#32
  let v441 : BitVec 1 := Scalar.cmpi .eq c16_i32_290 c0_i32_291
  let c1_i32_292 : BitVec 32 := 1#32
  let v442 : BitVec 32 := Scalar.select v441 c1_i32_292 c16_i32_290
  let v443 : BitVec 32 := Scalar.remsi v440 v442
  let c0_i32_294 : BitVec 32 := 0#32
  let v445 : BitVec 1 := Scalar.cmpi .slt v443 c0_i32_294
  let c0_i32_295 : BitVec 32 := 0#32
  let v446 : BitVec 1 := Scalar.cmpi .slt v442 c0_i32_295
  let v447 : BitVec 1 := Scalar.xori v445 v446
  let c0_i32_293 : BitVec 32 := 0#32
  let v444 : BitVec 1 := Scalar.cmpi .ne v443 c0_i32_293
  let v448 : BitVec 1 := Scalar.andi v447 v444
  let v449 : BitVec 32 := Scalar.addi v443 v442
  let v450 : BitVec 32 := Scalar.select v448 v449 v443
  let c1_i32_299 : BitVec 32 := 1#32
  let v451 : BitVec 32 := Scalar.muli v450 c1_i32_299
  let v452 : BitVec 32 := Scalar.addi c0_i32_300 v451
  v452.toNat
def k0_dev25 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_305 : BitVec 32 := 10#32
  let v461 : BitVec 32 := Scalar.addi v2 c10_i32_305
  let c16_i32_306 : BitVec 32 := 16#32
  let c0_i32_307 : BitVec 32 := 0#32
  let v462 : BitVec 1 := Scalar.cmpi .eq c16_i32_306 c0_i32_307
  let c1_i32_308 : BitVec 32 := 1#32
  let v463 : BitVec 32 := Scalar.select v462 c1_i32_308 c16_i32_306
  let v464 : BitVec 32 := Scalar.remsi v461 v463
  let c0_i32_310 : BitVec 32 := 0#32
  let v466 : BitVec 1 := Scalar.cmpi .slt v464 c0_i32_310
  let c0_i32_311 : BitVec 32 := 0#32
  let v467 : BitVec 1 := Scalar.cmpi .slt v463 c0_i32_311
  let v468 : BitVec 1 := Scalar.xori v466 v467
  let c0_i32_309 : BitVec 32 := 0#32
  let v465 : BitVec 1 := Scalar.cmpi .ne v464 c0_i32_309
  let v469 : BitVec 1 := Scalar.andi v468 v465
  let v470 : BitVec 32 := Scalar.addi v464 v463
  let v471 : BitVec 32 := Scalar.select v469 v470 v464
  let c1_i32_315 : BitVec 32 := 1#32
  let v472 : BitVec 32 := Scalar.muli v471 c1_i32_315
  let v473 : BitVec 32 := Scalar.addi c0_i32_316 v472
  v473.toNat
def k0_dev26 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_321 : BitVec 32 := 11#32
  let v482 : BitVec 32 := Scalar.addi v2 c11_i32_321
  let c16_i32_322 : BitVec 32 := 16#32
  let c0_i32_323 : BitVec 32 := 0#32
  let v483 : BitVec 1 := Scalar.cmpi .eq c16_i32_322 c0_i32_323
  let c1_i32_324 : BitVec 32 := 1#32
  let v484 : BitVec 32 := Scalar.select v483 c1_i32_324 c16_i32_322
  let v485 : BitVec 32 := Scalar.remsi v482 v484
  let c0_i32_326 : BitVec 32 := 0#32
  let v487 : BitVec 1 := Scalar.cmpi .slt v485 c0_i32_326
  let c0_i32_327 : BitVec 32 := 0#32
  let v488 : BitVec 1 := Scalar.cmpi .slt v484 c0_i32_327
  let v489 : BitVec 1 := Scalar.xori v487 v488
  let c0_i32_325 : BitVec 32 := 0#32
  let v486 : BitVec 1 := Scalar.cmpi .ne v485 c0_i32_325
  let v490 : BitVec 1 := Scalar.andi v489 v486
  let v491 : BitVec 32 := Scalar.addi v485 v484
  let v492 : BitVec 32 := Scalar.select v490 v491 v485
  let c1_i32_331 : BitVec 32 := 1#32
  let v493 : BitVec 32 := Scalar.muli v492 c1_i32_331
  let v494 : BitVec 32 := Scalar.addi c0_i32_332 v493
  v494.toNat
def k0_dev27 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_337 : BitVec 32 := 12#32
  let v503 : BitVec 32 := Scalar.addi v2 c12_i32_337
  let c16_i32_338 : BitVec 32 := 16#32
  let c0_i32_339 : BitVec 32 := 0#32
  let v504 : BitVec 1 := Scalar.cmpi .eq c16_i32_338 c0_i32_339
  let c1_i32_340 : BitVec 32 := 1#32
  let v505 : BitVec 32 := Scalar.select v504 c1_i32_340 c16_i32_338
  let v506 : BitVec 32 := Scalar.remsi v503 v505
  let c0_i32_342 : BitVec 32 := 0#32
  let v508 : BitVec 1 := Scalar.cmpi .slt v506 c0_i32_342
  let c0_i32_343 : BitVec 32 := 0#32
  let v509 : BitVec 1 := Scalar.cmpi .slt v505 c0_i32_343
  let v510 : BitVec 1 := Scalar.xori v508 v509
  let c0_i32_341 : BitVec 32 := 0#32
  let v507 : BitVec 1 := Scalar.cmpi .ne v506 c0_i32_341
  let v511 : BitVec 1 := Scalar.andi v510 v507
  let v512 : BitVec 32 := Scalar.addi v506 v505
  let v513 : BitVec 32 := Scalar.select v511 v512 v506
  let c1_i32_347 : BitVec 32 := 1#32
  let v514 : BitVec 32 := Scalar.muli v513 c1_i32_347
  let v515 : BitVec 32 := Scalar.addi c0_i32_348 v514
  v515.toNat
def k0_dev28 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_353 : BitVec 32 := 13#32
  let v524 : BitVec 32 := Scalar.addi v2 c13_i32_353
  let c16_i32_354 : BitVec 32 := 16#32
  let c0_i32_355 : BitVec 32 := 0#32
  let v525 : BitVec 1 := Scalar.cmpi .eq c16_i32_354 c0_i32_355
  let c1_i32_356 : BitVec 32 := 1#32
  let v526 : BitVec 32 := Scalar.select v525 c1_i32_356 c16_i32_354
  let v527 : BitVec 32 := Scalar.remsi v524 v526
  let c0_i32_358 : BitVec 32 := 0#32
  let v529 : BitVec 1 := Scalar.cmpi .slt v527 c0_i32_358
  let c0_i32_359 : BitVec 32 := 0#32
  let v530 : BitVec 1 := Scalar.cmpi .slt v526 c0_i32_359
  let v531 : BitVec 1 := Scalar.xori v529 v530
  let c0_i32_357 : BitVec 32 := 0#32
  let v528 : BitVec 1 := Scalar.cmpi .ne v527 c0_i32_357
  let v532 : BitVec 1 := Scalar.andi v531 v528
  let v533 : BitVec 32 := Scalar.addi v527 v526
  let v534 : BitVec 32 := Scalar.select v532 v533 v527
  let c1_i32_363 : BitVec 32 := 1#32
  let v535 : BitVec 32 := Scalar.muli v534 c1_i32_363
  let v536 : BitVec 32 := Scalar.addi c0_i32_364 v535
  v536.toNat
def k0_dev29 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_369 : BitVec 32 := 14#32
  let v545 : BitVec 32 := Scalar.addi v2 c14_i32_369
  let c16_i32_370 : BitVec 32 := 16#32
  let c0_i32_371 : BitVec 32 := 0#32
  let v546 : BitVec 1 := Scalar.cmpi .eq c16_i32_370 c0_i32_371
  let c1_i32_372 : BitVec 32 := 1#32
  let v547 : BitVec 32 := Scalar.select v546 c1_i32_372 c16_i32_370
  let v548 : BitVec 32 := Scalar.remsi v545 v547
  let c0_i32_374 : BitVec 32 := 0#32
  let v550 : BitVec 1 := Scalar.cmpi .slt v548 c0_i32_374
  let c0_i32_375 : BitVec 32 := 0#32
  let v551 : BitVec 1 := Scalar.cmpi .slt v547 c0_i32_375
  let v552 : BitVec 1 := Scalar.xori v550 v551
  let c0_i32_373 : BitVec 32 := 0#32
  let v549 : BitVec 1 := Scalar.cmpi .ne v548 c0_i32_373
  let v553 : BitVec 1 := Scalar.andi v552 v549
  let v554 : BitVec 32 := Scalar.addi v548 v547
  let v555 : BitVec 32 := Scalar.select v553 v554 v548
  let c1_i32_379 : BitVec 32 := 1#32
  let v556 : BitVec 32 := Scalar.muli v555 c1_i32_379
  let v557 : BitVec 32 := Scalar.addi c0_i32_380 v556
  v557.toNat
def k0_dev30 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_385 : BitVec 32 := 15#32
  let v566 : BitVec 32 := Scalar.addi v2 c15_i32_385
  let c16_i32_386 : BitVec 32 := 16#32
  let c0_i32_387 : BitVec 32 := 0#32
  let v567 : BitVec 1 := Scalar.cmpi .eq c16_i32_386 c0_i32_387
  let c1_i32_388 : BitVec 32 := 1#32
  let v568 : BitVec 32 := Scalar.select v567 c1_i32_388 c16_i32_386
  let v569 : BitVec 32 := Scalar.remsi v566 v568
  let c0_i32_390 : BitVec 32 := 0#32
  let v571 : BitVec 1 := Scalar.cmpi .slt v569 c0_i32_390
  let c0_i32_391 : BitVec 32 := 0#32
  let v572 : BitVec 1 := Scalar.cmpi .slt v568 c0_i32_391
  let v573 : BitVec 1 := Scalar.xori v571 v572
  let c0_i32_389 : BitVec 32 := 0#32
  let v570 : BitVec 1 := Scalar.cmpi .ne v569 c0_i32_389
  let v574 : BitVec 1 := Scalar.andi v573 v570
  let v575 : BitVec 32 := Scalar.addi v569 v568
  let v576 : BitVec 32 := Scalar.select v574 v575 v569
  let c1_i32_395 : BitVec 32 := 1#32
  let v577 : BitVec 32 := Scalar.muli v576 c1_i32_395
  let v578 : BitVec 32 := Scalar.addi c0_i32_396 v577
  v578.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v587 : Index := Scalar.indexCast v2
  let c0_401 : Index := 0#32
  let c0_402 : Index := 0#32
  ![v587.toNat, 0, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v772 : Index := Scalar.indexCast v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  let v773 : Index := Scalar.indexCast v30
  let c0_568 : Index := 0#32
  ![v772.toNat, v773.toNat, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  let c0_i32_580 : BitVec 32 := 0#32
  ![v19.toNat, v30.toNat, 0]
def k0_dev31 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_569 : BitVec 32 := 1#32
  let v777 : BitVec 32 := Scalar.addi v2 c1_i32_569
  let c16_i32_570 : BitVec 32 := 16#32
  let c0_i32_571 : BitVec 32 := 0#32
  let v778 : BitVec 1 := Scalar.cmpi .eq c16_i32_570 c0_i32_571
  let c1_i32_572 : BitVec 32 := 1#32
  let v779 : BitVec 32 := Scalar.select v778 c1_i32_572 c16_i32_570
  let v780 : BitVec 32 := Scalar.remsi v777 v779
  let c0_i32_574 : BitVec 32 := 0#32
  let v782 : BitVec 1 := Scalar.cmpi .slt v780 c0_i32_574
  let c0_i32_575 : BitVec 32 := 0#32
  let v783 : BitVec 1 := Scalar.cmpi .slt v779 c0_i32_575
  let v784 : BitVec 1 := Scalar.xori v782 v783
  let c0_i32_573 : BitVec 32 := 0#32
  let v781 : BitVec 1 := Scalar.cmpi .ne v780 c0_i32_573
  let v785 : BitVec 1 := Scalar.andi v784 v781
  let v786 : BitVec 32 := Scalar.addi v780 v779
  let v787 : BitVec 32 := Scalar.select v785 v786 v780
  let c1_i32_578 : BitVec 32 := 1#32
  let v788 : BitVec 32 := Scalar.muli v787 c1_i32_578
  let v789 : BitVec 32 := Scalar.addi c0_i32_579 v788
  v789.toNat
def k0_dev32 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_582 : BitVec 32 := 2#32
  let v798 : BitVec 32 := Scalar.addi v2 c2_i32_582
  let c16_i32_583 : BitVec 32 := 16#32
  let c0_i32_584 : BitVec 32 := 0#32
  let v799 : BitVec 1 := Scalar.cmpi .eq c16_i32_583 c0_i32_584
  let c1_i32_585 : BitVec 32 := 1#32
  let v800 : BitVec 32 := Scalar.select v799 c1_i32_585 c16_i32_583
  let v801 : BitVec 32 := Scalar.remsi v798 v800
  let c0_i32_587 : BitVec 32 := 0#32
  let v803 : BitVec 1 := Scalar.cmpi .slt v801 c0_i32_587
  let c0_i32_588 : BitVec 32 := 0#32
  let v804 : BitVec 1 := Scalar.cmpi .slt v800 c0_i32_588
  let v805 : BitVec 1 := Scalar.xori v803 v804
  let c0_i32_586 : BitVec 32 := 0#32
  let v802 : BitVec 1 := Scalar.cmpi .ne v801 c0_i32_586
  let v806 : BitVec 1 := Scalar.andi v805 v802
  let v807 : BitVec 32 := Scalar.addi v801 v800
  let v808 : BitVec 32 := Scalar.select v806 v807 v801
  let c1_i32_591 : BitVec 32 := 1#32
  let v809 : BitVec 32 := Scalar.muli v808 c1_i32_591
  let v810 : BitVec 32 := Scalar.addi c0_i32_592 v809
  v810.toNat
def k0_dev33 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_595 : BitVec 32 := 3#32
  let v819 : BitVec 32 := Scalar.addi v2 c3_i32_595
  let c16_i32_596 : BitVec 32 := 16#32
  let c0_i32_597 : BitVec 32 := 0#32
  let v820 : BitVec 1 := Scalar.cmpi .eq c16_i32_596 c0_i32_597
  let c1_i32_598 : BitVec 32 := 1#32
  let v821 : BitVec 32 := Scalar.select v820 c1_i32_598 c16_i32_596
  let v822 : BitVec 32 := Scalar.remsi v819 v821
  let c0_i32_600 : BitVec 32 := 0#32
  let v824 : BitVec 1 := Scalar.cmpi .slt v822 c0_i32_600
  let c0_i32_601 : BitVec 32 := 0#32
  let v825 : BitVec 1 := Scalar.cmpi .slt v821 c0_i32_601
  let v826 : BitVec 1 := Scalar.xori v824 v825
  let c0_i32_599 : BitVec 32 := 0#32
  let v823 : BitVec 1 := Scalar.cmpi .ne v822 c0_i32_599
  let v827 : BitVec 1 := Scalar.andi v826 v823
  let v828 : BitVec 32 := Scalar.addi v822 v821
  let v829 : BitVec 32 := Scalar.select v827 v828 v822
  let c1_i32_604 : BitVec 32 := 1#32
  let v830 : BitVec 32 := Scalar.muli v829 c1_i32_604
  let v831 : BitVec 32 := Scalar.addi c0_i32_605 v830
  v831.toNat
def k0_dev34 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_608 : BitVec 32 := 4#32
  let v840 : BitVec 32 := Scalar.addi v2 c4_i32_608
  let c16_i32_609 : BitVec 32 := 16#32
  let c0_i32_610 : BitVec 32 := 0#32
  let v841 : BitVec 1 := Scalar.cmpi .eq c16_i32_609 c0_i32_610
  let c1_i32_611 : BitVec 32 := 1#32
  let v842 : BitVec 32 := Scalar.select v841 c1_i32_611 c16_i32_609
  let v843 : BitVec 32 := Scalar.remsi v840 v842
  let c0_i32_613 : BitVec 32 := 0#32
  let v845 : BitVec 1 := Scalar.cmpi .slt v843 c0_i32_613
  let c0_i32_614 : BitVec 32 := 0#32
  let v846 : BitVec 1 := Scalar.cmpi .slt v842 c0_i32_614
  let v847 : BitVec 1 := Scalar.xori v845 v846
  let c0_i32_612 : BitVec 32 := 0#32
  let v844 : BitVec 1 := Scalar.cmpi .ne v843 c0_i32_612
  let v848 : BitVec 1 := Scalar.andi v847 v844
  let v849 : BitVec 32 := Scalar.addi v843 v842
  let v850 : BitVec 32 := Scalar.select v848 v849 v843
  let c1_i32_617 : BitVec 32 := 1#32
  let v851 : BitVec 32 := Scalar.muli v850 c1_i32_617
  let v852 : BitVec 32 := Scalar.addi c0_i32_618 v851
  v852.toNat
def k0_dev35 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_621 : BitVec 32 := 5#32
  let v861 : BitVec 32 := Scalar.addi v2 c5_i32_621
  let c16_i32_622 : BitVec 32 := 16#32
  let c0_i32_623 : BitVec 32 := 0#32
  let v862 : BitVec 1 := Scalar.cmpi .eq c16_i32_622 c0_i32_623
  let c1_i32_624 : BitVec 32 := 1#32
  let v863 : BitVec 32 := Scalar.select v862 c1_i32_624 c16_i32_622
  let v864 : BitVec 32 := Scalar.remsi v861 v863
  let c0_i32_626 : BitVec 32 := 0#32
  let v866 : BitVec 1 := Scalar.cmpi .slt v864 c0_i32_626
  let c0_i32_627 : BitVec 32 := 0#32
  let v867 : BitVec 1 := Scalar.cmpi .slt v863 c0_i32_627
  let v868 : BitVec 1 := Scalar.xori v866 v867
  let c0_i32_625 : BitVec 32 := 0#32
  let v865 : BitVec 1 := Scalar.cmpi .ne v864 c0_i32_625
  let v869 : BitVec 1 := Scalar.andi v868 v865
  let v870 : BitVec 32 := Scalar.addi v864 v863
  let v871 : BitVec 32 := Scalar.select v869 v870 v864
  let c1_i32_630 : BitVec 32 := 1#32
  let v872 : BitVec 32 := Scalar.muli v871 c1_i32_630
  let v873 : BitVec 32 := Scalar.addi c0_i32_631 v872
  v873.toNat
def k0_dev36 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_634 : BitVec 32 := 6#32
  let v882 : BitVec 32 := Scalar.addi v2 c6_i32_634
  let c16_i32_635 : BitVec 32 := 16#32
  let c0_i32_636 : BitVec 32 := 0#32
  let v883 : BitVec 1 := Scalar.cmpi .eq c16_i32_635 c0_i32_636
  let c1_i32_637 : BitVec 32 := 1#32
  let v884 : BitVec 32 := Scalar.select v883 c1_i32_637 c16_i32_635
  let v885 : BitVec 32 := Scalar.remsi v882 v884
  let c0_i32_639 : BitVec 32 := 0#32
  let v887 : BitVec 1 := Scalar.cmpi .slt v885 c0_i32_639
  let c0_i32_640 : BitVec 32 := 0#32
  let v888 : BitVec 1 := Scalar.cmpi .slt v884 c0_i32_640
  let v889 : BitVec 1 := Scalar.xori v887 v888
  let c0_i32_638 : BitVec 32 := 0#32
  let v886 : BitVec 1 := Scalar.cmpi .ne v885 c0_i32_638
  let v890 : BitVec 1 := Scalar.andi v889 v886
  let v891 : BitVec 32 := Scalar.addi v885 v884
  let v892 : BitVec 32 := Scalar.select v890 v891 v885
  let c1_i32_643 : BitVec 32 := 1#32
  let v893 : BitVec 32 := Scalar.muli v892 c1_i32_643
  let v894 : BitVec 32 := Scalar.addi c0_i32_644 v893
  v894.toNat
def k0_dev37 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_647 : BitVec 32 := 7#32
  let v903 : BitVec 32 := Scalar.addi v2 c7_i32_647
  let c16_i32_648 : BitVec 32 := 16#32
  let c0_i32_649 : BitVec 32 := 0#32
  let v904 : BitVec 1 := Scalar.cmpi .eq c16_i32_648 c0_i32_649
  let c1_i32_650 : BitVec 32 := 1#32
  let v905 : BitVec 32 := Scalar.select v904 c1_i32_650 c16_i32_648
  let v906 : BitVec 32 := Scalar.remsi v903 v905
  let c0_i32_652 : BitVec 32 := 0#32
  let v908 : BitVec 1 := Scalar.cmpi .slt v906 c0_i32_652
  let c0_i32_653 : BitVec 32 := 0#32
  let v909 : BitVec 1 := Scalar.cmpi .slt v905 c0_i32_653
  let v910 : BitVec 1 := Scalar.xori v908 v909
  let c0_i32_651 : BitVec 32 := 0#32
  let v907 : BitVec 1 := Scalar.cmpi .ne v906 c0_i32_651
  let v911 : BitVec 1 := Scalar.andi v910 v907
  let v912 : BitVec 32 := Scalar.addi v906 v905
  let v913 : BitVec 32 := Scalar.select v911 v912 v906
  let c1_i32_656 : BitVec 32 := 1#32
  let v914 : BitVec 32 := Scalar.muli v913 c1_i32_656
  let v915 : BitVec 32 := Scalar.addi c0_i32_657 v914
  v915.toNat
def k0_dev38 (d0 : Dev nD) : Nat :=
  let c0_i32_670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_660 : BitVec 32 := 8#32
  let v924 : BitVec 32 := Scalar.addi v2 c8_i32_660
  let c16_i32_661 : BitVec 32 := 16#32
  let c0_i32_662 : BitVec 32 := 0#32
  let v925 : BitVec 1 := Scalar.cmpi .eq c16_i32_661 c0_i32_662
  let c1_i32_663 : BitVec 32 := 1#32
  let v926 : BitVec 32 := Scalar.select v925 c1_i32_663 c16_i32_661
  let v927 : BitVec 32 := Scalar.remsi v924 v926
  let c0_i32_665 : BitVec 32 := 0#32
  let v929 : BitVec 1 := Scalar.cmpi .slt v927 c0_i32_665
  let c0_i32_666 : BitVec 32 := 0#32
  let v930 : BitVec 1 := Scalar.cmpi .slt v926 c0_i32_666
  let v931 : BitVec 1 := Scalar.xori v929 v930
  let c0_i32_664 : BitVec 32 := 0#32
  let v928 : BitVec 1 := Scalar.cmpi .ne v927 c0_i32_664
  let v932 : BitVec 1 := Scalar.andi v931 v928
  let v933 : BitVec 32 := Scalar.addi v927 v926
  let v934 : BitVec 32 := Scalar.select v932 v933 v927
  let c1_i32_669 : BitVec 32 := 1#32
  let v935 : BitVec 32 := Scalar.muli v934 c1_i32_669
  let v936 : BitVec 32 := Scalar.addi c0_i32_670 v935
  v936.toNat
def k0_dev39 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_673 : BitVec 32 := 9#32
  let v945 : BitVec 32 := Scalar.addi v2 c9_i32_673
  let c16_i32_674 : BitVec 32 := 16#32
  let c0_i32_675 : BitVec 32 := 0#32
  let v946 : BitVec 1 := Scalar.cmpi .eq c16_i32_674 c0_i32_675
  let c1_i32_676 : BitVec 32 := 1#32
  let v947 : BitVec 32 := Scalar.select v946 c1_i32_676 c16_i32_674
  let v948 : BitVec 32 := Scalar.remsi v945 v947
  let c0_i32_678 : BitVec 32 := 0#32
  let v950 : BitVec 1 := Scalar.cmpi .slt v948 c0_i32_678
  let c0_i32_679 : BitVec 32 := 0#32
  let v951 : BitVec 1 := Scalar.cmpi .slt v947 c0_i32_679
  let v952 : BitVec 1 := Scalar.xori v950 v951
  let c0_i32_677 : BitVec 32 := 0#32
  let v949 : BitVec 1 := Scalar.cmpi .ne v948 c0_i32_677
  let v953 : BitVec 1 := Scalar.andi v952 v949
  let v954 : BitVec 32 := Scalar.addi v948 v947
  let v955 : BitVec 32 := Scalar.select v953 v954 v948
  let c1_i32_682 : BitVec 32 := 1#32
  let v956 : BitVec 32 := Scalar.muli v955 c1_i32_682
  let v957 : BitVec 32 := Scalar.addi c0_i32_683 v956
  v957.toNat
def k0_dev40 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_686 : BitVec 32 := 10#32
  let v966 : BitVec 32 := Scalar.addi v2 c10_i32_686
  let c16_i32_687 : BitVec 32 := 16#32
  let c0_i32_688 : BitVec 32 := 0#32
  let v967 : BitVec 1 := Scalar.cmpi .eq c16_i32_687 c0_i32_688
  let c1_i32_689 : BitVec 32 := 1#32
  let v968 : BitVec 32 := Scalar.select v967 c1_i32_689 c16_i32_687
  let v969 : BitVec 32 := Scalar.remsi v966 v968
  let c0_i32_691 : BitVec 32 := 0#32
  let v971 : BitVec 1 := Scalar.cmpi .slt v969 c0_i32_691
  let c0_i32_692 : BitVec 32 := 0#32
  let v972 : BitVec 1 := Scalar.cmpi .slt v968 c0_i32_692
  let v973 : BitVec 1 := Scalar.xori v971 v972
  let c0_i32_690 : BitVec 32 := 0#32
  let v970 : BitVec 1 := Scalar.cmpi .ne v969 c0_i32_690
  let v974 : BitVec 1 := Scalar.andi v973 v970
  let v975 : BitVec 32 := Scalar.addi v969 v968
  let v976 : BitVec 32 := Scalar.select v974 v975 v969
  let c1_i32_695 : BitVec 32 := 1#32
  let v977 : BitVec 32 := Scalar.muli v976 c1_i32_695
  let v978 : BitVec 32 := Scalar.addi c0_i32_696 v977
  v978.toNat
def k0_dev41 (d0 : Dev nD) : Nat :=
  let c0_i32_709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_699 : BitVec 32 := 11#32
  let v987 : BitVec 32 := Scalar.addi v2 c11_i32_699
  let c16_i32_700 : BitVec 32 := 16#32
  let c0_i32_701 : BitVec 32 := 0#32
  let v988 : BitVec 1 := Scalar.cmpi .eq c16_i32_700 c0_i32_701
  let c1_i32_702 : BitVec 32 := 1#32
  let v989 : BitVec 32 := Scalar.select v988 c1_i32_702 c16_i32_700
  let v990 : BitVec 32 := Scalar.remsi v987 v989
  let c0_i32_704 : BitVec 32 := 0#32
  let v992 : BitVec 1 := Scalar.cmpi .slt v990 c0_i32_704
  let c0_i32_705 : BitVec 32 := 0#32
  let v993 : BitVec 1 := Scalar.cmpi .slt v989 c0_i32_705
  let v994 : BitVec 1 := Scalar.xori v992 v993
  let c0_i32_703 : BitVec 32 := 0#32
  let v991 : BitVec 1 := Scalar.cmpi .ne v990 c0_i32_703
  let v995 : BitVec 1 := Scalar.andi v994 v991
  let v996 : BitVec 32 := Scalar.addi v990 v989
  let v997 : BitVec 32 := Scalar.select v995 v996 v990
  let c1_i32_708 : BitVec 32 := 1#32
  let v998 : BitVec 32 := Scalar.muli v997 c1_i32_708
  let v999 : BitVec 32 := Scalar.addi c0_i32_709 v998
  v999.toNat
def k0_dev42 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_712 : BitVec 32 := 12#32
  let v1008 : BitVec 32 := Scalar.addi v2 c12_i32_712
  let c16_i32_713 : BitVec 32 := 16#32
  let c0_i32_714 : BitVec 32 := 0#32
  let v1009 : BitVec 1 := Scalar.cmpi .eq c16_i32_713 c0_i32_714
  let c1_i32_715 : BitVec 32 := 1#32
  let v1010 : BitVec 32 := Scalar.select v1009 c1_i32_715 c16_i32_713
  let v1011 : BitVec 32 := Scalar.remsi v1008 v1010
  let c0_i32_717 : BitVec 32 := 0#32
  let v1013 : BitVec 1 := Scalar.cmpi .slt v1011 c0_i32_717
  let c0_i32_718 : BitVec 32 := 0#32
  let v1014 : BitVec 1 := Scalar.cmpi .slt v1010 c0_i32_718
  let v1015 : BitVec 1 := Scalar.xori v1013 v1014
  let c0_i32_716 : BitVec 32 := 0#32
  let v1012 : BitVec 1 := Scalar.cmpi .ne v1011 c0_i32_716
  let v1016 : BitVec 1 := Scalar.andi v1015 v1012
  let v1017 : BitVec 32 := Scalar.addi v1011 v1010
  let v1018 : BitVec 32 := Scalar.select v1016 v1017 v1011
  let c1_i32_721 : BitVec 32 := 1#32
  let v1019 : BitVec 32 := Scalar.muli v1018 c1_i32_721
  let v1020 : BitVec 32 := Scalar.addi c0_i32_722 v1019
  v1020.toNat
def k0_dev43 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_725 : BitVec 32 := 13#32
  let v1029 : BitVec 32 := Scalar.addi v2 c13_i32_725
  let c16_i32_726 : BitVec 32 := 16#32
  let c0_i32_727 : BitVec 32 := 0#32
  let v1030 : BitVec 1 := Scalar.cmpi .eq c16_i32_726 c0_i32_727
  let c1_i32_728 : BitVec 32 := 1#32
  let v1031 : BitVec 32 := Scalar.select v1030 c1_i32_728 c16_i32_726
  let v1032 : BitVec 32 := Scalar.remsi v1029 v1031
  let c0_i32_730 : BitVec 32 := 0#32
  let v1034 : BitVec 1 := Scalar.cmpi .slt v1032 c0_i32_730
  let c0_i32_731 : BitVec 32 := 0#32
  let v1035 : BitVec 1 := Scalar.cmpi .slt v1031 c0_i32_731
  let v1036 : BitVec 1 := Scalar.xori v1034 v1035
  let c0_i32_729 : BitVec 32 := 0#32
  let v1033 : BitVec 1 := Scalar.cmpi .ne v1032 c0_i32_729
  let v1037 : BitVec 1 := Scalar.andi v1036 v1033
  let v1038 : BitVec 32 := Scalar.addi v1032 v1031
  let v1039 : BitVec 32 := Scalar.select v1037 v1038 v1032
  let c1_i32_734 : BitVec 32 := 1#32
  let v1040 : BitVec 32 := Scalar.muli v1039 c1_i32_734
  let v1041 : BitVec 32 := Scalar.addi c0_i32_735 v1040
  v1041.toNat
def k0_dev44 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_738 : BitVec 32 := 14#32
  let v1050 : BitVec 32 := Scalar.addi v2 c14_i32_738
  let c16_i32_739 : BitVec 32 := 16#32
  let c0_i32_740 : BitVec 32 := 0#32
  let v1051 : BitVec 1 := Scalar.cmpi .eq c16_i32_739 c0_i32_740
  let c1_i32_741 : BitVec 32 := 1#32
  let v1052 : BitVec 32 := Scalar.select v1051 c1_i32_741 c16_i32_739
  let v1053 : BitVec 32 := Scalar.remsi v1050 v1052
  let c0_i32_743 : BitVec 32 := 0#32
  let v1055 : BitVec 1 := Scalar.cmpi .slt v1053 c0_i32_743
  let c0_i32_744 : BitVec 32 := 0#32
  let v1056 : BitVec 1 := Scalar.cmpi .slt v1052 c0_i32_744
  let v1057 : BitVec 1 := Scalar.xori v1055 v1056
  let c0_i32_742 : BitVec 32 := 0#32
  let v1054 : BitVec 1 := Scalar.cmpi .ne v1053 c0_i32_742
  let v1058 : BitVec 1 := Scalar.andi v1057 v1054
  let v1059 : BitVec 32 := Scalar.addi v1053 v1052
  let v1060 : BitVec 32 := Scalar.select v1058 v1059 v1053
  let c1_i32_747 : BitVec 32 := 1#32
  let v1061 : BitVec 32 := Scalar.muli v1060 c1_i32_747
  let v1062 : BitVec 32 := Scalar.addi c0_i32_748 v1061
  v1062.toNat
def k0_dev45 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_751 : BitVec 32 := 15#32
  let v1071 : BitVec 32 := Scalar.addi v2 c15_i32_751
  let c16_i32_752 : BitVec 32 := 16#32
  let c0_i32_753 : BitVec 32 := 0#32
  let v1072 : BitVec 1 := Scalar.cmpi .eq c16_i32_752 c0_i32_753
  let c1_i32_754 : BitVec 32 := 1#32
  let v1073 : BitVec 32 := Scalar.select v1072 c1_i32_754 c16_i32_752
  let v1074 : BitVec 32 := Scalar.remsi v1071 v1073
  let c0_i32_756 : BitVec 32 := 0#32
  let v1076 : BitVec 1 := Scalar.cmpi .slt v1074 c0_i32_756
  let c0_i32_757 : BitVec 32 := 0#32
  let v1077 : BitVec 1 := Scalar.cmpi .slt v1073 c0_i32_757
  let v1078 : BitVec 1 := Scalar.xori v1076 v1077
  let c0_i32_755 : BitVec 32 := 0#32
  let v1075 : BitVec 1 := Scalar.cmpi .ne v1074 c0_i32_755
  let v1079 : BitVec 1 := Scalar.andi v1078 v1075
  let v1080 : BitVec 32 := Scalar.addi v1074 v1073
  let v1081 : BitVec 32 := Scalar.select v1079 v1080 v1074
  let c1_i32_760 : BitVec 32 := 1#32
  let v1082 : BitVec 32 := Scalar.muli v1081 c1_i32_760
  let v1083 : BitVec 32 := Scalar.addi c0_i32_761 v1082
  v1083.toNat
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  slices_S4x256_o3_0_S1x256 : S4x256.Slices ![3, 0] S1x256
  shapeCasts_S1x256_S1x1x256 : S1x256.ShapeCasts S1x1x256
  broadcasts_S1x1x256_S4x512x256 : S1x1x256.Broadcasts S4x512x256
  slices_S4x512x256_o0_0_0_S4x509x256 : S4x512x256.Slices ![0, 0, 0] S4x509x256
  concatenates_S4x3x256_S4x509x256_S4x512x256_d1 : Shape.Concatenates [S4x3x256, S4x509x256] S4x512x256 1
  slices_S4x256_o0_0_S1x256 : S4x256.Slices ![0, 0] S1x256
  slices_S4x512x256_o0_0_0_S4x510x256 : S4x512x256.Slices ![0, 0, 0] S4x510x256
  concatenates_S4x2x256_S4x510x256_S4x512x256_d1 : Shape.Concatenates [S4x2x256, S4x510x256] S4x512x256 1
  slices_S4x256_o1_0_S1x256 : S4x256.Slices ![1, 0] S1x256
  slices_S4x512x256_o0_0_0_S4x511x256 : S4x512x256.Slices ![0, 0, 0] S4x511x256
  concatenates_S4x1x256_S4x511x256_S4x512x256_d1 : Shape.Concatenates [S4x1x256, S4x511x256] S4x512x256 1
  slices_S4x256_o2_0_S1x256 : S4x256.Slices ![2, 0] S1x256
  shapeCasts_S4x512x256_S2048x256 : S4x512x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S2048x256_S16x128x256 : S2048x256.ShapeCasts S16x128x256
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  packedbf16_S16x128x256_S16x128x256_0_0_0 : (Rect.unit (s := S16x128x256) ![0, 0, 0] S16x128x256.size inb_S16x128x256_S16x128x256_0_0_0).PackedRows (EltTy.packing .bf16)
  hamt_15 : (15#32 : BitVec 32).msb = false
  inb_S16_S1_1 : ∀ a, (![1] : Fin 1 → Nat) a + S1.size a ≤ S16.size a
  squeezes_S1_S_ : S1.Squeezes S_
  inb_S16x128x256_S1x128x256_1_0_0 : ∀ a, (![1, 0, 0] : Fin 3 → Nat) a + S1x128x256.size a ≤ S16x128x256.size a
  squeezes_S1x128x256_S128x256 : S1x128x256.Squeezes S128x256
  wordsbf16_S16x128x256_S1x128x256_1_0_0 : (Rect.unit (s := S16x128x256) ![1, 0, 0] S1x128x256.size inb_S16x128x256_S1x128x256_1_0_0).WholeWords (EltTy.packing .bf16)
  inb_S16_S1_2 : ∀ a, (![2] : Fin 1 → Nat) a + S1.size a ≤ S16.size a
  inb_S16x128x256_S1x128x256_2_0_0 : ∀ a, (![2, 0, 0] : Fin 3 → Nat) a + S1x128x256.size a ≤ S16x128x256.size a
  wordsbf16_S16x128x256_S1x128x256_2_0_0 : (Rect.unit (s := S16x128x256) ![2, 0, 0] S1x128x256.size inb_S16x128x256_S1x128x256_2_0_0).WholeWords (EltTy.packing .bf16)
  inb_S16_S1_3 : ∀ a, (![3] : Fin 1 → Nat) a + S1.size a ≤ S16.size a
  inb_S16x128x256_S1x128x256_3_0_0 : ∀ a, (![3, 0, 0] : Fin 3 → Nat) a + S1x128x256.size a ≤ S16x128x256.size a
  wordsbf16_S16x128x256_S1x128x256_3_0_0 : (Rect.unit (s := S16x128x256) ![3, 0, 0] S1x128x256.size inb_S16x128x256_S1x128x256_3_0_0).WholeWords (EltTy.packing .bf16)
  inb_S16_S1_4 : ∀ a, (![4] : Fin 1 → Nat) a + S1.size a ≤ S16.size a
  inb_S16x128x256_S1x128x256_4_0_0 : ∀ a, (![4, 0, 0] : Fin 3 → Nat) a + S1x128x256.size a ≤ S16x128x256.size a
  wordsbf16_S16x128x256_S1x128x256_4_0_0 : (Rect.unit (s := S16x128x256) ![4, 0, 0] S1x128x256.size inb_S16x128x256_S1x128x256_4_0_0).WholeWords (EltTy.packing .bf16)
  inb_S16_S1_5 : ∀ a, (![5] : Fin 1 → Nat) a + S1.size a ≤ S16.size a
  inb_S16x128x256_S1x128x256_5_0_0 : ∀ a, (![5, 0, 0] : Fin 3 → Nat) a + S1x128x256.size a ≤ S16x128x256.size a
  wordsbf16_S16x128x256_S1x128x256_5_0_0 : (Rect.unit (s := S16x128x256) ![5, 0, 0] S1x128x256.size inb_S16x128x256_S1x128x256_5_0_0).WholeWords (EltTy.packing .bf16)
  inb_S16_S1_6 : ∀ a, (![6] : Fin 1 → Nat) a + S1.size a ≤ S16.size a
  inb_S16x128x256_S1x128x256_6_0_0 : ∀ a, (![6, 0, 0] : Fin 3 → Nat) a + S1x128x256.size a ≤ S16x128x256.size a
  wordsbf16_S16x128x256_S1x128x256_6_0_0 : (Rect.unit (s := S16x128x256) ![6, 0, 0] S1x128x256.size inb_S16x128x256_S1x128x256_6_0_0).WholeWords (EltTy.packing .bf16)
  inb_S16_S1_7 : ∀ a, (![7] : Fin 1 → Nat) a + S1.size a ≤ S16.size a
  inb_S16x128x256_S1x128x256_7_0_0 : ∀ a, (![7, 0, 0] : Fin 3 → Nat) a + S1x128x256.size a ≤ S16x128x256.size a
  wordsbf16_S16x128x256_S1x128x256_7_0_0 : (Rect.unit (s := S16x128x256) ![7, 0, 0] S1x128x256.size inb_S16x128x256_S1x128x256_7_0_0).WholeWords (EltTy.packing .bf16)
  inb_S16_S1_8 : ∀ a, (![8] : Fin 1 → Nat) a + S1.size a ≤ S16.size a
  inb_S16x128x256_S1x128x256_8_0_0 : ∀ a, (![8, 0, 0] : Fin 3 → Nat) a + S1x128x256.size a ≤ S16x128x256.size a
  wordsbf16_S16x128x256_S1x128x256_8_0_0 : (Rect.unit (s := S16x128x256) ![8, 0, 0] S1x128x256.size inb_S16x128x256_S1x128x256_8_0_0).WholeWords (EltTy.packing .bf16)
  inb_S16_S1_9 : ∀ a, (![9] : Fin 1 → Nat) a + S1.size a ≤ S16.size a
  inb_S16x128x256_S1x128x256_9_0_0 : ∀ a, (![9, 0, 0] : Fin 3 → Nat) a + S1x128x256.size a ≤ S16x128x256.size a
  wordsbf16_S16x128x256_S1x128x256_9_0_0 : (Rect.unit (s := S16x128x256) ![9, 0, 0] S1x128x256.size inb_S16x128x256_S1x128x256_9_0_0).WholeWords (EltTy.packing .bf16)
  inb_S16_S1_10 : ∀ a, (![10] : Fin 1 → Nat) a + S1.size a ≤ S16.size a
  inb_S16x128x256_S1x128x256_10_0_0 : ∀ a, (![10, 0, 0] : Fin 3 → Nat) a + S1x128x256.size a ≤ S16x128x256.size a
  wordsbf16_S16x128x256_S1x128x256_10_0_0 : (Rect.unit (s := S16x128x256) ![10, 0, 0] S1x128x256.size inb_S16x128x256_S1x128x256_10_0_0).WholeWords (EltTy.packing .bf16)
  inb_S16_S1_11 : ∀ a, (![11] : Fin 1 → Nat) a + S1.size a ≤ S16.size a
  inb_S16x128x256_S1x128x256_11_0_0 : ∀ a, (![11, 0, 0] : Fin 3 → Nat) a + S1x128x256.size a ≤ S16x128x256.size a
  wordsbf16_S16x128x256_S1x128x256_11_0_0 : (Rect.unit (s := S16x128x256) ![11, 0, 0] S1x128x256.size inb_S16x128x256_S1x128x256_11_0_0).WholeWords (EltTy.packing .bf16)
  inb_S16_S1_12 : ∀ a, (![12] : Fin 1 → Nat) a + S1.size a ≤ S16.size a
  inb_S16x128x256_S1x128x256_12_0_0 : ∀ a, (![12, 0, 0] : Fin 3 → Nat) a + S1x128x256.size a ≤ S16x128x256.size a
  wordsbf16_S16x128x256_S1x128x256_12_0_0 : (Rect.unit (s := S16x128x256) ![12, 0, 0] S1x128x256.size inb_S16x128x256_S1x128x256_12_0_0).WholeWords (EltTy.packing .bf16)
  inb_S16_S1_13 : ∀ a, (![13] : Fin 1 → Nat) a + S1.size a ≤ S16.size a
  inb_S16x128x256_S1x128x256_13_0_0 : ∀ a, (![13, 0, 0] : Fin 3 → Nat) a + S1x128x256.size a ≤ S16x128x256.size a
  wordsbf16_S16x128x256_S1x128x256_13_0_0 : (Rect.unit (s := S16x128x256) ![13, 0, 0] S1x128x256.size inb_S16x128x256_S1x128x256_13_0_0).WholeWords (EltTy.packing .bf16)
  inb_S16_S1_14 : ∀ a, (![14] : Fin 1 → Nat) a + S1.size a ≤ S16.size a
  inb_S16x128x256_S1x128x256_14_0_0 : ∀ a, (![14, 0, 0] : Fin 3 → Nat) a + S1x128x256.size a ≤ S16x128x256.size a
  wordsbf16_S16x128x256_S1x128x256_14_0_0 : (Rect.unit (s := S16x128x256) ![14, 0, 0] S1x128x256.size inb_S16x128x256_S1x128x256_14_0_0).WholeWords (EltTy.packing .bf16)
  inb_S16_S1_15 : ∀ a, (![15] : Fin 1 → Nat) a + S1.size a ≤ S16.size a
  inb_S16x128x256_S1x128x256_15_0_0 : ∀ a, (![15, 0, 0] : Fin 3 → Nat) a + S1x128x256.size a ≤ S16x128x256.size a
  wordsbf16_S16x128x256_S1x128x256_15_0_0 : (Rect.unit (s := S16x128x256) ![15, 0, 0] S1x128x256.size inb_S16x128x256_S1x128x256_15_0_0).WholeWords (EltTy.packing .bf16)
  h_S1x128x256 : 0 < S1x128x256.numel
  shapeCasts_S1x128x256_S128x256 : S1x128x256.ShapeCasts S128x256
  shapeCasts_S128x256_S1x128x256 : S128x256.ShapeCasts S1x128x256
  dot_S2048x256_S256x256_S2048x256_1_0_0_1_n_n_wf : DotDims.WF S2048x256 S256x256 S2048x256 [1] [0] [0] [1] [] []
  hcc0_scratch2 : 4 + S16.numel ≤ 68
  hcc0_scratch3 : 20 + S16.numel ≤ 68
  hcc0_scratch4 : 36 + S16.numel ≤ 68
  hcc0_scratch5 : 52 + S16.numel ≤ 68
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ (r : Fin 15), ∀ a, (k0_off1 d0 (BitVec.ofNat 32 (1 + r.val))) a + S1x128x256.size a ≤ S16x128x256.size a
  k0_off1_wordsbf16 : ∀ d0 : Dev nD, ∀ (r : Fin 15), (Rect.unit (s := S16x128x256) (k0_off1 d0 (BitVec.ofNat 32 (1 + r.val))) S1x128x256.size (k0_off1_inb d0 r)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off2_inb : ∀ d0 : Dev nD, ∀ a, (k0_off2 d0) a + S1x128x256.size a ≤ S16x128x256.size a
  k0_off3_inb : ∀ d0 : Dev nD, ∀ a, (k0_off3 d0) a + S1x128x256.size a ≤ S4x512x256.size a
  k0_off3_packedbf16 : ∀ d0 : Dev nD, (Rect.unit (s := S4x512x256) (k0_off3 d0) S1x128x256.size (k0_off3_inb d0)).PackedRows (EltTy.packing .bf16)
  k0_off4_inb : ∀ d0 : Dev nD, ∀ a, (k0_off4 d0) a + S1x128x256.size a ≤ S4x512x256.size a
  k0_off4_wordsbf16 : ∀ d0 : Dev nD, (Rect.unit (s := S4x512x256) (k0_off4 d0) S1x128x256.size (k0_off4_inb d0)).WholeWords (EltTy.packing .bf16)
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch2 : DmaSems sig S16 := SemArray.consecutive 4 S16 hcc0_scratch2
abbrev cc0_scratch3 : DmaSems sig S16 := SemArray.consecutive 20 S16 hcc0_scratch3
abbrev cc0_scratch4 : DmaSems sig S16 := SemArray.consecutive 36 S16 hcc0_scratch4
abbrev cc0_scratch5 : DmaSems sig S16 := SemArray.consecutive 52 S16 hcc0_scratch5
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x512x4096 : Shape := ⟨3, ![4, 512, 4096]⟩
abbrev S4x4096 : Shape := ⟨2, ![4, 4096]⟩
abbrev S4096x256 : Shape := ⟨2, ![4096, 256]⟩
abbrev S_ : Shape := ⟨0, ![]⟩
abbrev S4x3x4096 : Shape := ⟨3, ![4, 3, 4096]⟩
abbrev S4x515x4096 : Shape := ⟨3, ![4, 515, 4096]⟩
abbrev S1x4096 : Shape := ⟨2, ![1, 4096]⟩
abbrev S4096 : Shape := ⟨1, ![4096]⟩
abbrev S1x1x4096 : Shape := ⟨3, ![1, 1, 4096]⟩
abbrev S4x512x256 : Shape := ⟨3, ![4, 512, 256]⟩

abbrev nBuf : Space → Nat
  | .hbm => 44
  | .vmem => 0
  | .smem => 0
  | _ => 0

abbrev bufTy : (tb : Table) → Fin (tcTables nBuf tb) → BufTy
  | .hbm, ⟨0, _⟩ => ⟨S4x512x4096, .f32⟩
  | .hbm, ⟨1, _⟩ => ⟨S4x4096, .f32⟩
  | .hbm, ⟨2, _⟩ => ⟨S4096x256, .f32⟩
  | .hbm, ⟨3, _⟩ => ⟨S_, .f32⟩
  | .hbm, ⟨4, _⟩ => ⟨S4x3x4096, .f32⟩
  | .hbm, ⟨5, _⟩ => ⟨S4x515x4096, .f32⟩
  | .hbm, ⟨6, _⟩ => ⟨S_, .f32⟩
  | .hbm, ⟨7, _⟩ => ⟨S4x512x4096, .f32⟩
  | .hbm, ⟨8, _⟩ => ⟨S4x512x4096, .f32⟩
  | .hbm, ⟨9, _⟩ => ⟨S1x4096, .f32⟩
  | .hbm, ⟨10, _⟩ => ⟨S4096, .f32⟩
  | .hbm, ⟨11, _⟩ => ⟨S1x1x4096, .f32⟩
  | .hbm, ⟨12, _⟩ => ⟨S4x512x4096, .f32⟩
  | .hbm, ⟨13, _⟩ => ⟨S4x512x4096, .f32⟩
  | .hbm, ⟨14, _⟩ => ⟨S4x512x4096, .f32⟩
  | .hbm, ⟨15, _⟩ => ⟨S4x512x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S4x512x4096, .f32⟩
  | .hbm, ⟨20, _⟩ => ⟨S4x512x4096, .f32⟩
  | .hbm, ⟨21, _⟩ => ⟨S4x512x4096, .f32⟩
  | .hbm, ⟨22, _⟩ => ⟨S4x512x4096, .f32⟩
  | .hbm, ⟨23, _⟩ => ⟨S1x4096, .f32⟩
  | .hbm, ⟨24, _⟩ => ⟨S4096, .f32⟩
  | .hbm, ⟨25, _⟩ => ⟨S1x1x4096, .f32⟩
  | .hbm, ⟨26, _⟩ => ⟨S4x512x4096, .f32⟩
  | .hbm, ⟨27, _⟩ => ⟨S4x512x4096, .f32⟩
  | .hbm, ⟨28, _⟩ => ⟨S4x512x4096, .f32⟩
  | .hbm, ⟨29, _⟩ => ⟨S4x512x4096, .f32⟩
  | .hbm, ⟨30, _⟩ => ⟨S1x4096, .f32⟩
  | .hbm, ⟨31, _⟩ => ⟨S4096, .f32⟩
  | .hbm, ⟨32, _⟩ => ⟨S1x1x4096, .f32⟩
  | .hbm, ⟨33, _⟩ => ⟨S4x512x4096, .f32⟩
  | .hbm, ⟨34, _⟩ => ⟨S4x512x4096, .f32⟩
  | .hbm, ⟨35, _⟩ => ⟨S4x512x4096, .f32⟩
  | .hbm, ⟨36, _⟩ => ⟨S4x512x4096, .f32⟩
  | .hbm, ⟨37, _⟩ => ⟨S4x512x4096, .f32⟩
  | .hbm, ⟨38, _⟩ => ⟨S_, .f32⟩
  | .hbm, ⟨39, _⟩ => ⟨S4x512x4096, .f32⟩
  | .hbm, ⟨40, _⟩ => ⟨S4x512x4096, .f32⟩
  | .hbm, ⟨41, _⟩ => ⟨S4x512x4096, .f32⟩
  | .hbm, ⟨42, _⟩ => ⟨S4x512x256, .f32⟩
  | .hbm, ⟨43, _⟩ => ⟨S4x512x256, .bf16⟩
  | _, _ => ⟨S4x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]

class Facts₀ : Prop where
  bcast_S_S4x3x4096 : S_.BroadcastsInDim S4x3x4096 (![] : Fin 0 → Fin S4x3x4096.rank)
  concatenates_S4x3x4096_S4x512x4096_S4x515x4096_d1 : Shape.Concatenates [S4x3x4096, S4x512x4096] S4x515x4096 1
  bcast_S_S4x512x4096 : S_.BroadcastsInDim S4x512x4096 (![] : Fin 0 → Fin S4x512x4096.rank)
  slices_S4x515x4096_S4x512x4096_0_0_0 : S4x515x4096.Slices ![0, 0, 0] S4x512x4096
  slices_S4x4096_S1x4096_0_0 : S4x4096.Slices ![0, 0] S1x4096
  shapeCasts_S1x4096_S4096 : S1x4096.ShapeCasts S4096
  bcast_S4096_S1x1x4096_2 : S4096.BroadcastsInDim S1x1x4096 (![2] : Fin 1 → Fin S1x1x4096.rank)
  bcast_S1x1x4096_S4x512x4096_0_1_2 : S1x1x4096.BroadcastsInDim S4x512x4096 (![0, 1, 2] : Fin 3 → Fin S4x512x4096.rank)
  slices_S4x515x4096_S4x512x4096_0_1_0 : S4x515x4096.Slices ![0, 1, 0] S4x512x4096
  slices_S4x4096_S1x4096_1_0 : S4x4096.Slices ![1, 0] S1x4096
  slices_S4x515x4096_S4x512x4096_0_2_0 : S4x515x4096.Slices ![0, 2, 0] S4x512x4096
  slices_S4x4096_S1x4096_2_0 : S4x4096.Slices ![2, 0] S1x4096
  slices_S4x515x4096_S4x512x4096_0_3_0 : S4x515x4096.Slices ![0, 3, 0] S4x512x4096
  slices_S4x4096_S1x4096_3_0 : S4x4096.Slices ![3, 0] S1x4096
  bitsLt_bf16_f32 : FTy.bits .bf16 < FTy.bits .f32
  dot_S4x512x4096_S4096x256_S4x512x256_2_0_01_1_n_n_wf : DotDims.WF S4x512x4096 S4096x256 S4x512x256 [2] [0] [0, 1] [1] [] []

variable [Facts₀]

def dot_S4x512x4096_S4096x256_S4x512x256_2_0_01_1_n_n : DotDims S4x512x4096 S4096x256 S4x512x256 where
  lhsContracting := [2]
  rhsContracting := [0]
  lhsNonContracting := [0, 1]
  rhsNonContracting := [1]
  lhsBatch := []
  rhsBatch := []
  wf := dot_S4x512x4096_S4096x256_S4x512x256_2_0_01_1_n_n_wf

class Facts : Prop extends Facts₀ where

variable [Facts]
-- ==== Proof.RefFrame.lean ====
/-
  Two of the five conjuncts that need nothing of the kernel.
  The reference is a straight-line host program: its run terminates with the result at the composed term of its
  arguments and the arguments unchanged, so its frame is that run with the result forgotten.
  The idealized kernel is the kernel's own text read over the extended reals: no operation was rewritten, and the
  statement that the idealization is sanctioned has no conjunct.
-/
import proofs.«900432_g7700000000000433_dist_gconv1d_cshard_i_b4_s512_c256_v7x_i16_bf16_1_alg».proof.Defs
import proofs.«900432_g7700000000000433_dist_gconv1d_cshard_i_b4_s512_c256_v7x_i16_bf16_1_alg».proof.Proof.Gen.ReferenceIdeal
import proofs.«900432_g7700000000000433_dist_gconv1d_cshard_i_b4_s512_c256_v7x_i16_bf16_1_alg».proof.Proof.Gen.Pre_finite_inputs_ReferenceIdeal
import proofs.«900432_g7700000000000433_dist_gconv1d_cshard_i_b4_s512_c256_v7x_i16_bf16_1_alg».proof.Proof.Gen.ReferenceIdeal.Run

noncomputable section

namespace Cert.Proof.RefClaims

open Idealize.ShloMosaic Idealize.SL.Sem

/-- The reference runs to the end from any memory with zero counters, faults nowhere and leaves its three argument
    arrays as they were: the run's post without its first conjunct (the result's value). -/
theorem frame_ref [hR : Cert.ReferenceIdeal.Facts] [hP : Cert.Pre_finite_inputs_ReferenceIdeal.Facts] :
    Cert.frame_ReferenceIdeal := fun m ρ _ =>
  (θ_run Cert.ReferenceIdeal.defs _ _).mono (fun _ h c => (h c).2) (Cert.ReferenceIdeal.Value.run (F := Ideal) m ρ)

/-- No rewrite was applied when the kernel was idealized. -/
theorem preserves : Cert.preserves_Kernel_KernelIdeal := trivial

end Cert.Proof.RefClaims

end
-- ==== Proof.RefImports.lean ====
/-
  The reference's run and its read-at-an-index lemmas, gathered under one import.
-/
import proofs.«900432_g7700000000000433_dist_gconv1d_cshard_i_b4_s512_c256_v7x_i16_bf16_1_alg».proof.Proof.Gen.ReferenceIdeal.Run
import proofs.«900432_g7700000000000433_dist_gconv1d_cshard_i_b4_s512_c256_v7x_i16_bf16_1_alg».proof.Proof.Gen.ReferenceIdeal.Read
-- ==== Proof.Spec.lean ====
/-
  A gated causal convolution followed by a projection, as pure functions over the extended reals.

  For an input `x : [4, 512, C]`, taps `k : [4, C]` and a matrix `w : [C, 256]`:
    conv[b, s, c] = Σ_{t < 4} xpad[b, s + t - 3, c] · k[t, c]      (xpad: three zero rows in front along `s`)
    a[b, s, c]    = gate (conv[b, s, c]),   gate v = v · logistic v
    out[b, s, h]  = Σ_{c < C} a[b, s, c] · w[c, h].
  `partialAt` is `out` for `C = 256` (one device's share of the channels), `wholeAt` for `C = 4096`.
-/
import Idealize.ShloMosaic.PureOps.Ideal
import Idealize.ShloMosaic.Lib.ValueIdx

noncomputable section

open scoped BigOperators

namespace Cert.GatedConv

open Idealize.ShloMosaic Idealize.ShloMosaic.ValueIdx

/-- The zero-padded input read by tap `t` at position `s`: `x[b, s + t - 3, c]`, and `0` where `s + t < 3`. -/
def padAt {C : Nat} (x : (⟨3, ![4, 512, C]⟩ : Shape).Idx → EReal) (b : Fin 4) (s : Fin 512) (t : Fin 4) (c : Fin C) : EReal :=
  if h : 3 ≤ s.val + t.val then x (ix3 b ⟨s.val + t.val - 3, by omega⟩ c) else 0

theorem padAt_of_le {C : Nat} (x : (⟨3, ![4, 512, C]⟩ : Shape).Idx → EReal) (b : Fin 4) (s : Fin 512) (t : Fin 4) (c : Fin C)
    (h : 3 ≤ s.val + t.val) : padAt x b s t c = x (ix3 b ⟨s.val + t.val - 3, by omega⟩ c) := dif_pos h

theorem padAt_of_lt {C : Nat} (x : (⟨3, ![4, 512, C]⟩ : Shape).Idx → EReal) (b : Fin 4) (s : Fin 512) (t : Fin 4) (c : Fin C)
    (h : s.val + t.val < 3) : padAt x b s t c = 0 := dif_neg (by omega)

/-- The last tap reads the input itself. -/
theorem padAt_three {C : Nat} (x : (⟨3, ![4, 512, C]⟩ : Shape).Idx → EReal) (b : Fin 4) (s : Fin 512) (c : Fin C) :
    padAt x b s 3 c = x (ix3 b s c) := by
  rw [padAt_of_le x b s 3 c (by show 3 ≤ s.val + 3; omega)]
  congr 2

/-- The causal convolution over four taps. -/
def convAt {C : Nat} (x : (⟨3, ![4, 512, C]⟩ : Shape).Idx → EReal) (k : (⟨2, ![4, C]⟩ : Shape).Idx → EReal)
    (b : Fin 4) (s : Fin 512) (c : Fin C) : EReal :=
  ∑ t : Fin 4, padAt x b s t c * k (ix2 t c)

/-- The four taps written out, first tap first. -/
theorem convAt_eq {C : Nat} (x : (⟨3, ![4, 512, C]⟩ : Shape).Idx → EReal) (k : (⟨2, ![4, C]⟩ : Shape).Idx → EReal)
    (b : Fin 4) (s : Fin 512) (c : Fin C) :
    convAt x k b s c = padAt x b s 0 c * k (ix2 0 c) + padAt x b s 1 c * k (ix2 1 c)
      + padAt x b s 2 c * k (ix2 2 c) + padAt x b s 3 c * k (ix2 3 c) := by
  unfold convAt; rw [Fin.sum_univ_four]

/-- The four taps with the unshifted one first. -/
theorem convAt_eq_last_first {C : Nat} (x : (⟨3, ![4, 512, C]⟩ : Shape).Idx → EReal) (k : (⟨2, ![4, C]⟩ : Shape).Idx → EReal)
    (b : Fin 4) (s : Fin 512) (c : Fin C) :
    convAt x k b s c = x (ix3 b s c) * k (ix2 3 c) + padAt x b s 0 c * k (ix2 0 c) + padAt x b s 1 c * k (ix2 1 c)
      + padAt x b s 2 c * k (ix2 2 c) := by
  rw [convAt_eq, padAt_three]; abel

/-- The gate as a product with the logistic function. -/
def gate (v : EReal) : EReal := v * Ideal.logistic v

/-- The gate as a quotient. -/
def gateQuot (v : EReal) : EReal := Ideal.div v (1 + Ideal.exp (-v))

/-- `1 + e^(-v)` is never zero, at the infinities included. -/
theorem one_add_exp_neg_ne_zero (v : EReal) : (1 : EReal) + Ideal.exp (-v) ≠ 0 := by
  induction v using EReal.rec with
  | bot => rw [EReal.neg_bot, Ideal.exp_top, EReal.add_top_of_ne_bot (show (1 : EReal) ≠ ⊥ from EReal.coe_ne_bot 1)]; exact EReal.top_ne_zero
  | top => rw [EReal.neg_top, Ideal.exp_bot, add_zero]; exact one_ne_zero
  | coe r =>
    have h : (1 : EReal) + Ideal.exp (-(r : EReal)) = ((1 + Real.exp (-r) : ℝ) : EReal) := by
      rw [← EReal.coe_neg, Ideal.exp_coe, EReal.coe_add, EReal.coe_one]
    rw [h]
    have : (0 : ℝ) < 1 + Real.exp (-r) := by positivity
    exact_mod_cast this.ne'

/-- The two forms of the gate agree at every extended real. -/
theorem gateQuot_eq_gate (v : EReal) : gateQuot v = gate v := by
  unfold gateQuot gate Ideal.logistic Ideal.div
  rw [if_neg (one_add_exp_neg_ne_zero v), if_neg (one_add_exp_neg_ne_zero v), one_mul]

/-- One device's share: the projection of the gated convolution over its 256 channels. -/
def partialAt (x : (⟨3, ![4, 512, 256]⟩ : Shape).Idx → EReal) (k : (⟨2, ![4, 256]⟩ : Shape).Idx → EReal)
    (w : (⟨2, ![256, 256]⟩ : Shape).Idx → EReal) (b : Fin 4) (s : Fin 512) (h : Fin 256) : EReal :=
  ∑ j : Fin 256, gate (convAt x k b s j) * w (ix2 j h)

/-- The whole: the projection of the gated convolution over all 4096 channels. -/
def wholeAt (X : (⟨3, ![4, 512, 4096]⟩ : Shape).Idx → EReal) (K : (⟨2, ![4, 4096]⟩ : Shape).Idx → EReal)
    (W : (⟨2, ![4096, 256]⟩ : Shape).Idx → EReal) (b : Fin 4) (s : Fin 512) (h : Fin 256) : EReal :=
  ∑ c : Fin 4096, gate (convAt X K b s c) * W (ix2 c h)

end Cert.GatedConv

end
-- ==== Proof.RefIsSpec.lean ====
/-
  The reference program's result, read index by index, is the whole projection of the gated causal convolution.

  The reference pads the input with three zero rows, adds the four taps' products onto a zero array, gates the sum
  as the quotient v / (1 + e^(-v)), and contracts the gated array's channels with the matrix. Each step is read
  at an index, one operation at a time; the padding is a two-piece concatenation, read in the
  zero piece where the row is below 3 and in the input, three rows back, elsewhere.
-/
import proofs.«900432_g7700000000000433_dist_gconv1d_cshard_i_b4_s512_c256_v7x_i16_bf16_1_alg».proof.Proof.RefImports
import proofs.«900432_g7700000000000433_dist_gconv1d_cshard_i_b4_s512_c256_v7x_i16_bf16_1_alg».proof.Proof.Spec

noncomputable section

open scoped BigOperators

namespace Cert.GatedConv

open Cert.ReferenceIdeal Cert.ReferenceIdeal.Gen Cert.ReferenceIdeal.Read Idealize.ShloMosaic Idealize.ShloMosaic.ValueIdx

/-- The f32 pattern of 1.0 is the extended real `1`. -/
theorem ofBits_one_f32 : Ideal.ofBits .f32 0x3F800000#32 = 1 := by
  simp [Ideal.ofBits, Ideal.ieee, -EReal.coe_mul]; norm_num

/-- The padded array at row `s + t`: zero below row 3, the input three rows back from there on. -/
theorem pad_at (X : (⟨S4x512x4096, .f32⟩ : BufTy).Contents (Elt Ideal)) (b : Fin 4) (s : Fin 512) (t : Fin 4) (c : Fin 4096)
    (j : S4x515x4096.Idx) (h0 : (j 0).val = b.val) (h1 : (j 1).val = s.val + t.val) (h2 : (j 2).val = c.val) :
    val_main_v1 (F := Ideal) X j = padAt X b s t c := by
  unfold val_main_v1 padAt
  split
  · next h =>
    refine concatenate_pair_apply_right (s₁ := S4x3x4096) (s₂ := S4x512x4096) (1 : Fin S4x515x4096.rank)
      (val_main_v0 (F := Ideal)) X concatenates_S4x3x4096_S4x512x4096_S4x515x4096_d1 j rfl rfl
      (ix3 b ⟨s.val + t.val - 3, by omega⟩ c) ?_ ?_
    · intro a ha
      match a with
      | ⟨0, _⟩ => exact h0.symm
      | ⟨1, _⟩ => exact absurd rfl ha
      | ⟨2, _⟩ => exact h2.symm
    · show (s.val + t.val - 3) + 3 = (j 1).val
      omega
  · next h =>
    have hlt : s.val + t.val < 3 := by omega
    rw [concatenate_pair_apply_left (s₁ := S4x3x4096) (s₂ := S4x512x4096) (1 : Fin S4x515x4096.rank)
      (val_main_v0 (F := Ideal)) X concatenates_S4x3x4096_S4x512x4096_S4x515x4096_d1 j rfl
      (ix3 b ⟨s.val + t.val, hlt⟩ c) (fun a => by
        match a with
        | ⟨0, _⟩ => exact h0.symm
        | ⟨1, _⟩ => exact h1.symm
        | ⟨2, _⟩ => exact h2.symm)]
    rw [val_main_v0_apply, val_main_cst_apply]
    exact Ideal.ofBits_zero_f32

/-- The four slices of the padded array are the four taps' reads. -/
theorem x_tap0 (X : (⟨S4x512x4096, .f32⟩ : BufTy).Contents (Elt Ideal)) (b : Fin 4) (s : Fin 512) (c : Fin 4096) :
    val_main_v3 (F := Ideal) X (ix3 b s c) = padAt X b s 0 c := by
  rw [val_main_v3_apply]
  exact pad_at X b s 0 c _ rfl rfl rfl
theorem x_tap1 (X : (⟨S4x512x4096, .f32⟩ : BufTy).Contents (Elt Ideal)) (b : Fin 4) (s : Fin 512) (c : Fin 4096) :
    val_main_v10 (F := Ideal) X (ix3 b s c) = padAt X b s 1 c := by
  rw [val_main_v10_apply]
  exact pad_at X b s 1 c _ rfl (by show 1 + s.val = s.val + 1; omega) rfl
theorem x_tap2 (X : (⟨S4x512x4096, .f32⟩ : BufTy).Contents (Elt Ideal)) (b : Fin 4) (s : Fin 512) (c : Fin 4096) :
    val_main_v17 (F := Ideal) X (ix3 b s c) = padAt X b s 2 c := by
  rw [val_main_v17_apply]
  exact pad_at X b s 2 c _ rfl (by show 2 + s.val = s.val + 2; omega) rfl
theorem x_tap3 (X : (⟨S4x512x4096, .f32⟩ : BufTy).Contents (Elt Ideal)) (b : Fin 4) (s : Fin 512) (c : Fin 4096) :
    val_main_v24 (F := Ideal) X (ix3 b s c) = padAt X b s 3 c := by
  rw [val_main_v24_apply]
  exact pad_at X b s 3 c _ rfl (by show 3 + s.val = s.val + 3; omega) rfl

/-- Row `t` of the taps, sliced out, flattened and broadcast over batch and position, reads the tap at the channel. -/
theorem k_tap0 (K : (⟨S4x4096, .f32⟩ : BufTy).Contents (Elt Ideal)) (b : Fin 4) (s : Fin 512) (c : Fin 4096) :
    val_main_v7 (F := Ideal) K (ix3 b s c) = K (ix2 0 c) := by
  rw [val_main_v7_apply, val_main_v6_apply, val_main_v5_apply, val_main_v4_apply]
  congr 1
  funext a
  have hc : c.val < 4096 := c.isLt
  match a with
  | ⟨0, _⟩ => rfl
  | ⟨1, _⟩ => exact Fin.ext (by show c.val % 4096 = c.val; omega)
theorem k_tap1 (K : (⟨S4x4096, .f32⟩ : BufTy).Contents (Elt Ideal)) (b : Fin 4) (s : Fin 512) (c : Fin 4096) :
    val_main_v14 (F := Ideal) K (ix3 b s c) = K (ix2 1 c) := by
  rw [val_main_v14_apply, val_main_v13_apply, val_main_v12_apply, val_main_v11_apply]
  congr 1
  funext a
  have hc : c.val < 4096 := c.isLt
  match a with
  | ⟨0, _⟩ => rfl
  | ⟨1, _⟩ => exact Fin.ext (by show c.val % 4096 = c.val; omega)
theorem k_tap2 (K : (⟨S4x4096, .f32⟩ : BufTy).Contents (Elt Ideal)) (b : Fin 4) (s : Fin 512) (c : Fin 4096) :
    val_main_v21 (F := Ideal) K (ix3 b s c) = K (ix2 2 c) := by
  rw [val_main_v21_apply, val_main_v20_apply, val_main_v19_apply, val_main_v18_apply]
  congr 1
  funext a
  have hc : c.val < 4096 := c.isLt
  match a with
  | ⟨0, _⟩ => rfl
  | ⟨1, _⟩ => exact Fin.ext (by show c.val % 4096 = c.val; omega)
theorem k_tap3 (K : (⟨S4x4096, .f32⟩ : BufTy).Contents (Elt Ideal)) (b : Fin 4) (s : Fin 512) (c : Fin 4096) :
    val_main_v28 (F := Ideal) K (ix3 b s c) = K (ix2 3 c) := by
  rw [val_main_v28_apply, val_main_v27_apply, val_main_v26_apply, val_main_v25_apply]
  congr 1
  funext a
  have hc : c.val < 4096 := c.isLt
  match a with
  | ⟨0, _⟩ => rfl
  | ⟨1, _⟩ => exact Fin.ext (by show c.val % 4096 = c.val; omega)

/-- The reference's running sum of the four taps' products, started from zero, is the convolution. -/
theorem conv_ref (X : (⟨S4x512x4096, .f32⟩ : BufTy).Contents (Elt Ideal)) (K : (⟨S4x4096, .f32⟩ : BufTy).Contents (Elt Ideal))
    (b : Fin 4) (s : Fin 512) (c : Fin 4096) : val_main_v30 (F := Ideal) X K (ix3 b s c) = convAt X K b s c := by
  rw [val_main_v30_apply, val_main_v23_apply, val_main_v16_apply, val_main_v9_apply, val_main_v2_apply, val_main_cst_0_apply,
    val_main_v8_apply, val_main_v15_apply, val_main_v22_apply, val_main_v29_apply,
    x_tap0, x_tap1, x_tap2, x_tap3, k_tap0, k_tap1, k_tap2, k_tap3, convAt_eq]
  show Ideal.ofBits .f32 0x00000000#32 + _ * _ + _ * _ + _ * _ + _ * _ = _
  rw [Ideal.ofBits_zero_f32, zero_add]

/-- The reference's quotient form of the gate, at the convolution. -/
theorem gate_ref (X : (⟨S4x512x4096, .f32⟩ : BufTy).Contents (Elt Ideal)) (K : (⟨S4x4096, .f32⟩ : BufTy).Contents (Elt Ideal))
    (b : Fin 4) (s : Fin 512) (c : Fin 4096) : val_main_v35 (F := Ideal) X K (ix3 b s c) = gate (convAt X K b s c) := by
  rw [val_main_v35_apply, val_main_v34_apply, val_main_v33_apply, val_main_cst_1_apply, val_main_v32_apply, val_main_v31_apply,
    conv_ref, ← gateQuot_eq_gate]
  show Ideal.div _ (Ideal.ofBits .f32 0x3F800000#32 + Ideal.exp (-_)) = _
  rw [ofBits_one_f32]
  rfl

/-- The reference's result at `(b, s, h)` is the whole projection there. -/
theorem ref_at (X : (⟨S4x512x4096, .f32⟩ : BufTy).Contents (Elt Ideal)) (K : (⟨S4x4096, .f32⟩ : BufTy).Contents (Elt Ideal)) (W : (⟨S4096x256, .f32⟩ : BufTy).Contents (Elt Ideal))
    (b : Fin 4) (s : Fin 512) (h : Fin 256) : val_main_v37 (F := Ideal) X K W (ix3 b s h) = wholeAt X K W b s h := by
  rw [val_main_v37_apply, val_main_v36_apply]
  show (∑ k : Fin 4096, _) = _
  unfold wholeAt
  refine Finset.sum_congr rfl fun k _ => ?_
  have hl : lidx_main_v36 (ix3 b s h) k = ix3 b s k := by
    funext a
    match a with
    | ⟨0, _⟩ => rfl
    | ⟨1, _⟩ => rfl
    | ⟨2, _⟩ => rfl
  have hr : ridx_main_v36 (ix3 b s h) k = ix2 k h := by
    funext a
    match a with
    | ⟨0, _⟩ => rfl
    | ⟨1, _⟩ => rfl
  rw [hl, hr, gate_ref]

/-- THE REFERENCE IS THE SPECIFICATION: its result is the whole projection, index by index. -/
theorem ref_is_whole (X : (⟨S4x512x4096, .f32⟩ : BufTy).Contents (Elt Ideal)) (K : (⟨S4x4096, .f32⟩ : BufTy).Contents (Elt Ideal)) (W : (⟨S4096x256, .f32⟩ : BufTy).Contents (Elt Ideal)) :
    val_main_v37 (F := Ideal) X K W = fun i => wholeAt X K W (i 0) (i 1) (i 2) := by
  funext i
  obtain ⟨b, s, h, rfl⟩ : ∃ b s h, i = ix3 b s h := ⟨i 0, i 1, i 2, eq_ix3 i⟩
  exact ref_at X K W b s h

/-- The same for the term the reference's run states its result at. -/
theorem res_out0_eq (m : (ℓ : Loc nD τ sig) → Buf (Elt Ideal) ℓ) (c : Dev nD) :
    Cert.ReferenceIdeal.Value.res_out0 (F := Ideal) m c = fun i =>
      wholeAt (m ((c.tc : Thread nD τ).loc main_arg0)) (m ((c.tc : Thread nD τ).loc main_arg1))
        (m ((c.tc : Thread nD τ).loc main_arg2)) (i 0) (i 1) (i 2) :=
  (val_main_v37_eq m c).trans (ref_is_whole _ _ _)

end Cert.GatedConv

end
-- ==== Proof.Chains.lean ====
/-
  Closed forms of the device and offset arithmetic the kernel body computes from its own device id.
  Device c signals, and later copies to, the device o places after it on the ring of sixteen, for o = 1, …, 15:
  the addressed device is (c + o) mod 16.  The row of the partial-product buffer it sends there is that same number;
  the block of the result it owns starts at batch c / 4 and sequence position (c mod 4) · 128.
  Each equation is decided over the sixteen devices.
-/
import proofs.«900432_g7700000000000433_dist_gconv1d_cshard_i_b4_s512_c256_v7x_i16_bf16_1_alg».proof.Proof.Gen.KernelIdeal

set_option maxRecDepth 16384

namespace Cert.KernelIdeal.Chains

open Idealize.ShloMosaic Cert.KernelIdeal Cert.KernelIdeal.Gen

/-- The device `o` places after `c` on the ring. -/
def peer (c : Dev nD) (o : Nat) : Dev nD := ⟨(c.val + o) % 16, Nat.mod_lt _ (by decide)⟩

theorem peer_val (c : Dev nD) (o : Nat) : (peer c o).val = (c.val + o) % 16 := rfl

theorem dev1_val : ∀ c : Dev nD, k0_dev1 c = (c.val + 1) % 16 := by decide +kernel
theorem dev16_val : ∀ c : Dev nD, k0_dev16 c = (c.val + 1) % 16 := by decide +kernel
theorem dev31_val : ∀ c : Dev nD, k0_dev31 c = (c.val + 1) % 16 := by decide +kernel
theorem dev2_val : ∀ c : Dev nD, k0_dev2 c = (c.val + 2) % 16 := by decide +kernel
theorem dev17_val : ∀ c : Dev nD, k0_dev17 c = (c.val + 2) % 16 := by decide +kernel
theorem dev32_val : ∀ c : Dev nD, k0_dev32 c = (c.val + 2) % 16 := by decide +kernel
theorem dev3_val : ∀ c : Dev nD, k0_dev3 c = (c.val + 3) % 16 := by decide +kernel
theorem dev18_val : ∀ c : Dev nD, k0_dev18 c = (c.val + 3) % 16 := by decide +kernel
theorem dev33_val : ∀ c : Dev nD, k0_dev33 c = (c.val + 3) % 16 := by decide +kernel
theorem dev4_val : ∀ c : Dev nD, k0_dev4 c = (c.val + 4) % 16 := by decide +kernel
theorem dev19_val : ∀ c : Dev nD, k0_dev19 c = (c.val + 4) % 16 := by decide +kernel
theorem dev34_val : ∀ c : Dev nD, k0_dev34 c = (c.val + 4) % 16 := by decide +kernel
theorem dev5_val : ∀ c : Dev nD, k0_dev5 c = (c.val + 5) % 16 := by decide +kernel
theorem dev20_val : ∀ c : Dev nD, k0_dev20 c = (c.val + 5) % 16 := by decide +kernel
theorem dev35_val : ∀ c : Dev nD, k0_dev35 c = (c.val + 5) % 16 := by decide +kernel
theorem dev6_val : ∀ c : Dev nD, k0_dev6 c = (c.val + 6) % 16 := by decide +kernel
theorem dev21_val : ∀ c : Dev nD, k0_dev21 c = (c.val + 6) % 16 := by decide +kernel
theorem dev36_val : ∀ c : Dev nD, k0_dev36 c = (c.val + 6) % 16 := by decide +kernel
theorem dev7_val : ∀ c : Dev nD, k0_dev7 c = (c.val + 7) % 16 := by decide +kernel
theorem dev22_val : ∀ c : Dev nD, k0_dev22 c = (c.val + 7) % 16 := by decide +kernel
theorem dev37_val : ∀ c : Dev nD, k0_dev37 c = (c.val + 7) % 16 := by decide +kernel
theorem dev8_val : ∀ c : Dev nD, k0_dev8 c = (c.val + 8) % 16 := by decide +kernel
theorem dev23_val : ∀ c : Dev nD, k0_dev23 c = (c.val + 8) % 16 := by decide +kernel
theorem dev38_val : ∀ c : Dev nD, k0_dev38 c = (c.val + 8) % 16 := by decide +kernel
theorem dev9_val : ∀ c : Dev nD, k0_dev9 c = (c.val + 9) % 16 := by decide +kernel
theorem dev24_val : ∀ c : Dev nD, k0_dev24 c = (c.val + 9) % 16 := by decide +kernel
theorem dev39_val : ∀ c : Dev nD, k0_dev39 c = (c.val + 9) % 16 := by decide +kernel
theorem dev10_val : ∀ c : Dev nD, k0_dev10 c = (c.val + 10) % 16 := by decide +kernel
theorem dev25_val : ∀ c : Dev nD, k0_dev25 c = (c.val + 10) % 16 := by decide +kernel
theorem dev40_val : ∀ c : Dev nD, k0_dev40 c = (c.val + 10) % 16 := by decide +kernel
theorem dev11_val : ∀ c : Dev nD, k0_dev11 c = (c.val + 11) % 16 := by decide +kernel
theorem dev26_val : ∀ c : Dev nD, k0_dev26 c = (c.val + 11) % 16 := by decide +kernel
theorem dev41_val : ∀ c : Dev nD, k0_dev41 c = (c.val + 11) % 16 := by decide +kernel
theorem dev12_val : ∀ c : Dev nD, k0_dev12 c = (c.val + 12) % 16 := by decide +kernel
theorem dev27_val : ∀ c : Dev nD, k0_dev27 c = (c.val + 12) % 16 := by decide +kernel
theorem dev42_val : ∀ c : Dev nD, k0_dev42 c = (c.val + 12) % 16 := by decide +kernel
theorem dev13_val : ∀ c : Dev nD, k0_dev13 c = (c.val + 13) % 16 := by decide +kernel
theorem dev28_val : ∀ c : Dev nD, k0_dev28 c = (c.val + 13) % 16 := by decide +kernel
theorem dev43_val : ∀ c : Dev nD, k0_dev43 c = (c.val + 13) % 16 := by decide +kernel
theorem dev14_val : ∀ c : Dev nD, k0_dev14 c = (c.val + 14) % 16 := by decide +kernel
theorem dev29_val : ∀ c : Dev nD, k0_dev29 c = (c.val + 14) % 16 := by decide +kernel
theorem dev44_val : ∀ c : Dev nD, k0_dev44 c = (c.val + 14) % 16 := by decide +kernel
theorem dev15_val : ∀ c : Dev nD, k0_dev15 c = (c.val + 15) % 16 := by decide +kernel
theorem dev30_val : ∀ c : Dev nD, k0_dev30 c = (c.val + 15) % 16 := by decide +kernel
theorem dev45_val : ∀ c : Dev nD, k0_dev45 c = (c.val + 15) % 16 := by decide +kernel

/-- The three families of addressed devices — the barrier signals, the scatter copies, the gather copies — all name the ring peers. -/
theorem dev1_eq (c : Dev nD) : (⟨k0_dev1 c, k0_dev1_lt c⟩ : Dev nD) = peer c 1 := Fin.ext (dev1_val c)
theorem dev16_eq (c : Dev nD) : (⟨k0_dev16 c, k0_dev16_lt c⟩ : Dev nD) = peer c 1 := Fin.ext (dev16_val c)
theorem dev31_eq (c : Dev nD) : (⟨k0_dev31 c, k0_dev31_lt c⟩ : Dev nD) = peer c 1 := Fin.ext (dev31_val c)
theorem dev2_eq (c : Dev nD) : (⟨k0_dev2 c, k0_dev2_lt c⟩ : Dev nD) = peer c 2 := Fin.ext (dev2_val c)
theorem dev17_eq (c : Dev nD) : (⟨k0_dev17 c, k0_dev17_lt c⟩ : Dev nD) = peer c 2 := Fin.ext (dev17_val c)
theorem dev32_eq (c : Dev nD) : (⟨k0_dev32 c, k0_dev32_lt c⟩ : Dev nD) = peer c 2 := Fin.ext (dev32_val c)
theorem dev3_eq (c : Dev nD) : (⟨k0_dev3 c, k0_dev3_lt c⟩ : Dev nD) = peer c 3 := Fin.ext (dev3_val c)
theorem dev18_eq (c : Dev nD) : (⟨k0_dev18 c, k0_dev18_lt c⟩ : Dev nD) = peer c 3 := Fin.ext (dev18_val c)
theorem dev33_eq (c : Dev nD) : (⟨k0_dev33 c, k0_dev33_lt c⟩ : Dev nD) = peer c 3 := Fin.ext (dev33_val c)
theorem dev4_eq (c : Dev nD) : (⟨k0_dev4 c, k0_dev4_lt c⟩ : Dev nD) = peer c 4 := Fin.ext (dev4_val c)
theorem dev19_eq (c : Dev nD) : (⟨k0_dev19 c, k0_dev19_lt c⟩ : Dev nD) = peer c 4 := Fin.ext (dev19_val c)
theorem dev34_eq (c : Dev nD) : (⟨k0_dev34 c, k0_dev34_lt c⟩ : Dev nD) = peer c 4 := Fin.ext (dev34_val c)
theorem dev5_eq (c : Dev nD) : (⟨k0_dev5 c, k0_dev5_lt c⟩ : Dev nD) = peer c 5 := Fin.ext (dev5_val c)
theorem dev20_eq (c : Dev nD) : (⟨k0_dev20 c, k0_dev20_lt c⟩ : Dev nD) = peer c 5 := Fin.ext (dev20_val c)
theorem dev35_eq (c : Dev nD) : (⟨k0_dev35 c, k0_dev35_lt c⟩ : Dev nD) = peer c 5 := Fin.ext (dev35_val c)
theorem dev6_eq (c : Dev nD) : (⟨k0_dev6 c, k0_dev6_lt c⟩ : Dev nD) = peer c 6 := Fin.ext (dev6_val c)
theorem dev21_eq (c : Dev nD) : (⟨k0_dev21 c, k0_dev21_lt c⟩ : Dev nD) = peer c 6 := Fin.ext (dev21_val c)
theorem dev36_eq (c : Dev nD) : (⟨k0_dev36 c, k0_dev36_lt c⟩ : Dev nD) = peer c 6 := Fin.ext (dev36_val c)
theorem dev7_eq (c : Dev nD) : (⟨k0_dev7 c, k0_dev7_lt c⟩ : Dev nD) = peer c 7 := Fin.ext (dev7_val c)
theorem dev22_eq (c : Dev nD) : (⟨k0_dev22 c, k0_dev22_lt c⟩ : Dev nD) = peer c 7 := Fin.ext (dev22_val c)
theorem dev37_eq (c : Dev nD) : (⟨k0_dev37 c, k0_dev37_lt c⟩ : Dev nD) = peer c 7 := Fin.ext (dev37_val c)
theorem dev8_eq (c : Dev nD) : (⟨k0_dev8 c, k0_dev8_lt c⟩ : Dev nD) = peer c 8 := Fin.ext (dev8_val c)
theorem dev23_eq (c : Dev nD) : (⟨k0_dev23 c, k0_dev23_lt c⟩ : Dev nD) = peer c 8 := Fin.ext (dev23_val c)
theorem dev38_eq (c : Dev nD) : (⟨k0_dev38 c, k0_dev38_lt c⟩ : Dev nD) = peer c 8 := Fin.ext (dev38_val c)
theorem dev9_eq (c : Dev nD) : (⟨k0_dev9 c, k0_dev9_lt c⟩ : Dev nD) = peer c 9 := Fin.ext (dev9_val c)
theorem dev24_eq (c : Dev nD) : (⟨k0_dev24 c, k0_dev24_lt c⟩ : Dev nD) = peer c 9 := Fin.ext (dev24_val c)
theorem dev39_eq (c : Dev nD) : (⟨k0_dev39 c, k0_dev39_lt c⟩ : Dev nD) = peer c 9 := Fin.ext (dev39_val c)
theorem dev10_eq (c : Dev nD) : (⟨k0_dev10 c, k0_dev10_lt c⟩ : Dev nD) = peer c 10 := Fin.ext (dev10_val c)
theorem dev25_eq (c : Dev nD) : (⟨k0_dev25 c, k0_dev25_lt c⟩ : Dev nD) = peer c 10 := Fin.ext (dev25_val c)
theorem dev40_eq (c : Dev nD) : (⟨k0_dev40 c, k0_dev40_lt c⟩ : Dev nD) = peer c 10 := Fin.ext (dev40_val c)
theorem dev11_eq (c : Dev nD) : (⟨k0_dev11 c, k0_dev11_lt c⟩ : Dev nD) = peer c 11 := Fin.ext (dev11_val c)
theorem dev26_eq (c : Dev nD) : (⟨k0_dev26 c, k0_dev26_lt c⟩ : Dev nD) = peer c 11 := Fin.ext (dev26_val c)
theorem dev41_eq (c : Dev nD) : (⟨k0_dev41 c, k0_dev41_lt c⟩ : Dev nD) = peer c 11 := Fin.ext (dev41_val c)
theorem dev12_eq (c : Dev nD) : (⟨k0_dev12 c, k0_dev12_lt c⟩ : Dev nD) = peer c 12 := Fin.ext (dev12_val c)
theorem dev27_eq (c : Dev nD) : (⟨k0_dev27 c, k0_dev27_lt c⟩ : Dev nD) = peer c 12 := Fin.ext (dev27_val c)
theorem dev42_eq (c : Dev nD) : (⟨k0_dev42 c, k0_dev42_lt c⟩ : Dev nD) = peer c 12 := Fin.ext (dev42_val c)
theorem dev13_eq (c : Dev nD) : (⟨k0_dev13 c, k0_dev13_lt c⟩ : Dev nD) = peer c 13 := Fin.ext (dev13_val c)
theorem dev28_eq (c : Dev nD) : (⟨k0_dev28 c, k0_dev28_lt c⟩ : Dev nD) = peer c 13 := Fin.ext (dev28_val c)
theorem dev43_eq (c : Dev nD) : (⟨k0_dev43 c, k0_dev43_lt c⟩ : Dev nD) = peer c 13 := Fin.ext (dev43_val c)
theorem dev14_eq (c : Dev nD) : (⟨k0_dev14 c, k0_dev14_lt c⟩ : Dev nD) = peer c 14 := Fin.ext (dev14_val c)
theorem dev29_eq (c : Dev nD) : (⟨k0_dev29 c, k0_dev29_lt c⟩ : Dev nD) = peer c 14 := Fin.ext (dev29_val c)
theorem dev44_eq (c : Dev nD) : (⟨k0_dev44 c, k0_dev44_lt c⟩ : Dev nD) = peer c 14 := Fin.ext (dev44_val c)
theorem dev15_eq (c : Dev nD) : (⟨k0_dev15 c, k0_dev15_lt c⟩ : Dev nD) = peer c 15 := Fin.ext (dev15_val c)
theorem dev30_eq (c : Dev nD) : (⟨k0_dev30 c, k0_dev30_lt c⟩ : Dev nD) = peer c 15 := Fin.ext (dev30_val c)
theorem dev45_eq (c : Dev nD) : (⟨k0_dev45 c, k0_dev45_lt c⟩ : Dev nD) = peer c 15 := Fin.ext (dev45_val c)

/-- Row `(c + 1 + r) mod 16` of the partial-product buffer is the source of the copy to the device `1 + r` places on. -/
theorem off1_eq : ∀ (c : Dev nD) (r : Fin 15), k0_off1 c (BitVec.ofNat 32 (1 + r.val)) = ![(c.val + (1 + r.val)) % 16, 0, 0] := by decide +kernel
/-- The block of the result a device owns: batch `c / 4`, sequence positions from `(c mod 4) · 128`. -/
theorem off3_eq : ∀ c : Dev nD, k0_off3 c = ![c.val / 4, (c.val % 4) * 128, 0] := by decide +kernel
theorem off4_eq : ∀ c : Dev nD, k0_off4 c = ![c.val / 4, (c.val % 4) * 128, 0] := by decide +kernel

end Cert.KernelIdeal.Chains
-- ==== Proof.Contents.lean ====
/-
  What the kernel's buffers hold, as functions of the memory at launch (generic in the float instance).
  Device c's partial product is the gated convolution of its 256 channels multiplied into its 256 rows of the weight:
  sixteen row-blocks of 128 rows.  Slot o of device e's temporary buffer receives row-block e of the partial product of
  the device o places before e; device j's sum adds its own row-block j and those fifteen; block j of every device's
  result ends holding device j's sum.
-/
import proofs.«900432_g7700000000000433_dist_gconv1d_cshard_i_b4_s512_c256_v7x_i16_bf16_1_alg».proof.Proof.Gen.KernelIdeal
import proofs.«900432_g7700000000000433_dist_gconv1d_cshard_i_b4_s512_c256_v7x_i16_bf16_1_alg».proof.Proof.Gen.KernelIdeal.Skeleton
import proofs.«900432_g7700000000000433_dist_gconv1d_cshard_i_b4_s512_c256_v7x_i16_bf16_1_alg».proof.Proof.Gen.KernelIdeal.Launch
import proofs.«900432_g7700000000000433_dist_gconv1d_cshard_i_b4_s512_c256_v7x_i16_bf16_1_alg».proof.Proof.Gen.KernelIdeal.Points
import proofs.«900432_g7700000000000433_dist_gconv1d_cshard_i_b4_s512_c256_v7x_i16_bf16_1_alg».proof.Proof.Gen.KernelIdeal.Frame
import proofs.«900432_g7700000000000433_dist_gconv1d_cshard_i_b4_s512_c256_v7x_i16_bf16_1_alg».proof.Proof.Chains
import Idealize.ShloMosaic.Lib.ValueIdx

set_option maxRecDepth 16384

noncomputable section

namespace Cert.KernelIdeal.Proto

open Cert.KernelIdeal Cert.KernelIdeal.Gen Cert.KernelIdeal.Chains
open Idealize.ShloMosaic Idealize.ShloMosaic.TcCoe Idealize.SL.Sem

variable {F : FTy → Type} [FloatOps F]
variable (m : (ℓ : Loc nD τ sig) → Buf (Elt F) ℓ)

/-- The device `o` places before `c` on the ring of sixteen. -/
def back (c : Dev nD) (o : Nat) : Dev nD := ⟨(c.val + (16 - o % 16)) % 16, Nat.mod_lt _ (by decide)⟩

theorem back_val (c : Dev nD) (o : Nat) : (back c o).val = (c.val + (16 - o % 16)) % 16 := rfl
theorem back_peer (c : Dev nD) (o : Fin 16) : back (peer c o.val) o.val = c := by revert c o; decide
theorem peer_back (c : Dev nD) (o : Fin 16) : peer (back c o.val) o.val = c := by revert c o; decide

/-- Device `c`'s three input blocks as its kernel body finds them. -/
def xB (c : Dev nD) := iblk m c 0 t0_0
def kB (c : Dev nD) := iblk m c 1 t0_0
def wB (c : Dev nD) := iblk m c 2 t0_0

/-- Device `c`'s partial product, as stored: sixteen row-blocks of 128 rows. -/
def partialOf (c : Dev nD) : FVec F S16x128x256 .bf16 :=
  k0_pay4 (k0_pay1 (xB m c)) (k0_pay2 (kB m c)) (k0_pay3 (kB m c)) (wB m c)

/-- Row-block `j` of device `p`'s partial product, as one block of 128 rows. -/
def rowOf (p : Dev nD) (j : Fin 16) : Vec F S1x128x256 .bf16 :=
  fun i => partialOf m p (ValueIdx.ix3 j (i 1) (i 2))

/-- Device `e`'s temporary buffer once every scatter copy has landed: slot `o` holds row-block `e` of the partial product
    of the device `o` places before `e` (slot 0, never written, is read as the device's own row-block). -/
def tmpFull (e : Dev nD) : FVec F S16x128x256 .bf16 :=
  fun i => partialOf m (back e (i 0).val) (ValueIdx.ix3 e (i 1) (i 2))

/-- The sum over all sixteen devices of row-block `j` of their partial products, added in the order device `j` adds them:
    its own block first, then the blocks of the devices 1, 2, …, 15 places before it. -/
def redOf (j : Dev nD) : FVec F S1x128x256 .bf16 :=
  k0_pay11 (k0_pay10 (k0_pay9 (k0_pay8 (k0_pay7 (k0_pay6 (k0_pay5 (rowOf m j j) (rowOf m (back j 1) j))
    (rowOf m (back j 2) j) (rowOf m (back j 3) j))
    (rowOf m (back j 4) j) (rowOf m (back j 5) j) (rowOf m (back j 6) j))
    (rowOf m (back j 7) j) (rowOf m (back j 8) j))
    (rowOf m (back j 9) j) (rowOf m (back j 10) j))
    (rowOf m (back j 11) j) (rowOf m (back j 12) j) (rowOf m (back j 13) j))
    (rowOf m (back j 14) j) (rowOf m (back j 15) j)

/-- The block of the result that holds output row (b, s): block `b · 4 + s / 128`. -/
def blkOf (b : Fin 4) (s : Fin 512) : Dev nD := ⟨b.val * 4 + s.val / 128, by have := b.isLt; have := s.isLt; show b.val * 4 + s.val / 128 < 16; omega⟩

/-- Every device's result once the gather copies have landed: block `j` holds the sum `redOf j`. The same on all devices. -/
def outFull : FVec F S4x512x256 .bf16 :=
  fun i => redOf m (blkOf (i 0) (i 1)) (ValueIdx.ix3 (0 : Fin 1) ⟨(i 1).val % 128, Nat.mod_lt _ (by decide)⟩ (i 2))

end Cert.KernelIdeal.Proto

end
-- ==== Proof.PaySum.lean ====
/-
  The running sum of the sixteen chunks, read at an index (ideal instance).

  Each of the sixteen operands is a [1,128,256] bf16 chunk. The program widens a chunk to f32 and views it as a
  [128,256] matrix (in either order), adds the matrices left to right, narrows the total to bf16 and views it as a
  [1,128,256] chunk again. At the ideal instance a widening and a narrowing are the identity and an addition is the
  extended reals', so the value at (0, r, h) is the left-nested sum of the sixteen chunks' values at (0, r, h).
-/
import proofs.«900432_g7700000000000433_dist_gconv1d_cshard_i_b4_s512_c256_v7x_i16_bf16_1_alg».proof.Proof.Gen.KernelIdeal.Skeleton
import Idealize.ShloMosaic.Lib.ValueIdx
import Idealize.ShloMosaic.Lib.ValueLayout

noncomputable section

open scoped BigOperators

namespace Cert.KernelIdeal.PayValue

open Idealize.ShloMosaic Idealize.ShloMosaic.ValueIdx Cert.KernelIdeal

/-- The first two chunks: the sum of their values. -/
theorem pay5_apply (c0 c1 : Vec Ideal S1x128x256 .bf16) (r : Fin 128) (h : Fin 256) :
    Gen.k0_pay5 (F := Ideal) c0 c1 (ix2 r h) = c0 (ix3 (0 : Fin 1) r h) + c1 (ix3 (0 : Fin 1) r h) := by
  unfold Gen.k0_pay5
  rw [addf_apply, shapeCast_1ab_ab_apply, extf_apply, extf_apply, shapeCast_1ab_ab_apply]

/-- Two more chunks onto a running sum. -/
theorem pay6_apply (a : FVec Ideal S128x256 .f32) (c2 c3 : Vec Ideal S1x128x256 .bf16) (r : Fin 128) (h : Fin 256) :
    Gen.k0_pay6 (F := Ideal) a c2 c3 (ix2 r h) = a (ix2 r h) + c2 (ix3 (0 : Fin 1) r h) + c3 (ix3 (0 : Fin 1) r h) := by
  unfold Gen.k0_pay6
  rw [addf_apply, addf_apply, extf_apply, extf_apply, shapeCast_1ab_ab_apply, shapeCast_1ab_ab_apply]

/-- Three more chunks onto a running sum. -/
theorem pay7_apply (a : FVec Ideal S128x256 .f32) (c4 c5 c6 : Vec Ideal S1x128x256 .bf16) (r : Fin 128) (h : Fin 256) :
    Gen.k0_pay7 (F := Ideal) a c4 c5 c6 (ix2 r h)
      = a (ix2 r h) + c4 (ix3 (0 : Fin 1) r h) + c5 (ix3 (0 : Fin 1) r h) + c6 (ix3 (0 : Fin 1) r h) := by
  unfold Gen.k0_pay7
  rw [addf_apply, addf_apply, addf_apply, extf_apply, extf_apply, extf_apply, shapeCast_1ab_ab_apply,
    shapeCast_1ab_ab_apply, shapeCast_1ab_ab_apply]

/-- Two more chunks onto a running sum. -/
theorem pay8_apply (a : FVec Ideal S128x256 .f32) (c7 c8 : Vec Ideal S1x128x256 .bf16) (r : Fin 128) (h : Fin 256) :
    Gen.k0_pay8 (F := Ideal) a c7 c8 (ix2 r h) = a (ix2 r h) + c7 (ix3 (0 : Fin 1) r h) + c8 (ix3 (0 : Fin 1) r h) := by
  unfold Gen.k0_pay8
  rw [addf_apply, addf_apply, extf_apply, extf_apply, shapeCast_1ab_ab_apply, shapeCast_1ab_ab_apply]

/-- Two more chunks onto a running sum. -/
theorem pay9_apply (a : FVec Ideal S128x256 .f32) (c9 c10 : Vec Ideal S1x128x256 .bf16) (r : Fin 128) (h : Fin 256) :
    Gen.k0_pay9 (F := Ideal) a c9 c10 (ix2 r h) = a (ix2 r h) + c9 (ix3 (0 : Fin 1) r h) + c10 (ix3 (0 : Fin 1) r h) := by
  unfold Gen.k0_pay9
  rw [addf_apply, addf_apply, extf_apply, extf_apply, shapeCast_1ab_ab_apply, shapeCast_1ab_ab_apply]

/-- Three more chunks onto a running sum. -/
theorem pay10_apply (a : FVec Ideal S128x256 .f32) (c11 c12 c13 : Vec Ideal S1x128x256 .bf16) (r : Fin 128) (h : Fin 256) :
    Gen.k0_pay10 (F := Ideal) a c11 c12 c13 (ix2 r h)
      = a (ix2 r h) + c11 (ix3 (0 : Fin 1) r h) + c12 (ix3 (0 : Fin 1) r h) + c13 (ix3 (0 : Fin 1) r h) := by
  unfold Gen.k0_pay10
  rw [addf_apply, addf_apply, addf_apply, extf_apply, extf_apply, extf_apply, shapeCast_1ab_ab_apply,
    shapeCast_1ab_ab_apply, shapeCast_1ab_ab_apply]

/-- The last two chunks onto the running sum, narrowed and viewed as a [1,128,256] chunk. -/
theorem pay11_apply (a : FVec Ideal S128x256 .f32) (c14 c15 : Vec Ideal S1x128x256 .bf16) (u : Fin 1) (r : Fin 128)
    (h : Fin 256) :
    Gen.k0_pay11 (F := Ideal) a c14 c15 (ix3 u r h)
      = a (ix2 r h) + c14 (ix3 (0 : Fin 1) r h) + c15 (ix3 (0 : Fin 1) r h) := by
  unfold Gen.k0_pay11
  rw [shapeCast_ab_1ab_apply, truncf_apply, addf_apply, addf_apply, extf_apply, extf_apply, shapeCast_1ab_ab_apply,
    shapeCast_1ab_ab_apply]

/-- The whole chain of the sixteen chunks, as the program nests it. -/
abbrev chain16 (c0 c1 c2 c3 c4 c5 c6 c7 c8 c9 c10 c11 c12 c13 c14 c15 : Vec Ideal S1x128x256 .bf16) :
    FVec Ideal S1x128x256 .bf16 :=
  Gen.k0_pay11 (F := Ideal) (Gen.k0_pay10 (Gen.k0_pay9 (Gen.k0_pay8 (Gen.k0_pay7 (Gen.k0_pay6 (Gen.k0_pay5 c0 c1) c2 c3)
    c4 c5 c6) c7 c8) c9 c10) c11 c12 c13) c14 c15

/-- THE CHAIN AT (0, r, h): the left-nested sum of the sixteen chunks' values there. -/
theorem chain16_apply (c0 c1 c2 c3 c4 c5 c6 c7 c8 c9 c10 c11 c12 c13 c14 c15 : Vec Ideal S1x128x256 .bf16)
    (u : Fin 1) (r : Fin 128) (h : Fin 256) :
    chain16 c0 c1 c2 c3 c4 c5 c6 c7 c8 c9 c10 c11 c12 c13 c14 c15 (ix3 u r h)
      = c0 (ix3 (0 : Fin 1) r h) + c1 (ix3 (0 : Fin 1) r h) + c2 (ix3 (0 : Fin 1) r h) + c3 (ix3 (0 : Fin 1) r h) + c4 (ix3 (0 : Fin 1) r h) + c5 (ix3 (0 : Fin 1) r h) + c6 (ix3 (0 : Fin 1) r h) + c7 (ix3 (0 : Fin 1) r h) + c8 (ix3 (0 : Fin 1) r h) + c9 (ix3 (0 : Fin 1) r h) + c10 (ix3 (0 : Fin 1) r h) + c11 (ix3 (0 : Fin 1) r h) + c12 (ix3 (0 : Fin 1) r h) + c13 (ix3 (0 : Fin 1) r h) + c14 (ix3 (0 : Fin 1) r h) + c15 (ix3 (0 : Fin 1) r h) := by
  unfold chain16
  rw [pay11_apply, pay10_apply, pay9_apply, pay8_apply, pay7_apply, pay6_apply, pay5_apply]

/-- A sum over sixteen terms, left-nested. -/
theorem sum_fin16 (f : Fin 16 → EReal) :
    ∑ i : Fin 16, f i = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- THE CHAIN OF A FAMILY at (0, r, h): the sum over the sixteen members. -/
theorem chain16_sum (c : Fin 16 → Vec Ideal S1x128x256 .bf16) (u : Fin 1) (r : Fin 128) (h : Fin 256) :
    chain16 (c 0) (c 1) (c 2) (c 3) (c 4) (c 5) (c 6) (c 7) (c 8) (c 9) (c 10) (c 11) (c 12) (c 13) (c 14) (c 15) (ix3 u r h)
      = ∑ i : Fin 16, c i (ix3 (0 : Fin 1) r h) := by
  rw [chain16_apply, sum_fin16 fun i => c i (ix3 (0 : Fin 1) r h)]

/-- The same at an arbitrary index of the [1,128,256] chunk. -/
theorem chain16_sum_idx (c : Fin 16 → Vec Ideal S1x128x256 .bf16) (j : S1x128x256.Idx) :
    chain16 (c 0) (c 1) (c 2) (c 3) (c 4) (c 5) (c 6) (c 7) (c 8) (c 9) (c 10) (c 11) (c 12) (c 13) (c 14) (c 15) j = ∑ i : Fin 16, c i j := by
  obtain ⟨u, r, h, rfl⟩ : ∃ (u : Fin 1) (r : Fin 128) (h : Fin 256), j = ix3 u r h := ⟨j 0, j 1, j 2, eq_ix3 j⟩
  obtain rfl : u = 0 := Subsingleton.elim _ _
  exact chain16_sum c 0 r h

end Cert.KernelIdeal.PayValue

end
-- ==== Proof.PayConv.lean ====
/-
  The convolution inside the stored partial product, read at an index (ideal instance).

  The block x is [4,512,256] (batch, position, channel) and the taps k are [4,256] (tap, channel). The program forms,
  for t = 3, 2, 1, the block shifted down by t positions (t zero rows in front along the position axis, then the first
  512 - t positions of x), multiplies x by tap row 3 and the copy shifted by t by tap row 3 - t, each row broadcast over
  batch and position, and adds the four products left to right. So at (b, s, c) the value is
    x(b,s,c) k(3,c) + x(b,s-3,c) k(0,c) + x(b,s-2,c) k(1,c) + x(b,s-1,c) k(2,c)
  where a term whose position s - t would be negative is 0 * k(3-t,c): the zero row's entry times the tap, kept as a
  product (on the extended reals 0 * k is 0 for every k, but nothing here needs that).
-/
import proofs.«900432_g7700000000000433_dist_gconv1d_cshard_i_b4_s512_c256_v7x_i16_bf16_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.PayValue

open Idealize.ShloMosaic Idealize.ShloMosaic.ValueIdx Cert.KernelIdeal

/-- The block read t positions earlier: x(b, s - t, c), and 0 where there is no such position. -/
def xsh (x : Vec Ideal S4x512x256 .f32) (t : Nat) (b : Fin 4) (s : Fin 512) (c : Fin 256) : EReal :=
  if h : t ≤ s.val then x (ix3 b ⟨s.val - t, by omega⟩ c) else 0

/-- The four-tap causal convolution along the position axis, channel by channel, in the program's association. -/
def convK (x : Vec Ideal S4x512x256 .f32) (k : Vec Ideal S4x256 .f32) (b : Fin 4) (s : Fin 512) (c : Fin 256) : EReal :=
  x (ix3 b s c) * k (ix2 (3 : Fin 4) c) + xsh x 3 b s c * k (ix2 (0 : Fin 4) c) + xsh x 2 b s c * k (ix2 (1 : Fin 4) c)
    + xsh x 1 b s c * k (ix2 (2 : Fin 4) c)

/-- Tap row t broadcast over batch and position: at (b, s, c) it is k(t, c). -/
theorem krow_apply (o : Nat) (v : FVec Ideal S4x256 .f32) (h1 : S4x256.Slices ![o, 0] S1x256)
    (h2 : S1x256.ShapeCasts S1x1x256) (h3 : S1x1x256.Broadcasts S4x512x256) (t : Fin 4) (ht : t.val = o)
    (b : Fin 4) (s : Fin 512) (c : Fin 256) :
    broadcastTo S4x512x256 (shapeCast S1x1x256 (extractStridedSlice S1x256 ![o, 0] v h1) h2) h3 (ix3 b s c)
      = v (ix2 t c) := by
  refine (broadcastTo_apply _ h3 (ix3 b s c) (ix3 (0 : Fin 1) (0 : Fin 1) c) fun a => ?_).trans ?_
  · match a with
    | ⟨0, _⟩ => rfl
    | ⟨1, _⟩ => rfl
    | ⟨2, _⟩ => rfl
  refine (shapeCast_apply _ h2 (ix3 (0 : Fin 1) (0 : Fin 1) c) (ix2 (0 : Fin 1) c) ?_).trans ?_
  · rw [Shape.rowMajor_val_three, Shape.rowMajor_val_two]
    rfl
  exact slice2_axis0_apply o v h1 (0 : Fin 1) c t (by show t.val = o + 0; omega)

/-- The block shifted down by n positions (n rows of z in front, then the block's first m = 512 - n positions): at
    (b, s, c) it is x(b, s - n, c), and z where s < n. -/
theorem shift_apply {n m : Nat} (hnm : n + m = 512) (z : EReal) (v : FVec Ideal S4x512x256 .f32)
    (hs : S4x512x256.Slices ![0, 0, 0] ⟨3, ![4, m, 256]⟩)
    (hc : Shape.Concatenates [⟨3, ![4, n, 256]⟩, ⟨3, ![4, m, 256]⟩] S4x512x256 1)
    (b : Fin 4) (s : Fin 512) (c : Fin 256) :
    concatenate S4x512x256 1 [⟨⟨3, ![4, n, 256]⟩, broadcast ⟨3, ![4, n, 256]⟩ z⟩,
        ⟨⟨3, ![4, m, 256]⟩, extractStridedSlice ⟨3, ![4, m, 256]⟩ ![0, 0, 0] v hs⟩] hc (ix3 b s c)
      = if h : n ≤ s.val then v (ix3 b ⟨s.val - n, by omega⟩ c) else z := by
  by_cases h : n ≤ s.val
  · rw [dif_pos h]
    have hlt : s.val - n < m := by have := s.isLt; omega
    refine (concatenate_pair_apply_right (t := S4x512x256) (s₁ := ⟨3, ![4, n, 256]⟩) (s₂ := ⟨3, ![4, m, 256]⟩) (1 : Fin 3) _ _ hc
      (ix3 b s c) rfl rfl (ix3 b (⟨s.val - n, hlt⟩ : Fin m) c) (fun a ha => ?_)
      (by show (s.val - n) + n = s.val; omega)).trans ?_
    · match a, ha with
      | ⟨0, _⟩, _ => rfl
      | ⟨1, _⟩, ha => exact absurd rfl ha
      | ⟨2, _⟩, _ => rfl
    exact slice3_axis1_apply 0 v hs b (⟨s.val - n, hlt⟩ : Fin m) c _ (Nat.zero_add _).symm
  · rw [dif_neg h]
    have hlt : s.val < n := by omega
    exact concatenate_pair_apply_left (t := S4x512x256) (s₁ := ⟨3, ![4, n, 256]⟩) (s₂ := ⟨3, ![4, m, 256]⟩) (1 : Fin 3) _ _ hc
      (ix3 b s c) rfl (ix3 b (⟨s.val, hlt⟩ : Fin n) c) (fun a => by
      match a with
      | ⟨0, _⟩ => rfl
      | ⟨1, _⟩ => rfl
      | ⟨2, _⟩ => rfl)

/-- The value the program forms before the logistic (its `%258`), over the loaded block, the loaded taps and tap
    row 3 as the program passes them, spelt as the program spells it. -/
def convPay (v228 : FVec Ideal S4x512x256 .f32) (v230 : FVec Ideal S4x256 .f32) (v232 : FVec Ideal S1x1x256 .f32) :
    FVec Ideal S4x512x256 .f32 :=
  addf (addf (addf
    (mulf v228 (broadcastTo S4x512x256 v232 Gen.broadcasts_S1x1x256_S4x512x256))
    (mulf (concatenate S4x512x256 1 [⟨S4x3x256, broadcast S4x3x256 (Scalar.ofBits .f32 0x00000000#32)⟩,
        ⟨S4x509x256, extractStridedSlice S4x509x256 ![0, 0, 0] v228 Gen.slices_S4x512x256_o0_0_0_S4x509x256⟩]
        Gen.concatenates_S4x3x256_S4x509x256_S4x512x256_d1)
      (broadcastTo S4x512x256 (shapeCast S1x1x256 (extractStridedSlice S1x256 ![0, 0] v230 Gen.slices_S4x256_o0_0_S1x256)
        Gen.shapeCasts_S1x256_S1x1x256) Gen.broadcasts_S1x1x256_S4x512x256)))
    (mulf (concatenate S4x512x256 1 [⟨S4x2x256, broadcast S4x2x256 (Scalar.ofBits .f32 0x00000000#32)⟩,
        ⟨S4x510x256, extractStridedSlice S4x510x256 ![0, 0, 0] v228 Gen.slices_S4x512x256_o0_0_0_S4x510x256⟩]
        Gen.concatenates_S4x2x256_S4x510x256_S4x512x256_d1)
      (broadcastTo S4x512x256 (shapeCast S1x1x256 (extractStridedSlice S1x256 ![1, 0] v230 Gen.slices_S4x256_o1_0_S1x256)
        Gen.shapeCasts_S1x256_S1x1x256) Gen.broadcasts_S1x1x256_S4x512x256)))
    (mulf (concatenate S4x512x256 1 [⟨S4x1x256, broadcast S4x1x256 (Scalar.ofBits .f32 0x00000000#32)⟩,
        ⟨S4x511x256, extractStridedSlice S4x511x256 ![0, 0, 0] v228 Gen.slices_S4x512x256_o0_0_0_S4x511x256⟩]
        Gen.concatenates_S4x1x256_S4x511x256_S4x512x256_d1)
      (broadcastTo S4x512x256 (shapeCast S1x1x256 (extractStridedSlice S1x256 ![2, 0] v230 Gen.slices_S4x256_o2_0_S1x256)
        Gen.shapeCasts_S1x256_S1x1x256) Gen.broadcasts_S1x1x256_S4x512x256))

/-- The loaded block is the block. -/
theorem pay1_eq (x : Vec Ideal S4x512x256 .f32) : Gen.k0_pay1 (F := Ideal) x = x := shapeCast_self x _

/-- The loaded taps are the taps. -/
theorem pay2_eq (k : Vec Ideal S4x256 .f32) : Gen.k0_pay2 (F := Ideal) k = k := shapeCast_self k _

/-- The zero word is the extended real 0. -/
theorem zero_word : (Scalar.ofBits (F := Ideal) .f32 0x00000000#32 : EReal) = 0 := Ideal.ofBits_zero_f32

/-- THE CONVOLUTION AT (b, s, c). -/
theorem convPay_apply (x : Vec Ideal S4x512x256 .f32) (k : Vec Ideal S4x256 .f32) (b : Fin 4) (s : Fin 512) (c : Fin 256) :
    convPay (Gen.k0_pay1 x) (Gen.k0_pay2 k) (Gen.k0_pay3 k) (ix3 b s c) = convK x k b s c := by
  unfold Gen.k0_pay3
  rw [pay1_eq, pay2_eq]
  unfold convPay convK xsh
  rw [addf_apply, addf_apply, addf_apply, mulf_apply, mulf_apply, mulf_apply, mulf_apply,
    krow_apply 3 k _ _ _ (3 : Fin 4) rfl, krow_apply 0 k _ _ _ (0 : Fin 4) rfl, krow_apply 1 k _ _ _ (1 : Fin 4) rfl,
    krow_apply 2 k _ _ _ (2 : Fin 4) rfl,
    shift_apply (n := 3) (m := 509) rfl, shift_apply (n := 2) (m := 510) rfl, shift_apply (n := 1) (m := 511) rfl,
    zero_word]

end Cert.KernelIdeal.PayValue

end
-- ==== Proof.PayPartial.lean ====
/-
  The stored partial product, read at an index (ideal instance).

  The program gates the convolution v by v * logistic v, views the [4,512,256] result as a [2048,256] matrix (row
  b * 512 + s), multiplies it by the [256,256] weight block into a zero accumulator, and views the [2048,256] product as
  [16,128,256] (row o * 128 + r); narrowing to bf16 is the identity at the ideal instance. So the entry at (o, r, h) is
  the sum over the 256 channels j of gate(conv(b, s, j)) * w(j, h), where (b, s) are the quotient and remainder of
  o * 128 + r by 512.
-/
import proofs.«900432_g7700000000000433_dist_gconv1d_cshard_i_b4_s512_c256_v7x_i16_bf16_1_alg».proof.Proof.PayConv

noncomputable section

open scoped BigOperators

namespace Cert.KernelIdeal.PayValue

open Idealize.ShloMosaic Idealize.ShloMosaic.ValueIdx Cert.KernelIdeal

/-- The gate: v times the logistic of v. -/
def gate (v : EReal) : EReal := v * Ideal.logistic v

/-- The batch coordinate of row o * 128 + r of the [2048,256] matrix. -/
def rowB (o : Fin 16) (r : Fin 128) : Fin 4 := ⟨(o.val * 128 + r.val) / 512, by omega⟩

/-- The position coordinate of row o * 128 + r of the [2048,256] matrix. -/
def rowS (o : Fin 16) (r : Fin 128) : Fin 512 := ⟨(o.val * 128 + r.val) % 512, by omega⟩

/-- The product's left operand index at output (R, h) and contraction coordinate j is (R, j). -/
theorem lhsIdx_eq (R : Fin 2048) (h j : Fin 256) :
    dot_S2048x256_S256x256_S2048x256_1_0_0_1_n_n.lhsIdx (ix2 R h) ((contrEquiv1 dot_S2048x256_S256x256_S2048x256_1_0_0_1_n_n 256 rfl rfl).symm j) = ix2 R j := by
  have hk := contrEquiv1_symm_val dot_S2048x256_S256x256_S2048x256_1_0_0_1_n_n 256 rfl rfl j
  funext a
  refine Fin.ext ?_
  match a with
  | ⟨0, _⟩ =>
    show (dot_S2048x256_S256x256_S2048x256_1_0_0_1_n_n.lhsIdx (ix2 R h) _ 0).val = R.val
    unfold DotDims.lhsIdx
    rw [dif_neg (show ¬(0 : Fin S2048x256.rank) ∈ dot_S2048x256_S256x256_S2048x256_1_0_0_1_n_n.lhsBatch by decide),
      dif_pos (show (0 : Fin S2048x256.rank) ∈ dot_S2048x256_S256x256_S2048x256_1_0_0_1_n_n.lhsNonContracting by decide)]
    rfl
  | ⟨1, _⟩ => exact (dot_S2048x256_S256x256_S2048x256_1_0_0_1_n_n.lhsIdx_val_of_single rfl (ix2 R h) _).trans hk

/-- The product's right operand index at output (R, h) and contraction coordinate j is (j, h). -/
theorem rhsIdx_eq (R : Fin 2048) (h j : Fin 256) :
    dot_S2048x256_S256x256_S2048x256_1_0_0_1_n_n.rhsIdx (ix2 R h) ((contrEquiv1 dot_S2048x256_S256x256_S2048x256_1_0_0_1_n_n 256 rfl rfl).symm j) = ix2 j h := by
  have hk := contrEquiv1_symm_val dot_S2048x256_S256x256_S2048x256_1_0_0_1_n_n 256 rfl rfl j
  funext a
  refine Fin.ext ?_
  match a with
  | ⟨0, _⟩ => exact (dot_S2048x256_S256x256_S2048x256_1_0_0_1_n_n.rhsIdx_val_of_single rfl (ix2 R h) _).trans hk
  | ⟨1, _⟩ =>
    show (dot_S2048x256_S256x256_S2048x256_1_0_0_1_n_n.rhsIdx (ix2 R h) _ 1).val = h.val
    unfold DotDims.rhsIdx
    rw [dif_neg (show ¬(1 : Fin S256x256.rank) ∈ dot_S2048x256_S256x256_S2048x256_1_0_0_1_n_n.rhsBatch by decide),
      dif_pos (show (1 : Fin S256x256.rank) ∈ dot_S2048x256_S256x256_S2048x256_1_0_0_1_n_n.rhsNonContracting by decide)]
    rfl

/-- What the program does to the convolution cv and the weight block w: gate, view as a matrix, multiply into zero, view
    as [16,128,256], spelt as the program spells it. -/
def partialOf (cv : FVec Ideal S4x512x256 .f32) (w : Vec Ideal S256x256 .f32) : FVec Ideal S16x128x256 .bf16 :=
  shapeCast S16x128x256 (truncf .bf16 (shapeCast S16x128x256
    (matmul dot_S2048x256_S256x256_S2048x256_1_0_0_1_n_n none
      (truncf .bf16 (shapeCast S2048x256 (mulf cv (logistic cv)) Gen.shapeCasts_S4x512x256_S2048x256) Gen.bitsLt_bf16_f32)
      (truncf .bf16 (shapeCast S256x256 w Gen.shapeCasts_S256x256_S256x256) Gen.bitsLt_bf16_f32)
      (constant S2048x256 .f32 0x00000000#32))
    Gen.shapeCasts_S2048x256_S16x128x256) Gen.bitsLt_bf16_f32) Gen.shapeCasts_S16x128x256_S16x128x256

/-- The stored value is that function of the convolution and the weight block. -/
theorem pay4_eq (v228 : FVec Ideal S4x512x256 .f32) (v230 : FVec Ideal S4x256 .f32) (v232 : FVec Ideal S1x1x256 .f32)
    (w : Vec Ideal S256x256 .f32) :
    Gen.k0_pay4 (F := Ideal) v228 v230 v232 w = partialOf (convPay v228 v230 v232) w := rfl

/-- The gated convolution viewed as a [2048,256] matrix: at (b * 512 + s, j) it is the gate of cv(b, s, j). -/
theorem gated_apply (cv : FVec Ideal S4x512x256 .f32) (R : Fin 2048) (j : Fin 256) :
    shapeCast S2048x256 (mulf cv (logistic cv)) Gen.shapeCasts_S4x512x256_S2048x256 (ix2 R j)
      = gate (cv (ix3 (⟨R.val / 512, by omega⟩ : Fin 4) (⟨R.val % 512, by omega⟩ : Fin 512) j)) := by
  refine (shapeCast_apply _ _ (ix2 R j) (ix3 (⟨R.val / 512, by omega⟩ : Fin 4) (⟨R.val % 512, by omega⟩ : Fin 512) j)
    ?_).trans rfl
  rw [Shape.rowMajor_val_three, Shape.rowMajor_val_two]
  show (R.val / 512 * 512 + R.val % 512) * 256 + j.val = R.val * 256 + j.val
  rw [Nat.div_add_mod']

/-- THE PARTIAL PRODUCT OF A CONVOLUTION cv AT (o, r, h). -/
theorem partialOf_apply (cv : FVec Ideal S4x512x256 .f32) (w : Vec Ideal S256x256 .f32) (o : Fin 16) (r : Fin 128)
    (h : Fin 256) :
    partialOf cv w (ix3 o r h) = ∑ j : Fin 256, gate (cv (ix3 (rowB o r) (rowS o r) j)) * w (ix2 j h) := by
  unfold partialOf
  rw [shapeCast_self, truncf_apply]
  refine (shapeCast_apply _ _ (ix3 o r h) (ix2 (⟨o.val * 128 + r.val, by omega⟩ : Fin 2048) h) ?_).trans ?_
  · rw [Shape.rowMajor_val_two, Shape.rowMajor_val_three]
    rfl
  refine (Ideal.matmul_constant_zero_apply dot_S2048x256_S256x256_S2048x256_1_0_0_1_n_n none _ _ _).trans ?_
  rw [← Equiv.sum_comp (contrEquiv1 dot_S2048x256_S256x256_S2048x256_1_0_0_1_n_n 256 rfl rfl).symm]
  refine Finset.sum_congr rfl fun j _ => ?_
  rw [lhsIdx_eq, rhsIdx_eq, truncf_apply, truncf_apply, shapeCast_self, gated_apply]
  rfl

/-- THE STORED PARTIAL PRODUCT AT (o, r, h), over the block x, the taps k and the weight block w. -/
theorem pay4_apply (x : Vec Ideal S4x512x256 .f32) (k : Vec Ideal S4x256 .f32) (w : Vec Ideal S256x256 .f32)
    (o : Fin 16) (r : Fin 128) (h : Fin 256) :
    Gen.k0_pay4 (F := Ideal) (Gen.k0_pay1 x) (Gen.k0_pay2 k) (Gen.k0_pay3 k) w (ix3 o r h)
      = ∑ j : Fin 256, gate (convK x k (rowB o r) (rowS o r) j) * w (ix2 j h) := by
  rw [pay4_eq, partialOf_apply]
  refine Finset.sum_congr rfl fun j _ => ?_
  rw [convPay_apply]

end Cert.KernelIdeal.PayValue

end
-- ==== Proof.Shards.lean ====
/-
  The sum over 4096 channels, cut into 16 blocks of 256.

  Channel `c = d · 256 + j` of the whole arrays is channel `j` of block `d`: of the input along its last axis,
  of the taps along their second axis, of the matrix along its rows. So the whole projection is the sum over
  the 16 blocks of each block's projection.
-/
import Idealize.ShloMosaic.Lib.Layout
import proofs.«900432_g7700000000000433_dist_gconv1d_cshard_i_b4_s512_c256_v7x_i16_bf16_1_alg».proof.Proof.Spec

noncomputable section

open scoped BigOperators

namespace Cert.GatedConv

open Idealize.ShloMosaic Idealize.ShloMosaic.ValueIdx

/-- Channel `j` of block `d`, as a channel of the whole. -/
def chan (d : Fin 16) (j : Fin 256) : Fin 4096 := ⟨d.val * 256 + j.val, by omega⟩

@[simp] theorem chan_val (d : Fin 16) (j : Fin 256) : (chan d j).val = d.val * 256 + j.val := rfl

/-- Every channel of the whole is channel `c % 256` of block `c / 256`, and of no other. -/
def chanEquiv : Fin 16 × Fin 256 ≃ Fin 4096 where
  toFun p := chan p.1 p.2
  invFun c := (⟨c.val / 256, by omega⟩, ⟨c.val % 256, by omega⟩)
  left_inv p := by
    obtain ⟨d, j⟩ := p
    refine Prod.ext (Fin.ext ?_) (Fin.ext ?_)
    · show (d.val * 256 + j.val) / 256 = d.val; omega
    · show (d.val * 256 + j.val) % 256 = j.val; omega
  right_inv c := by
    refine Fin.ext ?_
    show c.val / 256 * 256 + c.val % 256 = c.val; omega

/-- A sum over the 4096 channels is the sum over the blocks of the sums over each block's channels. -/
theorem sum_chan {M : Type*} [AddCommMonoid M] (F : Fin 4096 → M) :
    ∑ c : Fin 4096, F c = ∑ d : Fin 16, ∑ j : Fin 256, F (chan d j) := by
  rw [← Equiv.sum_comp chanEquiv F, Fintype.sum_prod_type]
  rfl

/-- Block `d` of the input, cut along its last axis, at channel `j`. -/
theorem blockX_apply (X : (⟨3, ![4, 512, 4096]⟩ : Shape).Idx → EReal) (d : Fin 16) (b : Fin 4) (s : Fin 512) (j : Fin 256) :
    (Layout.block ⟨3, ![4, 512, 256]⟩ ⟨3, ![4, 512, 4096]⟩ 2 16 d X) (ix3 b s j) = X (ix3 b s (chan d j)) := by
  rw [Layout.block_apply]
  congr 1
  funext a
  match a with
  | ⟨0, _⟩ => rfl
  | ⟨1, _⟩ => rfl
  | ⟨2, _⟩ => rfl

/-- Block `d` of the taps, cut along their second axis, at channel `j`. -/
theorem blockK_apply (K : (⟨2, ![4, 4096]⟩ : Shape).Idx → EReal) (d : Fin 16) (t : Fin 4) (j : Fin 256) :
    (Layout.block ⟨2, ![4, 256]⟩ ⟨2, ![4, 4096]⟩ 1 16 d K) (ix2 t j) = K (ix2 t (chan d j)) := by
  rw [Layout.block_apply]
  congr 1
  funext a
  match a with
  | ⟨0, _⟩ => rfl
  | ⟨1, _⟩ => rfl

/-- Block `d` of the matrix, cut along its rows, at row `j`. -/
theorem blockW_apply (W : (⟨2, ![4096, 256]⟩ : Shape).Idx → EReal) (d : Fin 16) (j : Fin 256) (h : Fin 256) :
    (Layout.block ⟨2, ![256, 256]⟩ ⟨2, ![4096, 256]⟩ 0 16 d W) (ix2 j h) = W (ix2 (chan d j) h) := by
  rw [Layout.block_apply]
  congr 1
  funext a
  match a with
  | ⟨0, _⟩ => rfl
  | ⟨1, _⟩ => rfl

/-- The padded input of block `d` at channel `j` is the whole's at channel `d · 256 + j`. -/
theorem padAt_block (X : (⟨3, ![4, 512, 4096]⟩ : Shape).Idx → EReal) (d : Fin 16) (b : Fin 4) (s : Fin 512) (t : Fin 4) (j : Fin 256) :
    padAt (Layout.block ⟨3, ![4, 512, 256]⟩ ⟨3, ![4, 512, 4096]⟩ 2 16 d X) b s t j = padAt X b s t (chan d j) := by
  unfold padAt
  split
  · exact blockX_apply X d b _ j
  · rfl

/-- The convolution of block `d` at channel `j` is the whole's at channel `d · 256 + j`. -/
theorem convAt_block (X : (⟨3, ![4, 512, 4096]⟩ : Shape).Idx → EReal) (K : (⟨2, ![4, 4096]⟩ : Shape).Idx → EReal)
    (d : Fin 16) (b : Fin 4) (s : Fin 512) (j : Fin 256) :
    convAt (Layout.block ⟨3, ![4, 512, 256]⟩ ⟨3, ![4, 512, 4096]⟩ 2 16 d X) (Layout.block ⟨2, ![4, 256]⟩ ⟨2, ![4, 4096]⟩ 1 16 d K) b s j
      = convAt X K b s (chan d j) := by
  unfold convAt
  refine Finset.sum_congr rfl fun t _ => ?_
  rw [padAt_block, blockK_apply]

/-- THE SPLIT: the whole projection is the sum over the 16 blocks of each block's projection. -/
theorem whole_eq_sum_partial (X : (⟨3, ![4, 512, 4096]⟩ : Shape).Idx → EReal) (K : (⟨2, ![4, 4096]⟩ : Shape).Idx → EReal)
    (W : (⟨2, ![4096, 256]⟩ : Shape).Idx → EReal) (b : Fin 4) (s : Fin 512) (h : Fin 256) :
    wholeAt X K W b s h = ∑ d : Fin 16, partialAt (Layout.block ⟨3, ![4, 512, 256]⟩ ⟨3, ![4, 512, 4096]⟩ 2 16 d X)
      (Layout.block ⟨2, ![4, 256]⟩ ⟨2, ![4, 4096]⟩ 1 16 d K) (Layout.block ⟨2, ![256, 256]⟩ ⟨2, ![4096, 256]⟩ 0 16 d W) b s h := by
  unfold wholeAt partialAt
  rw [sum_chan]
  refine Finset.sum_congr rfl fun d _ => Finset.sum_congr rfl fun j _ => ?_
  rw [convAt_block, blockW_apply]

end Cert.GatedConv

end
-- ==== Proof.ValueBridge.lean ====
/-
  The kernel's final contents, as a function of the memory at launch, is the whole projection of the gated causal
  convolution of the arrays the devices' argument buffers are blocks of.

  Device d's stored partial product at (o, r, h) is the projection, over its 256 channels, of the gated convolution
  of its blocks at output row o * 128 + r. Device j's sum adds row-block j of the sixteen devices' partial products,
  its own first and then those of the devices 1, …, 15 places before it: every device once, since o ↦ j - o is a
  bijection of the ring of sixteen. Row (b, s) of the result lies in row-block b * 4 + s / 128 at offset s % 128.
  So the result at (b, s, h) is the sum over the sixteen devices of their blocks' projections, which is the whole
  projection, the 4096 channels being sixteen blocks of 256.
-/
import proofs.«900432_g7700000000000433_dist_gconv1d_cshard_i_b4_s512_c256_v7x_i16_bf16_1_alg».proof.Proof.Contents
import proofs.«900432_g7700000000000433_dist_gconv1d_cshard_i_b4_s512_c256_v7x_i16_bf16_1_alg».proof.Proof.PaySum
import proofs.«900432_g7700000000000433_dist_gconv1d_cshard_i_b4_s512_c256_v7x_i16_bf16_1_alg».proof.Proof.PayPartial
import proofs.«900432_g7700000000000433_dist_gconv1d_cshard_i_b4_s512_c256_v7x_i16_bf16_1_alg».proof.Proof.Spec
import proofs.«900432_g7700000000000433_dist_gconv1d_cshard_i_b4_s512_c256_v7x_i16_bf16_1_alg».proof.Proof.Shards

set_option maxRecDepth 16384

noncomputable section

open scoped BigOperators

namespace Cert.KernelIdeal.Bridge

open Cert.KernelIdeal Cert.KernelIdeal.Gen Cert.KernelIdeal.Proto Cert.GatedConv
open Idealize.ShloMosaic Idealize.ShloMosaic.TcCoe Idealize.ShloMosaic.ValueIdx

/-! ## The program's convolution is the specification's -/

/-- The block read `t` positions earlier is the padded input at tap `3 - t`. -/
theorem xsh_eq_padAt (x : Vec Ideal S4x512x256 .f32) (t : Nat) (t' : Fin 4) (ht : t + t'.val = 3)
    (b : Fin 4) (s : Fin 512) (c : Fin 256) : PayValue.xsh x t b s c = padAt x b s t' c := by
  unfold PayValue.xsh padAt
  by_cases h : t ≤ s.val
  · have h' : 3 ≤ s.val + t'.val := by omega
    rw [dif_pos h, dif_pos h']
    exact congrArg (fun z : Fin 512 => x (ix3 b z c)) (Fin.ext (by show s.val - t = s.val + t'.val - 3; omega))
  · have h' : ¬ 3 ≤ s.val + t'.val := by omega
    rw [dif_neg h, dif_neg h']

/-- The convolution in the program's association is the four-tap sum. -/
theorem convK_eq_convAt (x : Vec Ideal S4x512x256 .f32) (k : Vec Ideal S4x256 .f32) (b : Fin 4) (s : Fin 512) (c : Fin 256) :
    PayValue.convK x k b s c = convAt x k b s c := by
  unfold PayValue.convK
  rw [convAt_eq_last_first, xsh_eq_padAt x 3 0 rfl, xsh_eq_padAt x 2 1 rfl, xsh_eq_padAt x 1 2 rfl]

/-! ## A device's partial product -/

variable (m : (ℓ : Loc nD τ sig) → Buf (Elt Ideal) ℓ)

/-- Device `c`'s stored partial product at (o, r, h): its blocks' projection at output row o * 128 + r. -/
theorem partialOf_apply (c : Dev nD) (o : Fin 16) (r : Fin 128) (h : Fin 256) :
    partialOf m c (ix3 o r h)
      = partialAt (xB m c) (kB m c) (wB m c) (PayValue.rowB o r) (PayValue.rowS o r) h := by
  unfold partialOf partialAt
  refine (PayValue.pay4_apply (xB m c) (kB m c) (wB m c) o r h).trans ?_
  refine Finset.sum_congr rfl fun j _ => ?_
  rw [convK_eq_convAt]
  rfl

/-- The input window's one block is the whole argument buffer. -/
theorem xB_eq (c : Dev nD) : xB m c = m ((c.tc : Thread nD τ).loc main_arg0) := by
  have hz : (fun a => (win0_0.index t0_0) a * main_arg0.ty.shape.size a) = fun _ => 0 := funext fun a => Nat.zero_mul _
  have hr := fun f => Memref.read_access_unit_zero (Elt Ideal) main_arg0 hz (fun a => by fin_cases a <;> decide) f
  unfold xB iblk
  rw [hr]
/-- The taps window's one block is the whole argument buffer. -/
theorem kB_eq (c : Dev nD) : kB m c = m ((c.tc : Thread nD τ).loc main_arg1) := by
  have hz : (fun a => (win0_1.index t0_0) a * main_arg1.ty.shape.size a) = fun _ => 0 := funext fun a => Nat.zero_mul _
  have hr := fun f => Memref.read_access_unit_zero (Elt Ideal) main_arg1 hz (fun a => by fin_cases a <;> decide) f
  unfold kB iblk
  rw [hr]
/-- The matrix window's one block is the whole argument buffer. -/
theorem wB_eq (c : Dev nD) : wB m c = m ((c.tc : Thread nD τ).loc main_arg2) := by
  have hz : (fun a => (win0_2.index t0_0) a * main_arg2.ty.shape.size a) = fun _ => 0 := funext fun a => Nat.zero_mul _
  have hr := fun f => Memref.read_access_unit_zero (Elt Ideal) main_arg2 hz (fun a => by fin_cases a <;> decide) f
  unfold wB iblk
  rw [hr]

/-! ## A device's sum -/

/-- The sixteen chunks device `j` adds: row-block `j` of the device `o` places before it, o = 0, …, 15. -/
def chunks (j : Dev nD) (o : Fin 16) : Vec Ideal S1x128x256 .bf16 := rowOf m (back j o.val) j

/-- Zero places before a device is the device. -/
theorem back_zero (j : Dev nD) : back j 0 = j := by
  refine Fin.ext ?_
  have hj : j.val < 16 := j.isLt
  show (j.val + (16 - 0 % 16)) % 16 = j.val
  omega

/-- The sum, as the program nests it, is the chain over the sixteen chunks. -/
theorem redOf_eq_chain (j : Dev nD) :
    redOf m j = PayValue.chain16 (chunks m j 0) (chunks m j 1) (chunks m j 2) (chunks m j 3) (chunks m j 4) (chunks m j 5) (chunks m j 6) (chunks m j 7) (chunks m j 8) (chunks m j 9) (chunks m j 10) (chunks m j 11) (chunks m j 12) (chunks m j 13) (chunks m j 14) (chunks m j 15) := by
  have h0 : chunks m j 0 = rowOf m j j := by
    show rowOf m (back j 0) j = rowOf m j j
    rw [back_zero]
  rw [h0]
  rfl

/-- Device `j`'s sum at (0, r, h): the sum over o of row-block `j` of the device `o` places before it. -/
theorem redOf_apply (j : Dev nD) (u : Fin 1) (r : Fin 128) (h : Fin 256) :
    redOf m j (ix3 u r h) = ∑ o : Fin 16, rowOf m (back j o.val) j (ix3 (0 : Fin 1) r h) := by
  rw [redOf_eq_chain]
  exact PayValue.chain16_sum (chunks m j) u r h

/-- Going `o` places back from `j` visits every device once: o ↦ j - o is its own inverse on the ring. -/
def backEquiv (j : Dev nD) : Fin 16 ≃ Dev nD where
  toFun o := back j o.val
  invFun d := back j d.val
  left_inv o := by
    refine Fin.ext ?_
    have hj : j.val < 16 := j.isLt
    have ho : o.val < 16 := o.isLt
    show (j.val + (16 - ((j.val + (16 - o.val % 16)) % 16) % 16)) % 16 = o.val
    omega
  right_inv d := by
    refine Fin.ext ?_
    have hj : j.val < 16 := j.isLt
    have hd : d.val < 16 := d.isLt
    show (j.val + (16 - ((j.val + (16 - d.val % 16)) % 16) % 16)) % 16 = d.val
    omega

/-- A sum over the places back is the sum over the devices. -/
theorem sum_back {M : Type*} [AddCommMonoid M] (j : Dev nD) (g : Dev nD → M) :
    ∑ o : Fin 16, g (back j o.val) = ∑ d : Dev nD, g d :=
  Equiv.sum_comp (backEquiv j) g

/-! ## Rows -/

/-- Output row (b, s) is row s % 128 of row-block b * 4 + s / 128: its batch coordinate … -/
theorem rowB_blk (b : Fin 4) (s : Fin 512) :
    PayValue.rowB (blkOf b s) ⟨s.val % 128, Nat.mod_lt _ (by decide)⟩ = b := by
  refine Fin.ext ?_
  have hb : b.val < 4 := b.isLt
  have hs : s.val < 512 := s.isLt
  show ((b.val * 4 + s.val / 128) * 128 + s.val % 128) / 512 = b.val
  omega
/-- … and its position. -/
theorem rowS_blk (b : Fin 4) (s : Fin 512) :
    PayValue.rowS (blkOf b s) ⟨s.val % 128, Nat.mod_lt _ (by decide)⟩ = s := by
  refine Fin.ext ?_
  have hb : b.val < 4 := b.isLt
  have hs : s.val < 512 := s.isLt
  show ((b.val * 4 + s.val / 128) * 128 + s.val % 128) % 512 = s.val
  omega

/-! ## The result -/

/-- The result at (b, s, h): the sum over the sixteen devices of their blocks' projections there. -/
theorem outFull_apply (b : Fin 4) (s : Fin 512) (h : Fin 256) :
    outFull m (ix3 b s h) = ∑ d : Dev nD, partialAt (m ((d.tc : Thread nD τ).loc main_arg0))
      (m ((d.tc : Thread nD τ).loc main_arg1)) (m ((d.tc : Thread nD τ).loc main_arg2)) b s h := by
  show redOf m (blkOf b s) (ix3 (0 : Fin 1) ⟨s.val % 128, Nat.mod_lt _ (by decide)⟩ h) = _
  rw [redOf_apply, sum_back (blkOf b s) fun d => rowOf m d (blkOf b s) (ix3 (0 : Fin 1) ⟨s.val % 128, Nat.mod_lt _ (by decide)⟩ h)]
  refine Finset.sum_congr rfl fun d _ => ?_
  show partialOf m d (ix3 (blkOf b s) ⟨s.val % 128, Nat.mod_lt _ (by decide)⟩ h) = _
  rw [partialOf_apply, rowB_blk, rowS_blk, xB_eq, kB_eq, wB_eq]

/-- THE VALUE BRIDGE: where every device's three argument buffers are its blocks of the whole arrays, the kernel's
    final contents is the whole projection, index by index. -/
theorem outFull_eq_whole (X : (⟨3, ![4, 512, 4096]⟩ : Shape).Idx → EReal) (K : (⟨2, ![4, 4096]⟩ : Shape).Idx → EReal)
    (W : (⟨2, ![4096, 256]⟩ : Shape).Idx → EReal)
    (hX : ∀ c : Dev nD, m ((c.tc : Thread nD τ).loc main_arg0) = Layout.block ⟨3, ![4, 512, 256]⟩ ⟨3, ![4, 512, 4096]⟩ 2 16 c X)
    (hK : ∀ c : Dev nD, m ((c.tc : Thread nD τ).loc main_arg1) = Layout.block ⟨2, ![4, 256]⟩ ⟨2, ![4, 4096]⟩ 1 16 c K)
    (hW : ∀ c : Dev nD, m ((c.tc : Thread nD τ).loc main_arg2) = Layout.block ⟨2, ![256, 256]⟩ ⟨2, ![4096, 256]⟩ 0 16 c W) :
    outFull (F := Ideal) m = fun i => wholeAt X K W (i 0) (i 1) (i 2) := by
  funext i
  obtain ⟨b, s, h, rfl⟩ : ∃ b s h, i = ix3 b s h := ⟨i 0, i 1, i 2, eq_ix3 i⟩
  show outFull m (ix3 b s h) = wholeAt X K W b s h
  rw [outFull_apply, whole_eq_sum_partial]
  refine Finset.sum_congr rfl fun d _ => ?_
  rw [hX d, hK d, hW d]

end Cert.KernelIdeal.Bridge

end
-- ==== Proof.ValueJoin.lean ====
/-
  The kernel's final contents is the reference's result: both are the whole projection of the gated causal
  convolution of the reference's argument arrays, of which each device's argument buffers are blocks.
-/
import proofs.«900432_g7700000000000433_dist_gconv1d_cshard_i_b4_s512_c256_v7x_i16_bf16_1_alg».proof.Proof.RefIsSpec
import proofs.«900432_g7700000000000433_dist_gconv1d_cshard_i_b4_s512_c256_v7x_i16_bf16_1_alg».proof.Proof.ValueBridge

set_option maxRecDepth 16384

noncomputable section

namespace Cert.Join

open Idealize.ShloMosaic Idealize.ShloMosaic.TcCoe

/-- Where each device's argument buffers are its blocks of the reference's argument arrays, the kernel's final
    contents is the term the reference's run states its result at. -/
theorem outFull_eq_ref
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : ∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 4096]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 256]⟩ ⟨2, ![4, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg2))) :
    Cert.KernelIdeal.Proto.outFull (F := Ideal) m = Cert.ReferenceIdeal.Value.res_out0 (F := Ideal) m' 0 :=
  (Cert.KernelIdeal.Bridge.outFull_eq_whole m _ _ _ (fun c => (h c).1) (fun c => (h c).2.1) (fun c => (h c).2.2)).trans
    (Cert.GatedConv.res_out0_eq m' 0).symm

end Cert.Join

end
-- ==== Proof.ClaimsIdeal.lean ====
/-
  Two of the five conjuncts, at the ideal instance, from the kernel's run.

  The kernel's run leaves, on every device, the three argument arrays as they were and the result array at the kernel's
  final contents. Forgetting the result gives the idealized kernel's frame. The final contents is the reference's result
  where each device's argument buffers are its blocks of the reference's arrays, and the reference's own run ends at that
  result with its arguments unchanged: together, the two programs agree.
-/
import proofs.«900432_g7700000000000433_dist_gconv1d_cshard_i_b4_s512_c256_v7x_i16_bf16_1_alg».proof.Defs
import proofs.«900432_g7700000000000433_dist_gconv1d_cshard_i_b4_s512_c256_v7x_i16_bf16_1_alg».proof.Proof.ValueJoin
import proofs.«900432_g7700000000000433_dist_gconv1d_cshard_i_b4_s512_c256_v7x_i16_bf16_1_alg».proof.Proof.Gen.Pre_finite_inputs_Kernel

set_option maxRecDepth 16384

noncomputable section

namespace Cert.Proof.IdealClaims

open Idealize.ShloMosaic Idealize.ShloMosaic.TcCoe Idealize.SL.Sem

/-- The idealized kernel's frame: its run, the result forgotten. -/
theorem frame_KernelIdeal_of [hKernelIdeal : Cert.KernelIdeal.Facts] [hPre_finite_inputs_Kernel : Cert.Pre_finite_inputs_Kernel.Facts]
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_v1) = Cert.KernelIdeal.Proto.outFull (F := Ideal) m)) :
    Cert.frame_KernelIdeal := fun m g _ =>
  (θ_run Cert.KernelIdeal.defs _ _).mono (fun _ h c => ⟨(h c).1, (h c).2.1, (h c).2.2.1⟩) (hrun m g)

/-- The idealized kernel and the idealized reference agree: the value every device's result ends at is the term the
    reference's run states its result at. -/
theorem algebraic_of [hKernelIdeal : Cert.KernelIdeal.Facts] [hReferenceIdeal : Cert.ReferenceIdeal.Facts]
    [hPre_finite_inputs_Kernel : Cert.Pre_finite_inputs_Kernel.Facts]
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_v1) = Cert.KernelIdeal.Proto.outFull (F := Ideal) m)) :
    Cert.algebraic_KernelIdeal_ReferenceIdeal := by
  intro m g m' g' _ hagree
  have hjoin : Cert.KernelIdeal.Proto.outFull (F := Ideal) m = Cert.ReferenceIdeal.Value.res_out0 (F := Ideal) m' 0 :=
    Cert.Join.outFull_eq_ref m m' hagree
  refine ⟨Cert.ReferenceIdeal.Value.res_out0 (F := Ideal) m' 0, ?_, ?_⟩
  · exact (θ_run Cert.KernelIdeal.defs _ _).mono
      (fun _ h c => ⟨((h c).2.2.2).trans hjoin, (h c).1, (h c).2.1, (h c).2.2.1⟩) (hrun m g)
  · exact (θ_run Cert.ReferenceIdeal.defs _ _).mono (fun _ h => h 0) (Cert.ReferenceIdeal.Value.run (F := Ideal) m' g')

end Cert.Proof.IdealClaims

end
-- ==== Proof.ClaimsBits.lean ====
/-
  The word-level kernel's frame from its run: the run leaves the three argument arrays as they were; what the result
  array ends at is forgotten.
-/
import proofs.«900432_g7700000000000433_dist_gconv1d_cshard_i_b4_s512_c256_v7x_i16_bf16_1_alg».proof.Defs
import proofs.«900432_g7700000000000433_dist_gconv1d_cshard_i_b4_s512_c256_v7x_i16_bf16_1_alg».proof.Proof.Gen.Pre_finite_inputs_Kernel

set_option maxRecDepth 16384

noncomputable section

namespace Cert.Proof.BitsClaims

open Idealize.ShloMosaic Idealize.ShloMosaic.TcCoe Idealize.SL.Sem

/-- The kernel's frame: its run at the word-level instance, the result forgotten, whatever the result is. -/
theorem frame_Kernel_of [hKernel : Cert.Kernel.Facts] [hPre_finite_inputs_Kernel : Cert.Pre_finite_inputs_Kernel.Facts]
    (out : ((ℓ : Loc Cert.Kernel.nD Cert.Kernel.τ Cert.Kernel.sig) → Buf (Elt Bits) ℓ) → FVec Bits Cert.Kernel.S4x512x256 .bf16)
    (hrun : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_v1) = out m)) :
    Cert.frame_Kernel := fun m g _ =>
  (θ_run Cert.Kernel.defs _ _).mono (fun _ h c => ⟨(h c).1, (h c).2.1, (h c).2.2.1⟩) (hrun m g)

end Cert.Proof.BitsClaims

end
-- ==== Proof.Protocol.lean ====
/-
  The cross-device protocol of the gated-convolution kernel on sixteen devices, as a schedule of rounds.

  Every device c computes its partial product (its 256 input channels' contribution to all 2048 output rows),
  stores it as sixteen row-blocks of 128 rows, and then
    * tells every other device, on the runtime's barrier semaphore, that it is inside the kernel (fifteen signals),
      and waits for the fifteen signals addressed to it;
    * sends row-block (c + o) mod 16 of its partial product into slot o of the temporary buffer of device
      (c + o) mod 16, for o = 1, …, 15 (the reduce-scatter), and adds its own row-block c and the fifteen blocks that
      land in its slots: the sum over all devices of row-block c;
    * stores that sum as block c of its result and sends it to block c of every other device's result (the all-gather).
  Each device's barrier cell has one round of fifteen duties of one unit; each of its 4 · 15 transfer cells (scatter
  send / receive, gather send / receive, per offset o) one round of one duty of the block's credit.
  The signal device p sends to device e = (p + o) mod 16 hands e the two places in p's buffers that e will write:
  slot 16 - o of p's temporary buffer and block e of p's result.
-/
import proofs.«900432_g7700000000000433_dist_gconv1d_cshard_i_b4_s512_c256_v7x_i16_bf16_1_alg».proof.Proof.Contents
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen Cert.KernelIdeal.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) and the protocol's (duties named by an offset) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Buffers, slices and cells -/

abbrev xM : Memref sig .tc .vmem S4x512x256 .f32 := Memref.whole cc0_stg0_0
abbrev kM : Memref sig .tc .vmem S4x256 .f32 := Memref.whole cc0_stg1_0
abbrev wM : Memref sig .tc .vmem S256x256 .f32 := Memref.whole cc0_stg2_0
abbrev oM : Memref sig .tc .vmem S4x512x256 .bf16 := Memref.whole cc0_stg3_0
abbrev accM : Memref sig .tc .vmem S16x128x256 .bf16 := Memref.whole cc0_scratch0
abbrev tmpM : Memref sig .tc .vmem S16x128x256 .bf16 := Memref.whole cc0_scratch1

theorem inbRow (j : Fin 16) : ∀ a, (![j.val, 0, 0] : Fin 3 → Nat) a + S1x128x256.size a ≤ S16x128x256.size a := by
  revert j; decide

/-- The offset minus one, as the index of the copy among the fifteen. -/
def predOff (o : Fin 16) : Fin 15 := ⟨o.val - 1, by have := o.isLt; omega⟩

/-- The source of device `c`'s scatter copy at offset `o`: the row-block of its partial product it sends `o` places on,
    at the row the kernel computes from its device id. -/
def accSrc (c : Dev nD) (o : Fin 16) : Memref sig .tc .vmem S128x256 .bf16 :=
  ((accM.slice (Rect.unit (s := S16x128x256) (k0_off1 c (BitVec.ofNat 32 (1 + (predOff o).val))) S1x128x256.size (k0_off1_inb c (predOff o))) (fun _ => rfl)).squeeze S128x256 squeezes_S1x128x256_S128x256)
/-- Slot `o` of the temporary buffer. -/
def tmpRow (o : Fin 16) : Memref sig .tc .vmem S128x256 .bf16 :=
  ((tmpM.slice (Rect.unit (s := S16x128x256) ![o.val, 0, 0] S1x128x256.size (inbRow o)) (fun _ => rfl)).squeeze S128x256 squeezes_S1x128x256_S128x256)
/-- The block of the result's buffer that device `c` owns, at the offsets the kernel computes from `c`'s device id: the
    source of `c`'s gather copies on `c`, and their destination on every other device. -/
def outOwn (c : Dev nD) : Memref sig .tc .vmem S128x256 .bf16 :=
  ((oM.slice (Rect.unit (s := S4x512x256) (k0_off4 c) S1x128x256.size (k0_off4_inb c)) (fun _ => rfl)).squeeze S128x256 squeezes_S1x128x256_S128x256)

/-- The runtime's barrier semaphore; the four families of sixteen DMA semaphores (index 0 of each is never used). -/
abbrev barS : Sem sig := (SemArray.scalar (sig.barrier 0 rfl) : Sems sig S_).sem
def dsem (base : Nat) (hb : base + 16 ≤ 68) (o : Fin 16) : DmaSem sig := ⟨base + o.val, by have := o.isLt; show base + o.val < 68; omega⟩
abbrev rsSend (o : Fin 16) : DmaSem sig := dsem 4 (by decide) o
abbrev rsRecv (o : Fin 16) : DmaSem sig := dsem 20 (by decide) o
abbrev agSend (o : Fin 16) : DmaSem sig := dsem 36 (by decide) o
abbrev agRecv (o : Fin 16) : DmaSem sig := dsem 52 (by decide) o

abbrev barCell (c : Dev nD) : GSem nD τ sig := ((c : Thread nD τ), .reg barS)
abbrev rsSendCell (c : Dev nD) (o : Fin 16) : GSem nD τ sig := ((c : Thread nD τ), .dma (rsSend o))
abbrev rsRecvCell (c : Dev nD) (o : Fin 16) : GSem nD τ sig := ((c : Thread nD τ), .dma (rsRecv o))
abbrev agSendCell (c : Dev nD) (o : Fin 16) : GSem nD τ sig := ((c : Thread nD τ), .dma (agSend o))
abbrev agRecvCell (c : Dev nD) (o : Fin 16) : GSem nD τ sig := ((c : Thread nD τ), .dma (agRecv o))

/-- The credit of one 128 × 256 block of sixteen-bit elements. -/
abbrev N : ℕ := (tmpRow (1 : Fin 16)).view.dmaCredit
theorem N_pos : 0 < N := View.dmaCredit_pos _ (by decide)
theorem N_tmp (j : Fin 16) : (tmpRow j).view.dmaCredit = N := rfl
theorem N_acc (c : Dev nD) (o : Fin 16) : (accSrc c o).view.dmaCredit = N := rfl
theorem N_out (c : Dev nD) : (outOwn c).view.dmaCredit = N := rfl

/-! ## The landed contents, typed at the views that hold them -/

/-- Device `c`'s partial-product buffer after its store, seen at the source of its copy at offset `o`; device `e`'s
    temporary buffer once the scatter copies have landed, seen at slot `o`; device `e`'s result buffer once the gather
    copies have landed, seen at the block device `j` owns. -/
def accBufAt (c : Dev nD) (o : Fin 16) : Buf (Elt F) ((accSrc c o).view.loc ((c : Dev nD) : Thread nD τ)) := partialOf m c
def tmpBufAt (e : Dev nD) (o : Fin 16) : Buf (Elt F) ((tmpRow o).view.loc ((e : Dev nD) : Thread nD τ)) := tmpFull m e
def outBufAt (e : Dev nD) (j : Dev nD) : Buf (Elt F) ((outOwn j).view.loc ((e : Dev nD) : Thread nD τ)) := outFull m

/-! ## Shares of the gathered block: fifteen copies read it at once -/

/-- The right half taken `n` times. -/
def shr : Nat → PosShare TreeShare
  | 0 => fullShare
  | n + 1 => (shr n).right

/-- The share the `o`-th gather copy reads its source at, `o` = 1, …, 15: the left half of what the earlier copies left,
    the last one all that is left. -/
def shareOf (o : Fin 16) : PosShare TreeShare := if o.val = 15 then shr 14 else (shr (o.val - 1)).left

/-! ## The schedule -/

/-- The slot, on the device `o` places before, that a device writes: slot `16 - o`. -/
def negOff (o : Fin 16) : Fin 16 := ⟨(16 - o.val) % 16, Nat.mod_lt _ (by decide)⟩

theorem negOff_negOff (o : Fin 16) : negOff (negOff o) = o := by revert o; decide
theorem back_negOff (c : Dev nD) (o : Fin 16) : back c (negOff o).val = peer c o.val := by revert c o; decide

/-- The elements of a 128 × 256 view of one of device `p`'s buffers, held at share `q` with contents `f`. -/
def ptsAt (p : Dev nD) (v : Memref sig .tc .vmem S128x256 .bf16) (q : PosShare TreeShare) (f : Buf (Elt F) (v.view.loc (p : Thread nD τ))) : sProp 𝕄 :=
  v.view.loc (p : Thread nD τ) ↦[v.view.set]{q} f

omit [FloatOps F] in
instance ptsAt_storable (p : Dev nD) (v : Memref sig .tc .vmem S128x256 .bf16) (q : PosShare TreeShare) (f : Buf (Elt F) (v.view.loc (p : Thread nD τ))) :
    BI.Storable (upEmb : UEmb _ 𝕄) (ptsAt (F := F) p v q f) := by unfold ptsAt; infer_instance

abbrev slotPts (p : Dev nD) (v : Memref sig .tc .vmem S128x256 .bf16) (f : Buf (Elt F) (v.view.loc (p : Thread nD τ))) : sProp 𝕄 :=
  ptsAt p v fullShare f

/-- What the signal of device `p = back e o` hands device `e`: the slot of `p`'s temporary buffer and the block of `p`'s result
    that `e` will write, and that `p` has reached round 0 of the two cells those writes credit. -/
def barPay (e : Dev nD) (o : Fin 16) : sProp 𝕄 :=
  iprop((∃ f, slotPts (back e o.val) (tmpRow (negOff o)) f) ∗ (∃ f, slotPts (back e o.val) (outOwn e) f)
    ∗ reached ER (rsRecvCell (back e o.val) (negOff o)) 0 ∗ reached ER (agRecvCell (back e o.val) (negOff o)) 0)

/-- A scatter copy done: its source row-block back, unchanged. -/
def rsSendPay (c : Dev nD) (o : Fin 16) : sProp 𝕄 :=
  ptsAt c (accSrc c o) fullShare (accBufAt m c o)
/-- A scatter copy landed: slot `o` of the temporary buffer holds its block. -/
def rsRecvPay (e : Dev nD) (o : Fin 16) : sProp 𝕄 :=
  ptsAt e (tmpRow o) fullShare (tmpBufAt m e o)
/-- A gather copy done: the share of the device's own block it read, back. -/
def agSendPay (c : Dev nD) (o : Fin 16) : sProp 𝕄 :=
  ptsAt c (outOwn c) (shareOf o) (outBufAt m c c)
/-- A gather copy landed: the block of the device `o` places before holds that device's sum. -/
def agRecvPay (e : Dev nD) (o : Fin 16) : sProp 𝕄 :=
  ptsAt e (outOwn (back e o.val)) fullShare (outBufAt m e (back e o.val))

/-- The offset and the family of a DMA semaphore of the four arrays. -/
def offOf (q : DmaSem sig) : Fin 16 := ⟨(q.val + 12) % 16, Nat.mod_lt _ (by decide)⟩
def famOf (q : DmaSem sig) : Nat := (q.val - 4) / 16
/-- A DMA semaphore the protocol uses: one of the four arrays', not at index 0. -/
def Used (q : DmaSem sig) : Prop := 4 ≤ q.val ∧ (q.val + 12) % 16 ≠ 0
instance (q : DmaSem sig) : Decidable (Used q) := by unfold Used; infer_instance

theorem offOf_dsem (base : Nat) (hb : base + 16 ≤ 68) (h4 : base % 16 = 4) (o : Fin 16) : offOf (dsem base hb o) = o := by
  apply Fin.ext; show (base + o.val + 12) % 16 = o.val; have := o.isLt; omega
theorem used_dsem (base : Nat) (hb : base + 16 ≤ 68) (h4 : base % 16 = 4) (o : Fin 16) (ho : o ≠ 0) : Used (dsem base hb o) := by
  have ho' : o.val ≠ 0 := fun h => ho (Fin.ext h)
  refine ⟨?_, ?_⟩
  · show 4 ≤ base + o.val; omega
  · show (base + o.val + 12) % 16 ≠ 0; have := o.isLt; omega

def dutiesOf : SemLoc sig → Finset (Fin 16)
  | .reg s => if s = barS then Finset.univ.erase 0 else ∅
  | .dma q => if Used q then {0} else ∅

def amountOf : SemLoc sig → ℕ
  | .reg _ => 1
  | .dma _ => N

def payloadOf (e : Dev nD) : SemLoc sig → Fin 16 → sProp 𝕄
  | .reg _, d => barPay e d
  | .dma q, _ =>
    if famOf q = 0 then rsSendPay m e (offOf q)
    else if famOf q = 1 then rsRecvPay m e (offOf q)
    else if famOf q = 2 then agSendPay m e (offOf q)
    else agRecvPay m e (offOf q)

/-- One round, round 0, on TensorCore cells: a barrier cell has the fifteen duties named by the offsets 1, …, 15, one unit
    each; a used DMA cell the one duty 0 of a block's credit. -/
def Rd : Rounds.Schedule (GSem nD τ sig) (Fin 16) 𝕄 where
  duties g r := if r = 0 ∧ g.1.2 = .tc then dutiesOf g.2 else ∅
  unitless _ := False
  amount g _ _ := amountOf g.2
  payload g _ d := payloadOf m g.1.1 g.2 d
  amount_pos g _ _ _ := by
    cases g.2 with
    | reg _ => exact Nat.one_pos
    | dma _ => exact N_pos

instance Rd_payload_storable (g : GSem nD τ sig) (r : ℕ) (d : Fin 16) :
    BI.Storable (upEmb : UEmb _ 𝕄) ((Rd (F := F) m).payload g r d) := by
  show BI.Storable upEmb (payloadOf m g.1.1 g.2 d)
  unfold payloadOf
  cases g.2 with
  | reg _ => dsimp only; unfold barPay; infer_instance
  | dma q => dsimp only; unfold rsSendPay rsRecvPay agSendPay agRecvPay; (repeat' split) <;> infer_instance

theorem duties_later (g : GSem nD τ sig) : ∀ r, 1 ≤ r → (Rd (F := F) m).duties g r = ∅ :=
  fun r hr => by dsimp only [Rd]; rw [if_neg fun h => by omega]

/-! ## The schedule's tables -/

section Tables
variable (c : Dev nD)

theorem duties_bar : (Rd (F := F) m).duties (barCell c) 0 = Finset.univ.erase 0 := by
  dsimp only [Rd]; rw [if_pos ⟨rfl, rfl⟩]
  show (if (barS : Sem sig) = barS then Finset.univ.erase (0 : Fin 16) else ∅) = _
  exact if_pos rfl
theorem duties_dma (q : DmaSem sig) (hq : Used q) : (Rd (F := F) m).duties ((c : Thread nD τ), .dma q) 0 = {0} := by
  dsimp only [Rd]; rw [if_pos ⟨rfl, rfl⟩]
  show (if Used q then ({0} : Finset (Fin 16)) else ∅) = _
  exact if_pos hq
theorem amount_bar (d : Fin 16) : (Rd (F := F) m).amount (barCell c) 0 d = 1 := rfl
theorem amount_dma (q : DmaSem sig) (d : Fin 16) : (Rd (F := F) m).amount ((c : Thread nD τ), .dma q) 0 d = N := rfl

theorem expect_bar : (Rd (F := F) m).expect (barCell c) 0 = 15 := by
  unfold Schedule.expect Schedule.amountOf
  rw [duties_bar, Finset.sum_congr rfl fun d _ => amount_bar m c d, Finset.sum_const, smul_eq_mul, mul_one]
  decide
theorem expect_dma (q : DmaSem sig) (hq : Used q) : (Rd (F := F) m).expect ((c : Thread nD τ), .dma q) 0 = N := by
  unfold Schedule.expect Schedule.amountOf; rw [duties_dma m c q hq, Finset.sum_singleton, amount_dma]

theorem payload_bar (o : Fin 16) : (Rd (F := F) m).payload (barCell c) 0 o = barPay c o := rfl
theorem payload_rsSend (o : Fin 16) (d : Fin 16) : (Rd (F := F) m).payload (rsSendCell c o) 0 d = rsSendPay m c o := by
  show payloadOf m c (.dma (rsSend o)) d = _
  have h0 : famOf (rsSend o) = 0 := by show (4 + o.val - 4) / 16 = 0; have := o.isLt; omega
  unfold payloadOf; dsimp only; rw [if_pos h0, offOf_dsem 4 _ rfl]
theorem payload_rsRecv (o : Fin 16) (d : Fin 16) : (Rd (F := F) m).payload (rsRecvCell c o) 0 d = rsRecvPay m c o := by
  show payloadOf m c (.dma (rsRecv o)) d = _
  have h1 : famOf (rsRecv o) = 1 := by show (20 + o.val - 4) / 16 = 1; have := o.isLt; omega
  unfold payloadOf; dsimp only; rw [if_neg (by rw [h1]; decide), if_pos h1, offOf_dsem 20 _ rfl]
theorem payload_agSend (o : Fin 16) (d : Fin 16) : (Rd (F := F) m).payload (agSendCell c o) 0 d = agSendPay m c o := by
  show payloadOf m c (.dma (agSend o)) d = _
  have h2 : famOf (agSend o) = 2 := by show (36 + o.val - 4) / 16 = 2; have := o.isLt; omega
  unfold payloadOf; dsimp only; rw [if_neg (by rw [h2]; decide), if_neg (by rw [h2]; decide), if_pos h2, offOf_dsem 36 _ rfl]
theorem payload_agRecv (o : Fin 16) (d : Fin 16) : (Rd (F := F) m).payload (agRecvCell c o) 0 d = agRecvPay m c o := by
  show payloadOf m c (.dma (agRecv o)) d = _
  have h3 : famOf (agRecv o) = 3 := by show (52 + o.val - 4) / 16 = 3; have := o.isLt; omega
  unfold payloadOf; dsimp only
  rw [if_neg (by rw [h3]; decide), if_neg (by rw [h3]; decide), if_neg (by rw [h3]; decide), offOf_dsem 52 _ rfl]

/-- The rest of a used DMA cell's round, no duty taken: its one payload. -/
theorem rest_dma (q : DmaSem sig) (hq : Used q) :
    bigSep ((Rd (F := F) m).duties ((c : Thread nD τ), .dma q) 0 \ ∅) (fun d => (Rd (F := F) m).payload ((c : Thread nD τ), .dma q) 0 d)
      = (Rd (F := F) m).payload ((c : Thread nD τ), .dma q) 0 0 := by
  rw [Finset.sdiff_empty, duties_dma m c q hq, bigSep_singleton]

/-- The rest of the barrier cell's round, no duty taken: the fifteen peers' payloads. -/
theorem rest_bar :
    bigSep ((Rd (F := F) m).duties (barCell c) 0 \ ∅) (fun d => (Rd (F := F) m).payload (barCell c) 0 d)
      = bigSep (Finset.univ.erase (0 : Fin 16)) (fun o => barPay (F := F) c o) := by
  rw [Finset.sdiff_empty, duties_bar]; rfl

end Tables

end Cert.KernelIdeal.Proto

end
-- ==== Proof.LaunchShape.lean ====
/-
  The shape of the launch of the sixteen-device kernel: the fifteen offsets and the ring as equivalences, the cells and
  the duty tokens as finite families, what each device owes at launch, the levels, and the ghost state, invariant and
  proof data of one device.
-/
import proofs.«900432_g7700000000000433_dist_gconv1d_cshard_i_b4_s512_c256_v7x_i16_bf16_1_alg».proof.Proof.Protocol

set_option maxRecDepth 16384

noncomputable section

namespace Cert.KernelIdeal.Proto

open Cert.KernelIdeal Cert.KernelIdeal.Gen Cert.KernelIdeal.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel's body has no loop: no variants. -/
abbrev 𝒱₀ : Variants := Variants.none

/-! ## The fifteen offsets, and the ring as equivalences -/

/-- The index of the offsets 1, …, 15. -/
abbrev Off : Type := Fin 15
/-- The offset itself, among 0, …, 15. -/
def off (j : Off) : Fin 16 := j.succ

theorem off_val (j : Off) : (off j).val = j.val + 1 := rfl
theorem off_ne_zero (j : Off) : off j ≠ 0 := Fin.succ_ne_zero j
theorem off_injective : Function.Injective off := Fin.succ_injective _

/-- The device `off j` places after a device, as a permutation of the devices. -/
def fwd (j : Off) : Dev nD ≃ Dev nD where
  toFun c := peer c (off j).val
  invFun c := back c (off j).val
  left_inv c := back_peer c (off j)
  right_inv c := peer_back c (off j)

theorem fwd_apply (j : Off) (c : Dev nD) : fwd j c = peer c (off j).val := rfl
theorem fwd_symm_apply (j : Off) (c : Dev nD) : (fwd j).symm c = back c (off j).val := rfl

/-! ## The cells as a finite family -/

/-- A device's cells: its barrier cell, and four transfer cells per offset. -/
abbrev CellIx : Type := Unit ⊕ (Fin 4 × Off)

/-- The four families of transfer semaphores: scatter send, scatter receive, gather send, gather receive. -/
def fam (a : Fin 4) (o : Fin 16) : DmaSem sig := dsem (4 + 16 * a.val) (by have := a.isLt; omega) o

theorem fam_val (a : Fin 4) (o : Fin 16) : (fam a o).val = 4 + 16 * a.val + o.val := rfl
theorem fam_rsSend (o : Fin 16) : fam 0 o = rsSend o := rfl
theorem fam_rsRecv (o : Fin 16) : fam 1 o = rsRecv o := rfl
theorem fam_agSend (o : Fin 16) : fam 2 o = agSend o := rfl
theorem fam_agRecv (o : Fin 16) : fam 3 o = agRecv o := rfl

def csem : CellIx → SemLoc sig
  | .inl _ => .reg barS
  | .inr k => .dma (fam k.1 (off k.2))

abbrev kcell (ck : Dev nD × CellIx) : GSem nD τ sig := ((ck.1 : Thread nD τ), csem ck.2)

theorem csem_injective : Function.Injective csem := by
  rintro (u | ⟨a, j⟩) (u' | ⟨a', j'⟩) h
  · rfl
  · exact absurd h (fun h => by cases h)
  · exact absurd h (fun h => by cases h)
  · have h1 : fam a (off j) = fam a' (off j') := SemLoc.dma.inj h
    have h2 : 4 + 16 * a.val + (j.val + 1) = 4 + 16 * a'.val + (j'.val + 1) := congrArg Fin.val h1
    have ha := a.isLt; have ha' := a'.isLt; have hj := j.isLt; have hj' := j'.isLt
    have e1 : a = a' := Fin.ext (by omega)
    have e2 : j = j' := Fin.ext (by omega)
    rw [e1, e2]

theorem kcell_injective : Function.Injective (kcell : Dev nD × CellIx → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- The kernel's own (scoped) semaphores as the launch indexes them: the sixty transfer semaphores it uses. -/
def osem : Fin 4 × Off → SemLoc sig := fun k => csem (.inr k)

theorem kcell_bar (c : Dev nD) : kcell (c, .inl ()) = barCell c := rfl
theorem kcell_rsSend (c : Dev nD) (j : Off) : kcell (c, .inr (0, j)) = rsSendCell c (off j) := rfl
theorem kcell_rsRecv (c : Dev nD) (j : Off) : kcell (c, .inr (1, j)) = rsRecvCell c (off j) := rfl
theorem kcell_agSend (c : Dev nD) (j : Off) : kcell (c, .inr (2, j)) = agSendCell c (off j) := rfl
theorem kcell_agRecv (c : Dev nD) (j : Off) : kcell (c, .inr (3, j)) = agRecvCell c (off j) := rfl

/-! ## The duty tokens as a finite family -/

/-- The duties of a device's own cells: the fifteen of its barrier cell, and the one of each transfer cell. -/
abbrev TokIx : Type := Off ⊕ (Fin 4 × Off)

def tokOf (ct : Dev nD × TokIx) : GSem nD τ sig × ℕ × Fin 16 := match ct.2 with
  | .inl j => (barCell ct.1, 0, off j)
  | .inr k => (kcell (ct.1, .inr k), 0, 0)

theorem tokOf_injective : Function.Injective (tokOf : Dev nD × TokIx → GSem nD τ sig × ℕ × Fin 16) := by
  rintro ⟨c, t⟩ ⟨c', t'⟩ h
  have h1 : c = c' := by
    have := congrArg (fun x : GSem nD τ sig × ℕ × Fin 16 => x.1.1.1) h
    rcases t with j | k <;> rcases t' with j' | k' <;> exact this
  subst h1
  rcases t with j | k <;> rcases t' with j' | k'
  · have h2 : off j = off j' := congrArg (fun x : GSem nD τ sig × ℕ × Fin 16 => x.2.2) h
    rw [off_injective h2]
  · exact absurd (congrArg (fun x : GSem nD τ sig × ℕ × Fin 16 => x.1.2) h) (fun h' => by cases h')
  · exact absurd (congrArg (fun x : GSem nD τ sig × ℕ × Fin 16 => x.1.2) h) (fun h' => by cases h')
  · have h2 : csem (.inr k) = csem (.inr k') := congrArg (fun x : GSem nD τ sig × ℕ × Fin 16 => x.1.2) h
    rw [Sum.inr.inj (csem_injective h2)]

def allCells : Finset (GSem nD τ sig) := Finset.univ.map ⟨kcell, kcell_injective⟩
def allToks : Finset (GSem nD τ sig × ℕ × Fin 16) := Finset.univ.map ⟨tokOf, tokOf_injective⟩

/-! ## What each device owes at launch; the levels -/

/-- Device `c` owes every other device's barrier cell one unit, -/
def owedBar (c : Dev nD) : CellTallies nD τ sig Unit := ∑ j : Off, tallyAt (barCell (fwd j c)) () 1
/-- the scatter receive cell at offset `o` of the device `o` places after it one block's credit, -/
def owedRs (c : Dev nD) : CellTallies nD τ sig Unit := ∑ j : Off, tallyAt (rsRecvCell (fwd j c) (off j)) () N
/-- and likewise its gather receive cell. -/
def owedAg (c : Dev nD) : CellTallies nD τ sig Unit := ∑ j : Off, tallyAt (agRecvCell (fwd j c) (off j)) () N

def O₀ (c : Dev nD) : CellTallies nD τ sig Unit := (owedBar c + owedRs c) + owedAg c

def L (g : GSem nD τ sig) : Finset Unit := if g.1.2 = .tc then {()} else ∅

/-- Barrier cells at 1, scatter receive cells at 2, gather receive cells at 3, everything else (staging, send) at 0. -/
def lv (g : GSem nD τ sig) (_ : Unit) : ℕ := match g.2 with
  | .reg _ => 1
  | .dma q => if 20 ≤ q.val ∧ q.val < 36 then 2 else if 52 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_rsRecv (c : Dev nD) (o : Fin 16) : lv (rsRecvCell c o) () = 2 := by
  have := o.isLt
  show (if 20 ≤ 20 + o.val ∧ 20 + o.val < 36 then 2 else if 52 ≤ 20 + o.val then 3 else 0) = 2
  rw [if_pos ⟨by omega, by omega⟩]
theorem lv_agRecv (c : Dev nD) (o : Fin 16) : lv (agRecvCell c o) () = 3 := by
  show (if 20 ≤ 52 + o.val ∧ 52 + o.val < 36 then 2 else if 52 ≤ 52 + o.val then 3 else 0) = 3
  rw [if_neg (by omega), if_pos (by omega)]
theorem lv_rsSend (c : Dev nD) (o : Fin 16) : lv (rsSendCell c o) () = 0 := by
  have := o.isLt
  show (if 20 ≤ 4 + o.val ∧ 4 + o.val < 36 then 2 else if 52 ≤ 4 + o.val then 3 else 0) = 0
  rw [if_neg (by omega), if_neg (by omega)]
theorem lv_agSend (c : Dev nD) (o : Fin 16) : lv (agSendCell c o) () = 0 := by
  have := o.isLt
  show (if 20 ≤ 36 + o.val ∧ 36 + o.val < 36 then 2 else if 52 ≤ 36 + o.val then 3 else 0) = 0
  rw [if_neg (by omega), if_neg (by omega)]
theorem lv_low (c : Dev nD) (q : DmaSem sig) (hq : q.val < 20) : lv ((c : Thread nD τ), .dma q) () = 0 := by
  show (if 20 ≤ q.val ∧ q.val < 36 then 2 else if 52 ≤ q.val then 3 else 0) = 0
  rw [if_neg (by omega), if_neg (by omega)]

/-- Where a device owes at launch: barrier cells, scatter receive cells, gather receive cells, all on TensorCores. -/
theorem O₀_pos {c : Dev nD} {g : GSem nD τ sig} {u : Unit} (h : 0 < O₀ c g u) :
    (∃ e, g = barCell e) ∨ (∃ e o, g = rsRecvCell e o) ∨ (∃ e o, g = agRecvCell e o) := by
  unfold O₀ at h
  rcases Pipeline.add_pos_cases h with h | h
  · rcases Pipeline.add_pos_cases h with h | h
    · obtain ⟨j, -, hj⟩ := Pipeline.sum_pos_exists h
      exact .inl ⟨_, (Pipeline.tallyAt_pos hj).1⟩
    · obtain ⟨j, -, hj⟩ := Pipeline.sum_pos_exists h
      exact .inr (.inl ⟨_, _, (Pipeline.tallyAt_pos hj).1⟩)
  · obtain ⟨j, -, hj⟩ := Pipeline.sum_pos_exists h
    exact .inr (.inr ⟨_, _, (Pipeline.tallyAt_pos hj).1⟩)

/-- A wait on a cell of level 0 — a staging cell, a send cell — is allowed whatever of its launch dues the device still
    owes. -/
theorem mayWait_low (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    cases u
    rw [lv_low c q hq]
    rcases O₀_pos hg with ⟨e, rfl⟩ | ⟨e, o, rfl⟩ | ⟨e, o, rfl⟩
    · exact ⟨by rw [L_tc]; exact Finset.mem_singleton_self _, by rw [lv_bar]; decide⟩
    · exact ⟨by rw [L_tc]; exact Finset.mem_singleton_self _, by rw [lv_rsRecv]; decide⟩
    · exact ⟨by rw [L_tc]; exact Finset.mem_singleton_self _, by rw [lv_agRecv]; decide⟩
  · rw [MayWait_zero]; iintro -; iempintro

/-! ## The ghost state of one device, its invariant at the two ends of the kernel, and the proof data -/

section Ghost

variable (ℛ : Rounds.Schedule (GSem nD τ sig) (Fin 16) (MT nD τ sig Unit (Elt F) ℕ UU ℕ))
variable (m : (ℓ : Loc nD τ sig) → Buf (Elt F) ℓ) (ρ : Dev nD → PrngReg)

/-- A family over the sixty transfer cells of a device, family by family. -/
theorem bigSep_fam (Φ : Fin 4 × Off → sProp 𝕄) :
    bigSep Finset.univ Φ = iprop((bigSep Finset.univ fun j : Off => Φ (0, j)) ∗ (bigSep Finset.univ fun j : Off => Φ (1, j))
      ∗ (bigSep Finset.univ fun j : Off => Φ (2, j)) ∗ (bigSep Finset.univ fun j : Off => Φ (3, j))) := by
  rw [bigSep_univ_prod, bigSep_univ_eq_bigSepL [(0 : Fin 4), 1, 2, 3] (by decide) (by decide)]
  rfl

/-- A family over all the cells of a device: the barrier cell's member and the transfer cells'. -/
theorem bigSep_cellIx (Φ : CellIx → sProp 𝕄) :
    bigSep Finset.univ Φ = iprop(Φ (.inl ()) ∗ bigSep Finset.univ fun k : Fin 4 × Off => Φ (.inr k)) := by
  rw [bigSep_univ_sum, bigSep_univ_of_subsingleton ()]
  rfl

/-- Every cell's invariant, under the names `K`, and that round 0 of every cell is reached: persistent, the same for
    every device. -/
def records (K : Dev nD × CellIx → ℕ) : sProp 𝕄 :=
  iprop((bigSep Finset.univ fun ck : Dev nD × CellIx => cellInv ER ℛ (K ck) (kcell ck))
    ∗ bigSep Finset.univ fun ck : Dev nD × CellIx => reached ER (kcell ck) 0)

instance records_persistent (K : Dev nD × CellIx → ℕ) : BI.Persistent (records ℛ K) := by unfold records; infer_instance

theorem inv_at (K : Dev nD × CellIx → ℕ) (ck : Dev nD × CellIx) :
    (bigSep Finset.univ fun ck : Dev nD × CellIx => (cellInv ER ℛ (K ck) (kcell ck) : sProp 𝕄)) ⊢ cellInv ER ℛ (K ck) (kcell ck) :=
  bigSep_elim (Finset.mem_univ ck)
theorem reached_at (ck : Dev nD × CellIx) :
    (bigSep Finset.univ fun ck : Dev nD × CellIx => (reached ER (kcell ck) 0 : sProp 𝕄)) ⊢ reached ER (kcell ck) 0 :=
  bigSep_elim (Finset.mem_univ ck)

/-- Any cell's invariant, and that its round 0 is reached, out of the records. -/
theorem records_inv (K : Dev nD × CellIx → ℕ) (ck : Dev nD × CellIx) : records ℛ K ⊢ cellInv ER ℛ (K ck) (kcell ck) := by
  unfold records
  iintro ⟨#HI, -⟩
  iapply (inv_at ℛ K ck); iexact HI
theorem records_reached (K : Dev nD × CellIx → ℕ) (ck : Dev nD × CellIx) : records ℛ K ⊢ reached ER (kcell ck) 0 := by
  unfold records
  iintro ⟨-, #HR⟩
  iapply (reached_at (F := F) ck); iexact HR

/-- The tokens of the duties device `c` pays: per offset, the barrier duty of the device that far after it, the duty of
    its own scatter send cell and of that device's scatter receive cell, and the same two of the gather. -/
def payToks (c : Dev nD) : sProp 𝕄 :=
  iprop((bigSep Finset.univ fun j : Off => dutyTok ER (barCell (fwd j c)) 0 (off j))
    ∗ (bigSep Finset.univ fun j : Off => dutyTok ER (rsSendCell c (off j)) 0 (0 : Fin 16))
    ∗ (bigSep Finset.univ fun j : Off => dutyTok ER (rsRecvCell (fwd j c) (off j)) 0 (0 : Fin 16))
    ∗ (bigSep Finset.univ fun j : Off => dutyTok ER (agSendCell c (off j)) 0 (0 : Fin 16))
    ∗ (bigSep Finset.univ fun j : Off => dutyTok ER (agRecvCell (fwd j c) (off j)) 0 (0 : Fin 16)))

/-- Device `c`'s positions: at the start of round 0 of each of its cells. -/
def positions (c : Dev nD) : sProp 𝕄 :=
  iprop(atPos ER (barCell c) 0 (∅ : Finset (Fin 16)) 0 ∗ bigSep Finset.univ fun k : Fin 4 × Off => atPos ER (kcell (c, .inr k)) 0 (∅ : Finset (Fin 16)) 0)

def linear (c : Dev nD) : sProp 𝕄 := iprop(positions c ∗ payToks c)

/-- The protocol's ghost state device `c` starts from. -/
def ghost (K : Dev nD × CellIx → ℕ) (c : Dev nD) : sProp 𝕄 := iprop(records ℛ K ∗ linear c)

/-- The credit device `c` waits with: its barrier cell's fifteen units, and one block's credit on each receive cell. -/
def creds (c : Dev nD) : sProp 𝕄 :=
  iprop(cred (tallyAt (barCell c) () 15)
    ∗ (bigSep Finset.univ fun j : Off => cred (tallyAt (rsRecvCell c (off j)) () N))
    ∗ (bigSep Finset.univ fun j : Off => cred (tallyAt (agRecvCell c (off j)) () N)))

/-- What device `c`'s body starts from, the buffers apart. -/
def start (c : Dev nD) : sProp 𝕄 := iprop((∃ K, ghost ℛ K c) ∗ creds c ∗ levAts L lv)

/-- The two scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the kernel's one point, and after it: the scratch buffers back, and the sixty transfer cells closed, their
    counters at zero in the device's hand. -/
def Φ₀ (c : Dev nD) : sProp 𝕄 := iprop(start ℛ c ∗ scratch c)
def Φ₁ (c : Dev nD) : sProp 𝕄 := iprop(scratch c ∗ bigSep Finset.univ fun k : Fin 4 × Off => semVal (kcell (c, .inr k)) 0)

/-- The proof data of device `c`: the arrays as launched, the three inputs' blocks left in place, the result's staging
    buffer left at `out c`. -/
def dats (out : (c : Dev nD) → (cfg0.win 3).block.Idx → Elt F (cfg0.win 3).elt) (_ : Fin 1) (c : Dev nD) :
    Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => out c
  Φ t := match t with
    | ⟨0, _⟩ => Φ₀ ℛ c
    | ⟨_ + 1, _⟩ => Φ₁ c
  q _ := fullShare
  owed t := match t with
    | ⟨0, _⟩ => O₀ c
    | ⟨_ + 1, _⟩ => 0

end Ghost

end Cert.KernelIdeal.Proto

end
-- ==== Proof.BodyGlue.lean ====
/-
  The glue between the proof of one device's body and the launch: the body's obligation, as the pipeline states it over
  the four windows' staging buffers, from a proof of the body between an explicit precondition and postcondition.
-/
import proofs.«900432_g7700000000000433_dist_gconv1d_cshard_i_b4_s512_c256_v7x_i16_bf16_1_alg».proof.Proof.LaunchShape

set_option maxRecDepth 16384

noncomputable section

namespace Cert.KernelIdeal.Proto

open Cert.KernelIdeal Cert.KernelIdeal.Gen Cert.KernelIdeal.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ℛ : Rounds.Schedule (GSem nD τ sig) (Fin 16) (MT nD τ sig Unit (Elt F) ℕ UU ℕ))
variable (m : (ℓ : Loc nD τ sig) → Buf (Elt F) ℓ) (ρ : Dev nD → PrngReg)
variable (out : (c : Dev nD) → (cfg0.win 3).block.Idx → Elt F (cfg0.win 3).elt)

/-- A whole staging buffer at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- Each input window's staging buffer holds the device's block of that input when the body runs. -/
theorem before_in0 (c : Dev nD) (d) : (dats ℛ m ρ out 0 c).before (0 : Fin 4) t0_0 d = iblk m c 0 t0_0 := by
  unfold Dat.before; rw [if_pos (fetch0_0 t0_0)]; rfl
theorem before_in1 (c : Dev nD) (d) : (dats ℛ m ρ out 0 c).before (1 : Fin 4) t0_0 d = iblk m c 1 t0_0 := by
  unfold Dat.before; rw [if_pos (fetch0_1 t0_0)]; rfl
theorem before_in2 (c : Dev nD) (d) : (dats ℛ m ρ out 0 c).before (2 : Fin 4) t0_0 d = iblk m c 2 t0_0 := by
  unfold Dat.before; rw [if_pos (fetch0_2 t0_0)]; rfl

/-- What the body of device `c` starts from: its invariant, what it owes, the three input blocks in their staging
    buffers, and the result's staging buffer at some contents. -/
def winPre (c : Dev nD) : sProp 𝕄 :=
  iprop(Φ₀ ℛ c ∗ (dats ℛ m ρ out 0 c).owesAt () t0_0.castSucc
    ∗ stg c cc0_stg0_0 (iblk m c 0 t0_0) ∗ stg c cc0_stg1_0 (iblk m c 1 t0_0) ∗ stg c cc0_stg2_0 (iblk m c 2 t0_0)
    ∗ (∃ d, stg c cc0_stg3_0 d))

/-- What it ends with: the closing invariant, nothing owed, the inputs in place, and the result's staging buffer at
    `out c`. -/
def winPost (c : Dev nD) : sProp 𝕄 :=
  iprop(Φ₁ c ∗ (dats ℛ m ρ out 0 c).owesAt () t0_0.succ
    ∗ stg c cc0_stg0_0 (iblk m c 0 t0_0) ∗ stg c cc0_stg1_0 (iblk m c 1 t0_0) ∗ stg c cc0_stg2_0 (iblk m c 2 t0_0)
    ∗ stg c cc0_stg3_0 (out c))

set_option maxRecDepth 32000 in
/-- The obligation's own precondition, the windows one by one. -/
def winPre' (c : Dev nD) : sProp 𝕄 :=
  iprop(Φ₀ ℛ c ∗ (dats ℛ m ρ out 0 c).owesAt () t0_0.castSucc
    ∗ (∃ d, stg c cc0_stg0_0 ((dats ℛ m ρ out 0 c).before (0 : Fin 4) t0_0 d))
    ∗ (∃ d, stg c cc0_stg1_0 ((dats ℛ m ρ out 0 c).before (1 : Fin 4) t0_0 d))
    ∗ (∃ d, stg c cc0_stg2_0 ((dats ℛ m ρ out 0 c).before (2 : Fin 4) t0_0 d))
    ∗ (∃ d, stg c cc0_stg3_0 ((dats ℛ m ρ out 0 c).before (3 : Fin 4) t0_0 d)))

theorem winPre_of (c : Dev nD) : winPre' ℛ m ρ out c ⊢ winPre ℛ m ρ out c := by
  unfold winPre' winPre
  simp only [before_in0, before_in1, before_in2]
  iintro ⟨HΦ, Ho, ⟨%d0, H0⟩, ⟨%d1, H1⟩, ⟨%d2, H2⟩, ⟨%d3, H3⟩⟩
  isplitl [HΦ]; · iexact HΦ
  isplitl [Ho]; · iexact Ho
  isplitl [H0]; · iexact H0
  isplitl [H1]; · iexact H1
  isplitl [H2]; · iexact H2
  iexists _; iexact H3

set_option maxRecDepth 32000 in
/-- The body obligation on device `c`, from a proof of its body between `winPre` and `winPost`. -/
theorem body_obligation_of
    (h : ∀ c : Dev nD, winPre ℛ m ρ out c
      ⊢ wp frame (wpE (defs₀ (F := F)) 𝒱₀ c none) Set.univ (bodyAt0 (F := F) t0_0) (fun _ => winPost ℛ m ρ out c))
    (c : Dev nD) : BodyObligation (dats ℛ m ρ out 0 c) (defs₀ (F := F)) 𝒱₀ () Set.univ := fun t => by
  rw [fin_N0 t]
  rw [bigSep_W0, bigSep_W0]
  simp only [owns_whole_eq]
  show winPre' ℛ m ρ out c ⊢ wp frame (wpE (defs₀ (F := F)) 𝒱₀ c none) Set.univ (bodyAt0 (F := F) t0_0) (fun _ => winPost ℛ m ρ out c)
  exact (winPre_of ℛ m ρ out c).trans (h c)

end Cert.KernelIdeal.Proto

end
-- ==== Proof.BodyPre.lean ====
/-
  The big stars over the fifteen offsets of the launch's ghost state, opened into chains of fifteen conjuncts in the order
  the kernel body visits the offsets: 1, 2, …, 15.
-/
import proofs.«900432_g7700000000000433_dist_gconv1d_cshard_i_b4_s512_c256_v7x_i16_bf16_1_alg».proof.Proof.LaunchShape

set_option maxRecDepth 16384

noncomputable section

namespace Cert.KernelIdeal.Proto

open Cert.KernelIdeal Cert.KernelIdeal.Gen Cert.KernelIdeal.Chains
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- A family over the offsets, conjoined at 1, 2, …, 15 in this order. -/
def offChain (Φ : Fin 16 → sProp 𝕄) : sProp 𝕄 :=
  iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15)

omit [FloatOps F] in
/-- The big star over the fifteen offsets is that chain. -/
theorem bigSep_offChain (Φ : Fin 16 → sProp 𝕄) : bigSep Finset.univ (fun j : Off => Φ (off j)) = offChain Φ :=
  bigSep_univ_eq_bigSepL [(0 : Off), (1 : Off), (2 : Off), (3 : Off), (4 : Off), (5 : Off), (6 : Off), (7 : Off), (8 : Off), (9 : Off), (10 : Off), (11 : Off), (12 : Off), (13 : Off), (14 : Off)] (by decide) (by decide) (fun j : Off => Φ (off j))

end Cert.KernelIdeal.Proto

end
-- ==== Proof.LevelFacts.lean ====
/-
  The levels at the kernel body's waits, and what a device owes at launch as the nested sum the body pays off:
  the fifteen barrier signals first, then the fifteen scatter copies, then the fifteen gather copies.
-/
import proofs.«900432_g7700000000000433_dist_gconv1d_cshard_i_b4_s512_c256_v7x_i16_bf16_1_alg».proof.Proof.LaunchShape

set_option maxRecDepth 16384

noncomputable section

namespace Cert.KernelIdeal.Proto

open Cert.KernelIdeal Cert.KernelIdeal.Gen Cert.KernelIdeal.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Positivity of tallies -/

theorem pos_add {A B : CellTallies nD τ sig Unit} {g : GSem nD τ sig} {u : Unit} (h : 0 < (A + B) g u) : 0 < A g u ∨ 0 < B g u :=
  Pipeline.add_pos_cases h

theorem pos_tallyAt {g' : GSem nD τ sig} {u' : Unit} {n : ℕ} {g : GSem nD τ sig} {u : Unit}
    (h : 0 < (tallyAt g' u' n : CellTallies nD τ sig Unit) g u) : g = g' := (Pipeline.tallyAt_pos h).1

theorem not_pos_zero {g : GSem nD τ sig} {u : Unit} : ¬ 0 < (0 : CellTallies nD τ sig Unit) g u := fun h => Nat.lt_irrefl 0 h

/-! ## The body's waits -/

/-- The barrier wait (level 1) is allowed while the device owes only receive cells (levels 2 and 3). -/
theorem mayWait_bar_of (c : Dev nD) (O : CellTallies nD τ sig Unit)
    (h : ∀ g u, 0 < O g u → (∃ e o, g = rsRecvCell e o) ∨ (∃ e o, g = agRecvCell e o)) :
    (levAts L lv : sProp 𝕄) ⊢ MayWait (c : Thread nD τ) (.reg barS) () O :=
  Pipeline.mayWait_of_levAts (by rw [L_tc]; exact Finset.mem_singleton_self _) fun g u hg => by
    cases u
    rcases h g () hg with ⟨e, o, rfl⟩ | ⟨e, o, rfl⟩
    · exact ⟨by rw [L_tc]; exact Finset.mem_singleton_self _, by rw [lv_rsRecv]; exact (by decide : (1 : ℕ) < 2)⟩
    · exact ⟨by rw [L_tc]; exact Finset.mem_singleton_self _, by rw [lv_agRecv]; exact (by decide : (1 : ℕ) < 3)⟩

/-- A wait on a scatter receive cell (level 2) is allowed while the device owes only gather receive cells (level 3). -/
theorem mayWait_rsRecv_of (c : Dev nD) (o : Fin 16) (O : CellTallies nD τ sig Unit)
    (h : ∀ g u, 0 < O g u → ∃ e o', g = agRecvCell e o') :
    (levAts L lv : sProp 𝕄) ⊢ MayWait (c : Thread nD τ) (.dma (rsRecv o)) () O :=
  Pipeline.mayWait_of_levAts (by rw [L_tc]; exact Finset.mem_singleton_self _) fun g u hg => by
    cases u
    obtain ⟨e, o', rfl⟩ := h g () hg
    exact ⟨by rw [L_tc]; exact Finset.mem_singleton_self _, by rw [lv_agRecv]; exact (lv_rsRecv c o).trans_lt (by decide)⟩

/-! ## A sum over the fifteen offsets, nested from the last offset inwards -/

section Nest

variable {M : Type} [AddCommMonoid M]

/-- `base` plus the fifteen members, the last innermost and the first outermost. -/
def nest (base : M) (g : Fin 15 → M) : M := base + g 14 + g 13 + g 12 + g 11 + g 10 + g 9 + g 8 + g 7 + g 6 + g 5 + g 4 + g 3 + g 2 + g 1 + g 0

theorem sum15 (g : Fin 15 → M) : ∑ j, g j = g 0 + (g 1 + (g 2 + (g 3 + (g 4 + (g 5 + (g 6 + (g 7 + (g 8 + (g 9 + (g 10 + (g 11 + (g 12 + (g 13 + (g 14 + (0))))))))))))))) :=
  (Fin.sum_univ_def g).trans rfl

theorem nest_three (gB gR gA : Fin 15 → M) : ((∑ j, gB j) + (∑ j, gR j)) + (∑ j, gA j) = nest (nest (nest 0 gA) gR) gB := by
  rw [sum15 gB, sum15 gR, sum15 gA]
  unfold nest
  abel

end Nest

/-- What device `c` owes at launch, as the body pays it off: outermost the barrier unit of the next device, then of the
    one after, …; inside those the scatter receive credits, and innermost the gather receive credits. -/
def Onest (c : Dev nD) : CellTallies nD τ sig Unit :=
  (0 : CellTallies nD τ sig Unit)
    + tallyAt (agRecvCell (peer c 15) 15) () N
    + tallyAt (agRecvCell (peer c 14) 14) () N
    + tallyAt (agRecvCell (peer c 13) 13) () N
    + tallyAt (agRecvCell (peer c 12) 12) () N
    + tallyAt (agRecvCell (peer c 11) 11) () N
    + tallyAt (agRecvCell (peer c 10) 10) () N
    + tallyAt (agRecvCell (peer c 9) 9) () N
    + tallyAt (agRecvCell (peer c 8) 8) () N
    + tallyAt (agRecvCell (peer c 7) 7) () N
    + tallyAt (agRecvCell (peer c 6) 6) () N
    + tallyAt (agRecvCell (peer c 5) 5) () N
    + tallyAt (agRecvCell (peer c 4) 4) () N
    + tallyAt (agRecvCell (peer c 3) 3) () N
    + tallyAt (agRecvCell (peer c 2) 2) () N
    + tallyAt (agRecvCell (peer c 1) 1) () N
    + tallyAt (rsRecvCell (peer c 15) 15) () N
    + tallyAt (rsRecvCell (peer c 14) 14) () N
    + tallyAt (rsRecvCell (peer c 13) 13) () N
    + tallyAt (rsRecvCell (peer c 12) 12) () N
    + tallyAt (rsRecvCell (peer c 11) 11) () N
    + tallyAt (rsRecvCell (peer c 10) 10) () N
    + tallyAt (rsRecvCell (peer c 9) 9) () N
    + tallyAt (rsRecvCell (peer c 8) 8) () N
    + tallyAt (rsRecvCell (peer c 7) 7) () N
    + tallyAt (rsRecvCell (peer c 6) 6) () N
    + tallyAt (rsRecvCell (peer c 5) 5) () N
    + tallyAt (rsRecvCell (peer c 4) 4) () N
    + tallyAt (rsRecvCell (peer c 3) 3) () N
    + tallyAt (rsRecvCell (peer c 2) 2) () N
    + tallyAt (rsRecvCell (peer c 1) 1) () N
    + tallyAt (barCell (peer c 15)) () 1
    + tallyAt (barCell (peer c 14)) () 1
    + tallyAt (barCell (peer c 13)) () 1
    + tallyAt (barCell (peer c 12)) () 1
    + tallyAt (barCell (peer c 11)) () 1
    + tallyAt (barCell (peer c 10)) () 1
    + tallyAt (barCell (peer c 9)) () 1
    + tallyAt (barCell (peer c 8)) () 1
    + tallyAt (barCell (peer c 7)) () 1
    + tallyAt (barCell (peer c 6)) () 1
    + tallyAt (barCell (peer c 5)) () 1
    + tallyAt (barCell (peer c 4)) () 1
    + tallyAt (barCell (peer c 3)) () 1
    + tallyAt (barCell (peer c 2)) () 1
    + tallyAt (barCell (peer c 1)) () 1

theorem O₀_eq_nest (c : Dev nD) : O₀ c = Onest c :=
  nest_three (fun j : Off => (tallyAt (barCell (fwd j c)) () 1 : CellTallies nD τ sig Unit))
    (fun j : Off => (tallyAt (rsRecvCell (fwd j c) (off j)) () N : CellTallies nD τ sig Unit))
    (fun j : Off => (tallyAt (agRecvCell (fwd j c) (off j)) () N : CellTallies nD τ sig Unit))

/-! ## What is still owed at the body's waits -/

/-- The gather receive credits: what the device still owes at its waits on the scatter receive cells. -/
def OnestAg (c : Dev nD) : CellTallies nD τ sig Unit :=
  (0 : CellTallies nD τ sig Unit)
    + tallyAt (agRecvCell (peer c 15) 15) () N
    + tallyAt (agRecvCell (peer c 14) 14) () N
    + tallyAt (agRecvCell (peer c 13) 13) () N
    + tallyAt (agRecvCell (peer c 12) 12) () N
    + tallyAt (agRecvCell (peer c 11) 11) () N
    + tallyAt (agRecvCell (peer c 10) 10) () N
    + tallyAt (agRecvCell (peer c 9) 9) () N
    + tallyAt (agRecvCell (peer c 8) 8) () N
    + tallyAt (agRecvCell (peer c 7) 7) () N
    + tallyAt (agRecvCell (peer c 6) 6) () N
    + tallyAt (agRecvCell (peer c 5) 5) () N
    + tallyAt (agRecvCell (peer c 4) 4) () N
    + tallyAt (agRecvCell (peer c 3) 3) () N
    + tallyAt (agRecvCell (peer c 2) 2) () N
    + tallyAt (agRecvCell (peer c 1) 1) () N

/-- The scatter and gather receive credits: what the device still owes at its barrier wait. -/
def OnestRsAg (c : Dev nD) : CellTallies nD τ sig Unit :=
  OnestAg c
    + tallyAt (rsRecvCell (peer c 15) 15) () N
    + tallyAt (rsRecvCell (peer c 14) 14) () N
    + tallyAt (rsRecvCell (peer c 13) 13) () N
    + tallyAt (rsRecvCell (peer c 12) 12) () N
    + tallyAt (rsRecvCell (peer c 11) 11) () N
    + tallyAt (rsRecvCell (peer c 10) 10) () N
    + tallyAt (rsRecvCell (peer c 9) 9) () N
    + tallyAt (rsRecvCell (peer c 8) 8) () N
    + tallyAt (rsRecvCell (peer c 7) 7) () N
    + tallyAt (rsRecvCell (peer c 6) 6) () N
    + tallyAt (rsRecvCell (peer c 5) 5) () N
    + tallyAt (rsRecvCell (peer c 4) 4) () N
    + tallyAt (rsRecvCell (peer c 3) 3) () N
    + tallyAt (rsRecvCell (peer c 2) 2) () N
    + tallyAt (rsRecvCell (peer c 1) 1) () N

theorem OnestRsAg_eq (c : Dev nD) : OnestRsAg c =
  OnestAg c
    + tallyAt (rsRecvCell (peer c 15) 15) () N
    + tallyAt (rsRecvCell (peer c 14) 14) () N
    + tallyAt (rsRecvCell (peer c 13) 13) () N
    + tallyAt (rsRecvCell (peer c 12) 12) () N
    + tallyAt (rsRecvCell (peer c 11) 11) () N
    + tallyAt (rsRecvCell (peer c 10) 10) () N
    + tallyAt (rsRecvCell (peer c 9) 9) () N
    + tallyAt (rsRecvCell (peer c 8) 8) () N
    + tallyAt (rsRecvCell (peer c 7) 7) () N
    + tallyAt (rsRecvCell (peer c 6) 6) () N
    + tallyAt (rsRecvCell (peer c 5) 5) () N
    + tallyAt (rsRecvCell (peer c 4) 4) () N
    + tallyAt (rsRecvCell (peer c 3) 3) () N
    + tallyAt (rsRecvCell (peer c 2) 2) () N
    + tallyAt (rsRecvCell (peer c 1) 1) () N := rfl

theorem Onest_eq (c : Dev nD) : Onest c =
  OnestRsAg c
    + tallyAt (barCell (peer c 15)) () 1
    + tallyAt (barCell (peer c 14)) () 1
    + tallyAt (barCell (peer c 13)) () 1
    + tallyAt (barCell (peer c 12)) () 1
    + tallyAt (barCell (peer c 11)) () 1
    + tallyAt (barCell (peer c 10)) () 1
    + tallyAt (barCell (peer c 9)) () 1
    + tallyAt (barCell (peer c 8)) () 1
    + tallyAt (barCell (peer c 7)) () 1
    + tallyAt (barCell (peer c 6)) () 1
    + tallyAt (barCell (peer c 5)) () 1
    + tallyAt (barCell (peer c 4)) () 1
    + tallyAt (barCell (peer c 3)) () 1
    + tallyAt (barCell (peer c 2)) () 1
    + tallyAt (barCell (peer c 1)) () 1 := rfl

theorem nest_pos {base : CellTallies nD τ sig Unit} {f : Fin 15 → CellTallies nD τ sig Unit} {g : GSem nD τ sig} {u : Unit}
    (h : 0 < nest base f g u) : 0 < base g u ∨ ∃ j, 0 < f j g u := by
  unfold nest at h
  rcases pos_add h with h | h0; swap
  · exact .inr ⟨0, h0⟩
  rcases pos_add h with h | h1; swap
  · exact .inr ⟨1, h1⟩
  rcases pos_add h with h | h2; swap
  · exact .inr ⟨2, h2⟩
  rcases pos_add h with h | h3; swap
  · exact .inr ⟨3, h3⟩
  rcases pos_add h with h | h4; swap
  · exact .inr ⟨4, h4⟩
  rcases pos_add h with h | h5; swap
  · exact .inr ⟨5, h5⟩
  rcases pos_add h with h | h6; swap
  · exact .inr ⟨6, h6⟩
  rcases pos_add h with h | h7; swap
  · exact .inr ⟨7, h7⟩
  rcases pos_add h with h | h8; swap
  · exact .inr ⟨8, h8⟩
  rcases pos_add h with h | h9; swap
  · exact .inr ⟨9, h9⟩
  rcases pos_add h with h | h10; swap
  · exact .inr ⟨10, h10⟩
  rcases pos_add h with h | h11; swap
  · exact .inr ⟨11, h11⟩
  rcases pos_add h with h | h12; swap
  · exact .inr ⟨12, h12⟩
  rcases pos_add h with h | h13; swap
  · exact .inr ⟨13, h13⟩
  rcases pos_add h with h | h14; swap
  · exact .inr ⟨14, h14⟩
  exact .inl h

theorem pos_OnestAg {c : Dev nD} {g : GSem nD τ sig} {u : Unit} (h : 0 < OnestAg c g u) : ∃ e o', g = agRecvCell e o' := by
  rcases nest_pos (show 0 < nest (0 : CellTallies nD τ sig Unit) (fun j : Off => (tallyAt (agRecvCell (fwd j c) (off j)) () N : CellTallies nD τ sig Unit)) g u from h) with h | ⟨j, h⟩
  · exact absurd h not_pos_zero
  · exact ⟨_, _, pos_tallyAt h⟩

theorem pos_OnestRsAg {c : Dev nD} {g : GSem nD τ sig} {u : Unit} (h : 0 < OnestRsAg c g u) :
    (∃ e o, g = rsRecvCell e o) ∨ (∃ e o, g = agRecvCell e o) := by
  rcases nest_pos (show 0 < nest (OnestAg c) (fun j : Off => (tallyAt (rsRecvCell (fwd j c) (off j)) () N : CellTallies nD τ sig Unit)) g u from h) with h | ⟨j, h⟩
  · exact .inr (pos_OnestAg h)
  · exact .inl ⟨_, _, pos_tallyAt h⟩

/-- The barrier wait, after the fifteen signals. -/
theorem mayWait_bar (c : Dev nD) : (levAts L lv : sProp 𝕄) ⊢ MayWait (c : Thread nD τ) (.reg barS) () (OnestRsAg c) :=
  mayWait_bar_of c _ fun _ _ h => pos_OnestRsAg h

/-- A wait on a scatter receive cell, after the fifteen scatter copies are under way. -/
theorem mayWait_rsRecv (c : Dev nD) (o : Fin 16) : (levAts L lv : sProp 𝕄) ⊢ MayWait (c : Thread nD τ) (.dma (rsRecv o)) () (OnestAg c) :=
  mayWait_rsRecv_of c o _ fun _ _ h => pos_OnestAg h

/-! ## A family over the fifteen offsets, member by member -/

theorem bigSep_off (Φ : Off → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [(0 : Off), (1 : Off), (2 : Off), (3 : Off), (4 : Off), (5 : Off), (6 : Off), (7 : Off), (8 : Off), (9 : Off), (10 : Off), (11 : Off), (12 : Off), (13 : Off), (14 : Off)] (by decide) (by decide) Φ

end Cert.KernelIdeal.Proto

end
-- ==== Proof.BodySpec.lean ====
/-
  What one device's kernel body starts from and what it leaves, stated over chains of fifteen conjuncts.
  It starts from the cells' records, its positions at round 0 of its sixty-one cells, the tokens of the seventy-five duties
  it pays (fifteen barrier signals, fifteen scatter copies and fifteen gather copies, each copy paying a send and a receive
  duty), the credit of the rounds it will wait for, what it owes, its three input blocks, and its result, partial-product
  and temporary buffers at arbitrary contents.  It leaves the scratch buffers at some contents, its sixty transfer cells
  closed at zero, nothing owed, the inputs as they were and the result holding the full product.
-/
import proofs.«900432_g7700000000000433_dist_gconv1d_cshard_i_b4_s512_c256_v7x_i16_bf16_1_alg».proof.Proof.BodyPre
import proofs.«900432_g7700000000000433_dist_gconv1d_cshard_i_b4_s512_c256_v7x_i16_bf16_1_alg».proof.Proof.LevelFacts

set_option maxRecDepth 16384

noncomputable section

namespace Cert.KernelIdeal.Proto

open Cert.KernelIdeal Cert.KernelIdeal.Gen Cert.KernelIdeal.Chains
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- What the body of device `c` starts from. -/
def bodyPre (K : Dev nD × CellIx → ℕ) (c : Dev nD) (W : Waits sig Unit)
    (gout : Buf (Elt F) ((c : Thread nD τ).loc cc0_stg3_0)) (facc : Buf (Elt F) ((c : Thread nD τ).loc cc0_scratch0))
    (ftmp : Buf (Elt F) ((c : Thread nD τ).loc cc0_scratch1)) : sProp 𝕄 :=
  iprop(records (Rd (F := F) m) K ∗ levAts L lv
    ∗ atPos ER (barCell c) 0 ∅ 0
    ∗ offChain (fun o => atPos ER (rsSendCell c o) 0 ∅ 0) ∗ offChain (fun o => atPos ER (rsRecvCell c o) 0 ∅ 0)
    ∗ offChain (fun o => atPos ER (agSendCell c o) 0 ∅ 0) ∗ offChain (fun o => atPos ER (agRecvCell c o) 0 ∅ 0)
    ∗ offChain (fun o => dutyTok ER (barCell (peer c o.val)) 0 o)
    ∗ offChain (fun o => dutyTok ER (rsSendCell c o) 0 (0 : Fin 16))
    ∗ offChain (fun o => dutyTok ER (rsRecvCell (peer c o.val) o) 0 (0 : Fin 16))
    ∗ offChain (fun o => dutyTok ER (agSendCell c o) 0 (0 : Fin 16))
    ∗ offChain (fun o => dutyTok ER (agRecvCell (peer c o.val) o) 0 (0 : Fin 16))
    ∗ cred (tallyAt (barCell c) () 15)
    ∗ offChain (fun o => cred (tallyAt (rsRecvCell c o) () N))
    ∗ offChain (fun o => cred (tallyAt (agRecvCell c o) () N))
    ∗ owes (c : Thread nD τ) (Onest c) W
    ∗ (((c : Thread nD τ).loc cc0_stg0_0) ↦{fullShare} xB m c) ∗ (((c : Thread nD τ).loc cc0_stg1_0) ↦{fullShare} kB m c)
    ∗ (((c : Thread nD τ).loc cc0_stg2_0) ↦{fullShare} wB m c)
    ∗ (((c : Thread nD τ).loc cc0_stg3_0) ↦{fullShare} gout) ∗ (((c : Thread nD τ).loc cc0_scratch0) ↦{fullShare} facc)
    ∗ (((c : Thread nD τ).loc cc0_scratch1) ↦{fullShare} ftmp))

/-- What it leaves. -/
def bodyPost (c : Dev nD) : sProp 𝕄 :=
  iprop((∃ f, ((c : Thread nD τ).loc cc0_scratch0) ↦{fullShare} f) ∗ (∃ f, ((c : Thread nD τ).loc cc0_scratch1) ↦{fullShare} f)
    ∗ offChain (fun o => semVal (rsSendCell c o) 0) ∗ offChain (fun o => semVal (rsRecvCell c o) 0)
    ∗ offChain (fun o => semVal (agSendCell c o) 0) ∗ offChain (fun o => semVal (agRecvCell c o) 0)
    ∗ (∃ W', owes (c : Thread nD τ) 0 W')
    ∗ (((c : Thread nD τ).loc cc0_stg0_0) ↦{fullShare} xB m c) ∗ (((c : Thread nD τ).loc cc0_stg1_0) ↦{fullShare} kB m c)
    ∗ (((c : Thread nD τ).loc cc0_stg2_0) ↦{fullShare} wB m c)
    ∗ (((c : Thread nD τ).loc cc0_stg3_0) ↦{fullShare} outFull m))

/-- The kernel body as the pipeline calls it at its one grid point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    cc0_scratch2 cc0_scratch3 cc0_scratch4 cc0_scratch5

end Cert.KernelIdeal.Proto

end
-- ==== Proof.LaunchIdeal.lean ====
/-
  The launch of the sixteen-device kernel: from the proof of one device's body, the run of the whole mesh.
  The cells' ghost state is created for all devices at once, every cell's invariant is allocated from its counter at
  zero, the duty tokens are handed to the devices that pay them, and each device receives the credit its waits consume.
-/
import proofs.«900432_g7700000000000433_dist_gconv1d_cshard_i_b4_s512_c256_v7x_i16_bf16_1_alg».proof.Proof.LaunchShape

set_option maxRecDepth 16384

noncomputable section

namespace Cert.KernelIdeal.Proto

open Cert.KernelIdeal Cert.KernelIdeal.Gen Cert.KernelIdeal.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ℛ : Rounds.Schedule (GSem nD τ sig) (Fin 16) (MT nD τ sig Unit (Elt F) ℕ UU ℕ))
variable (m : (ℓ : Loc nD τ sig) → Buf (Elt F) ℓ) (ρ : Dev nD → PrngReg)
variable (out : (c : Dev nD) → (cfg0.win 3).block.Idx → Elt F (cfg0.win 3).elt)

/-! ## Layout facts -/

theorem ownSemFacts : Pipeline.OwnSemFacts cfg0.spec osem :=
  ⟨by decide, fun a b h => Sum.inr.inj (csem_injective h), by decide⟩

omit [FloatOps F] in
theorem share_eq (c : Dev nD) (w : Fin cfg0.W) : (dats ℛ m ρ out 0 c).share w = fullShare := by unfold Dat.share; split <;> rfl

/-! ## The launch element and what it funds -/

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun j : Off => dutyTok ER (barCell c) 0 (off j))
    ∗ bigSep Finset.univ fun k : Fin 4 × Off => dutyTok ER (kcell (c, .inr k)) 0 (0 : Fin 16))

/-- What the launch element deals device `c`: its cells' round states, its positions, that round 0 of each is reached,
    and its own cells' duty tokens. -/
def G (c : Dev nD) : sProp 𝕄 :=
  iprop((bigSep Finset.univ fun k : CellIx => roundState ER ℛ (kcell (c, k)) 0)
    ∗ (bigSep Finset.univ fun k : CellIx => iprop(atPos ER (kcell (c, k)) 0 (∅ : Finset (Fin 16)) 0 ∗ reached ER (kcell (c, k)) 0)) ∗ toks c)

/-- What the global step makes of it. -/
def G' (c : Dev nD) : sProp 𝕄 := iprop(∃ K, ghost ℛ K c)

omit [FloatOps F] in
theorem fund_all : BI.own (ER (initOf allCells allToks)) ⊢ (|==> bigSep Finset.univ (G ℛ) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER ℛ allCells allToks) $$ HX with ⟨Hst, Hr, Hat, Htok⟩
  imodintro
  ihave Hst' := (Entails.of_eq (hX fun g => roundState ER ℛ g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens handed to their payers -/

theorem ownSems0_eq (c : Dev nD) : (Pipeline.ownSems0 (Ix := Unit) (Name := ℕ) (U := UU) (Lvl := ℕ) (Val := Elt F) (τ := τ) osem c : sProp 𝕄)
    = bigSep Finset.univ fun k : Fin 4 × Off => semVal (kcell (c, .inr k)) 0 := rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cellIx]
  iintro ⟨HS, HB⟩
  isplitl [HB]; · iexact HB
  iexact HS

theorem core_alloc [∀ g r d, BI.Storable (upEmb : UEmb _ 𝕄) (ℛ.payload g r d)] (c : Dev nD) :
    iprop(Pipeline.ownSems0 (Ix := Unit) (Name := ℕ) (U := UU) (Lvl := ℕ) (Val := Elt F) (τ := τ) osem c ∗ unscopedSems0 c ∗ G ℛ c)
      ⊢ |={Set.univ}=> iprop((bigSep Finset.univ fun k : CellIx => iprop(∃ κ : ℕ, cellInv ER ℛ κ (kcell (c, k))))
          ∗ (bigSep Finset.univ fun k : CellIx => iprop(atPos ER (kcell (c, k)) 0 (∅ : Finset (Fin 16)) 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER ℛ (kcell (c, k)) 0)
      ⊢ (|={Set.univ}=> bigSep Finset.univ fun k : CellIx => iprop(∃ κ : ℕ, cellInv ER ℛ κ (kcell (c, k))) : sProp 𝕄) from by
        rw [← bigSep_sep']
        exact (bigSep_mono fun k _ => (Rounds.body_intro ER ℛ (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CellIx → ℕ) (c : Dev nD) : iprop(records ℛ K ∗ linear c) ⊢ G' ℛ c := by
  unfold G' ghost
  iintro H
  iexists K
  iexact H

/-- A family over devices and offsets, each member moved to the device that offset further on. -/
theorem bigSep_around (Φ : Off → Dev nD → sProp 𝕄) :
    (bigSep Finset.univ fun c : Dev nD => bigSep Finset.univ fun j : Off => Φ j c)
      = bigSep Finset.univ fun c : Dev nD => bigSep Finset.univ fun j : Off => Φ j (fwd j c) := by
  rw [bigSep_univ_comm (fun (c : Dev nD) (j : Off) => Φ j c), bigSep_univ_comm (fun (c : Dev nD) (j : Off) => Φ j (fwd j c))]
  exact bigSep_congr fun j _ => bigSep_univ_equiv (fwd j) (Φ j)

/-- The tokens dealt around the ring: a barrier duty's token, and a receive cell's, go from the owner to the device
    that pays the duty. -/
theorem toks_around : (bigSep Finset.univ fun c : Dev nD => (toks c : sProp 𝕄)) ⊢ bigSep Finset.univ fun c : Dev nD => payToks c := by
  unfold toks payToks
  simp only [bigSep_fam, bigSep_sep']
  rw [bigSep_around (fun j c => (dutyTok ER (barCell c) 0 (off j) : sProp 𝕄)),
    bigSep_around (fun j c => (dutyTok ER (kcell (c, .inr (1, j))) 0 (0 : Fin 16) : sProp 𝕄)),
    bigSep_around (fun j c => (dutyTok ER (kcell (c, .inr (3, j))) 0 (0 : Fin 16) : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CellIx => iprop(∃ κ : ℕ, cellInv ER ℛ κ (kcell (c, k))))
          ∗ (bigSep Finset.univ fun k : CellIx => iprop(atPos ER (kcell (c, k)) 0 (∅ : Finset (Fin 16)) 0 ∗ reached ER (kcell (c, k)) 0)) ∗ toks c) : sProp 𝕄)
      ⊢ bigSep Finset.univ (G' ℛ) := by
  rw [bigSep_sep', bigSep_sep', ← bigSep_univ_prod (fun ck : Dev nD × CellIx => iprop(∃ κ : ℕ, cellInv ER ℛ κ (kcell ck))),
    bigSep_congr (s := Finset.univ) (fun (c : Dev nD) _ => bigSep_sep' Finset.univ (fun k : CellIx => (atPos ER (kcell (c, k)) 0 (∅ : Finset (Fin 16)) 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER ℛ κ (kcell ck) : sProp 𝕄))) $$ HI
  icases HK with ⟨%K, #HI⟩
  ihave Htk := (toks_around (F := F)) $$ Htok
  iapply (bigSep_with_persistent (R := records ℛ K) fun c _ => ghost_intro ℛ K c)
  isplitr
  · unfold records; isplitl; · iexact HI
    iexact HR
  · iapply ((Entails.of_eq (bigSep_sep' Finset.univ (fun c : Dev nD => bigSep Finset.univ fun k : CellIx => (atPos ER (kcell (c, k)) 0 (∅ : Finset (Fin 16)) 0 : sProp 𝕄)) payToks).symm).trans
      (bigSep_mono fun c _ => show _ ⊢ linear c from Entails.of_eq (by unfold linear positions; rw [bigSep_cellIx]; rfl)))
    isplitl [Hat]; · iexact Hat
    iexact Htk

/-- The global step: the own and the unscoped semaphores of every device at once. -/
theorem glob [∀ g r d, BI.Storable (upEmb : UEmb _ 𝕄) (ℛ.payload g r d)] :
    (bigSep Finset.univ fun c => iprop(Pipeline.ownSems0 (Ix := Unit) (Name := ℕ) (U := UU) (Lvl := ℕ) (Val := Elt F) (τ := τ) osem c ∗ unscopedSems0 c ∗ G ℛ c) : sProp 𝕄)
      ⊢ |={Set.univ}=> bigSep Finset.univ (G' ℛ) :=
  ((bigSep_mono fun c _ => core_alloc ℛ c).trans (bigSep_fupd _ _)).trans (BI.fupd_mono (regroup ℛ))

/-! ## The launch credit -/

theorem sum_tallyAt_const {α : Type} [DecidableEq α] (s : Finset α) (g : GSem nD τ sig) (n : ℕ) :
    (∑ _a ∈ s, (tallyAt g () n : CellTallies nD τ sig Unit)) = tallyAt g () (s.card * n) := by
  induction s using Finset.induction_on with
  | empty => rw [Finset.sum_empty, Finset.card_empty, Nat.zero_mul, tallyAt_zero]
  | insert a s ha ih =>
    rw [Finset.sum_insert ha, ih, tallyAt_add, Finset.card_insert_of_notMem ha]
    congr 1
    rw [Nat.succ_mul, Nat.add_comm]

/-- Every other device owes device `c`'s barrier cell one unit: fifteen units of credit. -/
theorem cred_bar (c : Dev nD) : (Pipeline.launchCred owedBar c : sProp 𝕄) ⊢ cred (tallyAt (barCell c) () 15) := by
  have h1 : (Pipeline.launchCred owedBar c : sProp 𝕄)
      = bigSep Finset.univ fun j : Off => Pipeline.launchCred (fun d : Dev nD => (tallyAt (barCell (fwd j d)) () 1 : CellTallies nD τ sig Unit)) c :=
    Pipeline.launchCred_sum Finset.univ (fun (j : Off) (d : Dev nD) => (tallyAt (barCell (fwd j d)) () 1 : CellTallies nD τ sig Unit)) c
  rw [h1]
  refine (bigSep_mono fun j _ => Pipeline.launchCred_tallyAt (.reg barS) (fwd j) (fwd j).symm (fwd j).apply_symm_apply (fwd j).symm_apply_apply () 1 c).trans ?_
  rw [← Pipeline.cred_finsetSum, sum_tallyAt_const, Finset.card_univ, Fintype.card_fin]
  exact BI.Entails.refl _

/-- The device `off j` places before `c` owes `c`'s scatter receive cell at that offset one block's credit; -/
theorem cred_rs (c : Dev nD) :
    (Pipeline.launchCred owedRs c : sProp 𝕄) ⊢ bigSep Finset.univ fun j : Off => cred (tallyAt (rsRecvCell c (off j)) () N) := by
  have h1 : (Pipeline.launchCred owedRs c : sProp 𝕄)
      = bigSep Finset.univ fun j : Off => Pipeline.launchCred (fun d : Dev nD => (tallyAt (rsRecvCell (fwd j d) (off j)) () N : CellTallies nD τ sig Unit)) c :=
    Pipeline.launchCred_sum Finset.univ (fun (j : Off) (d : Dev nD) => (tallyAt (rsRecvCell (fwd j d) (off j)) () N : CellTallies nD τ sig Unit)) c
  rw [h1]
  exact bigSep_mono fun j _ => Pipeline.launchCred_tallyAt (.dma (rsRecv (off j))) (fwd j) (fwd j).symm (fwd j).apply_symm_apply (fwd j).symm_apply_apply () N c

/-- and likewise its gather receive cell. -/
theorem cred_ag (c : Dev nD) :
    (Pipeline.launchCred owedAg c : sProp 𝕄) ⊢ bigSep Finset.univ fun j : Off => cred (tallyAt (agRecvCell c (off j)) () N) := by
  have h1 : (Pipeline.launchCred owedAg c : sProp 𝕄)
      = bigSep Finset.univ fun j : Off => Pipeline.launchCred (fun d : Dev nD => (tallyAt (agRecvCell (fwd j d) (off j)) () N : CellTallies nD τ sig Unit)) c :=
    Pipeline.launchCred_sum Finset.univ (fun (j : Off) (d : Dev nD) => (tallyAt (agRecvCell (fwd j d) (off j)) () N : CellTallies nD τ sig Unit)) c
  rw [h1]
  exact bigSep_mono fun j _ => Pipeline.launchCred_tallyAt (.dma (agRecv (off j))) (fwd j) (fwd j).symm (fwd j).apply_symm_apply (fwd j).symm_apply_apply () N c

theorem creds_intro (c : Dev nD) : (Pipeline.launchCred O₀ c : sProp 𝕄) ⊢ creds c := by
  have h : (Pipeline.launchCred O₀ c : sProp 𝕄)
      = iprop((Pipeline.launchCred owedBar c ∗ Pipeline.launchCred owedRs c) ∗ Pipeline.launchCred owedAg c) := by
    show (Pipeline.launchCred (fun d : Dev nD => (fun d : Dev nD => owedBar d + owedRs d) d + owedAg d) c : sProp 𝕄) = _
    rw [Pipeline.launchCred_add, Pipeline.launchCred_add]
  rw [h]
  unfold creds
  iintro ⟨⟨HB, HR⟩, HA⟩
  isplitl [HB]; · iapply (cred_bar (F := F) c); iexact HB
  isplitl [HR]; · iapply (cred_rs (F := F) c); iexact HR
  iapply (cred_ag (F := F) c); iexact HA

/-! ## The side conditions of the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' ℛ c)
      ⊢ |={Set.univ}=> iprop(start ℛ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start ℛ c ∗ Pipeline.prefHeld Pipeline.Prefetch.none c (fun _ => fullShare.right) (fun k => k.elim0) ∗ Pipeline.scopedRest cfg0.spec c)
      ⊢ (dats ℛ m ρ out 0 c).Φ 0 := by
  rw [show (dats ℛ m ρ out 0 c).Φ 0 = Φ₀ ℛ c from rfl, scopedRest0_eq]
  unfold Φ₀ scratch
  iintro ⟨Hs, -, Hr⟩
  isplitl [Hs]; · iexact Hs
  iexact Hr

theorem phi1_exit (c : Dev nD) :
    (dats ℛ m ρ out 0 c).Φ (Fin.last cfg0.N) ⊢ iprop(emp ∗ Pipeline.ownSems0 osem c ∗ Pipeline.scopedRest cfg0.spec c) := by
  rw [show (dats ℛ m ρ out 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

theorem waits (c : Dev nD) : (levAts L lv : sProp 𝕄) ⊢ Pipeline.cellsWaits cfgs (dats ℛ m ρ out) () 0 c :=
  Pipeline.cellsWaits_intro cfgs (dats ℛ m ρ out) () 0 c fun w s t =>
    mayWait_low c _ (by fin_cases w <;> fin_cases s <;> decide) _ (by
      rcases t with ⟨_ | _, ht⟩
      · exact Or.inl rfl
      · exact Or.inr rfl)

/-! ## The run -/

/-- Each windowed array of device `c` after the kernel, as the proof data computes it. -/
def finalA (c : Dev nD) (w : Fin cfg0.W) : Buf (Elt F) ((cfg0.win w).arr.view.loc (c : Thread nD τ)) := (dats ℛ m ρ out 0 c).arrAt w cfg0.N

def QC : PUnit × MemSt nD τ sig (Elt F) → Prop := fun r =>
  ∀ c : Dev nD, ∀ w : Fin cfg0.W, r.2.mem ((cfg0.win w).arr.view.loc (c : Thread nD τ)) = finalA ℛ m ρ out c w

set_option maxRecDepth 32000 in
/-- At the compiled mesh of sixteen devices, for any float values, from any memory with zero counters: if one device's
    body is proved from its invariant, every weakly fair execution of @main terminates, and in every final state each
    device's four windowed arrays hold what the proof data computes. -/
theorem run_main [∀ g r d, BI.Storable (upEmb : UEmb _ 𝕄) (ℛ.payload g r d)]
    (hbody : ∀ c : Dev nD, BodyObligation (dats ℛ m ρ out 0 c) (defs₀ (F := F)) 𝒱₀ () Set.univ) :
    θ_run defs (onTc (τ := τ) (main (F := F))) (s₀ m ρ) (QC ℛ m ρ out) :=
  Pipeline.θ_run_region_owing_glob_pf (fun p => (cfgs p).toPCfg) (fun p => (cfgs p).toPCfg_adm) (dats ℛ m ρ out) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq ℛ m ρ out)
    (hdistinct := winFacts0.arr_inj)
    (O₀ := O₀) (howed₀ := fun _ => rfl) (howedN := fun _ => rfl)
    (L := L) (lv := lv) (hL := L_of_ne) (hwaits := waits ℛ m ρ out)
    (G := G ℛ) (G' := G' ℛ) (u₀ := u₀)
    (hu₀ := by
      unfold u₀
      iintro Hu
      ihave H := (ownU_pair _ _) $$ Hu
      icases H with ⟨HP, HX⟩
      imod (fund_all ℛ) $$ HX with HG
      imodintro
      isplitl [HP] <;> iassumption)
    (hglob := glob ℛ)
    (hA := fun _ _ => rfl) (hpf := fun _ k => k.elim0)
    (X := start ℛ) (Y := fun _ => iprop(emp)) (Z := fun _ => iprop(emp))
    (hX := start_intro ℛ m ρ) (hin := phi0_intro ℛ m ρ out) (hout := phi1_exit ℛ m ρ out)
    (QY := fun _ _ => True)
    (hY := fun c s' => by
      iintro ⟨-, -, HSI⟩
      imodintro
      isplitr; · ipureintro; trivial
      iexact HSI)
    (hQ := fun _ h c w => (h c).1 w)

/-! ## The final arrays -/

theorem finalA_arg0 (c : Dev nD) : finalA ℛ m ρ out c (0 : Fin 4) = m ((c.tc : Thread nD τ).loc main_arg0) :=
  (dats ℛ m ρ out 0 c).arrAt_in (0 : Fin 4) rfl _
theorem finalA_arg1 (c : Dev nD) : finalA ℛ m ρ out c (1 : Fin 4) = m ((c.tc : Thread nD τ).loc main_arg1) :=
  (dats ℛ m ρ out 0 c).arrAt_in (1 : Fin 4) rfl _
theorem finalA_arg2 (c : Dev nD) : finalA ℛ m ρ out c (2 : Fin 4) = m ((c.tc : Thread nD τ).loc main_arg2) :=
  (dats ℛ m ρ out 0 c).arrAt_in (2 : Fin 4) rfl _

/-- The result array after the kernel: the array as launched, overwritten by the write-back of the output window's
    staging buffer at the kernel's one point. -/
theorem finalA_out_raw (c : Dev nD) : finalA ℛ m ρ out c (3 : Fin 4)
    = ((cfg0.win 3).blk t0_0).view.write (Elt F) (m ((c.tc : Thread nD τ).loc main_v1)) ((dats ℛ m ρ out 0 c).flushed (3 : Fin 4) t0_0) Finset.univ := by
  have h := (dats ℛ m ρ out 0 c).arrAt_succ (3 : Fin 4) t0_0
  rw [flush0_3, if_pos rfl] at h
  exact h

/-- The write-back is of the whole array: the result array holds what the body leaves in the staging buffer. -/
theorem finalA_out (c : Dev nD) : finalA ℛ m ρ out c (3 : Fin 4) = out c := by
  rw [finalA_out_raw]
  exact Memref.write_access_unit_zero_univ (Elt F) main_v1 (funext fun a => Nat.zero_mul _) _ _ _

/-- The run in the form the claim reads: on every device the three argument arrays are unchanged and the result array
    holds what the body leaves in the output window's staging buffer. -/
theorem run_post [∀ g r d, BI.Storable (upEmb : UEmb _ 𝕄) (ℛ.payload g r d)]
    (hbody : ∀ c : Dev nD, BodyObligation (dats ℛ m ρ out 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v1) = out c) :=
  (θ_run defs _ _).mono (fun _ h c => ⟨(h c 0).trans (finalA_arg0 ℛ m ρ out c), (h c 1).trans (finalA_arg1 ℛ m ρ out c),
      (h c 2).trans (finalA_arg2 ℛ m ρ out c), (h c 3).trans (finalA_out ℛ m ρ out c)⟩) (run_main ℛ m ρ out hbody)

/-- info: 'Cert.KernelIdeal.Proto.run_post' depends on axioms: [propext, Classical.choice, Quot.sound] -/
#guard_msgs in #print axioms run_post

end Cert.KernelIdeal.Proto

end
-- ==== Proof.BodyWrap.lean ====
/-
  The body obligation of the launch from the proof of one device's body as it is stated over chains of fifteen
  conjuncts: the launch's big stars opened into those chains, what is owed at launch as the nested sum, and the sixty
  closed cells gathered again at the end.
-/
import proofs.«900432_g7700000000000433_dist_gconv1d_cshard_i_b4_s512_c256_v7x_i16_bf16_1_alg».proof.Proof.BodyGlue
import proofs.«900432_g7700000000000433_dist_gconv1d_cshard_i_b4_s512_c256_v7x_i16_bf16_1_alg».proof.Proof.BodySpec
import proofs.«900432_g7700000000000433_dist_gconv1d_cshard_i_b4_s512_c256_v7x_i16_bf16_1_alg».proof.Proof.LaunchIdeal

set_option maxRecDepth 16384

noncomputable section

namespace Cert.KernelIdeal.Proto

open Cert.KernelIdeal Cert.KernelIdeal.Gen Cert.KernelIdeal.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's big stars as chains -/

theorem positions_chain (c : Dev nD) : (positions c : sProp 𝕄)
    = iprop(atPos ER (barCell c) 0 (∅ : Finset (Fin 16)) 0
      ∗ offChain (fun o => atPos ER (rsSendCell c o) 0 (∅ : Finset (Fin 16)) 0) ∗ offChain (fun o => atPos ER (rsRecvCell c o) 0 (∅ : Finset (Fin 16)) 0)
      ∗ offChain (fun o => atPos ER (agSendCell c o) 0 (∅ : Finset (Fin 16)) 0) ∗ offChain (fun o => atPos ER (agRecvCell c o) 0 (∅ : Finset (Fin 16)) 0)) := by
  unfold positions
  rw [bigSep_fam, ← bigSep_offChain (fun o => (atPos ER (rsSendCell c o) 0 (∅ : Finset (Fin 16)) 0 : sProp 𝕄)),
    ← bigSep_offChain (fun o => (atPos ER (rsRecvCell c o) 0 (∅ : Finset (Fin 16)) 0 : sProp 𝕄)),
    ← bigSep_offChain (fun o => (atPos ER (agSendCell c o) 0 (∅ : Finset (Fin 16)) 0 : sProp 𝕄)),
    ← bigSep_offChain (fun o => (atPos ER (agRecvCell c o) 0 (∅ : Finset (Fin 16)) 0 : sProp 𝕄))]
  rfl

theorem payToks_chain (c : Dev nD) : (payToks c : sProp 𝕄)
    = iprop(offChain (fun o => dutyTok ER (barCell (peer c o.val)) 0 o)
      ∗ offChain (fun o => dutyTok ER (rsSendCell c o) 0 (0 : Fin 16))
      ∗ offChain (fun o => dutyTok ER (rsRecvCell (peer c o.val) o) 0 (0 : Fin 16))
      ∗ offChain (fun o => dutyTok ER (agSendCell c o) 0 (0 : Fin 16))
      ∗ offChain (fun o => dutyTok ER (agRecvCell (peer c o.val) o) 0 (0 : Fin 16))) := by
  unfold payToks
  rw [← bigSep_offChain (fun o => (dutyTok ER (barCell (peer c o.val)) 0 o : sProp 𝕄)),
    ← bigSep_offChain (fun o => (dutyTok ER (rsSendCell c o) 0 (0 : Fin 16) : sProp 𝕄)),
    ← bigSep_offChain (fun o => (dutyTok ER (rsRecvCell (peer c o.val) o) 0 (0 : Fin 16) : sProp 𝕄)),
    ← bigSep_offChain (fun o => (dutyTok ER (agSendCell c o) 0 (0 : Fin 16) : sProp 𝕄)),
    ← bigSep_offChain (fun o => (dutyTok ER (agRecvCell (peer c o.val) o) 0 (0 : Fin 16) : sProp 𝕄))]
  rfl

theorem creds_chain (c : Dev nD) : (creds c : sProp 𝕄)
    = iprop(cred (tallyAt (barCell c) () 15) ∗ offChain (fun o => cred (tallyAt (rsRecvCell c o) () N))
      ∗ offChain (fun o => cred (tallyAt (agRecvCell c o) () N))) := by
  unfold creds
  rw [← bigSep_offChain (fun o => (cred (tallyAt (rsRecvCell c o) () N) : sProp 𝕄)),
    ← bigSep_offChain (fun o => (cred (tallyAt (agRecvCell c o) () N) : sProp 𝕄))]

theorem semVals_chain (c : Dev nD) : (bigSep Finset.univ fun k : Fin 4 × Off => (semVal (kcell (c, .inr k)) 0 : sProp 𝕄))
    = iprop(offChain (fun o => semVal (rsSendCell c o) 0) ∗ offChain (fun o => semVal (rsRecvCell c o) 0)
      ∗ offChain (fun o => semVal (agSendCell c o) 0) ∗ offChain (fun o => semVal (agRecvCell c o) 0)) := by
  rw [bigSep_fam, ← bigSep_offChain (fun o => (semVal (rsSendCell c o) 0 : sProp 𝕄)), ← bigSep_offChain (fun o => (semVal (rsRecvCell c o) 0 : sProp 𝕄)),
    ← bigSep_offChain (fun o => (semVal (agSendCell c o) 0 : sProp 𝕄)), ← bigSep_offChain (fun o => (semVal (agRecvCell c o) 0 : sProp 𝕄))]
  rfl

/-! ## From the body's proof to the obligation -/

/-- The kernel body under a second name, equal to it by definition. -/
@[irreducible] def sealedBody : Prog (TpuEff nD τ sig (Elt F) Λ₀ .tc) PUnit := theBody (F := F)

theorem sealedBody_eq : sealedBody (F := F) = bodyAt0 (F := F) t0_0 := by unfold sealedBody; rfl
theorem sealedBody_eq' : sealedBody (F := F) = theBody (F := F) := by unfold sealedBody; rfl

/-- The body's proof, as it is stated over the chains: from `bodyPre` to `bodyPost`, for every device and every
    choice of the cells' names, of the recorded waits and of the three buffers' entry contents. -/
def BodySound : Prop :=
  ∀ (K : Dev nD × CellIx → ℕ) (c : Dev nD) (W : Waits sig Unit)
    (gout : Buf (Elt F) ((c : Thread nD τ).loc cc0_stg3_0)) (facc : Buf (Elt F) ((c : Thread nD τ).loc cc0_scratch0))
    (ftmp : Buf (Elt F) ((c : Thread nD τ).loc cc0_scratch1)) (Kt : PUnit → sProp 𝕄),
    iprop(bodyPre m K c W gout facc ftmp ∗ (bodyPost m c -∗ Kt ⟨⟩))
      ⊢ wp frame (wpE (defs₀ (F := F)) 𝒱₀ (c : Thread nD τ) none) Set.univ (theBody (F := F)) Kt

set_option maxRecDepth 32000 in
theorem win_of_sound (hsound : BodySound (F := F) m) (c : Dev nD) :
    winPre (Rd (F := F) m) m ρ (fun _ => outFull m) c
      ⊢ wp frame (wpE (defs₀ (F := F)) 𝒱₀ c none) Set.univ (bodyAt0 (F := F) t0_0) (fun _ => winPost (Rd (F := F) m) m ρ (fun _ => outFull m) c) := by
  have hs : ∀ (K : Dev nD × CellIx → ℕ) (W : Waits sig Unit)
      (gout : Buf (Elt F) ((c : Thread nD τ).loc cc0_stg3_0)) (facc : Buf (Elt F) ((c : Thread nD τ).loc cc0_scratch0))
      (ftmp : Buf (Elt F) ((c : Thread nD τ).loc cc0_scratch1)) (Kt : PUnit → sProp 𝕄),
      iprop(bodyPre m K c W gout facc ftmp ∗ (bodyPost m c -∗ Kt ⟨⟩))
        ⊢ wp frame (wpE (defs₀ (F := F)) 𝒱₀ (c : Thread nD τ) none) Set.univ (sealedBody (F := F)) Kt := fun K W gout facc ftmp Kt => by
    rw [sealedBody_eq']; exact hsound K c W gout facc ftmp Kt
  rw [← sealedBody_eq]
  unfold winPre Φ₀ start ghost linear scratch
  rw [positions_chain, payToks_chain, creds_chain]
  unfold Dat.owesAt Pipeline.owesWithin
  rw [show (dats (Rd (F := F) m) m ρ (fun _ => outFull m) 0 c).owed t0_0.castSucc = O₀ c from rfl, O₀_eq_nest]
  iintro ⟨⟨⟨⟨%K, #Hrec, ⟨HaB, HaRS, HaRR, HaAS, HaAR⟩, HtB, HtRS, HtRR, HtAS, HtAR⟩, ⟨HcB, HcR, HcA⟩, #Hlev⟩, ⟨%facc, Hacc⟩, ⟨%ftmp, Htmp⟩⟩,
    ⟨%W, %hW, HO⟩, ⟨%f0, %h0, H0⟩, ⟨%f1, %h1, H1⟩, ⟨%f2, %h2, H2⟩, ⟨%d3, %f3, %h3, H3⟩⟩
  subst h0 h1 h2
  iapply (hs K W f3 facc ftmp (fun _ => winPost (Rd (F := F) m) m ρ (fun _ => outFull m) c))
  isplitl
  · unfold bodyPre
    isplitr; · iexact Hrec
    isplitr; · iexact Hlev
    isplitl [HaB]; · iexact HaB
    isplitl [HaRS]; · iexact HaRS
    isplitl [HaRR]; · iexact HaRR
    isplitl [HaAS]; · iexact HaAS
    isplitl [HaAR]; · iexact HaAR
    isplitl [HtB]; · iexact HtB
    isplitl [HtRS]; · iexact HtRS
    isplitl [HtRR]; · iexact HtRR
    isplitl [HtAS]; · iexact HtAS
    isplitl [HtAR]; · iexact HtAR
    isplitl [HcB]; · iexact HcB
    isplitl [HcR]; · iexact HcR
    isplitl [HcA]; · iexact HcA
    isplitl [HO]; · iexact HO
    isplitl [H0]; · iexact H0
    isplitl [H1]; · iexact H1
    isplitl [H2]; · iexact H2
    isplitl [H3]; · iexact H3
    isplitl [Hacc]; · iexact Hacc
    iexact Htmp
  · unfold bodyPost winPost Φ₁ scratch Dat.owesAt Pipeline.owesWithin
    rw [semVals_chain, show (dats (Rd (F := F) m) m ρ (fun _ => outFull m) 0 c).owed t0_0.succ = 0 from rfl]
    iintro ⟨Hacc, Htmp, HzRS, HzRR, HzAS, HzAR, ⟨%W', HO⟩, H0, H1, H2, H3⟩
    isplitl [Hacc Htmp HzRS HzRR HzAS HzAR]
    · isplitl [Hacc Htmp]
      · isplitl [Hacc]; · iexact Hacc
        iexact Htmp
      isplitl [HzRS]; · iexact HzRS
      isplitl [HzRR]; · iexact HzRR
      isplitl [HzAS]; · iexact HzAS
      iexact HzAR
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    iexists _; isplitr; · (ipureintro; rfl)
    iexact H3

/-- The body obligation on every device. -/
theorem body_obligation (hsound : BodySound (F := F) m) (c : Dev nD) :
    BodyObligation (dats (Rd (F := F) m) m ρ (fun _ => outFull m) 0 c) (defs₀ (F := F)) 𝒱₀ () Set.univ :=
  body_obligation_of (Rd (F := F) m) m ρ (fun _ => outFull m) (win_of_sound m ρ hsound) c

/-- At the compiled mesh of sixteen devices, from any memory with zero counters: every weakly fair execution of @main
    terminates, and in every final state each device's three argument arrays are unchanged and its result array holds the
    full product. -/
theorem run_kernel (hsound : BodySound (F := F) m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v1) = outFull m) :=
  run_post (Rd (F := F) m) m ρ (fun _ => outFull m) (body_obligation m ρ hsound)

/-- info: 'Cert.KernelIdeal.Proto.run_kernel' depends on axioms: [propext, Classical.choice, Quot.sound] -/
#guard_msgs in #print axioms run_kernel

/-! ## The level and chain lemmas the body's proof cites rest on the same three axioms -/

/-- info: 'Cert.KernelIdeal.Proto.records_inv' depends on axioms: [propext, Classical.choice, Quot.sound] -/
#guard_msgs in #print axioms records_inv
/-- info: 'Cert.KernelIdeal.Proto.records_reached' depends on axioms: [propext, Classical.choice, Quot.sound] -/
#guard_msgs in #print axioms records_reached
/-- info: 'Cert.KernelIdeal.Proto.mayWait_low' depends on axioms: [propext, Classical.choice, Quot.sound] -/
#guard_msgs in #print axioms mayWait_low
/-- info: 'Cert.KernelIdeal.Proto.mayWait_bar_of' depends on axioms: [propext, Classical.choice, Quot.sound] -/
#guard_msgs in #print axioms mayWait_bar_of
/-- info: 'Cert.KernelIdeal.Proto.mayWait_rsRecv_of' depends on axioms: [propext, Classical.choice, Quot.sound] -/
#guard_msgs in #print axioms mayWait_rsRecv_of
/-- info: 'Cert.KernelIdeal.Proto.O₀_eq_nest' depends on axioms: [propext, Classical.choice, Quot.sound] -/
#guard_msgs in #print axioms O₀_eq_nest
/-- info: 'Cert.KernelIdeal.Proto.mayWait_bar' depends on axioms: [propext, Classical.choice, Quot.sound] -/
#guard_msgs in #print axioms mayWait_bar
/-- info: 'Cert.KernelIdeal.Proto.mayWait_rsRecv' depends on axioms: [propext, Classical.choice, Quot.sound] -/
#guard_msgs in #print axioms mayWait_rsRecv
/-- info: 'Cert.KernelIdeal.Proto.bigSep_off' depends on axioms: [propext, Classical.choice, Quot.sound] -/
#guard_msgs in #print axioms bigSep_off
/-- info: 'Cert.KernelIdeal.Proto.pos_add' depends on axioms: [propext, Classical.choice, Quot.sound] -/
#guard_msgs in #print axioms pos_add
/-- info: 'Cert.KernelIdeal.Proto.pos_tallyAt' depends on axioms: [propext, Classical.choice, Quot.sound] -/
#guard_msgs in #print axioms pos_tallyAt
/-- info: 'Cert.KernelIdeal.Proto.not_pos_zero' depends on axioms: [propext, Classical.choice, Quot.sound] -/
#guard_msgs in #print axioms not_pos_zero

end Cert.KernelIdeal.Proto

end
-- ==== Proof.Bits.Chains.lean ====
/-
  Closed forms of the device and offset arithmetic the kernel body computes from its own device id.
  Device c signals, and later copies to, the device o places after it on the ring of sixteen, for o = 1, …, 15:
  the addressed device is (c + o) mod 16.  The row of the partial-product buffer it sends there is that same number;
  the block of the result it owns starts at batch c / 4 and sequence position (c mod 4) · 128.
  Each equation is decided over the sixteen devices.
-/
import proofs.«900432_g7700000000000433_dist_gconv1d_cshard_i_b4_s512_c256_v7x_i16_bf16_1_alg».proof.Proof.Gen.Kernel

set_option maxRecDepth 16384

namespace Cert.Kernel.Chains

open Idealize.ShloMosaic Cert.Kernel Cert.Kernel.Gen

/-- The device `o` places after `c` on the ring. -/
def peer (c : Dev nD) (o : Nat) : Dev nD := ⟨(c.val + o) % 16, Nat.mod_lt _ (by decide)⟩

theorem peer_val (c : Dev nD) (o : Nat) : (peer c o).val = (c.val + o) % 16 := rfl

theorem dev1_val : ∀ c : Dev nD, k0_dev1 c = (c.val + 1) % 16 := by decide +kernel
theorem dev16_val : ∀ c : Dev nD, k0_dev16 c = (c.val + 1) % 16 := by decide +kernel
theorem dev31_val : ∀ c : Dev nD, k0_dev31 c = (c.val + 1) % 16 := by decide +kernel
theorem dev2_val : ∀ c : Dev nD, k0_dev2 c = (c.val + 2) % 16 := by decide +kernel
theorem dev17_val : ∀ c : Dev nD, k0_dev17 c = (c.val + 2) % 16 := by decide +kernel
theorem dev32_val : ∀ c : Dev nD, k0_dev32 c = (c.val + 2) % 16 := by decide +kernel
theorem dev3_val : ∀ c : Dev nD, k0_dev3 c = (c.val + 3) % 16 := by decide +kernel
theorem dev18_val : ∀ c : Dev nD, k0_dev18 c = (c.val + 3) % 16 := by decide +kernel
theorem dev33_val : ∀ c : Dev nD, k0_dev33 c = (c.val + 3) % 16 := by decide +kernel
theorem dev4_val : ∀ c : Dev nD, k0_dev4 c = (c.val + 4) % 16 := by decide +kernel
theorem dev19_val : ∀ c : Dev nD, k0_dev19 c = (c.val + 4) % 16 := by decide +kernel
theorem dev34_val : ∀ c : Dev nD, k0_dev34 c = (c.val + 4) % 16 := by decide +kernel
theorem dev5_val : ∀ c : Dev nD, k0_dev5 c = (c.val + 5) % 16 := by decide +kernel
theorem dev20_val : ∀ c : Dev nD, k0_dev20 c = (c.val + 5) % 16 := by decide +kernel
theorem dev35_val : ∀ c : Dev nD, k0_dev35 c = (c.val + 5) % 16 := by decide +kernel
theorem dev6_val : ∀ c : Dev nD, k0_dev6 c = (c.val + 6) % 16 := by decide +kernel
theorem dev21_val : ∀ c : Dev nD, k0_dev21 c = (c.val + 6) % 16 := by decide +kernel
theorem dev36_val : ∀ c : Dev nD, k0_dev36 c = (c.val + 6) % 16 := by decide +kernel
theorem dev7_val : ∀ c : Dev nD, k0_dev7 c = (c.val + 7) % 16 := by decide +kernel
theorem dev22_val : ∀ c : Dev nD, k0_dev22 c = (c.val + 7) % 16 := by decide +kernel
theorem dev37_val : ∀ c : Dev nD, k0_dev37 c = (c.val + 7) % 16 := by decide +kernel
theorem dev8_val : ∀ c : Dev nD, k0_dev8 c = (c.val + 8) % 16 := by decide +kernel
theorem dev23_val : ∀ c : Dev nD, k0_dev23 c = (c.val + 8) % 16 := by decide +kernel
theorem dev38_val : ∀ c : Dev nD, k0_dev38 c = (c.val + 8) % 16 := by decide +kernel
theorem dev9_val : ∀ c : Dev nD, k0_dev9 c = (c.val + 9) % 16 := by decide +kernel
theorem dev24_val : ∀ c : Dev nD, k0_dev24 c = (c.val + 9) % 16 := by decide +kernel
theorem dev39_val : ∀ c : Dev nD, k0_dev39 c = (c.val + 9) % 16 := by decide +kernel
theorem dev10_val : ∀ c : Dev nD, k0_dev10 c = (c.val + 10) % 16 := by decide +kernel
theorem dev25_val : ∀ c : Dev nD, k0_dev25 c = (c.val + 10) % 16 := by decide +kernel
theorem dev40_val : ∀ c : Dev nD, k0_dev40 c = (c.val + 10) % 16 := by decide +kernel
theorem dev11_val : ∀ c : Dev nD, k0_dev11 c = (c.val + 11) % 16 := by decide +kernel
theorem dev26_val : ∀ c : Dev nD, k0_dev26 c = (c.val + 11) % 16 := by decide +kernel
theorem dev41_val : ∀ c : Dev nD, k0_dev41 c = (c.val + 11) % 16 := by decide +kernel
theorem dev12_val : ∀ c : Dev nD, k0_dev12 c = (c.val + 12) % 16 := by decide +kernel
theorem dev27_val : ∀ c : Dev nD, k0_dev27 c = (c.val + 12) % 16 := by decide +kernel
theorem dev42_val : ∀ c : Dev nD, k0_dev42 c = (c.val + 12) % 16 := by decide +kernel
theorem dev13_val : ∀ c : Dev nD, k0_dev13 c = (c.val + 13) % 16 := by decide +kernel
theorem dev28_val : ∀ c : Dev nD, k0_dev28 c = (c.val + 13) % 16 := by decide +kernel
theorem dev43_val : ∀ c : Dev nD, k0_dev43 c = (c.val + 13) % 16 := by decide +kernel
theorem dev14_val : ∀ c : Dev nD, k0_dev14 c = (c.val + 14) % 16 := by decide +kernel
theorem dev29_val : ∀ c : Dev nD, k0_dev29 c = (c.val + 14) % 16 := by decide +kernel
theorem dev44_val : ∀ c : Dev nD, k0_dev44 c = (c.val + 14) % 16 := by decide +kernel
theorem dev15_val : ∀ c : Dev nD, k0_dev15 c = (c.val + 15) % 16 := by decide +kernel
theorem dev30_val : ∀ c : Dev nD, k0_dev30 c = (c.val + 15) % 16 := by decide +kernel
theorem dev45_val : ∀ c : Dev nD, k0_dev45 c = (c.val + 15) % 16 := by decide +kernel

/-- The three families of addressed devices — the barrier signals, the scatter copies, the gather copies — all name the ring peers. -/
theorem dev1_eq (c : Dev nD) : (⟨k0_dev1 c, k0_dev1_lt c⟩ : Dev nD) = peer c 1 := Fin.ext (dev1_val c)
theorem dev16_eq (c : Dev nD) : (⟨k0_dev16 c, k0_dev16_lt c⟩ : Dev nD) = peer c 1 := Fin.ext (dev16_val c)
theorem dev31_eq (c : Dev nD) : (⟨k0_dev31 c, k0_dev31_lt c⟩ : Dev nD) = peer c 1 := Fin.ext (dev31_val c)
theorem dev2_eq (c : Dev nD) : (⟨k0_dev2 c, k0_dev2_lt c⟩ : Dev nD) = peer c 2 := Fin.ext (dev2_val c)
theorem dev17_eq (c : Dev nD) : (⟨k0_dev17 c, k0_dev17_lt c⟩ : Dev nD) = peer c 2 := Fin.ext (dev17_val c)
theorem dev32_eq (c : Dev nD) : (⟨k0_dev32 c, k0_dev32_lt c⟩ : Dev nD) = peer c 2 := Fin.ext (dev32_val c)
theorem dev3_eq (c : Dev nD) : (⟨k0_dev3 c, k0_dev3_lt c⟩ : Dev nD) = peer c 3 := Fin.ext (dev3_val c)
theorem dev18_eq (c : Dev nD) : (⟨k0_dev18 c, k0_dev18_lt c⟩ : Dev nD) = peer c 3 := Fin.ext (dev18_val c)
theorem dev33_eq (c : Dev nD) : (⟨k0_dev33 c, k0_dev33_lt c⟩ : Dev nD) = peer c 3 := Fin.ext (dev33_val c)
theorem dev4_eq (c : Dev nD) : (⟨k0_dev4 c, k0_dev4_lt c⟩ : Dev nD) = peer c 4 := Fin.ext (dev4_val c)
theorem dev19_eq (c : Dev nD) : (⟨k0_dev19 c, k0_dev19_lt c⟩ : Dev nD) = peer c 4 := Fin.ext (dev19_val c)
theorem dev34_eq (c : Dev nD) : (⟨k0_dev34 c, k0_dev34_lt c⟩ : Dev nD) = peer c 4 := Fin.ext (dev34_val c)
theorem dev5_eq (c : Dev nD) : (⟨k0_dev5 c, k0_dev5_lt c⟩ : Dev nD) = peer c 5 := Fin.ext (dev5_val c)
theorem dev20_eq (c : Dev nD) : (⟨k0_dev20 c, k0_dev20_lt c⟩ : Dev nD) = peer c 5 := Fin.ext (dev20_val c)
theorem dev35_eq (c : Dev nD) : (⟨k0_dev35 c, k0_dev35_lt c⟩ : Dev nD) = peer c 5 := Fin.ext (dev35_val c)
theorem dev6_eq (c : Dev nD) : (⟨k0_dev6 c, k0_dev6_lt c⟩ : Dev nD) = peer c 6 := Fin.ext (dev6_val c)
theorem dev21_eq (c : Dev nD) : (⟨k0_dev21 c, k0_dev21_lt c⟩ : Dev nD) = peer c 6 := Fin.ext (dev21_val c)
theorem dev36_eq (c : Dev nD) : (⟨k0_dev36 c, k0_dev36_lt c⟩ : Dev nD) = peer c 6 := Fin.ext (dev36_val c)
theorem dev7_eq (c : Dev nD) : (⟨k0_dev7 c, k0_dev7_lt c⟩ : Dev nD) = peer c 7 := Fin.ext (dev7_val c)
theorem dev22_eq (c : Dev nD) : (⟨k0_dev22 c, k0_dev22_lt c⟩ : Dev nD) = peer c 7 := Fin.ext (dev22_val c)
theorem dev37_eq (c : Dev nD) : (⟨k0_dev37 c, k0_dev37_lt c⟩ : Dev nD) = peer c 7 := Fin.ext (dev37_val c)
theorem dev8_eq (c : Dev nD) : (⟨k0_dev8 c, k0_dev8_lt c⟩ : Dev nD) = peer c 8 := Fin.ext (dev8_val c)
theorem dev23_eq (c : Dev nD) : (⟨k0_dev23 c, k0_dev23_lt c⟩ : Dev nD) = peer c 8 := Fin.ext (dev23_val c)
theorem dev38_eq (c : Dev nD) : (⟨k0_dev38 c, k0_dev38_lt c⟩ : Dev nD) = peer c 8 := Fin.ext (dev38_val c)
theorem dev9_eq (c : Dev nD) : (⟨k0_dev9 c, k0_dev9_lt c⟩ : Dev nD) = peer c 9 := Fin.ext (dev9_val c)
theorem dev24_eq (c : Dev nD) : (⟨k0_dev24 c, k0_dev24_lt c⟩ : Dev nD) = peer c 9 := Fin.ext (dev24_val c)
theorem dev39_eq (c : Dev nD) : (⟨k0_dev39 c, k0_dev39_lt c⟩ : Dev nD) = peer c 9 := Fin.ext (dev39_val c)
theorem dev10_eq (c : Dev nD) : (⟨k0_dev10 c, k0_dev10_lt c⟩ : Dev nD) = peer c 10 := Fin.ext (dev10_val c)
theorem dev25_eq (c : Dev nD) : (⟨k0_dev25 c, k0_dev25_lt c⟩ : Dev nD) = peer c 10 := Fin.ext (dev25_val c)
theorem dev40_eq (c : Dev nD) : (⟨k0_dev40 c, k0_dev40_lt c⟩ : Dev nD) = peer c 10 := Fin.ext (dev40_val c)
theorem dev11_eq (c : Dev nD) : (⟨k0_dev11 c, k0_dev11_lt c⟩ : Dev nD) = peer c 11 := Fin.ext (dev11_val c)
theorem dev26_eq (c : Dev nD) : (⟨k0_dev26 c, k0_dev26_lt c⟩ : Dev nD) = peer c 11 := Fin.ext (dev26_val c)
theorem dev41_eq (c : Dev nD) : (⟨k0_dev41 c, k0_dev41_lt c⟩ : Dev nD) = peer c 11 := Fin.ext (dev41_val c)
theorem dev12_eq (c : Dev nD) : (⟨k0_dev12 c, k0_dev12_lt c⟩ : Dev nD) = peer c 12 := Fin.ext (dev12_val c)
theorem dev27_eq (c : Dev nD) : (⟨k0_dev27 c, k0_dev27_lt c⟩ : Dev nD) = peer c 12 := Fin.ext (dev27_val c)
theorem dev42_eq (c : Dev nD) : (⟨k0_dev42 c, k0_dev42_lt c⟩ : Dev nD) = peer c 12 := Fin.ext (dev42_val c)
theorem dev13_eq (c : Dev nD) : (⟨k0_dev13 c, k0_dev13_lt c⟩ : Dev nD) = peer c 13 := Fin.ext (dev13_val c)
theorem dev28_eq (c : Dev nD) : (⟨k0_dev28 c, k0_dev28_lt c⟩ : Dev nD) = peer c 13 := Fin.ext (dev28_val c)
theorem dev43_eq (c : Dev nD) : (⟨k0_dev43 c, k0_dev43_lt c⟩ : Dev nD) = peer c 13 := Fin.ext (dev43_val c)
theorem dev14_eq (c : Dev nD) : (⟨k0_dev14 c, k0_dev14_lt c⟩ : Dev nD) = peer c 14 := Fin.ext (dev14_val c)
theorem dev29_eq (c : Dev nD) : (⟨k0_dev29 c, k0_dev29_lt c⟩ : Dev nD) = peer c 14 := Fin.ext (dev29_val c)
theorem dev44_eq (c : Dev nD) : (⟨k0_dev44 c, k0_dev44_lt c⟩ : Dev nD) = peer c 14 := Fin.ext (dev44_val c)
theorem dev15_eq (c : Dev nD) : (⟨k0_dev15 c, k0_dev15_lt c⟩ : Dev nD) = peer c 15 := Fin.ext (dev15_val c)
theorem dev30_eq (c : Dev nD) : (⟨k0_dev30 c, k0_dev30_lt c⟩ : Dev nD) = peer c 15 := Fin.ext (dev30_val c)
theorem dev45_eq (c : Dev nD) : (⟨k0_dev45 c, k0_dev45_lt c⟩ : Dev nD) = peer c 15 := Fin.ext (dev45_val c)

/-- Row `(c + 1 + r) mod 16` of the partial-product buffer is the source of the copy to the device `1 + r` places on. -/
theorem off1_eq : ∀ (c : Dev nD) (r : Fin 15), k0_off1 c (BitVec.ofNat 32 (1 + r.val)) = ![(c.val + (1 + r.val)) % 16, 0, 0] := by decide +kernel
/-- The block of the result a device owns: batch `c / 4`, sequence positions from `(c mod 4) · 128`. -/
theorem off3_eq : ∀ c : Dev nD, k0_off3 c = ![c.val / 4, (c.val % 4) * 128, 0] := by decide +kernel
theorem off4_eq : ∀ c : Dev nD, k0_off4 c = ![c.val / 4, (c.val % 4) * 128, 0] := by decide +kernel

end Cert.Kernel.Chains
-- ==== Proof.Bits.Contents.lean ====
/-
  What the kernel's buffers hold, as functions of the memory at launch (generic in the float instance).
  Device c's partial product is the gated convolution of its 256 channels multiplied into its 256 rows of the weight:
  sixteen row-blocks of 128 rows.  Slot o of device e's temporary buffer receives row-block e of the partial product of
  the device o places before e; device j's sum adds its own row-block j and those fifteen; block j of every device's
  result ends holding device j's sum.
-/
import proofs.«900432_g7700000000000433_dist_gconv1d_cshard_i_b4_s512_c256_v7x_i16_bf16_1_alg».proof.Proof.Gen.Kernel
import proofs.«900432_g7700000000000433_dist_gconv1d_cshard_i_b4_s512_c256_v7x_i16_bf16_1_alg».proof.Proof.Gen.Kernel.Skeleton
import proofs.«900432_g7700000000000433_dist_gconv1d_cshard_i_b4_s512_c256_v7x_i16_bf16_1_alg».proof.Proof.Gen.Kernel.Launch
import proofs.«900432_g7700000000000433_dist_gconv1d_cshard_i_b4_s512_c256_v7x_i16_bf16_1_alg».proof.Proof.Gen.Kernel.Points
import proofs.«900432_g7700000000000433_dist_gconv1d_cshard_i_b4_s512_c256_v7x_i16_bf16_1_alg».proof.Proof.Gen.Kernel.Frame
import proofs.«900432_g7700000000000433_dist_gconv1d_cshard_i_b4_s512_c256_v7x_i16_bf16_1_alg».proof.Proof.Bits.Chains
import Idealize.ShloMosaic.Lib.ValueIdx

set_option maxRecDepth 16384

noncomputable section

namespace Cert.Kernel.Proto

open Cert.Kernel Cert.Kernel.Gen Cert.Kernel.Chains
open Idealize.ShloMosaic Idealize.ShloMosaic.TcCoe Idealize.SL.Sem

variable {F : FTy → Type} [FloatOps F]
variable (m : (ℓ : Loc nD τ sig) → Buf (Elt F) ℓ)

/-- The device `o` places before `c` on the ring of sixteen. -/
def back (c : Dev nD) (o : Nat) : Dev nD := ⟨(c.val + (16 - o % 16)) % 16, Nat.mod_lt _ (by decide)⟩

theorem back_val (c : Dev nD) (o : Nat) : (back c o).val = (c.val + (16 - o % 16)) % 16 := rfl
theorem back_peer (c : Dev nD) (o : Fin 16) : back (peer c o.val) o.val = c := by revert c o; decide
theorem peer_back (c : Dev nD) (o : Fin 16) : peer (back c o.val) o.val = c := by revert c o; decide

/-- Device `c`'s three input blocks as its kernel body finds them. -/
def xB (c : Dev nD) := iblk m c 0 t0_0
def kB (c : Dev nD) := iblk m c 1 t0_0
def wB (c : Dev nD) := iblk m c 2 t0_0

/-- Device `c`'s partial product, as stored: sixteen row-blocks of 128 rows. -/
def partialOf (c : Dev nD) : FVec F S16x128x256 .bf16 :=
  k0_pay4 (k0_pay1 (xB m c)) (k0_pay2 (kB m c)) (k0_pay3 (kB m c)) (wB m c)

/-- Row-block `j` of device `p`'s partial product, as one block of 128 rows. -/
def rowOf (p : Dev nD) (j : Fin 16) : Vec F S1x128x256 .bf16 :=
  fun i => partialOf m p (ValueIdx.ix3 j (i 1) (i 2))

/-- Device `e`'s temporary buffer once every scatter copy has landed: slot `o` holds row-block `e` of the partial product
    of the device `o` places before `e` (slot 0, never written, is read as the device's own row-block). -/
def tmpFull (e : Dev nD) : FVec F S16x128x256 .bf16 :=
  fun i => partialOf m (back e (i 0).val) (ValueIdx.ix3 e (i 1) (i 2))

/-- The sum over all sixteen devices of row-block `j` of their partial products, added in the order device `j` adds them:
    its own block first, then the blocks of the devices 1, 2, …, 15 places before it. -/
def redOf (j : Dev nD) : FVec F S1x128x256 .bf16 :=
  k0_pay11 (k0_pay10 (k0_pay9 (k0_pay8 (k0_pay7 (k0_pay6 (k0_pay5 (rowOf m j j) (rowOf m (back j 1) j))
    (rowOf m (back j 2) j) (rowOf m (back j 3) j))
    (rowOf m (back j 4) j) (rowOf m (back j 5) j) (rowOf m (back j 6) j))
    (rowOf m (back j 7) j) (rowOf m (back j 8) j))
    (rowOf m (back j 9) j) (rowOf m (back j 10) j))
    (rowOf m (back j 11) j) (rowOf m (back j 12) j) (rowOf m (back j 13) j))
    (rowOf m (back j 14) j) (rowOf m (back j 15) j)

/-- The block of the result that holds output row (b, s): block `b · 4 + s / 128`. -/
def blkOf (b : Fin 4) (s : Fin 512) : Dev nD := ⟨b.val * 4 + s.val / 128, by have := b.isLt; have := s.isLt; show b.val * 4 + s.val / 128 < 16; omega⟩

/-- Every device's result once the gather copies have landed: block `j` holds the sum `redOf j`. The same on all devices. -/
def outFull : FVec F S4x512x256 .bf16 :=
  fun i => redOf m (blkOf (i 0) (i 1)) (ValueIdx.ix3 (0 : Fin 1) ⟨(i 1).val % 128, Nat.mod_lt _ (by decide)⟩ (i 2))

end Cert.Kernel.Proto

end
-- ==== Proof.Bits.Protocol.lean ====
/-
  The cross-device protocol of the gated-convolution kernel on sixteen devices, as a schedule of rounds.

  Every device c computes its partial product (its 256 input channels' contribution to all 2048 output rows),
  stores it as sixteen row-blocks of 128 rows, and then
    * tells every other device, on the runtime's barrier semaphore, that it is inside the kernel (fifteen signals),
      and waits for the fifteen signals addressed to it;
    * sends row-block (c + o) mod 16 of its partial product into slot o of the temporary buffer of device
      (c + o) mod 16, for o = 1, …, 15 (the reduce-scatter), and adds its own row-block c and the fifteen blocks that
      land in its slots: the sum over all devices of row-block c;
    * stores that sum as block c of its result and sends it to block c of every other device's result (the all-gather).
  Each device's barrier cell has one round of fifteen duties of one unit; each of its 4 · 15 transfer cells (scatter
  send / receive, gather send / receive, per offset o) one round of one duty of the block's credit.
  The signal device p sends to device e = (p + o) mod 16 hands e the two places in p's buffers that e will write:
  slot 16 - o of p's temporary buffer and block e of p's result.
-/
import proofs.«900432_g7700000000000433_dist_gconv1d_cshard_i_b4_s512_c256_v7x_i16_bf16_1_alg».proof.Proof.Bits.Contents
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen Cert.Kernel.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) and the protocol's (duties named by an offset) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Buffers, slices and cells -/

abbrev xM : Memref sig .tc .vmem S4x512x256 .f32 := Memref.whole cc0_stg0_0
abbrev kM : Memref sig .tc .vmem S4x256 .f32 := Memref.whole cc0_stg1_0
abbrev wM : Memref sig .tc .vmem S256x256 .f32 := Memref.whole cc0_stg2_0
abbrev oM : Memref sig .tc .vmem S4x512x256 .bf16 := Memref.whole cc0_stg3_0
abbrev accM : Memref sig .tc .vmem S16x128x256 .bf16 := Memref.whole cc0_scratch0
abbrev tmpM : Memref sig .tc .vmem S16x128x256 .bf16 := Memref.whole cc0_scratch1

theorem inbRow (j : Fin 16) : ∀ a, (![j.val, 0, 0] : Fin 3 → Nat) a + S1x128x256.size a ≤ S16x128x256.size a := by
  revert j; decide

/-- The offset minus one, as the index of the copy among the fifteen. -/
def predOff (o : Fin 16) : Fin 15 := ⟨o.val - 1, by have := o.isLt; omega⟩

/-- The source of device `c`'s scatter copy at offset `o`: the row-block of its partial product it sends `o` places on,
    at the row the kernel computes from its device id. -/
def accSrc (c : Dev nD) (o : Fin 16) : Memref sig .tc .vmem S128x256 .bf16 :=
  ((accM.slice (Rect.unit (s := S16x128x256) (k0_off1 c (BitVec.ofNat 32 (1 + (predOff o).val))) S1x128x256.size (k0_off1_inb c (predOff o))) (fun _ => rfl)).squeeze S128x256 squeezes_S1x128x256_S128x256)
/-- Slot `o` of the temporary buffer. -/
def tmpRow (o : Fin 16) : Memref sig .tc .vmem S128x256 .bf16 :=
  ((tmpM.slice (Rect.unit (s := S16x128x256) ![o.val, 0, 0] S1x128x256.size (inbRow o)) (fun _ => rfl)).squeeze S128x256 squeezes_S1x128x256_S128x256)
/-- The block of the result's buffer that device `c` owns, at the offsets the kernel computes from `c`'s device id: the
    source of `c`'s gather copies on `c`, and their destination on every other device. -/
def outOwn (c : Dev nD) : Memref sig .tc .vmem S128x256 .bf16 :=
  ((oM.slice (Rect.unit (s := S4x512x256) (k0_off4 c) S1x128x256.size (k0_off4_inb c)) (fun _ => rfl)).squeeze S128x256 squeezes_S1x128x256_S128x256)

/-- The runtime's barrier semaphore; the four families of sixteen DMA semaphores (index 0 of each is never used). -/
abbrev barS : Sem sig := (SemArray.scalar (sig.barrier 0 rfl) : Sems sig S_).sem
def dsem (base : Nat) (hb : base + 16 ≤ 68) (o : Fin 16) : DmaSem sig := ⟨base + o.val, by have := o.isLt; show base + o.val < 68; omega⟩
abbrev rsSend (o : Fin 16) : DmaSem sig := dsem 4 (by decide) o
abbrev rsRecv (o : Fin 16) : DmaSem sig := dsem 20 (by decide) o
abbrev agSend (o : Fin 16) : DmaSem sig := dsem 36 (by decide) o
abbrev agRecv (o : Fin 16) : DmaSem sig := dsem 52 (by decide) o

abbrev barCell (c : Dev nD) : GSem nD τ sig := ((c : Thread nD τ), .reg barS)
abbrev rsSendCell (c : Dev nD) (o : Fin 16) : GSem nD τ sig := ((c : Thread nD τ), .dma (rsSend o))
abbrev rsRecvCell (c : Dev nD) (o : Fin 16) : GSem nD τ sig := ((c : Thread nD τ), .dma (rsRecv o))
abbrev agSendCell (c : Dev nD) (o : Fin 16) : GSem nD τ sig := ((c : Thread nD τ), .dma (agSend o))
abbrev agRecvCell (c : Dev nD) (o : Fin 16) : GSem nD τ sig := ((c : Thread nD τ), .dma (agRecv o))

/-- The credit of one 128 × 256 block of sixteen-bit elements. -/
abbrev N : ℕ := (tmpRow (1 : Fin 16)).view.dmaCredit
theorem N_pos : 0 < N := View.dmaCredit_pos _ (by decide)
theorem N_tmp (j : Fin 16) : (tmpRow j).view.dmaCredit = N := rfl
theorem N_acc (c : Dev nD) (o : Fin 16) : (accSrc c o).view.dmaCredit = N := rfl
theorem N_out (c : Dev nD) : (outOwn c).view.dmaCredit = N := rfl

/-! ## The landed contents, typed at the views that hold them -/

/-- Device `c`'s partial-product buffer after its store, seen at the source of its copy at offset `o`; device `e`'s
    temporary buffer once the scatter copies have landed, seen at slot `o`; device `e`'s result buffer once the gather
    copies have landed, seen at the block device `j` owns. -/
def accBufAt (c : Dev nD) (o : Fin 16) : Buf (Elt F) ((accSrc c o).view.loc ((c : Dev nD) : Thread nD τ)) := partialOf m c
def tmpBufAt (e : Dev nD) (o : Fin 16) : Buf (Elt F) ((tmpRow o).view.loc ((e : Dev nD) : Thread nD τ)) := tmpFull m e
def outBufAt (e : Dev nD) (j : Dev nD) : Buf (Elt F) ((outOwn j).view.loc ((e : Dev nD) : Thread nD τ)) := outFull m

/-! ## Shares of the gathered block: fifteen copies read it at once -/

/-- The right half taken `n` times. -/
def shr : Nat → PosShare TreeShare
  | 0 => fullShare
  | n + 1 => (shr n).right

/-- The share the `o`-th gather copy reads its source at, `o` = 1, …, 15: the left half of what the earlier copies left,
    the last one all that is left. -/
def shareOf (o : Fin 16) : PosShare TreeShare := if o.val = 15 then shr 14 else (shr (o.val - 1)).left

/-! ## The schedule -/

/-- The slot, on the device `o` places before, that a device writes: slot `16 - o`. -/
def negOff (o : Fin 16) : Fin 16 := ⟨(16 - o.val) % 16, Nat.mod_lt _ (by decide)⟩

theorem negOff_negOff (o : Fin 16) : negOff (negOff o) = o := by revert o; decide
theorem back_negOff (c : Dev nD) (o : Fin 16) : back c (negOff o).val = peer c o.val := by revert c o; decide

/-- The elements of a 128 × 256 view of one of device `p`'s buffers, held at share `q` with contents `f`. -/
def ptsAt (p : Dev nD) (v : Memref sig .tc .vmem S128x256 .bf16) (q : PosShare TreeShare) (f : Buf (Elt F) (v.view.loc (p : Thread nD τ))) : sProp 𝕄 :=
  v.view.loc (p : Thread nD τ) ↦[v.view.set]{q} f

omit [FloatOps F] in
instance ptsAt_storable (p : Dev nD) (v : Memref sig .tc .vmem S128x256 .bf16) (q : PosShare TreeShare) (f : Buf (Elt F) (v.view.loc (p : Thread nD τ))) :
    BI.Storable (upEmb : UEmb _ 𝕄) (ptsAt (F := F) p v q f) := by unfold ptsAt; infer_instance

abbrev slotPts (p : Dev nD) (v : Memref sig .tc .vmem S128x256 .bf16) (f : Buf (Elt F) (v.view.loc (p : Thread nD τ))) : sProp 𝕄 :=
  ptsAt p v fullShare f

/-- What the signal of device `p = back e o` hands device `e`: the slot of `p`'s temporary buffer and the block of `p`'s result
    that `e` will write, and that `p` has reached round 0 of the two cells those writes credit. -/
def barPay (e : Dev nD) (o : Fin 16) : sProp 𝕄 :=
  iprop((∃ f, slotPts (back e o.val) (tmpRow (negOff o)) f) ∗ (∃ f, slotPts (back e o.val) (outOwn e) f)
    ∗ reached ER (rsRecvCell (back e o.val) (negOff o)) 0 ∗ reached ER (agRecvCell (back e o.val) (negOff o)) 0)

/-- A scatter copy done: its source row-block back, unchanged. -/
def rsSendPay (c : Dev nD) (o : Fin 16) : sProp 𝕄 :=
  ptsAt c (accSrc c o) fullShare (accBufAt m c o)
/-- A scatter copy landed: slot `o` of the temporary buffer holds its block. -/
def rsRecvPay (e : Dev nD) (o : Fin 16) : sProp 𝕄 :=
  ptsAt e (tmpRow o) fullShare (tmpBufAt m e o)
/-- A gather copy done: the share of the device's own block it read, back. -/
def agSendPay (c : Dev nD) (o : Fin 16) : sProp 𝕄 :=
  ptsAt c (outOwn c) (shareOf o) (outBufAt m c c)
/-- A gather copy landed: the block of the device `o` places before holds that device's sum. -/
def agRecvPay (e : Dev nD) (o : Fin 16) : sProp 𝕄 :=
  ptsAt e (outOwn (back e o.val)) fullShare (outBufAt m e (back e o.val))

/-- The offset and the family of a DMA semaphore of the four arrays. -/
def offOf (q : DmaSem sig) : Fin 16 := ⟨(q.val + 12) % 16, Nat.mod_lt _ (by decide)⟩
def famOf (q : DmaSem sig) : Nat := (q.val - 4) / 16
/-- A DMA semaphore the protocol uses: one of the four arrays', not at index 0. -/
def Used (q : DmaSem sig) : Prop := 4 ≤ q.val ∧ (q.val + 12) % 16 ≠ 0
instance (q : DmaSem sig) : Decidable (Used q) := by unfold Used; infer_instance

theorem offOf_dsem (base : Nat) (hb : base + 16 ≤ 68) (h4 : base % 16 = 4) (o : Fin 16) : offOf (dsem base hb o) = o := by
  apply Fin.ext; show (base + o.val + 12) % 16 = o.val; have := o.isLt; omega
theorem used_dsem (base : Nat) (hb : base + 16 ≤ 68) (h4 : base % 16 = 4) (o : Fin 16) (ho : o ≠ 0) : Used (dsem base hb o) := by
  have ho' : o.val ≠ 0 := fun h => ho (Fin.ext h)
  refine ⟨?_, ?_⟩
  · show 4 ≤ base + o.val; omega
  · show (base + o.val + 12) % 16 ≠ 0; have := o.isLt; omega

def dutiesOf : SemLoc sig → Finset (Fin 16)
  | .reg s => if s = barS then Finset.univ.erase 0 else ∅
  | .dma q => if Used q then {0} else ∅

def amountOf : SemLoc sig → ℕ
  | .reg _ => 1
  | .dma _ => N

def payloadOf (e : Dev nD) : SemLoc sig → Fin 16 → sProp 𝕄
  | .reg _, d => barPay e d
  | .dma q, _ =>
    if famOf q = 0 then rsSendPay m e (offOf q)
    else if famOf q = 1 then rsRecvPay m e (offOf q)
    else if famOf q = 2 then agSendPay m e (offOf q)
    else agRecvPay m e (offOf q)

/-- One round, round 0, on TensorCore cells: a barrier cell has the fifteen duties named by the offsets 1, …, 15, one unit
    each; a used DMA cell the one duty 0 of a block's credit. -/
def Rd : Rounds.Schedule (GSem nD τ sig) (Fin 16) 𝕄 where
  duties g r := if r = 0 ∧ g.1.2 = .tc then dutiesOf g.2 else ∅
  unitless _ := False
  amount g _ _ := amountOf g.2
  payload g _ d := payloadOf m g.1.1 g.2 d
  amount_pos g _ _ _ := by
    cases g.2 with
    | reg _ => exact Nat.one_pos
    | dma _ => exact N_pos

instance Rd_payload_storable (g : GSem nD τ sig) (r : ℕ) (d : Fin 16) :
    BI.Storable (upEmb : UEmb _ 𝕄) ((Rd (F := F) m).payload g r d) := by
  show BI.Storable upEmb (payloadOf m g.1.1 g.2 d)
  unfold payloadOf
  cases g.2 with
  | reg _ => dsimp only; unfold barPay; infer_instance
  | dma q => dsimp only; unfold rsSendPay rsRecvPay agSendPay agRecvPay; (repeat' split) <;> infer_instance

theorem duties_later (g : GSem nD τ sig) : ∀ r, 1 ≤ r → (Rd (F := F) m).duties g r = ∅ :=
  fun r hr => by dsimp only [Rd]; rw [if_neg fun h => by omega]

/-! ## The schedule's tables -/

section Tables
variable (c : Dev nD)

theorem duties_bar : (Rd (F := F) m).duties (barCell c) 0 = Finset.univ.erase 0 := by
  dsimp only [Rd]; rw [if_pos ⟨rfl, rfl⟩]
  show (if (barS : Sem sig) = barS then Finset.univ.erase (0 : Fin 16) else ∅) = _
  exact if_pos rfl
theorem duties_dma (q : DmaSem sig) (hq : Used q) : (Rd (F := F) m).duties ((c : Thread nD τ), .dma q) 0 = {0} := by
  dsimp only [Rd]; rw [if_pos ⟨rfl, rfl⟩]
  show (if Used q then ({0} : Finset (Fin 16)) else ∅) = _
  exact if_pos hq
theorem amount_bar (d : Fin 16) : (Rd (F := F) m).amount (barCell c) 0 d = 1 := rfl
theorem amount_dma (q : DmaSem sig) (d : Fin 16) : (Rd (F := F) m).amount ((c : Thread nD τ), .dma q) 0 d = N := rfl

theorem expect_bar : (Rd (F := F) m).expect (barCell c) 0 = 15 := by
  unfold Schedule.expect Schedule.amountOf
  rw [duties_bar, Finset.sum_congr rfl fun d _ => amount_bar m c d, Finset.sum_const, smul_eq_mul, mul_one]
  decide
theorem expect_dma (q : DmaSem sig) (hq : Used q) : (Rd (F := F) m).expect ((c : Thread nD τ), .dma q) 0 = N := by
  unfold Schedule.expect Schedule.amountOf; rw [duties_dma m c q hq, Finset.sum_singleton, amount_dma]

theorem payload_bar (o : Fin 16) : (Rd (F := F) m).payload (barCell c) 0 o = barPay c o := rfl
theorem payload_rsSend (o : Fin 16) (d : Fin 16) : (Rd (F := F) m).payload (rsSendCell c o) 0 d = rsSendPay m c o := by
  show payloadOf m c (.dma (rsSend o)) d = _
  have h0 : famOf (rsSend o) = 0 := by show (4 + o.val - 4) / 16 = 0; have := o.isLt; omega
  unfold payloadOf; dsimp only; rw [if_pos h0, offOf_dsem 4 _ rfl]
theorem payload_rsRecv (o : Fin 16) (d : Fin 16) : (Rd (F := F) m).payload (rsRecvCell c o) 0 d = rsRecvPay m c o := by
  show payloadOf m c (.dma (rsRecv o)) d = _
  have h1 : famOf (rsRecv o) = 1 := by show (20 + o.val - 4) / 16 = 1; have := o.isLt; omega
  unfold payloadOf; dsimp only; rw [if_neg (by rw [h1]; decide), if_pos h1, offOf_dsem 20 _ rfl]
theorem payload_agSend (o : Fin 16) (d : Fin 16) : (Rd (F := F) m).payload (agSendCell c o) 0 d = agSendPay m c o := by
  show payloadOf m c (.dma (agSend o)) d = _
  have h2 : famOf (agSend o) = 2 := by show (36 + o.val - 4) / 16 = 2; have := o.isLt; omega
  unfold payloadOf; dsimp only; rw [if_neg (by rw [h2]; decide), if_neg (by rw [h2]; decide), if_pos h2, offOf_dsem 36 _ rfl]
theorem payload_agRecv (o : Fin 16) (d : Fin 16) : (Rd (F := F) m).payload (agRecvCell c o) 0 d = agRecvPay m c o := by
  show payloadOf m c (.dma (agRecv o)) d = _
  have h3 : famOf (agRecv o) = 3 := by show (52 + o.val - 4) / 16 = 3; have := o.isLt; omega
  unfold payloadOf; dsimp only
  rw [if_neg (by rw [h3]; decide), if_neg (by rw [h3]; decide), if_neg (by rw [h3]; decide), offOf_dsem 52 _ rfl]

/-- The rest of a used DMA cell's round, no duty taken: its one payload. -/
theorem rest_dma (q : DmaSem sig) (hq : Used q) :
    bigSep ((Rd (F := F) m).duties ((c : Thread nD τ), .dma q) 0 \ ∅) (fun d => (Rd (F := F) m).payload ((c : Thread nD τ), .dma q) 0 d)
      = (Rd (F := F) m).payload ((c : Thread nD τ), .dma q) 0 0 := by
  rw [Finset.sdiff_empty, duties_dma m c q hq, bigSep_singleton]

/-- The rest of the barrier cell's round, no duty taken: the fifteen peers' payloads. -/
theorem rest_bar :
    bigSep ((Rd (F := F) m).duties (barCell c) 0 \ ∅) (fun d => (Rd (F := F) m).payload (barCell c) 0 d)
      = bigSep (Finset.univ.erase (0 : Fin 16)) (fun o => barPay (F := F) c o) := by
  rw [Finset.sdiff_empty, duties_bar]; rfl

end Tables

end Cert.Kernel.Proto

end
-- ==== Proof.Bits.LaunchShape.lean ====
/-
  The shape of the launch of the sixteen-device kernel: the fifteen offsets and the ring as equivalences, the cells and
  the duty tokens as finite families, what each device owes at launch, the levels, and the ghost state, invariant and
  proof data of one device.
-/
import proofs.«900432_g7700000000000433_dist_gconv1d_cshard_i_b4_s512_c256_v7x_i16_bf16_1_alg».proof.Proof.Bits.Protocol

set_option maxRecDepth 16384

noncomputable section

namespace Cert.Kernel.Proto

open Cert.Kernel Cert.Kernel.Gen Cert.Kernel.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel's body has no loop: no variants. -/
abbrev 𝒱₀ : Variants := Variants.none

/-! ## The fifteen offsets, and the ring as equivalences -/

/-- The index of the offsets 1, …, 15. -/
abbrev Off : Type := Fin 15
/-- The offset itself, among 0, …, 15. -/
def off (j : Off) : Fin 16 := j.succ

theorem off_val (j : Off) : (off j).val = j.val + 1 := rfl
theorem off_ne_zero (j : Off) : off j ≠ 0 := Fin.succ_ne_zero j
theorem off_injective : Function.Injective off := Fin.succ_injective _

/-- The device `off j` places after a device, as a permutation of the devices. -/
def fwd (j : Off) : Dev nD ≃ Dev nD where
  toFun c := peer c (off j).val
  invFun c := back c (off j).val
  left_inv c := back_peer c (off j)
  right_inv c := peer_back c (off j)

theorem fwd_apply (j : Off) (c : Dev nD) : fwd j c = peer c (off j).val := rfl
theorem fwd_symm_apply (j : Off) (c : Dev nD) : (fwd j).symm c = back c (off j).val := rfl

/-! ## The cells as a finite family -/

/-- A device's cells: its barrier cell, and four transfer cells per offset. -/
abbrev CellIx : Type := Unit ⊕ (Fin 4 × Off)

/-- The four families of transfer semaphores: scatter send, scatter receive, gather send, gather receive. -/
def fam (a : Fin 4) (o : Fin 16) : DmaSem sig := dsem (4 + 16 * a.val) (by have := a.isLt; omega) o

theorem fam_val (a : Fin 4) (o : Fin 16) : (fam a o).val = 4 + 16 * a.val + o.val := rfl
theorem fam_rsSend (o : Fin 16) : fam 0 o = rsSend o := rfl
theorem fam_rsRecv (o : Fin 16) : fam 1 o = rsRecv o := rfl
theorem fam_agSend (o : Fin 16) : fam 2 o = agSend o := rfl
theorem fam_agRecv (o : Fin 16) : fam 3 o = agRecv o := rfl

def csem : CellIx → SemLoc sig
  | .inl _ => .reg barS
  | .inr k => .dma (fam k.1 (off k.2))

abbrev kcell (ck : Dev nD × CellIx) : GSem nD τ sig := ((ck.1 : Thread nD τ), csem ck.2)

theorem csem_injective : Function.Injective csem := by
  rintro (u | ⟨a, j⟩) (u' | ⟨a', j'⟩) h
  · rfl
  · exact absurd h (fun h => by cases h)
  · exact absurd h (fun h => by cases h)
  · have h1 : fam a (off j) = fam a' (off j') := SemLoc.dma.inj h
    have h2 : 4 + 16 * a.val + (j.val + 1) = 4 + 16 * a'.val + (j'.val + 1) := congrArg Fin.val h1
    have ha := a.isLt; have ha' := a'.isLt; have hj := j.isLt; have hj' := j'.isLt
    have e1 : a = a' := Fin.ext (by omega)
    have e2 : j = j' := Fin.ext (by omega)
    rw [e1, e2]

theorem kcell_injective : Function.Injective (kcell : Dev nD × CellIx → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- The kernel's own (scoped) semaphores as the launch indexes them: the sixty transfer semaphores it uses. -/
def osem : Fin 4 × Off → SemLoc sig := fun k => csem (.inr k)

theorem kcell_bar (c : Dev nD) : kcell (c, .inl ()) = barCell c := rfl
theorem kcell_rsSend (c : Dev nD) (j : Off) : kcell (c, .inr (0, j)) = rsSendCell c (off j) := rfl
theorem kcell_rsRecv (c : Dev nD) (j : Off) : kcell (c, .inr (1, j)) = rsRecvCell c (off j) := rfl
theorem kcell_agSend (c : Dev nD) (j : Off) : kcell (c, .inr (2, j)) = agSendCell c (off j) := rfl
theorem kcell_agRecv (c : Dev nD) (j : Off) : kcell (c, .inr (3, j)) = agRecvCell c (off j) := rfl

/-! ## The duty tokens as a finite family -/

/-- The duties of a device's own cells: the fifteen of its barrier cell, and the one of each transfer cell. -/
abbrev TokIx : Type := Off ⊕ (Fin 4 × Off)

def tokOf (ct : Dev nD × TokIx) : GSem nD τ sig × ℕ × Fin 16 := match ct.2 with
  | .inl j => (barCell ct.1, 0, off j)
  | .inr k => (kcell (ct.1, .inr k), 0, 0)

theorem tokOf_injective : Function.Injective (tokOf : Dev nD × TokIx → GSem nD τ sig × ℕ × Fin 16) := by
  rintro ⟨c, t⟩ ⟨c', t'⟩ h
  have h1 : c = c' := by
    have := congrArg (fun x : GSem nD τ sig × ℕ × Fin 16 => x.1.1.1) h
    rcases t with j | k <;> rcases t' with j' | k' <;> exact this
  subst h1
  rcases t with j | k <;> rcases t' with j' | k'
  · have h2 : off j = off j' := congrArg (fun x : GSem nD τ sig × ℕ × Fin 16 => x.2.2) h
    rw [off_injective h2]
  · exact absurd (congrArg (fun x : GSem nD τ sig × ℕ × Fin 16 => x.1.2) h) (fun h' => by cases h')
  · exact absurd (congrArg (fun x : GSem nD τ sig × ℕ × Fin 16 => x.1.2) h) (fun h' => by cases h')
  · have h2 : csem (.inr k) = csem (.inr k') := congrArg (fun x : GSem nD τ sig × ℕ × Fin 16 => x.1.2) h
    rw [Sum.inr.inj (csem_injective h2)]

def allCells : Finset (GSem nD τ sig) := Finset.univ.map ⟨kcell, kcell_injective⟩
def allToks : Finset (GSem nD τ sig × ℕ × Fin 16) := Finset.univ.map ⟨tokOf, tokOf_injective⟩

/-! ## What each device owes at launch; the levels -/

/-- Device `c` owes every other device's barrier cell one unit, -/
def owedBar (c : Dev nD) : CellTallies nD τ sig Unit := ∑ j : Off, tallyAt (barCell (fwd j c)) () 1
/-- the scatter receive cell at offset `o` of the device `o` places after it one block's credit, -/
def owedRs (c : Dev nD) : CellTallies nD τ sig Unit := ∑ j : Off, tallyAt (rsRecvCell (fwd j c) (off j)) () N
/-- and likewise its gather receive cell. -/
def owedAg (c : Dev nD) : CellTallies nD τ sig Unit := ∑ j : Off, tallyAt (agRecvCell (fwd j c) (off j)) () N

def O₀ (c : Dev nD) : CellTallies nD τ sig Unit := (owedBar c + owedRs c) + owedAg c

def L (g : GSem nD τ sig) : Finset Unit := if g.1.2 = .tc then {()} else ∅

/-- Barrier cells at 1, scatter receive cells at 2, gather receive cells at 3, everything else (staging, send) at 0. -/
def lv (g : GSem nD τ sig) (_ : Unit) : ℕ := match g.2 with
  | .reg _ => 1
  | .dma q => if 20 ≤ q.val ∧ q.val < 36 then 2 else if 52 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_rsRecv (c : Dev nD) (o : Fin 16) : lv (rsRecvCell c o) () = 2 := by
  have := o.isLt
  show (if 20 ≤ 20 + o.val ∧ 20 + o.val < 36 then 2 else if 52 ≤ 20 + o.val then 3 else 0) = 2
  rw [if_pos ⟨by omega, by omega⟩]
theorem lv_agRecv (c : Dev nD) (o : Fin 16) : lv (agRecvCell c o) () = 3 := by
  show (if 20 ≤ 52 + o.val ∧ 52 + o.val < 36 then 2 else if 52 ≤ 52 + o.val then 3 else 0) = 3
  rw [if_neg (by omega), if_pos (by omega)]
theorem lv_rsSend (c : Dev nD) (o : Fin 16) : lv (rsSendCell c o) () = 0 := by
  have := o.isLt
  show (if 20 ≤ 4 + o.val ∧ 4 + o.val < 36 then 2 else if 52 ≤ 4 + o.val then 3 else 0) = 0
  rw [if_neg (by omega), if_neg (by omega)]
theorem lv_agSend (c : Dev nD) (o : Fin 16) : lv (agSendCell c o) () = 0 := by
  have := o.isLt
  show (if 20 ≤ 36 + o.val ∧ 36 + o.val < 36 then 2 else if 52 ≤ 36 + o.val then 3 else 0) = 0
  rw [if_neg (by omega), if_neg (by omega)]
theorem lv_low (c : Dev nD) (q : DmaSem sig) (hq : q.val < 20) : lv ((c : Thread nD τ), .dma q) () = 0 := by
  show (if 20 ≤ q.val ∧ q.val < 36 then 2 else if 52 ≤ q.val then 3 else 0) = 0
  rw [if_neg (by omega), if_neg (by omega)]

/-- Where a device owes at launch: barrier cells, scatter receive cells, gather receive cells, all on TensorCores. -/
theorem O₀_pos {c : Dev nD} {g : GSem nD τ sig} {u : Unit} (h : 0 < O₀ c g u) :
    (∃ e, g = barCell e) ∨ (∃ e o, g = rsRecvCell e o) ∨ (∃ e o, g = agRecvCell e o) := by
  unfold O₀ at h
  rcases Pipeline.add_pos_cases h with h | h
  · rcases Pipeline.add_pos_cases h with h | h
    · obtain ⟨j, -, hj⟩ := Pipeline.sum_pos_exists h
      exact .inl ⟨_, (Pipeline.tallyAt_pos hj).1⟩
    · obtain ⟨j, -, hj⟩ := Pipeline.sum_pos_exists h
      exact .inr (.inl ⟨_, _, (Pipeline.tallyAt_pos hj).1⟩)
  · obtain ⟨j, -, hj⟩ := Pipeline.sum_pos_exists h
    exact .inr (.inr ⟨_, _, (Pipeline.tallyAt_pos hj).1⟩)

/-- A wait on a cell of level 0 — a staging cell, a send cell — is allowed whatever of its launch dues the device still
    owes. -/
theorem mayWait_low (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    cases u
    rw [lv_low c q hq]
    rcases O₀_pos hg with ⟨e, rfl⟩ | ⟨e, o, rfl⟩ | ⟨e, o, rfl⟩
    · exact ⟨by rw [L_tc]; exact Finset.mem_singleton_self _, by rw [lv_bar]; decide⟩
    · exact ⟨by rw [L_tc]; exact Finset.mem_singleton_self _, by rw [lv_rsRecv]; decide⟩
    · exact ⟨by rw [L_tc]; exact Finset.mem_singleton_self _, by rw [lv_agRecv]; decide⟩
  · rw [MayWait_zero]; iintro -; iempintro

/-! ## The ghost state of one device, its invariant at the two ends of the kernel, and the proof data -/

section Ghost

variable (ℛ : Rounds.Schedule (GSem nD τ sig) (Fin 16) (MT nD τ sig Unit (Elt F) ℕ UU ℕ))
variable (m : (ℓ : Loc nD τ sig) → Buf (Elt F) ℓ) (ρ : Dev nD → PrngReg)

/-- A family over the sixty transfer cells of a device, family by family. -/
theorem bigSep_fam (Φ : Fin 4 × Off → sProp 𝕄) :
    bigSep Finset.univ Φ = iprop((bigSep Finset.univ fun j : Off => Φ (0, j)) ∗ (bigSep Finset.univ fun j : Off => Φ (1, j))
      ∗ (bigSep Finset.univ fun j : Off => Φ (2, j)) ∗ (bigSep Finset.univ fun j : Off => Φ (3, j))) := by
  rw [bigSep_univ_prod, bigSep_univ_eq_bigSepL [(0 : Fin 4), 1, 2, 3] (by decide) (by decide)]
  rfl

/-- A family over all the cells of a device: the barrier cell's member and the transfer cells'. -/
theorem bigSep_cellIx (Φ : CellIx → sProp 𝕄) :
    bigSep Finset.univ Φ = iprop(Φ (.inl ()) ∗ bigSep Finset.univ fun k : Fin 4 × Off => Φ (.inr k)) := by
  rw [bigSep_univ_sum, bigSep_univ_of_subsingleton ()]
  rfl

/-- Every cell's invariant, under the names `K`, and that round 0 of every cell is reached: persistent, the same for
    every device. -/
def records (K : Dev nD × CellIx → ℕ) : sProp 𝕄 :=
  iprop((bigSep Finset.univ fun ck : Dev nD × CellIx => cellInv ER ℛ (K ck) (kcell ck))
    ∗ bigSep Finset.univ fun ck : Dev nD × CellIx => reached ER (kcell ck) 0)

instance records_persistent (K : Dev nD × CellIx → ℕ) : BI.Persistent (records ℛ K) := by unfold records; infer_instance

theorem inv_at (K : Dev nD × CellIx → ℕ) (ck : Dev nD × CellIx) :
    (bigSep Finset.univ fun ck : Dev nD × CellIx => (cellInv ER ℛ (K ck) (kcell ck) : sProp 𝕄)) ⊢ cellInv ER ℛ (K ck) (kcell ck) :=
  bigSep_elim (Finset.mem_univ ck)
theorem reached_at (ck : Dev nD × CellIx) :
    (bigSep Finset.univ fun ck : Dev nD × CellIx => (reached ER (kcell ck) 0 : sProp 𝕄)) ⊢ reached ER (kcell ck) 0 :=
  bigSep_elim (Finset.mem_univ ck)

/-- Any cell's invariant, and that its round 0 is reached, out of the records. -/
theorem records_inv (K : Dev nD × CellIx → ℕ) (ck : Dev nD × CellIx) : records ℛ K ⊢ cellInv ER ℛ (K ck) (kcell ck) := by
  unfold records
  iintro ⟨#HI, -⟩
  iapply (inv_at ℛ K ck); iexact HI
theorem records_reached (K : Dev nD × CellIx → ℕ) (ck : Dev nD × CellIx) : records ℛ K ⊢ reached ER (kcell ck) 0 := by
  unfold records
  iintro ⟨-, #HR⟩
  iapply (reached_at (F := F) ck); iexact HR

/-- The tokens of the duties device `c` pays: per offset, the barrier duty of the device that far after it, the duty of
    its own scatter send cell and of that device's scatter receive cell, and the same two of the gather. -/
def payToks (c : Dev nD) : sProp 𝕄 :=
  iprop((bigSep Finset.univ fun j : Off => dutyTok ER (barCell (fwd j c)) 0 (off j))
    ∗ (bigSep Finset.univ fun j : Off => dutyTok ER (rsSendCell c (off j)) 0 (0 : Fin 16))
    ∗ (bigSep Finset.univ fun j : Off => dutyTok ER (rsRecvCell (fwd j c) (off j)) 0 (0 : Fin 16))
    ∗ (bigSep Finset.univ fun j : Off => dutyTok ER (agSendCell c (off j)) 0 (0 : Fin 16))
    ∗ (bigSep Finset.univ fun j : Off => dutyTok ER (agRecvCell (fwd j c) (off j)) 0 (0 : Fin 16)))

/-- Device `c`'s positions: at the start of round 0 of each of its cells. -/
def positions (c : Dev nD) : sProp 𝕄 :=
  iprop(atPos ER (barCell c) 0 (∅ : Finset (Fin 16)) 0 ∗ bigSep Finset.univ fun k : Fin 4 × Off => atPos ER (kcell (c, .inr k)) 0 (∅ : Finset (Fin 16)) 0)

def linear (c : Dev nD) : sProp 𝕄 := iprop(positions c ∗ payToks c)

/-- The protocol's ghost state device `c` starts from. -/
def ghost (K : Dev nD × CellIx → ℕ) (c : Dev nD) : sProp 𝕄 := iprop(records ℛ K ∗ linear c)

/-- The credit device `c` waits with: its barrier cell's fifteen units, and one block's credit on each receive cell. -/
def creds (c : Dev nD) : sProp 𝕄 :=
  iprop(cred (tallyAt (barCell c) () 15)
    ∗ (bigSep Finset.univ fun j : Off => cred (tallyAt (rsRecvCell c (off j)) () N))
    ∗ (bigSep Finset.univ fun j : Off => cred (tallyAt (agRecvCell c (off j)) () N)))

/-- What device `c`'s body starts from, the buffers apart. -/
def start (c : Dev nD) : sProp 𝕄 := iprop((∃ K, ghost ℛ K c) ∗ creds c ∗ levAts L lv)

/-- The two scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the kernel's one point, and after it: the scratch buffers back, and the sixty transfer cells closed, their
    counters at zero in the device's hand. -/
def Φ₀ (c : Dev nD) : sProp 𝕄 := iprop(start ℛ c ∗ scratch c)
def Φ₁ (c : Dev nD) : sProp 𝕄 := iprop(scratch c ∗ bigSep Finset.univ fun k : Fin 4 × Off => semVal (kcell (c, .inr k)) 0)

/-- The proof data of device `c`: the arrays as launched, the three inputs' blocks left in place, the result's staging
    buffer left at `out c`. -/
def dats (out : (c : Dev nD) → (cfg0.win 3).block.Idx → Elt F (cfg0.win 3).elt) (_ : Fin 1) (c : Dev nD) :
    Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => out c
  Φ t := match t with
    | ⟨0, _⟩ => Φ₀ ℛ c
    | ⟨_ + 1, _⟩ => Φ₁ c
  q _ := fullShare
  owed t := match t with
    | ⟨0, _⟩ => O₀ c
    | ⟨_ + 1, _⟩ => 0

end Ghost

end Cert.Kernel.Proto

end
-- ==== Proof.Bits.BodyGlue.lean ====
/-
  The glue between the proof of one device's body and the launch: the body's obligation, as the pipeline states it over
  the four windows' staging buffers, from a proof of the body between an explicit precondition and postcondition.
-/
import proofs.«900432_g7700000000000433_dist_gconv1d_cshard_i_b4_s512_c256_v7x_i16_bf16_1_alg».proof.Proof.Bits.LaunchShape

set_option maxRecDepth 16384

noncomputable section

namespace Cert.Kernel.Proto

open Cert.Kernel Cert.Kernel.Gen Cert.Kernel.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ℛ : Rounds.Schedule (GSem nD τ sig) (Fin 16) (MT nD τ sig Unit (Elt F) ℕ UU ℕ))
variable (m : (ℓ : Loc nD τ sig) → Buf (Elt F) ℓ) (ρ : Dev nD → PrngReg)
variable (out : (c : Dev nD) → (cfg0.win 3).block.Idx → Elt F (cfg0.win 3).elt)

/-- A whole staging buffer at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- Each input window's staging buffer holds the device's block of that input when the body runs. -/
theorem before_in0 (c : Dev nD) (d) : (dats ℛ m ρ out 0 c).before (0 : Fin 4) t0_0 d = iblk m c 0 t0_0 := by
  unfold Dat.before; rw [if_pos (fetch0_0 t0_0)]; rfl
theorem before_in1 (c : Dev nD) (d) : (dats ℛ m ρ out 0 c).before (1 : Fin 4) t0_0 d = iblk m c 1 t0_0 := by
  unfold Dat.before; rw [if_pos (fetch0_1 t0_0)]; rfl
theorem before_in2 (c : Dev nD) (d) : (dats ℛ m ρ out 0 c).before (2 : Fin 4) t0_0 d = iblk m c 2 t0_0 := by
  unfold Dat.before; rw [if_pos (fetch0_2 t0_0)]; rfl

/-- What the body of device `c` starts from: its invariant, what it owes, the three input blocks in their staging
    buffers, and the result's staging buffer at some contents. -/
def winPre (c : Dev nD) : sProp 𝕄 :=
  iprop(Φ₀ ℛ c ∗ (dats ℛ m ρ out 0 c).owesAt () t0_0.castSucc
    ∗ stg c cc0_stg0_0 (iblk m c 0 t0_0) ∗ stg c cc0_stg1_0 (iblk m c 1 t0_0) ∗ stg c cc0_stg2_0 (iblk m c 2 t0_0)
    ∗ (∃ d, stg c cc0_stg3_0 d))

/-- What it ends with: the closing invariant, nothing owed, the inputs in place, and the result's staging buffer at
    `out c`. -/
def winPost (c : Dev nD) : sProp 𝕄 :=
  iprop(Φ₁ c ∗ (dats ℛ m ρ out 0 c).owesAt () t0_0.succ
    ∗ stg c cc0_stg0_0 (iblk m c 0 t0_0) ∗ stg c cc0_stg1_0 (iblk m c 1 t0_0) ∗ stg c cc0_stg2_0 (iblk m c 2 t0_0)
    ∗ stg c cc0_stg3_0 (out c))

set_option maxRecDepth 32000 in
/-- The obligation's own precondition, the windows one by one. -/
def winPre' (c : Dev nD) : sProp 𝕄 :=
  iprop(Φ₀ ℛ c ∗ (dats ℛ m ρ out 0 c).owesAt () t0_0.castSucc
    ∗ (∃ d, stg c cc0_stg0_0 ((dats ℛ m ρ out 0 c).before (0 : Fin 4) t0_0 d))
    ∗ (∃ d, stg c cc0_stg1_0 ((dats ℛ m ρ out 0 c).before (1 : Fin 4) t0_0 d))
    ∗ (∃ d, stg c cc0_stg2_0 ((dats ℛ m ρ out 0 c).before (2 : Fin 4) t0_0 d))
    ∗ (∃ d, stg c cc0_stg3_0 ((dats ℛ m ρ out 0 c).before (3 : Fin 4) t0_0 d)))

theorem winPre_of (c : Dev nD) : winPre' ℛ m ρ out c ⊢ winPre ℛ m ρ out c := by
  unfold winPre' winPre
  simp only [before_in0, before_in1, before_in2]
  iintro ⟨HΦ, Ho, ⟨%d0, H0⟩, ⟨%d1, H1⟩, ⟨%d2, H2⟩, ⟨%d3, H3⟩⟩
  isplitl [HΦ]; · iexact HΦ
  isplitl [Ho]; · iexact Ho
  isplitl [H0]; · iexact H0
  isplitl [H1]; · iexact H1
  isplitl [H2]; · iexact H2
  iexists _; iexact H3

set_option maxRecDepth 32000 in
/-- The body obligation on device `c`, from a proof of its body between `winPre` and `winPost`. -/
theorem body_obligation_of
    (h : ∀ c : Dev nD, winPre ℛ m ρ out c
      ⊢ wp frame (wpE (defs₀ (F := F)) 𝒱₀ c none) Set.univ (bodyAt0 (F := F) t0_0) (fun _ => winPost ℛ m ρ out c))
    (c : Dev nD) : BodyObligation (dats ℛ m ρ out 0 c) (defs₀ (F := F)) 𝒱₀ () Set.univ := fun t => by
  rw [fin_N0 t]
  rw [bigSep_W0, bigSep_W0]
  simp only [owns_whole_eq]
  show winPre' ℛ m ρ out c ⊢ wp frame (wpE (defs₀ (F := F)) 𝒱₀ c none) Set.univ (bodyAt0 (F := F) t0_0) (fun _ => winPost ℛ m ρ out c)
  exact (winPre_of ℛ m ρ out c).trans (h c)

end Cert.Kernel.Proto

end
-- ==== Proof.Bits.BodyPre.lean ====
/-
  The big stars over the fifteen offsets of the launch's ghost state, opened into chains of fifteen conjuncts in the order
  the kernel body visits the offsets: 1, 2, …, 15.
-/
import proofs.«900432_g7700000000000433_dist_gconv1d_cshard_i_b4_s512_c256_v7x_i16_bf16_1_alg».proof.Proof.Bits.LaunchShape

set_option maxRecDepth 16384

noncomputable section

namespace Cert.Kernel.Proto

open Cert.Kernel Cert.Kernel.Gen Cert.Kernel.Chains
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- A family over the offsets, conjoined at 1, 2, …, 15 in this order. -/
def offChain (Φ : Fin 16 → sProp 𝕄) : sProp 𝕄 :=
  iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15)

omit [FloatOps F] in
/-- The big star over the fifteen offsets is that chain. -/
theorem bigSep_offChain (Φ : Fin 16 → sProp 𝕄) : bigSep Finset.univ (fun j : Off => Φ (off j)) = offChain Φ :=
  bigSep_univ_eq_bigSepL [(0 : Off), (1 : Off), (2 : Off), (3 : Off), (4 : Off), (5 : Off), (6 : Off), (7 : Off), (8 : Off), (9 : Off), (10 : Off), (11 : Off), (12 : Off), (13 : Off), (14 : Off)] (by decide) (by decide) (fun j : Off => Φ (off j))

end Cert.Kernel.Proto

end
-- ==== Proof.Bits.LevelFacts.lean ====
/-
  The levels at the kernel body's waits, and what a device owes at launch as the nested sum the body pays off:
  the fifteen barrier signals first, then the fifteen scatter copies, then the fifteen gather copies.
-/
import proofs.«900432_g7700000000000433_dist_gconv1d_cshard_i_b4_s512_c256_v7x_i16_bf16_1_alg».proof.Proof.Bits.LaunchShape

set_option maxRecDepth 16384

noncomputable section

namespace Cert.Kernel.Proto

open Cert.Kernel Cert.Kernel.Gen Cert.Kernel.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Positivity of tallies -/

theorem pos_add {A B : CellTallies nD τ sig Unit} {g : GSem nD τ sig} {u : Unit} (h : 0 < (A + B) g u) : 0 < A g u ∨ 0 < B g u :=
  Pipeline.add_pos_cases h

theorem pos_tallyAt {g' : GSem nD τ sig} {u' : Unit} {n : ℕ} {g : GSem nD τ sig} {u : Unit}
    (h : 0 < (tallyAt g' u' n : CellTallies nD τ sig Unit) g u) : g = g' := (Pipeline.tallyAt_pos h).1

theorem not_pos_zero {g : GSem nD τ sig} {u : Unit} : ¬ 0 < (0 : CellTallies nD τ sig Unit) g u := fun h => Nat.lt_irrefl 0 h

/-! ## The body's waits -/

/-- The barrier wait (level 1) is allowed while the device owes only receive cells (levels 2 and 3). -/
theorem mayWait_bar_of (c : Dev nD) (O : CellTallies nD τ sig Unit)
    (h : ∀ g u, 0 < O g u → (∃ e o, g = rsRecvCell e o) ∨ (∃ e o, g = agRecvCell e o)) :
    (levAts L lv : sProp 𝕄) ⊢ MayWait (c : Thread nD τ) (.reg barS) () O :=
  Pipeline.mayWait_of_levAts (by rw [L_tc]; exact Finset.mem_singleton_self _) fun g u hg => by
    cases u
    rcases h g () hg with ⟨e, o, rfl⟩ | ⟨e, o, rfl⟩
    · exact ⟨by rw [L_tc]; exact Finset.mem_singleton_self _, by rw [lv_rsRecv]; exact (by decide : (1 : ℕ) < 2)⟩
    · exact ⟨by rw [L_tc]; exact Finset.mem_singleton_self _, by rw [lv_agRecv]; exact (by decide : (1 : ℕ) < 3)⟩

/-- A wait on a scatter receive cell (level 2) is allowed while the device owes only gather receive cells (level 3). -/
theorem mayWait_rsRecv_of (c : Dev nD) (o : Fin 16) (O : CellTallies nD τ sig Unit)
    (h : ∀ g u, 0 < O g u → ∃ e o', g = agRecvCell e o') :
    (levAts L lv : sProp 𝕄) ⊢ MayWait (c : Thread nD τ) (.dma (rsRecv o)) () O :=
  Pipeline.mayWait_of_levAts (by rw [L_tc]; exact Finset.mem_singleton_self _) fun g u hg => by
    cases u
    obtain ⟨e, o', rfl⟩ := h g () hg
    exact ⟨by rw [L_tc]; exact Finset.mem_singleton_self _, by rw [lv_agRecv]; exact (lv_rsRecv c o).trans_lt (by decide)⟩

/-! ## A sum over the fifteen offsets, nested from the last offset inwards -/

section Nest

variable {M : Type} [AddCommMonoid M]

/-- `base` plus the fifteen members, the last innermost and the first outermost. -/
def nest (base : M) (g : Fin 15 → M) : M := base + g 14 + g 13 + g 12 + g 11 + g 10 + g 9 + g 8 + g 7 + g 6 + g 5 + g 4 + g 3 + g 2 + g 1 + g 0

theorem sum15 (g : Fin 15 → M) : ∑ j, g j = g 0 + (g 1 + (g 2 + (g 3 + (g 4 + (g 5 + (g 6 + (g 7 + (g 8 + (g 9 + (g 10 + (g 11 + (g 12 + (g 13 + (g 14 + (0))))))))))))))) :=
  (Fin.sum_univ_def g).trans rfl

theorem nest_three (gB gR gA : Fin 15 → M) : ((∑ j, gB j) + (∑ j, gR j)) + (∑ j, gA j) = nest (nest (nest 0 gA) gR) gB := by
  rw [sum15 gB, sum15 gR, sum15 gA]
  unfold nest
  abel

end Nest

/-- What device `c` owes at launch, as the body pays it off: outermost the barrier unit of the next device, then of the
    one after, …; inside those the scatter receive credits, and innermost the gather receive credits. -/
def Onest (c : Dev nD) : CellTallies nD τ sig Unit :=
  (0 : CellTallies nD τ sig Unit)
    + tallyAt (agRecvCell (peer c 15) 15) () N
    + tallyAt (agRecvCell (peer c 14) 14) () N
    + tallyAt (agRecvCell (peer c 13) 13) () N
    + tallyAt (agRecvCell (peer c 12) 12) () N
    + tallyAt (agRecvCell (peer c 11) 11) () N
    + tallyAt (agRecvCell (peer c 10) 10) () N
    + tallyAt (agRecvCell (peer c 9) 9) () N
    + tallyAt (agRecvCell (peer c 8) 8) () N
    + tallyAt (agRecvCell (peer c 7) 7) () N
    + tallyAt (agRecvCell (peer c 6) 6) () N
    + tallyAt (agRecvCell (peer c 5) 5) () N
    + tallyAt (agRecvCell (peer c 4) 4) () N
    + tallyAt (agRecvCell (peer c 3) 3) () N
    + tallyAt (agRecvCell (peer c 2) 2) () N
    + tallyAt (agRecvCell (peer c 1) 1) () N
    + tallyAt (rsRecvCell (peer c 15) 15) () N
    + tallyAt (rsRecvCell (peer c 14) 14) () N
    + tallyAt (rsRecvCell (peer c 13) 13) () N
    + tallyAt (rsRecvCell (peer c 12) 12) () N
    + tallyAt (rsRecvCell (peer c 11) 11) () N
    + tallyAt (rsRecvCell (peer c 10) 10) () N
    + tallyAt (rsRecvCell (peer c 9) 9) () N
    + tallyAt (rsRecvCell (peer c 8) 8) () N
    + tallyAt (rsRecvCell (peer c 7) 7) () N
    + tallyAt (rsRecvCell (peer c 6) 6) () N
    + tallyAt (rsRecvCell (peer c 5) 5) () N
    + tallyAt (rsRecvCell (peer c 4) 4) () N
    + tallyAt (rsRecvCell (peer c 3) 3) () N
    + tallyAt (rsRecvCell (peer c 2) 2) () N
    + tallyAt (rsRecvCell (peer c 1) 1) () N
    + tallyAt (barCell (peer c 15)) () 1
    + tallyAt (barCell (peer c 14)) () 1
    + tallyAt (barCell (peer c 13)) () 1
    + tallyAt (barCell (peer c 12)) () 1
    + tallyAt (barCell (peer c 11)) () 1
    + tallyAt (barCell (peer c 10)) () 1
    + tallyAt (barCell (peer c 9)) () 1
    + tallyAt (barCell (peer c 8)) () 1
    + tallyAt (barCell (peer c 7)) () 1
    + tallyAt (barCell (peer c 6)) () 1
    + tallyAt (barCell (peer c 5)) () 1
    + tallyAt (barCell (peer c 4)) () 1
    + tallyAt (barCell (peer c 3)) () 1
    + tallyAt (barCell (peer c 2)) () 1
    + tallyAt (barCell (peer c 1)) () 1

theorem O₀_eq_nest (c : Dev nD) : O₀ c = Onest c :=
  nest_three (fun j : Off => (tallyAt (barCell (fwd j c)) () 1 : CellTallies nD τ sig Unit))
    (fun j : Off => (tallyAt (rsRecvCell (fwd j c) (off j)) () N : CellTallies nD τ sig Unit))
    (fun j : Off => (tallyAt (agRecvCell (fwd j c) (off j)) () N : CellTallies nD τ sig Unit))

/-! ## What is still owed at the body's waits -/

/-- The gather receive credits: what the device still owes at its waits on the scatter receive cells. -/
def OnestAg (c : Dev nD) : CellTallies nD τ sig Unit :=
  (0 : CellTallies nD τ sig Unit)
    + tallyAt (agRecvCell (peer c 15) 15) () N
    + tallyAt (agRecvCell (peer c 14) 14) () N
    + tallyAt (agRecvCell (peer c 13) 13) () N
    + tallyAt (agRecvCell (peer c 12) 12) () N
    + tallyAt (agRecvCell (peer c 11) 11) () N
    + tallyAt (agRecvCell (peer c 10) 10) () N
    + tallyAt (agRecvCell (peer c 9) 9) () N
    + tallyAt (agRecvCell (peer c 8) 8) () N
    + tallyAt (agRecvCell (peer c 7) 7) () N
    + tallyAt (agRecvCell (peer c 6) 6) () N
    + tallyAt (agRecvCell (peer c 5) 5) () N
    + tallyAt (agRecvCell (peer c 4) 4) () N
    + tallyAt (agRecvCell (peer c 3) 3) () N
    + tallyAt (agRecvCell (peer c 2) 2) () N
    + tallyAt (agRecvCell (peer c 1) 1) () N

/-- The scatter and gather receive credits: what the device still owes at its barrier wait. -/
def OnestRsAg (c : Dev nD) : CellTallies nD τ sig Unit :=
  OnestAg c
    + tallyAt (rsRecvCell (peer c 15) 15) () N
    + tallyAt (rsRecvCell (peer c 14) 14) () N
    + tallyAt (rsRecvCell (peer c 13) 13) () N
    + tallyAt (rsRecvCell (peer c 12) 12) () N
    + tallyAt (rsRecvCell (peer c 11) 11) () N
    + tallyAt (rsRecvCell (peer c 10) 10) () N
    + tallyAt (rsRecvCell (peer c 9) 9) () N
    + tallyAt (rsRecvCell (peer c 8) 8) () N
    + tallyAt (rsRecvCell (peer c 7) 7) () N
    + tallyAt (rsRecvCell (peer c 6) 6) () N
    + tallyAt (rsRecvCell (peer c 5) 5) () N
    + tallyAt (rsRecvCell (peer c 4) 4) () N
    + tallyAt (rsRecvCell (peer c 3) 3) () N
    + tallyAt (rsRecvCell (peer c 2) 2) () N
    + tallyAt (rsRecvCell (peer c 1) 1) () N

theorem OnestRsAg_eq (c : Dev nD) : OnestRsAg c =
  OnestAg c
    + tallyAt (rsRecvCell (peer c 15) 15) () N
    + tallyAt (rsRecvCell (peer c 14) 14) () N
    + tallyAt (rsRecvCell (peer c 13) 13) () N
    + tallyAt (rsRecvCell (peer c 12) 12) () N
    + tallyAt (rsRecvCell (peer c 11) 11) () N
    + tallyAt (rsRecvCell (peer c 10) 10) () N
    + tallyAt (rsRecvCell (peer c 9) 9) () N
    + tallyAt (rsRecvCell (peer c 8) 8) () N
    + tallyAt (rsRecvCell (peer c 7) 7) () N
    + tallyAt (rsRecvCell (peer c 6) 6) () N
    + tallyAt (rsRecvCell (peer c 5) 5) () N
    + tallyAt (rsRecvCell (peer c 4) 4) () N
    + tallyAt (rsRecvCell (peer c 3) 3) () N
    + tallyAt (rsRecvCell (peer c 2) 2) () N
    + tallyAt (rsRecvCell (peer c 1) 1) () N := rfl

theorem Onest_eq (c : Dev nD) : Onest c =
  OnestRsAg c
    + tallyAt (barCell (peer c 15)) () 1
    + tallyAt (barCell (peer c 14)) () 1
    + tallyAt (barCell (peer c 13)) () 1
    + tallyAt (barCell (peer c 12)) () 1
    + tallyAt (barCell (peer c 11)) () 1
    + tallyAt (barCell (peer c 10)) () 1
    + tallyAt (barCell (peer c 9)) () 1
    + tallyAt (barCell (peer c 8)) () 1
    + tallyAt (barCell (peer c 7)) () 1
    + tallyAt (barCell (peer c 6)) () 1
    + tallyAt (barCell (peer c 5)) () 1
    + tallyAt (barCell (peer c 4)) () 1
    + tallyAt (barCell (peer c 3)) () 1
    + tallyAt (barCell (peer c 2)) () 1
    + tallyAt (barCell (peer c 1)) () 1 := rfl

theorem nest_pos {base : CellTallies nD τ sig Unit} {f : Fin 15 → CellTallies nD τ sig Unit} {g : GSem nD τ sig} {u : Unit}
    (h : 0 < nest base f g u) : 0 < base g u ∨ ∃ j, 0 < f j g u := by
  unfold nest at h
  rcases pos_add h with h | h0; swap
  · exact .inr ⟨0, h0⟩
  rcases pos_add h with h | h1; swap
  · exact .inr ⟨1, h1⟩
  rcases pos_add h with h | h2; swap
  · exact .inr ⟨2, h2⟩
  rcases pos_add h with h | h3; swap
  · exact .inr ⟨3, h3⟩
  rcases pos_add h with h | h4; swap
  · exact .inr ⟨4, h4⟩
  rcases pos_add h with h | h5; swap
  · exact .inr ⟨5, h5⟩
  rcases pos_add h with h | h6; swap
  · exact .inr ⟨6, h6⟩
  rcases pos_add h with h | h7; swap
  · exact .inr ⟨7, h7⟩
  rcases pos_add h with h | h8; swap
  · exact .inr ⟨8, h8⟩
  rcases pos_add h with h | h9; swap
  · exact .inr ⟨9, h9⟩
  rcases pos_add h with h | h10; swap
  · exact .inr ⟨10, h10⟩
  rcases pos_add h with h | h11; swap
  · exact .inr ⟨11, h11⟩
  rcases pos_add h with h | h12; swap
  · exact .inr ⟨12, h12⟩
  rcases pos_add h with h | h13; swap
  · exact .inr ⟨13, h13⟩
  rcases pos_add h with h | h14; swap
  · exact .inr ⟨14, h14⟩
  exact .inl h

theorem pos_OnestAg {c : Dev nD} {g : GSem nD τ sig} {u : Unit} (h : 0 < OnestAg c g u) : ∃ e o', g = agRecvCell e o' := by
  rcases nest_pos (show 0 < nest (0 : CellTallies nD τ sig Unit) (fun j : Off => (tallyAt (agRecvCell (fwd j c) (off j)) () N : CellTallies nD τ sig Unit)) g u from h) with h | ⟨j, h⟩
  · exact absurd h not_pos_zero
  · exact ⟨_, _, pos_tallyAt h⟩

theorem pos_OnestRsAg {c : Dev nD} {g : GSem nD τ sig} {u : Unit} (h : 0 < OnestRsAg c g u) :
    (∃ e o, g = rsRecvCell e o) ∨ (∃ e o, g = agRecvCell e o) := by
  rcases nest_pos (show 0 < nest (OnestAg c) (fun j : Off => (tallyAt (rsRecvCell (fwd j c) (off j)) () N : CellTallies nD τ sig Unit)) g u from h) with h | ⟨j, h⟩
  · exact .inr (pos_OnestAg h)
  · exact .inl ⟨_, _, pos_tallyAt h⟩

/-- The barrier wait, after the fifteen signals. -/
theorem mayWait_bar (c : Dev nD) : (levAts L lv : sProp 𝕄) ⊢ MayWait (c : Thread nD τ) (.reg barS) () (OnestRsAg c) :=
  mayWait_bar_of c _ fun _ _ h => pos_OnestRsAg h

/-- A wait on a scatter receive cell, after the fifteen scatter copies are under way. -/
theorem mayWait_rsRecv (c : Dev nD) (o : Fin 16) : (levAts L lv : sProp 𝕄) ⊢ MayWait (c : Thread nD τ) (.dma (rsRecv o)) () (OnestAg c) :=
  mayWait_rsRecv_of c o _ fun _ _ h => pos_OnestAg h

/-! ## A family over the fifteen offsets, member by member -/

theorem bigSep_off (Φ : Off → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [(0 : Off), (1 : Off), (2 : Off), (3 : Off), (4 : Off), (5 : Off), (6 : Off), (7 : Off), (8 : Off), (9 : Off), (10 : Off), (11 : Off), (12 : Off), (13 : Off), (14 : Off)] (by decide) (by decide) Φ

end Cert.Kernel.Proto

end
-- ==== Proof.Bits.BodySpec.lean ====
/-
  What one device's kernel body starts from and what it leaves, stated over chains of fifteen conjuncts.
  It starts from the cells' records, its positions at round 0 of its sixty-one cells, the tokens of the seventy-five duties
  it pays (fifteen barrier signals, fifteen scatter copies and fifteen gather copies, each copy paying a send and a receive
  duty), the credit of the rounds it will wait for, what it owes, its three input blocks, and its result, partial-product
  and temporary buffers at arbitrary contents.  It leaves the scratch buffers at some contents, its sixty transfer cells
  closed at zero, nothing owed, the inputs as they were and the result holding the full product.
-/
import proofs.«900432_g7700000000000433_dist_gconv1d_cshard_i_b4_s512_c256_v7x_i16_bf16_1_alg».proof.Proof.Bits.BodyPre
import proofs.«900432_g7700000000000433_dist_gconv1d_cshard_i_b4_s512_c256_v7x_i16_bf16_1_alg».proof.Proof.Bits.LevelFacts

set_option maxRecDepth 16384

noncomputable section

namespace Cert.Kernel.Proto

open Cert.Kernel Cert.Kernel.Gen Cert.Kernel.Chains
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- What the body of device `c` starts from. -/
def bodyPre (K : Dev nD × CellIx → ℕ) (c : Dev nD) (W : Waits sig Unit)
    (gout : Buf (Elt F) ((c : Thread nD τ).loc cc0_stg3_0)) (facc : Buf (Elt F) ((c : Thread nD τ).loc cc0_scratch0))
    (ftmp : Buf (Elt F) ((c : Thread nD τ).loc cc0_scratch1)) : sProp 𝕄 :=
  iprop(records (Rd (F := F) m) K ∗ levAts L lv
    ∗ atPos ER (barCell c) 0 ∅ 0
    ∗ offChain (fun o => atPos ER (rsSendCell c o) 0 ∅ 0) ∗ offChain (fun o => atPos ER (rsRecvCell c o) 0 ∅ 0)
    ∗ offChain (fun o => atPos ER (agSendCell c o) 0 ∅ 0) ∗ offChain (fun o => atPos ER (agRecvCell c o) 0 ∅ 0)
    ∗ offChain (fun o => dutyTok ER (barCell (peer c o.val)) 0 o)
    ∗ offChain (fun o => dutyTok ER (rsSendCell c o) 0 (0 : Fin 16))
    ∗ offChain (fun o => dutyTok ER (rsRecvCell (peer c o.val) o) 0 (0 : Fin 16))
    ∗ offChain (fun o => dutyTok ER (agSendCell c o) 0 (0 : Fin 16))
    ∗ offChain (fun o => dutyTok ER (agRecvCell (peer c o.val) o) 0 (0 : Fin 16))
    ∗ cred (tallyAt (barCell c) () 15)
    ∗ offChain (fun o => cred (tallyAt (rsRecvCell c o) () N))
    ∗ offChain (fun o => cred (tallyAt (agRecvCell c o) () N))
    ∗ owes (c : Thread nD τ) (Onest c) W
    ∗ (((c : Thread nD τ).loc cc0_stg0_0) ↦{fullShare} xB m c) ∗ (((c : Thread nD τ).loc cc0_stg1_0) ↦{fullShare} kB m c)
    ∗ (((c : Thread nD τ).loc cc0_stg2_0) ↦{fullShare} wB m c)
    ∗ (((c : Thread nD τ).loc cc0_stg3_0) ↦{fullShare} gout) ∗ (((c : Thread nD τ).loc cc0_scratch0) ↦{fullShare} facc)
    ∗ (((c : Thread nD τ).loc cc0_scratch1) ↦{fullShare} ftmp))

/-- What it leaves. -/
def bodyPost (c : Dev nD) : sProp 𝕄 :=
  iprop((∃ f, ((c : Thread nD τ).loc cc0_scratch0) ↦{fullShare} f) ∗ (∃ f, ((c : Thread nD τ).loc cc0_scratch1) ↦{fullShare} f)
    ∗ offChain (fun o => semVal (rsSendCell c o) 0) ∗ offChain (fun o => semVal (rsRecvCell c o) 0)
    ∗ offChain (fun o => semVal (agSendCell c o) 0) ∗ offChain (fun o => semVal (agRecvCell c o) 0)
    ∗ (∃ W', owes (c : Thread nD τ) 0 W')
    ∗ (((c : Thread nD τ).loc cc0_stg0_0) ↦{fullShare} xB m c) ∗ (((c : Thread nD τ).loc cc0_stg1_0) ↦{fullShare} kB m c)
    ∗ (((c : Thread nD τ).loc cc0_stg2_0) ↦{fullShare} wB m c)
    ∗ (((c : Thread nD τ).loc cc0_stg3_0) ↦{fullShare} outFull m))

/-- The kernel body as the pipeline calls it at its one grid point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    cc0_scratch2 cc0_scratch3 cc0_scratch4 cc0_scratch5

end Cert.Kernel.Proto

end
-- ==== Proof.Bits.LaunchIdeal.lean ====
/-
  The launch of the sixteen-device kernel: from the proof of one device's body, the run of the whole mesh.
  The cells' ghost state is created for all devices at once, every cell's invariant is allocated from its counter at
  zero, the duty tokens are handed to the devices that pay them, and each device receives the credit its waits consume.
-/
import proofs.«900432_g7700000000000433_dist_gconv1d_cshard_i_b4_s512_c256_v7x_i16_bf16_1_alg».proof.Proof.Bits.LaunchShape

set_option maxRecDepth 16384

noncomputable section

namespace Cert.Kernel.Proto

open Cert.Kernel Cert.Kernel.Gen Cert.Kernel.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ℛ : Rounds.Schedule (GSem nD τ sig) (Fin 16) (MT nD τ sig Unit (Elt F) ℕ UU ℕ))
variable (m : (ℓ : Loc nD τ sig) → Buf (Elt F) ℓ) (ρ : Dev nD → PrngReg)
variable (out : (c : Dev nD) → (cfg0.win 3).block.Idx → Elt F (cfg0.win 3).elt)

/-! ## Layout facts -/

theorem ownSemFacts : Pipeline.OwnSemFacts cfg0.spec osem :=
  ⟨by decide, fun a b h => Sum.inr.inj (csem_injective h), by decide⟩

omit [FloatOps F] in
theorem share_eq (c : Dev nD) (w : Fin cfg0.W) : (dats ℛ m ρ out 0 c).share w = fullShare := by unfold Dat.share; split <;> rfl

/-! ## The launch element and what it funds -/

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun j : Off => dutyTok ER (barCell c) 0 (off j))
    ∗ bigSep Finset.univ fun k : Fin 4 × Off => dutyTok ER (kcell (c, .inr k)) 0 (0 : Fin 16))

/-- What the launch element deals device `c`: its cells' round states, its positions, that round 0 of each is reached,
    and its own cells' duty tokens. -/
def G (c : Dev nD) : sProp 𝕄 :=
  iprop((bigSep Finset.univ fun k : CellIx => roundState ER ℛ (kcell (c, k)) 0)
    ∗ (bigSep Finset.univ fun k : CellIx => iprop(atPos ER (kcell (c, k)) 0 (∅ : Finset (Fin 16)) 0 ∗ reached ER (kcell (c, k)) 0)) ∗ toks c)

/-- What the global step makes of it. -/
def G' (c : Dev nD) : sProp 𝕄 := iprop(∃ K, ghost ℛ K c)

omit [FloatOps F] in
theorem fund_all : BI.own (ER (initOf allCells allToks)) ⊢ (|==> bigSep Finset.univ (G ℛ) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER ℛ allCells allToks) $$ HX with ⟨Hst, Hr, Hat, Htok⟩
  imodintro
  ihave Hst' := (Entails.of_eq (hX fun g => roundState ER ℛ g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens handed to their payers -/

theorem ownSems0_eq (c : Dev nD) : (Pipeline.ownSems0 (Ix := Unit) (Name := ℕ) (U := UU) (Lvl := ℕ) (Val := Elt F) (τ := τ) osem c : sProp 𝕄)
    = bigSep Finset.univ fun k : Fin 4 × Off => semVal (kcell (c, .inr k)) 0 := rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cellIx]
  iintro ⟨HS, HB⟩
  isplitl [HB]; · iexact HB
  iexact HS

theorem core_alloc [∀ g r d, BI.Storable (upEmb : UEmb _ 𝕄) (ℛ.payload g r d)] (c : Dev nD) :
    iprop(Pipeline.ownSems0 (Ix := Unit) (Name := ℕ) (U := UU) (Lvl := ℕ) (Val := Elt F) (τ := τ) osem c ∗ unscopedSems0 c ∗ G ℛ c)
      ⊢ |={Set.univ}=> iprop((bigSep Finset.univ fun k : CellIx => iprop(∃ κ : ℕ, cellInv ER ℛ κ (kcell (c, k))))
          ∗ (bigSep Finset.univ fun k : CellIx => iprop(atPos ER (kcell (c, k)) 0 (∅ : Finset (Fin 16)) 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER ℛ (kcell (c, k)) 0)
      ⊢ (|={Set.univ}=> bigSep Finset.univ fun k : CellIx => iprop(∃ κ : ℕ, cellInv ER ℛ κ (kcell (c, k))) : sProp 𝕄) from by
        rw [← bigSep_sep']
        exact (bigSep_mono fun k _ => (Rounds.body_intro ER ℛ (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CellIx → ℕ) (c : Dev nD) : iprop(records ℛ K ∗ linear c) ⊢ G' ℛ c := by
  unfold G' ghost
  iintro H
  iexists K
  iexact H

/-- A family over devices and offsets, each member moved to the device that offset further on. -/
theorem bigSep_around (Φ : Off → Dev nD → sProp 𝕄) :
    (bigSep Finset.univ fun c : Dev nD => bigSep Finset.univ fun j : Off => Φ j c)
      = bigSep Finset.univ fun c : Dev nD => bigSep Finset.univ fun j : Off => Φ j (fwd j c) := by
  rw [bigSep_univ_comm (fun (c : Dev nD) (j : Off) => Φ j c), bigSep_univ_comm (fun (c : Dev nD) (j : Off) => Φ j (fwd j c))]
  exact bigSep_congr fun j _ => bigSep_univ_equiv (fwd j) (Φ j)

/-- The tokens dealt around the ring: a barrier duty's token, and a receive cell's, go from the owner to the device
    that pays the duty. -/
theorem toks_around : (bigSep Finset.univ fun c : Dev nD => (toks c : sProp 𝕄)) ⊢ bigSep Finset.univ fun c : Dev nD => payToks c := by
  unfold toks payToks
  simp only [bigSep_fam, bigSep_sep']
  rw [bigSep_around (fun j c => (dutyTok ER (barCell c) 0 (off j) : sProp 𝕄)),
    bigSep_around (fun j c => (dutyTok ER (kcell (c, .inr (1, j))) 0 (0 : Fin 16) : sProp 𝕄)),
    bigSep_around (fun j c => (dutyTok ER (kcell (c, .inr (3, j))) 0 (0 : Fin 16) : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CellIx => iprop(∃ κ : ℕ, cellInv ER ℛ κ (kcell (c, k))))
          ∗ (bigSep Finset.univ fun k : CellIx => iprop(atPos ER (kcell (c, k)) 0 (∅ : Finset (Fin 16)) 0 ∗ reached ER (kcell (c, k)) 0)) ∗ toks c) : sProp 𝕄)
      ⊢ bigSep Finset.univ (G' ℛ) := by
  rw [bigSep_sep', bigSep_sep', ← bigSep_univ_prod (fun ck : Dev nD × CellIx => iprop(∃ κ : ℕ, cellInv ER ℛ κ (kcell ck))),
    bigSep_congr (s := Finset.univ) (fun (c : Dev nD) _ => bigSep_sep' Finset.univ (fun k : CellIx => (atPos ER (kcell (c, k)) 0 (∅ : Finset (Fin 16)) 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER ℛ κ (kcell ck) : sProp 𝕄))) $$ HI
  icases HK with ⟨%K, #HI⟩
  ihave Htk := (toks_around (F := F)) $$ Htok
  iapply (bigSep_with_persistent (R := records ℛ K) fun c _ => ghost_intro ℛ K c)
  isplitr
  · unfold records; isplitl; · iexact HI
    iexact HR
  · iapply ((Entails.of_eq (bigSep_sep' Finset.univ (fun c : Dev nD => bigSep Finset.univ fun k : CellIx => (atPos ER (kcell (c, k)) 0 (∅ : Finset (Fin 16)) 0 : sProp 𝕄)) payToks).symm).trans
      (bigSep_mono fun c _ => show _ ⊢ linear c from Entails.of_eq (by unfold linear positions; rw [bigSep_cellIx]; rfl)))
    isplitl [Hat]; · iexact Hat
    iexact Htk

/-- The global step: the own and the unscoped semaphores of every device at once. -/
theorem glob [∀ g r d, BI.Storable (upEmb : UEmb _ 𝕄) (ℛ.payload g r d)] :
    (bigSep Finset.univ fun c => iprop(Pipeline.ownSems0 (Ix := Unit) (Name := ℕ) (U := UU) (Lvl := ℕ) (Val := Elt F) (τ := τ) osem c ∗ unscopedSems0 c ∗ G ℛ c) : sProp 𝕄)
      ⊢ |={Set.univ}=> bigSep Finset.univ (G' ℛ) :=
  ((bigSep_mono fun c _ => core_alloc ℛ c).trans (bigSep_fupd _ _)).trans (BI.fupd_mono (regroup ℛ))

/-! ## The launch credit -/

theorem sum_tallyAt_const {α : Type} [DecidableEq α] (s : Finset α) (g : GSem nD τ sig) (n : ℕ) :
    (∑ _a ∈ s, (tallyAt g () n : CellTallies nD τ sig Unit)) = tallyAt g () (s.card * n) := by
  induction s using Finset.induction_on with
  | empty => rw [Finset.sum_empty, Finset.card_empty, Nat.zero_mul, tallyAt_zero]
  | insert a s ha ih =>
    rw [Finset.sum_insert ha, ih, tallyAt_add, Finset.card_insert_of_notMem ha]
    congr 1
    rw [Nat.succ_mul, Nat.add_comm]

/-- Every other device owes device `c`'s barrier cell one unit: fifteen units of credit. -/
theorem cred_bar (c : Dev nD) : (Pipeline.launchCred owedBar c : sProp 𝕄) ⊢ cred (tallyAt (barCell c) () 15) := by
  have h1 : (Pipeline.launchCred owedBar c : sProp 𝕄)
      = bigSep Finset.univ fun j : Off => Pipeline.launchCred (fun d : Dev nD => (tallyAt (barCell (fwd j d)) () 1 : CellTallies nD τ sig Unit)) c :=
    Pipeline.launchCred_sum Finset.univ (fun (j : Off) (d : Dev nD) => (tallyAt (barCell (fwd j d)) () 1 : CellTallies nD τ sig Unit)) c
  rw [h1]
  refine (bigSep_mono fun j _ => Pipeline.launchCred_tallyAt (.reg barS) (fwd j) (fwd j).symm (fwd j).apply_symm_apply (fwd j).symm_apply_apply () 1 c).trans ?_
  rw [← Pipeline.cred_finsetSum, sum_tallyAt_const, Finset.card_univ, Fintype.card_fin]
  exact BI.Entails.refl _

/-- The device `off j` places before `c` owes `c`'s scatter receive cell at that offset one block's credit; -/
theorem cred_rs (c : Dev nD) :
    (Pipeline.launchCred owedRs c : sProp 𝕄) ⊢ bigSep Finset.univ fun j : Off => cred (tallyAt (rsRecvCell c (off j)) () N) := by
  have h1 : (Pipeline.launchCred owedRs c : sProp 𝕄)
      = bigSep Finset.univ fun j : Off => Pipeline.launchCred (fun d : Dev nD => (tallyAt (rsRecvCell (fwd j d) (off j)) () N : CellTallies nD τ sig Unit)) c :=
    Pipeline.launchCred_sum Finset.univ (fun (j : Off) (d : Dev nD) => (tallyAt (rsRecvCell (fwd j d) (off j)) () N : CellTallies nD τ sig Unit)) c
  rw [h1]
  exact bigSep_mono fun j _ => Pipeline.launchCred_tallyAt (.dma (rsRecv (off j))) (fwd j) (fwd j).symm (fwd j).apply_symm_apply (fwd j).symm_apply_apply () N c

/-- and likewise its gather receive cell. -/
theorem cred_ag (c : Dev nD) :
    (Pipeline.launchCred owedAg c : sProp 𝕄) ⊢ bigSep Finset.univ fun j : Off => cred (tallyAt (agRecvCell c (off j)) () N) := by
  have h1 : (Pipeline.launchCred owedAg c : sProp 𝕄)
      = bigSep Finset.univ fun j : Off => Pipeline.launchCred (fun d : Dev nD => (tallyAt (agRecvCell (fwd j d) (off j)) () N : CellTallies nD τ sig Unit)) c :=
    Pipeline.launchCred_sum Finset.univ (fun (j : Off) (d : Dev nD) => (tallyAt (agRecvCell (fwd j d) (off j)) () N : CellTallies nD τ sig Unit)) c
  rw [h1]
  exact bigSep_mono fun j _ => Pipeline.launchCred_tallyAt (.dma (agRecv (off j))) (fwd j) (fwd j).symm (fwd j).apply_symm_apply (fwd j).symm_apply_apply () N c

theorem creds_intro (c : Dev nD) : (Pipeline.launchCred O₀ c : sProp 𝕄) ⊢ creds c := by
  have h : (Pipeline.launchCred O₀ c : sProp 𝕄)
      = iprop((Pipeline.launchCred owedBar c ∗ Pipeline.launchCred owedRs c) ∗ Pipeline.launchCred owedAg c) := by
    show (Pipeline.launchCred (fun d : Dev nD => (fun d : Dev nD => owedBar d + owedRs d) d + owedAg d) c : sProp 𝕄) = _
    rw [Pipeline.launchCred_add, Pipeline.launchCred_add]
  rw [h]
  unfold creds
  iintro ⟨⟨HB, HR⟩, HA⟩
  isplitl [HB]; · iapply (cred_bar (F := F) c); iexact HB
  isplitl [HR]; · iapply (cred_rs (F := F) c); iexact HR
  iapply (cred_ag (F := F) c); iexact HA

/-! ## The side conditions of the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' ℛ c)
      ⊢ |={Set.univ}=> iprop(start ℛ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start ℛ c ∗ Pipeline.prefHeld Pipeline.Prefetch.none c (fun _ => fullShare.right) (fun k => k.elim0) ∗ Pipeline.scopedRest cfg0.spec c)
      ⊢ (dats ℛ m ρ out 0 c).Φ 0 := by
  rw [show (dats ℛ m ρ out 0 c).Φ 0 = Φ₀ ℛ c from rfl, scopedRest0_eq]
  unfold Φ₀ scratch
  iintro ⟨Hs, -, Hr⟩
  isplitl [Hs]; · iexact Hs
  iexact Hr

theorem phi1_exit (c : Dev nD) :
    (dats ℛ m ρ out 0 c).Φ (Fin.last cfg0.N) ⊢ iprop(emp ∗ Pipeline.ownSems0 osem c ∗ Pipeline.scopedRest cfg0.spec c) := by
  rw [show (dats ℛ m ρ out 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

theorem waits (c : Dev nD) : (levAts L lv : sProp 𝕄) ⊢ Pipeline.cellsWaits cfgs (dats ℛ m ρ out) () 0 c :=
  Pipeline.cellsWaits_intro cfgs (dats ℛ m ρ out) () 0 c fun w s t =>
    mayWait_low c _ (by fin_cases w <;> fin_cases s <;> decide) _ (by
      rcases t with ⟨_ | _, ht⟩
      · exact Or.inl rfl
      · exact Or.inr rfl)

/-! ## The run -/

/-- Each windowed array of device `c` after the kernel, as the proof data computes it. -/
def finalA (c : Dev nD) (w : Fin cfg0.W) : Buf (Elt F) ((cfg0.win w).arr.view.loc (c : Thread nD τ)) := (dats ℛ m ρ out 0 c).arrAt w cfg0.N

def QC : PUnit × MemSt nD τ sig (Elt F) → Prop := fun r =>
  ∀ c : Dev nD, ∀ w : Fin cfg0.W, r.2.mem ((cfg0.win w).arr.view.loc (c : Thread nD τ)) = finalA ℛ m ρ out c w

set_option maxRecDepth 32000 in
/-- At the compiled mesh of sixteen devices, for any float values, from any memory with zero counters: if one device's
    body is proved from its invariant, every weakly fair execution of @main terminates, and in every final state each
    device's four windowed arrays hold what the proof data computes. -/
theorem run_main [∀ g r d, BI.Storable (upEmb : UEmb _ 𝕄) (ℛ.payload g r d)]
    (hbody : ∀ c : Dev nD, BodyObligation (dats ℛ m ρ out 0 c) (defs₀ (F := F)) 𝒱₀ () Set.univ) :
    θ_run defs (onTc (τ := τ) (main (F := F))) (s₀ m ρ) (QC ℛ m ρ out) :=
  Pipeline.θ_run_region_owing_glob_pf (fun p => (cfgs p).toPCfg) (fun p => (cfgs p).toPCfg_adm) (dats ℛ m ρ out) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq ℛ m ρ out)
    (hdistinct := winFacts0.arr_inj)
    (O₀ := O₀) (howed₀ := fun _ => rfl) (howedN := fun _ => rfl)
    (L := L) (lv := lv) (hL := L_of_ne) (hwaits := waits ℛ m ρ out)
    (G := G ℛ) (G' := G' ℛ) (u₀ := u₀)
    (hu₀ := by
      unfold u₀
      iintro Hu
      ihave H := (ownU_pair _ _) $$ Hu
      icases H with ⟨HP, HX⟩
      imod (fund_all ℛ) $$ HX with HG
      imodintro
      isplitl [HP] <;> iassumption)
    (hglob := glob ℛ)
    (hA := fun _ _ => rfl) (hpf := fun _ k => k.elim0)
    (X := start ℛ) (Y := fun _ => iprop(emp)) (Z := fun _ => iprop(emp))
    (hX := start_intro ℛ m ρ) (hin := phi0_intro ℛ m ρ out) (hout := phi1_exit ℛ m ρ out)
    (QY := fun _ _ => True)
    (hY := fun c s' => by
      iintro ⟨-, -, HSI⟩
      imodintro
      isplitr; · ipureintro; trivial
      iexact HSI)
    (hQ := fun _ h c w => (h c).1 w)

/-! ## The final arrays -/

theorem finalA_arg0 (c : Dev nD) : finalA ℛ m ρ out c (0 : Fin 4) = m ((c.tc : Thread nD τ).loc main_arg0) :=
  (dats ℛ m ρ out 0 c).arrAt_in (0 : Fin 4) rfl _
theorem finalA_arg1 (c : Dev nD) : finalA ℛ m ρ out c (1 : Fin 4) = m ((c.tc : Thread nD τ).loc main_arg1) :=
  (dats ℛ m ρ out 0 c).arrAt_in (1 : Fin 4) rfl _
theorem finalA_arg2 (c : Dev nD) : finalA ℛ m ρ out c (2 : Fin 4) = m ((c.tc : Thread nD τ).loc main_arg2) :=
  (dats ℛ m ρ out 0 c).arrAt_in (2 : Fin 4) rfl _

/-- The result array after the kernel: the array as launched, overwritten by the write-back of the output window's
    staging buffer at the kernel's one point. -/
theorem finalA_out_raw (c : Dev nD) : finalA ℛ m ρ out c (3 : Fin 4)
    = ((cfg0.win 3).blk t0_0).view.write (Elt F) (m ((c.tc : Thread nD τ).loc main_v1)) ((dats ℛ m ρ out 0 c).flushed (3 : Fin 4) t0_0) Finset.univ := by
  have h := (dats ℛ m ρ out 0 c).arrAt_succ (3 : Fin 4) t0_0
  rw [flush0_3, if_pos rfl] at h
  exact h

/-- The write-back is of the whole array: the result array holds what the body leaves in the staging buffer. -/
theorem finalA_out (c : Dev nD) : finalA ℛ m ρ out c (3 : Fin 4) = out c := by
  rw [finalA_out_raw]
  exact Memref.write_access_unit_zero_univ (Elt F) main_v1 (funext fun a => Nat.zero_mul _) _ _ _

/-- The run in the form the claim reads: on every device the three argument arrays are unchanged and the result array
    holds what the body leaves in the output window's staging buffer. -/
theorem run_post [∀ g r d, BI.Storable (upEmb : UEmb _ 𝕄) (ℛ.payload g r d)]
    (hbody : ∀ c : Dev nD, BodyObligation (dats ℛ m ρ out 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v1) = out c) :=
  (θ_run defs _ _).mono (fun _ h c => ⟨(h c 0).trans (finalA_arg0 ℛ m ρ out c), (h c 1).trans (finalA_arg1 ℛ m ρ out c),
      (h c 2).trans (finalA_arg2 ℛ m ρ out c), (h c 3).trans (finalA_out ℛ m ρ out c)⟩) (run_main ℛ m ρ out hbody)

/-- info: 'Cert.Kernel.Proto.run_post' depends on axioms: [propext, Classical.choice, Quot.sound] -/
#guard_msgs in #print axioms run_post

end Cert.Kernel.Proto

end
-- ==== Proof.Bits.BodyWrap.lean ====
/-
  The body obligation of the launch from the proof of one device's body as it is stated over chains of fifteen
  conjuncts: the launch's big stars opened into those chains, what is owed at launch as the nested sum, and the sixty
  closed cells gathered again at the end.
-/
import proofs.«900432_g7700000000000433_dist_gconv1d_cshard_i_b4_s512_c256_v7x_i16_bf16_1_alg».proof.Proof.Bits.BodyGlue
import proofs.«900432_g7700000000000433_dist_gconv1d_cshard_i_b4_s512_c256_v7x_i16_bf16_1_alg».proof.Proof.Bits.BodySpec
import proofs.«900432_g7700000000000433_dist_gconv1d_cshard_i_b4_s512_c256_v7x_i16_bf16_1_alg».proof.Proof.Bits.LaunchIdeal

set_option maxRecDepth 16384

noncomputable section

namespace Cert.Kernel.Proto

open Cert.Kernel Cert.Kernel.Gen Cert.Kernel.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's big stars as chains -/

theorem positions_chain (c : Dev nD) : (positions c : sProp 𝕄)
    = iprop(atPos ER (barCell c) 0 (∅ : Finset (Fin 16)) 0
      ∗ offChain (fun o => atPos ER (rsSendCell c o) 0 (∅ : Finset (Fin 16)) 0) ∗ offChain (fun o => atPos ER (rsRecvCell c o) 0 (∅ : Finset (Fin 16)) 0)
      ∗ offChain (fun o => atPos ER (agSendCell c o) 0 (∅ : Finset (Fin 16)) 0) ∗ offChain (fun o => atPos ER (agRecvCell c o) 0 (∅ : Finset (Fin 16)) 0)) := by
  unfold positions
  rw [bigSep_fam, ← bigSep_offChain (fun o => (atPos ER (rsSendCell c o) 0 (∅ : Finset (Fin 16)) 0 : sProp 𝕄)),
    ← bigSep_offChain (fun o => (atPos ER (rsRecvCell c o) 0 (∅ : Finset (Fin 16)) 0 : sProp 𝕄)),
    ← bigSep_offChain (fun o => (atPos ER (agSendCell c o) 0 (∅ : Finset (Fin 16)) 0 : sProp 𝕄)),
    ← bigSep_offChain (fun o => (atPos ER (agRecvCell c o) 0 (∅ : Finset (Fin 16)) 0 : sProp 𝕄))]
  rfl

theorem payToks_chain (c : Dev nD) : (payToks c : sProp 𝕄)
    = iprop(offChain (fun o => dutyTok ER (barCell (peer c o.val)) 0 o)
      ∗ offChain (fun o => dutyTok ER (rsSendCell c o) 0 (0 : Fin 16))
      ∗ offChain (fun o => dutyTok ER (rsRecvCell (peer c o.val) o) 0 (0 : Fin 16))
      ∗ offChain (fun o => dutyTok ER (agSendCell c o) 0 (0 : Fin 16))
      ∗ offChain (fun o => dutyTok ER (agRecvCell (peer c o.val) o) 0 (0 : Fin 16))) := by
  unfold payToks
  rw [← bigSep_offChain (fun o => (dutyTok ER (barCell (peer c o.val)) 0 o : sProp 𝕄)),
    ← bigSep_offChain (fun o => (dutyTok ER (rsSendCell c o) 0 (0 : Fin 16) : sProp 𝕄)),
    ← bigSep_offChain (fun o => (dutyTok ER (rsRecvCell (peer c o.val) o) 0 (0 : Fin 16) : sProp 𝕄)),
    ← bigSep_offChain (fun o => (dutyTok ER (agSendCell c o) 0 (0 : Fin 16) : sProp 𝕄)),
    ← bigSep_offChain (fun o => (dutyTok ER (agRecvCell (peer c o.val) o) 0 (0 : Fin 16) : sProp 𝕄))]
  rfl

theorem creds_chain (c : Dev nD) : (creds c : sProp 𝕄)
    = iprop(cred (tallyAt (barCell c) () 15) ∗ offChain (fun o => cred (tallyAt (rsRecvCell c o) () N))
      ∗ offChain (fun o => cred (tallyAt (agRecvCell c o) () N))) := by
  unfold creds
  rw [← bigSep_offChain (fun o => (cred (tallyAt (rsRecvCell c o) () N) : sProp 𝕄)),
    ← bigSep_offChain (fun o => (cred (tallyAt (agRecvCell c o) () N) : sProp 𝕄))]

theorem semVals_chain (c : Dev nD) : (bigSep Finset.univ fun k : Fin 4 × Off => (semVal (kcell (c, .inr k)) 0 : sProp 𝕄))
    = iprop(offChain (fun o => semVal (rsSendCell c o) 0) ∗ offChain (fun o => semVal (rsRecvCell c o) 0)
      ∗ offChain (fun o => semVal (agSendCell c o) 0) ∗ offChain (fun o => semVal (agRecvCell c o) 0)) := by
  rw [bigSep_fam, ← bigSep_offChain (fun o => (semVal (rsSendCell c o) 0 : sProp 𝕄)), ← bigSep_offChain (fun o => (semVal (rsRecvCell c o) 0 : sProp 𝕄)),
    ← bigSep_offChain (fun o => (semVal (agSendCell c o) 0 : sProp 𝕄)), ← bigSep_offChain (fun o => (semVal (agRecvCell c o) 0 : sProp 𝕄))]
  rfl

/-! ## From the body's proof to the obligation -/

/-- The kernel body under a second name, equal to it by definition. -/
@[irreducible] def sealedBody : Prog (TpuEff nD τ sig (Elt F) Λ₀ .tc) PUnit := theBody (F := F)

theorem sealedBody_eq : sealedBody (F := F) = bodyAt0 (F := F) t0_0 := by unfold sealedBody; rfl
theorem sealedBody_eq' : sealedBody (F := F) = theBody (F := F) := by unfold sealedBody; rfl

/-- The body's proof, as it is stated over the chains: from `bodyPre` to `bodyPost`, for every device and every
    choice of the cells' names, of the recorded waits and of the three buffers' entry contents. -/
def BodySound : Prop :=
  ∀ (K : Dev nD × CellIx → ℕ) (c : Dev nD) (W : Waits sig Unit)
    (gout : Buf (Elt F) ((c : Thread nD τ).loc cc0_stg3_0)) (facc : Buf (Elt F) ((c : Thread nD τ).loc cc0_scratch0))
    (ftmp : Buf (Elt F) ((c : Thread nD τ).loc cc0_scratch1)) (Kt : PUnit → sProp 𝕄),
    iprop(bodyPre m K c W gout facc ftmp ∗ (bodyPost m c -∗ Kt ⟨⟩))
      ⊢ wp frame (wpE (defs₀ (F := F)) 𝒱₀ (c : Thread nD τ) none) Set.univ (theBody (F := F)) Kt

set_option maxRecDepth 32000 in
theorem win_of_sound (hsound : BodySound (F := F) m) (c : Dev nD) :
    winPre (Rd (F := F) m) m ρ (fun _ => outFull m) c
      ⊢ wp frame (wpE (defs₀ (F := F)) 𝒱₀ c none) Set.univ (bodyAt0 (F := F) t0_0) (fun _ => winPost (Rd (F := F) m) m ρ (fun _ => outFull m) c) := by
  have hs : ∀ (K : Dev nD × CellIx → ℕ) (W : Waits sig Unit)
      (gout : Buf (Elt F) ((c : Thread nD τ).loc cc0_stg3_0)) (facc : Buf (Elt F) ((c : Thread nD τ).loc cc0_scratch0))
      (ftmp : Buf (Elt F) ((c : Thread nD τ).loc cc0_scratch1)) (Kt : PUnit → sProp 𝕄),
      iprop(bodyPre m K c W gout facc ftmp ∗ (bodyPost m c -∗ Kt ⟨⟩))
        ⊢ wp frame (wpE (defs₀ (F := F)) 𝒱₀ (c : Thread nD τ) none) Set.univ (sealedBody (F := F)) Kt := fun K W gout facc ftmp Kt => by
    rw [sealedBody_eq']; exact hsound K c W gout facc ftmp Kt
  rw [← sealedBody_eq]
  unfold winPre Φ₀ start ghost linear scratch
  rw [positions_chain, payToks_chain, creds_chain]
  unfold Dat.owesAt Pipeline.owesWithin
  rw [show (dats (Rd (F := F) m) m ρ (fun _ => outFull m) 0 c).owed t0_0.castSucc = O₀ c from rfl, O₀_eq_nest]
  iintro ⟨⟨⟨⟨%K, #Hrec, ⟨HaB, HaRS, HaRR, HaAS, HaAR⟩, HtB, HtRS, HtRR, HtAS, HtAR⟩, ⟨HcB, HcR, HcA⟩, #Hlev⟩, ⟨%facc, Hacc⟩, ⟨%ftmp, Htmp⟩⟩,
    ⟨%W, %hW, HO⟩, ⟨%f0, %h0, H0⟩, ⟨%f1, %h1, H1⟩, ⟨%f2, %h2, H2⟩, ⟨%d3, %f3, %h3, H3⟩⟩
  subst h0 h1 h2
  iapply (hs K W f3 facc ftmp (fun _ => winPost (Rd (F := F) m) m ρ (fun _ => outFull m) c))
  isplitl
  · unfold bodyPre
    isplitr; · iexact Hrec
    isplitr; · iexact Hlev
    isplitl [HaB]; · iexact HaB
    isplitl [HaRS]; · iexact HaRS
    isplitl [HaRR]; · iexact HaRR
    isplitl [HaAS]; · iexact HaAS
    isplitl [HaAR]; · iexact HaAR
    isplitl [HtB]; · iexact HtB
    isplitl [HtRS]; · iexact HtRS
    isplitl [HtRR]; · iexact HtRR
    isplitl [HtAS]; · iexact HtAS
    isplitl [HtAR]; · iexact HtAR
    isplitl [HcB]; · iexact HcB
    isplitl [HcR]; · iexact HcR
    isplitl [HcA]; · iexact HcA
    isplitl [HO]; · iexact HO
    isplitl [H0]; · iexact H0
    isplitl [H1]; · iexact H1
    isplitl [H2]; · iexact H2
    isplitl [H3]; · iexact H3
    isplitl [Hacc]; · iexact Hacc
    iexact Htmp
  · unfold bodyPost winPost Φ₁ scratch Dat.owesAt Pipeline.owesWithin
    rw [semVals_chain, show (dats (Rd (F := F) m) m ρ (fun _ => outFull m) 0 c).owed t0_0.succ = 0 from rfl]
    iintro ⟨Hacc, Htmp, HzRS, HzRR, HzAS, HzAR, ⟨%W', HO⟩, H0, H1, H2, H3⟩
    isplitl [Hacc Htmp HzRS HzRR HzAS HzAR]
    · isplitl [Hacc Htmp]
      · isplitl [Hacc]; · iexact Hacc
        iexact Htmp
      isplitl [HzRS]; · iexact HzRS
      isplitl [HzRR]; · iexact HzRR
      isplitl [HzAS]; · iexact HzAS
      iexact HzAR
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    iexists _; isplitr; · (ipureintro; rfl)
    iexact H3

/-- The body obligation on every device. -/
theorem body_obligation (hsound : BodySound (F := F) m) (c : Dev nD) :
    BodyObligation (dats (Rd (F := F) m) m ρ (fun _ => outFull m) 0 c) (defs₀ (F := F)) 𝒱₀ () Set.univ :=
  body_obligation_of (Rd (F := F) m) m ρ (fun _ => outFull m) (win_of_sound m ρ hsound) c

/-- At the compiled mesh of sixteen devices, from any memory with zero counters: every weakly fair execution of @main
    terminates, and in every final state each device's three argument arrays are unchanged and its result array holds the
    full product. -/
theorem run_kernel (hsound : BodySound (F := F) m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v1) = outFull m) :=
  run_post (Rd (F := F) m) m ρ (fun _ => outFull m) (body_obligation m ρ hsound)

/-- info: 'Cert.Kernel.Proto.run_kernel' depends on axioms: [propext, Classical.choice, Quot.sound] -/
#guard_msgs in #print axioms run_kernel

/-! ## The level and chain lemmas the body's proof cites rest on the same three axioms -/

/-- info: 'Cert.Kernel.Proto.records_inv' depends on axioms: [propext, Classical.choice, Quot.sound] -/
#guard_msgs in #print axioms records_inv
/-- info: 'Cert.Kernel.Proto.records_reached' depends on axioms: [propext, Classical.choice, Quot.sound] -/
#guard_msgs in #print axioms records_reached
/-- info: 'Cert.Kernel.Proto.mayWait_low' depends on axioms: [propext, Classical.choice, Quot.sound] -/
#guard_msgs in #print axioms mayWait_low
/-- info: 'Cert.Kernel.Proto.mayWait_bar_of' depends on axioms: [propext, Classical.choice, Quot.sound] -/
#guard_msgs in #print axioms mayWait_bar_of
/-- info: 'Cert.Kernel.Proto.mayWait_rsRecv_of' depends on axioms: [propext, Classical.choice, Quot.sound] -/
#guard_msgs in #print axioms mayWait_rsRecv_of
/-- info: 'Cert.Kernel.Proto.O₀_eq_nest' depends on axioms: [propext, Classical.choice, Quot.sound] -/
#guard_msgs in #print axioms O₀_eq_nest
/-- info: 'Cert.Kernel.Proto.mayWait_bar' depends on axioms: [propext, Classical.choice, Quot.sound] -/
#guard_msgs in #print axioms mayWait_bar
/-- info: 'Cert.Kernel.Proto.mayWait_rsRecv' depends on axioms: [propext, Classical.choice, Quot.sound] -/
#guard_msgs in #print axioms mayWait_rsRecv
/-- info: 'Cert.Kernel.Proto.bigSep_off' depends on axioms: [propext, Classical.choice, Quot.sound] -/
#guard_msgs in #print axioms bigSep_off
/-- info: 'Cert.Kernel.Proto.pos_add' depends on axioms: [propext, Classical.choice, Quot.sound] -/
#guard_msgs in #print axioms pos_add
/-- info: 'Cert.Kernel.Proto.pos_tallyAt' depends on axioms: [propext, Classical.choice, Quot.sound] -/
#guard_msgs in #print axioms pos_tallyAt
/-- info: 'Cert.Kernel.Proto.not_pos_zero' depends on axioms: [propext, Classical.choice, Quot.sound] -/
#guard_msgs in #print axioms not_pos_zero

end Cert.Kernel.Proto

end
-- ==== Proof.Tables.lean ====
/-
  The schedule's tables at the cells a device pays, with the payloads spelt out as the buffers' elements they hand over:
  the signal device c sends o places on hands that device slot 16 - o of c's temporary buffer and the block of c's result
  that the receiver owns; the copies it sends land in slot o of the receiver's temporary buffer and in block c of the
  receiver's result.  One equation per offset 1, …, 15, each an instance of the equation at a symbolic offset.
-/
import proofs.«900432_g7700000000000433_dist_gconv1d_cshard_i_b4_s512_c256_v7x_i16_bf16_1_alg».proof.Proof.Protocol

set_option maxRecDepth 16384

noncomputable section

namespace Cert.KernelIdeal.Proto

open Cert.KernelIdeal Cert.KernelIdeal.Gen Cert.KernelIdeal.Chains
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- What device `c`'s signal to the device `o` places on hands over, at `c`'s own buffers. -/
theorem payload_bar_peer (c : Dev nD) (o : Fin 16) :
    (Rd (F := F) m).payload (barCell (peer c o.val)) 0 o
      = iprop((∃ f, (tmpRow (negOff o)).view.loc (c : Thread nD τ) ↦[(tmpRow (negOff o)).view.set]{fullShare} f)
          ∗ (∃ f, (outOwn (peer c o.val)).view.loc (c : Thread nD τ) ↦[(outOwn (peer c o.val)).view.set]{fullShare} f)
          ∗ reached ER (rsRecvCell c (negOff o)) 0 ∗ reached ER (agRecvCell c (negOff o)) 0) := by
  rw [payload_bar]; unfold barPay slotPts ptsAt; rw [back_peer]

theorem mem_duties_bar (c : Dev nD) (o : Fin 16) (ho : o ≠ 0) : o ∈ (Rd (F := F) m).duties (barCell c) 0 := by
  rw [duties_bar]; exact Finset.mem_erase.mpr ⟨ho, Finset.mem_univ _⟩

theorem payload_bar_peer_1 (c : Dev nD) : (Rd (F := F) m).payload (barCell (peer c 1)) 0 (1 : Fin 16)
      = iprop((∃ f, (tmpRow (negOff 1)).view.loc (c : Thread nD τ) ↦[(tmpRow (negOff 1)).view.set]{fullShare} f)
          ∗ (∃ f, (outOwn (peer c 1)).view.loc (c : Thread nD τ) ↦[(outOwn (peer c 1)).view.set]{fullShare} f)
          ∗ reached ER (rsRecvCell c (negOff 1)) 0 ∗ reached ER (agRecvCell c (negOff 1)) 0) := payload_bar_peer m c 1
theorem mem_duties_bar_1 (c : Dev nD) : (1 : Fin 16) ∈ (Rd (F := F) m).duties (barCell c) 0 := mem_duties_bar m c 1 (by decide)
theorem payload_bar_peer_2 (c : Dev nD) : (Rd (F := F) m).payload (barCell (peer c 2)) 0 (2 : Fin 16)
      = iprop((∃ f, (tmpRow (negOff 2)).view.loc (c : Thread nD τ) ↦[(tmpRow (negOff 2)).view.set]{fullShare} f)
          ∗ (∃ f, (outOwn (peer c 2)).view.loc (c : Thread nD τ) ↦[(outOwn (peer c 2)).view.set]{fullShare} f)
          ∗ reached ER (rsRecvCell c (negOff 2)) 0 ∗ reached ER (agRecvCell c (negOff 2)) 0) := payload_bar_peer m c 2
theorem mem_duties_bar_2 (c : Dev nD) : (2 : Fin 16) ∈ (Rd (F := F) m).duties (barCell c) 0 := mem_duties_bar m c 2 (by decide)
theorem payload_bar_peer_3 (c : Dev nD) : (Rd (F := F) m).payload (barCell (peer c 3)) 0 (3 : Fin 16)
      = iprop((∃ f, (tmpRow (negOff 3)).view.loc (c : Thread nD τ) ↦[(tmpRow (negOff 3)).view.set]{fullShare} f)
          ∗ (∃ f, (outOwn (peer c 3)).view.loc (c : Thread nD τ) ↦[(outOwn (peer c 3)).view.set]{fullShare} f)
          ∗ reached ER (rsRecvCell c (negOff 3)) 0 ∗ reached ER (agRecvCell c (negOff 3)) 0) := payload_bar_peer m c 3
theorem mem_duties_bar_3 (c : Dev nD) : (3 : Fin 16) ∈ (Rd (F := F) m).duties (barCell c) 0 := mem_duties_bar m c 3 (by decide)
theorem payload_bar_peer_4 (c : Dev nD) : (Rd (F := F) m).payload (barCell (peer c 4)) 0 (4 : Fin 16)
      = iprop((∃ f, (tmpRow (negOff 4)).view.loc (c : Thread nD τ) ↦[(tmpRow (negOff 4)).view.set]{fullShare} f)
          ∗ (∃ f, (outOwn (peer c 4)).view.loc (c : Thread nD τ) ↦[(outOwn (peer c 4)).view.set]{fullShare} f)
          ∗ reached ER (rsRecvCell c (negOff 4)) 0 ∗ reached ER (agRecvCell c (negOff 4)) 0) := payload_bar_peer m c 4
theorem mem_duties_bar_4 (c : Dev nD) : (4 : Fin 16) ∈ (Rd (F := F) m).duties (barCell c) 0 := mem_duties_bar m c 4 (by decide)
theorem payload_bar_peer_5 (c : Dev nD) : (Rd (F := F) m).payload (barCell (peer c 5)) 0 (5 : Fin 16)
      = iprop((∃ f, (tmpRow (negOff 5)).view.loc (c : Thread nD τ) ↦[(tmpRow (negOff 5)).view.set]{fullShare} f)
          ∗ (∃ f, (outOwn (peer c 5)).view.loc (c : Thread nD τ) ↦[(outOwn (peer c 5)).view.set]{fullShare} f)
          ∗ reached ER (rsRecvCell c (negOff 5)) 0 ∗ reached ER (agRecvCell c (negOff 5)) 0) := payload_bar_peer m c 5
theorem mem_duties_bar_5 (c : Dev nD) : (5 : Fin 16) ∈ (Rd (F := F) m).duties (barCell c) 0 := mem_duties_bar m c 5 (by decide)
theorem payload_bar_peer_6 (c : Dev nD) : (Rd (F := F) m).payload (barCell (peer c 6)) 0 (6 : Fin 16)
      = iprop((∃ f, (tmpRow (negOff 6)).view.loc (c : Thread nD τ) ↦[(tmpRow (negOff 6)).view.set]{fullShare} f)
          ∗ (∃ f, (outOwn (peer c 6)).view.loc (c : Thread nD τ) ↦[(outOwn (peer c 6)).view.set]{fullShare} f)
          ∗ reached ER (rsRecvCell c (negOff 6)) 0 ∗ reached ER (agRecvCell c (negOff 6)) 0) := payload_bar_peer m c 6
theorem mem_duties_bar_6 (c : Dev nD) : (6 : Fin 16) ∈ (Rd (F := F) m).duties (barCell c) 0 := mem_duties_bar m c 6 (by decide)
theorem payload_bar_peer_7 (c : Dev nD) : (Rd (F := F) m).payload (barCell (peer c 7)) 0 (7 : Fin 16)
      = iprop((∃ f, (tmpRow (negOff 7)).view.loc (c : Thread nD τ) ↦[(tmpRow (negOff 7)).view.set]{fullShare} f)
          ∗ (∃ f, (outOwn (peer c 7)).view.loc (c : Thread nD τ) ↦[(outOwn (peer c 7)).view.set]{fullShare} f)
          ∗ reached ER (rsRecvCell c (negOff 7)) 0 ∗ reached ER (agRecvCell c (negOff 7)) 0) := payload_bar_peer m c 7
theorem mem_duties_bar_7 (c : Dev nD) : (7 : Fin 16) ∈ (Rd (F := F) m).duties (barCell c) 0 := mem_duties_bar m c 7 (by decide)
theorem payload_bar_peer_8 (c : Dev nD) : (Rd (F := F) m).payload (barCell (peer c 8)) 0 (8 : Fin 16)
      = iprop((∃ f, (tmpRow (negOff 8)).view.loc (c : Thread nD τ) ↦[(tmpRow (negOff 8)).view.set]{fullShare} f)
          ∗ (∃ f, (outOwn (peer c 8)).view.loc (c : Thread nD τ) ↦[(outOwn (peer c 8)).view.set]{fullShare} f)
          ∗ reached ER (rsRecvCell c (negOff 8)) 0 ∗ reached ER (agRecvCell c (negOff 8)) 0) := payload_bar_peer m c 8
theorem mem_duties_bar_8 (c : Dev nD) : (8 : Fin 16) ∈ (Rd (F := F) m).duties (barCell c) 0 := mem_duties_bar m c 8 (by decide)
theorem payload_bar_peer_9 (c : Dev nD) : (Rd (F := F) m).payload (barCell (peer c 9)) 0 (9 : Fin 16)
      = iprop((∃ f, (tmpRow (negOff 9)).view.loc (c : Thread nD τ) ↦[(tmpRow (negOff 9)).view.set]{fullShare} f)
          ∗ (∃ f, (outOwn (peer c 9)).view.loc (c : Thread nD τ) ↦[(outOwn (peer c 9)).view.set]{fullShare} f)
          ∗ reached ER (rsRecvCell c (negOff 9)) 0 ∗ reached ER (agRecvCell c (negOff 9)) 0) := payload_bar_peer m c 9
theorem mem_duties_bar_9 (c : Dev nD) : (9 : Fin 16) ∈ (Rd (F := F) m).duties (barCell c) 0 := mem_duties_bar m c 9 (by decide)
theorem payload_bar_peer_10 (c : Dev nD) : (Rd (F := F) m).payload (barCell (peer c 10)) 0 (10 : Fin 16)
      = iprop((∃ f, (tmpRow (negOff 10)).view.loc (c : Thread nD τ) ↦[(tmpRow (negOff 10)).view.set]{fullShare} f)
          ∗ (∃ f, (outOwn (peer c 10)).view.loc (c : Thread nD τ) ↦[(outOwn (peer c 10)).view.set]{fullShare} f)
          ∗ reached ER (rsRecvCell c (negOff 10)) 0 ∗ reached ER (agRecvCell c (negOff 10)) 0) := payload_bar_peer m c 10
theorem mem_duties_bar_10 (c : Dev nD) : (10 : Fin 16) ∈ (Rd (F := F) m).duties (barCell c) 0 := mem_duties_bar m c 10 (by decide)
theorem payload_bar_peer_11 (c : Dev nD) : (Rd (F := F) m).payload (barCell (peer c 11)) 0 (11 : Fin 16)
      = iprop((∃ f, (tmpRow (negOff 11)).view.loc (c : Thread nD τ) ↦[(tmpRow (negOff 11)).view.set]{fullShare} f)
          ∗ (∃ f, (outOwn (peer c 11)).view.loc (c : Thread nD τ) ↦[(outOwn (peer c 11)).view.set]{fullShare} f)
          ∗ reached ER (rsRecvCell c (negOff 11)) 0 ∗ reached ER (agRecvCell c (negOff 11)) 0) := payload_bar_peer m c 11
theorem mem_duties_bar_11 (c : Dev nD) : (11 : Fin 16) ∈ (Rd (F := F) m).duties (barCell c) 0 := mem_duties_bar m c 11 (by decide)
theorem payload_bar_peer_12 (c : Dev nD) : (Rd (F := F) m).payload (barCell (peer c 12)) 0 (12 : Fin 16)
      = iprop((∃ f, (tmpRow (negOff 12)).view.loc (c : Thread nD τ) ↦[(tmpRow (negOff 12)).view.set]{fullShare} f)
          ∗ (∃ f, (outOwn (peer c 12)).view.loc (c : Thread nD τ) ↦[(outOwn (peer c 12)).view.set]{fullShare} f)
          ∗ reached ER (rsRecvCell c (negOff 12)) 0 ∗ reached ER (agRecvCell c (negOff 12)) 0) := payload_bar_peer m c 12
theorem mem_duties_bar_12 (c : Dev nD) : (12 : Fin 16) ∈ (Rd (F := F) m).duties (barCell c) 0 := mem_duties_bar m c 12 (by decide)
theorem payload_bar_peer_13 (c : Dev nD) : (Rd (F := F) m).payload (barCell (peer c 13)) 0 (13 : Fin 16)
      = iprop((∃ f, (tmpRow (negOff 13)).view.loc (c : Thread nD τ) ↦[(tmpRow (negOff 13)).view.set]{fullShare} f)
          ∗ (∃ f, (outOwn (peer c 13)).view.loc (c : Thread nD τ) ↦[(outOwn (peer c 13)).view.set]{fullShare} f)
          ∗ reached ER (rsRecvCell c (negOff 13)) 0 ∗ reached ER (agRecvCell c (negOff 13)) 0) := payload_bar_peer m c 13
theorem mem_duties_bar_13 (c : Dev nD) : (13 : Fin 16) ∈ (Rd (F := F) m).duties (barCell c) 0 := mem_duties_bar m c 13 (by decide)
theorem payload_bar_peer_14 (c : Dev nD) : (Rd (F := F) m).payload (barCell (peer c 14)) 0 (14 : Fin 16)
      = iprop((∃ f, (tmpRow (negOff 14)).view.loc (c : Thread nD τ) ↦[(tmpRow (negOff 14)).view.set]{fullShare} f)
          ∗ (∃ f, (outOwn (peer c 14)).view.loc (c : Thread nD τ) ↦[(outOwn (peer c 14)).view.set]{fullShare} f)
          ∗ reached ER (rsRecvCell c (negOff 14)) 0 ∗ reached ER (agRecvCell c (negOff 14)) 0) := payload_bar_peer m c 14
theorem mem_duties_bar_14 (c : Dev nD) : (14 : Fin 16) ∈ (Rd (F := F) m).duties (barCell c) 0 := mem_duties_bar m c 14 (by decide)
theorem payload_bar_peer_15 (c : Dev nD) : (Rd (F := F) m).payload (barCell (peer c 15)) 0 (15 : Fin 16)
      = iprop((∃ f, (tmpRow (negOff 15)).view.loc (c : Thread nD τ) ↦[(tmpRow (negOff 15)).view.set]{fullShare} f)
          ∗ (∃ f, (outOwn (peer c 15)).view.loc (c : Thread nD τ) ↦[(outOwn (peer c 15)).view.set]{fullShare} f)
          ∗ reached ER (rsRecvCell c (negOff 15)) 0 ∗ reached ER (agRecvCell c (negOff 15)) 0) := payload_bar_peer m c 15
theorem mem_duties_bar_15 (c : Dev nD) : (15 : Fin 16) ∈ (Rd (F := F) m).duties (barCell c) 0 := mem_duties_bar m c 15 (by decide)

end Cert.KernelIdeal.Proto

end
-- ==== Proof.StepsSig.lean ====
/-
  The two steps on the barrier semaphore, at a symbolic device and offset.
  A signal to the device o places on pays duty o of that device's barrier cell and hands over the slot of the temporary
  buffer and the block of the result that the receiver will write.  The wait for fifteen takes the whole round of the
  device's own barrier cell: the fifteen peers' payloads.
-/
import proofs.«900432_g7700000000000433_dist_gconv1d_cshard_i_b4_s512_c256_v7x_i16_bf16_1_alg».proof.Proof.Tables

set_option maxRecDepth 16384

noncomputable section

namespace Cert.KernelIdeal.Proto

open Cert.KernelIdeal Cert.KernelIdeal.Gen Cert.KernelIdeal.Chains
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

abbrev 𝒱s : Variants := Variants.none

/-- The signal to the device `o` places on. -/
theorem wp_sig (c n : Dev nD) (o : Fin 16) (ho : o ≠ 0) (hn : n = peer c o.val) (κ : ℕ)
    {α : Type} {Q : α → sProp 𝕄} {k : PUnit → Prog (TpuEff nD τ sig (Elt F) Λ₀ .tc) α}
    (O : CellTallies nD τ sig Unit) (W : Waits sig Unit)
    (ft : Buf (Elt F) ((tmpRow (negOff o)).view.loc (c : Thread nD τ))) (fo : Buf (Elt F) ((outOwn (peer c o.val)).view.loc (c : Thread nD τ))) :
    iprop(cellInv ER (Rd (F := F) m) κ (barCell (peer c o.val))
        ∗ owes (c : Thread nD τ) (O + tallyAt (barCell (peer c o.val)) () 1) W
        ∗ dutyTok ER (barCell (peer c o.val)) 0 o
        ∗ ptsAt c (tmpRow (negOff o)) fullShare ft ∗ ptsAt c (outOwn (peer c o.val)) fullShare fo
        ∗ reached ER (rsRecvCell c (negOff o)) 0 ∗ reached ER (agRecvCell c (negOff o)) 0
        ∗ reached ER (barCell (peer c o.val)) 0)
      ⊢ iprop((owes (c : Thread nD τ) O W -∗ wp frame (wpE (defs₀ (F := F)) 𝒱s (c : Thread nD τ) none) Set.univ (k ⟨⟩) Q)
          -∗ wp frame (wpE (defs₀ (F := F)) 𝒱s (c : Thread nD τ) none) Set.univ (.op (.semSignal (n : Thread nD τ) barS (1#32).toNat) k) Q) := by
  subst hn
  iintro ⟨#HI, HO, Htok, Ht, Ho, #Hr1, #Hr2, #Hr⟩
  iapply (Rounds.wp_signal 𝒱s ER (Rd m) (c : Thread nD τ) none (dst := ((peer c o.val : Dev nD) : Thread nD τ)) (κ := κ) (d := o)
      (mem_duties_bar m (peer c o.val) o ho) ((amount_bar m (peer c o.val) o).trans (by decide)) () O rfl) $$ [HO Htok Ht Ho]
  · isplitr; · iexact HI
    isplitl [HO]; · iexact HO
    isplitl [Htok]; · iexact Htok
    isplitl [Ht Ho]
    · rw [payload_bar_peer]
      unfold ptsAt
      isplitl [Ht]; · iexists ft; iexact Ht
      isplitl [Ho]; · iexists fo; iexact Ho
      isplitr; · iexact Hr1
      iexact Hr2
    · iexact Hr

end Cert.KernelIdeal.Proto

end
-- ==== Proof.Steps.lean ====
/-
  The rules of the rounds discipline at the kernel's schedule, one per kind of remote step of the body: the scatter
  copy, the gather copy, a wait on one of a device's own transfer cells, and the closing of such a cell. Each is the
  library's rule with the schedule's tables filled in: a used transfer cell has the one duty 0, of one block's credit,
  in round 0 and none later. The two landing facts (what a copy leaves in its destination is what the destination
  holds in the end) are taken as hypotheses.
-/
import proofs.«900432_g7700000000000433_dist_gconv1d_cshard_i_b4_s512_c256_v7x_i16_bf16_1_alg».proof.Proof.Protocol

set_option maxRecDepth 16384

noncomputable section

namespace Cert.KernelIdeal.Proto

open Cert.KernelIdeal Cert.KernelIdeal.Gen Cert.KernelIdeal.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => Variants.none

variable (m : (ℓ : Loc nD τ sig) → Buf (Elt F) ℓ)

/-! ## The two copies -/

/-- The scatter copy at offset `o`, addressed to `n`, the device `o` places on: it pays the one duty of the sender's
    scatter-send cell with the source row-block, unchanged, and the one duty of the receiver's scatter-receive cell with
    slot `o` of the receiver's temporary buffer at its final contents. -/
theorem wp_rs_copy (c n : Dev nD) (o : Fin 16) (ho : o ≠ 0) (hn : n = peer c o.val)
    {hsc : (tmpRow o : Memref sig (Dev.tc n : Thread nD τ).2.kind .vmem S128x256 .bf16).view.ref.isScScratch = false}
    {hsrc : (accSrc c o).view.WordExact} {hdst : (tmpRow o).view.WordExact}
    {hsem : DmaTarget.Typed .vmem (.dma (rsRecv o)) (.remote (Dev.tc n : Thread nD τ) (tmpRow o) (.dma (rsSend o)) hsc)}
    {α : Type} {Q : α → sProp 𝕄} {k : PUnit → Prog (TpuEff nD τ sig (Elt F) Λ₀ .tc) α} (κ₁ κ₂ : ℕ)
    (fd : Buf (Elt F) ((tmpRow o).view.loc ((peer c o.val : Dev nD) : Thread nD τ)))
    (O : CellTallies nD τ sig Unit) (W : Waits sig Unit)
    (hland : ∀ i ∈ (tmpRow o).view.set,
      (tmpRow o).view.write (Elt F) fd ((accSrc c o).view.read (Elt F) (accBufAt m c o)) Finset.univ i
        = tmpBufAt m (peer c o.val) o i) :
    iprop(cellInv ER (Rd m) κ₁ (rsSendCell c o) ∗ cellInv ER (Rd m) κ₂ (rsRecvCell (peer c o.val) o)
        ∗ ptsAt c (accSrc c o) fullShare (accBufAt m c o) ∗ ptsAt (peer c o.val) (tmpRow o) fullShare fd
        ∗ owes (c : Thread nD τ) (O + tallyAt (rsRecvCell (peer c o.val) o) () N) W
        ∗ dutyTok ER (rsSendCell c o) 0 (0 : Fin 16) ∗ reached ER (rsSendCell c o) 0
        ∗ dutyTok ER (rsRecvCell (peer c o.val) o) 0 (0 : Fin 16) ∗ reached ER (rsRecvCell (peer c o.val) o) 0)
      ⊢ iprop(((cred (tallyAt (rsSendCell c o) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accSrc c o) (.remote (Dev.tc n : Thread nD τ) (tmpRow o) (.dma (rsSend o)) hsc) (.dma (rsRecv o)) hsrc hdst hsem) k) Q) := by
  subst hn
  unfold ptsAt
  exact Rounds.wp_send_pointsTo 𝒱₀ ER (Rd m) (c : Thread nD τ) none (κ₁ := κ₁) (κ₂ := κ₂)
    (r₁ := 0) (r₂ := 0) (d₁ := (0 : Fin 16)) (d₂ := (0 : Fin 16)) (fs := accBufAt m c o) (fd := fd) (q := fullShare)
    (by rw [duties_dma m c _ (used_dsem 4 _ rfl o ho)]; exact Finset.mem_singleton_self _)
    (by rw [duties_dma m (peer c o.val) _ (used_dsem 20 _ rfl o ho)]; exact Finset.mem_singleton_self _)
    () () N rfl (amount_dma m c _ 0) (amount_dma m (peer c o.val) _ 0) O rfl (W := W)
    (by rw [payload_rsSend m c o 0]; unfold rsSendPay ptsAt; exact BI.Entails.refl _)
    (by rw [payload_rsRecv m (peer c o.val) o 0]; unfold rsRecvPay ptsAt; rw [pointsTo_congr hland])

/-- The gather copy at offset `o`, addressed to `n`, the device `o` places on: it pays the one duty of the sender's
    gather-send cell with the share of its own block it read, and the one duty of the receiver's gather-receive cell
    with the sender's block of the receiver's result at its final contents. -/
theorem wp_ag_copy (c n : Dev nD) (o : Fin 16) (ho : o ≠ 0) (hn : n = peer c o.val)
    {hsc : (outOwn c : Memref sig (Dev.tc n : Thread nD τ).2.kind .vmem S128x256 .bf16).view.ref.isScScratch = false}
    {hsrc : (outOwn c).view.WordExact} {hdst : (outOwn c).view.WordExact}
    {hsem : DmaTarget.Typed .vmem (.dma (agRecv o)) (.remote (Dev.tc n : Thread nD τ) (outOwn c) (.dma (agSend o)) hsc)}
    {α : Type} {Q : α → sProp 𝕄} {k : PUnit → Prog (TpuEff nD τ sig (Elt F) Λ₀ .tc) α} (κ₁ κ₂ : ℕ)
    (fd : Buf (Elt F) ((outOwn c).view.loc ((peer c o.val : Dev nD) : Thread nD τ)))
    (O : CellTallies nD τ sig Unit) (W : Waits sig Unit)
    (hland : ∀ i ∈ (outOwn c).view.set,
      (outOwn c).view.write (Elt F) fd ((outOwn c).view.read (Elt F) (outBufAt m c c)) Finset.univ i
        = outBufAt m (peer c o.val) c i) :
    iprop(cellInv ER (Rd m) κ₁ (agSendCell c o) ∗ cellInv ER (Rd m) κ₂ (agRecvCell (peer c o.val) o)
        ∗ ptsAt c (outOwn c) (shareOf o) (outBufAt m c c) ∗ ptsAt (peer c o.val) (outOwn c) fullShare fd
        ∗ owes (c : Thread nD τ) (O + tallyAt (agRecvCell (peer c o.val) o) () N) W
        ∗ dutyTok ER (agSendCell c o) 0 (0 : Fin 16) ∗ reached ER (agSendCell c o) 0
        ∗ dutyTok ER (agRecvCell (peer c o.val) o) 0 (0 : Fin 16) ∗ reached ER (agRecvCell (peer c o.val) o) 0)
      ⊢ iprop(((cred (tallyAt (agSendCell c o) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (outOwn c) (.remote (Dev.tc n : Thread nD τ) (outOwn c) (.dma (agSend o)) hsc) (.dma (agRecv o)) hsrc hdst hsem) k) Q) := by
  subst hn
  unfold ptsAt
  exact Rounds.wp_send_pointsTo 𝒱₀ ER (Rd m) (c : Thread nD τ) none (κ₁ := κ₁) (κ₂ := κ₂)
    (r₁ := 0) (r₂ := 0) (d₁ := (0 : Fin 16)) (d₂ := (0 : Fin 16)) (fs := outBufAt m c c) (fd := fd) (q := shareOf o)
    (by rw [duties_dma m c _ (used_dsem 36 _ rfl o ho)]; exact Finset.mem_singleton_self _)
    (by rw [duties_dma m (peer c o.val) _ (used_dsem 52 _ rfl o ho)]; exact Finset.mem_singleton_self _)
    () () N rfl (amount_dma m c _ 0) (amount_dma m (peer c o.val) _ 0) O rfl (W := W)
    (by rw [payload_agSend m c o 0]; unfold agSendPay ptsAt; exact BI.Entails.refl _)
    (by rw [payload_agRecv m (peer c o.val) o 0]; unfold agRecvPay ptsAt; rw [back_peer c o, pointsTo_congr hland])

/-! ## A wait on one of a device's own transfer cells -/

/-- A wait for one block's credit on a used transfer cell of the device's own, from the start of round 0: the device
    comes back at the start of round 1, round 1 reached, with the cell's one payload. -/
theorem wp_dma_wait (c : Dev nD) (q : DmaSem sig) (hq : Used q) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma q) N K)
    {α : Type} {Q : α → sProp 𝕄} {k : PUnit → Prog (TpuEff nD τ sig (Elt F) Λ₀ .tc) α} (κ : ℕ) (O : CellTallies nD τ sig Unit) (W : Waits sig Unit) :
    iprop(cellInv ER (Rd m) κ ((c : Thread nD τ), .dma q) ∗ cred (tallyAt ((c : Thread nD τ), .dma q) () N) ∗ owes (c : Thread nD τ) O W
        ∗ MayWait (c : Thread nD τ) (.dma q) () O ∗ atPos ER ((c : Thread nD τ), .dma q) 0 (∅ : Finset (Fin 16)) 0)
      ⊢ iprop(((owes (c : Thread nD τ) O (insert (.dma q, ()) W) ∗ atPos ER ((c : Thread nD τ), .dma q) 1 (∅ : Finset (Fin 16)) 0
              ∗ reached ER ((c : Thread nD τ), .dma q) 1 ∗ (Rd m).payload ((c : Thread nD τ), .dma q) 0 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := Rounds.wp_wait_rest_token 𝒱₀ ER (Rd m) (c : Thread nD τ) none (κ := κ) hw (Set.mem_univ _) (k := k) (Q := Q) ()
    (O := O) (W := W) (R := 0) (m := 0) (T := (∅ : Finset (Fin 16))) (by rw [expect_dma m c q hq]; exact Nat.zero_add N)
  rw [rest_dma m c q hq] at h
  exact h

/-- The wait on the scatter-send cell at offset `o`: the source row-block comes back. -/
theorem wp_rsSend_wait (c : Dev nD) (o : Fin 16) (ho : o ≠ 0) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (rsSend o)) N K)
    {α : Type} {Q : α → sProp 𝕄} {k : PUnit → Prog (TpuEff nD τ sig (Elt F) Λ₀ .tc) α} (κ : ℕ) (O : CellTallies nD τ sig Unit) (W : Waits sig Unit) :
    iprop(cellInv ER (Rd m) κ (rsSendCell c o) ∗ cred (tallyAt (rsSendCell c o) () N) ∗ owes (c : Thread nD τ) O W
        ∗ MayWait (c : Thread nD τ) (.dma (rsSend o)) () O ∗ atPos ER (rsSendCell c o) 0 (∅ : Finset (Fin 16)) 0)
      ⊢ iprop(((owes (c : Thread nD τ) O (insert (.dma (rsSend o), ()) W) ∗ atPos ER (rsSendCell c o) 1 (∅ : Finset (Fin 16)) 0
              ∗ reached ER (rsSendCell c o) 1 ∗ rsSendPay m c o)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := wp_dma_wait m c (rsSend o) (used_dsem 4 _ rfl o ho) hw (k := k) (Q := Q) κ O W
  rw [payload_rsSend m c o 0] at h
  exact h

/-- The wait on the scatter-receive cell at offset `o`: slot `o` of the temporary buffer comes, at its final contents. -/
theorem wp_rsRecv_wait (c : Dev nD) (o : Fin 16) (ho : o ≠ 0) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (rsRecv o)) N K)
    {α : Type} {Q : α → sProp 𝕄} {k : PUnit → Prog (TpuEff nD τ sig (Elt F) Λ₀ .tc) α} (κ : ℕ) (O : CellTallies nD τ sig Unit) (W : Waits sig Unit) :
    iprop(cellInv ER (Rd m) κ (rsRecvCell c o) ∗ cred (tallyAt (rsRecvCell c o) () N) ∗ owes (c : Thread nD τ) O W
        ∗ MayWait (c : Thread nD τ) (.dma (rsRecv o)) () O ∗ atPos ER (rsRecvCell c o) 0 (∅ : Finset (Fin 16)) 0)
      ⊢ iprop(((owes (c : Thread nD τ) O (insert (.dma (rsRecv o), ()) W) ∗ atPos ER (rsRecvCell c o) 1 (∅ : Finset (Fin 16)) 0
              ∗ reached ER (rsRecvCell c o) 1 ∗ rsRecvPay m c o)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := wp_dma_wait m c (rsRecv o) (used_dsem 20 _ rfl o ho) hw (k := k) (Q := Q) κ O W
  rw [payload_rsRecv m c o 0] at h
  exact h

/-- The wait on the gather-send cell at offset `o`: the share of the device's own block the copy read comes back. -/
theorem wp_agSend_wait (c : Dev nD) (o : Fin 16) (ho : o ≠ 0) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (agSend o)) N K)
    {α : Type} {Q : α → sProp 𝕄} {k : PUnit → Prog (TpuEff nD τ sig (Elt F) Λ₀ .tc) α} (κ : ℕ) (O : CellTallies nD τ sig Unit) (W : Waits sig Unit) :
    iprop(cellInv ER (Rd m) κ (agSendCell c o) ∗ cred (tallyAt (agSendCell c o) () N) ∗ owes (c : Thread nD τ) O W
        ∗ MayWait (c : Thread nD τ) (.dma (agSend o)) () O ∗ atPos ER (agSendCell c o) 0 (∅ : Finset (Fin 16)) 0)
      ⊢ iprop(((owes (c : Thread nD τ) O (insert (.dma (agSend o), ()) W) ∗ atPos ER (agSendCell c o) 1 (∅ : Finset (Fin 16)) 0
              ∗ reached ER (agSendCell c o) 1 ∗ agSendPay m c o)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := wp_dma_wait m c (agSend o) (used_dsem 36 _ rfl o ho) hw (k := k) (Q := Q) κ O W
  rw [payload_agSend m c o 0] at h
  exact h

/-- The wait on the gather-receive cell at offset `o`: the block of the device `o` places before comes, at its final contents. -/
theorem wp_agRecv_wait (c : Dev nD) (o : Fin 16) (ho : o ≠ 0) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (agRecv o)) N K)
    {α : Type} {Q : α → sProp 𝕄} {k : PUnit → Prog (TpuEff nD τ sig (Elt F) Λ₀ .tc) α} (κ : ℕ) (O : CellTallies nD τ sig Unit) (W : Waits sig Unit) :
    iprop(cellInv ER (Rd m) κ (agRecvCell c o) ∗ cred (tallyAt (agRecvCell c o) () N) ∗ owes (c : Thread nD τ) O W
        ∗ MayWait (c : Thread nD τ) (.dma (agRecv o)) () O ∗ atPos ER (agRecvCell c o) 0 (∅ : Finset (Fin 16)) 0)
      ⊢ iprop(((owes (c : Thread nD τ) O (insert (.dma (agRecv o), ()) W) ∗ atPos ER (agRecvCell c o) 1 (∅ : Finset (Fin 16)) 0
              ∗ reached ER (agRecvCell c o) 1 ∗ agRecvPay m c o)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := wp_dma_wait m c (agRecv o) (used_dsem 52 _ rfl o ho) hw (k := k) (Q := Q) κ O W
  rw [payload_agRecv m c o 0] at h
  exact h

/-! ## Closing a transfer cell -/

/-- A device at the start of round 1 of one of its transfer cells, nothing taken, closes the cell: no round from 1 on has
    a duty, so the counter reads zero, and it keeps the counter. -/
theorem dma_cell_close (c : Dev nD) (q : DmaSem sig) (κ : ℕ) :
    iprop(cellInv ER (Rd m) κ ((c : Thread nD τ), .dma q) ∗ atPos ER ((c : Thread nD τ), .dma q) 1 (∅ : Finset (Fin 16)) 0)
      ⊢ (iprop(|={Set.univ}=> semVal ((c : Thread nD τ), .dma q) 0) : sProp 𝕄) :=
  Rounds.cell_close ER (Rd m) (Set.mem_univ κ) (fun h => h) (R := 1) (duties_later m _)

end Cert.KernelIdeal.Proto

end
-- ==== Proof.StepsBar.lean ====
/-
  The wait on the barrier, with what it brings spelt at the peers.

  Duty `o'` of device `c`'s barrier cell is paid by the device `o'` places before `c`. The device `o` places AFTER `c`
  is `16 - o` places before it, so it pays duty `16 - o`, and what it hands over is the two places of its own buffers that
  `c`'s copies at offset `o` write: slot `o` of its temporary buffer and block `c` of its result, and that it has
  reached round 0 of the two cells those copies credit. The round's fifteen payloads are listed by the offset of the copies
  they serve, 1 to 15.
-/
import proofs.«900432_g7700000000000433_dist_gconv1d_cshard_i_b4_s512_c256_v7x_i16_bf16_1_alg».proof.Proof.Steps

set_option maxRecDepth 16384

noncomputable section

namespace Cert.KernelIdeal.Proto

open Cert.KernelIdeal Cert.KernelIdeal.Gen Cert.KernelIdeal.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => Variants.none

/-! ## One peer's payload, at the peer -/

/-- What the device `n` places after `c` hands `c` for its copies at offset `o`: slot `o` of its temporary buffer and
    block `c` of its result, each whole at some contents, and that it has reached round 0 of its scatter-receive and
    gather-receive cells at offset `o`. (`n` is the offset as a natural number: `n = o.val` where it is used.) -/
def peerPay (c : Dev nD) (n : Nat) (o : Fin 16) : sProp 𝕄 :=
  iprop((∃ f, ptsAt (peer c n) (tmpRow o) fullShare f) ∗ (∃ f, ptsAt (peer c n) (outOwn c) fullShare f)
    ∗ reached ER (rsRecvCell (peer c n) o) 0 ∗ reached ER (agRecvCell (peer c n) o) 0)

/-- Duty `16 - o` of `c`'s barrier cell is paid with the payload of the device `o` places after `c`. -/
theorem barPay_neg (c : Dev nD) (o : Fin 16) : barPay (F := F) c (negOff o) = peerPay c o.val o := by
  unfold barPay peerPay slotPts
  rw [back_negOff, negOff_negOff]

/-- The same with the payload written out. -/
theorem barPay_neg' (c : Dev nD) (o : Fin 16) :
    barPay (F := F) c (negOff o)
      = iprop((∃ f, ptsAt (peer c o.val) (tmpRow o) fullShare f) ∗ (∃ f, ptsAt (peer c o.val) (outOwn c) fullShare f)
          ∗ reached ER (rsRecvCell (peer c o.val) o) 0 ∗ reached ER (agRecvCell (peer c o.val) o) 0) :=
  barPay_neg c o

/-! ## The round's fifteen payloads, by the offset of the copies they serve -/

/-- The fifteen peers' payloads, offset 1 first. -/
def barPays (c : Dev nD) : sProp 𝕄 :=
  iprop(peerPay (F := F) c 1 (1 : Fin 16)
    ∗ peerPay (F := F) c 2 (2 : Fin 16)
    ∗ peerPay (F := F) c 3 (3 : Fin 16)
    ∗ peerPay (F := F) c 4 (4 : Fin 16)
    ∗ peerPay (F := F) c 5 (5 : Fin 16)
    ∗ peerPay (F := F) c 6 (6 : Fin 16)
    ∗ peerPay (F := F) c 7 (7 : Fin 16)
    ∗ peerPay (F := F) c 8 (8 : Fin 16)
    ∗ peerPay (F := F) c 9 (9 : Fin 16)
    ∗ peerPay (F := F) c 10 (10 : Fin 16)
    ∗ peerPay (F := F) c 11 (11 : Fin 16)
    ∗ peerPay (F := F) c 12 (12 : Fin 16)
    ∗ peerPay (F := F) c 13 (13 : Fin 16)
    ∗ peerPay (F := F) c 14 (14 : Fin 16)
    ∗ peerPay (F := F) c 15 (15 : Fin 16))

/-- The fifteen duties 1, …, 15 listed as 16 - 1, …, 16 - 15. -/
theorem erase_zero_eq : (Finset.univ.erase (0 : Fin 16)) = ([negOff (1 : Fin 16), negOff (2 : Fin 16), negOff (3 : Fin 16), negOff (4 : Fin 16), negOff (5 : Fin 16), negOff (6 : Fin 16), negOff (7 : Fin 16), negOff (8 : Fin 16), negOff (9 : Fin 16), negOff (10 : Fin 16), negOff (11 : Fin 16), negOff (12 : Fin 16), negOff (13 : Fin 16), negOff (14 : Fin 16), negOff (15 : Fin 16)]).toFinset := by decide

/-- The rest of the barrier cell's round, opened and re-spelt at the peers. -/
theorem rest_bar_peers (c : Dev nD) :
    bigSep (Finset.univ.erase (0 : Fin 16)) (fun o => barPay (F := F) c o) = barPays c := by
  rw [bigSep_eq_bigSepL_of_eq [negOff (1 : Fin 16), negOff (2 : Fin 16), negOff (3 : Fin 16), negOff (4 : Fin 16), negOff (5 : Fin 16), negOff (6 : Fin 16), negOff (7 : Fin 16), negOff (8 : Fin 16), negOff (9 : Fin 16), negOff (10 : Fin 16), negOff (11 : Fin 16), negOff (12 : Fin 16), negOff (13 : Fin 16), negOff (14 : Fin 16), negOff (15 : Fin 16)] erase_zero_eq (by decide)]
  show iprop(barPay (F := F) c (negOff (1 : Fin 16)) ∗ barPay (F := F) c (negOff (2 : Fin 16)) ∗ barPay (F := F) c (negOff (3 : Fin 16)) ∗ barPay (F := F) c (negOff (4 : Fin 16)) ∗ barPay (F := F) c (negOff (5 : Fin 16)) ∗ barPay (F := F) c (negOff (6 : Fin 16)) ∗ barPay (F := F) c (negOff (7 : Fin 16)) ∗ barPay (F := F) c (negOff (8 : Fin 16)) ∗ barPay (F := F) c (negOff (9 : Fin 16)) ∗ barPay (F := F) c (negOff (10 : Fin 16)) ∗ barPay (F := F) c (negOff (11 : Fin 16)) ∗ barPay (F := F) c (negOff (12 : Fin 16)) ∗ barPay (F := F) c (negOff (13 : Fin 16)) ∗ barPay (F := F) c (negOff (14 : Fin 16)) ∗ barPay (F := F) c (negOff (15 : Fin 16))) = _
  rw [barPay_neg c (1 : Fin 16), barPay_neg c (2 : Fin 16), barPay_neg c (3 : Fin 16), barPay_neg c (4 : Fin 16), barPay_neg c (5 : Fin 16), barPay_neg c (6 : Fin 16), barPay_neg c (7 : Fin 16), barPay_neg c (8 : Fin 16), barPay_neg c (9 : Fin 16), barPay_neg c (10 : Fin 16), barPay_neg c (11 : Fin 16), barPay_neg c (12 : Fin 16), barPay_neg c (13 : Fin 16), barPay_neg c (14 : Fin 16), barPay_neg c (15 : Fin 16)]
  rfl

variable (m : (ℓ : Loc nD τ sig) → Buf (Elt F) ℓ)

/-! ## The wait, and the closing of the cell -/

/-- A wait for fifteen units on the device's own barrier cell, from the start of round 0: the device comes back at the
    start of round 1, round 1 reached, with the rest of the round's payloads. -/
theorem wp_bar_wait_of (c : Dev nD) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.reg barS) 15 K)
    {α : Type} {Q : α → sProp 𝕄} {k : PUnit → Prog (TpuEff nD τ sig (Elt F) Λ₀ .tc) α} (κ : ℕ) (O : CellTallies nD τ sig Unit) (W : Waits sig Unit) :
    iprop(cellInv ER (Rd m) κ (barCell c) ∗ cred (tallyAt (barCell c) () 15) ∗ owes (c : Thread nD τ) O W
        ∗ MayWait (c : Thread nD τ) (.reg barS) () O ∗ atPos ER (barCell c) 0 (∅ : Finset (Fin 16)) 0)
      ⊢ iprop(((owes (c : Thread nD τ) O (insert (.reg barS, ()) W) ∗ atPos ER (barCell c) 1 (∅ : Finset (Fin 16)) 0
              ∗ reached ER (barCell c) 1 ∗ bigSep (Finset.univ.erase (0 : Fin 16)) (fun o => barPay (F := F) c o))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := Rounds.wp_wait_rest_token 𝒱₀ ER (Rd m) (c : Thread nD τ) none (κ := κ) hw (Set.mem_univ _) (k := k) (Q := Q) ()
    (O := O) (W := W) (R := 0) (m := 0) (T := (∅ : Finset (Fin 16))) (by rw [expect_bar m c])
  rw [rest_bar m c] at h
  exact h

/-- THE WAIT FOR THE FIFTEEN SIGNALS, as the body has it: the fifteen peers' payloads come, by offset. -/
theorem wp_bar_wait (c : Dev nD) (κ : ℕ) {α : Type} {Q : α → sProp 𝕄} {k : PUnit → Prog (TpuEff nD τ sig (Elt F) Λ₀ .tc) α}
    (O : CellTallies nD τ sig Unit) (W : Waits sig Unit) :
    iprop(cellInv ER (Rd m) κ (barCell c) ∗ cred (tallyAt (barCell c) () 15) ∗ owes (c : Thread nD τ) O W
        ∗ MayWait (c : Thread nD τ) (.reg barS) () O ∗ atPos ER (barCell c) 0 (∅ : Finset (Fin 16)) 0)
      ⊢ iprop(((owes (c : Thread nD τ) O (insert (.reg barS, ()) W) ∗ atPos ER (barCell c) 1 (∅ : Finset (Fin 16)) 0
              ∗ reached ER (barCell c) 1 ∗ barPays (F := F) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (15#32).toNat) k) Q) := by
  have h := wp_bar_wait_of m c (w := TpuEff.semWait barS (15#32).toNat)
    (fun K => wpE_semWait_eq 𝒱₀ (c : Thread nD τ) none Set.univ K) (k := k) (Q := Q) κ O W
  rw [rest_bar_peers c] at h
  exact h

/-- A device at the start of round 1 of its barrier cell, nothing taken, closes the cell and keeps the counter at zero. -/
theorem bar_cell_close (c : Dev nD) (κ : ℕ) :
    iprop(cellInv ER (Rd m) κ (barCell c) ∗ atPos ER (barCell c) 1 (∅ : Finset (Fin 16)) 0)
      ⊢ (iprop(|={Set.univ}=> semVal (barCell c) 0) : sProp 𝕄) :=
  Rounds.cell_close ER (Rd m) (Set.mem_univ κ) (fun h => h) (R := 1) (duties_later m _)

end Cert.KernelIdeal.Proto

end
-- ==== Proof.LandingSets.lean ====
/-
  Which elements of their buffers the kernel's slices hold.

  The partial-product buffer and the temporary buffer are sixteen row-blocks of 128 rows; the result's buffer is four
  batches of 512 rows, cut into sixteen blocks of 128 rows: block j is batch j / 4, rows (j mod 4) * 128 onward.
-/
import proofs.«900432_g7700000000000433_dist_gconv1d_cshard_i_b4_s512_c256_v7x_i16_bf16_1_alg».proof.Proof.Protocol
import Idealize.ShloMosaic.Lib.Pipeline.Value
import Idealize.ShloMosaic.Lib.ValueIdx
import Idealize.ShloMosaic.Lib.ValueLayout

set_option maxRecDepth 16384

noncomputable section

namespace Cert.KernelIdeal.Proto

open Cert.KernelIdeal Cert.KernelIdeal.Gen Cert.KernelIdeal.Chains
open Idealize.ShloMosaic Idealize.ShloMosaic.TcCoe Idealize.SL.Sem

variable {F : FTy → Type} [FloatOps F]

/-! ## Which elements each slice holds -/

/-- The elements of slot o of the temporary buffer are those of the rectangle it was cut by. -/
theorem set_tmpRow (o : Fin 16) :
    (tmpRow o).view.set = (Rect.unit (s := S16x128x256) ![o.val, 0, 0] S1x128x256.size (inbRow o)).set := by
  unfold tmpRow; exact (View.set_reshape _ _).trans (View.set_slice_whole _ _)

/-- The elements of the source of the scatter copy at offset o are those of the rectangle it was cut by. -/
theorem set_accSrc (c : Dev nD) (o : Fin 16) :
    (accSrc c o).view.set = (Rect.unit (s := S16x128x256) (k0_off1 c (BitVec.ofNat 32 (1 + (predOff o).val)))
      S1x128x256.size (k0_off1_inb c (predOff o))).set := by
  unfold accSrc; exact (View.set_reshape _ _).trans (View.set_slice_whole _ _)

/-- The elements of the block of the result a device owns are those of the rectangle it was cut by. -/
theorem set_outOwn (j : Dev nD) :
    (outOwn j).view.set = (Rect.unit (s := S4x512x256) (k0_off4 j) S1x128x256.size (k0_off4_inb j)).set := by
  unfold outOwn; exact (View.set_reshape _ _).trans (View.set_slice_whole _ _)

/-- Slot o of the temporary buffer is its row-block o. -/
theorem mem_tmpRow (o : Fin 16) (i : S16x128x256.Idx) : i ∈ (tmpRow o).view.set ↔ (i 0).val = o.val := by
  refine ((Finset.ext_iff.mp (set_tmpRow o) i).trans Rect.mem_set_unit).trans ?_
  constructor
  · intro h
    have h0 : o.val ≤ (i 0).val ∧ (i 0).val < o.val + 1 := h 0
    omega
  · intro h a
    match a with
    | ⟨0, _⟩ => show o.val ≤ (i 0).val ∧ (i 0).val < o.val + 1; omega
    | ⟨1, _⟩ => show 0 ≤ (i 1).val ∧ (i 1).val < 0 + 128; have h1 : (i 1).val < 128 := (i 1).isLt; omega
    | ⟨2, _⟩ => show 0 ≤ (i 2).val ∧ (i 2).val < 0 + 256; have h2 : (i 2).val < 256 := (i 2).isLt; omega

/-- The source of device c's scatter copy at offset o (o = 1, …, 15) is row-block (c + o) mod 16 of its partial product. -/
theorem mem_accSrc (c : Dev nD) (o : Fin 16) (ho : o ≠ 0) (i : S16x128x256.Idx) :
    i ∈ (accSrc c o).view.set ↔ (i 0).val = (c.val + o.val) % 16 := by
  refine ((Finset.ext_iff.mp (set_accSrc c o) i).trans Rect.mem_set_unit).trans ?_
  have hp : 1 + (predOff o).val = o.val := by
    have : o.val ≠ 0 := fun h => ho (Fin.ext h)
    show 1 + (o.val - 1) = o.val; omega
  rw [off1_eq c (predOff o), hp]
  constructor
  · intro h
    have h0 : (c.val + o.val) % 16 ≤ (i 0).val ∧ (i 0).val < (c.val + o.val) % 16 + 1 := h 0
    omega
  · intro h a
    match a with
    | ⟨0, _⟩ => show (c.val + o.val) % 16 ≤ (i 0).val ∧ (i 0).val < (c.val + o.val) % 16 + 1; omega
    | ⟨1, _⟩ => show 0 ≤ (i 1).val ∧ (i 1).val < 0 + 128; have h1 : (i 1).val < 128 := (i 1).isLt; omega
    | ⟨2, _⟩ => show 0 ≤ (i 2).val ∧ (i 2).val < 0 + 256; have h2 : (i 2).val < 256 := (i 2).isLt; omega

/-- The block of the result device j owns is batch j / 4, rows (j mod 4) * 128 to (j mod 4) * 128 + 127. -/
theorem mem_outOwn (j : Dev nD) (i : S4x512x256.Idx) :
    i ∈ (outOwn j).view.set ↔ (i 0).val = j.val / 4 ∧ (i 1).val / 128 = j.val % 4 := by
  refine ((Finset.ext_iff.mp (set_outOwn j) i).trans Rect.mem_set_unit).trans ?_
  rw [off4_eq j]
  constructor
  · intro h
    have h0 : j.val / 4 ≤ (i 0).val ∧ (i 0).val < j.val / 4 + 1 := h 0
    have h1 : j.val % 4 * 128 ≤ (i 1).val ∧ (i 1).val < j.val % 4 * 128 + 128 := h 1
    constructor <;> omega
  · rintro ⟨h0, h1⟩ a
    match a with
    | ⟨0, _⟩ => show j.val / 4 ≤ (i 0).val ∧ (i 0).val < j.val / 4 + 1; omega
    | ⟨1, _⟩ => show j.val % 4 * 128 ≤ (i 1).val ∧ (i 1).val < j.val % 4 * 128 + 128; omega
    | ⟨2, _⟩ => show 0 ≤ (i 2).val ∧ (i 2).val < 0 + 256; have h2 : (i 2).val < 256 := (i 2).isLt; omega

end Cert.KernelIdeal.Proto

end
-- ==== Proof.Landing.lean ====
/-
  What the copies, loads and stores through the kernel's slices leave (any float instance).

  An element (r, h) of a 128 x 256 slice that is row-block q of a sixteen-block buffer sits at (q, r, h); of the block of
  the result that device j owns, at (j / 4, (j mod 4) * 128 + r, h). A copy writes at each element of the destination slice
  what the source slice reads at the same (r, h); so the scatter copy at offset o puts row-block (c + o) mod 16 of device
  c's partial product into slot o of the device o places on, and the gather copy puts a device's own block into the same
  block of another device's result.
-/
import proofs.«900432_g7700000000000433_dist_gconv1d_cshard_i_b4_s512_c256_v7x_i16_bf16_1_alg».proof.Proof.LandingSets

set_option maxRecDepth 16384

noncomputable section

namespace Cert.KernelIdeal.Proto

open Cert.KernelIdeal Cert.KernelIdeal.Gen Cert.KernelIdeal.Chains
open Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## Where an element of each slice sits -/

/-- Element (r, h) of slot o of the temporary buffer sits at (o, r, h). -/
theorem emb_tmpRow (o : Fin 16) (r : Fin 128) (h : Fin 256) : (tmpRow o).view.emb (ix2 r h) = ix3 o r h := by
  unfold tmpRow
  refine (congrArg (Rect.unit (s := S16x128x256) ![o.val, 0, 0] S1x128x256.size (inbRow o)).emb
    (reshapeEquiv_ix2_1ab (a := 128) (b := 256) _ r h)).trans ?_
  funext a
  refine Fin.ext ?_
  match a with
  | ⟨0, _⟩ => show o.val + 1 * 0 = o.val; omega
  | ⟨1, _⟩ => show 0 + 1 * r.val = r.val; omega
  | ⟨2, _⟩ => show 0 + 1 * h.val = h.val; omega

/-- Element (r, h) of the source of device c's scatter copy at offset o sits at ((c + o) mod 16, r, h). -/
theorem emb_accSrc (c : Dev nD) (o : Fin 16) (ho : o ≠ 0) (r : Fin 128) (h : Fin 256) :
    (accSrc c o).view.emb (ix2 r h) = ix3 (peer c o.val) r h := by
  have hp : 1 + (predOff o).val = o.val := by
    have : o.val ≠ 0 := fun h => ho (Fin.ext h)
    show 1 + (o.val - 1) = o.val; omega
  have hoff := off1_eq c (predOff o)
  unfold accSrc
  refine (congrArg (Rect.unit (s := S16x128x256) (k0_off1 c (BitVec.ofNat 32 (1 + (predOff o).val))) S1x128x256.size
    (k0_off1_inb c (predOff o))).emb (reshapeEquiv_ix2_1ab (a := 128) (b := 256) _ r h)).trans ?_
  funext a
  refine Fin.ext ?_
  match a with
  | ⟨0, _⟩ =>
    show (k0_off1 c (BitVec.ofNat 32 (1 + (predOff o).val))) 0 + 1 * 0 = (c.val + o.val) % 16
    rw [hoff, hp]; show (c.val + o.val) % 16 + 1 * 0 = _; omega
  | ⟨1, _⟩ =>
    show (k0_off1 c (BitVec.ofNat 32 (1 + (predOff o).val))) 1 + 1 * r.val = r.val
    rw [hoff]; show 0 + 1 * r.val = r.val; omega
  | ⟨2, _⟩ =>
    show (k0_off1 c (BitVec.ofNat 32 (1 + (predOff o).val))) 2 + 1 * h.val = h.val
    rw [hoff]; show 0 + 1 * h.val = h.val; omega

/-- The batch and the row of element (r, ·) of the block of the result device j owns. -/
def outB (j : Dev nD) : Fin 4 := ⟨j.val / 4, by have hj : j.val < 16 := j.isLt; omega⟩
def outS (j : Dev nD) (r : Fin 128) : Fin 512 := ⟨j.val % 4 * 128 + r.val, by have := r.isLt; omega⟩

/-- Element (r, h) of the block of the result device j owns sits at (j / 4, (j mod 4) * 128 + r, h). -/
theorem emb_outOwn (j : Dev nD) (r : Fin 128) (h : Fin 256) :
    (outOwn j).view.emb (ix2 r h) = ix3 (outB j) (outS j r) h := by
  have hoff := off4_eq j
  unfold outOwn
  refine (congrArg (Rect.unit (s := S4x512x256) (k0_off4 j) S1x128x256.size (k0_off4_inb j)).emb
    (reshapeEquiv_ix2_1ab (a := 128) (b := 256) _ r h)).trans ?_
  funext a
  refine Fin.ext ?_
  match a with
  | ⟨0, _⟩ => show (k0_off4 j) 0 + 1 * 0 = j.val / 4; rw [hoff]; show j.val / 4 + 1 * 0 = _; omega
  | ⟨1, _⟩ =>
    show (k0_off4 j) 1 + 1 * r.val = j.val % 4 * 128 + r.val
    rw [hoff]; show j.val % 4 * 128 + 1 * r.val = _; omega
  | ⟨2, _⟩ => show (k0_off4 j) 2 + 1 * h.val = h.val; rw [hoff]; show 0 + 1 * h.val = h.val; omega

/-! ## A copy, element by element -/

/-- What a copy from a view src into a view dst of the same shape leaves at the element of dst under y: what the
    source's buffer held at the element of src under y (the two element types are one type, so the statement is up to
    that identification). -/
theorem copy_at {sig : RefSig} {κ κ' : Kind} {sp sp' : Space} {s : Shape} {e : EltTy} {Val : EltTy → Type}
    (dst : View sig κ sp s e) (src : View sig κ' sp' s e) (fd : dst.ty.Contents Val) (fs : src.ty.Contents Val) (y : s.Idx) :
    HEq (dst.write Val fd (src.read Val fs) Finset.univ (dst.emb y)) (fs (src.emb y)) := by
  rw [View.write_emb_of_mem _ _ (Finset.mem_univ y), View.read_apply]
  exact (cast_heq _ _).trans (cast_heq _ _)

/-- THE SCATTER LANDING: the copy at offset o from device c leaves, in slot o of the temporary buffer of the device o
    places on, what that buffer holds once every scatter copy has landed. -/
theorem scatter_landing (c : Dev nD) (o : Fin 16) (ho : o ≠ 0)
    (fd : Buf (Elt F) ((tmpRow o).view.loc ((peer c o.val : Dev nD) : Thread nD τ))) :
    ∀ i ∈ (tmpRow o).view.set,
      (tmpRow o).view.write (Elt F) fd ((accSrc c o).view.read (Elt F) (accBufAt m c o)) Finset.univ i
        = tmpBufAt m (peer c o.val) o i := by
  intro i hi
  obtain ⟨y, rfl⟩ := View.exists_emb_of_mem_set _ hi
  obtain ⟨r, h, rfl⟩ : ∃ (r : Fin 128) (h : Fin 256), y = ix2 r h := ⟨y 0, y 1, eq_ix2 y⟩
  refine eq_of_heq ((copy_at (tmpRow o).view (accSrc c o).view fd (accBufAt m c o) (ix2 r h)).trans (heq_of_eq ?_))
  rw [emb_accSrc c o ho, emb_tmpRow]
  show partialOf m c (ix3 (peer c o.val) r h) = partialOf m (back (peer c o.val) o.val) (ix3 (peer c o.val) r h)
  rw [back_peer]

/-- THE GATHER LANDING: a copy of a device's own block of the result, holding what the gathered result holds there,
    into the same block of another device's result leaves what the gathered result holds there. -/
theorem gather_landing (c e : Dev nD)
    (fs : Buf (Elt F) ((outOwn c).view.loc ((c : Dev nD) : Thread nD τ)))
    (hfs : ∀ i ∈ (outOwn c).view.set, fs i = outFull m i)
    (fd : Buf (Elt F) ((outOwn c).view.loc ((e : Dev nD) : Thread nD τ))) :
    ∀ i ∈ (outOwn c).view.set,
      (outOwn c).view.write (Elt F) fd ((outOwn c).view.read (Elt F) fs) Finset.univ i = outFull m i := by
  intro i hi
  obtain ⟨y, rfl⟩ := View.exists_emb_of_mem_set _ hi
  exact eq_of_heq ((copy_at (outOwn c).view (outOwn c).view fd fs y).trans (heq_of_eq (hfs _ ((outOwn c).view.emb_mem_set y))))

/-! ## The loads -/

/-- A SLOT'S LOAD: the load of row-block n of the temporary buffer of device e, once that slot holds what the landed
    scatter copies leave, reads row-block e of the partial product of the device n places before e. -/
theorem load_slot (e : Dev nD) (n : Nat) (hn : n < 16)
    (inb : ∀ a, (![n, 0, 0] : Fin 3 → Nat) a + S1x128x256.size a ≤ S16x128x256.size a)
    (f : tmpM.view.ty.Contents (Elt F))
    (hf : ∀ i ∈ (tmpRow ⟨n, hn⟩).view.set, f i = tmpFull m e i) :
    tmpM.view.readAt (Elt F) (Rect.unit (s := S16x128x256) ![n, 0, 0] S1x128x256.size inb).toLoadRect f
      = rowOf m (back e n) e := by
  funext x
  obtain ⟨u, r, h, rfl⟩ : ∃ (u : Fin 1) (r : Fin 128) (h : Fin 256), x = ix3 u r h := ⟨x 0, x 1, x 2, eq_ix3 x⟩
  have hu : u.val = 0 := by omega
  have hidx : (Rect.unit (s := S16x128x256) ![n, 0, 0] S1x128x256.size inb).toLoadRect.idx (ix3 u r h)
      = ix3 (⟨n, hn⟩ : Fin 16) r h := by
    funext a
    refine Fin.ext ?_
    match a with
    | ⟨0, _⟩ => show n + 1 * u.val = n; omega
    | ⟨1, _⟩ => show 0 + 1 * r.val = r.val; omega
    | ⟨2, _⟩ => show 0 + 1 * h.val = h.val; omega
  show f ((Rect.unit (s := S16x128x256) ![n, 0, 0] S1x128x256.size inb).toLoadRect.idx (ix3 u r h)) = _
  rw [hidx, hf _ ((mem_tmpRow ⟨n, hn⟩ _).mpr rfl)]
  rfl

/-- THE OWN ROW'S LOAD: the load of a device's own row-block of its partial product reads that row-block. -/
theorem load_own (c : Dev nD) :
    accM.view.readAt (Elt F) (Rect.unit (s := S16x128x256) (k0_off2 c) S1x128x256.size (k0_off2_inb c)).toLoadRect
      (partialOf m c) = rowOf m c c := by
  have hoff := k0_off2_eq c
  funext x
  obtain ⟨u, r, h, rfl⟩ : ∃ (u : Fin 1) (r : Fin 128) (h : Fin 256), x = ix3 u r h := ⟨x 0, x 1, x 2, eq_ix3 x⟩
  have hu : u.val = 0 := by omega
  have hidx : (Rect.unit (s := S16x128x256) (k0_off2 c) S1x128x256.size (k0_off2_inb c)).toLoadRect.idx (ix3 u r h)
      = ix3 c r h := by
    funext a
    refine Fin.ext ?_
    match a with
    | ⟨0, _⟩ => show (k0_off2 c) 0 + 1 * u.val = c.val; rw [hoff]; show c.val + 1 * u.val = c.val; omega
    | ⟨1, _⟩ => show (k0_off2 c) 1 + 1 * r.val = r.val; rw [hoff]; show 0 + 1 * r.val = r.val; omega
    | ⟨2, _⟩ => show (k0_off2 c) 2 + 1 * h.val = h.val; rw [hoff]; show 0 + 1 * h.val = h.val; omega
  show partialOf m c ((Rect.unit (s := S16x128x256) (k0_off2 c) S1x128x256.size (k0_off2_inb c)).toLoadRect.idx (ix3 u r h)) = _
  rw [hidx]
  rfl

/-! ## The store of the sum -/

/-- The block that holds row (j / 4, (j mod 4) * 128 + r) of the result is block j, and the row inside it is r. -/
theorem blkOf_out (j : Dev nD) (r : Fin 128) : blkOf (outB j) (outS j r) = j := by
  have hj : j.val < 16 := j.isLt
  have hr := r.isLt
  refine Fin.ext ?_
  show j.val / 4 * 4 + (j.val % 4 * 128 + r.val) / 128 = j.val
  omega

theorem outS_mod (j : Dev nD) (r : Fin 128) : (outS j r).val % 128 = r.val := by
  have hr := r.isLt
  show (j.val % 4 * 128 + r.val) % 128 = r.val
  omega

/-- THE STORE OF THE SUM: the store of device c's sum through the rectangle the kernel computes, over any contents,
    leaves on the block device c owns what the gathered result holds there. -/
theorem store_sum (c : Dev nD) (f : oM.view.ty.Contents (Elt F)) :
    ∀ i ∈ (outOwn c).view.set,
      (oM.access (Rect.unit (s := S4x512x256) (k0_off3 c) S1x128x256.size (k0_off3_inb c))).write (Elt F) f (redOf m c)
        Finset.univ i = outFull m i := by
  intro i hi
  obtain ⟨y, rfl⟩ := View.exists_emb_of_mem_set _ hi
  obtain ⟨r, h, rfl⟩ : ∃ (r : Fin 128) (h : Fin 256), y = ix2 r h := ⟨y 0, y 1, eq_ix2 y⟩
  have hoff := off3_eq c
  have hemb : (oM.access (Rect.unit (s := S4x512x256) (k0_off3 c) S1x128x256.size (k0_off3_inb c))).emb (ix3 (0 : Fin 1) r h)
      = (outOwn c).view.emb (ix2 r h) := by
    rw [emb_outOwn]
    funext a
    refine Fin.ext ?_
    match a with
    | ⟨0, _⟩ => show (k0_off3 c) 0 + 1 * 0 = c.val / 4; rw [hoff]; show c.val / 4 + 1 * 0 = _; omega
    | ⟨1, _⟩ =>
      show (k0_off3 c) 1 + 1 * r.val = c.val % 4 * 128 + r.val
      rw [hoff]; show c.val % 4 * 128 + 1 * r.val = _; omega
    | ⟨2, _⟩ => show (k0_off3 c) 2 + 1 * h.val = h.val; rw [hoff]; show 0 + 1 * h.val = h.val; omega
  rw [← hemb, View.write_emb_of_mem _ _ (Finset.mem_univ _), hemb, emb_outOwn]
  refine eq_of_heq ((cast_heq _ _).trans (heq_of_eq ?_))
  show redOf m c (ix3 (0 : Fin 1) r h)
    = redOf m (blkOf (outB c) (outS c r)) (ix3 (0 : Fin 1) ⟨(outS c r).val % 128, Nat.mod_lt _ (by decide)⟩ h)
  rw [blkOf_out]
  exact congrArg (redOf m c) (by
    funext a
    refine Fin.ext ?_
    match a with
    | ⟨0, _⟩ => rfl
    | ⟨1, _⟩ => exact (outS_mod c r).symm
    | ⟨2, _⟩ => rfl)

/-! ## The regions: sixteen disjoint row-blocks that cover each buffer -/

/-- Slots of the temporary buffer at different offsets share no element. -/
theorem tmpRow_disjoint (o o' : Fin 16) (h : o ≠ o') : Disjoint (tmpRow o).view.set (tmpRow o').view.set :=
  Finset.disjoint_left.mpr fun i hi hi' => h (Fin.ext (((mem_tmpRow o i).mp hi).symm.trans ((mem_tmpRow o' i).mp hi')))

/-- Every element of the temporary buffer is in the slot its first coordinate names. -/
theorem tmpRow_cover (i : S16x128x256.Idx) : i ∈ (tmpRow (i 0)).view.set := (mem_tmpRow (i 0) i).mpr rfl

/-- The sources of a device's scatter copies at different offsets share no element. -/
theorem accSrc_disjoint (c : Dev nD) (o o' : Fin 16) (ho : o ≠ 0) (ho' : o' ≠ 0) (h : o ≠ o') :
    Disjoint (accSrc c o).view.set (accSrc c o').view.set :=
  Finset.disjoint_left.mpr fun i hi hi' => h (Fin.ext (by
    have h1 := (mem_accSrc c o ho i).mp hi
    have h2 := (mem_accSrc c o' ho' i).mp hi'
    have hc : c.val < 16 := c.isLt
    have := o.isLt; have := o'.isLt
    omega))

/-- A source of a scatter copy holds no element of the device's own row-block. -/
theorem accSrc_not_own (c : Dev nD) (o : Fin 16) (ho : o ≠ 0) (i : S16x128x256.Idx) (hi : i ∈ (accSrc c o).view.set) :
    (i 0).val ≠ c.val := by
  have h1 := (mem_accSrc c o ho i).mp hi
  have hc : c.val < 16 := c.isLt
  have := o.isLt
  have : o.val ≠ 0 := fun h => ho (Fin.ext h)
  omega

/-- Every element of the partial-product buffer is in the device's own row-block or in the source of the scatter copy at
    the offset its first coordinate is ahead of the device. -/
theorem accSrc_cover (c : Dev nD) (i : S16x128x256.Idx) (hi : (i 0).val ≠ c.val) :
    ∃ o : Fin 16, o ≠ 0 ∧ i ∈ (accSrc c o).view.set := by
  have hc : c.val < 16 := c.isLt
  have h0 : (i 0).val < 16 := (i 0).isLt
  refine ⟨⟨((i 0).val + 16 - c.val) % 16, Nat.mod_lt _ (by decide)⟩, fun h => ?_, ?_⟩
  · have := congrArg Fin.val h
    have : ((i 0).val + 16 - c.val) % 16 = 0 := this
    omega
  · refine (mem_accSrc c _ (fun h => ?_) i).mpr ?_
    · have := congrArg Fin.val h
      have : ((i 0).val + 16 - c.val) % 16 = 0 := this
      omega
    · show (i 0).val = (c.val + ((i 0).val + 16 - c.val) % 16) % 16
      omega

/-- The blocks of the result two different devices own share no element. -/
theorem outOwn_disjoint (j j' : Dev nD) (h : j ≠ j') : Disjoint (outOwn j).view.set (outOwn j').view.set :=
  Finset.disjoint_left.mpr fun i hi hi' => h (Fin.ext (by
    have h1 := (mem_outOwn j i).mp hi
    have h2 := (mem_outOwn j' i).mp hi'
    omega))

/-- Every element of the result is in the block of the device that holds its row. -/
theorem outOwn_cover (i : S4x512x256.Idx) : i ∈ (outOwn (blkOf (i 0) (i 1))).view.set := by
  have h0 : (i 0).val < 4 := (i 0).isLt
  have h1 : (i 1).val < 512 := (i 1).isLt
  refine (mem_outOwn _ i).mpr ⟨?_, ?_⟩
  · show (i 0).val = ((i 0).val * 4 + (i 1).val / 128) / 4; omega
  · show (i 1).val / 128 = ((i 0).val * 4 + (i 1).val / 128) % 4; omega

end Cert.KernelIdeal.Proto

end
-- ==== Proof.Carve.lean ====
/-
  The kernel's buffers cut into the pieces its copies and loads use.

  A whole buffer held at one share is the separating conjunction of its sixteen row-blocks held at that share: the blocks
  are pairwise disjoint and cover the buffer. The temporary buffer is cut into its sixteen slots; the partial-product
  buffer into the device's own row-block and the fifteen sources of its scatter copies; the result's buffer into the block
  the device owns and the fifteen blocks the other devices own, counted along the ring from the device.
-/
import proofs.«900432_g7700000000000433_dist_gconv1d_cshard_i_b4_s512_c256_v7x_i16_bf16_1_alg».proof.Proof.Landing
import Idealize.ShloMosaic.Rules.PointsTo

set_option maxRecDepth 16384

noncomputable section

namespace Cert.KernelIdeal.Proto

open Cert.KernelIdeal Cert.KernelIdeal.Gen Cert.KernelIdeal.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sixteen conjuncts -/

/-- A separating conjunction over sixteen indices, written out. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

/-! ## The temporary buffer and its sixteen slots -/

/-- Slot o's elements, as elements of device c's temporary buffer. -/
def tmpSet (c : Dev nD) (o : Fin 16) : Finset (Idx ((c : Thread nD τ).loc cc0_scratch1)) := (tmpRow o).view.set

/-- The sixteen slots together are the whole temporary buffer. -/
theorem tmp_union (c : Dev nD) : (Finset.univ : Finset (Fin 16)).biUnion (tmpSet c) = Finset.univ :=
  Finset.eq_univ_iff_forall.mpr fun i =>
    Finset.mem_biUnion.mpr ⟨(show S16x128x256.Idx from i) 0, Finset.mem_univ _, tmpRow_cover i⟩

/-- The temporary buffer at one share and contents is its sixteen slots at that share and contents. -/
theorem tmp_eq (c : Dev nD) (q : PosShare TreeShare) (f : Buf (Elt F) ((c : Thread nD τ).loc cc0_scratch1)) :
    ((c : Thread nD τ).loc cc0_scratch1 ↦{q} f : sProp 𝕄)
      = iprop(ptsAt c (tmpRow 0) q f ∗ ptsAt c (tmpRow 1) q f ∗ ptsAt c (tmpRow 2) q f ∗ ptsAt c (tmpRow 3) q f ∗ ptsAt c (tmpRow 4) q f ∗ ptsAt c (tmpRow 5) q f ∗ ptsAt c (tmpRow 6) q f ∗ ptsAt c (tmpRow 7) q f ∗ ptsAt c (tmpRow 8) q f ∗ ptsAt c (tmpRow 9) q f ∗ ptsAt c (tmpRow 10) q f ∗ ptsAt c (tmpRow 11) q f ∗ ptsAt c (tmpRow 12) q f ∗ ptsAt c (tmpRow 13) q f ∗ ptsAt c (tmpRow 14) q f ∗ ptsAt c (tmpRow 15) q f) := by
  rw [← tmp_union c, pointsTo_biUnion _ (tmpSet c) (fun o _ o' _ h => tmpRow_disjoint o o' h), bigSep_fin16]
  rfl

/-- THE CUT of the temporary buffer into its sixteen slots. -/
theorem tmp_cut (c : Dev nD) (f : Buf (Elt F) ((c : Thread nD τ).loc cc0_scratch1)) :
    ((c : Thread nD τ).loc cc0_scratch1 ↦{fullShare} f : sProp 𝕄)
      ⊢ iprop(ptsAt c (tmpRow 0) fullShare f ∗ ptsAt c (tmpRow 1) fullShare f ∗ ptsAt c (tmpRow 2) fullShare f ∗ ptsAt c (tmpRow 3) fullShare f ∗ ptsAt c (tmpRow 4) fullShare f ∗ ptsAt c (tmpRow 5) fullShare f ∗ ptsAt c (tmpRow 6) fullShare f ∗ ptsAt c (tmpRow 7) fullShare f ∗ ptsAt c (tmpRow 8) fullShare f ∗ ptsAt c (tmpRow 9) fullShare f ∗ ptsAt c (tmpRow 10) fullShare f ∗ ptsAt c (tmpRow 11) fullShare f ∗ ptsAt c (tmpRow 12) fullShare f ∗ ptsAt c (tmpRow 13) fullShare f ∗ ptsAt c (tmpRow 14) fullShare f ∗ ptsAt c (tmpRow 15) fullShare f) :=
  Entails.of_eq (tmp_eq c fullShare f)

/-! ## The result's buffer and its sixteen blocks, counted along the ring from the device -/

theorem peer_zero (c : Dev nD) : peer c 0 = c := Fin.ext (by
  have hc : c.val < 16 := c.isLt
  show (c.val + 0) % 16 = c.val; omega)

theorem back_zero (c : Dev nD) : back c 0 = c := Fin.ext (by
  have hc : c.val < 16 := c.isLt
  show (c.val + (16 - 0 % 16)) % 16 = c.val; omega)

/-- The device o places on from c, with offset 0 spelt as c itself. -/
def onRing (c : Dev nD) (o : Fin 16) : Dev nD := if o = 0 then c else peer c o.val
/-- The device o places before c, with offset 0 spelt as c itself. -/
def backRing (c : Dev nD) (o : Fin 16) : Dev nD := if o = 0 then c else back c o.val

theorem onRing_eq (c : Dev nD) (o : Fin 16) : onRing c o = peer c o.val := by
  unfold onRing; split
  · next h => subst h; exact (peer_zero c).symm
  · rfl
theorem backRing_eq (c : Dev nD) (o : Fin 16) : backRing c o = back c o.val := by
  unfold backRing; split
  · next h => subst h; exact (back_zero c).symm
  · rfl

theorem onRing_inj (c : Dev nD) (o o' : Fin 16) (h : onRing c o = onRing c o') : o = o' := by
  rw [onRing_eq, onRing_eq] at h
  have hv : (c.val + o.val) % 16 = (c.val + o'.val) % 16 := congrArg Fin.val h
  have hc : c.val < 16 := c.isLt
  have := o.isLt; have := o'.isLt
  exact Fin.ext (by omega)
theorem backRing_inj (c : Dev nD) (o o' : Fin 16) (h : backRing c o = backRing c o') : o = o' := by
  rw [backRing_eq, backRing_eq] at h
  have hv : (c.val + (16 - o.val % 16)) % 16 = (c.val + (16 - o'.val % 16)) % 16 := congrArg Fin.val h
  have hc : c.val < 16 := c.isLt
  have := o.isLt; have := o'.isLt
  exact Fin.ext (by omega)
theorem onRing_surj (c j : Dev nD) : ∃ o : Fin 16, onRing c o = j := by
  have hc : c.val < 16 := c.isLt
  have hj : j.val < 16 := j.isLt
  refine ⟨⟨(j.val + 16 - c.val) % 16, Nat.mod_lt _ (by decide)⟩, ?_⟩
  rw [onRing_eq]
  exact Fin.ext (by show (c.val + (j.val + 16 - c.val) % 16) % 16 = j.val; omega)
theorem backRing_surj (c j : Dev nD) : ∃ o : Fin 16, backRing c o = j := by
  have hc : c.val < 16 := c.isLt
  have hj : j.val < 16 := j.isLt
  refine ⟨⟨(c.val + 16 - j.val) % 16, Nat.mod_lt _ (by decide)⟩, ?_⟩
  rw [backRing_eq]
  exact Fin.ext (by show (c.val + (16 - (c.val + 16 - j.val) % 16 % 16)) % 16 = j.val; omega)

/-- Block j's elements, as elements of device c's result buffer. -/
def outSet (c : Dev nD) (j : Dev nD) : Finset (Idx ((c : Thread nD τ).loc cc0_stg3_0)) := (outOwn j).view.set

theorem out_union_on (c : Dev nD) : (Finset.univ : Finset (Fin 16)).biUnion (fun o => outSet c (onRing c o)) = Finset.univ :=
  Finset.eq_univ_iff_forall.mpr fun i => by
    obtain ⟨o, ho⟩ := onRing_surj c (blkOf ((show S4x512x256.Idx from i) 0) ((show S4x512x256.Idx from i) 1))
    exact Finset.mem_biUnion.mpr ⟨o, Finset.mem_univ _, by rw [ho]; exact outOwn_cover i⟩
theorem out_union_back (c : Dev nD) : (Finset.univ : Finset (Fin 16)).biUnion (fun o => outSet c (backRing c o)) = Finset.univ :=
  Finset.eq_univ_iff_forall.mpr fun i => by
    obtain ⟨o, ho⟩ := backRing_surj c (blkOf ((show S4x512x256.Idx from i) 0) ((show S4x512x256.Idx from i) 1))
    exact Finset.mem_biUnion.mpr ⟨o, Finset.mem_univ _, by rw [ho]; exact outOwn_cover i⟩

/-- The result's buffer at one share and contents is its sixteen blocks, the device's own first, then those of the devices
    1, …, 15 places on. -/
theorem out_eq_on (c : Dev nD) (q : PosShare TreeShare) (g : Buf (Elt F) ((c : Thread nD τ).loc cc0_stg3_0)) :
    ((c : Thread nD τ).loc cc0_stg3_0 ↦{q} g : sProp 𝕄)
      = iprop(ptsAt c (outOwn c) q g ∗ ptsAt c (outOwn (peer c 1)) q g ∗ ptsAt c (outOwn (peer c 2)) q g ∗ ptsAt c (outOwn (peer c 3)) q g ∗ ptsAt c (outOwn (peer c 4)) q g ∗ ptsAt c (outOwn (peer c 5)) q g ∗ ptsAt c (outOwn (peer c 6)) q g ∗ ptsAt c (outOwn (peer c 7)) q g ∗ ptsAt c (outOwn (peer c 8)) q g ∗ ptsAt c (outOwn (peer c 9)) q g ∗ ptsAt c (outOwn (peer c 10)) q g ∗ ptsAt c (outOwn (peer c 11)) q g ∗ ptsAt c (outOwn (peer c 12)) q g ∗ ptsAt c (outOwn (peer c 13)) q g ∗ ptsAt c (outOwn (peer c 14)) q g ∗ ptsAt c (outOwn (peer c 15)) q g) := by
  rw [← out_union_on c, pointsTo_biUnion _ (fun o => outSet c (onRing c o))
    (fun o _ o' _ h => outOwn_disjoint _ _ fun e => h (onRing_inj c o o' e)), bigSep_fin16]
  rfl

/-- The same, the device's own block first, then those of the devices 1, …, 15 places before. -/
theorem out_eq_back (c : Dev nD) (q : PosShare TreeShare) (g : Buf (Elt F) ((c : Thread nD τ).loc cc0_stg3_0)) :
    ((c : Thread nD τ).loc cc0_stg3_0 ↦{q} g : sProp 𝕄)
      = iprop(ptsAt c (outOwn c) q g ∗ ptsAt c (outOwn (back c 1)) q g ∗ ptsAt c (outOwn (back c 2)) q g ∗ ptsAt c (outOwn (back c 3)) q g ∗ ptsAt c (outOwn (back c 4)) q g ∗ ptsAt c (outOwn (back c 5)) q g ∗ ptsAt c (outOwn (back c 6)) q g ∗ ptsAt c (outOwn (back c 7)) q g ∗ ptsAt c (outOwn (back c 8)) q g ∗ ptsAt c (outOwn (back c 9)) q g ∗ ptsAt c (outOwn (back c 10)) q g ∗ ptsAt c (outOwn (back c 11)) q g ∗ ptsAt c (outOwn (back c 12)) q g ∗ ptsAt c (outOwn (back c 13)) q g ∗ ptsAt c (outOwn (back c 14)) q g ∗ ptsAt c (outOwn (back c 15)) q g) := by
  rw [← out_union_back c, pointsTo_biUnion _ (fun o => outSet c (backRing c o))
    (fun o _ o' _ h => outOwn_disjoint _ _ fun e => h (backRing_inj c o o' e)), bigSep_fin16]
  rfl

/-- THE CUT of the result's buffer: the own block, then the blocks of the devices 1, …, 15 places on. -/
theorem out_cut (c : Dev nD) (g : Buf (Elt F) ((c : Thread nD τ).loc cc0_stg3_0)) :
    ((c : Thread nD τ).loc cc0_stg3_0 ↦{fullShare} g : sProp 𝕄)
      ⊢ iprop(ptsAt c (outOwn c) fullShare g ∗ ptsAt c (outOwn (peer c 1)) fullShare g ∗ ptsAt c (outOwn (peer c 2)) fullShare g ∗ ptsAt c (outOwn (peer c 3)) fullShare g ∗ ptsAt c (outOwn (peer c 4)) fullShare g ∗ ptsAt c (outOwn (peer c 5)) fullShare g ∗ ptsAt c (outOwn (peer c 6)) fullShare g ∗ ptsAt c (outOwn (peer c 7)) fullShare g ∗ ptsAt c (outOwn (peer c 8)) fullShare g ∗ ptsAt c (outOwn (peer c 9)) fullShare g ∗ ptsAt c (outOwn (peer c 10)) fullShare g ∗ ptsAt c (outOwn (peer c 11)) fullShare g ∗ ptsAt c (outOwn (peer c 12)) fullShare g ∗ ptsAt c (outOwn (peer c 13)) fullShare g ∗ ptsAt c (outOwn (peer c 14)) fullShare g ∗ ptsAt c (outOwn (peer c 15)) fullShare g) :=
  Entails.of_eq (out_eq_on c fullShare g)

/-- THE JOIN of the result's buffer: the own block and the blocks of the devices 1, …, 15 places before, at one
    contents. -/
theorem out_join (c : Dev nD) (g : Buf (Elt F) ((c : Thread nD τ).loc cc0_stg3_0)) :
    (iprop(ptsAt c (outOwn c) fullShare g ∗ ptsAt c (outOwn (back c 1)) fullShare g ∗ ptsAt c (outOwn (back c 2)) fullShare g ∗ ptsAt c (outOwn (back c 3)) fullShare g ∗ ptsAt c (outOwn (back c 4)) fullShare g ∗ ptsAt c (outOwn (back c 5)) fullShare g ∗ ptsAt c (outOwn (back c 6)) fullShare g ∗ ptsAt c (outOwn (back c 7)) fullShare g ∗ ptsAt c (outOwn (back c 8)) fullShare g ∗ ptsAt c (outOwn (back c 9)) fullShare g ∗ ptsAt c (outOwn (back c 10)) fullShare g ∗ ptsAt c (outOwn (back c 11)) fullShare g ∗ ptsAt c (outOwn (back c 12)) fullShare g ∗ ptsAt c (outOwn (back c 13)) fullShare g ∗ ptsAt c (outOwn (back c 14)) fullShare g ∗ ptsAt c (outOwn (back c 15)) fullShare g) : sProp 𝕄)
      ⊢ ((c : Thread nD τ).loc cc0_stg3_0 ↦{fullShare} g) :=
  Entails.of_eq (out_eq_back c fullShare g).symm

/-! ## The partial-product buffer: the own row-block and the fifteen sources -/

/-- The device's own row-block of its partial-product buffer, at the row the kernel computes from its device id. -/
def ownRow (c : Dev nD) : Finset (Idx ((c : Thread nD τ).loc cc0_scratch0)) :=
  (Rect.unit (s := S16x128x256) (k0_off2 c) S1x128x256.size (k0_off2_inb c)).set

/-- The own row-block is row-block c. -/
theorem mem_ownRow (c : Dev nD) (i : S16x128x256.Idx) : i ∈ ownRow c ↔ (i 0).val = c.val := by
  refine (Rect.mem_set_unit (s := S16x128x256) (off := k0_off2 c) (size := S1x128x256.size) (inb := k0_off2_inb c) (i := i)).trans ?_
  rw [k0_off2_eq c]
  constructor
  · intro h
    have h0 : c.val ≤ (i 0).val ∧ (i 0).val < c.val + 1 := h 0
    omega
  · intro h a
    match a with
    | ⟨0, _⟩ => show c.val ≤ (i 0).val ∧ (i 0).val < c.val + 1; omega
    | ⟨1, _⟩ => show 0 ≤ (i 1).val ∧ (i 1).val < 0 + 128; have h1 : (i 1).val < 128 := (i 1).isLt; omega
    | ⟨2, _⟩ => show 0 ≤ (i 2).val ∧ (i 2).val < 0 + 256; have h2 : (i 2).val < 256 := (i 2).isLt; omega

/-- The own row-block (offset 0) and the sources of the scatter copies (offsets 1, …, 15), as elements of device c's
    partial-product buffer. -/
def accSet (c : Dev nD) (o : Fin 16) : Finset (Idx ((c : Thread nD τ).loc cc0_scratch0)) :=
  if o = 0 then ownRow c else (accSrc c o).view.set

theorem accSet_zero (c : Dev nD) : accSet c 0 = ownRow c := if_pos rfl
theorem accSet_ne (c : Dev nD) (o : Fin 16) (h : o ≠ 0) : accSet c o = (accSrc c o).view.set := if_neg h

theorem mem_accSet (c : Dev nD) (o : Fin 16) (i : S16x128x256.Idx) : i ∈ accSet c o ↔ (i 0).val = (c.val + o.val) % 16 := by
  have hc : c.val < 16 := c.isLt
  by_cases h : o = 0
  · subst h
    rw [accSet_zero]
    refine (mem_ownRow c i).trans ?_
    show _ ↔ (i 0).val = (c.val + 0) % 16
    omega
  · rw [accSet_ne c o h]
    exact mem_accSrc c o h i

theorem acc_union (c : Dev nD) : (Finset.univ : Finset (Fin 16)).biUnion (accSet c) = Finset.univ :=
  Finset.eq_univ_iff_forall.mpr fun i => by
    have hc : c.val < 16 := c.isLt
    have h0 : ((show S16x128x256.Idx from i) 0).val < 16 := ((show S16x128x256.Idx from i) 0).isLt
    refine Finset.mem_biUnion.mpr ⟨⟨(((show S16x128x256.Idx from i) 0).val + 16 - c.val) % 16, Nat.mod_lt _ (by decide)⟩,
      Finset.mem_univ _, (mem_accSet c _ i).mpr ?_⟩
    show ((show S16x128x256.Idx from i) 0).val = (c.val + (((show S16x128x256.Idx from i) 0).val + 16 - c.val) % 16) % 16
    omega

theorem accSet_disjoint (c : Dev nD) (o o' : Fin 16) (h : o ≠ o') : Disjoint (accSet c o) (accSet c o') :=
  Finset.disjoint_left.mpr fun i hi hi' => h (Fin.ext (by
    have h1 := (mem_accSet c o i).mp hi
    have h2 := (mem_accSet c o' i).mp hi'
    have hc : c.val < 16 := c.isLt
    have := o.isLt; have := o'.isLt
    omega))

/-- The partial-product buffer at one share and contents is the own row-block and the fifteen sources. -/
theorem acc_eq (c : Dev nD) (q : PosShare TreeShare) (f : Buf (Elt F) ((c : Thread nD τ).loc cc0_scratch0)) :
    ((c : Thread nD τ).loc cc0_scratch0 ↦{q} f : sProp 𝕄)
      = iprop(((c : Thread nD τ).loc cc0_scratch0 ↦[ownRow c]{q} f) ∗ ptsAt c (accSrc c 1) q f ∗ ptsAt c (accSrc c 2) q f ∗ ptsAt c (accSrc c 3) q f ∗ ptsAt c (accSrc c 4) q f ∗ ptsAt c (accSrc c 5) q f ∗ ptsAt c (accSrc c 6) q f ∗ ptsAt c (accSrc c 7) q f ∗ ptsAt c (accSrc c 8) q f ∗ ptsAt c (accSrc c 9) q f ∗ ptsAt c (accSrc c 10) q f ∗ ptsAt c (accSrc c 11) q f ∗ ptsAt c (accSrc c 12) q f ∗ ptsAt c (accSrc c 13) q f ∗ ptsAt c (accSrc c 14) q f ∗ ptsAt c (accSrc c 15) q f) := by
  rw [← acc_union c, pointsTo_biUnion _ (accSet c) (fun o _ o' _ h => accSet_disjoint c o o' h), bigSep_fin16]
  rfl

/-- THE CUT of the partial-product buffer into the own row-block and the fifteen sources of the scatter copies. -/
theorem acc_cut (c : Dev nD) (f : Buf (Elt F) ((c : Thread nD τ).loc cc0_scratch0)) :
    ((c : Thread nD τ).loc cc0_scratch0 ↦{fullShare} f : sProp 𝕄)
      ⊢ iprop(((c : Thread nD τ).loc cc0_scratch0 ↦[ownRow c]{fullShare} f) ∗ ptsAt c (accSrc c 1) fullShare f ∗ ptsAt c (accSrc c 2) fullShare f ∗ ptsAt c (accSrc c 3) fullShare f ∗ ptsAt c (accSrc c 4) fullShare f ∗ ptsAt c (accSrc c 5) fullShare f ∗ ptsAt c (accSrc c 6) fullShare f ∗ ptsAt c (accSrc c 7) fullShare f ∗ ptsAt c (accSrc c 8) fullShare f ∗ ptsAt c (accSrc c 9) fullShare f ∗ ptsAt c (accSrc c 10) fullShare f ∗ ptsAt c (accSrc c 11) fullShare f ∗ ptsAt c (accSrc c 12) fullShare f ∗ ptsAt c (accSrc c 13) fullShare f ∗ ptsAt c (accSrc c 14) fullShare f ∗ ptsAt c (accSrc c 15) fullShare f) :=
  Entails.of_eq (acc_eq c fullShare f)

end Cert.KernelIdeal.Proto

end
-- ==== Proof.CarveCompute.lean ====
/-
  The compute phase of the body on whole buffers: three loads of the input blocks, a load of the partial-product buffer
  whose value is not used, and the store of the partial product. A load of a whole buffer returns its contents and a store
  through the whole buffer replaces them.
-/
import proofs.«900432_g7700000000000433_dist_gconv1d_cshard_i_b4_s512_c256_v7x_i16_bf16_1_alg».proof.Proof.Protocol
import Idealize.ShloMosaic.Rules.PointsTo
import Idealize.ShloMosaic.Rules.Step

set_option maxRecDepth 16384

noncomputable section

namespace Cert.KernelIdeal.Proto

open Cert.KernelIdeal Cert.KernelIdeal.Gen Cert.KernelIdeal.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => Variants.none

variable (m : (ℓ : Loc nD τ sig) → Buf (Elt F) ℓ)

/-! ## The compute phase on whole buffers -/

theorem zeros3 : (![0, 0, 0] : Fin 3 → Nat) = fun _ => 0 := by
  funext a; match a with | ⟨0, _⟩ => rfl | ⟨1, _⟩ => rfl | ⟨2, _⟩ => rfl
theorem zeros2 : (![0, 0] : Fin 2 → Nat) = fun _ => 0 := by
  funext a; match a with | ⟨0, _⟩ => rfl | ⟨1, _⟩ => rfl

/-- THE COMPUTE PHASE: holding the three input buffers at contents gx, gk, gw and the partial-product buffer at any
    contents, all whole, the three loads, the (unused) load of the partial-product buffer and the store leave the inputs
    as they were and the partial-product buffer at the payload of gx, gk, gw. -/
theorem wp_compute (c : Dev nD)
    (gx : Buf (Elt F) ((c : Thread nD τ).loc cc0_stg0_0)) (gk : Buf (Elt F) ((c : Thread nD τ).loc cc0_stg1_0))
    (gw : Buf (Elt F) ((c : Thread nD τ).loc cc0_stg2_0)) (facc : Buf (Elt F) ((c : Thread nD τ).loc cc0_scratch0))
    (inb0 : ∀ a, (![0, 0, 0] : Fin 3 → Nat) a + S4x512x256.size a ≤ S4x512x256.size a)
    (inb1 : ∀ a, (![0, 0] : Fin 2 → Nat) a + S4x256.size a ≤ S4x256.size a)
    (inb2 : ∀ a, (![0, 0] : Fin 2 → Nat) a + S256x256.size a ≤ S256x256.size a)
    (inb4 : ∀ a, (![0, 0, 0] : Fin 3 → Nat) a + S16x128x256.size a ≤ S16x128x256.size a)
    {h0 : xM.view.LoadsAt (Rect.unit (s := S4x512x256) ![0, 0, 0] S4x512x256.size inb0).toLoadRect}
    {h1 : kM.view.LoadsAt (Rect.unit (s := S4x256) ![0, 0] S4x256.size inb1).toLoadRect}
    {h2 : wM.view.LoadsAt (Rect.unit (s := S256x256) ![0, 0] S256x256.size inb2).toLoadRect}
    {h4 : accM.view.LoadsAt (Rect.unit (s := S16x128x256) ![0, 0, 0] S16x128x256.size inb4).toLoadRect}
    {hx : (accM.access (Rect.unit (s := S16x128x256) ![0, 0, 0] S16x128x256.size inb4)).Stores Finset.univ}
    {hm : (Finset.univ : Finset (Rect.unit (s := S16x128x256) ![0, 0, 0] S16x128x256.size inb4).shape.Idx) = Finset.univ
      ∨ ∀ a, (Rect.unit (s := S16x128x256) ![0, 0, 0] S16x128x256.size inb4).stride a = 1}
    {α : Type} {Q : α → sProp 𝕄} {k : PUnit → Prog (TpuEff nD τ sig (Elt F) Λ₀ .tc) α} :
    iprop((((c : Thread nD τ).loc cc0_stg0_0) ↦{fullShare} gx) ∗ (((c : Thread nD τ).loc cc0_stg1_0) ↦{fullShare} gk)
        ∗ (((c : Thread nD τ).loc cc0_stg2_0) ↦{fullShare} gw) ∗ (((c : Thread nD τ).loc cc0_scratch0) ↦{fullShare} facc)
        ∗ (((((c : Thread nD τ).loc cc0_stg0_0) ↦{fullShare} gx) ∗ (((c : Thread nD τ).loc cc0_stg1_0) ↦{fullShare} gk)
            ∗ (((c : Thread nD τ).loc cc0_stg2_0) ↦{fullShare} gw)
            ∗ (((c : Thread nD τ).loc cc0_scratch0) ↦{fullShare} (k0_pay4 (k0_pay1 gx) (k0_pay2 gk) (k0_pay3 gk) gw : FVec F S16x128x256 .bf16)))
          -∗ wp frame (wpE (defs₀ (F := F)) 𝒱₀ (c : Thread nD τ) none) Set.univ (k ⟨⟩) Q))
      ⊢ wp frame (wpE (defs₀ (F := F)) 𝒱₀ (c : Thread nD τ) none) Set.univ
          (.op (.load xM (Rect.unit (s := S4x512x256) ![0, 0, 0] S4x512x256.size inb0).toLoadRect h0) fun x =>
           .op (.load kM (Rect.unit (s := S4x256) ![0, 0] S4x256.size inb1).toLoadRect h1) fun x_1 =>
           .op (.load wM (Rect.unit (s := S256x256) ![0, 0] S256x256.size inb2).toLoadRect h2) fun x_2 =>
           .op (.load accM (Rect.unit (s := S16x128x256) ![0, 0, 0] S16x128x256.size inb4).toLoadRect h4) fun _ =>
           .op (.store accM (Rect.unit (s := S16x128x256) ![0, 0, 0] S16x128x256.size inb4)
              (k0_pay4 (k0_pay1 x) (k0_pay2 x_1) (k0_pay3 x_1) x_2) Finset.univ hx hm) k) Q := by
  have r0 : xM.view.readAt (Elt F) (Rect.unit (s := S4x512x256) ![0, 0, 0] S4x512x256.size inb0).toLoadRect gx = gx :=
    Memref.readAt_unit_zero (Elt F) cc0_stg0_0 zeros3 inb0 gx
  have r1 : kM.view.readAt (Elt F) (Rect.unit (s := S4x256) ![0, 0] S4x256.size inb1).toLoadRect gk = gk :=
    Memref.readAt_unit_zero (Elt F) cc0_stg1_0 zeros2 inb1 gk
  have r2 : wM.view.readAt (Elt F) (Rect.unit (s := S256x256) ![0, 0] S256x256.size inb2).toLoadRect gw = gw :=
    Memref.readAt_unit_zero (Elt F) cc0_stg2_0 zeros2 inb2 gw
  have w4 : ∀ w : FVec F S16x128x256 .bf16,
      (accM.access (Rect.unit (s := S16x128x256) ![0, 0, 0] S16x128x256.size inb4)).write (Elt F) facc w Finset.univ = w :=
    fun w => Memref.write_access_unit_zero_univ (Elt F) cc0_scratch0 zeros3 inb4 facc w
  iintro ⟨Hx, Hk', Hw, Hacc, Hk⟩
  iapply (wp_load 𝒱₀ (c : Thread nD τ) none Set.univ (m := xM) (S := Finset.univ) (q := fullShare) (f := gx) (Finset.subset_univ _)) $$ Hx
  iintro Hx
  rw [r0]
  iapply (wp_load 𝒱₀ (c : Thread nD τ) none Set.univ (m := kM) (S := Finset.univ) (q := fullShare) (f := gk) (Finset.subset_univ _)) $$ Hk'
  iintro Hk'
  rw [r1]
  iapply (wp_load 𝒱₀ (c : Thread nD τ) none Set.univ (m := wM) (S := Finset.univ) (q := fullShare) (f := gw) (Finset.subset_univ _)) $$ Hw
  iintro Hw
  rw [r2]
  iapply (wp_load 𝒱₀ (c : Thread nD τ) none Set.univ (m := accM) (S := Finset.univ) (q := fullShare) (f := facc) (Finset.subset_univ _)) $$ Hacc
  iintro Hacc
  iapply (wp_store 𝒱₀ (c : Thread nD τ) none Set.univ (m := accM)
    (r := Rect.unit (s := S16x128x256) ![0, 0, 0] S16x128x256.size inb4) (Mk := Finset.univ) (S := Finset.univ) (f := facc)
    (Finset.subset_univ _)) $$ Hacc
  iintro Hacc
  rw [w4]
  iapply Hk
  isplitl [Hx]; · iexact Hx
  isplitl [Hk']; · iexact Hk'
  isplitl [Hw]; · iexact Hw
  iexact Hacc

/-- The compute phase at the device's own input blocks: the partial-product buffer ends holding the device's partial product. -/
theorem wp_compute_own (c : Dev nD) (facc : Buf (Elt F) ((c : Thread nD τ).loc cc0_scratch0))
    (inb0 : ∀ a, (![0, 0, 0] : Fin 3 → Nat) a + S4x512x256.size a ≤ S4x512x256.size a)
    (inb1 : ∀ a, (![0, 0] : Fin 2 → Nat) a + S4x256.size a ≤ S4x256.size a)
    (inb2 : ∀ a, (![0, 0] : Fin 2 → Nat) a + S256x256.size a ≤ S256x256.size a)
    (inb4 : ∀ a, (![0, 0, 0] : Fin 3 → Nat) a + S16x128x256.size a ≤ S16x128x256.size a)
    {h0 : xM.view.LoadsAt (Rect.unit (s := S4x512x256) ![0, 0, 0] S4x512x256.size inb0).toLoadRect}
    {h1 : kM.view.LoadsAt (Rect.unit (s := S4x256) ![0, 0] S4x256.size inb1).toLoadRect}
    {h2 : wM.view.LoadsAt (Rect.unit (s := S256x256) ![0, 0] S256x256.size inb2).toLoadRect}
    {h4 : accM.view.LoadsAt (Rect.unit (s := S16x128x256) ![0, 0, 0] S16x128x256.size inb4).toLoadRect}
    {hx : (accM.access (Rect.unit (s := S16x128x256) ![0, 0, 0] S16x128x256.size inb4)).Stores Finset.univ}
    {hm : (Finset.univ : Finset (Rect.unit (s := S16x128x256) ![0, 0, 0] S16x128x256.size inb4).shape.Idx) = Finset.univ
      ∨ ∀ a, (Rect.unit (s := S16x128x256) ![0, 0, 0] S16x128x256.size inb4).stride a = 1}
    {α : Type} {Q : α → sProp 𝕄} {k : PUnit → Prog (TpuEff nD τ sig (Elt F) Λ₀ .tc) α} :
    iprop((((c : Thread nD τ).loc cc0_stg0_0) ↦{fullShare} xB m c) ∗ (((c : Thread nD τ).loc cc0_stg1_0) ↦{fullShare} kB m c)
        ∗ (((c : Thread nD τ).loc cc0_stg2_0) ↦{fullShare} wB m c) ∗ (((c : Thread nD τ).loc cc0_scratch0) ↦{fullShare} facc)
        ∗ (((((c : Thread nD τ).loc cc0_stg0_0) ↦{fullShare} xB m c) ∗ (((c : Thread nD τ).loc cc0_stg1_0) ↦{fullShare} kB m c)
            ∗ (((c : Thread nD τ).loc cc0_stg2_0) ↦{fullShare} wB m c)
            ∗ (((c : Thread nD τ).loc cc0_scratch0) ↦{fullShare} partialOf m c))
          -∗ wp frame (wpE (defs₀ (F := F)) 𝒱₀ (c : Thread nD τ) none) Set.univ (k ⟨⟩) Q))
      ⊢ wp frame (wpE (defs₀ (F := F)) 𝒱₀ (c : Thread nD τ) none) Set.univ
          (.op (.load xM (Rect.unit (s := S4x512x256) ![0, 0, 0] S4x512x256.size inb0).toLoadRect h0) fun x =>
           .op (.load kM (Rect.unit (s := S4x256) ![0, 0] S4x256.size inb1).toLoadRect h1) fun x_1 =>
           .op (.load wM (Rect.unit (s := S256x256) ![0, 0] S256x256.size inb2).toLoadRect h2) fun x_2 =>
           .op (.load accM (Rect.unit (s := S16x128x256) ![0, 0, 0] S16x128x256.size inb4).toLoadRect h4) fun _ =>
           .op (.store accM (Rect.unit (s := S16x128x256) ![0, 0, 0] S16x128x256.size inb4)
              (k0_pay4 (k0_pay1 x) (k0_pay2 x_1) (k0_pay3 x_1) x_2) Finset.univ hx hm) k) Q :=
  wp_compute c (xB m c) (kB m c) (wB m c) facc inb0 inb1 inb2 inb4

end Cert.KernelIdeal.Proto

end
-- ==== Proof.CarveSteps.lean ====
/-
  The loads and the stores of the body on the pieces the buffers are cut into: one step of the program each.

  A load through a rectangle of a buffer needs only the elements under the rectangle, at any share, and returns what the
  buffer holds there; a store needs them at the full share and leaves the stored vector there.
-/
import proofs.«900432_g7700000000000433_dist_gconv1d_cshard_i_b4_s512_c256_v7x_i16_bf16_1_alg».proof.Proof.Carve
import Idealize.ShloMosaic.Rules.Step

set_option maxRecDepth 16384

noncomputable section

namespace Cert.KernelIdeal.Proto

open Cert.KernelIdeal Cert.KernelIdeal.Gen Cert.KernelIdeal.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => Variants.none

variable (m : (ℓ : Loc nD τ sig) → Buf (Elt F) ℓ)

/-! ## The loads of the sum -/

/-- THE LOAD OF SLOT n of the temporary buffer, on the slot alone: holding the slot at its landed contents, the load
    returns row-block c of the partial product of the device n places before c. -/
theorem wp_load_slot (c : Dev nD) (n : Nat) (hn : n < 16)
    (inb : ∀ a, (![n, 0, 0] : Fin 3 → Nat) a + S1x128x256.size a ≤ S16x128x256.size a)
    {hload : tmpM.view.LoadsAt (Rect.unit (s := S16x128x256) ![n, 0, 0] S1x128x256.size inb).toLoadRect}
    {α : Type} {Q : α → sProp 𝕄}
    {k : ((Rect.unit (s := S16x128x256) ![n, 0, 0] S1x128x256.size inb).toLoadRect.shape.Idx → Elt F .bf16)
      → Prog (TpuEff nD τ sig (Elt F) Λ₀ .tc) α} :
    iprop(ptsAt c (tmpRow ⟨n, hn⟩) fullShare (tmpBufAt m c ⟨n, hn⟩)
        ∗ (ptsAt c (tmpRow ⟨n, hn⟩) fullShare (tmpBufAt m c ⟨n, hn⟩)
            -∗ wp frame (wpE (defs₀ (F := F)) 𝒱₀ (c : Thread nD τ) none) Set.univ (k (rowOf m (back c n) c)) Q))
      ⊢ wp frame (wpE (defs₀ (F := F)) 𝒱₀ (c : Thread nD τ) none) Set.univ
          (.op (.load tmpM (Rect.unit (s := S16x128x256) ![n, 0, 0] S1x128x256.size inb).toLoadRect hload) k) Q := by
  have hS : tmpM.view.setOn (Rect.unit (s := S16x128x256) ![n, 0, 0] S1x128x256.size inb).toLoadRect.set
      ⊆ (tmpRow ⟨n, hn⟩).view.set := by
    intro i hi
    obtain ⟨x, hx, rfl⟩ := Finset.mem_map.mp hi
    exact (Finset.ext_iff.mp (set_tmpRow ⟨n, hn⟩) _).mpr hx
  have hrd := load_slot m c n hn inb (tmpBufAt m c ⟨n, hn⟩) (fun i _ => rfl)
  unfold ptsAt
  rw [← hrd]
  have h := wp_load (defs := defs₀ (F := F)) 𝒱₀ (c : Thread nD τ) none (Γ := .empty) Set.univ (Q := Q) (m := tmpM)
    (r := (Rect.unit (s := S16x128x256) ![n, 0, 0] S1x128x256.size inb).toLoadRect) (hl := hload) (k := k)
    (S := (tmpRow ⟨n, hn⟩).view.set) (q := fullShare) (f := tmpBufAt m c ⟨n, hn⟩) hS
  exact BIClass.wand_elim h

/-- THE LOAD OF THE OWN ROW-BLOCK of the partial product, on that row-block alone. -/
theorem wp_load_own (c : Dev nD) (q : PosShare TreeShare)
    {hload : accM.view.LoadsAt (Rect.unit (s := S16x128x256) (k0_off2 c) S1x128x256.size (k0_off2_inb c)).toLoadRect}
    {α : Type} {Q : α → sProp 𝕄}
    {k : ((Rect.unit (s := S16x128x256) (k0_off2 c) S1x128x256.size (k0_off2_inb c)).toLoadRect.shape.Idx → Elt F .bf16)
      → Prog (TpuEff nD τ sig (Elt F) Λ₀ .tc) α} :
    iprop(((c : Thread nD τ).loc cc0_scratch0 ↦[ownRow c]{q} partialOf m c)
        ∗ (((c : Thread nD τ).loc cc0_scratch0 ↦[ownRow c]{q} partialOf m c)
            -∗ wp frame (wpE (defs₀ (F := F)) 𝒱₀ (c : Thread nD τ) none) Set.univ (k (rowOf m c c)) Q))
      ⊢ wp frame (wpE (defs₀ (F := F)) 𝒱₀ (c : Thread nD τ) none) Set.univ
          (.op (.load accM (Rect.unit (s := S16x128x256) (k0_off2 c) S1x128x256.size (k0_off2_inb c)).toLoadRect hload) k) Q := by
  have hS : accM.view.setOn (Rect.unit (s := S16x128x256) (k0_off2 c) S1x128x256.size (k0_off2_inb c)).toLoadRect.set
      ⊆ ownRow c := by
    intro i hi
    obtain ⟨x, hx, rfl⟩ := Finset.mem_map.mp hi
    exact hx
  have hrd := load_own m c
  rw [← hrd]
  have h := wp_load (defs := defs₀ (F := F)) 𝒱₀ (c : Thread nD τ) none (Γ := .empty) Set.univ (Q := Q) (m := accM)
    (r := (Rect.unit (s := S16x128x256) (k0_off2 c) S1x128x256.size (k0_off2_inb c)).toLoadRect) (hl := hload) (k := k)
    (S := ownRow c) (q := q) (f := partialOf m c) hS
  exact BIClass.wand_elim h

/-! ## The store of the sum -/

/-- The rectangle the sum is stored through is the block the device owns. -/
theorem mem_sumRect (c : Dev nD) (i : S4x512x256.Idx) :
    i ∈ (Rect.unit (s := S4x512x256) (k0_off3 c) S1x128x256.size (k0_off3_inb c)).set
      ↔ (i 0).val = c.val / 4 ∧ (i 1).val / 128 = c.val % 4 := by
  refine Rect.mem_set_unit.trans ?_
  rw [off3_eq c]
  constructor
  · intro h
    have h0 : c.val / 4 ≤ (i 0).val ∧ (i 0).val < c.val / 4 + 1 := h 0
    have h1 : c.val % 4 * 128 ≤ (i 1).val ∧ (i 1).val < c.val % 4 * 128 + 128 := h 1
    constructor <;> omega
  · rintro ⟨h0, h1⟩ a
    match a with
    | ⟨0, _⟩ => show c.val / 4 ≤ (i 0).val ∧ (i 0).val < c.val / 4 + 1; omega
    | ⟨1, _⟩ => show c.val % 4 * 128 ≤ (i 1).val ∧ (i 1).val < c.val % 4 * 128 + 128; omega
    | ⟨2, _⟩ => show 0 ≤ (i 2).val ∧ (i 2).val < 0 + 256; have h2 : (i 2).val < 256 := (i 2).isLt; omega

/-- THE LOAD AND THE STORE ON THE OWN BLOCK of the result: holding the block the device owns at any contents, the load
    (its value unused) and the store of the device's sum leave the block at what the gathered result holds there. -/
theorem wp_store_sum (c : Dev nD) (f : Buf (Elt F) ((outOwn c).view.loc ((c : Dev nD) : Thread nD τ)))
    {hload : oM.view.LoadsAt (Rect.unit (s := S4x512x256) (k0_off3 c) S1x128x256.size (k0_off3_inb c)).toLoadRect}
    {hx : (oM.access (Rect.unit (s := S4x512x256) (k0_off3 c) S1x128x256.size (k0_off3_inb c))).Stores Finset.univ}
    {hm : (Finset.univ : Finset (Rect.unit (s := S4x512x256) (k0_off3 c) S1x128x256.size (k0_off3_inb c)).shape.Idx) = Finset.univ
      ∨ ∀ a, (Rect.unit (s := S4x512x256) (k0_off3 c) S1x128x256.size (k0_off3_inb c)).stride a = 1}
    {α : Type} {Q : α → sProp 𝕄} {k : PUnit → Prog (TpuEff nD τ sig (Elt F) Λ₀ .tc) α} :
    iprop(ptsAt c (outOwn c) fullShare f
        ∗ (ptsAt c (outOwn c) fullShare (outBufAt m c c)
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.load oM (Rect.unit (s := S4x512x256) (k0_off3 c) S1x128x256.size (k0_off3_inb c)).toLoadRect hload) fun _ =>
            .op (.store oM (Rect.unit (s := S4x512x256) (k0_off3 c) S1x128x256.size (k0_off3_inb c)) (redOf m c) Finset.univ hx hm) k) Q := by
  have hS : oM.view.setOn (Rect.unit (s := S4x512x256) (k0_off3 c) S1x128x256.size (k0_off3_inb c)).toLoadRect.set
      ⊆ (outOwn c).view.set := by
    intro i hi
    obtain ⟨x, hx, rfl⟩ := Finset.mem_map.mp hi
    exact (mem_outOwn c x).mpr ((mem_sumRect c x).mp hx)
  have hS' : (oM.access (Rect.unit (s := S4x512x256) (k0_off3 c) S1x128x256.size (k0_off3_inb c))).setOn Finset.univ
      ⊆ (outOwn c).view.set := by
    intro i hi
    have hi' : i ∈ (Rect.unit (s := S4x512x256) (k0_off3 c) S1x128x256.size (k0_off3_inb c)).set :=
      (Finset.ext_iff.mp (View.set_slice_whole cc0_stg3_0 _) i).mp hi
    exact (mem_outOwn c i).mpr ((mem_sumRect c i).mp hi')
  have hfin : (((outOwn c).view.loc ((c : Dev nD) : Thread nD τ)) ↦[(outOwn c).view.set]{fullShare}
        ((oM.access (Rect.unit (s := S4x512x256) (k0_off3 c) S1x128x256.size (k0_off3_inb c))).write (Elt F) f (redOf m c) Finset.univ)
          : sProp 𝕄)
      = (((outOwn c).view.loc ((c : Dev nD) : Thread nD τ)) ↦[(outOwn c).view.set]{fullShare} outBufAt m c c) :=
    pointsTo_congr (store_sum m c f)
  unfold ptsAt
  rw [← hfin]
  have hst := wp_store (defs := defs₀ (F := F)) 𝒱₀ (c : Thread nD τ) none (Γ := .empty) Set.univ (Q := Q) (m := oM)
    (r := Rect.unit (s := S4x512x256) (k0_off3 c) S1x128x256.size (k0_off3_inb c)) (w := redOf m c) (Mk := Finset.univ)
    (hx := hx) (hm := hm) (k := k) (S := (outOwn c).view.set) (f := f) hS'
  have hld := wp_load (defs := defs₀ (F := F)) 𝒱₀ (c : Thread nD τ) none (Γ := .empty) Set.univ (Q := Q) (m := oM)
    (r := (Rect.unit (s := S4x512x256) (k0_off3 c) S1x128x256.size (k0_off3_inb c)).toLoadRect) (hl := hload)
    (k := fun _ => .op (.store oM (Rect.unit (s := S4x512x256) (k0_off3 c) S1x128x256.size (k0_off3_inb c)) (redOf m c) Finset.univ hx hm) k)
    (S := (outOwn c).view.set) (q := fullShare) (f := f) hS
  exact (sep_mono_right (wand_intro_left (BIClass.wand_elim hst))).trans (BIClass.wand_elim hld)

end Cert.KernelIdeal.Proto

end
-- ==== Proof.CarveJoin.lean ====
/-
  Shares of the own block, and the buffers joined back from pieces at different contents.

  The full share of a block is split into fifteen shares by halving fourteen times: the k-th copy reads at the left half of
  what the first k - 1 left, the last at all that is left. Pieces of one buffer on pairwise disjoint element sets, each at
  contents of its own, join into the buffer on the union at the contents pieced together.
-/
import proofs.«900432_g7700000000000433_dist_gconv1d_cshard_i_b4_s512_c256_v7x_i16_bf16_1_alg».proof.Proof.Carve

set_option maxRecDepth 16384

noncomputable section

namespace Cert.KernelIdeal.Proto

open Cert.KernelIdeal Cert.KernelIdeal.Gen Cert.KernelIdeal.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => Variants.none

variable (m : (ℓ : Loc nD τ sig) → Buf (Elt F) ℓ)

/-! ## The fifteen shares -/

/-- One halving: what is left after n halvings is its left half and what is left after n + 1. -/
theorem pts_shr (p : Dev nD) (v : Memref sig .tc .vmem S128x256 .bf16) (f : Buf (Elt F) (v.view.loc (p : Thread nD τ))) (n : Nat) :
    (ptsAt p v (shr n) f : sProp 𝕄) = iprop(ptsAt p v (shr n).left f ∗ ptsAt p v (shr (n + 1)) f) := by
  have hu : (v.view.loc (p : Thread nD τ) ↦[v.view.set]{shr n} f : sProp 𝕄)
      ⊣⊢ iprop((v.view.loc (p : Thread nD τ) ↦[v.view.set]{(shr n).left} f) ∗ v.view.loc (p : Thread nD τ) ↦[v.view.set]{(shr n).right} f) :=
    pointsTo_share (PosShare.mem_left_op_right (shr n))
  exact BI.equiv_iff.mp ⟨hu.1, hu.2⟩

/-- THE SHARES: a block at the full share is the block at the fifteen shares of the gather copies. -/
theorem pts_shares_eq (p : Dev nD) (v : Memref sig .tc .vmem S128x256 .bf16) (f : Buf (Elt F) (v.view.loc (p : Thread nD τ))) :
    (ptsAt p v fullShare f : sProp 𝕄)
      = iprop(ptsAt p v (shareOf 1) f ∗ ptsAt p v (shareOf 2) f ∗ ptsAt p v (shareOf 3) f ∗ ptsAt p v (shareOf 4) f ∗ ptsAt p v (shareOf 5) f ∗ ptsAt p v (shareOf 6) f ∗ ptsAt p v (shareOf 7) f ∗ ptsAt p v (shareOf 8) f ∗ ptsAt p v (shareOf 9) f ∗ ptsAt p v (shareOf 10) f ∗ ptsAt p v (shareOf 11) f ∗ ptsAt p v (shareOf 12) f ∗ ptsAt p v (shareOf 13) f ∗ ptsAt p v (shareOf 14) f ∗ ptsAt p v (shareOf 15) f) := by
  rw [show (fullShare : PosShare TreeShare) = shr 0 from rfl, pts_shr p v f 0, pts_shr p v f 1, pts_shr p v f 2, pts_shr p v f 3, pts_shr p v f 4, pts_shr p v f 5, pts_shr p v f 6, pts_shr p v f 7, pts_shr p v f 8, pts_shr p v f 9, pts_shr p v f 10, pts_shr p v f 11, pts_shr p v f 12, pts_shr p v f 13]
  rfl

theorem own_shares_cut (c : Dev nD) (f : Buf (Elt F) ((outOwn c).view.loc ((c : Dev nD) : Thread nD τ))) :
    (ptsAt c (outOwn c) fullShare f : sProp 𝕄)
      ⊢ iprop(ptsAt c (outOwn c) (shareOf 1) f ∗ ptsAt c (outOwn c) (shareOf 2) f ∗ ptsAt c (outOwn c) (shareOf 3) f ∗ ptsAt c (outOwn c) (shareOf 4) f ∗ ptsAt c (outOwn c) (shareOf 5) f ∗ ptsAt c (outOwn c) (shareOf 6) f ∗ ptsAt c (outOwn c) (shareOf 7) f ∗ ptsAt c (outOwn c) (shareOf 8) f ∗ ptsAt c (outOwn c) (shareOf 9) f ∗ ptsAt c (outOwn c) (shareOf 10) f ∗ ptsAt c (outOwn c) (shareOf 11) f ∗ ptsAt c (outOwn c) (shareOf 12) f ∗ ptsAt c (outOwn c) (shareOf 13) f ∗ ptsAt c (outOwn c) (shareOf 14) f ∗ ptsAt c (outOwn c) (shareOf 15) f) :=
  Entails.of_eq (pts_shares_eq c (outOwn c) f)

theorem own_shares_join (c : Dev nD) (f : Buf (Elt F) ((outOwn c).view.loc ((c : Dev nD) : Thread nD τ))) :
    (iprop(ptsAt c (outOwn c) (shareOf 1) f ∗ ptsAt c (outOwn c) (shareOf 2) f ∗ ptsAt c (outOwn c) (shareOf 3) f ∗ ptsAt c (outOwn c) (shareOf 4) f ∗ ptsAt c (outOwn c) (shareOf 5) f ∗ ptsAt c (outOwn c) (shareOf 6) f ∗ ptsAt c (outOwn c) (shareOf 7) f ∗ ptsAt c (outOwn c) (shareOf 8) f ∗ ptsAt c (outOwn c) (shareOf 9) f ∗ ptsAt c (outOwn c) (shareOf 10) f ∗ ptsAt c (outOwn c) (shareOf 11) f ∗ ptsAt c (outOwn c) (shareOf 12) f ∗ ptsAt c (outOwn c) (shareOf 13) f ∗ ptsAt c (outOwn c) (shareOf 14) f ∗ ptsAt c (outOwn c) (shareOf 15) f) : sProp 𝕄)
      ⊢ ptsAt c (outOwn c) fullShare f :=
  Entails.of_eq (pts_shares_eq c (outOwn c) f).symm

/-! ## Joining pieces at different contents -/

/-- Pieces of one buffer on pairwise disjoint element sets, each at some contents, join into the buffer on their union
    at some contents. -/
theorem pointsTo_biUnion_join_ex {ℓ : Loc nD τ sig} {T : Type} [DecidableEq T] (S : Finset T) (K : T → Finset (Idx ℓ))
    (q : PosShare TreeShare) (h : ∀ t ∈ S, ∀ t' ∈ S, t ≠ t' → Disjoint (K t) (K t')) :
    bigSep S (fun t => (iprop(∃ f : Buf (Elt F) ℓ, ℓ ↦[K t]{q} f) : sProp 𝕄))
      ⊢ (iprop(∃ g : Buf (Elt F) ℓ, ℓ ↦[S.biUnion K]{q} g) : sProp 𝕄) := by
  induction S using Finset.induction_on with
  | empty =>
    iintro -
    iexists (fun _ => default)
    rw [Finset.biUnion_empty, pointsTo_empty]; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f : Buf (Elt F) ℓ, ℓ ↦[K t]{q} f) ∗ bigSep S (fun t => (iprop(∃ f : Buf (Elt F) ℓ, ℓ ↦[K t]{q} f) : sProp 𝕄))) ⊢ _ from ?_)
    iintro ⟨Ht, HS⟩
    icases Ht with ⟨%f, Ht⟩
    ihave H := (ih fun t₁ h₁ t₂ h₂ => h t₁ (Finset.mem_insert_of_mem h₁) t₂ (Finset.mem_insert_of_mem h₂)) $$ HS
    icases H with ⟨%g, HS⟩
    iexists (S.biUnion K).piecewise g f
    iapply (pointsTo_join hd)
    isplitl [Ht]; · iexact Ht
    iexact HS

/-- THE JOIN of the temporary buffer from its sixteen slots, each at some contents. -/
theorem tmp_join (c : Dev nD) :
    (iprop((∃ f, ptsAt c (tmpRow 0) fullShare f) ∗ (∃ f, ptsAt c (tmpRow 1) fullShare f) ∗ (∃ f, ptsAt c (tmpRow 2) fullShare f) ∗ (∃ f, ptsAt c (tmpRow 3) fullShare f) ∗ (∃ f, ptsAt c (tmpRow 4) fullShare f) ∗ (∃ f, ptsAt c (tmpRow 5) fullShare f) ∗ (∃ f, ptsAt c (tmpRow 6) fullShare f) ∗ (∃ f, ptsAt c (tmpRow 7) fullShare f) ∗ (∃ f, ptsAt c (tmpRow 8) fullShare f) ∗ (∃ f, ptsAt c (tmpRow 9) fullShare f) ∗ (∃ f, ptsAt c (tmpRow 10) fullShare f) ∗ (∃ f, ptsAt c (tmpRow 11) fullShare f) ∗ (∃ f, ptsAt c (tmpRow 12) fullShare f) ∗ (∃ f, ptsAt c (tmpRow 13) fullShare f) ∗ (∃ f, ptsAt c (tmpRow 14) fullShare f) ∗ (∃ f, ptsAt c (tmpRow 15) fullShare f)) : sProp 𝕄)
      ⊢ iprop(∃ f, ((c : Thread nD τ).loc cc0_scratch1) ↦{fullShare} f) := by
  have hj := pointsTo_biUnion_join_ex (F := F) (Finset.univ : Finset (Fin 16)) (tmpSet c) fullShare
    (fun o _ o' _ h => tmpRow_disjoint o o' h)
  rw [bigSep_fin16, tmp_union c] at hj
  exact hj

/-- THE JOIN of the partial-product buffer from the own row-block and the fifteen sources, each at some contents. -/
theorem acc_join (c : Dev nD) :
    (iprop((∃ f, ((c : Thread nD τ).loc cc0_scratch0) ↦[ownRow c]{fullShare} f) ∗ (∃ f, ptsAt c (accSrc c 1) fullShare f) ∗ (∃ f, ptsAt c (accSrc c 2) fullShare f) ∗ (∃ f, ptsAt c (accSrc c 3) fullShare f) ∗ (∃ f, ptsAt c (accSrc c 4) fullShare f) ∗ (∃ f, ptsAt c (accSrc c 5) fullShare f) ∗ (∃ f, ptsAt c (accSrc c 6) fullShare f) ∗ (∃ f, ptsAt c (accSrc c 7) fullShare f) ∗ (∃ f, ptsAt c (accSrc c 8) fullShare f) ∗ (∃ f, ptsAt c (accSrc c 9) fullShare f) ∗ (∃ f, ptsAt c (accSrc c 10) fullShare f) ∗ (∃ f, ptsAt c (accSrc c 11) fullShare f) ∗ (∃ f, ptsAt c (accSrc c 12) fullShare f) ∗ (∃ f, ptsAt c (accSrc c 13) fullShare f) ∗ (∃ f, ptsAt c (accSrc c 14) fullShare f) ∗ (∃ f, ptsAt c (accSrc c 15) fullShare f)) : sProp 𝕄)
      ⊢ iprop(∃ f, ((c : Thread nD τ).loc cc0_scratch0) ↦{fullShare} f) := by
  have hj := pointsTo_biUnion_join_ex (F := F) (Finset.univ : Finset (Fin 16)) (accSet c) fullShare
    (fun o _ o' _ h => accSet_disjoint c o o' h)
  rw [bigSep_fin16, acc_union c] at hj
  exact hj

end Cert.KernelIdeal.Proto

end
-- ==== Proof.Body.lean ====
/-
  One device's kernel body, stepped from what it starts with to what it leaves.
  The body cuts its temporary buffer into sixteen slots and its result's buffer into sixteen blocks and, with its fifteen
  barrier signals, hands each other device the slot and the block that device will write.  It loads its three input
  blocks and stores its partial product; waits for the fifteen signals addressed to it, which bring the slots and blocks
  it may write; cuts the partial product into its own row-block and fifteen sources and sends each source to the slot of
  the device it belongs to; adds its own row-block and the fifteen that land in its slots, in the order of the offsets;
  stores the sum as its own block of the result and sends that block to every other device; waits for the fifteen blocks
  sent to it, for its sources and for the shares of its own block; closes its sixty transfer cells; and joins the three
  buffers again.  Each step is one rule at a symbolic offset, applied at the offsets 1, …, 15 in turn.
-/
import proofs.«900432_g7700000000000433_dist_gconv1d_cshard_i_b4_s512_c256_v7x_i16_bf16_1_alg».proof.Proof.BodyWrap
import proofs.«900432_g7700000000000433_dist_gconv1d_cshard_i_b4_s512_c256_v7x_i16_bf16_1_alg».proof.Proof.StepsSig
import proofs.«900432_g7700000000000433_dist_gconv1d_cshard_i_b4_s512_c256_v7x_i16_bf16_1_alg».proof.Proof.Steps
import proofs.«900432_g7700000000000433_dist_gconv1d_cshard_i_b4_s512_c256_v7x_i16_bf16_1_alg».proof.Proof.StepsBar
import proofs.«900432_g7700000000000433_dist_gconv1d_cshard_i_b4_s512_c256_v7x_i16_bf16_1_alg».proof.Proof.Carve
import proofs.«900432_g7700000000000433_dist_gconv1d_cshard_i_b4_s512_c256_v7x_i16_bf16_1_alg».proof.Proof.CarveCompute
import proofs.«900432_g7700000000000433_dist_gconv1d_cshard_i_b4_s512_c256_v7x_i16_bf16_1_alg».proof.Proof.CarveSteps
import proofs.«900432_g7700000000000433_dist_gconv1d_cshard_i_b4_s512_c256_v7x_i16_bf16_1_alg».proof.Proof.CarveJoin

set_option maxRecDepth 65536
set_option maxHeartbeats 4000000

noncomputable section
namespace Cert.KernelIdeal.Proto
open Cert.KernelIdeal Cert.KernelIdeal.Gen Cert.KernelIdeal.Chains
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The body, one rule per effect in program order. -/
theorem sound_body_steps (K : Dev nD × CellIx → ℕ) (c : Dev nD) (W : Waits sig Unit)
    (gout : Buf (Elt F) ((c : Thread nD τ).loc cc0_stg3_0)) (facc : Buf (Elt F) ((c : Thread nD τ).loc cc0_scratch0))
    (ftmp : Buf (Elt F) ((c : Thread nD τ).loc cc0_scratch1)) (Kt : PUnit → sProp 𝕄) :
    iprop(bodyPre m K c W gout facc ftmp ∗ (bodyPost m c -∗ Kt ⟨⟩))
      ⊢ wp frame (wpE (defs₀ (F := F)) 𝒱₀ (c : Thread nD τ) none) Set.univ theBody Kt := by
  unfold theBody
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel
  simp only [semSignalWord, semWaitWord, Prog.lift, Prog.bind_op, Prog.bind_ret, Prog.pure_eq_ret, wp_deviceId]
  unfold bodyPre offChain
  rw [Onest_eq c]
  iintro ⟨⟨#Hrec, #Hlev, HatB, ⟨Hps1, Hps2, Hps3, Hps4, Hps5, Hps6, Hps7, Hps8, Hps9, Hps10, Hps11, Hps12, Hps13, Hps14, Hps15⟩, ⟨Hpr1, Hpr2, Hpr3, Hpr4, Hpr5, Hpr6, Hpr7, Hpr8, Hpr9, Hpr10, Hpr11, Hpr12, Hpr13, Hpr14, Hpr15⟩, ⟨Hpas1, Hpas2, Hpas3, Hpas4, Hpas5, Hpas6, Hpas7, Hpas8, Hpas9, Hpas10, Hpas11, Hpas12, Hpas13, Hpas14, Hpas15⟩, ⟨Hpar1, Hpar2, Hpar3, Hpar4, Hpar5, Hpar6, Hpar7, Hpar8, Hpar9, Hpar10, Hpar11, Hpar12, Hpar13, Hpar14, Hpar15⟩, ⟨Htb1, Htb2, Htb3, Htb4, Htb5, Htb6, Htb7, Htb8, Htb9, Htb10, Htb11, Htb12, Htb13, Htb14, Htb15⟩, ⟨Hts1, Hts2, Hts3, Hts4, Hts5, Hts6, Hts7, Hts8, Hts9, Hts10, Hts11, Hts12, Hts13, Hts14, Hts15⟩, ⟨Htr1, Htr2, Htr3, Htr4, Htr5, Htr6, Htr7, Htr8, Htr9, Htr10, Htr11, Htr12, Htr13, Htr14, Htr15⟩, ⟨Htas1, Htas2, Htas3, Htas4, Htas5, Htas6, Htas7, Htas8, Htas9, Htas10, Htas11, Htas12, Htas13, Htas14, Htas15⟩, ⟨Htar1, Htar2, Htar3, Htar4, Htar5, Htar6, Htar7, Htar8, Htar9, Htar10, Htar11, Htar12, Htar13, Htar14, Htar15⟩, HcB, ⟨Hcr1, Hcr2, Hcr3, Hcr4, Hcr5, Hcr6, Hcr7, Hcr8, Hcr9, Hcr10, Hcr11, Hcr12, Hcr13, Hcr14, Hcr15⟩, ⟨Hca1, Hca2, Hca3, Hca4, Hca5, Hca6, Hca7, Hca8, Hca9, Hca10, Hca11, Hca12, Hca13, Hca14, Hca15⟩, HO, Hx, Hkk, Hw, Hout, Hacc, Htmp⟩, Hk⟩
  -- the temporary buffer cut into its sixteen slots, the result's buffer into its sixteen blocks
  ihave Htmp' := (tmp_cut c ftmp) $$ Htmp
  icases Htmp' with ⟨Htm0, Htm1, Htm2, Htm3, Htm4, Htm5, Htm6, Htm7, Htm8, Htm9, Htm10, Htm11, Htm12, Htm13, Htm14, Htm15⟩
  ihave Hout' := (out_cut c gout) $$ Hout
  icases Hout' with ⟨Hoo, Hob1, Hob2, Hob3, Hob4, Hob5, Hob6, Hob7, Hob8, Hob9, Hob10, Hob11, Hob12, Hob13, Hob14, Hob15⟩
  -- the fifteen signals: each hands the receiver the slot and the block it will write
  iapply (wp_sig m c _ (1 : Fin 16) (by decide) (dev1_eq c) (K (peer c 1, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1 + tallyAt (barCell (peer c 5)) () 1 + tallyAt (barCell (peer c 4)) () 1 + tallyAt (barCell (peer c 3)) () 1 + tallyAt (barCell (peer c 2)) () 1) W ftmp gout) $$ [HO Htb1 Htm15 Hob1]
  · isplitr; · iapply (records_inv (Rd m) K (peer c 1, .inl ())); iexact Hrec
    isplitl [HO]; · iexact HO
    isplitl [Htb1]; · iexact Htb1
    isplitl [Htm15]; · iexact Htm15
    isplitl [Hob1]; · iexact Hob1
    isplitr; · iapply (records_reached (Rd m) K (c, .inr (1, (14 : Off)))); iexact Hrec
    isplitr; · iapply (records_reached (Rd m) K (c, .inr (3, (14 : Off)))); iexact Hrec
    iapply (records_reached (Rd m) K (peer c 1, .inl ())); iexact Hrec
  iintro HO
  iapply (wp_sig m c _ (2 : Fin 16) (by decide) (dev2_eq c) (K (peer c 2, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1 + tallyAt (barCell (peer c 5)) () 1 + tallyAt (barCell (peer c 4)) () 1 + tallyAt (barCell (peer c 3)) () 1) W ftmp gout) $$ [HO Htb2 Htm14 Hob2]
  · isplitr; · iapply (records_inv (Rd m) K (peer c 2, .inl ())); iexact Hrec
    isplitl [HO]; · iexact HO
    isplitl [Htb2]; · iexact Htb2
    isplitl [Htm14]; · iexact Htm14
    isplitl [Hob2]; · iexact Hob2
    isplitr; · iapply (records_reached (Rd m) K (c, .inr (1, (13 : Off)))); iexact Hrec
    isplitr; · iapply (records_reached (Rd m) K (c, .inr (3, (13 : Off)))); iexact Hrec
    iapply (records_reached (Rd m) K (peer c 2, .inl ())); iexact Hrec
  iintro HO
  iapply (wp_sig m c _ (3 : Fin 16) (by decide) (dev3_eq c) (K (peer c 3, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1 + tallyAt (barCell (peer c 5)) () 1 + tallyAt (barCell (peer c 4)) () 1) W ftmp gout) $$ [HO Htb3 Htm13 Hob3]
  · isplitr; · iapply (records_inv (Rd m) K (peer c 3, .inl ())); iexact Hrec
    isplitl [HO]; · iexact HO
    isplitl [Htb3]; · iexact Htb3
    isplitl [Htm13]; · iexact Htm13
    isplitl [Hob3]; · iexact Hob3
    isplitr; · iapply (records_reached (Rd m) K (c, .inr (1, (12 : Off)))); iexact Hrec
    isplitr; · iapply (records_reached (Rd m) K (c, .inr (3, (12 : Off)))); iexact Hrec
    iapply (records_reached (Rd m) K (peer c 3, .inl ())); iexact Hrec
  iintro HO
  iapply (wp_sig m c _ (4 : Fin 16) (by decide) (dev4_eq c) (K (peer c 4, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1 + tallyAt (barCell (peer c 5)) () 1) W ftmp gout) $$ [HO Htb4 Htm12 Hob4]
  · isplitr; · iapply (records_inv (Rd m) K (peer c 4, .inl ())); iexact Hrec
    isplitl [HO]; · iexact HO
    isplitl [Htb4]; · iexact Htb4
    isplitl [Htm12]; · iexact Htm12
    isplitl [Hob4]; · iexact Hob4
    isplitr; · iapply (records_reached (Rd m) K (c, .inr (1, (11 : Off)))); iexact Hrec
    isplitr; · iapply (records_reached (Rd m) K (c, .inr (3, (11 : Off)))); iexact Hrec
    iapply (records_reached (Rd m) K (peer c 4, .inl ())); iexact Hrec
  iintro HO
  iapply (wp_sig m c _ (5 : Fin 16) (by decide) (dev5_eq c) (K (peer c 5, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1) W ftmp gout) $$ [HO Htb5 Htm11 Hob5]
  · isplitr; · iapply (records_inv (Rd m) K (peer c 5, .inl ())); iexact Hrec
    isplitl [HO]; · iexact HO
    isplitl [Htb5]; · iexact Htb5
    isplitl [Htm11]; · iexact Htm11
    isplitl [Hob5]; · iexact Hob5
    isplitr; · iapply (records_reached (Rd m) K (c, .inr (1, (10 : Off)))); iexact Hrec
    isplitr; · iapply (records_reached (Rd m) K (c, .inr (3, (10 : Off)))); iexact Hrec
    iapply (records_reached (Rd m) K (peer c 5, .inl ())); iexact Hrec
  iintro HO
  iapply (wp_sig m c _ (6 : Fin 16) (by decide) (dev6_eq c) (K (peer c 6, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1) W ftmp gout) $$ [HO Htb6 Htm10 Hob6]
  · isplitr; · iapply (records_inv (Rd m) K (peer c 6, .inl ())); iexact Hrec
    isplitl [HO]; · iexact HO
    isplitl [Htb6]; · iexact Htb6
    isplitl [Htm10]; · iexact Htm10
    isplitl [Hob6]; · iexact Hob6
    isplitr; · iapply (records_reached (Rd m) K (c, .inr (1, (9 : Off)))); iexact Hrec
    isplitr; · iapply (records_reached (Rd m) K (c, .inr (3, (9 : Off)))); iexact Hrec
    iapply (records_reached (Rd m) K (peer c 6, .inl ())); iexact Hrec
  iintro HO
  iapply (wp_sig m c _ (7 : Fin 16) (by decide) (dev7_eq c) (K (peer c 7, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1) W ftmp gout) $$ [HO Htb7 Htm9 Hob7]
  · isplitr; · iapply (records_inv (Rd m) K (peer c 7, .inl ())); iexact Hrec
    isplitl [HO]; · iexact HO
    isplitl [Htb7]; · iexact Htb7
    isplitl [Htm9]; · iexact Htm9
    isplitl [Hob7]; · iexact Hob7
    isplitr; · iapply (records_reached (Rd m) K (c, .inr (1, (8 : Off)))); iexact Hrec
    isplitr; · iapply (records_reached (Rd m) K (c, .inr (3, (8 : Off)))); iexact Hrec
    iapply (records_reached (Rd m) K (peer c 7, .inl ())); iexact Hrec
  iintro HO
  iapply (wp_sig m c _ (8 : Fin 16) (by decide) (dev8_eq c) (K (peer c 8, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1) W ftmp gout) $$ [HO Htb8 Htm8 Hob8]
  · isplitr; · iapply (records_inv (Rd m) K (peer c 8, .inl ())); iexact Hrec
    isplitl [HO]; · iexact HO
    isplitl [Htb8]; · iexact Htb8
    isplitl [Htm8]; · iexact Htm8
    isplitl [Hob8]; · iexact Hob8
    isplitr; · iapply (records_reached (Rd m) K (c, .inr (1, (7 : Off)))); iexact Hrec
    isplitr; · iapply (records_reached (Rd m) K (c, .inr (3, (7 : Off)))); iexact Hrec
    iapply (records_reached (Rd m) K (peer c 8, .inl ())); iexact Hrec
  iintro HO
  iapply (wp_sig m c _ (9 : Fin 16) (by decide) (dev9_eq c) (K (peer c 9, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1) W ftmp gout) $$ [HO Htb9 Htm7 Hob9]
  · isplitr; · iapply (records_inv (Rd m) K (peer c 9, .inl ())); iexact Hrec
    isplitl [HO]; · iexact HO
    isplitl [Htb9]; · iexact Htb9
    isplitl [Htm7]; · iexact Htm7
    isplitl [Hob9]; · iexact Hob9
    isplitr; · iapply (records_reached (Rd m) K (c, .inr (1, (6 : Off)))); iexact Hrec
    isplitr; · iapply (records_reached (Rd m) K (c, .inr (3, (6 : Off)))); iexact Hrec
    iapply (records_reached (Rd m) K (peer c 9, .inl ())); iexact Hrec
  iintro HO
  iapply (wp_sig m c _ (10 : Fin 16) (by decide) (dev10_eq c) (K (peer c 10, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1) W ftmp gout) $$ [HO Htb10 Htm6 Hob10]
  · isplitr; · iapply (records_inv (Rd m) K (peer c 10, .inl ())); iexact Hrec
    isplitl [HO]; · iexact HO
    isplitl [Htb10]; · iexact Htb10
    isplitl [Htm6]; · iexact Htm6
    isplitl [Hob10]; · iexact Hob10
    isplitr; · iapply (records_reached (Rd m) K (c, .inr (1, (5 : Off)))); iexact Hrec
    isplitr; · iapply (records_reached (Rd m) K (c, .inr (3, (5 : Off)))); iexact Hrec
    iapply (records_reached (Rd m) K (peer c 10, .inl ())); iexact Hrec
  iintro HO
  iapply (wp_sig m c _ (11 : Fin 16) (by decide) (dev11_eq c) (K (peer c 11, .inl ())) (OnestRsAg c + tallyAt (barCell (peer c 15)) () 1 + tallyAt (barCell (peer c 14)) () 1 + tallyAt (barCell (peer c 13)) () 1 + tallyAt (barCell (peer c 12)) () 1) W ftmp gout) $$ [HO Htb11 Htm5 Hob11]
  · isplitr; · iapply (records_inv (Rd m) K (peer c 11, .inl ())); iexact Hrec
    isplitl [HO]; · iexact HO
    isplitl [Htb11]; · iexact Htb11
    isplitl [Htm5]; · iexact Htm5
    isplitl [Hob11]; · iexact Hob11
    isplitr; · iapply (records_reached (Rd m) K (c, .inr (1, (4 : Off)))); iexact Hrec
    isplitr; · iapply (records_reached (Rd m) K (c, .inr (3, (4 : Off)))); iexact Hrec
    iapply (records_reached (Rd m) K (peer c 11, .inl ())); iexact Hrec
  iintro HO
  iapply (wp_sig m c _ (12 : Fin 16) (by decide) (dev12_eq c) (K (peer c 12, .inl ())) (OnestRsAg c + tallyAt (barCell (peer c 15)) () 1 + tallyAt (barCell (peer c 14)) () 1 + tallyAt (barCell (peer c 13)) () 1) W ftmp gout) $$ [HO Htb12 Htm4 Hob12]
  · isplitr; · iapply (records_inv (Rd m) K (peer c 12, .inl ())); iexact Hrec
    isplitl [HO]; · iexact HO
    isplitl [Htb12]; · iexact Htb12
    isplitl [Htm4]; · iexact Htm4
    isplitl [Hob12]; · iexact Hob12
    isplitr; · iapply (records_reached (Rd m) K (c, .inr (1, (3 : Off)))); iexact Hrec
    isplitr; · iapply (records_reached (Rd m) K (c, .inr (3, (3 : Off)))); iexact Hrec
    iapply (records_reached (Rd m) K (peer c 12, .inl ())); iexact Hrec
  iintro HO
  iapply (wp_sig m c _ (13 : Fin 16) (by decide) (dev13_eq c) (K (peer c 13, .inl ())) (OnestRsAg c + tallyAt (barCell (peer c 15)) () 1 + tallyAt (barCell (peer c 14)) () 1) W ftmp gout) $$ [HO Htb13 Htm3 Hob13]
  · isplitr; · iapply (records_inv (Rd m) K (peer c 13, .inl ())); iexact Hrec
    isplitl [HO]; · iexact HO
    isplitl [Htb13]; · iexact Htb13
    isplitl [Htm3]; · iexact Htm3
    isplitl [Hob13]; · iexact Hob13
    isplitr; · iapply (records_reached (Rd m) K (c, .inr (1, (2 : Off)))); iexact Hrec
    isplitr; · iapply (records_reached (Rd m) K (c, .inr (3, (2 : Off)))); iexact Hrec
    iapply (records_reached (Rd m) K (peer c 13, .inl ())); iexact Hrec
  iintro HO
  iapply (wp_sig m c _ (14 : Fin 16) (by decide) (dev14_eq c) (K (peer c 14, .inl ())) (OnestRsAg c + tallyAt (barCell (peer c 15)) () 1) W ftmp gout) $$ [HO Htb14 Htm2 Hob14]
  · isplitr; · iapply (records_inv (Rd m) K (peer c 14, .inl ())); iexact Hrec
    isplitl [HO]; · iexact HO
    isplitl [Htb14]; · iexact Htb14
    isplitl [Htm2]; · iexact Htm2
    isplitl [Hob14]; · iexact Hob14
    isplitr; · iapply (records_reached (Rd m) K (c, .inr (1, (1 : Off)))); iexact Hrec
    isplitr; · iapply (records_reached (Rd m) K (c, .inr (3, (1 : Off)))); iexact Hrec
    iapply (records_reached (Rd m) K (peer c 14, .inl ())); iexact Hrec
  iintro HO
  iapply (wp_sig m c _ (15 : Fin 16) (by decide) (dev15_eq c) (K (peer c 15, .inl ())) (OnestRsAg c) W ftmp gout) $$ [HO Htb15 Htm1 Hob15]
  · isplitr; · iapply (records_inv (Rd m) K (peer c 15, .inl ())); iexact Hrec
    isplitl [HO]; · iexact HO
    isplitl [Htb15]; · iexact Htb15
    isplitl [Htm1]; · iexact Htm1
    isplitl [Hob15]; · iexact Hob15
    isplitr; · iapply (records_reached (Rd m) K (c, .inr (1, (0 : Off)))); iexact Hrec
    isplitr; · iapply (records_reached (Rd m) K (c, .inr (3, (0 : Off)))); iexact Hrec
    iapply (records_reached (Rd m) K (peer c 15, .inl ())); iexact Hrec
  iintro HO
  -- the three input blocks loaded, the partial product stored
  iapply (wp_compute_own m c facc _ _ _ _)
  isplitl [Hx]; · iexact Hx
  isplitl [Hkk]; · iexact Hkk
  isplitl [Hw]; · iexact Hw
  isplitl [Hacc]; · iexact Hacc
  iintro ⟨Hx, Hkk, Hw, Hacc⟩
  -- the wait for the fifteen peers' signals: each peer's slot and block to write come with it
  iapply (wp_bar_wait m c (K (c, .inl ())) (OnestRsAg c) W) $$ [HcB HO HatB]
  · isplitr; · iapply (records_inv (Rd m) K (c, .inl ())); iexact Hrec
    isplitl [HcB]; · iexact HcB
    isplitl [HO]; · iexact HO
    isplitr; · iapply (mayWait_bar c); iexact Hlev
    iexact HatB
  iintro ⟨HO, HatB, #HrB1, Hpays⟩
  unfold barPays peerPay
  icases Hpays with ⟨⟨⟨%t1, Ht1⟩, ⟨%u1, Hu1⟩, #Hrs1, #Hag1⟩, ⟨⟨%t2, Ht2⟩, ⟨%u2, Hu2⟩, #Hrs2, #Hag2⟩, ⟨⟨%t3, Ht3⟩, ⟨%u3, Hu3⟩, #Hrs3, #Hag3⟩, ⟨⟨%t4, Ht4⟩, ⟨%u4, Hu4⟩, #Hrs4, #Hag4⟩, ⟨⟨%t5, Ht5⟩, ⟨%u5, Hu5⟩, #Hrs5, #Hag5⟩, ⟨⟨%t6, Ht6⟩, ⟨%u6, Hu6⟩, #Hrs6, #Hag6⟩, ⟨⟨%t7, Ht7⟩, ⟨%u7, Hu7⟩, #Hrs7, #Hag7⟩, ⟨⟨%t8, Ht8⟩, ⟨%u8, Hu8⟩, #Hrs8, #Hag8⟩, ⟨⟨%t9, Ht9⟩, ⟨%u9, Hu9⟩, #Hrs9, #Hag9⟩, ⟨⟨%t10, Ht10⟩, ⟨%u10, Hu10⟩, #Hrs10, #Hag10⟩, ⟨⟨%t11, Ht11⟩, ⟨%u11, Hu11⟩, #Hrs11, #Hag11⟩, ⟨⟨%t12, Ht12⟩, ⟨%u12, Hu12⟩, #Hrs12, #Hag12⟩, ⟨⟨%t13, Ht13⟩, ⟨%u13, Hu13⟩, #Hrs13, #Hag13⟩, ⟨⟨%t14, Ht14⟩, ⟨%u14, Hu14⟩, #Hrs14, #Hag14⟩, ⟨⟨%t15, Ht15⟩, ⟨%u15, Hu15⟩, #Hrs15, #Hag15⟩⟩
  -- the partial-product buffer cut into the own row-block and the fifteen sources of the scatter copies
  ihave Hacc' := (acc_cut c (partialOf m c)) $$ Hacc
  icases Hacc' with ⟨Hao, Has1, Has2, Has3, Has4, Has5, Has6, Has7, Has8, Has9, Has10, Has11, Has12, Has13, Has14, Has15⟩
  -- the fifteen scatter copies: row-block (c + o) mod 16 into slot o of the device o places on
  iapply (wp_rs_copy m c _ (1 : Fin 16) (by decide) (dev16_eq c) (K (c, .inr (0, (0 : Off)))) (K (peer c 1, .inr (1, (0 : Off)))) t1 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N + tallyAt (rsRecvCell (peer c 7) 7) () N + tallyAt (rsRecvCell (peer c 6) 6) () N + tallyAt (rsRecvCell (peer c 5) 5) () N + tallyAt (rsRecvCell (peer c 4) 4) () N + tallyAt (rsRecvCell (peer c 3) 3) () N + tallyAt (rsRecvCell (peer c 2) 2) () N) _ (scatter_landing m c (1 : Fin 16) (by decide) t1)) $$ [Has1 Ht1 HO Hts1 Htr1]
  · isplitr; · iapply (records_inv (Rd m) K (c, .inr (0, (0 : Off)))); iexact Hrec
    isplitr; · iapply (records_inv (Rd m) K (peer c 1, .inr (1, (0 : Off)))); iexact Hrec
    isplitl [Has1]; · iexact Has1
    isplitl [Ht1]; · iexact Ht1
    isplitl [HO]; · iexact HO
    isplitl [Hts1]; · iexact Hts1
    isplitr; · iapply (records_reached (Rd m) K (c, .inr (0, (0 : Off)))); iexact Hrec
    isplitl [Htr1]; · iexact Htr1
    iexact Hrs1
  iintro ⟨Hcs1, HO⟩
  iapply (wp_rs_copy m c _ (2 : Fin 16) (by decide) (dev17_eq c) (K (c, .inr (0, (1 : Off)))) (K (peer c 2, .inr (1, (1 : Off)))) t2 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N + tallyAt (rsRecvCell (peer c 7) 7) () N + tallyAt (rsRecvCell (peer c 6) 6) () N + tallyAt (rsRecvCell (peer c 5) 5) () N + tallyAt (rsRecvCell (peer c 4) 4) () N + tallyAt (rsRecvCell (peer c 3) 3) () N) _ (scatter_landing m c (2 : Fin 16) (by decide) t2)) $$ [Has2 Ht2 HO Hts2 Htr2]
  · isplitr; · iapply (records_inv (Rd m) K (c, .inr (0, (1 : Off)))); iexact Hrec
    isplitr; · iapply (records_inv (Rd m) K (peer c 2, .inr (1, (1 : Off)))); iexact Hrec
    isplitl [Has2]; · iexact Has2
    isplitl [Ht2]; · iexact Ht2
    isplitl [HO]; · iexact HO
    isplitl [Hts2]; · iexact Hts2
    isplitr; · iapply (records_reached (Rd m) K (c, .inr (0, (1 : Off)))); iexact Hrec
    isplitl [Htr2]; · iexact Htr2
    iexact Hrs2
  iintro ⟨Hcs2, HO⟩
  iapply (wp_rs_copy m c _ (3 : Fin 16) (by decide) (dev18_eq c) (K (c, .inr (0, (2 : Off)))) (K (peer c 3, .inr (1, (2 : Off)))) t3 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N + tallyAt (rsRecvCell (peer c 7) 7) () N + tallyAt (rsRecvCell (peer c 6) 6) () N + tallyAt (rsRecvCell (peer c 5) 5) () N + tallyAt (rsRecvCell (peer c 4) 4) () N) _ (scatter_landing m c (3 : Fin 16) (by decide) t3)) $$ [Has3 Ht3 HO Hts3 Htr3]
  · isplitr; · iapply (records_inv (Rd m) K (c, .inr (0, (2 : Off)))); iexact Hrec
    isplitr; · iapply (records_inv (Rd m) K (peer c 3, .inr (1, (2 : Off)))); iexact Hrec
    isplitl [Has3]; · iexact Has3
    isplitl [Ht3]; · iexact Ht3
    isplitl [HO]; · iexact HO
    isplitl [Hts3]; · iexact Hts3
    isplitr; · iapply (records_reached (Rd m) K (c, .inr (0, (2 : Off)))); iexact Hrec
    isplitl [Htr3]; · iexact Htr3
    iexact Hrs3
  iintro ⟨Hcs3, HO⟩
  iapply (wp_rs_copy m c _ (4 : Fin 16) (by decide) (dev19_eq c) (K (c, .inr (0, (3 : Off)))) (K (peer c 4, .inr (1, (3 : Off)))) t4 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N + tallyAt (rsRecvCell (peer c 7) 7) () N + tallyAt (rsRecvCell (peer c 6) 6) () N + tallyAt (rsRecvCell (peer c 5) 5) () N) _ (scatter_landing m c (4 : Fin 16) (by decide) t4)) $$ [Has4 Ht4 HO Hts4 Htr4]
  · isplitr; · iapply (records_inv (Rd m) K (c, .inr (0, (3 : Off)))); iexact Hrec
    isplitr; · iapply (records_inv (Rd m) K (peer c 4, .inr (1, (3 : Off)))); iexact Hrec
    isplitl [Has4]; · iexact Has4
    isplitl [Ht4]; · iexact Ht4
    isplitl [HO]; · iexact HO
    isplitl [Hts4]; · iexact Hts4
    isplitr; · iapply (records_reached (Rd m) K (c, .inr (0, (3 : Off)))); iexact Hrec
    isplitl [Htr4]; · iexact Htr4
    iexact Hrs4
  iintro ⟨Hcs4, HO⟩
  iapply (wp_rs_copy m c _ (5 : Fin 16) (by decide) (dev20_eq c) (K (c, .inr (0, (4 : Off)))) (K (peer c 5, .inr (1, (4 : Off)))) t5 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N + tallyAt (rsRecvCell (peer c 7) 7) () N + tallyAt (rsRecvCell (peer c 6) 6) () N) _ (scatter_landing m c (5 : Fin 16) (by decide) t5)) $$ [Has5 Ht5 HO Hts5 Htr5]
  · isplitr; · iapply (records_inv (Rd m) K (c, .inr (0, (4 : Off)))); iexact Hrec
    isplitr; · iapply (records_inv (Rd m) K (peer c 5, .inr (1, (4 : Off)))); iexact Hrec
    isplitl [Has5]; · iexact Has5
    isplitl [Ht5]; · iexact Ht5
    isplitl [HO]; · iexact HO
    isplitl [Hts5]; · iexact Hts5
    isplitr; · iapply (records_reached (Rd m) K (c, .inr (0, (4 : Off)))); iexact Hrec
    isplitl [Htr5]; · iexact Htr5
    iexact Hrs5
  iintro ⟨Hcs5, HO⟩
  iapply (wp_rs_copy m c _ (6 : Fin 16) (by decide) (dev21_eq c) (K (c, .inr (0, (5 : Off)))) (K (peer c 6, .inr (1, (5 : Off)))) t6 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N + tallyAt (rsRecvCell (peer c 7) 7) () N) _ (scatter_landing m c (6 : Fin 16) (by decide) t6)) $$ [Has6 Ht6 HO Hts6 Htr6]
  · isplitr; · iapply (records_inv (Rd m) K (c, .inr (0, (5 : Off)))); iexact Hrec
    isplitr; · iapply (records_inv (Rd m) K (peer c 6, .inr (1, (5 : Off)))); iexact Hrec
    isplitl [Has6]; · iexact Has6
    isplitl [Ht6]; · iexact Ht6
    isplitl [HO]; · iexact HO
    isplitl [Hts6]; · iexact Hts6
    isplitr; · iapply (records_reached (Rd m) K (c, .inr (0, (5 : Off)))); iexact Hrec
    isplitl [Htr6]; · iexact Htr6
    iexact Hrs6
  iintro ⟨Hcs6, HO⟩
  iapply (wp_rs_copy m c _ (7 : Fin 16) (by decide) (dev22_eq c) (K (c, .inr (0, (6 : Off)))) (K (peer c 7, .inr (1, (6 : Off)))) t7 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N) _ (scatter_landing m c (7 : Fin 16) (by decide) t7)) $$ [Has7 Ht7 HO Hts7 Htr7]
  · isplitr; · iapply (records_inv (Rd m) K (c, .inr (0, (6 : Off)))); iexact Hrec
    isplitr; · iapply (records_inv (Rd m) K (peer c 7, .inr (1, (6 : Off)))); iexact Hrec
    isplitl [Has7]; · iexact Has7
    isplitl [Ht7]; · iexact Ht7
    isplitl [HO]; · iexact HO
    isplitl [Hts7]; · iexact Hts7
    isplitr; · iapply (records_reached (Rd m) K (c, .inr (0, (6 : Off)))); iexact Hrec
    isplitl [Htr7]; · iexact Htr7
    iexact Hrs7
  iintro ⟨Hcs7, HO⟩
  iapply (wp_rs_copy m c _ (8 : Fin 16) (by decide) (dev23_eq c) (K (c, .inr (0, (7 : Off)))) (K (peer c 8, .inr (1, (7 : Off)))) t8 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N) _ (scatter_landing m c (8 : Fin 16) (by decide) t8)) $$ [Has8 Ht8 HO Hts8 Htr8]
  · isplitr; · iapply (records_inv (Rd m) K (c, .inr (0, (7 : Off)))); iexact Hrec
    isplitr; · iapply (records_inv (Rd m) K (peer c 8, .inr (1, (7 : Off)))); iexact Hrec
    isplitl [Has8]; · iexact Has8
    isplitl [Ht8]; · iexact Ht8
    isplitl [HO]; · iexact HO
    isplitl [Hts8]; · iexact Hts8
    isplitr; · iapply (records_reached (Rd m) K (c, .inr (0, (7 : Off)))); iexact Hrec
    isplitl [Htr8]; · iexact Htr8
    iexact Hrs8
  iintro ⟨Hcs8, HO⟩
  iapply (wp_rs_copy m c _ (9 : Fin 16) (by decide) (dev24_eq c) (K (c, .inr (0, (8 : Off)))) (K (peer c 9, .inr (1, (8 : Off)))) t9 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N) _ (scatter_landing m c (9 : Fin 16) (by decide) t9)) $$ [Has9 Ht9 HO Hts9 Htr9]
  · isplitr; · iapply (records_inv (Rd m) K (c, .inr (0, (8 : Off)))); iexact Hrec
    isplitr; · iapply (records_inv (Rd m) K (peer c 9, .inr (1, (8 : Off)))); iexact Hrec
    isplitl [Has9]; · iexact Has9
    isplitl [Ht9]; · iexact Ht9
    isplitl [HO]; · iexact HO
    isplitl [Hts9]; · iexact Hts9
    isplitr; · iapply (records_reached (Rd m) K (c, .inr (0, (8 : Off)))); iexact Hrec
    isplitl [Htr9]; · iexact Htr9
    iexact Hrs9
  iintro ⟨Hcs9, HO⟩
  iapply (wp_rs_copy m c _ (10 : Fin 16) (by decide) (dev25_eq c) (K (c, .inr (0, (9 : Off)))) (K (peer c 10, .inr (1, (9 : Off)))) t10 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N) _ (scatter_landing m c (10 : Fin 16) (by decide) t10)) $$ [Has10 Ht10 HO Hts10 Htr10]
  · isplitr; · iapply (records_inv (Rd m) K (c, .inr (0, (9 : Off)))); iexact Hrec
    isplitr; · iapply (records_inv (Rd m) K (peer c 10, .inr (1, (9 : Off)))); iexact Hrec
    isplitl [Has10]; · iexact Has10
    isplitl [Ht10]; · iexact Ht10
    isplitl [HO]; · iexact HO
    isplitl [Hts10]; · iexact Hts10
    isplitr; · iapply (records_reached (Rd m) K (c, .inr (0, (9 : Off)))); iexact Hrec
    isplitl [Htr10]; · iexact Htr10
    iexact Hrs10
  iintro ⟨Hcs10, HO⟩
  iapply (wp_rs_copy m c _ (11 : Fin 16) (by decide) (dev26_eq c) (K (c, .inr (0, (10 : Off)))) (K (peer c 11, .inr (1, (10 : Off)))) t11 (OnestAg c + tallyAt (rsRecvCell (peer c 15) 15) () N + tallyAt (rsRecvCell (peer c 14) 14) () N + tallyAt (rsRecvCell (peer c 13) 13) () N + tallyAt (rsRecvCell (peer c 12) 12) () N) _ (scatter_landing m c (11 : Fin 16) (by decide) t11)) $$ [Has11 Ht11 HO Hts11 Htr11]
  · isplitr; · iapply (records_inv (Rd m) K (c, .inr (0, (10 : Off)))); iexact Hrec
    isplitr; · iapply (records_inv (Rd m) K (peer c 11, .inr (1, (10 : Off)))); iexact Hrec
    isplitl [Has11]; · iexact Has11
    isplitl [Ht11]; · iexact Ht11
    isplitl [HO]; · iexact HO
    isplitl [Hts11]; · iexact Hts11
    isplitr; · iapply (records_reached (Rd m) K (c, .inr (0, (10 : Off)))); iexact Hrec
    isplitl [Htr11]; · iexact Htr11
    iexact Hrs11
  iintro ⟨Hcs11, HO⟩
  iapply (wp_rs_copy m c _ (12 : Fin 16) (by decide) (dev27_eq c) (K (c, .inr (0, (11 : Off)))) (K (peer c 12, .inr (1, (11 : Off)))) t12 (OnestAg c + tallyAt (rsRecvCell (peer c 15) 15) () N + tallyAt (rsRecvCell (peer c 14) 14) () N + tallyAt (rsRecvCell (peer c 13) 13) () N) _ (scatter_landing m c (12 : Fin 16) (by decide) t12)) $$ [Has12 Ht12 HO Hts12 Htr12]
  · isplitr; · iapply (records_inv (Rd m) K (c, .inr (0, (11 : Off)))); iexact Hrec
    isplitr; · iapply (records_inv (Rd m) K (peer c 12, .inr (1, (11 : Off)))); iexact Hrec
    isplitl [Has12]; · iexact Has12
    isplitl [Ht12]; · iexact Ht12
    isplitl [HO]; · iexact HO
    isplitl [Hts12]; · iexact Hts12
    isplitr; · iapply (records_reached (Rd m) K (c, .inr (0, (11 : Off)))); iexact Hrec
    isplitl [Htr12]; · iexact Htr12
    iexact Hrs12
  iintro ⟨Hcs12, HO⟩
  iapply (wp_rs_copy m c _ (13 : Fin 16) (by decide) (dev28_eq c) (K (c, .inr (0, (12 : Off)))) (K (peer c 13, .inr (1, (12 : Off)))) t13 (OnestAg c + tallyAt (rsRecvCell (peer c 15) 15) () N + tallyAt (rsRecvCell (peer c 14) 14) () N) _ (scatter_landing m c (13 : Fin 16) (by decide) t13)) $$ [Has13 Ht13 HO Hts13 Htr13]
  · isplitr; · iapply (records_inv (Rd m) K (c, .inr (0, (12 : Off)))); iexact Hrec
    isplitr; · iapply (records_inv (Rd m) K (peer c 13, .inr (1, (12 : Off)))); iexact Hrec
    isplitl [Has13]; · iexact Has13
    isplitl [Ht13]; · iexact Ht13
    isplitl [HO]; · iexact HO
    isplitl [Hts13]; · iexact Hts13
    isplitr; · iapply (records_reached (Rd m) K (c, .inr (0, (12 : Off)))); iexact Hrec
    isplitl [Htr13]; · iexact Htr13
    iexact Hrs13
  iintro ⟨Hcs13, HO⟩
  iapply (wp_rs_copy m c _ (14 : Fin 16) (by decide) (dev29_eq c) (K (c, .inr (0, (13 : Off)))) (K (peer c 14, .inr (1, (13 : Off)))) t14 (OnestAg c + tallyAt (rsRecvCell (peer c 15) 15) () N) _ (scatter_landing m c (14 : Fin 16) (by decide) t14)) $$ [Has14 Ht14 HO Hts14 Htr14]
  · isplitr; · iapply (records_inv (Rd m) K (c, .inr (0, (13 : Off)))); iexact Hrec
    isplitr; · iapply (records_inv (Rd m) K (peer c 14, .inr (1, (13 : Off)))); iexact Hrec
    isplitl [Has14]; · iexact Has14
    isplitl [Ht14]; · iexact Ht14
    isplitl [HO]; · iexact HO
    isplitl [Hts14]; · iexact Hts14
    isplitr; · iapply (records_reached (Rd m) K (c, .inr (0, (13 : Off)))); iexact Hrec
    isplitl [Htr14]; · iexact Htr14
    iexact Hrs14
  iintro ⟨Hcs14, HO⟩
  iapply (wp_rs_copy m c _ (15 : Fin 16) (by decide) (dev30_eq c) (K (c, .inr (0, (14 : Off)))) (K (peer c 15, .inr (1, (14 : Off)))) t15 (OnestAg c) _ (scatter_landing m c (15 : Fin 16) (by decide) t15)) $$ [Has15 Ht15 HO Hts15 Htr15]
  · isplitr; · iapply (records_inv (Rd m) K (c, .inr (0, (14 : Off)))); iexact Hrec
    isplitr; · iapply (records_inv (Rd m) K (peer c 15, .inr (1, (14 : Off)))); iexact Hrec
    isplitl [Has15]; · iexact Has15
    isplitl [Ht15]; · iexact Ht15
    isplitl [HO]; · iexact HO
    isplitl [Hts15]; · iexact Hts15
    isplitr; · iapply (records_reached (Rd m) K (c, .inr (0, (14 : Off)))); iexact Hrec
    isplitl [Htr15]; · iexact Htr15
    iexact Hrs15
  iintro ⟨Hcs15, HO⟩
  -- the device's own row-block
  iapply (wp_load_own m c fullShare)
  isplitl [Hao]; · iexact Hao
  iintro Hao
  -- each landed block, as its wait passes
  iapply (wp_rsRecv_wait m c (1 : Fin 16) (by decide) (w := TpuEff.waitDma2 (rsRecv (1 : Fin 16)) (accSrc c (1 : Fin 16)) (tmpRow (1 : Fin 16)) _ _) (wpE_waitDma2_eq 𝒱₀ (c : Thread nD τ) none Set.univ) (K (c, .inr (1, (0 : Off)))) (OnestAg c) _) $$ [Hcr1 HO Hpr1]
  · isplitr; · iapply (records_inv (Rd m) K (c, .inr (1, (0 : Off)))); iexact Hrec
    isplitl [Hcr1]; · iexact Hcr1
    isplitl [HO]; · iexact HO
    isplitr; · iapply (mayWait_rsRecv c (1 : Fin 16)); iexact Hlev
    iexact Hpr1
  iintro ⟨HO, Hpr1, -, Hland1⟩
  ihave Hland1 := (Entails.of_eq (show (rsRecvPay m c (1 : Fin 16) : sProp 𝕄) = ptsAt c (tmpRow ⟨1, by decide⟩) fullShare (tmpBufAt m c ⟨1, by decide⟩) from rfl)) $$ Hland1
  iapply (wp_load_slot m c 1 (by decide) _)
  isplitl [Hland1]; · iexact Hland1
  iintro Hland1
  iapply (wp_rsRecv_wait m c (2 : Fin 16) (by decide) (w := TpuEff.waitDma2 (rsRecv (2 : Fin 16)) (accSrc c (2 : Fin 16)) (tmpRow (2 : Fin 16)) _ _) (wpE_waitDma2_eq 𝒱₀ (c : Thread nD τ) none Set.univ) (K (c, .inr (1, (1 : Off)))) (OnestAg c) _) $$ [Hcr2 HO Hpr2]
  · isplitr; · iapply (records_inv (Rd m) K (c, .inr (1, (1 : Off)))); iexact Hrec
    isplitl [Hcr2]; · iexact Hcr2
    isplitl [HO]; · iexact HO
    isplitr; · iapply (mayWait_rsRecv c (2 : Fin 16)); iexact Hlev
    iexact Hpr2
  iintro ⟨HO, Hpr2, -, Hland2⟩
  ihave Hland2 := (Entails.of_eq (show (rsRecvPay m c (2 : Fin 16) : sProp 𝕄) = ptsAt c (tmpRow ⟨2, by decide⟩) fullShare (tmpBufAt m c ⟨2, by decide⟩) from rfl)) $$ Hland2
  iapply (wp_load_slot m c 2 (by decide) _)
  isplitl [Hland2]; · iexact Hland2
  iintro Hland2
  iapply (wp_rsRecv_wait m c (3 : Fin 16) (by decide) (w := TpuEff.waitDma2 (rsRecv (3 : Fin 16)) (accSrc c (3 : Fin 16)) (tmpRow (3 : Fin 16)) _ _) (wpE_waitDma2_eq 𝒱₀ (c : Thread nD τ) none Set.univ) (K (c, .inr (1, (2 : Off)))) (OnestAg c) _) $$ [Hcr3 HO Hpr3]
  · isplitr; · iapply (records_inv (Rd m) K (c, .inr (1, (2 : Off)))); iexact Hrec
    isplitl [Hcr3]; · iexact Hcr3
    isplitl [HO]; · iexact HO
    isplitr; · iapply (mayWait_rsRecv c (3 : Fin 16)); iexact Hlev
    iexact Hpr3
  iintro ⟨HO, Hpr3, -, Hland3⟩
  ihave Hland3 := (Entails.of_eq (show (rsRecvPay m c (3 : Fin 16) : sProp 𝕄) = ptsAt c (tmpRow ⟨3, by decide⟩) fullShare (tmpBufAt m c ⟨3, by decide⟩) from rfl)) $$ Hland3
  iapply (wp_load_slot m c 3 (by decide) _)
  isplitl [Hland3]; · iexact Hland3
  iintro Hland3
  iapply (wp_rsRecv_wait m c (4 : Fin 16) (by decide) (w := TpuEff.waitDma2 (rsRecv (4 : Fin 16)) (accSrc c (4 : Fin 16)) (tmpRow (4 : Fin 16)) _ _) (wpE_waitDma2_eq 𝒱₀ (c : Thread nD τ) none Set.univ) (K (c, .inr (1, (3 : Off)))) (OnestAg c) _) $$ [Hcr4 HO Hpr4]
  · isplitr; · iapply (records_inv (Rd m) K (c, .inr (1, (3 : Off)))); iexact Hrec
    isplitl [Hcr4]; · iexact Hcr4
    isplitl [HO]; · iexact HO
    isplitr; · iapply (mayWait_rsRecv c (4 : Fin 16)); iexact Hlev
    iexact Hpr4
  iintro ⟨HO, Hpr4, -, Hland4⟩
  ihave Hland4 := (Entails.of_eq (show (rsRecvPay m c (4 : Fin 16) : sProp 𝕄) = ptsAt c (tmpRow ⟨4, by decide⟩) fullShare (tmpBufAt m c ⟨4, by decide⟩) from rfl)) $$ Hland4
  iapply (wp_load_slot m c 4 (by decide) _)
  isplitl [Hland4]; · iexact Hland4
  iintro Hland4
  iapply (wp_rsRecv_wait m c (5 : Fin 16) (by decide) (w := TpuEff.waitDma2 (rsRecv (5 : Fin 16)) (accSrc c (5 : Fin 16)) (tmpRow (5 : Fin 16)) _ _) (wpE_waitDma2_eq 𝒱₀ (c : Thread nD τ) none Set.univ) (K (c, .inr (1, (4 : Off)))) (OnestAg c) _) $$ [Hcr5 HO Hpr5]
  · isplitr; · iapply (records_inv (Rd m) K (c, .inr (1, (4 : Off)))); iexact Hrec
    isplitl [Hcr5]; · iexact Hcr5
    isplitl [HO]; · iexact HO
    isplitr; · iapply (mayWait_rsRecv c (5 : Fin 16)); iexact Hlev
    iexact Hpr5
  iintro ⟨HO, Hpr5, -, Hland5⟩
  ihave Hland5 := (Entails.of_eq (show (rsRecvPay m c (5 : Fin 16) : sProp 𝕄) = ptsAt c (tmpRow ⟨5, by decide⟩) fullShare (tmpBufAt m c ⟨5, by decide⟩) from rfl)) $$ Hland5
  iapply (wp_load_slot m c 5 (by decide) _)
  isplitl [Hland5]; · iexact Hland5
  iintro Hland5
  iapply (wp_rsRecv_wait m c (6 : Fin 16) (by decide) (w := TpuEff.waitDma2 (rsRecv (6 : Fin 16)) (accSrc c (6 : Fin 16)) (tmpRow (6 : Fin 16)) _ _) (wpE_waitDma2_eq 𝒱₀ (c : Thread nD τ) none Set.univ) (K (c, .inr (1, (5 : Off)))) (OnestAg c) _) $$ [Hcr6 HO Hpr6]
  · isplitr; · iapply (records_inv (Rd m) K (c, .inr (1, (5 : Off)))); iexact Hrec
    isplitl [Hcr6]; · iexact Hcr6
    isplitl [HO]; · iexact HO
    isplitr; · iapply (mayWait_rsRecv c (6 : Fin 16)); iexact Hlev
    iexact Hpr6
  iintro ⟨HO, Hpr6, -, Hland6⟩
  ihave Hland6 := (Entails.of_eq (show (rsRecvPay m c (6 : Fin 16) : sProp 𝕄) = ptsAt c (tmpRow ⟨6, by decide⟩) fullShare (tmpBufAt m c ⟨6, by decide⟩) from rfl)) $$ Hland6
  iapply (wp_load_slot m c 6 (by decide) _)
  isplitl [Hland6]; · iexact Hland6
  iintro Hland6
  iapply (wp_rsRecv_wait m c (7 : Fin 16) (by decide) (w := TpuEff.waitDma2 (rsRecv (7 : Fin 16)) (accSrc c (7 : Fin 16)) (tmpRow (7 : Fin 16)) _ _) (wpE_waitDma2_eq 𝒱₀ (c : Thread nD τ) none Set.univ) (K (c, .inr (1, (6 : Off)))) (OnestAg c) _) $$ [Hcr7 HO Hpr7]
  · isplitr; · iapply (records_inv (Rd m) K (c, .inr (1, (6 : Off)))); iexact Hrec
    isplitl [Hcr7]; · iexact Hcr7
    isplitl [HO]; · iexact HO
    isplitr; · iapply (mayWait_rsRecv c (7 : Fin 16)); iexact Hlev
    iexact Hpr7
  iintro ⟨HO, Hpr7, -, Hland7⟩
  ihave Hland7 := (Entails.of_eq (show (rsRecvPay m c (7 : Fin 16) : sProp 𝕄) = ptsAt c (tmpRow ⟨7, by decide⟩) fullShare (tmpBufAt m c ⟨7, by decide⟩) from rfl)) $$ Hland7
  iapply (wp_load_slot m c 7 (by decide) _)
  isplitl [Hland7]; · iexact Hland7
  iintro Hland7
  iapply (wp_rsRecv_wait m c (8 : Fin 16) (by decide) (w := TpuEff.waitDma2 (rsRecv (8 : Fin 16)) (accSrc c (8 : Fin 16)) (tmpRow (8 : Fin 16)) _ _) (wpE_waitDma2_eq 𝒱₀ (c : Thread nD τ) none Set.univ) (K (c, .inr (1, (7 : Off)))) (OnestAg c) _) $$ [Hcr8 HO Hpr8]
  · isplitr; · iapply (records_inv (Rd m) K (c, .inr (1, (7 : Off)))); iexact Hrec
    isplitl [Hcr8]; · iexact Hcr8
    isplitl [HO]; · iexact HO
    isplitr; · iapply (mayWait_rsRecv c (8 : Fin 16)); iexact Hlev
    iexact Hpr8
  iintro ⟨HO, Hpr8, -, Hland8⟩
  ihave Hland8 := (Entails.of_eq (show (rsRecvPay m c (8 : Fin 16) : sProp 𝕄) = ptsAt c (tmpRow ⟨8, by decide⟩) fullShare (tmpBufAt m c ⟨8, by decide⟩) from rfl)) $$ Hland8
  iapply (wp_load_slot m c 8 (by decide) _)
  isplitl [Hland8]; · iexact Hland8
  iintro Hland8
  iapply (wp_rsRecv_wait m c (9 : Fin 16) (by decide) (w := TpuEff.waitDma2 (rsRecv (9 : Fin 16)) (accSrc c (9 : Fin 16)) (tmpRow (9 : Fin 16)) _ _) (wpE_waitDma2_eq 𝒱₀ (c : Thread nD τ) none Set.univ) (K (c, .inr (1, (8 : Off)))) (OnestAg c) _) $$ [Hcr9 HO Hpr9]
  · isplitr; · iapply (records_inv (Rd m) K (c, .inr (1, (8 : Off)))); iexact Hrec
    isplitl [Hcr9]; · iexact Hcr9
    isplitl [HO]; · iexact HO
    isplitr; · iapply (mayWait_rsRecv c (9 : Fin 16)); iexact Hlev
    iexact Hpr9
  iintro ⟨HO, Hpr9, -, Hland9⟩
  ihave Hland9 := (Entails.of_eq (show (rsRecvPay m c (9 : Fin 16) : sProp 𝕄) = ptsAt c (tmpRow ⟨9, by decide⟩) fullShare (tmpBufAt m c ⟨9, by decide⟩) from rfl)) $$ Hland9
  iapply (wp_load_slot m c 9 (by decide) _)
  isplitl [Hland9]; · iexact Hland9
  iintro Hland9
  iapply (wp_rsRecv_wait m c (10 : Fin 16) (by decide) (w := TpuEff.waitDma2 (rsRecv (10 : Fin 16)) (accSrc c (10 : Fin 16)) (tmpRow (10 : Fin 16)) _ _) (wpE_waitDma2_eq 𝒱₀ (c : Thread nD τ) none Set.univ) (K (c, .inr (1, (9 : Off)))) (OnestAg c) _) $$ [Hcr10 HO Hpr10]
  · isplitr; · iapply (records_inv (Rd m) K (c, .inr (1, (9 : Off)))); iexact Hrec
    isplitl [Hcr10]; · iexact Hcr10
    isplitl [HO]; · iexact HO
    isplitr; · iapply (mayWait_rsRecv c (10 : Fin 16)); iexact Hlev
    iexact Hpr10
  iintro ⟨HO, Hpr10, -, Hland10⟩
  ihave Hland10 := (Entails.of_eq (show (rsRecvPay m c (10 : Fin 16) : sProp 𝕄) = ptsAt c (tmpRow ⟨10, by decide⟩) fullShare (tmpBufAt m c ⟨10, by decide⟩) from rfl)) $$ Hland10
  iapply (wp_load_slot m c 10 (by decide) _)
  isplitl [Hland10]; · iexact Hland10
  iintro Hland10
  iapply (wp_rsRecv_wait m c (11 : Fin 16) (by decide) (w := TpuEff.waitDma2 (rsRecv (11 : Fin 16)) (accSrc c (11 : Fin 16)) (tmpRow (11 : Fin 16)) _ _) (wpE_waitDma2_eq 𝒱₀ (c : Thread nD τ) none Set.univ) (K (c, .inr (1, (10 : Off)))) (OnestAg c) _) $$ [Hcr11 HO Hpr11]
  · isplitr; · iapply (records_inv (Rd m) K (c, .inr (1, (10 : Off)))); iexact Hrec
    isplitl [Hcr11]; · iexact Hcr11
    isplitl [HO]; · iexact HO
    isplitr; · iapply (mayWait_rsRecv c (11 : Fin 16)); iexact Hlev
    iexact Hpr11
  iintro ⟨HO, Hpr11, -, Hland11⟩
  ihave Hland11 := (Entails.of_eq (show (rsRecvPay m c (11 : Fin 16) : sProp 𝕄) = ptsAt c (tmpRow ⟨11, by decide⟩) fullShare (tmpBufAt m c ⟨11, by decide⟩) from rfl)) $$ Hland11
  iapply (wp_load_slot m c 11 (by decide) _)
  isplitl [Hland11]; · iexact Hland11
  iintro Hland11
  iapply (wp_rsRecv_wait m c (12 : Fin 16) (by decide) (w := TpuEff.waitDma2 (rsRecv (12 : Fin 16)) (accSrc c (12 : Fin 16)) (tmpRow (12 : Fin 16)) _ _) (wpE_waitDma2_eq 𝒱₀ (c : Thread nD τ) none Set.univ) (K (c, .inr (1, (11 : Off)))) (OnestAg c) _) $$ [Hcr12 HO Hpr12]
  · isplitr; · iapply (records_inv (Rd m) K (c, .inr (1, (11 : Off)))); iexact Hrec
    isplitl [Hcr12]; · iexact Hcr12
    isplitl [HO]; · iexact HO
    isplitr; · iapply (mayWait_rsRecv c (12 : Fin 16)); iexact Hlev
    iexact Hpr12
  iintro ⟨HO, Hpr12, -, Hland12⟩
  ihave Hland12 := (Entails.of_eq (show (rsRecvPay m c (12 : Fin 16) : sProp 𝕄) = ptsAt c (tmpRow ⟨12, by decide⟩) fullShare (tmpBufAt m c ⟨12, by decide⟩) from rfl)) $$ Hland12
  iapply (wp_load_slot m c 12 (by decide) _)
  isplitl [Hland12]; · iexact Hland12
  iintro Hland12
  iapply (wp_rsRecv_wait m c (13 : Fin 16) (by decide) (w := TpuEff.waitDma2 (rsRecv (13 : Fin 16)) (accSrc c (13 : Fin 16)) (tmpRow (13 : Fin 16)) _ _) (wpE_waitDma2_eq 𝒱₀ (c : Thread nD τ) none Set.univ) (K (c, .inr (1, (12 : Off)))) (OnestAg c) _) $$ [Hcr13 HO Hpr13]
  · isplitr; · iapply (records_inv (Rd m) K (c, .inr (1, (12 : Off)))); iexact Hrec
    isplitl [Hcr13]; · iexact Hcr13
    isplitl [HO]; · iexact HO
    isplitr; · iapply (mayWait_rsRecv c (13 : Fin 16)); iexact Hlev
    iexact Hpr13
  iintro ⟨HO, Hpr13, -, Hland13⟩
  ihave Hland13 := (Entails.of_eq (show (rsRecvPay m c (13 : Fin 16) : sProp 𝕄) = ptsAt c (tmpRow ⟨13, by decide⟩) fullShare (tmpBufAt m c ⟨13, by decide⟩) from rfl)) $$ Hland13
  iapply (wp_load_slot m c 13 (by decide) _)
  isplitl [Hland13]; · iexact Hland13
  iintro Hland13
  iapply (wp_rsRecv_wait m c (14 : Fin 16) (by decide) (w := TpuEff.waitDma2 (rsRecv (14 : Fin 16)) (accSrc c (14 : Fin 16)) (tmpRow (14 : Fin 16)) _ _) (wpE_waitDma2_eq 𝒱₀ (c : Thread nD τ) none Set.univ) (K (c, .inr (1, (13 : Off)))) (OnestAg c) _) $$ [Hcr14 HO Hpr14]
  · isplitr; · iapply (records_inv (Rd m) K (c, .inr (1, (13 : Off)))); iexact Hrec
    isplitl [Hcr14]; · iexact Hcr14
    isplitl [HO]; · iexact HO
    isplitr; · iapply (mayWait_rsRecv c (14 : Fin 16)); iexact Hlev
    iexact Hpr14
  iintro ⟨HO, Hpr14, -, Hland14⟩
  ihave Hland14 := (Entails.of_eq (show (rsRecvPay m c (14 : Fin 16) : sProp 𝕄) = ptsAt c (tmpRow ⟨14, by decide⟩) fullShare (tmpBufAt m c ⟨14, by decide⟩) from rfl)) $$ Hland14
  iapply (wp_load_slot m c 14 (by decide) _)
  isplitl [Hland14]; · iexact Hland14
  iintro Hland14
  iapply (wp_rsRecv_wait m c (15 : Fin 16) (by decide) (w := TpuEff.waitDma2 (rsRecv (15 : Fin 16)) (accSrc c (15 : Fin 16)) (tmpRow (15 : Fin 16)) _ _) (wpE_waitDma2_eq 𝒱₀ (c : Thread nD τ) none Set.univ) (K (c, .inr (1, (14 : Off)))) (OnestAg c) _) $$ [Hcr15 HO Hpr15]
  · isplitr; · iapply (records_inv (Rd m) K (c, .inr (1, (14 : Off)))); iexact Hrec
    isplitl [Hcr15]; · iexact Hcr15
    isplitl [HO]; · iexact HO
    isplitr; · iapply (mayWait_rsRecv c (15 : Fin 16)); iexact Hlev
    iexact Hpr15
  iintro ⟨HO, Hpr15, -, Hland15⟩
  ihave Hland15 := (Entails.of_eq (show (rsRecvPay m c (15 : Fin 16) : sProp 𝕄) = ptsAt c (tmpRow ⟨15, by decide⟩) fullShare (tmpBufAt m c ⟨15, by decide⟩) from rfl)) $$ Hland15
  iapply (wp_load_slot m c 15 (by decide) _)
  isplitl [Hland15]; · iexact Hland15
  iintro Hland15
  -- the sum stored as the device's own block of the result
  iapply (wp_store_sum m c gout)
  isplitl [Hoo]; · iexact Hoo
  iintro Hoo
  -- the device's own block read by the fifteen gather copies at once: its share split in fifteen
  ihave Hoo' := (own_shares_cut c (outBufAt m c c)) $$ Hoo
  icases Hoo' with ⟨Hsh1, Hsh2, Hsh3, Hsh4, Hsh5, Hsh6, Hsh7, Hsh8, Hsh9, Hsh10, Hsh11, Hsh12, Hsh13, Hsh14, Hsh15⟩
  -- the fifteen gather copies: the device's own block into block c of the device o places on
  iapply (wp_ag_copy m c _ (1 : Fin 16) (by decide) (dev31_eq c) (K (c, .inr (2, (0 : Off)))) (K (peer c 1, .inr (3, (0 : Off)))) u1 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N + tallyAt (agRecvCell (peer c 7) 7) () N + tallyAt (agRecvCell (peer c 6) 6) () N + tallyAt (agRecvCell (peer c 5) 5) () N + tallyAt (agRecvCell (peer c 4) 4) () N + tallyAt (agRecvCell (peer c 3) 3) () N + tallyAt (agRecvCell (peer c 2) 2) () N) _ (gather_landing m c (peer c 1) (outBufAt m c c) (fun _ _ => rfl) u1)) $$ [Hsh1 Hu1 HO Htas1 Htar1]
  · isplitr; · iapply (records_inv (Rd m) K (c, .inr (2, (0 : Off)))); iexact Hrec
    isplitr; · iapply (records_inv (Rd m) K (peer c 1, .inr (3, (0 : Off)))); iexact Hrec
    isplitl [Hsh1]; · iexact Hsh1
    isplitl [Hu1]; · iexact Hu1
    isplitl [HO]; · iexact HO
    isplitl [Htas1]; · iexact Htas1
    isplitr; · iapply (records_reached (Rd m) K (c, .inr (2, (0 : Off)))); iexact Hrec
    isplitl [Htar1]; · iexact Htar1
    iexact Hag1
  iintro ⟨Hcas1, HO⟩
  iapply (wp_ag_copy m c _ (2 : Fin 16) (by decide) (dev32_eq c) (K (c, .inr (2, (1 : Off)))) (K (peer c 2, .inr (3, (1 : Off)))) u2 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N + tallyAt (agRecvCell (peer c 7) 7) () N + tallyAt (agRecvCell (peer c 6) 6) () N + tallyAt (agRecvCell (peer c 5) 5) () N + tallyAt (agRecvCell (peer c 4) 4) () N + tallyAt (agRecvCell (peer c 3) 3) () N) _ (gather_landing m c (peer c 2) (outBufAt m c c) (fun _ _ => rfl) u2)) $$ [Hsh2 Hu2 HO Htas2 Htar2]
  · isplitr; · iapply (records_inv (Rd m) K (c, .inr (2, (1 : Off)))); iexact Hrec
    isplitr; · iapply (records_inv (Rd m) K (peer c 2, .inr (3, (1 : Off)))); iexact Hrec
    isplitl [Hsh2]; · iexact Hsh2
    isplitl [Hu2]; · iexact Hu2
    isplitl [HO]; · iexact HO
    isplitl [Htas2]; · iexact Htas2
    isplitr; · iapply (records_reached (Rd m) K (c, .inr (2, (1 : Off)))); iexact Hrec
    isplitl [Htar2]; · iexact Htar2
    iexact Hag2
  iintro ⟨Hcas2, HO⟩
  iapply (wp_ag_copy m c _ (3 : Fin 16) (by decide) (dev33_eq c) (K (c, .inr (2, (2 : Off)))) (K (peer c 3, .inr (3, (2 : Off)))) u3 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N + tallyAt (agRecvCell (peer c 7) 7) () N + tallyAt (agRecvCell (peer c 6) 6) () N + tallyAt (agRecvCell (peer c 5) 5) () N + tallyAt (agRecvCell (peer c 4) 4) () N) _ (gather_landing m c (peer c 3) (outBufAt m c c) (fun _ _ => rfl) u3)) $$ [Hsh3 Hu3 HO Htas3 Htar3]
  · isplitr; · iapply (records_inv (Rd m) K (c, .inr (2, (2 : Off)))); iexact Hrec
    isplitr; · iapply (records_inv (Rd m) K (peer c 3, .inr (3, (2 : Off)))); iexact Hrec
    isplitl [Hsh3]; · iexact Hsh3
    isplitl [Hu3]; · iexact Hu3
    isplitl [HO]; · iexact HO
    isplitl [Htas3]; · iexact Htas3
    isplitr; · iapply (records_reached (Rd m) K (c, .inr (2, (2 : Off)))); iexact Hrec
    isplitl [Htar3]; · iexact Htar3
    iexact Hag3
  iintro ⟨Hcas3, HO⟩
  iapply (wp_ag_copy m c _ (4 : Fin 16) (by decide) (dev34_eq c) (K (c, .inr (2, (3 : Off)))) (K (peer c 4, .inr (3, (3 : Off)))) u4 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N + tallyAt (agRecvCell (peer c 7) 7) () N + tallyAt (agRecvCell (peer c 6) 6) () N + tallyAt (agRecvCell (peer c 5) 5) () N) _ (gather_landing m c (peer c 4) (outBufAt m c c) (fun _ _ => rfl) u4)) $$ [Hsh4 Hu4 HO Htas4 Htar4]
  · isplitr; · iapply (records_inv (Rd m) K (c, .inr (2, (3 : Off)))); iexact Hrec
    isplitr; · iapply (records_inv (Rd m) K (peer c 4, .inr (3, (3 : Off)))); iexact Hrec
    isplitl [Hsh4]; · iexact Hsh4
    isplitl [Hu4]; · iexact Hu4
    isplitl [HO]; · iexact HO
    isplitl [Htas4]; · iexact Htas4
    isplitr; · iapply (records_reached (Rd m) K (c, .inr (2, (3 : Off)))); iexact Hrec
    isplitl [Htar4]; · iexact Htar4
    iexact Hag4
  iintro ⟨Hcas4, HO⟩
  iapply (wp_ag_copy m c _ (5 : Fin 16) (by decide) (dev35_eq c) (K (c, .inr (2, (4 : Off)))) (K (peer c 5, .inr (3, (4 : Off)))) u5 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N + tallyAt (agRecvCell (peer c 7) 7) () N + tallyAt (agRecvCell (peer c 6) 6) () N) _ (gather_landing m c (peer c 5) (outBufAt m c c) (fun _ _ => rfl) u5)) $$ [Hsh5 Hu5 HO Htas5 Htar5]
  · isplitr; · iapply (records_inv (Rd m) K (c, .inr (2, (4 : Off)))); iexact Hrec
    isplitr; · iapply (records_inv (Rd m) K (peer c 5, .inr (3, (4 : Off)))); iexact Hrec
    isplitl [Hsh5]; · iexact Hsh5
    isplitl [Hu5]; · iexact Hu5
    isplitl [HO]; · iexact HO
    isplitl [Htas5]; · iexact Htas5
    isplitr; · iapply (records_reached (Rd m) K (c, .inr (2, (4 : Off)))); iexact Hrec
    isplitl [Htar5]; · iexact Htar5
    iexact Hag5
  iintro ⟨Hcas5, HO⟩
  iapply (wp_ag_copy m c _ (6 : Fin 16) (by decide) (dev36_eq c) (K (c, .inr (2, (5 : Off)))) (K (peer c 6, .inr (3, (5 : Off)))) u6 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N + tallyAt (agRecvCell (peer c 7) 7) () N) _ (gather_landing m c (peer c 6) (outBufAt m c c) (fun _ _ => rfl) u6)) $$ [Hsh6 Hu6 HO Htas6 Htar6]
  · isplitr; · iapply (records_inv (Rd m) K (c, .inr (2, (5 : Off)))); iexact Hrec
    isplitr; · iapply (records_inv (Rd m) K (peer c 6, .inr (3, (5 : Off)))); iexact Hrec
    isplitl [Hsh6]; · iexact Hsh6
    isplitl [Hu6]; · iexact Hu6
    isplitl [HO]; · iexact HO
    isplitl [Htas6]; · iexact Htas6
    isplitr; · iapply (records_reached (Rd m) K (c, .inr (2, (5 : Off)))); iexact Hrec
    isplitl [Htar6]; · iexact Htar6
    iexact Hag6
  iintro ⟨Hcas6, HO⟩
  iapply (wp_ag_copy m c _ (7 : Fin 16) (by decide) (dev37_eq c) (K (c, .inr (2, (6 : Off)))) (K (peer c 7, .inr (3, (6 : Off)))) u7 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N) _ (gather_landing m c (peer c 7) (outBufAt m c c) (fun _ _ => rfl) u7)) $$ [Hsh7 Hu7 HO Htas7 Htar7]
  · isplitr; · iapply (records_inv (Rd m) K (c, .inr (2, (6 : Off)))); iexact Hrec
    isplitr; · iapply (records_inv (Rd m) K (peer c 7, .inr (3, (6 : Off)))); iexact Hrec
    isplitl [Hsh7]; · iexact Hsh7
    isplitl [Hu7]; · iexact Hu7
    isplitl [HO]; · iexact HO
    isplitl [Htas7]; · iexact Htas7
    isplitr; · iapply (records_reached (Rd m) K (c, .inr (2, (6 : Off)))); iexact Hrec
    isplitl [Htar7]; · iexact Htar7
    iexact Hag7
  iintro ⟨Hcas7, HO⟩
  iapply (wp_ag_copy m c _ (8 : Fin 16) (by decide) (dev38_eq c) (K (c, .inr (2, (7 : Off)))) (K (peer c 8, .inr (3, (7 : Off)))) u8 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N) _ (gather_landing m c (peer c 8) (outBufAt m c c) (fun _ _ => rfl) u8)) $$ [Hsh8 Hu8 HO Htas8 Htar8]
  · isplitr; · iapply (records_inv (Rd m) K (c, .inr (2, (7 : Off)))); iexact Hrec
    isplitr; · iapply (records_inv (Rd m) K (peer c 8, .inr (3, (7 : Off)))); iexact Hrec
    isplitl [Hsh8]; · iexact Hsh8
    isplitl [Hu8]; · iexact Hu8
    isplitl [HO]; · iexact HO
    isplitl [Htas8]; · iexact Htas8
    isplitr; · iapply (records_reached (Rd m) K (c, .inr (2, (7 : Off)))); iexact Hrec
    isplitl [Htar8]; · iexact Htar8
    iexact Hag8
  iintro ⟨Hcas8, HO⟩
  iapply (wp_ag_copy m c _ (9 : Fin 16) (by decide) (dev39_eq c) (K (c, .inr (2, (8 : Off)))) (K (peer c 9, .inr (3, (8 : Off)))) u9 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N) _ (gather_landing m c (peer c 9) (outBufAt m c c) (fun _ _ => rfl) u9)) $$ [Hsh9 Hu9 HO Htas9 Htar9]
  · isplitr; · iapply (records_inv (Rd m) K (c, .inr (2, (8 : Off)))); iexact Hrec
    isplitr; · iapply (records_inv (Rd m) K (peer c 9, .inr (3, (8 : Off)))); iexact Hrec
    isplitl [Hsh9]; · iexact Hsh9
    isplitl [Hu9]; · iexact Hu9
    isplitl [HO]; · iexact HO
    isplitl [Htas9]; · iexact Htas9
    isplitr; · iapply (records_reached (Rd m) K (c, .inr (2, (8 : Off)))); iexact Hrec
    isplitl [Htar9]; · iexact Htar9
    iexact Hag9
  iintro ⟨Hcas9, HO⟩
  iapply (wp_ag_copy m c _ (10 : Fin 16) (by decide) (dev40_eq c) (K (c, .inr (2, (9 : Off)))) (K (peer c 10, .inr (3, (9 : Off)))) u10 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N) _ (gather_landing m c (peer c 10) (outBufAt m c c) (fun _ _ => rfl) u10)) $$ [Hsh10 Hu10 HO Htas10 Htar10]
  · isplitr; · iapply (records_inv (Rd m) K (c, .inr (2, (9 : Off)))); iexact Hrec
    isplitr; · iapply (records_inv (Rd m) K (peer c 10, .inr (3, (9 : Off)))); iexact Hrec
    isplitl [Hsh10]; · iexact Hsh10
    isplitl [Hu10]; · iexact Hu10
    isplitl [HO]; · iexact HO
    isplitl [Htas10]; · iexact Htas10
    isplitr; · iapply (records_reached (Rd m) K (c, .inr (2, (9 : Off)))); iexact Hrec
    isplitl [Htar10]; · iexact Htar10
    iexact Hag10
  iintro ⟨Hcas10, HO⟩
  iapply (wp_ag_copy m c _ (11 : Fin 16) (by decide) (dev41_eq c) (K (c, .inr (2, (10 : Off)))) (K (peer c 11, .inr (3, (10 : Off)))) u11 ((0 : CellTallies nD τ sig Unit) + tallyAt (agRecvCell (peer c 15) 15) () N + tallyAt (agRecvCell (peer c 14) 14) () N + tallyAt (agRecvCell (peer c 13) 13) () N + tallyAt (agRecvCell (peer c 12) 12) () N) _ (gather_landing m c (peer c 11) (outBufAt m c c) (fun _ _ => rfl) u11)) $$ [Hsh11 Hu11 HO Htas11 Htar11]
  · isplitr; · iapply (records_inv (Rd m) K (c, .inr (2, (10 : Off)))); iexact Hrec
    isplitr; · iapply (records_inv (Rd m) K (peer c 11, .inr (3, (10 : Off)))); iexact Hrec
    isplitl [Hsh11]; · iexact Hsh11
    isplitl [Hu11]; · iexact Hu11
    isplitl [HO]; · iexact HO
    isplitl [Htas11]; · iexact Htas11
    isplitr; · iapply (records_reached (Rd m) K (c, .inr (2, (10 : Off)))); iexact Hrec
    isplitl [Htar11]; · iexact Htar11
    iexact Hag11
  iintro ⟨Hcas11, HO⟩
  iapply (wp_ag_copy m c _ (12 : Fin 16) (by decide) (dev42_eq c) (K (c, .inr (2, (11 : Off)))) (K (peer c 12, .inr (3, (11 : Off)))) u12 ((0 : CellTallies nD τ sig Unit) + tallyAt (agRecvCell (peer c 15) 15) () N + tallyAt (agRecvCell (peer c 14) 14) () N + tallyAt (agRecvCell (peer c 13) 13) () N) _ (gather_landing m c (peer c 12) (outBufAt m c c) (fun _ _ => rfl) u12)) $$ [Hsh12 Hu12 HO Htas12 Htar12]
  · isplitr; · iapply (records_inv (Rd m) K (c, .inr (2, (11 : Off)))); iexact Hrec
    isplitr; · iapply (records_inv (Rd m) K (peer c 12, .inr (3, (11 : Off)))); iexact Hrec
    isplitl [Hsh12]; · iexact Hsh12
    isplitl [Hu12]; · iexact Hu12
    isplitl [HO]; · iexact HO
    isplitl [Htas12]; · iexact Htas12
    isplitr; · iapply (records_reached (Rd m) K (c, .inr (2, (11 : Off)))); iexact Hrec
    isplitl [Htar12]; · iexact Htar12
    iexact Hag12
  iintro ⟨Hcas12, HO⟩
  iapply (wp_ag_copy m c _ (13 : Fin 16) (by decide) (dev43_eq c) (K (c, .inr (2, (12 : Off)))) (K (peer c 13, .inr (3, (12 : Off)))) u13 ((0 : CellTallies nD τ sig Unit) + tallyAt (agRecvCell (peer c 15) 15) () N + tallyAt (agRecvCell (peer c 14) 14) () N) _ (gather_landing m c (peer c 13) (outBufAt m c c) (fun _ _ => rfl) u13)) $$ [Hsh13 Hu13 HO Htas13 Htar13]
  · isplitr; · iapply (records_inv (Rd m) K (c, .inr (2, (12 : Off)))); iexact Hrec
    isplitr; · iapply (records_inv (Rd m) K (peer c 13, .inr (3, (12 : Off)))); iexact Hrec
    isplitl [Hsh13]; · iexact Hsh13
    isplitl [Hu13]; · iexact Hu13
    isplitl [HO]; · iexact HO
    isplitl [Htas13]; · iexact Htas13
    isplitr; · iapply (records_reached (Rd m) K (c, .inr (2, (12 : Off)))); iexact Hrec
    isplitl [Htar13]; · iexact Htar13
    iexact Hag13
  iintro ⟨Hcas13, HO⟩
  iapply (wp_ag_copy m c _ (14 : Fin 16) (by decide) (dev44_eq c) (K (c, .inr (2, (13 : Off)))) (K (peer c 14, .inr (3, (13 : Off)))) u14 ((0 : CellTallies nD τ sig Unit) + tallyAt (agRecvCell (peer c 15) 15) () N) _ (gather_landing m c (peer c 14) (outBufAt m c c) (fun _ _ => rfl) u14)) $$ [Hsh14 Hu14 HO Htas14 Htar14]
  · isplitr; · iapply (records_inv (Rd m) K (c, .inr (2, (13 : Off)))); iexact Hrec
    isplitr; · iapply (records_inv (Rd m) K (peer c 14, .inr (3, (13 : Off)))); iexact Hrec
    isplitl [Hsh14]; · iexact Hsh14
    isplitl [Hu14]; · iexact Hu14
    isplitl [HO]; · iexact HO
    isplitl [Htas14]; · iexact Htas14
    isplitr; · iapply (records_reached (Rd m) K (c, .inr (2, (13 : Off)))); iexact Hrec
    isplitl [Htar14]; · iexact Htar14
    iexact Hag14
  iintro ⟨Hcas14, HO⟩
  iapply (wp_ag_copy m c _ (15 : Fin 16) (by decide) (dev45_eq c) (K (c, .inr (2, (14 : Off)))) (K (peer c 15, .inr (3, (14 : Off)))) u15 ((0 : CellTallies nD τ sig Unit)) _ (gather_landing m c (peer c 15) (outBufAt m c c) (fun _ _ => rfl) u15)) $$ [Hsh15 Hu15 HO Htas15 Htar15]
  · isplitr; · iapply (records_inv (Rd m) K (c, .inr (2, (14 : Off)))); iexact Hrec
    isplitr; · iapply (records_inv (Rd m) K (peer c 15, .inr (3, (14 : Off)))); iexact Hrec
    isplitl [Hsh15]; · iexact Hsh15
    isplitl [Hu15]; · iexact Hu15
    isplitl [HO]; · iexact HO
    isplitl [Htas15]; · iexact Htas15
    isplitr; · iapply (records_reached (Rd m) K (c, .inr (2, (14 : Off)))); iexact Hrec
    isplitl [Htar15]; · iexact Htar15
    iexact Hag15
  iintro ⟨Hcas15, HO⟩
  -- the fifteen waits for the gathered blocks
  iapply (wp_agRecv_wait m c (1 : Fin 16) (by decide) (w := TpuEff.waitDma2 (agRecv (1 : Fin 16)) (outOwn c) (outOwn c) _ _) (wpE_waitDma2_eq 𝒱₀ (c : Thread nD τ) none Set.univ) (K (c, .inr (3, (0 : Off)))) (0 : CellTallies nD τ sig Unit) _) $$ [Hca1 HO Hpar1]
  · isplitr; · iapply (records_inv (Rd m) K (c, .inr (3, (0 : Off)))); iexact Hrec
    isplitl [Hca1]; · iexact Hca1
    isplitl [HO]; · iexact HO
    isplitr; · rw [MayWait_zero]; iempintro
    iexact Hpar1
  iintro ⟨HO, Hpar1, -, Hgot1⟩
  iapply (wp_agRecv_wait m c (2 : Fin 16) (by decide) (w := TpuEff.waitDma2 (agRecv (2 : Fin 16)) (outOwn c) (outOwn c) _ _) (wpE_waitDma2_eq 𝒱₀ (c : Thread nD τ) none Set.univ) (K (c, .inr (3, (1 : Off)))) (0 : CellTallies nD τ sig Unit) _) $$ [Hca2 HO Hpar2]
  · isplitr; · iapply (records_inv (Rd m) K (c, .inr (3, (1 : Off)))); iexact Hrec
    isplitl [Hca2]; · iexact Hca2
    isplitl [HO]; · iexact HO
    isplitr; · rw [MayWait_zero]; iempintro
    iexact Hpar2
  iintro ⟨HO, Hpar2, -, Hgot2⟩
  iapply (wp_agRecv_wait m c (3 : Fin 16) (by decide) (w := TpuEff.waitDma2 (agRecv (3 : Fin 16)) (outOwn c) (outOwn c) _ _) (wpE_waitDma2_eq 𝒱₀ (c : Thread nD τ) none Set.univ) (K (c, .inr (3, (2 : Off)))) (0 : CellTallies nD τ sig Unit) _) $$ [Hca3 HO Hpar3]
  · isplitr; · iapply (records_inv (Rd m) K (c, .inr (3, (2 : Off)))); iexact Hrec
    isplitl [Hca3]; · iexact Hca3
    isplitl [HO]; · iexact HO
    isplitr; · rw [MayWait_zero]; iempintro
    iexact Hpar3
  iintro ⟨HO, Hpar3, -, Hgot3⟩
  iapply (wp_agRecv_wait m c (4 : Fin 16) (by decide) (w := TpuEff.waitDma2 (agRecv (4 : Fin 16)) (outOwn c) (outOwn c) _ _) (wpE_waitDma2_eq 𝒱₀ (c : Thread nD τ) none Set.univ) (K (c, .inr (3, (3 : Off)))) (0 : CellTallies nD τ sig Unit) _) $$ [Hca4 HO Hpar4]
  · isplitr; · iapply (records_inv (Rd m) K (c, .inr (3, (3 : Off)))); iexact Hrec
    isplitl [Hca4]; · iexact Hca4
    isplitl [HO]; · iexact HO
    isplitr; · rw [MayWait_zero]; iempintro
    iexact Hpar4
  iintro ⟨HO, Hpar4, -, Hgot4⟩
  iapply (wp_agRecv_wait m c (5 : Fin 16) (by decide) (w := TpuEff.waitDma2 (agRecv (5 : Fin 16)) (outOwn c) (outOwn c) _ _) (wpE_waitDma2_eq 𝒱₀ (c : Thread nD τ) none Set.univ) (K (c, .inr (3, (4 : Off)))) (0 : CellTallies nD τ sig Unit) _) $$ [Hca5 HO Hpar5]
  · isplitr; · iapply (records_inv (Rd m) K (c, .inr (3, (4 : Off)))); iexact Hrec
    isplitl [Hca5]; · iexact Hca5
    isplitl [HO]; · iexact HO
    isplitr; · rw [MayWait_zero]; iempintro
    iexact Hpar5
  iintro ⟨HO, Hpar5, -, Hgot5⟩
  iapply (wp_agRecv_wait m c (6 : Fin 16) (by decide) (w := TpuEff.waitDma2 (agRecv (6 : Fin 16)) (outOwn c) (outOwn c) _ _) (wpE_waitDma2_eq 𝒱₀ (c : Thread nD τ) none Set.univ) (K (c, .inr (3, (5 : Off)))) (0 : CellTallies nD τ sig Unit) _) $$ [Hca6 HO Hpar6]
  · isplitr; · iapply (records_inv (Rd m) K (c, .inr (3, (5 : Off)))); iexact Hrec
    isplitl [Hca6]; · iexact Hca6
    isplitl [HO]; · iexact HO
    isplitr; · rw [MayWait_zero]; iempintro
    iexact Hpar6
  iintro ⟨HO, Hpar6, -, Hgot6⟩
  iapply (wp_agRecv_wait m c (7 : Fin 16) (by decide) (w := TpuEff.waitDma2 (agRecv (7 : Fin 16)) (outOwn c) (outOwn c) _ _) (wpE_waitDma2_eq 𝒱₀ (c : Thread nD τ) none Set.univ) (K (c, .inr (3, (6 : Off)))) (0 : CellTallies nD τ sig Unit) _) $$ [Hca7 HO Hpar7]
  · isplitr; · iapply (records_inv (Rd m) K (c, .inr (3, (6 : Off)))); iexact Hrec
    isplitl [Hca7]; · iexact Hca7
    isplitl [HO]; · iexact HO
    isplitr; · rw [MayWait_zero]; iempintro
    iexact Hpar7
  iintro ⟨HO, Hpar7, -, Hgot7⟩
  iapply (wp_agRecv_wait m c (8 : Fin 16) (by decide) (w := TpuEff.waitDma2 (agRecv (8 : Fin 16)) (outOwn c) (outOwn c) _ _) (wpE_waitDma2_eq 𝒱₀ (c : Thread nD τ) none Set.univ) (K (c, .inr (3, (7 : Off)))) (0 : CellTallies nD τ sig Unit) _) $$ [Hca8 HO Hpar8]
  · isplitr; · iapply (records_inv (Rd m) K (c, .inr (3, (7 : Off)))); iexact Hrec
    isplitl [Hca8]; · iexact Hca8
    isplitl [HO]; · iexact HO
    isplitr; · rw [MayWait_zero]; iempintro
    iexact Hpar8
  iintro ⟨HO, Hpar8, -, Hgot8⟩
  iapply (wp_agRecv_wait m c (9 : Fin 16) (by decide) (w := TpuEff.waitDma2 (agRecv (9 : Fin 16)) (outOwn c) (outOwn c) _ _) (wpE_waitDma2_eq 𝒱₀ (c : Thread nD τ) none Set.univ) (K (c, .inr (3, (8 : Off)))) (0 : CellTallies nD τ sig Unit) _) $$ [Hca9 HO Hpar9]
  · isplitr; · iapply (records_inv (Rd m) K (c, .inr (3, (8 : Off)))); iexact Hrec
    isplitl [Hca9]; · iexact Hca9
    isplitl [HO]; · iexact HO
    isplitr; · rw [MayWait_zero]; iempintro
    iexact Hpar9
  iintro ⟨HO, Hpar9, -, Hgot9⟩
  iapply (wp_agRecv_wait m c (10 : Fin 16) (by decide) (w := TpuEff.waitDma2 (agRecv (10 : Fin 16)) (outOwn c) (outOwn c) _ _) (wpE_waitDma2_eq 𝒱₀ (c : Thread nD τ) none Set.univ) (K (c, .inr (3, (9 : Off)))) (0 : CellTallies nD τ sig Unit) _) $$ [Hca10 HO Hpar10]
  · isplitr; · iapply (records_inv (Rd m) K (c, .inr (3, (9 : Off)))); iexact Hrec
    isplitl [Hca10]; · iexact Hca10
    isplitl [HO]; · iexact HO
    isplitr; · rw [MayWait_zero]; iempintro
    iexact Hpar10
  iintro ⟨HO, Hpar10, -, Hgot10⟩
  iapply (wp_agRecv_wait m c (11 : Fin 16) (by decide) (w := TpuEff.waitDma2 (agRecv (11 : Fin 16)) (outOwn c) (outOwn c) _ _) (wpE_waitDma2_eq 𝒱₀ (c : Thread nD τ) none Set.univ) (K (c, .inr (3, (10 : Off)))) (0 : CellTallies nD τ sig Unit) _) $$ [Hca11 HO Hpar11]
  · isplitr; · iapply (records_inv (Rd m) K (c, .inr (3, (10 : Off)))); iexact Hrec
    isplitl [Hca11]; · iexact Hca11
    isplitl [HO]; · iexact HO
    isplitr; · rw [MayWait_zero]; iempintro
    iexact Hpar11
  iintro ⟨HO, Hpar11, -, Hgot11⟩
  iapply (wp_agRecv_wait m c (12 : Fin 16) (by decide) (w := TpuEff.waitDma2 (agRecv (12 : Fin 16)) (outOwn c) (outOwn c) _ _) (wpE_waitDma2_eq 𝒱₀ (c : Thread nD τ) none Set.univ) (K (c, .inr (3, (11 : Off)))) (0 : CellTallies nD τ sig Unit) _) $$ [Hca12 HO Hpar12]
  · isplitr; · iapply (records_inv (Rd m) K (c, .inr (3, (11 : Off)))); iexact Hrec
    isplitl [Hca12]; · iexact Hca12
    isplitl [HO]; · iexact HO
    isplitr; · rw [MayWait_zero]; iempintro
    iexact Hpar12
  iintro ⟨HO, Hpar12, -, Hgot12⟩
  iapply (wp_agRecv_wait m c (13 : Fin 16) (by decide) (w := TpuEff.waitDma2 (agRecv (13 : Fin 16)) (outOwn c) (outOwn c) _ _) (wpE_waitDma2_eq 𝒱₀ (c : Thread nD τ) none Set.univ) (K (c, .inr (3, (12 : Off)))) (0 : CellTallies nD τ sig Unit) _) $$ [Hca13 HO Hpar13]
  · isplitr; · iapply (records_inv (Rd m) K (c, .inr (3, (12 : Off)))); iexact Hrec
    isplitl [Hca13]; · iexact Hca13
    isplitl [HO]; · iexact HO
    isplitr; · rw [MayWait_zero]; iempintro
    iexact Hpar13
  iintro ⟨HO, Hpar13, -, Hgot13⟩
  iapply (wp_agRecv_wait m c (14 : Fin 16) (by decide) (w := TpuEff.waitDma2 (agRecv (14 : Fin 16)) (outOwn c) (outOwn c) _ _) (wpE_waitDma2_eq 𝒱₀ (c : Thread nD τ) none Set.univ) (K (c, .inr (3, (13 : Off)))) (0 : CellTallies nD τ sig Unit) _) $$ [Hca14 HO Hpar14]
  · isplitr; · iapply (records_inv (Rd m) K (c, .inr (3, (13 : Off)))); iexact Hrec
    isplitl [Hca14]; · iexact Hca14
    isplitl [HO]; · iexact HO
    isplitr; · rw [MayWait_zero]; iempintro
    iexact Hpar14
  iintro ⟨HO, Hpar14, -, Hgot14⟩
  iapply (wp_agRecv_wait m c (15 : Fin 16) (by decide) (w := TpuEff.waitDma2 (agRecv (15 : Fin 16)) (outOwn c) (outOwn c) _ _) (wpE_waitDma2_eq 𝒱₀ (c : Thread nD τ) none Set.univ) (K (c, .inr (3, (14 : Off)))) (0 : CellTallies nD τ sig Unit) _) $$ [Hca15 HO Hpar15]
  · isplitr; · iapply (records_inv (Rd m) K (c, .inr (3, (14 : Off)))); iexact Hrec
    isplitl [Hca15]; · iexact Hca15
    isplitl [HO]; · iexact HO
    isplitr; · rw [MayWait_zero]; iempintro
    iexact Hpar15
  iintro ⟨HO, Hpar15, -, Hgot15⟩
  -- the fifteen waits for the scatter copies' sources
  iapply (wp_rsSend_wait m c (1 : Fin 16) (by decide) (w := TpuEff.waitDma2 (rsSend (1 : Fin 16)) (tmpRow (1 : Fin 16)) (accSrc c (1 : Fin 16)) _ _) (wpE_waitDma2_eq 𝒱₀ (c : Thread nD τ) none Set.univ) (K (c, .inr (0, (0 : Off)))) (0 : CellTallies nD τ sig Unit) _) $$ [Hcs1 HO Hps1]
  · isplitr; · iapply (records_inv (Rd m) K (c, .inr (0, (0 : Off)))); iexact Hrec
    isplitl [Hcs1]; · iexact Hcs1
    isplitl [HO]; · iexact HO
    isplitr; · rw [MayWait_zero]; iempintro
    iexact Hps1
  iintro ⟨HO, Hps1, -, Hback1⟩
  iapply (wp_rsSend_wait m c (2 : Fin 16) (by decide) (w := TpuEff.waitDma2 (rsSend (2 : Fin 16)) (tmpRow (2 : Fin 16)) (accSrc c (2 : Fin 16)) _ _) (wpE_waitDma2_eq 𝒱₀ (c : Thread nD τ) none Set.univ) (K (c, .inr (0, (1 : Off)))) (0 : CellTallies nD τ sig Unit) _) $$ [Hcs2 HO Hps2]
  · isplitr; · iapply (records_inv (Rd m) K (c, .inr (0, (1 : Off)))); iexact Hrec
    isplitl [Hcs2]; · iexact Hcs2
    isplitl [HO]; · iexact HO
    isplitr; · rw [MayWait_zero]; iempintro
    iexact Hps2
  iintro ⟨HO, Hps2, -, Hback2⟩
  iapply (wp_rsSend_wait m c (3 : Fin 16) (by decide) (w := TpuEff.waitDma2 (rsSend (3 : Fin 16)) (tmpRow (3 : Fin 16)) (accSrc c (3 : Fin 16)) _ _) (wpE_waitDma2_eq 𝒱₀ (c : Thread nD τ) none Set.univ) (K (c, .inr (0, (2 : Off)))) (0 : CellTallies nD τ sig Unit) _) $$ [Hcs3 HO Hps3]
  · isplitr; · iapply (records_inv (Rd m) K (c, .inr (0, (2 : Off)))); iexact Hrec
    isplitl [Hcs3]; · iexact Hcs3
    isplitl [HO]; · iexact HO
    isplitr; · rw [MayWait_zero]; iempintro
    iexact Hps3
  iintro ⟨HO, Hps3, -, Hback3⟩
  iapply (wp_rsSend_wait m c (4 : Fin 16) (by decide) (w := TpuEff.waitDma2 (rsSend (4 : Fin 16)) (tmpRow (4 : Fin 16)) (accSrc c (4 : Fin 16)) _ _) (wpE_waitDma2_eq 𝒱₀ (c : Thread nD τ) none Set.univ) (K (c, .inr (0, (3 : Off)))) (0 : CellTallies nD τ sig Unit) _) $$ [Hcs4 HO Hps4]
  · isplitr; · iapply (records_inv (Rd m) K (c, .inr (0, (3 : Off)))); iexact Hrec
    isplitl [Hcs4]; · iexact Hcs4
    isplitl [HO]; · iexact HO
    isplitr; · rw [MayWait_zero]; iempintro
    iexact Hps4
  iintro ⟨HO, Hps4, -, Hback4⟩
  iapply (wp_rsSend_wait m c (5 : Fin 16) (by decide) (w := TpuEff.waitDma2 (rsSend (5 : Fin 16)) (tmpRow (5 : Fin 16)) (accSrc c (5 : Fin 16)) _ _) (wpE_waitDma2_eq 𝒱₀ (c : Thread nD τ) none Set.univ) (K (c, .inr (0, (4 : Off)))) (0 : CellTallies nD τ sig Unit) _) $$ [Hcs5 HO Hps5]
  · isplitr; · iapply (records_inv (Rd m) K (c, .inr (0, (4 : Off)))); iexact Hrec
    isplitl [Hcs5]; · iexact Hcs5
    isplitl [HO]; · iexact HO
    isplitr; · rw [MayWait_zero]; iempintro
    iexact Hps5
  iintro ⟨HO, Hps5, -, Hback5⟩
  iapply (wp_rsSend_wait m c (6 : Fin 16) (by decide) (w := TpuEff.waitDma2 (rsSend (6 : Fin 16)) (tmpRow (6 : Fin 16)) (accSrc c (6 : Fin 16)) _ _) (wpE_waitDma2_eq 𝒱₀ (c : Thread nD τ) none Set.univ) (K (c, .inr (0, (5 : Off)))) (0 : CellTallies nD τ sig Unit) _) $$ [Hcs6 HO Hps6]
  · isplitr; · iapply (records_inv (Rd m) K (c, .inr (0, (5 : Off)))); iexact Hrec
    isplitl [Hcs6]; · iexact Hcs6
    isplitl [HO]; · iexact HO
    isplitr; · rw [MayWait_zero]; iempintro
    iexact Hps6
  iintro ⟨HO, Hps6, -, Hback6⟩
  iapply (wp_rsSend_wait m c (7 : Fin 16) (by decide) (w := TpuEff.waitDma2 (rsSend (7 : Fin 16)) (tmpRow (7 : Fin 16)) (accSrc c (7 : Fin 16)) _ _) (wpE_waitDma2_eq 𝒱₀ (c : Thread nD τ) none Set.univ) (K (c, .inr (0, (6 : Off)))) (0 : CellTallies nD τ sig Unit) _) $$ [Hcs7 HO Hps7]
  · isplitr; · iapply (records_inv (Rd m) K (c, .inr (0, (6 : Off)))); iexact Hrec
    isplitl [Hcs7]; · iexact Hcs7
    isplitl [HO]; · iexact HO
    isplitr; · rw [MayWait_zero]; iempintro
    iexact Hps7
  iintro ⟨HO, Hps7, -, Hback7⟩
  iapply (wp_rsSend_wait m c (8 : Fin 16) (by decide) (w := TpuEff.waitDma2 (rsSend (8 : Fin 16)) (tmpRow (8 : Fin 16)) (accSrc c (8 : Fin 16)) _ _) (wpE_waitDma2_eq 𝒱₀ (c : Thread nD τ) none Set.univ) (K (c, .inr (0, (7 : Off)))) (0 : CellTallies nD τ sig Unit) _) $$ [Hcs8 HO Hps8]
  · isplitr; · iapply (records_inv (Rd m) K (c, .inr (0, (7 : Off)))); iexact Hrec
    isplitl [Hcs8]; · iexact Hcs8
    isplitl [HO]; · iexact HO
    isplitr; · rw [MayWait_zero]; iempintro
    iexact Hps8
  iintro ⟨HO, Hps8, -, Hback8⟩
  iapply (wp_rsSend_wait m c (9 : Fin 16) (by decide) (w := TpuEff.waitDma2 (rsSend (9 : Fin 16)) (tmpRow (9 : Fin 16)) (accSrc c (9 : Fin 16)) _ _) (wpE_waitDma2_eq 𝒱₀ (c : Thread nD τ) none Set.univ) (K (c, .inr (0, (8 : Off)))) (0 : CellTallies nD τ sig Unit) _) $$ [Hcs9 HO Hps9]
  · isplitr; · iapply (records_inv (Rd m) K (c, .inr (0, (8 : Off)))); iexact Hrec
    isplitl [Hcs9]; · iexact Hcs9
    isplitl [HO]; · iexact HO
    isplitr; · rw [MayWait_zero]; iempintro
    iexact Hps9
  iintro ⟨HO, Hps9, -, Hback9⟩
  iapply (wp_rsSend_wait m c (10 : Fin 16) (by decide) (w := TpuEff.waitDma2 (rsSend (10 : Fin 16)) (tmpRow (10 : Fin 16)) (accSrc c (10 : Fin 16)) _ _) (wpE_waitDma2_eq 𝒱₀ (c : Thread nD τ) none Set.univ) (K (c, .inr (0, (9 : Off)))) (0 : CellTallies nD τ sig Unit) _) $$ [Hcs10 HO Hps10]
  · isplitr; · iapply (records_inv (Rd m) K (c, .inr (0, (9 : Off)))); iexact Hrec
    isplitl [Hcs10]; · iexact Hcs10
    isplitl [HO]; · iexact HO
    isplitr; · rw [MayWait_zero]; iempintro
    iexact Hps10
  iintro ⟨HO, Hps10, -, Hback10⟩
  iapply (wp_rsSend_wait m c (11 : Fin 16) (by decide) (w := TpuEff.waitDma2 (rsSend (11 : Fin 16)) (tmpRow (11 : Fin 16)) (accSrc c (11 : Fin 16)) _ _) (wpE_waitDma2_eq 𝒱₀ (c : Thread nD τ) none Set.univ) (K (c, .inr (0, (10 : Off)))) (0 : CellTallies nD τ sig Unit) _) $$ [Hcs11 HO Hps11]
  · isplitr; · iapply (records_inv (Rd m) K (c, .inr (0, (10 : Off)))); iexact Hrec
    isplitl [Hcs11]; · iexact Hcs11
    isplitl [HO]; · iexact HO
    isplitr; · rw [MayWait_zero]; iempintro
    iexact Hps11
  iintro ⟨HO, Hps11, -, Hback11⟩
  iapply (wp_rsSend_wait m c (12 : Fin 16) (by decide) (w := TpuEff.waitDma2 (rsSend (12 : Fin 16)) (tmpRow (12 : Fin 16)) (accSrc c (12 : Fin 16)) _ _) (wpE_waitDma2_eq 𝒱₀ (c : Thread nD τ) none Set.univ) (K (c, .inr (0, (11 : Off)))) (0 : CellTallies nD τ sig Unit) _) $$ [Hcs12 HO Hps12]
  · isplitr; · iapply (records_inv (Rd m) K (c, .inr (0, (11 : Off)))); iexact Hrec
    isplitl [Hcs12]; · iexact Hcs12
    isplitl [HO]; · iexact HO
    isplitr; · rw [MayWait_zero]; iempintro
    iexact Hps12
  iintro ⟨HO, Hps12, -, Hback12⟩
  iapply (wp_rsSend_wait m c (13 : Fin 16) (by decide) (w := TpuEff.waitDma2 (rsSend (13 : Fin 16)) (tmpRow (13 : Fin 16)) (accSrc c (13 : Fin 16)) _ _) (wpE_waitDma2_eq 𝒱₀ (c : Thread nD τ) none Set.univ) (K (c, .inr (0, (12 : Off)))) (0 : CellTallies nD τ sig Unit) _) $$ [Hcs13 HO Hps13]
  · isplitr; · iapply (records_inv (Rd m) K (c, .inr (0, (12 : Off)))); iexact Hrec
    isplitl [Hcs13]; · iexact Hcs13
    isplitl [HO]; · iexact HO
    isplitr; · rw [MayWait_zero]; iempintro
    iexact Hps13
  iintro ⟨HO, Hps13, -, Hback13⟩
  iapply (wp_rsSend_wait m c (14 : Fin 16) (by decide) (w := TpuEff.waitDma2 (rsSend (14 : Fin 16)) (tmpRow (14 : Fin 16)) (accSrc c (14 : Fin 16)) _ _) (wpE_waitDma2_eq 𝒱₀ (c : Thread nD τ) none Set.univ) (K (c, .inr (0, (13 : Off)))) (0 : CellTallies nD τ sig Unit) _) $$ [Hcs14 HO Hps14]
  · isplitr; · iapply (records_inv (Rd m) K (c, .inr (0, (13 : Off)))); iexact Hrec
    isplitl [Hcs14]; · iexact Hcs14
    isplitl [HO]; · iexact HO
    isplitr; · rw [MayWait_zero]; iempintro
    iexact Hps14
  iintro ⟨HO, Hps14, -, Hback14⟩
  iapply (wp_rsSend_wait m c (15 : Fin 16) (by decide) (w := TpuEff.waitDma2 (rsSend (15 : Fin 16)) (tmpRow (15 : Fin 16)) (accSrc c (15 : Fin 16)) _ _) (wpE_waitDma2_eq 𝒱₀ (c : Thread nD τ) none Set.univ) (K (c, .inr (0, (14 : Off)))) (0 : CellTallies nD τ sig Unit) _) $$ [Hcs15 HO Hps15]
  · isplitr; · iapply (records_inv (Rd m) K (c, .inr (0, (14 : Off)))); iexact Hrec
    isplitl [Hcs15]; · iexact Hcs15
    isplitl [HO]; · iexact HO
    isplitr; · rw [MayWait_zero]; iempintro
    iexact Hps15
  iintro ⟨HO, Hps15, -, Hback15⟩
  -- the fifteen waits for the gather copies' source shares
  iapply (wp_agSend_wait m c (1 : Fin 16) (by decide) (w := TpuEff.waitDma2 (agSend (1 : Fin 16)) (outOwn c) (outOwn c) _ _) (wpE_waitDma2_eq 𝒱₀ (c : Thread nD τ) none Set.univ) (K (c, .inr (2, (0 : Off)))) (0 : CellTallies nD τ sig Unit) _) $$ [Hcas1 HO Hpas1]
  · isplitr; · iapply (records_inv (Rd m) K (c, .inr (2, (0 : Off)))); iexact Hrec
    isplitl [Hcas1]; · iexact Hcas1
    isplitl [HO]; · iexact HO
    isplitr; · rw [MayWait_zero]; iempintro
    iexact Hpas1
  iintro ⟨HO, Hpas1, -, Hshb1⟩
  iapply (wp_agSend_wait m c (2 : Fin 16) (by decide) (w := TpuEff.waitDma2 (agSend (2 : Fin 16)) (outOwn c) (outOwn c) _ _) (wpE_waitDma2_eq 𝒱₀ (c : Thread nD τ) none Set.univ) (K (c, .inr (2, (1 : Off)))) (0 : CellTallies nD τ sig Unit) _) $$ [Hcas2 HO Hpas2]
  · isplitr; · iapply (records_inv (Rd m) K (c, .inr (2, (1 : Off)))); iexact Hrec
    isplitl [Hcas2]; · iexact Hcas2
    isplitl [HO]; · iexact HO
    isplitr; · rw [MayWait_zero]; iempintro
    iexact Hpas2
  iintro ⟨HO, Hpas2, -, Hshb2⟩
  iapply (wp_agSend_wait m c (3 : Fin 16) (by decide) (w := TpuEff.waitDma2 (agSend (3 : Fin 16)) (outOwn c) (outOwn c) _ _) (wpE_waitDma2_eq 𝒱₀ (c : Thread nD τ) none Set.univ) (K (c, .inr (2, (2 : Off)))) (0 : CellTallies nD τ sig Unit) _) $$ [Hcas3 HO Hpas3]
  · isplitr; · iapply (records_inv (Rd m) K (c, .inr (2, (2 : Off)))); iexact Hrec
    isplitl [Hcas3]; · iexact Hcas3
    isplitl [HO]; · iexact HO
    isplitr; · rw [MayWait_zero]; iempintro
    iexact Hpas3
  iintro ⟨HO, Hpas3, -, Hshb3⟩
  iapply (wp_agSend_wait m c (4 : Fin 16) (by decide) (w := TpuEff.waitDma2 (agSend (4 : Fin 16)) (outOwn c) (outOwn c) _ _) (wpE_waitDma2_eq 𝒱₀ (c : Thread nD τ) none Set.univ) (K (c, .inr (2, (3 : Off)))) (0 : CellTallies nD τ sig Unit) _) $$ [Hcas4 HO Hpas4]
  · isplitr; · iapply (records_inv (Rd m) K (c, .inr (2, (3 : Off)))); iexact Hrec
    isplitl [Hcas4]; · iexact Hcas4
    isplitl [HO]; · iexact HO
    isplitr; · rw [MayWait_zero]; iempintro
    iexact Hpas4
  iintro ⟨HO, Hpas4, -, Hshb4⟩
  iapply (wp_agSend_wait m c (5 : Fin 16) (by decide) (w := TpuEff.waitDma2 (agSend (5 : Fin 16)) (outOwn c) (outOwn c) _ _) (wpE_waitDma2_eq 𝒱₀ (c : Thread nD τ) none Set.univ) (K (c, .inr (2, (4 : Off)))) (0 : CellTallies nD τ sig Unit) _) $$ [Hcas5 HO Hpas5]
  · isplitr; · iapply (records_inv (Rd m) K (c, .inr (2, (4 : Off)))); iexact Hrec
    isplitl [Hcas5]; · iexact Hcas5
    isplitl [HO]; · iexact HO
    isplitr; · rw [MayWait_zero]; iempintro
    iexact Hpas5
  iintro ⟨HO, Hpas5, -, Hshb5⟩
  iapply (wp_agSend_wait m c (6 : Fin 16) (by decide) (w := TpuEff.waitDma2 (agSend (6 : Fin 16)) (outOwn c) (outOwn c) _ _) (wpE_waitDma2_eq 𝒱₀ (c : Thread nD τ) none Set.univ) (K (c, .inr (2, (5 : Off)))) (0 : CellTallies nD τ sig Unit) _) $$ [Hcas6 HO Hpas6]
  · isplitr; · iapply (records_inv (Rd m) K (c, .inr (2, (5 : Off)))); iexact Hrec
    isplitl [Hcas6]; · iexact Hcas6
    isplitl [HO]; · iexact HO
    isplitr; · rw [MayWait_zero]; iempintro
    iexact Hpas6
  iintro ⟨HO, Hpas6, -, Hshb6⟩
  iapply (wp_agSend_wait m c (7 : Fin 16) (by decide) (w := TpuEff.waitDma2 (agSend (7 : Fin 16)) (outOwn c) (outOwn c) _ _) (wpE_waitDma2_eq 𝒱₀ (c : Thread nD τ) none Set.univ) (K (c, .inr (2, (6 : Off)))) (0 : CellTallies nD τ sig Unit) _) $$ [Hcas7 HO Hpas7]
  · isplitr; · iapply (records_inv (Rd m) K (c, .inr (2, (6 : Off)))); iexact Hrec
    isplitl [Hcas7]; · iexact Hcas7
    isplitl [HO]; · iexact HO
    isplitr; · rw [MayWait_zero]; iempintro
    iexact Hpas7
  iintro ⟨HO, Hpas7, -, Hshb7⟩
  iapply (wp_agSend_wait m c (8 : Fin 16) (by decide) (w := TpuEff.waitDma2 (agSend (8 : Fin 16)) (outOwn c) (outOwn c) _ _) (wpE_waitDma2_eq 𝒱₀ (c : Thread nD τ) none Set.univ) (K (c, .inr (2, (7 : Off)))) (0 : CellTallies nD τ sig Unit) _) $$ [Hcas8 HO Hpas8]
  · isplitr; · iapply (records_inv (Rd m) K (c, .inr (2, (7 : Off)))); iexact Hrec
    isplitl [Hcas8]; · iexact Hcas8
    isplitl [HO]; · iexact HO
    isplitr; · rw [MayWait_zero]; iempintro
    iexact Hpas8
  iintro ⟨HO, Hpas8, -, Hshb8⟩
  iapply (wp_agSend_wait m c (9 : Fin 16) (by decide) (w := TpuEff.waitDma2 (agSend (9 : Fin 16)) (outOwn c) (outOwn c) _ _) (wpE_waitDma2_eq 𝒱₀ (c : Thread nD τ) none Set.univ) (K (c, .inr (2, (8 : Off)))) (0 : CellTallies nD τ sig Unit) _) $$ [Hcas9 HO Hpas9]
  · isplitr; · iapply (records_inv (Rd m) K (c, .inr (2, (8 : Off)))); iexact Hrec
    isplitl [Hcas9]; · iexact Hcas9
    isplitl [HO]; · iexact HO
    isplitr; · rw [MayWait_zero]; iempintro
    iexact Hpas9
  iintro ⟨HO, Hpas9, -, Hshb9⟩
  iapply (wp_agSend_wait m c (10 : Fin 16) (by decide) (w := TpuEff.waitDma2 (agSend (10 : Fin 16)) (outOwn c) (outOwn c) _ _) (wpE_waitDma2_eq 𝒱₀ (c : Thread nD τ) none Set.univ) (K (c, .inr (2, (9 : Off)))) (0 : CellTallies nD τ sig Unit) _) $$ [Hcas10 HO Hpas10]
  · isplitr; · iapply (records_inv (Rd m) K (c, .inr (2, (9 : Off)))); iexact Hrec
    isplitl [Hcas10]; · iexact Hcas10
    isplitl [HO]; · iexact HO
    isplitr; · rw [MayWait_zero]; iempintro
    iexact Hpas10
  iintro ⟨HO, Hpas10, -, Hshb10⟩
  iapply (wp_agSend_wait m c (11 : Fin 16) (by decide) (w := TpuEff.waitDma2 (agSend (11 : Fin 16)) (outOwn c) (outOwn c) _ _) (wpE_waitDma2_eq 𝒱₀ (c : Thread nD τ) none Set.univ) (K (c, .inr (2, (10 : Off)))) (0 : CellTallies nD τ sig Unit) _) $$ [Hcas11 HO Hpas11]
  · isplitr; · iapply (records_inv (Rd m) K (c, .inr (2, (10 : Off)))); iexact Hrec
    isplitl [Hcas11]; · iexact Hcas11
    isplitl [HO]; · iexact HO
    isplitr; · rw [MayWait_zero]; iempintro
    iexact Hpas11
  iintro ⟨HO, Hpas11, -, Hshb11⟩
  iapply (wp_agSend_wait m c (12 : Fin 16) (by decide) (w := TpuEff.waitDma2 (agSend (12 : Fin 16)) (outOwn c) (outOwn c) _ _) (wpE_waitDma2_eq 𝒱₀ (c : Thread nD τ) none Set.univ) (K (c, .inr (2, (11 : Off)))) (0 : CellTallies nD τ sig Unit) _) $$ [Hcas12 HO Hpas12]
  · isplitr; · iapply (records_inv (Rd m) K (c, .inr (2, (11 : Off)))); iexact Hrec
    isplitl [Hcas12]; · iexact Hcas12
    isplitl [HO]; · iexact HO
    isplitr; · rw [MayWait_zero]; iempintro
    iexact Hpas12
  iintro ⟨HO, Hpas12, -, Hshb12⟩
  iapply (wp_agSend_wait m c (13 : Fin 16) (by decide) (w := TpuEff.waitDma2 (agSend (13 : Fin 16)) (outOwn c) (outOwn c) _ _) (wpE_waitDma2_eq 𝒱₀ (c : Thread nD τ) none Set.univ) (K (c, .inr (2, (12 : Off)))) (0 : CellTallies nD τ sig Unit) _) $$ [Hcas13 HO Hpas13]
  · isplitr; · iapply (records_inv (Rd m) K (c, .inr (2, (12 : Off)))); iexact Hrec
    isplitl [Hcas13]; · iexact Hcas13
    isplitl [HO]; · iexact HO
    isplitr; · rw [MayWait_zero]; iempintro
    iexact Hpas13
  iintro ⟨HO, Hpas13, -, Hshb13⟩
  iapply (wp_agSend_wait m c (14 : Fin 16) (by decide) (w := TpuEff.waitDma2 (agSend (14 : Fin 16)) (outOwn c) (outOwn c) _ _) (wpE_waitDma2_eq 𝒱₀ (c : Thread nD τ) none Set.univ) (K (c, .inr (2, (13 : Off)))) (0 : CellTallies nD τ sig Unit) _) $$ [Hcas14 HO Hpas14]
  · isplitr; · iapply (records_inv (Rd m) K (c, .inr (2, (13 : Off)))); iexact Hrec
    isplitl [Hcas14]; · iexact Hcas14
    isplitl [HO]; · iexact HO
    isplitr; · rw [MayWait_zero]; iempintro
    iexact Hpas14
  iintro ⟨HO, Hpas14, -, Hshb14⟩
  iapply (wp_agSend_wait m c (15 : Fin 16) (by decide) (w := TpuEff.waitDma2 (agSend (15 : Fin 16)) (outOwn c) (outOwn c) _ _) (wpE_waitDma2_eq 𝒱₀ (c : Thread nD τ) none Set.univ) (K (c, .inr (2, (14 : Off)))) (0 : CellTallies nD τ sig Unit) _) $$ [Hcas15 HO Hpas15]
  · isplitr; · iapply (records_inv (Rd m) K (c, .inr (2, (14 : Off)))); iexact Hrec
    isplitl [Hcas15]; · iexact Hcas15
    isplitl [HO]; · iexact HO
    isplitr; · rw [MayWait_zero]; iempintro
    iexact Hpas15
  iintro ⟨HO, Hpas15, -, Hshb15⟩
  -- the sixty transfer cells close: their counters at zero are the device's again
  imod (dma_cell_close m c (rsSend (1 : Fin 16)) (K (c, .inr (0, (0 : Off))))) $$ [Hps1] with Hzs1
  · isplitr; · iapply (records_inv (Rd m) K (c, .inr (0, (0 : Off)))); iexact Hrec
    iexact Hps1
  imod (dma_cell_close m c (rsSend (2 : Fin 16)) (K (c, .inr (0, (1 : Off))))) $$ [Hps2] with Hzs2
  · isplitr; · iapply (records_inv (Rd m) K (c, .inr (0, (1 : Off)))); iexact Hrec
    iexact Hps2
  imod (dma_cell_close m c (rsSend (3 : Fin 16)) (K (c, .inr (0, (2 : Off))))) $$ [Hps3] with Hzs3
  · isplitr; · iapply (records_inv (Rd m) K (c, .inr (0, (2 : Off)))); iexact Hrec
    iexact Hps3
  imod (dma_cell_close m c (rsSend (4 : Fin 16)) (K (c, .inr (0, (3 : Off))))) $$ [Hps4] with Hzs4
  · isplitr; · iapply (records_inv (Rd m) K (c, .inr (0, (3 : Off)))); iexact Hrec
    iexact Hps4
  imod (dma_cell_close m c (rsSend (5 : Fin 16)) (K (c, .inr (0, (4 : Off))))) $$ [Hps5] with Hzs5
  · isplitr; · iapply (records_inv (Rd m) K (c, .inr (0, (4 : Off)))); iexact Hrec
    iexact Hps5
  imod (dma_cell_close m c (rsSend (6 : Fin 16)) (K (c, .inr (0, (5 : Off))))) $$ [Hps6] with Hzs6
  · isplitr; · iapply (records_inv (Rd m) K (c, .inr (0, (5 : Off)))); iexact Hrec
    iexact Hps6
  imod (dma_cell_close m c (rsSend (7 : Fin 16)) (K (c, .inr (0, (6 : Off))))) $$ [Hps7] with Hzs7
  · isplitr; · iapply (records_inv (Rd m) K (c, .inr (0, (6 : Off)))); iexact Hrec
    iexact Hps7
  imod (dma_cell_close m c (rsSend (8 : Fin 16)) (K (c, .inr (0, (7 : Off))))) $$ [Hps8] with Hzs8
  · isplitr; · iapply (records_inv (Rd m) K (c, .inr (0, (7 : Off)))); iexact Hrec
    iexact Hps8
  imod (dma_cell_close m c (rsSend (9 : Fin 16)) (K (c, .inr (0, (8 : Off))))) $$ [Hps9] with Hzs9
  · isplitr; · iapply (records_inv (Rd m) K (c, .inr (0, (8 : Off)))); iexact Hrec
    iexact Hps9
  imod (dma_cell_close m c (rsSend (10 : Fin 16)) (K (c, .inr (0, (9 : Off))))) $$ [Hps10] with Hzs10
  · isplitr; · iapply (records_inv (Rd m) K (c, .inr (0, (9 : Off)))); iexact Hrec
    iexact Hps10
  imod (dma_cell_close m c (rsSend (11 : Fin 16)) (K (c, .inr (0, (10 : Off))))) $$ [Hps11] with Hzs11
  · isplitr; · iapply (records_inv (Rd m) K (c, .inr (0, (10 : Off)))); iexact Hrec
    iexact Hps11
  imod (dma_cell_close m c (rsSend (12 : Fin 16)) (K (c, .inr (0, (11 : Off))))) $$ [Hps12] with Hzs12
  · isplitr; · iapply (records_inv (Rd m) K (c, .inr (0, (11 : Off)))); iexact Hrec
    iexact Hps12
  imod (dma_cell_close m c (rsSend (13 : Fin 16)) (K (c, .inr (0, (12 : Off))))) $$ [Hps13] with Hzs13
  · isplitr; · iapply (records_inv (Rd m) K (c, .inr (0, (12 : Off)))); iexact Hrec
    iexact Hps13
  imod (dma_cell_close m c (rsSend (14 : Fin 16)) (K (c, .inr (0, (13 : Off))))) $$ [Hps14] with Hzs14
  · isplitr; · iapply (records_inv (Rd m) K (c, .inr (0, (13 : Off)))); iexact Hrec
    iexact Hps14
  imod (dma_cell_close m c (rsSend (15 : Fin 16)) (K (c, .inr (0, (14 : Off))))) $$ [Hps15] with Hzs15
  · isplitr; · iapply (records_inv (Rd m) K (c, .inr (0, (14 : Off)))); iexact Hrec
    iexact Hps15
  imod (dma_cell_close m c (rsRecv (1 : Fin 16)) (K (c, .inr (1, (0 : Off))))) $$ [Hpr1] with Hzr1
  · isplitr; · iapply (records_inv (Rd m) K (c, .inr (1, (0 : Off)))); iexact Hrec
    iexact Hpr1
  imod (dma_cell_close m c (rsRecv (2 : Fin 16)) (K (c, .inr (1, (1 : Off))))) $$ [Hpr2] with Hzr2
  · isplitr; · iapply (records_inv (Rd m) K (c, .inr (1, (1 : Off)))); iexact Hrec
    iexact Hpr2
  imod (dma_cell_close m c (rsRecv (3 : Fin 16)) (K (c, .inr (1, (2 : Off))))) $$ [Hpr3] with Hzr3
  · isplitr; · iapply (records_inv (Rd m) K (c, .inr (1, (2 : Off)))); iexact Hrec
    iexact Hpr3
  imod (dma_cell_close m c (rsRecv (4 : Fin 16)) (K (c, .inr (1, (3 : Off))))) $$ [Hpr4] with Hzr4
  · isplitr; · iapply (records_inv (Rd m) K (c, .inr (1, (3 : Off)))); iexact Hrec
    iexact Hpr4
  imod (dma_cell_close m c (rsRecv (5 : Fin 16)) (K (c, .inr (1, (4 : Off))))) $$ [Hpr5] with Hzr5
  · isplitr; · iapply (records_inv (Rd m) K (c, .inr (1, (4 : Off)))); iexact Hrec
    iexact Hpr5
  imod (dma_cell_close m c (rsRecv (6 : Fin 16)) (K (c, .inr (1, (5 : Off))))) $$ [Hpr6] with Hzr6
  · isplitr; · iapply (records_inv (Rd m) K (c, .inr (1, (5 : Off)))); iexact Hrec
    iexact Hpr6
  imod (dma_cell_close m c (rsRecv (7 : Fin 16)) (K (c, .inr (1, (6 : Off))))) $$ [Hpr7] with Hzr7
  · isplitr; · iapply (records_inv (Rd m) K (c, .inr (1, (6 : Off)))); iexact Hrec
    iexact Hpr7
  imod (dma_cell_close m c (rsRecv (8 : Fin 16)) (K (c, .inr (1, (7 : Off))))) $$ [Hpr8] with Hzr8
  · isplitr; · iapply (records_inv (Rd m) K (c, .inr (1, (7 : Off)))); iexact Hrec
    iexact Hpr8
  imod (dma_cell_close m c (rsRecv (9 : Fin 16)) (K (c, .inr (1, (8 : Off))))) $$ [Hpr9] with Hzr9
  · isplitr; · iapply (records_inv (Rd m) K (c, .inr (1, (8 : Off)))); iexact Hrec
    iexact Hpr9
  imod (dma_cell_close m c (rsRecv (10 : Fin 16)) (K (c, .inr (1, (9 : Off))))) $$ [Hpr10] with Hzr10
  · isplitr; · iapply (records_inv (Rd m) K (c, .inr (1, (9 : Off)))); iexact Hrec
    iexact Hpr10
  imod (dma_cell_close m c (rsRecv (11 : Fin 16)) (K (c, .inr (1, (10 : Off))))) $$ [Hpr11] with Hzr11
  · isplitr; · iapply (records_inv (Rd m) K (c, .inr (1, (10 : Off)))); iexact Hrec
    iexact Hpr11
  imod (dma_cell_close m c (rsRecv (12 : Fin 16)) (K (c, .inr (1, (11 : Off))))) $$ [Hpr12] with Hzr12
  · isplitr; · iapply (records_inv (Rd m) K (c, .inr (1, (11 : Off)))); iexact Hrec
    iexact Hpr12
  imod (dma_cell_close m c (rsRecv (13 : Fin 16)) (K (c, .inr (1, (12 : Off))))) $$ [Hpr13] with Hzr13
  · isplitr; · iapply (records_inv (Rd m) K (c, .inr (1, (12 : Off)))); iexact Hrec
    iexact Hpr13
  imod (dma_cell_close m c (rsRecv (14 : Fin 16)) (K (c, .inr (1, (13 : Off))))) $$ [Hpr14] with Hzr14
  · isplitr; · iapply (records_inv (Rd m) K (c, .inr (1, (13 : Off)))); iexact Hrec
    iexact Hpr14
  imod (dma_cell_close m c (rsRecv (15 : Fin 16)) (K (c, .inr (1, (14 : Off))))) $$ [Hpr15] with Hzr15
  · isplitr; · iapply (records_inv (Rd m) K (c, .inr (1, (14 : Off)))); iexact Hrec
    iexact Hpr15
  imod (dma_cell_close m c (agSend (1 : Fin 16)) (K (c, .inr (2, (0 : Off))))) $$ [Hpas1] with Hzas1
  · isplitr; · iapply (records_inv (Rd m) K (c, .inr (2, (0 : Off)))); iexact Hrec
    iexact Hpas1
  imod (dma_cell_close m c (agSend (2 : Fin 16)) (K (c, .inr (2, (1 : Off))))) $$ [Hpas2] with Hzas2
  · isplitr; · iapply (records_inv (Rd m) K (c, .inr (2, (1 : Off)))); iexact Hrec
    iexact Hpas2
  imod (dma_cell_close m c (agSend (3 : Fin 16)) (K (c, .inr (2, (2 : Off))))) $$ [Hpas3] with Hzas3
  · isplitr; · iapply (records_inv (Rd m) K (c, .inr (2, (2 : Off)))); iexact Hrec
    iexact Hpas3
  imod (dma_cell_close m c (agSend (4 : Fin 16)) (K (c, .inr (2, (3 : Off))))) $$ [Hpas4] with Hzas4
  · isplitr; · iapply (records_inv (Rd m) K (c, .inr (2, (3 : Off)))); iexact Hrec
    iexact Hpas4
  imod (dma_cell_close m c (agSend (5 : Fin 16)) (K (c, .inr (2, (4 : Off))))) $$ [Hpas5] with Hzas5
  · isplitr; · iapply (records_inv (Rd m) K (c, .inr (2, (4 : Off)))); iexact Hrec
    iexact Hpas5
  imod (dma_cell_close m c (agSend (6 : Fin 16)) (K (c, .inr (2, (5 : Off))))) $$ [Hpas6] with Hzas6
  · isplitr; · iapply (records_inv (Rd m) K (c, .inr (2, (5 : Off)))); iexact Hrec
    iexact Hpas6
  imod (dma_cell_close m c (agSend (7 : Fin 16)) (K (c, .inr (2, (6 : Off))))) $$ [Hpas7] with Hzas7
  · isplitr; · iapply (records_inv (Rd m) K (c, .inr (2, (6 : Off)))); iexact Hrec
    iexact Hpas7
  imod (dma_cell_close m c (agSend (8 : Fin 16)) (K (c, .inr (2, (7 : Off))))) $$ [Hpas8] with Hzas8
  · isplitr; · iapply (records_inv (Rd m) K (c, .inr (2, (7 : Off)))); iexact Hrec
    iexact Hpas8
  imod (dma_cell_close m c (agSend (9 : Fin 16)) (K (c, .inr (2, (8 : Off))))) $$ [Hpas9] with Hzas9
  · isplitr; · iapply (records_inv (Rd m) K (c, .inr (2, (8 : Off)))); iexact Hrec
    iexact Hpas9
  imod (dma_cell_close m c (agSend (10 : Fin 16)) (K (c, .inr (2, (9 : Off))))) $$ [Hpas10] with Hzas10
  · isplitr; · iapply (records_inv (Rd m) K (c, .inr (2, (9 : Off)))); iexact Hrec
    iexact Hpas10
  imod (dma_cell_close m c (agSend (11 : Fin 16)) (K (c, .inr (2, (10 : Off))))) $$ [Hpas11] with Hzas11
  · isplitr; · iapply (records_inv (Rd m) K (c, .inr (2, (10 : Off)))); iexact Hrec
    iexact Hpas11
  imod (dma_cell_close m c (agSend (12 : Fin 16)) (K (c, .inr (2, (11 : Off))))) $$ [Hpas12] with Hzas12
  · isplitr; · iapply (records_inv (Rd m) K (c, .inr (2, (11 : Off)))); iexact Hrec
    iexact Hpas12
  imod (dma_cell_close m c (agSend (13 : Fin 16)) (K (c, .inr (2, (12 : Off))))) $$ [Hpas13] with Hzas13
  · isplitr; · iapply (records_inv (Rd m) K (c, .inr (2, (12 : Off)))); iexact Hrec
    iexact Hpas13
  imod (dma_cell_close m c (agSend (14 : Fin 16)) (K (c, .inr (2, (13 : Off))))) $$ [Hpas14] with Hzas14
  · isplitr; · iapply (records_inv (Rd m) K (c, .inr (2, (13 : Off)))); iexact Hrec
    iexact Hpas14
  imod (dma_cell_close m c (agSend (15 : Fin 16)) (K (c, .inr (2, (14 : Off))))) $$ [Hpas15] with Hzas15
  · isplitr; · iapply (records_inv (Rd m) K (c, .inr (2, (14 : Off)))); iexact Hrec
    iexact Hpas15
  imod (dma_cell_close m c (agRecv (1 : Fin 16)) (K (c, .inr (3, (0 : Off))))) $$ [Hpar1] with Hzar1
  · isplitr; · iapply (records_inv (Rd m) K (c, .inr (3, (0 : Off)))); iexact Hrec
    iexact Hpar1
  imod (dma_cell_close m c (agRecv (2 : Fin 16)) (K (c, .inr (3, (1 : Off))))) $$ [Hpar2] with Hzar2
  · isplitr; · iapply (records_inv (Rd m) K (c, .inr (3, (1 : Off)))); iexact Hrec
    iexact Hpar2
  imod (dma_cell_close m c (agRecv (3 : Fin 16)) (K (c, .inr (3, (2 : Off))))) $$ [Hpar3] with Hzar3
  · isplitr; · iapply (records_inv (Rd m) K (c, .inr (3, (2 : Off)))); iexact Hrec
    iexact Hpar3
  imod (dma_cell_close m c (agRecv (4 : Fin 16)) (K (c, .inr (3, (3 : Off))))) $$ [Hpar4] with Hzar4
  · isplitr; · iapply (records_inv (Rd m) K (c, .inr (3, (3 : Off)))); iexact Hrec
    iexact Hpar4
  imod (dma_cell_close m c (agRecv (5 : Fin 16)) (K (c, .inr (3, (4 : Off))))) $$ [Hpar5] with Hzar5
  · isplitr; · iapply (records_inv (Rd m) K (c, .inr (3, (4 : Off)))); iexact Hrec
    iexact Hpar5
  imod (dma_cell_close m c (agRecv (6 : Fin 16)) (K (c, .inr (3, (5 : Off))))) $$ [Hpar6] with Hzar6
  · isplitr; · iapply (records_inv (Rd m) K (c, .inr (3, (5 : Off)))); iexact Hrec
    iexact Hpar6
  imod (dma_cell_close m c (agRecv (7 : Fin 16)) (K (c, .inr (3, (6 : Off))))) $$ [Hpar7] with Hzar7
  · isplitr; · iapply (records_inv (Rd m) K (c, .inr (3, (6 : Off)))); iexact Hrec
    iexact Hpar7
  imod (dma_cell_close m c (agRecv (8 : Fin 16)) (K (c, .inr (3, (7 : Off))))) $$ [Hpar8] with Hzar8
  · isplitr; · iapply (records_inv (Rd m) K (c, .inr (3, (7 : Off)))); iexact Hrec
    iexact Hpar8
  imod (dma_cell_close m c (agRecv (9 : Fin 16)) (K (c, .inr (3, (8 : Off))))) $$ [Hpar9] with Hzar9
  · isplitr; · iapply (records_inv (Rd m) K (c, .inr (3, (8 : Off)))); iexact Hrec
    iexact Hpar9
  imod (dma_cell_close m c (agRecv (10 : Fin 16)) (K (c, .inr (3, (9 : Off))))) $$ [Hpar10] with Hzar10
  · isplitr; · iapply (records_inv (Rd m) K (c, .inr (3, (9 : Off)))); iexact Hrec
    iexact Hpar10
  imod (dma_cell_close m c (agRecv (11 : Fin 16)) (K (c, .inr (3, (10 : Off))))) $$ [Hpar11] with Hzar11
  · isplitr; · iapply (records_inv (Rd m) K (c, .inr (3, (10 : Off)))); iexact Hrec
    iexact Hpar11
  imod (dma_cell_close m c (agRecv (12 : Fin 16)) (K (c, .inr (3, (11 : Off))))) $$ [Hpar12] with Hzar12
  · isplitr; · iapply (records_inv (Rd m) K (c, .inr (3, (11 : Off)))); iexact Hrec
    iexact Hpar12
  imod (dma_cell_close m c (agRecv (13 : Fin 16)) (K (c, .inr (3, (12 : Off))))) $$ [Hpar13] with Hzar13
  · isplitr; · iapply (records_inv (Rd m) K (c, .inr (3, (12 : Off)))); iexact Hrec
    iexact Hpar13
  imod (dma_cell_close m c (agRecv (14 : Fin 16)) (K (c, .inr (3, (13 : Off))))) $$ [Hpar14] with Hzar14
  · isplitr; · iapply (records_inv (Rd m) K (c, .inr (3, (13 : Off)))); iexact Hrec
    iexact Hpar14
  imod (dma_cell_close m c (agRecv (15 : Fin 16)) (K (c, .inr (3, (14 : Off))))) $$ [Hpar15] with Hzar15
  · isplitr; · iapply (records_inv (Rd m) K (c, .inr (3, (14 : Off)))); iexact Hrec
    iexact Hpar15
  -- what the waits returned, spelt as the pieces of the three buffers
  ihave Hback1 := (Entails.of_eq (show (rsSendPay m c (1 : Fin 16) : sProp 𝕄) = ptsAt c (accSrc c 1) fullShare (partialOf m c) from rfl)) $$ Hback1
  ihave Hshb1 := (Entails.of_eq (show (agSendPay m c (1 : Fin 16) : sProp 𝕄) = ptsAt c (outOwn c) (shareOf 1) (outFull m) from rfl)) $$ Hshb1
  ihave Hgot1 := (Entails.of_eq (show (agRecvPay m c (1 : Fin 16) : sProp 𝕄) = ptsAt c (outOwn (back c 1)) fullShare (outFull m) from rfl)) $$ Hgot1
  ihave Hback2 := (Entails.of_eq (show (rsSendPay m c (2 : Fin 16) : sProp 𝕄) = ptsAt c (accSrc c 2) fullShare (partialOf m c) from rfl)) $$ Hback2
  ihave Hshb2 := (Entails.of_eq (show (agSendPay m c (2 : Fin 16) : sProp 𝕄) = ptsAt c (outOwn c) (shareOf 2) (outFull m) from rfl)) $$ Hshb2
  ihave Hgot2 := (Entails.of_eq (show (agRecvPay m c (2 : Fin 16) : sProp 𝕄) = ptsAt c (outOwn (back c 2)) fullShare (outFull m) from rfl)) $$ Hgot2
  ihave Hback3 := (Entails.of_eq (show (rsSendPay m c (3 : Fin 16) : sProp 𝕄) = ptsAt c (accSrc c 3) fullShare (partialOf m c) from rfl)) $$ Hback3
  ihave Hshb3 := (Entails.of_eq (show (agSendPay m c (3 : Fin 16) : sProp 𝕄) = ptsAt c (outOwn c) (shareOf 3) (outFull m) from rfl)) $$ Hshb3
  ihave Hgot3 := (Entails.of_eq (show (agRecvPay m c (3 : Fin 16) : sProp 𝕄) = ptsAt c (outOwn (back c 3)) fullShare (outFull m) from rfl)) $$ Hgot3
  ihave Hback4 := (Entails.of_eq (show (rsSendPay m c (4 : Fin 16) : sProp 𝕄) = ptsAt c (accSrc c 4) fullShare (partialOf m c) from rfl)) $$ Hback4
  ihave Hshb4 := (Entails.of_eq (show (agSendPay m c (4 : Fin 16) : sProp 𝕄) = ptsAt c (outOwn c) (shareOf 4) (outFull m) from rfl)) $$ Hshb4
  ihave Hgot4 := (Entails.of_eq (show (agRecvPay m c (4 : Fin 16) : sProp 𝕄) = ptsAt c (outOwn (back c 4)) fullShare (outFull m) from rfl)) $$ Hgot4
  ihave Hback5 := (Entails.of_eq (show (rsSendPay m c (5 : Fin 16) : sProp 𝕄) = ptsAt c (accSrc c 5) fullShare (partialOf m c) from rfl)) $$ Hback5
  ihave Hshb5 := (Entails.of_eq (show (agSendPay m c (5 : Fin 16) : sProp 𝕄) = ptsAt c (outOwn c) (shareOf 5) (outFull m) from rfl)) $$ Hshb5
  ihave Hgot5 := (Entails.of_eq (show (agRecvPay m c (5 : Fin 16) : sProp 𝕄) = ptsAt c (outOwn (back c 5)) fullShare (outFull m) from rfl)) $$ Hgot5
  ihave Hback6 := (Entails.of_eq (show (rsSendPay m c (6 : Fin 16) : sProp 𝕄) = ptsAt c (accSrc c 6) fullShare (partialOf m c) from rfl)) $$ Hback6
  ihave Hshb6 := (Entails.of_eq (show (agSendPay m c (6 : Fin 16) : sProp 𝕄) = ptsAt c (outOwn c) (shareOf 6) (outFull m) from rfl)) $$ Hshb6
  ihave Hgot6 := (Entails.of_eq (show (agRecvPay m c (6 : Fin 16) : sProp 𝕄) = ptsAt c (outOwn (back c 6)) fullShare (outFull m) from rfl)) $$ Hgot6
  ihave Hback7 := (Entails.of_eq (show (rsSendPay m c (7 : Fin 16) : sProp 𝕄) = ptsAt c (accSrc c 7) fullShare (partialOf m c) from rfl)) $$ Hback7
  ihave Hshb7 := (Entails.of_eq (show (agSendPay m c (7 : Fin 16) : sProp 𝕄) = ptsAt c (outOwn c) (shareOf 7) (outFull m) from rfl)) $$ Hshb7
  ihave Hgot7 := (Entails.of_eq (show (agRecvPay m c (7 : Fin 16) : sProp 𝕄) = ptsAt c (outOwn (back c 7)) fullShare (outFull m) from rfl)) $$ Hgot7
  ihave Hback8 := (Entails.of_eq (show (rsSendPay m c (8 : Fin 16) : sProp 𝕄) = ptsAt c (accSrc c 8) fullShare (partialOf m c) from rfl)) $$ Hback8
  ihave Hshb8 := (Entails.of_eq (show (agSendPay m c (8 : Fin 16) : sProp 𝕄) = ptsAt c (outOwn c) (shareOf 8) (outFull m) from rfl)) $$ Hshb8
  ihave Hgot8 := (Entails.of_eq (show (agRecvPay m c (8 : Fin 16) : sProp 𝕄) = ptsAt c (outOwn (back c 8)) fullShare (outFull m) from rfl)) $$ Hgot8
  ihave Hback9 := (Entails.of_eq (show (rsSendPay m c (9 : Fin 16) : sProp 𝕄) = ptsAt c (accSrc c 9) fullShare (partialOf m c) from rfl)) $$ Hback9
  ihave Hshb9 := (Entails.of_eq (show (agSendPay m c (9 : Fin 16) : sProp 𝕄) = ptsAt c (outOwn c) (shareOf 9) (outFull m) from rfl)) $$ Hshb9
  ihave Hgot9 := (Entails.of_eq (show (agRecvPay m c (9 : Fin 16) : sProp 𝕄) = ptsAt c (outOwn (back c 9)) fullShare (outFull m) from rfl)) $$ Hgot9
  ihave Hback10 := (Entails.of_eq (show (rsSendPay m c (10 : Fin 16) : sProp 𝕄) = ptsAt c (accSrc c 10) fullShare (partialOf m c) from rfl)) $$ Hback10
  ihave Hshb10 := (Entails.of_eq (show (agSendPay m c (10 : Fin 16) : sProp 𝕄) = ptsAt c (outOwn c) (shareOf 10) (outFull m) from rfl)) $$ Hshb10
  ihave Hgot10 := (Entails.of_eq (show (agRecvPay m c (10 : Fin 16) : sProp 𝕄) = ptsAt c (outOwn (back c 10)) fullShare (outFull m) from rfl)) $$ Hgot10
  ihave Hback11 := (Entails.of_eq (show (rsSendPay m c (11 : Fin 16) : sProp 𝕄) = ptsAt c (accSrc c 11) fullShare (partialOf m c) from rfl)) $$ Hback11
  ihave Hshb11 := (Entails.of_eq (show (agSendPay m c (11 : Fin 16) : sProp 𝕄) = ptsAt c (outOwn c) (shareOf 11) (outFull m) from rfl)) $$ Hshb11
  ihave Hgot11 := (Entails.of_eq (show (agRecvPay m c (11 : Fin 16) : sProp 𝕄) = ptsAt c (outOwn (back c 11)) fullShare (outFull m) from rfl)) $$ Hgot11
  ihave Hback12 := (Entails.of_eq (show (rsSendPay m c (12 : Fin 16) : sProp 𝕄) = ptsAt c (accSrc c 12) fullShare (partialOf m c) from rfl)) $$ Hback12
  ihave Hshb12 := (Entails.of_eq (show (agSendPay m c (12 : Fin 16) : sProp 𝕄) = ptsAt c (outOwn c) (shareOf 12) (outFull m) from rfl)) $$ Hshb12
  ihave Hgot12 := (Entails.of_eq (show (agRecvPay m c (12 : Fin 16) : sProp 𝕄) = ptsAt c (outOwn (back c 12)) fullShare (outFull m) from rfl)) $$ Hgot12
  ihave Hback13 := (Entails.of_eq (show (rsSendPay m c (13 : Fin 16) : sProp 𝕄) = ptsAt c (accSrc c 13) fullShare (partialOf m c) from rfl)) $$ Hback13
  ihave Hshb13 := (Entails.of_eq (show (agSendPay m c (13 : Fin 16) : sProp 𝕄) = ptsAt c (outOwn c) (shareOf 13) (outFull m) from rfl)) $$ Hshb13
  ihave Hgot13 := (Entails.of_eq (show (agRecvPay m c (13 : Fin 16) : sProp 𝕄) = ptsAt c (outOwn (back c 13)) fullShare (outFull m) from rfl)) $$ Hgot13
  ihave Hback14 := (Entails.of_eq (show (rsSendPay m c (14 : Fin 16) : sProp 𝕄) = ptsAt c (accSrc c 14) fullShare (partialOf m c) from rfl)) $$ Hback14
  ihave Hshb14 := (Entails.of_eq (show (agSendPay m c (14 : Fin 16) : sProp 𝕄) = ptsAt c (outOwn c) (shareOf 14) (outFull m) from rfl)) $$ Hshb14
  ihave Hgot14 := (Entails.of_eq (show (agRecvPay m c (14 : Fin 16) : sProp 𝕄) = ptsAt c (outOwn (back c 14)) fullShare (outFull m) from rfl)) $$ Hgot14
  ihave Hback15 := (Entails.of_eq (show (rsSendPay m c (15 : Fin 16) : sProp 𝕄) = ptsAt c (accSrc c 15) fullShare (partialOf m c) from rfl)) $$ Hback15
  ihave Hshb15 := (Entails.of_eq (show (agSendPay m c (15 : Fin 16) : sProp 𝕄) = ptsAt c (outOwn c) (shareOf 15) (outFull m) from rfl)) $$ Hshb15
  ihave Hgot15 := (Entails.of_eq (show (agRecvPay m c (15 : Fin 16) : sProp 𝕄) = ptsAt c (outOwn (back c 15)) fullShare (outFull m) from rfl)) $$ Hgot15
  -- the body returns: the buffers joined again, the sixty counters at zero, nothing owed, the result at the full product
  rw [wp_ret]; imodintro
  iapply Hk
  unfold bodyPost offChain
  isplitl [Hao Hback1 Hback2 Hback3 Hback4 Hback5 Hback6 Hback7 Hback8 Hback9 Hback10 Hback11 Hback12 Hback13 Hback14 Hback15]
  · iexists (partialOf m c)
    iapply (Entails.of_eq (acc_eq c fullShare (partialOf m c)).symm)
    isplitl [Hao]; · iexact Hao
    isplitl [Hback1]; · iexact Hback1
    isplitl [Hback2]; · iexact Hback2
    isplitl [Hback3]; · iexact Hback3
    isplitl [Hback4]; · iexact Hback4
    isplitl [Hback5]; · iexact Hback5
    isplitl [Hback6]; · iexact Hback6
    isplitl [Hback7]; · iexact Hback7
    isplitl [Hback8]; · iexact Hback8
    isplitl [Hback9]; · iexact Hback9
    isplitl [Hback10]; · iexact Hback10
    isplitl [Hback11]; · iexact Hback11
    isplitl [Hback12]; · iexact Hback12
    isplitl [Hback13]; · iexact Hback13
    isplitl [Hback14]; · iexact Hback14
    iexact Hback15
  isplitl [Htm0 Hland1 Hland2 Hland3 Hland4 Hland5 Hland6 Hland7 Hland8 Hland9 Hland10 Hland11 Hland12 Hland13 Hland14 Hland15]
  · iapply (tmp_join c)
    isplitl [Htm0]; · iexists _; iexact Htm0
    isplitl [Hland1]; · iexists _; iexact Hland1
    isplitl [Hland2]; · iexists _; iexact Hland2
    isplitl [Hland3]; · iexists _; iexact Hland3
    isplitl [Hland4]; · iexists _; iexact Hland4
    isplitl [Hland5]; · iexists _; iexact Hland5
    isplitl [Hland6]; · iexists _; iexact Hland6
    isplitl [Hland7]; · iexists _; iexact Hland7
    isplitl [Hland8]; · iexists _; iexact Hland8
    isplitl [Hland9]; · iexists _; iexact Hland9
    isplitl [Hland10]; · iexists _; iexact Hland10
    isplitl [Hland11]; · iexists _; iexact Hland11
    isplitl [Hland12]; · iexists _; iexact Hland12
    isplitl [Hland13]; · iexists _; iexact Hland13
    isplitl [Hland14]; · iexists _; iexact Hland14
    iexists _; iexact Hland15
  isplitl [Hzs1 Hzs2 Hzs3 Hzs4 Hzs5 Hzs6 Hzs7 Hzs8 Hzs9 Hzs10 Hzs11 Hzs12 Hzs13 Hzs14 Hzs15]
  · skip
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzs6]; · iexact Hzs6
    isplitl [Hzs7]; · iexact Hzs7
    isplitl [Hzs8]; · iexact Hzs8
    isplitl [Hzs9]; · iexact Hzs9
    isplitl [Hzs10]; · iexact Hzs10
    isplitl [Hzs11]; · iexact Hzs11
    isplitl [Hzs12]; · iexact Hzs12
    isplitl [Hzs13]; · iexact Hzs13
    isplitl [Hzs14]; · iexact Hzs14
    iexact Hzs15
  isplitl [Hzr1 Hzr2 Hzr3 Hzr4 Hzr5 Hzr6 Hzr7 Hzr8 Hzr9 Hzr10 Hzr11 Hzr12 Hzr13 Hzr14 Hzr15]
  · skip
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    isplitl [Hzr7]; · iexact Hzr7
    isplitl [Hzr8]; · iexact Hzr8
    isplitl [Hzr9]; · iexact Hzr9
    isplitl [Hzr10]; · iexact Hzr10
    isplitl [Hzr11]; · iexact Hzr11
    isplitl [Hzr12]; · iexact Hzr12
    isplitl [Hzr13]; · iexact Hzr13
    isplitl [Hzr14]; · iexact Hzr14
    iexact Hzr15
  isplitl [Hzas1 Hzas2 Hzas3 Hzas4 Hzas5 Hzas6 Hzas7 Hzas8 Hzas9 Hzas10 Hzas11 Hzas12 Hzas13 Hzas14 Hzas15]
  · skip
    isplitl [Hzas1]; · iexact Hzas1
    isplitl [Hzas2]; · iexact Hzas2
    isplitl [Hzas3]; · iexact Hzas3
    isplitl [Hzas4]; · iexact Hzas4
    isplitl [Hzas5]; · iexact Hzas5
    isplitl [Hzas6]; · iexact Hzas6
    isplitl [Hzas7]; · iexact Hzas7
    isplitl [Hzas8]; · iexact Hzas8
    isplitl [Hzas9]; · iexact Hzas9
    isplitl [Hzas10]; · iexact Hzas10
    isplitl [Hzas11]; · iexact Hzas11
    isplitl [Hzas12]; · iexact Hzas12
    isplitl [Hzas13]; · iexact Hzas13
    isplitl [Hzas14]; · iexact Hzas14
    iexact Hzas15
  isplitl [Hzar1 Hzar2 Hzar3 Hzar4 Hzar5 Hzar6 Hzar7 Hzar8 Hzar9 Hzar10 Hzar11 Hzar12 Hzar13 Hzar14 Hzar15]
  · skip
    isplitl [Hzar1]; · iexact Hzar1
    isplitl [Hzar2]; · iexact Hzar2
    isplitl [Hzar3]; · iexact Hzar3
    isplitl [Hzar4]; · iexact Hzar4
    isplitl [Hzar5]; · iexact Hzar5
    isplitl [Hzar6]; · iexact Hzar6
    isplitl [Hzar7]; · iexact Hzar7
    isplitl [Hzar8]; · iexact Hzar8
    isplitl [Hzar9]; · iexact Hzar9
    isplitl [Hzar10]; · iexact Hzar10
    isplitl [Hzar11]; · iexact Hzar11
    isplitl [Hzar12]; · iexact Hzar12
    isplitl [Hzar13]; · iexact Hzar13
    isplitl [Hzar14]; · iexact Hzar14
    iexact Hzar15
  isplitl [HO]; · iexists _; iexact HO
  isplitl [Hx]; · iexact Hx
  isplitl [Hkk]; · iexact Hkk
  isplitl [Hw]; · iexact Hw
  iapply (out_join c (outFull m))
  isplitl [Hshb1 Hshb2 Hshb3 Hshb4 Hshb5 Hshb6 Hshb7 Hshb8 Hshb9 Hshb10 Hshb11 Hshb12 Hshb13 Hshb14 Hshb15]
  · iapply (own_shares_join c (outFull m))
    isplitl [Hshb1]; · iexact Hshb1
    isplitl [Hshb2]; · iexact Hshb2
    isplitl [Hshb3]; · iexact Hshb3
    isplitl [Hshb4]; · iexact Hshb4
    isplitl [Hshb5]; · iexact Hshb5
    isplitl [Hshb6]; · iexact Hshb6
    isplitl [Hshb7]; · iexact Hshb7
    isplitl [Hshb8]; · iexact Hshb8
    isplitl [Hshb9]; · iexact Hshb9
    isplitl [Hshb10]; · iexact Hshb10
    isplitl [Hshb11]; · iexact Hshb11
    isplitl [Hshb12]; · iexact Hshb12
    isplitl [Hshb13]; · iexact Hshb13
    isplitl [Hshb14]; · iexact Hshb14
    iexact Hshb15
  isplitl [Hgot1]; · iexact Hgot1
  isplitl [Hgot2]; · iexact Hgot2
  isplitl [Hgot3]; · iexact Hgot3
  isplitl [Hgot4]; · iexact Hgot4
  isplitl [Hgot5]; · iexact Hgot5
  isplitl [Hgot6]; · iexact Hgot6
  isplitl [Hgot7]; · iexact Hgot7
  isplitl [Hgot8]; · iexact Hgot8
  isplitl [Hgot9]; · iexact Hgot9
  isplitl [Hgot10]; · iexact Hgot10
  isplitl [Hgot11]; · iexact Hgot11
  isplitl [Hgot12]; · iexact Hgot12
  isplitl [Hgot13]; · iexact Hgot13
  isplitl [Hgot14]; · iexact Hgot14
  iexact Hgot15

/-- The body meets its specification on every device. -/
theorem sound_body : BodySound (F := F) m :=
  fun K c W gout facc ftmp Kt => sound_body_steps m K c W gout facc ftmp Kt

end Cert.KernelIdeal.Proto
end
-- ==== Proof.Bits.Tables.lean ====
/-
  The schedule's tables at the cells a device pays, with the payloads spelt out as the buffers' elements they hand over:
  the signal device c sends o places on hands that device slot 16 - o of c's temporary buffer and the block of c's result
  that the receiver owns; the copies it sends land in slot o of the receiver's temporary buffer and in block c of the
  receiver's result.  One equation per offset 1, …, 15, each an instance of the equation at a symbolic offset.
-/
import proofs.«900432_g7700000000000433_dist_gconv1d_cshard_i_b4_s512_c256_v7x_i16_bf16_1_alg».proof.Proof.Bits.Protocol

set_option maxRecDepth 16384

noncomputable section

namespace Cert.Kernel.Proto

open Cert.Kernel Cert.Kernel.Gen Cert.Kernel.Chains
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- What device `c`'s signal to the device `o` places on hands over, at `c`'s own buffers. -/
theorem payload_bar_peer (c : Dev nD) (o : Fin 16) :
    (Rd (F := F) m).payload (barCell (peer c o.val)) 0 o
      = iprop((∃ f, (tmpRow (negOff o)).view.loc (c : Thread nD τ) ↦[(tmpRow (negOff o)).view.set]{fullShare} f)
          ∗ (∃ f, (outOwn (peer c o.val)).view.loc (c : Thread nD τ) ↦[(outOwn (peer c o.val)).view.set]{fullShare} f)
          ∗ reached ER (rsRecvCell c (negOff o)) 0 ∗ reached ER (agRecvCell c (negOff o)) 0) := by
  rw [payload_bar]; unfold barPay slotPts ptsAt; rw [back_peer]

theorem mem_duties_bar (c : Dev nD) (o : Fin 16) (ho : o ≠ 0) : o ∈ (Rd (F := F) m).duties (barCell c) 0 := by
  rw [duties_bar]; exact Finset.mem_erase.mpr ⟨ho, Finset.mem_univ _⟩

theorem payload_bar_peer_1 (c : Dev nD) : (Rd (F := F) m).payload (barCell (peer c 1)) 0 (1 : Fin 16)
      = iprop((∃ f, (tmpRow (negOff 1)).view.loc (c : Thread nD τ) ↦[(tmpRow (negOff 1)).view.set]{fullShare} f)
          ∗ (∃ f, (outOwn (peer c 1)).view.loc (c : Thread nD τ) ↦[(outOwn (peer c 1)).view.set]{fullShare} f)
          ∗ reached ER (rsRecvCell c (negOff 1)) 0 ∗ reached ER (agRecvCell c (negOff 1)) 0) := payload_bar_peer m c 1
theorem mem_duties_bar_1 (c : Dev nD) : (1 : Fin 16) ∈ (Rd (F := F) m).duties (barCell c) 0 := mem_duties_bar m c 1 (by decide)
theorem payload_bar_peer_2 (c : Dev nD) : (Rd (F := F) m).payload (barCell (peer c 2)) 0 (2 : Fin 16)
      = iprop((∃ f, (tmpRow (negOff 2)).view.loc (c : Thread nD τ) ↦[(tmpRow (negOff 2)).view.set]{fullShare} f)
          ∗ (∃ f, (outOwn (peer c 2)).view.loc (c : Thread nD τ) ↦[(outOwn (peer c 2)).view.set]{fullShare} f)
          ∗ reached ER (rsRecvCell c (negOff 2)) 0 ∗ reached ER (agRecvCell c (negOff 2)) 0) := payload_bar_peer m c 2
theorem mem_duties_bar_2 (c : Dev nD) : (2 : Fin 16) ∈ (Rd (F := F) m).duties (barCell c) 0 := mem_duties_bar m c 2 (by decide)
theorem payload_bar_peer_3 (c : Dev nD) : (Rd (F := F) m).payload (barCell (peer c 3)) 0 (3 : Fin 16)
      = iprop((∃ f, (tmpRow (negOff 3)).view.loc (c : Thread nD τ) ↦[(tmpRow (negOff 3)).view.set]{fullShare} f)
          ∗ (∃ f, (outOwn (peer c 3)).view.loc (c : Thread nD τ) ↦[(outOwn (peer c 3)).view.set]{fullShare} f)
          ∗ reached ER (rsRecvCell c (negOff 3)) 0 ∗ reached ER (agRecvCell c (negOff 3)) 0) := payload_bar_peer m c 3
theorem mem_duties_bar_3 (c : Dev nD) : (3 : Fin 16) ∈ (Rd (F := F) m).duties (barCell c) 0 := mem_duties_bar m c 3 (by decide)
theorem payload_bar_peer_4 (c : Dev nD) : (Rd (F := F) m).payload (barCell (peer c 4)) 0 (4 : Fin 16)
      = iprop((∃ f, (tmpRow (negOff 4)).view.loc (c : Thread nD τ) ↦[(tmpRow (negOff 4)).view.set]{fullShare} f)
          ∗ (∃ f, (outOwn (peer c 4)).view.loc (c : Thread nD τ) ↦[(outOwn (peer c 4)).view.set]{fullShare} f)
          ∗ reached ER (rsRecvCell c (negOff 4)) 0 ∗ reached ER (agRecvCell c (negOff 4)) 0) := payload_bar_peer m c 4
theorem mem_duties_bar_4 (c : Dev nD) : (4 : Fin 16) ∈ (Rd (F := F) m).duties (barCell c) 0 := mem_duties_bar m c 4 (by decide)
theorem payload_bar_peer_5 (c : Dev nD) : (Rd (F := F) m).payload (barCell (peer c 5)) 0 (5 : Fin 16)
      = iprop((∃ f, (tmpRow (negOff 5)).view.loc (c : Thread nD τ) ↦[(tmpRow (negOff 5)).view.set]{fullShare} f)
          ∗ (∃ f, (outOwn (peer c 5)).view.loc (c : Thread nD τ) ↦[(outOwn (peer c 5)).view.set]{fullShare} f)
          ∗ reached ER (rsRecvCell c (negOff 5)) 0 ∗ reached ER (agRecvCell c (negOff 5)) 0) := payload_bar_peer m c 5
theorem mem_duties_bar_5 (c : Dev nD) : (5 : Fin 16) ∈ (Rd (F := F) m).duties (barCell c) 0 := mem_duties_bar m c 5 (by decide)
theorem payload_bar_peer_6 (c : Dev nD) : (Rd (F := F) m).payload (barCell (peer c 6)) 0 (6 : Fin 16)
      = iprop((∃ f, (tmpRow (negOff 6)).view.loc (c : Thread nD τ) ↦[(tmpRow (negOff 6)).view.set]{fullShare} f)
          ∗ (∃ f, (outOwn (peer c 6)).view.loc (c : Thread nD τ) ↦[(outOwn (peer c 6)).view.set]{fullShare} f)
          ∗ reached ER (rsRecvCell c (negOff 6)) 0 ∗ reached ER (agRecvCell c (negOff 6)) 0) := payload_bar_peer m c 6
theorem mem_duties_bar_6 (c : Dev nD) : (6 : Fin 16) ∈ (Rd (F := F) m).duties (barCell c) 0 := mem_duties_bar m c 6 (by decide)
theorem payload_bar_peer_7 (c : Dev nD) : (Rd (F := F) m).payload (barCell (peer c 7)) 0 (7 : Fin 16)
      = iprop((∃ f, (tmpRow (negOff 7)).view.loc (c : Thread nD τ) ↦[(tmpRow (negOff 7)).view.set]{fullShare} f)
          ∗ (∃ f, (outOwn (peer c 7)).view.loc (c : Thread nD τ) ↦[(outOwn (peer c 7)).view.set]{fullShare} f)
          ∗ reached ER (rsRecvCell c (negOff 7)) 0 ∗ reached ER (agRecvCell c (negOff 7)) 0) := payload_bar_peer m c 7
theorem mem_duties_bar_7 (c : Dev nD) : (7 : Fin 16) ∈ (Rd (F := F) m).duties (barCell c) 0 := mem_duties_bar m c 7 (by decide)
theorem payload_bar_peer_8 (c : Dev nD) : (Rd (F := F) m).payload (barCell (peer c 8)) 0 (8 : Fin 16)
      = iprop((∃ f, (tmpRow (negOff 8)).view.loc (c : Thread nD τ) ↦[(tmpRow (negOff 8)).view.set]{fullShare} f)
          ∗ (∃ f, (outOwn (peer c 8)).view.loc (c : Thread nD τ) ↦[(outOwn (peer c 8)).view.set]{fullShare} f)
          ∗ reached ER (rsRecvCell c (negOff 8)) 0 ∗ reached ER (agRecvCell c (negOff 8)) 0) := payload_bar_peer m c 8
theorem mem_duties_bar_8 (c : Dev nD) : (8 : Fin 16) ∈ (Rd (F := F) m).duties (barCell c) 0 := mem_duties_bar m c 8 (by decide)
theorem payload_bar_peer_9 (c : Dev nD) : (Rd (F := F) m).payload (barCell (peer c 9)) 0 (9 : Fin 16)
      = iprop((∃ f, (tmpRow (negOff 9)).view.loc (c : Thread nD τ) ↦[(tmpRow (negOff 9)).view.set]{fullShare} f)
          ∗ (∃ f, (outOwn (peer c 9)).view.loc (c : Thread nD τ) ↦[(outOwn (peer c 9)).view.set]{fullShare} f)
          ∗ reached ER (rsRecvCell c (negOff 9)) 0 ∗ reached ER (agRecvCell c (negOff 9)) 0) := payload_bar_peer m c 9
theorem mem_duties_bar_9 (c : Dev nD) : (9 : Fin 16) ∈ (Rd (F := F) m).duties (barCell c) 0 := mem_duties_bar m c 9 (by decide)
theorem payload_bar_peer_10 (c : Dev nD) : (Rd (F := F) m).payload (barCell (peer c 10)) 0 (10 : Fin 16)
      = iprop((∃ f, (tmpRow (negOff 10)).view.loc (c : Thread nD τ) ↦[(tmpRow (negOff 10)).view.set]{fullShare} f)
          ∗ (∃ f, (outOwn (peer c 10)).view.loc (c : Thread nD τ) ↦[(outOwn (peer c 10)).view.set]{fullShare} f)
          ∗ reached ER (rsRecvCell c (negOff 10)) 0 ∗ reached ER (agRecvCell c (negOff 10)) 0) := payload_bar_peer m c 10
theorem mem_duties_bar_10 (c : Dev nD) : (10 : Fin 16) ∈ (Rd (F := F) m).duties (barCell c) 0 := mem_duties_bar m c 10 (by decide)
theorem payload_bar_peer_11 (c : Dev nD) : (Rd (F := F) m).payload (barCell (peer c 11)) 0 (11 : Fin 16)
      = iprop((∃ f, (tmpRow (negOff 11)).view.loc (c : Thread nD τ) ↦[(tmpRow (negOff 11)).view.set]{fullShare} f)
          ∗ (∃ f, (outOwn (peer c 11)).view.loc (c : Thread nD τ) ↦[(outOwn (peer c 11)).view.set]{fullShare} f)
          ∗ reached ER (rsRecvCell c (negOff 11)) 0 ∗ reached ER (agRecvCell c (negOff 11)) 0) := payload_bar_peer m c 11
theorem mem_duties_bar_11 (c : Dev nD) : (11 : Fin 16) ∈ (Rd (F := F) m).duties (barCell c) 0 := mem_duties_bar m c 11 (by decide)
theorem payload_bar_peer_12 (c : Dev nD) : (Rd (F := F) m).payload (barCell (peer c 12)) 0 (12 : Fin 16)
      = iprop((∃ f, (tmpRow (negOff 12)).view.loc (c : Thread nD τ) ↦[(tmpRow (negOff 12)).view.set]{fullShare} f)
          ∗ (∃ f, (outOwn (peer c 12)).view.loc (c : Thread nD τ) ↦[(outOwn (peer c 12)).view.set]{fullShare} f)
          ∗ reached ER (rsRecvCell c (negOff 12)) 0 ∗ reached ER (agRecvCell c (negOff 12)) 0) := payload_bar_peer m c 12
theorem mem_duties_bar_12 (c : Dev nD) : (12 : Fin 16) ∈ (Rd (F := F) m).duties (barCell c) 0 := mem_duties_bar m c 12 (by decide)
theorem payload_bar_peer_13 (c : Dev nD) : (Rd (F := F) m).payload (barCell (peer c 13)) 0 (13 : Fin 16)
      = iprop((∃ f, (tmpRow (negOff 13)).view.loc (c : Thread nD τ) ↦[(tmpRow (negOff 13)).view.set]{fullShare} f)
          ∗ (∃ f, (outOwn (peer c 13)).view.loc (c : Thread nD τ) ↦[(outOwn (peer c 13)).view.set]{fullShare} f)
          ∗ reached ER (rsRecvCell c (negOff 13)) 0 ∗ reached ER (agRecvCell c (negOff 13)) 0) := payload_bar_peer m c 13
theorem mem_duties_bar_13 (c : Dev nD) : (13 : Fin 16) ∈ (Rd (F := F) m).duties (barCell c) 0 := mem_duties_bar m c 13 (by decide)
theorem payload_bar_peer_14 (c : Dev nD) : (Rd (F := F) m).payload (barCell (peer c 14)) 0 (14 : Fin 16)
      = iprop((∃ f, (tmpRow (negOff 14)).view.loc (c : Thread nD τ) ↦[(tmpRow (negOff 14)).view.set]{fullShare} f)
          ∗ (∃ f, (outOwn (peer c 14)).view.loc (c : Thread nD τ) ↦[(outOwn (peer c 14)).view.set]{fullShare} f)
          ∗ reached ER (rsRecvCell c (negOff 14)) 0 ∗ reached ER (agRecvCell c (negOff 14)) 0) := payload_bar_peer m c 14
theorem mem_duties_bar_14 (c : Dev nD) : (14 : Fin 16) ∈ (Rd (F := F) m).duties (barCell c) 0 := mem_duties_bar m c 14 (by decide)
theorem payload_bar_peer_15 (c : Dev nD) : (Rd (F := F) m).payload (barCell (peer c 15)) 0 (15 : Fin 16)
      = iprop((∃ f, (tmpRow (negOff 15)).view.loc (c : Thread nD τ) ↦[(tmpRow (negOff 15)).view.set]{fullShare} f)
          ∗ (∃ f, (outOwn (peer c 15)).view.loc (c : Thread nD τ) ↦[(outOwn (peer c 15)).view.set]{fullShare} f)
          ∗ reached ER (rsRecvCell c (negOff 15)) 0 ∗ reached ER (agRecvCell c (negOff 15)) 0) := payload_bar_peer m c 15
theorem mem_duties_bar_15 (c : Dev nD) : (15 : Fin 16) ∈ (Rd (F := F) m).duties (barCell c) 0 := mem_duties_bar m c 15 (by decide)

end Cert.Kernel.Proto

end
-- ==== Proof.Bits.StepsSig.lean ====
/-
  The two steps on the barrier semaphore, at a symbolic device and offset.
  A signal to the device o places on pays duty o of that device's barrier cell and hands over the slot of the temporary
  buffer and the block of the result that the receiver will write.  The wait for fifteen takes the whole round of the
  device's own barrier cell: the fifteen peers' payloads.
-/
import proofs.«900432_g7700000000000433_dist_gconv1d_cshard_i_b4_s512_c256_v7x_i16_bf16_1_alg».proof.Proof.Bits.Tables

set_option maxRecDepth 16384

noncomputable section

namespace Cert.Kernel.Proto

open Cert.Kernel Cert.Kernel.Gen Cert.Kernel.Chains
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

abbrev 𝒱s : Variants := Variants.none

/-- The signal to the device `o` places on. -/
theorem wp_sig (c n : Dev nD) (o : Fin 16) (ho : o ≠ 0) (hn : n = peer c o.val) (κ : ℕ)
    {α : Type} {Q : α → sProp 𝕄} {k : PUnit → Prog (TpuEff nD τ sig (Elt F) Λ₀ .tc) α}
    (O : CellTallies nD τ sig Unit) (W : Waits sig Unit)
    (ft : Buf (Elt F) ((tmpRow (negOff o)).view.loc (c : Thread nD τ))) (fo : Buf (Elt F) ((outOwn (peer c o.val)).view.loc (c : Thread nD τ))) :
    iprop(cellInv ER (Rd (F := F) m) κ (barCell (peer c o.val))
        ∗ owes (c : Thread nD τ) (O + tallyAt (barCell (peer c o.val)) () 1) W
        ∗ dutyTok ER (barCell (peer c o.val)) 0 o
        ∗ ptsAt c (tmpRow (negOff o)) fullShare ft ∗ ptsAt c (outOwn (peer c o.val)) fullShare fo
        ∗ reached ER (rsRecvCell c (negOff o)) 0 ∗ reached ER (agRecvCell c (negOff o)) 0
        ∗ reached ER (barCell (peer c o.val)) 0)
      ⊢ iprop((owes (c : Thread nD τ) O W -∗ wp frame (wpE (defs₀ (F := F)) 𝒱s (c : Thread nD τ) none) Set.univ (k ⟨⟩) Q)
          -∗ wp frame (wpE (defs₀ (F := F)) 𝒱s (c : Thread nD τ) none) Set.univ (.op (.semSignal (n : Thread nD τ) barS (1#32).toNat) k) Q) := by
  subst hn
  iintro ⟨#HI, HO, Htok, Ht, Ho, #Hr1, #Hr2, #Hr⟩
  iapply (Rounds.wp_signal 𝒱s ER (Rd m) (c : Thread nD τ) none (dst := ((peer c o.val : Dev nD) : Thread nD τ)) (κ := κ) (d := o)
      (mem_duties_bar m (peer c o.val) o ho) ((amount_bar m (peer c o.val) o).trans (by decide)) () O rfl) $$ [HO Htok Ht Ho]
  · isplitr; · iexact HI
    isplitl [HO]; · iexact HO
    isplitl [Htok]; · iexact Htok
    isplitl [Ht Ho]
    · rw [payload_bar_peer]
      unfold ptsAt
      isplitl [Ht]; · iexists ft; iexact Ht
      isplitl [Ho]; · iexists fo; iexact Ho
      isplitr; · iexact Hr1
      iexact Hr2
    · iexact Hr

end Cert.Kernel.Proto

end
-- ==== Proof.Bits.Steps.lean ====
/-
  The rules of the rounds discipline at the kernel's schedule, one per kind of remote step of the body: the scatter
  copy, the gather copy, a wait on one of a device's own transfer cells, and the closing of such a cell. Each is the
  library's rule with the schedule's tables filled in: a used transfer cell has the one duty 0, of one block's credit,
  in round 0 and none later. The two landing facts (what a copy leaves in its destination is what the destination
  holds in the end) are taken as hypotheses.
-/
import proofs.«900432_g7700000000000433_dist_gconv1d_cshard_i_b4_s512_c256_v7x_i16_bf16_1_alg».proof.Proof.Bits.Protocol

set_option maxRecDepth 16384

noncomputable section

namespace Cert.Kernel.Proto

open Cert.Kernel Cert.Kernel.Gen Cert.Kernel.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => Variants.none

variable (m : (ℓ : Loc nD τ sig) → Buf (Elt F) ℓ)

/-! ## The two copies -/

/-- The scatter copy at offset `o`, addressed to `n`, the device `o` places on: it pays the one duty of the sender's
    scatter-send cell with the source row-block, unchanged, and the one duty of the receiver's scatter-receive cell with
    slot `o` of the receiver's temporary buffer at its final contents. -/
theorem wp_rs_copy (c n : Dev nD) (o : Fin 16) (ho : o ≠ 0) (hn : n = peer c o.val)
    {hsc : (tmpRow o : Memref sig (Dev.tc n : Thread nD τ).2.kind .vmem S128x256 .bf16).view.ref.isScScratch = false}
    {hsrc : (accSrc c o).view.WordExact} {hdst : (tmpRow o).view.WordExact}
    {hsem : DmaTarget.Typed .vmem (.dma (rsRecv o)) (.remote (Dev.tc n : Thread nD τ) (tmpRow o) (.dma (rsSend o)) hsc)}
    {α : Type} {Q : α → sProp 𝕄} {k : PUnit → Prog (TpuEff nD τ sig (Elt F) Λ₀ .tc) α} (κ₁ κ₂ : ℕ)
    (fd : Buf (Elt F) ((tmpRow o).view.loc ((peer c o.val : Dev nD) : Thread nD τ)))
    (O : CellTallies nD τ sig Unit) (W : Waits sig Unit)
    (hland : ∀ i ∈ (tmpRow o).view.set,
      (tmpRow o).view.write (Elt F) fd ((accSrc c o).view.read (Elt F) (accBufAt m c o)) Finset.univ i
        = tmpBufAt m (peer c o.val) o i) :
    iprop(cellInv ER (Rd m) κ₁ (rsSendCell c o) ∗ cellInv ER (Rd m) κ₂ (rsRecvCell (peer c o.val) o)
        ∗ ptsAt c (accSrc c o) fullShare (accBufAt m c o) ∗ ptsAt (peer c o.val) (tmpRow o) fullShare fd
        ∗ owes (c : Thread nD τ) (O + tallyAt (rsRecvCell (peer c o.val) o) () N) W
        ∗ dutyTok ER (rsSendCell c o) 0 (0 : Fin 16) ∗ reached ER (rsSendCell c o) 0
        ∗ dutyTok ER (rsRecvCell (peer c o.val) o) 0 (0 : Fin 16) ∗ reached ER (rsRecvCell (peer c o.val) o) 0)
      ⊢ iprop(((cred (tallyAt (rsSendCell c o) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accSrc c o) (.remote (Dev.tc n : Thread nD τ) (tmpRow o) (.dma (rsSend o)) hsc) (.dma (rsRecv o)) hsrc hdst hsem) k) Q) := by
  subst hn
  unfold ptsAt
  exact Rounds.wp_send_pointsTo 𝒱₀ ER (Rd m) (c : Thread nD τ) none (κ₁ := κ₁) (κ₂ := κ₂)
    (r₁ := 0) (r₂ := 0) (d₁ := (0 : Fin 16)) (d₂ := (0 : Fin 16)) (fs := accBufAt m c o) (fd := fd) (q := fullShare)
    (by rw [duties_dma m c _ (used_dsem 4 _ rfl o ho)]; exact Finset.mem_singleton_self _)
    (by rw [duties_dma m (peer c o.val) _ (used_dsem 20 _ rfl o ho)]; exact Finset.mem_singleton_self _)
    () () N rfl (amount_dma m c _ 0) (amount_dma m (peer c o.val) _ 0) O rfl (W := W)
    (by rw [payload_rsSend m c o 0]; unfold rsSendPay ptsAt; exact BI.Entails.refl _)
    (by rw [payload_rsRecv m (peer c o.val) o 0]; unfold rsRecvPay ptsAt; rw [pointsTo_congr hland])

/-- The gather copy at offset `o`, addressed to `n`, the device `o` places on: it pays the one duty of the sender's
    gather-send cell with the share of its own block it read, and the one duty of the receiver's gather-receive cell
    with the sender's block of the receiver's result at its final contents. -/
theorem wp_ag_copy (c n : Dev nD) (o : Fin 16) (ho : o ≠ 0) (hn : n = peer c o.val)
    {hsc : (outOwn c : Memref sig (Dev.tc n : Thread nD τ).2.kind .vmem S128x256 .bf16).view.ref.isScScratch = false}
    {hsrc : (outOwn c).view.WordExact} {hdst : (outOwn c).view.WordExact}
    {hsem : DmaTarget.Typed .vmem (.dma (agRecv o)) (.remote (Dev.tc n : Thread nD τ) (outOwn c) (.dma (agSend o)) hsc)}
    {α : Type} {Q : α → sProp 𝕄} {k : PUnit → Prog (TpuEff nD τ sig (Elt F) Λ₀ .tc) α} (κ₁ κ₂ : ℕ)
    (fd : Buf (Elt F) ((outOwn c).view.loc ((peer c o.val : Dev nD) : Thread nD τ)))
    (O : CellTallies nD τ sig Unit) (W : Waits sig Unit)
    (hland : ∀ i ∈ (outOwn c).view.set,
      (outOwn c).view.write (Elt F) fd ((outOwn c).view.read (Elt F) (outBufAt m c c)) Finset.univ i
        = outBufAt m (peer c o.val) c i) :
    iprop(cellInv ER (Rd m) κ₁ (agSendCell c o) ∗ cellInv ER (Rd m) κ₂ (agRecvCell (peer c o.val) o)
        ∗ ptsAt c (outOwn c) (shareOf o) (outBufAt m c c) ∗ ptsAt (peer c o.val) (outOwn c) fullShare fd
        ∗ owes (c : Thread nD τ) (O + tallyAt (agRecvCell (peer c o.val) o) () N) W
        ∗ dutyTok ER (agSendCell c o) 0 (0 : Fin 16) ∗ reached ER (agSendCell c o) 0
        ∗ dutyTok ER (agRecvCell (peer c o.val) o) 0 (0 : Fin 16) ∗ reached ER (agRecvCell (peer c o.val) o) 0)
      ⊢ iprop(((cred (tallyAt (agSendCell c o) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (outOwn c) (.remote (Dev.tc n : Thread nD τ) (outOwn c) (.dma (agSend o)) hsc) (.dma (agRecv o)) hsrc hdst hsem) k) Q) := by
  subst hn
  unfold ptsAt
  exact Rounds.wp_send_pointsTo 𝒱₀ ER (Rd m) (c : Thread nD τ) none (κ₁ := κ₁) (κ₂ := κ₂)
    (r₁ := 0) (r₂ := 0) (d₁ := (0 : Fin 16)) (d₂ := (0 : Fin 16)) (fs := outBufAt m c c) (fd := fd) (q := shareOf o)
    (by rw [duties_dma m c _ (used_dsem 36 _ rfl o ho)]; exact Finset.mem_singleton_self _)
    (by rw [duties_dma m (peer c o.val) _ (used_dsem 52 _ rfl o ho)]; exact Finset.mem_singleton_self _)
    () () N rfl (amount_dma m c _ 0) (amount_dma m (peer c o.val) _ 0) O rfl (W := W)
    (by rw [payload_agSend m c o 0]; unfold agSendPay ptsAt; exact BI.Entails.refl _)
    (by rw [payload_agRecv m (peer c o.val) o 0]; unfold agRecvPay ptsAt; rw [back_peer c o, pointsTo_congr hland])

/-! ## A wait on one of a device's own transfer cells -/

/-- A wait for one block's credit on a used transfer cell of the device's own, from the start of round 0: the device
    comes back at the start of round 1, round 1 reached, with the cell's one payload. -/
theorem wp_dma_wait (c : Dev nD) (q : DmaSem sig) (hq : Used q) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma q) N K)
    {α : Type} {Q : α → sProp 𝕄} {k : PUnit → Prog (TpuEff nD τ sig (Elt F) Λ₀ .tc) α} (κ : ℕ) (O : CellTallies nD τ sig Unit) (W : Waits sig Unit) :
    iprop(cellInv ER (Rd m) κ ((c : Thread nD τ), .dma q) ∗ cred (tallyAt ((c : Thread nD τ), .dma q) () N) ∗ owes (c : Thread nD τ) O W
        ∗ MayWait (c : Thread nD τ) (.dma q) () O ∗ atPos ER ((c : Thread nD τ), .dma q) 0 (∅ : Finset (Fin 16)) 0)
      ⊢ iprop(((owes (c : Thread nD τ) O (insert (.dma q, ()) W) ∗ atPos ER ((c : Thread nD τ), .dma q) 1 (∅ : Finset (Fin 16)) 0
              ∗ reached ER ((c : Thread nD τ), .dma q) 1 ∗ (Rd m).payload ((c : Thread nD τ), .dma q) 0 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := Rounds.wp_wait_rest_token 𝒱₀ ER (Rd m) (c : Thread nD τ) none (κ := κ) hw (Set.mem_univ _) (k := k) (Q := Q) ()
    (O := O) (W := W) (R := 0) (m := 0) (T := (∅ : Finset (Fin 16))) (by rw [expect_dma m c q hq]; exact Nat.zero_add N)
  rw [rest_dma m c q hq] at h
  exact h

/-- The wait on the scatter-send cell at offset `o`: the source row-block comes back. -/
theorem wp_rsSend_wait (c : Dev nD) (o : Fin 16) (ho : o ≠ 0) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (rsSend o)) N K)
    {α : Type} {Q : α → sProp 𝕄} {k : PUnit → Prog (TpuEff nD τ sig (Elt F) Λ₀ .tc) α} (κ : ℕ) (O : CellTallies nD τ sig Unit) (W : Waits sig Unit) :
    iprop(cellInv ER (Rd m) κ (rsSendCell c o) ∗ cred (tallyAt (rsSendCell c o) () N) ∗ owes (c : Thread nD τ) O W
        ∗ MayWait (c : Thread nD τ) (.dma (rsSend o)) () O ∗ atPos ER (rsSendCell c o) 0 (∅ : Finset (Fin 16)) 0)
      ⊢ iprop(((owes (c : Thread nD τ) O (insert (.dma (rsSend o), ()) W) ∗ atPos ER (rsSendCell c o) 1 (∅ : Finset (Fin 16)) 0
              ∗ reached ER (rsSendCell c o) 1 ∗ rsSendPay m c o)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := wp_dma_wait m c (rsSend o) (used_dsem 4 _ rfl o ho) hw (k := k) (Q := Q) κ O W
  rw [payload_rsSend m c o 0] at h
  exact h

/-- The wait on the scatter-receive cell at offset `o`: slot `o` of the temporary buffer comes, at its final contents. -/
theorem wp_rsRecv_wait (c : Dev nD) (o : Fin 16) (ho : o ≠ 0) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (rsRecv o)) N K)
    {α : Type} {Q : α → sProp 𝕄} {k : PUnit → Prog (TpuEff nD τ sig (Elt F) Λ₀ .tc) α} (κ : ℕ) (O : CellTallies nD τ sig Unit) (W : Waits sig Unit) :
    iprop(cellInv ER (Rd m) κ (rsRecvCell c o) ∗ cred (tallyAt (rsRecvCell c o) () N) ∗ owes (c : Thread nD τ) O W
        ∗ MayWait (c : Thread nD τ) (.dma (rsRecv o)) () O ∗ atPos ER (rsRecvCell c o) 0 (∅ : Finset (Fin 16)) 0)
      ⊢ iprop(((owes (c : Thread nD τ) O (insert (.dma (rsRecv o), ()) W) ∗ atPos ER (rsRecvCell c o) 1 (∅ : Finset (Fin 16)) 0
              ∗ reached ER (rsRecvCell c o) 1 ∗ rsRecvPay m c o)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := wp_dma_wait m c (rsRecv o) (used_dsem 20 _ rfl o ho) hw (k := k) (Q := Q) κ O W
  rw [payload_rsRecv m c o 0] at h
  exact h

/-- The wait on the gather-send cell at offset `o`: the share of the device's own block the copy read comes back. -/
theorem wp_agSend_wait (c : Dev nD) (o : Fin 16) (ho : o ≠ 0) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (agSend o)) N K)
    {α : Type} {Q : α → sProp 𝕄} {k : PUnit → Prog (TpuEff nD τ sig (Elt F) Λ₀ .tc) α} (κ : ℕ) (O : CellTallies nD τ sig Unit) (W : Waits sig Unit) :
    iprop(cellInv ER (Rd m) κ (agSendCell c o) ∗ cred (tallyAt (agSendCell c o) () N) ∗ owes (c : Thread nD τ) O W
        ∗ MayWait (c : Thread nD τ) (.dma (agSend o)) () O ∗ atPos ER (agSendCell c o) 0 (∅ : Finset (Fin 16)) 0)
      ⊢ iprop(((owes (c : Thread nD τ) O (insert (.dma (agSend o), ()) W) ∗ atPos ER (agSendCell c o) 1 (∅ : Finset (Fin 16)) 0
              ∗ reached ER (agSendCell c o) 1 ∗ agSendPay m c o)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := wp_dma_wait m c (agSend o) (used_dsem 36 _ rfl o ho) hw (k := k) (Q := Q) κ O W
  rw [payload_agSend m c o 0] at h
  exact h

/-- The wait on the gather-receive cell at offset `o`: the block of the device `o` places before comes, at its final contents. -/
theorem wp_agRecv_wait (c : Dev nD) (o : Fin 16) (ho : o ≠ 0) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (agRecv o)) N K)
    {α : Type} {Q : α → sProp 𝕄} {k : PUnit → Prog (TpuEff nD τ sig (Elt F) Λ₀ .tc) α} (κ : ℕ) (O : CellTallies nD τ sig Unit) (W : Waits sig Unit) :
    iprop(cellInv ER (Rd m) κ (agRecvCell c o) ∗ cred (tallyAt (agRecvCell c o) () N) ∗ owes (c : Thread nD τ) O W
        ∗ MayWait (c : Thread nD τ) (.dma (agRecv o)) () O ∗ atPos ER (agRecvCell c o) 0 (∅ : Finset (Fin 16)) 0)
      ⊢ iprop(((owes (c : Thread nD τ) O (insert (.dma (agRecv o), ()) W) ∗ atPos ER (agRecvCell c o) 1 (∅ : Finset (Fin 16)) 0
              ∗ reached ER (agRecvCell c o) 1 ∗ agRecvPay m c o)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := wp_dma_wait m c (agRecv o) (used_dsem 52 _ rfl o ho) hw (k := k) (Q := Q) κ O W
  rw [payload_agRecv m c o 0] at h
  exact h

/-! ## Closing a transfer cell -/

/-- A device at the start of round 1 of one of its transfer cells, nothing taken, closes the cell: no round from 1 on has
    a duty, so the counter reads zero, and it keeps the counter. -/
theorem dma_cell_close (c : Dev nD) (q : DmaSem sig) (κ : ℕ) :
    iprop(cellInv ER (Rd m) κ ((c : Thread nD τ), .dma q) ∗ atPos ER ((c : Thread nD τ), .dma q) 1 (∅ : Finset (Fin 16)) 0)
      ⊢ (iprop(|={Set.univ}=> semVal ((c : Thread nD τ), .dma q) 0) : sProp 𝕄) :=
  Rounds.cell_close ER (Rd m) (Set.mem_univ κ) (fun h => h) (R := 1) (duties_later m _)

end Cert.Kernel.Proto

end
-- ==== Proof.Bits.StepsBar.lean ====
/-
  The wait on the barrier, with what it brings spelt at the peers.

  Duty `o'` of device `c`'s barrier cell is paid by the device `o'` places before `c`. The device `o` places AFTER `c`
  is `16 - o` places before it, so it pays duty `16 - o`, and what it hands over is the two places of its own buffers that
  `c`'s copies at offset `o` write: slot `o` of its temporary buffer and block `c` of its result, and that it has
  reached round 0 of the two cells those copies credit. The round's fifteen payloads are listed by the offset of the copies
  they serve, 1 to 15.
-/
import proofs.«900432_g7700000000000433_dist_gconv1d_cshard_i_b4_s512_c256_v7x_i16_bf16_1_alg».proof.Proof.Bits.Steps

set_option maxRecDepth 16384

noncomputable section

namespace Cert.Kernel.Proto

open Cert.Kernel Cert.Kernel.Gen Cert.Kernel.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => Variants.none

/-! ## One peer's payload, at the peer -/

/-- What the device `n` places after `c` hands `c` for its copies at offset `o`: slot `o` of its temporary buffer and
    block `c` of its result, each whole at some contents, and that it has reached round 0 of its scatter-receive and
    gather-receive cells at offset `o`. (`n` is the offset as a natural number: `n = o.val` where it is used.) -/
def peerPay (c : Dev nD) (n : Nat) (o : Fin 16) : sProp 𝕄 :=
  iprop((∃ f, ptsAt (peer c n) (tmpRow o) fullShare f) ∗ (∃ f, ptsAt (peer c n) (outOwn c) fullShare f)
    ∗ reached ER (rsRecvCell (peer c n) o) 0 ∗ reached ER (agRecvCell (peer c n) o) 0)

/-- Duty `16 - o` of `c`'s barrier cell is paid with the payload of the device `o` places after `c`. -/
theorem barPay_neg (c : Dev nD) (o : Fin 16) : barPay (F := F) c (negOff o) = peerPay c o.val o := by
  unfold barPay peerPay slotPts
  rw [back_negOff, negOff_negOff]

/-- The same with the payload written out. -/
theorem barPay_neg' (c : Dev nD) (o : Fin 16) :
    barPay (F := F) c (negOff o)
      = iprop((∃ f, ptsAt (peer c o.val) (tmpRow o) fullShare f) ∗ (∃ f, ptsAt (peer c o.val) (outOwn c) fullShare f)
          ∗ reached ER (rsRecvCell (peer c o.val) o) 0 ∗ reached ER (agRecvCell (peer c o.val) o) 0) :=
  barPay_neg c o

/-! ## The round's fifteen payloads, by the offset of the copies they serve -/

/-- The fifteen peers' payloads, offset 1 first. -/
def barPays (c : Dev nD) : sProp 𝕄 :=
  iprop(peerPay (F := F) c 1 (1 : Fin 16)
    ∗ peerPay (F := F) c 2 (2 : Fin 16)
    ∗ peerPay (F := F) c 3 (3 : Fin 16)
    ∗ peerPay (F := F) c 4 (4 : Fin 16)
    ∗ peerPay (F := F) c 5 (5 : Fin 16)
    ∗ peerPay (F := F) c 6 (6 : Fin 16)
    ∗ peerPay (F := F) c 7 (7 : Fin 16)
    ∗ peerPay (F := F) c 8 (8 : Fin 16)
    ∗ peerPay (F := F) c 9 (9 : Fin 16)
    ∗ peerPay (F := F) c 10 (10 : Fin 16)
    ∗ peerPay (F := F) c 11 (11 : Fin 16)
    ∗ peerPay (F := F) c 12 (12 : Fin 16)
    ∗ peerPay (F := F) c 13 (13 : Fin 16)
    ∗ peerPay (F := F) c 14 (14 : Fin 16)
    ∗ peerPay (F := F) c 15 (15 : Fin 16))

/-- The fifteen duties 1, …, 15 listed as 16 - 1, …, 16 - 15. -/
theorem erase_zero_eq : (Finset.univ.erase (0 : Fin 16)) = ([negOff (1 : Fin 16), negOff (2 : Fin 16), negOff (3 : Fin 16), negOff (4 : Fin 16), negOff (5 : Fin 16), negOff (6 : Fin 16), negOff (7 : Fin 16), negOff (8 : Fin 16), negOff (9 : Fin 16), negOff (10 : Fin 16), negOff (11 : Fin 16), negOff (12 : Fin 16), negOff (13 : Fin 16), negOff (14 : Fin 16), negOff (15 : Fin 16)]).toFinset := by decide

/-- The rest of the barrier cell's round, opened and re-spelt at the peers. -/
theorem rest_bar_peers (c : Dev nD) :
    bigSep (Finset.univ.erase (0 : Fin 16)) (fun o => barPay (F := F) c o) = barPays c := by
  rw [bigSep_eq_bigSepL_of_eq [negOff (1 : Fin 16), negOff (2 : Fin 16), negOff (3 : Fin 16), negOff (4 : Fin 16), negOff (5 : Fin 16), negOff (6 : Fin 16), negOff (7 : Fin 16), negOff (8 : Fin 16), negOff (9 : Fin 16), negOff (10 : Fin 16), negOff (11 : Fin 16), negOff (12 : Fin 16), negOff (13 : Fin 16), negOff (14 : Fin 16), negOff (15 : Fin 16)] erase_zero_eq (by decide)]
  show iprop(barPay (F := F) c (negOff (1 : Fin 16)) ∗ barPay (F := F) c (negOff (2 : Fin 16)) ∗ barPay (F := F) c (negOff (3 : Fin 16)) ∗ barPay (F := F) c (negOff (4 : Fin 16)) ∗ barPay (F := F) c (negOff (5 : Fin 16)) ∗ barPay (F := F) c (negOff (6 : Fin 16)) ∗ barPay (F := F) c (negOff (7 : Fin 16)) ∗ barPay (F := F) c (negOff (8 : Fin 16)) ∗ barPay (F := F) c (negOff (9 : Fin 16)) ∗ barPay (F := F) c (negOff (10 : Fin 16)) ∗ barPay (F := F) c (negOff (11 : Fin 16)) ∗ barPay (F := F) c (negOff (12 : Fin 16)) ∗ barPay (F := F) c (negOff (13 : Fin 16)) ∗ barPay (F := F) c (negOff (14 : Fin 16)) ∗ barPay (F := F) c (negOff (15 : Fin 16))) = _
  rw [barPay_neg c (1 : Fin 16), barPay_neg c (2 : Fin 16), barPay_neg c (3 : Fin 16), barPay_neg c (4 : Fin 16), barPay_neg c (5 : Fin 16), barPay_neg c (6 : Fin 16), barPay_neg c (7 : Fin 16), barPay_neg c (8 : Fin 16), barPay_neg c (9 : Fin 16), barPay_neg c (10 : Fin 16), barPay_neg c (11 : Fin 16), barPay_neg c (12 : Fin 16), barPay_neg c (13 : Fin 16), barPay_neg c (14 : Fin 16), barPay_neg c (15 : Fin 16)]
  rfl

variable (m : (ℓ : Loc nD τ sig) → Buf (Elt F) ℓ)

/-! ## The wait, and the closing of the cell -/

/-- A wait for fifteen units on the device's own barrier cell, from the start of round 0: the device comes back at the
    start of round 1, round 1 reached, with the rest of the round's payloads. -/
theorem wp_bar_wait_of (c : Dev nD) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.reg barS) 15 K)
    {α : Type} {Q : α → sProp 𝕄} {k : PUnit → Prog (TpuEff nD τ sig (Elt F) Λ₀ .tc) α} (κ : ℕ) (O : CellTallies nD τ sig Unit) (W : Waits sig Unit) :
    iprop(cellInv ER (Rd m) κ (barCell c) ∗ cred (tallyAt (barCell c) () 15) ∗ owes (c : Thread nD τ) O W
        ∗ MayWait (c : Thread nD τ) (.reg barS) () O ∗ atPos ER (barCell c) 0 (∅ : Finset (Fin 16)) 0)
      ⊢ iprop(((owes (c : Thread nD τ) O (insert (.reg barS, ()) W) ∗ atPos ER (barCell c) 1 (∅ : Finset (Fin 16)) 0
              ∗ reached ER (barCell c) 1 ∗ bigSep (Finset.univ.erase (0 : Fin 16)) (fun o => barPay (F := F) c o))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := Rounds.wp_wait_rest_token 𝒱₀ ER (Rd m) (c : Thread nD τ) none (κ := κ) hw (Set.mem_univ _) (k := k) (Q := Q) ()
    (O := O) (W := W) (R := 0) (m := 0) (T := (∅ : Finset (Fin 16))) (by rw [expect_bar m c])
  rw [rest_bar m c] at h
  exact h

/-- THE WAIT FOR THE FIFTEEN SIGNALS, as the body has it: the fifteen peers' payloads come, by offset. -/
theorem wp_bar_wait (c : Dev nD) (κ : ℕ) {α : Type} {Q : α → sProp 𝕄} {k : PUnit → Prog (TpuEff nD τ sig (Elt F) Λ₀ .tc) α}
    (O : CellTallies nD τ sig Unit) (W : Waits sig Unit) :
    iprop(cellInv ER (Rd m) κ (barCell c) ∗ cred (tallyAt (barCell c) () 15) ∗ owes (c : Thread nD τ) O W
        ∗ MayWait (c : Thread nD τ) (.reg barS) () O ∗ atPos ER (barCell c) 0 (∅ : Finset (Fin 16)) 0)
      ⊢ iprop(((owes (c : Thread nD τ) O (insert (.reg barS, ()) W) ∗ atPos ER (barCell c) 1 (∅ : Finset (Fin 16)) 0
              ∗ reached ER (barCell c) 1 ∗ barPays (F := F) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (15#32).toNat) k) Q) := by
  have h := wp_bar_wait_of m c (w := TpuEff.semWait barS (15#32).toNat)
    (fun K => wpE_semWait_eq 𝒱₀ (c : Thread nD τ) none Set.univ K) (k := k) (Q := Q) κ O W
  rw [rest_bar_peers c] at h
  exact h

/-- A device at the start of round 1 of its barrier cell, nothing taken, closes the cell and keeps the counter at zero. -/
theorem bar_cell_close (c : Dev nD) (κ : ℕ) :
    iprop(cellInv ER (Rd m) κ (barCell c) ∗ atPos ER (barCell c) 1 (∅ : Finset (Fin 16)) 0)
      ⊢ (iprop(|={Set.univ}=> semVal (barCell c) 0) : sProp 𝕄) :=
  Rounds.cell_close ER (Rd m) (Set.mem_univ κ) (fun h => h) (R := 1) (duties_later m _)

end Cert.Kernel.Proto

end
-- ==== Proof.Bits.LandingSets.lean ====
/-
  Which elements of their buffers the kernel's slices hold.

  The partial-product buffer and the temporary buffer are sixteen row-blocks of 128 rows; the result's buffer is four
  batches of 512 rows, cut into sixteen blocks of 128 rows: block j is batch j / 4, rows (j mod 4) * 128 onward.
-/
import proofs.«900432_g7700000000000433_dist_gconv1d_cshard_i_b4_s512_c256_v7x_i16_bf16_1_alg».proof.Proof.Bits.Protocol
import Idealize.ShloMosaic.Lib.Pipeline.Value
import Idealize.ShloMosaic.Lib.ValueIdx
import Idealize.ShloMosaic.Lib.ValueLayout

set_option maxRecDepth 16384

noncomputable section

namespace Cert.Kernel.Proto

open Cert.Kernel Cert.Kernel.Gen Cert.Kernel.Chains
open Idealize.ShloMosaic Idealize.ShloMosaic.TcCoe Idealize.SL.Sem

variable {F : FTy → Type} [FloatOps F]

/-! ## Which elements each slice holds -/

/-- The elements of slot o of the temporary buffer are those of the rectangle it was cut by. -/
theorem set_tmpRow (o : Fin 16) :
    (tmpRow o).view.set = (Rect.unit (s := S16x128x256) ![o.val, 0, 0] S1x128x256.size (inbRow o)).set := by
  unfold tmpRow; exact (View.set_reshape _ _).trans (View.set_slice_whole _ _)

/-- The elements of the source of the scatter copy at offset o are those of the rectangle it was cut by. -/
theorem set_accSrc (c : Dev nD) (o : Fin 16) :
    (accSrc c o).view.set = (Rect.unit (s := S16x128x256) (k0_off1 c (BitVec.ofNat 32 (1 + (predOff o).val)))
      S1x128x256.size (k0_off1_inb c (predOff o))).set := by
  unfold accSrc; exact (View.set_reshape _ _).trans (View.set_slice_whole _ _)

/-- The elements of the block of the result a device owns are those of the rectangle it was cut by. -/
theorem set_outOwn (j : Dev nD) :
    (outOwn j).view.set = (Rect.unit (s := S4x512x256) (k0_off4 j) S1x128x256.size (k0_off4_inb j)).set := by
  unfold outOwn; exact (View.set_reshape _ _).trans (View.set_slice_whole _ _)

/-- Slot o of the temporary buffer is its row-block o. -/
theorem mem_tmpRow (o : Fin 16) (i : S16x128x256.Idx) : i ∈ (tmpRow o).view.set ↔ (i 0).val = o.val := by
  refine ((Finset.ext_iff.mp (set_tmpRow o) i).trans Rect.mem_set_unit).trans ?_
  constructor
  · intro h
    have h0 : o.val ≤ (i 0).val ∧ (i 0).val < o.val + 1 := h 0
    omega
  · intro h a
    match a with
    | ⟨0, _⟩ => show o.val ≤ (i 0).val ∧ (i 0).val < o.val + 1; omega
    | ⟨1, _⟩ => show 0 ≤ (i 1).val ∧ (i 1).val < 0 + 128; have h1 : (i 1).val < 128 := (i 1).isLt; omega
    | ⟨2, _⟩ => show 0 ≤ (i 2).val ∧ (i 2).val < 0 + 256; have h2 : (i 2).val < 256 := (i 2).isLt; omega

/-- The source of device c's scatter copy at offset o (o = 1, …, 15) is row-block (c + o) mod 16 of its partial product. -/
theorem mem_accSrc (c : Dev nD) (o : Fin 16) (ho : o ≠ 0) (i : S16x128x256.Idx) :
    i ∈ (accSrc c o).view.set ↔ (i 0).val = (c.val + o.val) % 16 := by
  refine ((Finset.ext_iff.mp (set_accSrc c o) i).trans Rect.mem_set_unit).trans ?_
  have hp : 1 + (predOff o).val = o.val := by
    have : o.val ≠ 0 := fun h => ho (Fin.ext h)
    show 1 + (o.val - 1) = o.val; omega
  rw [off1_eq c (predOff o), hp]
  constructor
  · intro h
    have h0 : (c.val + o.val) % 16 ≤ (i 0).val ∧ (i 0).val < (c.val + o.val) % 16 + 1 := h 0
    omega
  · intro h a
    match a with
    | ⟨0, _⟩ => show (c.val + o.val) % 16 ≤ (i 0).val ∧ (i 0).val < (c.val + o.val) % 16 + 1; omega
    | ⟨1, _⟩ => show 0 ≤ (i 1).val ∧ (i 1).val < 0 + 128; have h1 : (i 1).val < 128 := (i 1).isLt; omega
    | ⟨2, _⟩ => show 0 ≤ (i 2).val ∧ (i 2).val < 0 + 256; have h2 : (i 2).val < 256 := (i 2).isLt; omega

/-- The block of the result device j owns is batch j / 4, rows (j mod 4) * 128 to (j mod 4) * 128 + 127. -/
theorem mem_outOwn (j : Dev nD) (i : S4x512x256.Idx) :
    i ∈ (outOwn j).view.set ↔ (i 0).val = j.val / 4 ∧ (i 1).val / 128 = j.val % 4 := by
  refine ((Finset.ext_iff.mp (set_outOwn j) i).trans Rect.mem_set_unit).trans ?_
  rw [off4_eq j]
  constructor
  · intro h
    have h0 : j.val / 4 ≤ (i 0).val ∧ (i 0).val < j.val / 4 + 1 := h 0
    have h1 : j.val % 4 * 128 ≤ (i 1).val ∧ (i 1).val < j.val % 4 * 128 + 128 := h 1
    constructor <;> omega
  · rintro ⟨h0, h1⟩ a
    match a with
    | ⟨0, _⟩ => show j.val / 4 ≤ (i 0).val ∧ (i 0).val < j.val / 4 + 1; omega
    | ⟨1, _⟩ => show j.val % 4 * 128 ≤ (i 1).val ∧ (i 1).val < j.val % 4 * 128 + 128; omega
    | ⟨2, _⟩ => show 0 ≤ (i 2).val ∧ (i 2).val < 0 + 256; have h2 : (i 2).val < 256 := (i 2).isLt; omega

end Cert.Kernel.Proto

end
-- ==== Proof.Bits.Landing.lean ====
/-
  What the copies, loads and stores through the kernel's slices leave (any float instance).

  An element (r, h) of a 128 x 256 slice that is row-block q of a sixteen-block buffer sits at (q, r, h); of the block of
  the result that device j owns, at (j / 4, (j mod 4) * 128 + r, h). A copy writes at each element of the destination slice
  what the source slice reads at the same (r, h); so the scatter copy at offset o puts row-block (c + o) mod 16 of device
  c's partial product into slot o of the device o places on, and the gather copy puts a device's own block into the same
  block of another device's result.
-/
import proofs.«900432_g7700000000000433_dist_gconv1d_cshard_i_b4_s512_c256_v7x_i16_bf16_1_alg».proof.Proof.Bits.LandingSets

set_option maxRecDepth 16384

noncomputable section

namespace Cert.Kernel.Proto

open Cert.Kernel Cert.Kernel.Gen Cert.Kernel.Chains
open Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## Where an element of each slice sits -/

/-- Element (r, h) of slot o of the temporary buffer sits at (o, r, h). -/
theorem emb_tmpRow (o : Fin 16) (r : Fin 128) (h : Fin 256) : (tmpRow o).view.emb (ix2 r h) = ix3 o r h := by
  unfold tmpRow
  refine (congrArg (Rect.unit (s := S16x128x256) ![o.val, 0, 0] S1x128x256.size (inbRow o)).emb
    (reshapeEquiv_ix2_1ab (a := 128) (b := 256) _ r h)).trans ?_
  funext a
  refine Fin.ext ?_
  match a with
  | ⟨0, _⟩ => show o.val + 1 * 0 = o.val; omega
  | ⟨1, _⟩ => show 0 + 1 * r.val = r.val; omega
  | ⟨2, _⟩ => show 0 + 1 * h.val = h.val; omega

/-- Element (r, h) of the source of device c's scatter copy at offset o sits at ((c + o) mod 16, r, h). -/
theorem emb_accSrc (c : Dev nD) (o : Fin 16) (ho : o ≠ 0) (r : Fin 128) (h : Fin 256) :
    (accSrc c o).view.emb (ix2 r h) = ix3 (peer c o.val) r h := by
  have hp : 1 + (predOff o).val = o.val := by
    have : o.val ≠ 0 := fun h => ho (Fin.ext h)
    show 1 + (o.val - 1) = o.val; omega
  have hoff := off1_eq c (predOff o)
  unfold accSrc
  refine (congrArg (Rect.unit (s := S16x128x256) (k0_off1 c (BitVec.ofNat 32 (1 + (predOff o).val))) S1x128x256.size
    (k0_off1_inb c (predOff o))).emb (reshapeEquiv_ix2_1ab (a := 128) (b := 256) _ r h)).trans ?_
  funext a
  refine Fin.ext ?_
  match a with
  | ⟨0, _⟩ =>
    show (k0_off1 c (BitVec.ofNat 32 (1 + (predOff o).val))) 0 + 1 * 0 = (c.val + o.val) % 16
    rw [hoff, hp]; show (c.val + o.val) % 16 + 1 * 0 = _; omega
  | ⟨1, _⟩ =>
    show (k0_off1 c (BitVec.ofNat 32 (1 + (predOff o).val))) 1 + 1 * r.val = r.val
    rw [hoff]; show 0 + 1 * r.val = r.val; omega
  | ⟨2, _⟩ =>
    show (k0_off1 c (BitVec.ofNat 32 (1 + (predOff o).val))) 2 + 1 * h.val = h.val
    rw [hoff]; show 0 + 1 * h.val = h.val; omega

/-- The batch and the row of element (r, ·) of the block of the result device j owns. -/
def outB (j : Dev nD) : Fin 4 := ⟨j.val / 4, by have hj : j.val < 16 := j.isLt; omega⟩
def outS (j : Dev nD) (r : Fin 128) : Fin 512 := ⟨j.val % 4 * 128 + r.val, by have := r.isLt; omega⟩

/-- Element (r, h) of the block of the result device j owns sits at (j / 4, (j mod 4) * 128 + r, h). -/
theorem emb_outOwn (j : Dev nD) (r : Fin 128) (h : Fin 256) :
    (outOwn j).view.emb (ix2 r h) = ix3 (outB j) (outS j r) h := by
  have hoff := off4_eq j
  unfold outOwn
  refine (congrArg (Rect.unit (s := S4x512x256) (k0_off4 j) S1x128x256.size (k0_off4_inb j)).emb
    (reshapeEquiv_ix2_1ab (a := 128) (b := 256) _ r h)).trans ?_
  funext a
  refine Fin.ext ?_
  match a with
  | ⟨0, _⟩ => show (k0_off4 j) 0 + 1 * 0 = j.val / 4; rw [hoff]; show j.val / 4 + 1 * 0 = _; omega
  | ⟨1, _⟩ =>
    show (k0_off4 j) 1 + 1 * r.val = j.val % 4 * 128 + r.val
    rw [hoff]; show j.val % 4 * 128 + 1 * r.val = _; omega
  | ⟨2, _⟩ => show (k0_off4 j) 2 + 1 * h.val = h.val; rw [hoff]; show 0 + 1 * h.val = h.val; omega

/-! ## A copy, element by element -/

/-- What a copy from a view src into a view dst of the same shape leaves at the element of dst under y: what the
    source's buffer held at the element of src under y (the two element types are one type, so the statement is up to
    that identification). -/
theorem copy_at {sig : RefSig} {κ κ' : Kind} {sp sp' : Space} {s : Shape} {e : EltTy} {Val : EltTy → Type}
    (dst : View sig κ sp s e) (src : View sig κ' sp' s e) (fd : dst.ty.Contents Val) (fs : src.ty.Contents Val) (y : s.Idx) :
    HEq (dst.write Val fd (src.read Val fs) Finset.univ (dst.emb y)) (fs (src.emb y)) := by
  rw [View.write_emb_of_mem _ _ (Finset.mem_univ y), View.read_apply]
  exact (cast_heq _ _).trans (cast_heq _ _)

/-- THE SCATTER LANDING: the copy at offset o from device c leaves, in slot o of the temporary buffer of the device o
    places on, what that buffer holds once every scatter copy has landed. -/
theorem scatter_landing (c : Dev nD) (o : Fin 16) (ho : o ≠ 0)
    (fd : Buf (Elt F) ((tmpRow o).view.loc ((peer c o.val : Dev nD) : Thread nD τ))) :
    ∀ i ∈ (tmpRow o).view.set,
      (tmpRow o).view.write (Elt F) fd ((accSrc c o).view.read (Elt F) (accBufAt m c o)) Finset.univ i
        = tmpBufAt m (peer c o.val) o i := by
  intro i hi
  obtain ⟨y, rfl⟩ := View.exists_emb_of_mem_set _ hi
  obtain ⟨r, h, rfl⟩ : ∃ (r : Fin 128) (h : Fin 256), y = ix2 r h := ⟨y 0, y 1, eq_ix2 y⟩
  refine eq_of_heq ((copy_at (tmpRow o).view (accSrc c o).view fd (accBufAt m c o) (ix2 r h)).trans (heq_of_eq ?_))
  rw [emb_accSrc c o ho, emb_tmpRow]
  show partialOf m c (ix3 (peer c o.val) r h) = partialOf m (back (peer c o.val) o.val) (ix3 (peer c o.val) r h)
  rw [back_peer]

/-- THE GATHER LANDING: a copy of a device's own block of the result, holding what the gathered result holds there,
    into the same block of another device's result leaves what the gathered result holds there. -/
theorem gather_landing (c e : Dev nD)
    (fs : Buf (Elt F) ((outOwn c).view.loc ((c : Dev nD) : Thread nD τ)))
    (hfs : ∀ i ∈ (outOwn c).view.set, fs i = outFull m i)
    (fd : Buf (Elt F) ((outOwn c).view.loc ((e : Dev nD) : Thread nD τ))) :
    ∀ i ∈ (outOwn c).view.set,
      (outOwn c).view.write (Elt F) fd ((outOwn c).view.read (Elt F) fs) Finset.univ i = outFull m i := by
  intro i hi
  obtain ⟨y, rfl⟩ := View.exists_emb_of_mem_set _ hi
  exact eq_of_heq ((copy_at (outOwn c).view (outOwn c).view fd fs y).trans (heq_of_eq (hfs _ ((outOwn c).view.emb_mem_set y))))

/-! ## The loads -/

/-- A SLOT'S LOAD: the load of row-block n of the temporary buffer of device e, once that slot holds what the landed
    scatter copies leave, reads row-block e of the partial product of the device n places before e. -/
theorem load_slot (e : Dev nD) (n : Nat) (hn : n < 16)
    (inb : ∀ a, (![n, 0, 0] : Fin 3 → Nat) a + S1x128x256.size a ≤ S16x128x256.size a)
    (f : tmpM.view.ty.Contents (Elt F))
    (hf : ∀ i ∈ (tmpRow ⟨n, hn⟩).view.set, f i = tmpFull m e i) :
    tmpM.view.readAt (Elt F) (Rect.unit (s := S16x128x256) ![n, 0, 0] S1x128x256.size inb).toLoadRect f
      = rowOf m (back e n) e := by
  funext x
  obtain ⟨u, r, h, rfl⟩ : ∃ (u : Fin 1) (r : Fin 128) (h : Fin 256), x = ix3 u r h := ⟨x 0, x 1, x 2, eq_ix3 x⟩
  have hu : u.val = 0 := by omega
  have hidx : (Rect.unit (s := S16x128x256) ![n, 0, 0] S1x128x256.size inb).toLoadRect.idx (ix3 u r h)
      = ix3 (⟨n, hn⟩ : Fin 16) r h := by
    funext a
    refine Fin.ext ?_
    match a with
    | ⟨0, _⟩ => show n + 1 * u.val = n; omega
    | ⟨1, _⟩ => show 0 + 1 * r.val = r.val; omega
    | ⟨2, _⟩ => show 0 + 1 * h.val = h.val; omega
  show f ((Rect.unit (s := S16x128x256) ![n, 0, 0] S1x128x256.size inb).toLoadRect.idx (ix3 u r h)) = _
  rw [hidx, hf _ ((mem_tmpRow ⟨n, hn⟩ _).mpr rfl)]
  rfl

/-- THE OWN ROW'S LOAD: the load of a device's own row-block of its partial product reads that row-block. -/
theorem load_own (c : Dev nD) :
    accM.view.readAt (Elt F) (Rect.unit (s := S16x128x256) (k0_off2 c) S1x128x256.size (k0_off2_inb c)).toLoadRect
      (partialOf m c) = rowOf m c c := by
  have hoff := k0_off2_eq c
  funext x
  obtain ⟨u, r, h, rfl⟩ : ∃ (u : Fin 1) (r : Fin 128) (h : Fin 256), x = ix3 u r h := ⟨x 0, x 1, x 2, eq_ix3 x⟩
  have hu : u.val = 0 := by omega
  have hidx : (Rect.unit (s := S16x128x256) (k0_off2 c) S1x128x256.size (k0_off2_inb c)).toLoadRect.idx (ix3 u r h)
      = ix3 c r h := by
    funext a
    refine Fin.ext ?_
    match a with
    | ⟨0, _⟩ => show (k0_off2 c) 0 + 1 * u.val = c.val; rw [hoff]; show c.val + 1 * u.val = c.val; omega
    | ⟨1, _⟩ => show (k0_off2 c) 1 + 1 * r.val = r.val; rw [hoff]; show 0 + 1 * r.val = r.val; omega
    | ⟨2, _⟩ => show (k0_off2 c) 2 + 1 * h.val = h.val; rw [hoff]; show 0 + 1 * h.val = h.val; omega
  show partialOf m c ((Rect.unit (s := S16x128x256) (k0_off2 c) S1x128x256.size (k0_off2_inb c)).toLoadRect.idx (ix3 u r h)) = _
  rw [hidx]
  rfl

/-! ## The store of the sum -/

/-- The block that holds row (j / 4, (j mod 4) * 128 + r) of the result is block j, and the row inside it is r. -/
theorem blkOf_out (j : Dev nD) (r : Fin 128) : blkOf (outB j) (outS j r) = j := by
  have hj : j.val < 16 := j.isLt
  have hr := r.isLt
  refine Fin.ext ?_
  show j.val / 4 * 4 + (j.val % 4 * 128 + r.val) / 128 = j.val
  omega

theorem outS_mod (j : Dev nD) (r : Fin 128) : (outS j r).val % 128 = r.val := by
  have hr := r.isLt
  show (j.val % 4 * 128 + r.val) % 128 = r.val
  omega

/-- THE STORE OF THE SUM: the store of device c's sum through the rectangle the kernel computes, over any contents,
    leaves on the block device c owns what the gathered result holds there. -/
theorem store_sum (c : Dev nD) (f : oM.view.ty.Contents (Elt F)) :
    ∀ i ∈ (outOwn c).view.set,
      (oM.access (Rect.unit (s := S4x512x256) (k0_off3 c) S1x128x256.size (k0_off3_inb c))).write (Elt F) f (redOf m c)
        Finset.univ i = outFull m i := by
  intro i hi
  obtain ⟨y, rfl⟩ := View.exists_emb_of_mem_set _ hi
  obtain ⟨r, h, rfl⟩ : ∃ (r : Fin 128) (h : Fin 256), y = ix2 r h := ⟨y 0, y 1, eq_ix2 y⟩
  have hoff := off3_eq c
  have hemb : (oM.access (Rect.unit (s := S4x512x256) (k0_off3 c) S1x128x256.size (k0_off3_inb c))).emb (ix3 (0 : Fin 1) r h)
      = (outOwn c).view.emb (ix2 r h) := by
    rw [emb_outOwn]
    funext a
    refine Fin.ext ?_
    match a with
    | ⟨0, _⟩ => show (k0_off3 c) 0 + 1 * 0 = c.val / 4; rw [hoff]; show c.val / 4 + 1 * 0 = _; omega
    | ⟨1, _⟩ =>
      show (k0_off3 c) 1 + 1 * r.val = c.val % 4 * 128 + r.val
      rw [hoff]; show c.val % 4 * 128 + 1 * r.val = _; omega
    | ⟨2, _⟩ => show (k0_off3 c) 2 + 1 * h.val = h.val; rw [hoff]; show 0 + 1 * h.val = h.val; omega
  rw [← hemb, View.write_emb_of_mem _ _ (Finset.mem_univ _), hemb, emb_outOwn]
  refine eq_of_heq ((cast_heq _ _).trans (heq_of_eq ?_))
  show redOf m c (ix3 (0 : Fin 1) r h)
    = redOf m (blkOf (outB c) (outS c r)) (ix3 (0 : Fin 1) ⟨(outS c r).val % 128, Nat.mod_lt _ (by decide)⟩ h)
  rw [blkOf_out]
  exact congrArg (redOf m c) (by
    funext a
    refine Fin.ext ?_
    match a with
    | ⟨0, _⟩ => rfl
    | ⟨1, _⟩ => exact (outS_mod c r).symm
    | ⟨2, _⟩ => rfl)

/-! ## The regions: sixteen disjoint row-blocks that cover each buffer -/

/-- Slots of the temporary buffer at different offsets share no element. -/
theorem tmpRow_disjoint (o o' : Fin 16) (h : o ≠ o') : Disjoint (tmpRow o).view.set (tmpRow o').view.set :=
  Finset.disjoint_left.mpr fun i hi hi' => h (Fin.ext (((mem_tmpRow o i).mp hi).symm.trans ((mem_tmpRow o' i).mp hi')))

/-- Every element of the temporary buffer is in the slot its first coordinate names. -/
theorem tmpRow_cover (i : S16x128x256.Idx) : i ∈ (tmpRow (i 0)).view.set := (mem_tmpRow (i 0) i).mpr rfl

/-- The sources of a device's scatter copies at different offsets share no element. -/
theorem accSrc_disjoint (c : Dev nD) (o o' : Fin 16) (ho : o ≠ 0) (ho' : o' ≠ 0) (h : o ≠ o') :
    Disjoint (accSrc c o).view.set (accSrc c o').view.set :=
  Finset.disjoint_left.mpr fun i hi hi' => h (Fin.ext (by
    have h1 := (mem_accSrc c o ho i).mp hi
    have h2 := (mem_accSrc c o' ho' i).mp hi'
    have hc : c.val < 16 := c.isLt
    have := o.isLt; have := o'.isLt
    omega))

/-- A source of a scatter copy holds no element of the device's own row-block. -/
theorem accSrc_not_own (c : Dev nD) (o : Fin 16) (ho : o ≠ 0) (i : S16x128x256.Idx) (hi : i ∈ (accSrc c o).view.set) :
    (i 0).val ≠ c.val := by
  have h1 := (mem_accSrc c o ho i).mp hi
  have hc : c.val < 16 := c.isLt
  have := o.isLt
  have : o.val ≠ 0 := fun h => ho (Fin.ext h)
  omega

/-- Every element of the partial-product buffer is in the device's own row-block or in the source of the scatter copy at
    the offset its first coordinate is ahead of the device. -/
theorem accSrc_cover (c : Dev nD) (i : S16x128x256.Idx) (hi : (i 0).val ≠ c.val) :
    ∃ o : Fin 16, o ≠ 0 ∧ i ∈ (accSrc c o).view.set := by
  have hc : c.val < 16 := c.isLt
  have h0 : (i 0).val < 16 := (i 0).isLt
  refine ⟨⟨((i 0).val + 16 - c.val) % 16, Nat.mod_lt _ (by decide)⟩, fun h => ?_, ?_⟩
  · have := congrArg Fin.val h
    have : ((i 0).val + 16 - c.val) % 16 = 0 := this
    omega
  · refine (mem_accSrc c _ (fun h => ?_) i).mpr ?_
    · have := congrArg Fin.val h
      have : ((i 0).val + 16 - c.val) % 16 = 0 := this
      omega
    · show (i 0).val = (c.val + ((i 0).val + 16 - c.val) % 16) % 16
      omega

/-- The blocks of the result two different devices own share no element. -/
theorem outOwn_disjoint (j j' : Dev nD) (h : j ≠ j') : Disjoint (outOwn j).view.set (outOwn j').view.set :=
  Finset.disjoint_left.mpr fun i hi hi' => h (Fin.ext (by
    have h1 := (mem_outOwn j i).mp hi
    have h2 := (mem_outOwn j' i).mp hi'
    omega))

/-- Every element of the result is in the block of the device that holds its row. -/
theorem outOwn_cover (i : S4x512x256.Idx) : i ∈ (outOwn (blkOf (i 0) (i 1))).view.set := by
  have h0 : (i 0).val < 4 := (i 0).isLt
  have h1 : (i 1).val < 512 := (i 1).isLt
  refine (mem_outOwn _ i).mpr ⟨?_, ?_⟩
  · show (i 0).val = ((i 0).val * 4 + (i 1).val / 128) / 4; omega
  · show (i 1).val / 128 = ((i 0).val * 4 + (i 1).val / 128) % 4; omega

end Cert.Kernel.Proto

end
-- ==== Proof.Bits.Carve.lean ====
/-
  The kernel's buffers cut into the pieces its copies and loads use.

  A whole buffer held at one share is the separating conjunction of its sixteen row-blocks held at that share: the blocks
  are pairwise disjoint and cover the buffer. The temporary buffer is cut into its sixteen slots; the partial-product
  buffer into the device's own row-block and the fifteen sources of its scatter copies; the result's buffer into the block
  the device owns and the fifteen blocks the other devices own, counted along the ring from the device.
-/
import proofs.«900432_g7700000000000433_dist_gconv1d_cshard_i_b4_s512_c256_v7x_i16_bf16_1_alg».proof.Proof.Bits.Landing
import Idealize.ShloMosaic.Rules.PointsTo

set_option maxRecDepth 16384

noncomputable section

namespace Cert.Kernel.Proto

open Cert.Kernel Cert.Kernel.Gen Cert.Kernel.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sixteen conjuncts -/

/-- A separating conjunction over sixteen indices, written out. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

/-! ## The temporary buffer and its sixteen slots -/

/-- Slot o's elements, as elements of device c's temporary buffer. -/
def tmpSet (c : Dev nD) (o : Fin 16) : Finset (Idx ((c : Thread nD τ).loc cc0_scratch1)) := (tmpRow o).view.set

/-- The sixteen slots together are the whole temporary buffer. -/
theorem tmp_union (c : Dev nD) : (Finset.univ : Finset (Fin 16)).biUnion (tmpSet c) = Finset.univ :=
  Finset.eq_univ_iff_forall.mpr fun i =>
    Finset.mem_biUnion.mpr ⟨(show S16x128x256.Idx from i) 0, Finset.mem_univ _, tmpRow_cover i⟩

/-- The temporary buffer at one share and contents is its sixteen slots at that share and contents. -/
theorem tmp_eq (c : Dev nD) (q : PosShare TreeShare) (f : Buf (Elt F) ((c : Thread nD τ).loc cc0_scratch1)) :
    ((c : Thread nD τ).loc cc0_scratch1 ↦{q} f : sProp 𝕄)
      = iprop(ptsAt c (tmpRow 0) q f ∗ ptsAt c (tmpRow 1) q f ∗ ptsAt c (tmpRow 2) q f ∗ ptsAt c (tmpRow 3) q f ∗ ptsAt c (tmpRow 4) q f ∗ ptsAt c (tmpRow 5) q f ∗ ptsAt c (tmpRow 6) q f ∗ ptsAt c (tmpRow 7) q f ∗ ptsAt c (tmpRow 8) q f ∗ ptsAt c (tmpRow 9) q f ∗ ptsAt c (tmpRow 10) q f ∗ ptsAt c (tmpRow 11) q f ∗ ptsAt c (tmpRow 12) q f ∗ ptsAt c (tmpRow 13) q f ∗ ptsAt c (tmpRow 14) q f ∗ ptsAt c (tmpRow 15) q f) := by
  rw [← tmp_union c, pointsTo_biUnion _ (tmpSet c) (fun o _ o' _ h => tmpRow_disjoint o o' h), bigSep_fin16]
  rfl

/-- THE CUT of the temporary buffer into its sixteen slots. -/
theorem tmp_cut (c : Dev nD) (f : Buf (Elt F) ((c : Thread nD τ).loc cc0_scratch1)) :
    ((c : Thread nD τ).loc cc0_scratch1 ↦{fullShare} f : sProp 𝕄)
      ⊢ iprop(ptsAt c (tmpRow 0) fullShare f ∗ ptsAt c (tmpRow 1) fullShare f ∗ ptsAt c (tmpRow 2) fullShare f ∗ ptsAt c (tmpRow 3) fullShare f ∗ ptsAt c (tmpRow 4) fullShare f ∗ ptsAt c (tmpRow 5) fullShare f ∗ ptsAt c (tmpRow 6) fullShare f ∗ ptsAt c (tmpRow 7) fullShare f ∗ ptsAt c (tmpRow 8) fullShare f ∗ ptsAt c (tmpRow 9) fullShare f ∗ ptsAt c (tmpRow 10) fullShare f ∗ ptsAt c (tmpRow 11) fullShare f ∗ ptsAt c (tmpRow 12) fullShare f ∗ ptsAt c (tmpRow 13) fullShare f ∗ ptsAt c (tmpRow 14) fullShare f ∗ ptsAt c (tmpRow 15) fullShare f) :=
  Entails.of_eq (tmp_eq c fullShare f)

/-! ## The result's buffer and its sixteen blocks, counted along the ring from the device -/

theorem peer_zero (c : Dev nD) : peer c 0 = c := Fin.ext (by
  have hc : c.val < 16 := c.isLt
  show (c.val + 0) % 16 = c.val; omega)

theorem back_zero (c : Dev nD) : back c 0 = c := Fin.ext (by
  have hc : c.val < 16 := c.isLt
  show (c.val + (16 - 0 % 16)) % 16 = c.val; omega)

/-- The device o places on from c, with offset 0 spelt as c itself. -/
def onRing (c : Dev nD) (o : Fin 16) : Dev nD := if o = 0 then c else peer c o.val
/-- The device o places before c, with offset 0 spelt as c itself. -/
def backRing (c : Dev nD) (o : Fin 16) : Dev nD := if o = 0 then c else back c o.val

theorem onRing_eq (c : Dev nD) (o : Fin 16) : onRing c o = peer c o.val := by
  unfold onRing; split
  · next h => subst h; exact (peer_zero c).symm
  · rfl
theorem backRing_eq (c : Dev nD) (o : Fin 16) : backRing c o = back c o.val := by
  unfold backRing; split
  · next h => subst h; exact (back_zero c).symm
  · rfl

theorem onRing_inj (c : Dev nD) (o o' : Fin 16) (h : onRing c o = onRing c o') : o = o' := by
  rw [onRing_eq, onRing_eq] at h
  have hv : (c.val + o.val) % 16 = (c.val + o'.val) % 16 := congrArg Fin.val h
  have hc : c.val < 16 := c.isLt
  have := o.isLt; have := o'.isLt
  exact Fin.ext (by omega)
theorem backRing_inj (c : Dev nD) (o o' : Fin 16) (h : backRing c o = backRing c o') : o = o' := by
  rw [backRing_eq, backRing_eq] at h
  have hv : (c.val + (16 - o.val % 16)) % 16 = (c.val + (16 - o'.val % 16)) % 16 := congrArg Fin.val h
  have hc : c.val < 16 := c.isLt
  have := o.isLt; have := o'.isLt
  exact Fin.ext (by omega)
theorem onRing_surj (c j : Dev nD) : ∃ o : Fin 16, onRing c o = j := by
  have hc : c.val < 16 := c.isLt
  have hj : j.val < 16 := j.isLt
  refine ⟨⟨(j.val + 16 - c.val) % 16, Nat.mod_lt _ (by decide)⟩, ?_⟩
  rw [onRing_eq]
  exact Fin.ext (by show (c.val + (j.val + 16 - c.val) % 16) % 16 = j.val; omega)
theorem backRing_surj (c j : Dev nD) : ∃ o : Fin 16, backRing c o = j := by
  have hc : c.val < 16 := c.isLt
  have hj : j.val < 16 := j.isLt
  refine ⟨⟨(c.val + 16 - j.val) % 16, Nat.mod_lt _ (by decide)⟩, ?_⟩
  rw [backRing_eq]
  exact Fin.ext (by show (c.val + (16 - (c.val + 16 - j.val) % 16 % 16)) % 16 = j.val; omega)

/-- Block j's elements, as elements of device c's result buffer. -/
def outSet (c : Dev nD) (j : Dev nD) : Finset (Idx ((c : Thread nD τ).loc cc0_stg3_0)) := (outOwn j).view.set

theorem out_union_on (c : Dev nD) : (Finset.univ : Finset (Fin 16)).biUnion (fun o => outSet c (onRing c o)) = Finset.univ :=
  Finset.eq_univ_iff_forall.mpr fun i => by
    obtain ⟨o, ho⟩ := onRing_surj c (blkOf ((show S4x512x256.Idx from i) 0) ((show S4x512x256.Idx from i) 1))
    exact Finset.mem_biUnion.mpr ⟨o, Finset.mem_univ _, by rw [ho]; exact outOwn_cover i⟩
theorem out_union_back (c : Dev nD) : (Finset.univ : Finset (Fin 16)).biUnion (fun o => outSet c (backRing c o)) = Finset.univ :=
  Finset.eq_univ_iff_forall.mpr fun i => by
    obtain ⟨o, ho⟩ := backRing_surj c (blkOf ((show S4x512x256.Idx from i) 0) ((show S4x512x256.Idx from i) 1))
    exact Finset.mem_biUnion.mpr ⟨o, Finset.mem_univ _, by rw [ho]; exact outOwn_cover i⟩

/-- The result's buffer at one share and contents is its sixteen blocks, the device's own first, then those of the devices
    1, …, 15 places on. -/
theorem out_eq_on (c : Dev nD) (q : PosShare TreeShare) (g : Buf (Elt F) ((c : Thread nD τ).loc cc0_stg3_0)) :
    ((c : Thread nD τ).loc cc0_stg3_0 ↦{q} g : sProp 𝕄)
      = iprop(ptsAt c (outOwn c) q g ∗ ptsAt c (outOwn (peer c 1)) q g ∗ ptsAt c (outOwn (peer c 2)) q g ∗ ptsAt c (outOwn (peer c 3)) q g ∗ ptsAt c (outOwn (peer c 4)) q g ∗ ptsAt c (outOwn (peer c 5)) q g ∗ ptsAt c (outOwn (peer c 6)) q g ∗ ptsAt c (outOwn (peer c 7)) q g ∗ ptsAt c (outOwn (peer c 8)) q g ∗ ptsAt c (outOwn (peer c 9)) q g ∗ ptsAt c (outOwn (peer c 10)) q g ∗ ptsAt c (outOwn (peer c 11)) q g ∗ ptsAt c (outOwn (peer c 12)) q g ∗ ptsAt c (outOwn (peer c 13)) q g ∗ ptsAt c (outOwn (peer c 14)) q g ∗ ptsAt c (outOwn (peer c 15)) q g) := by
  rw [← out_union_on c, pointsTo_biUnion _ (fun o => outSet c (onRing c o))
    (fun o _ o' _ h => outOwn_disjoint _ _ fun e => h (onRing_inj c o o' e)), bigSep_fin16]
  rfl

/-- The same, the device's own block first, then those of the devices 1, …, 15 places before. -/
theorem out_eq_back (c : Dev nD) (q : PosShare TreeShare) (g : Buf (Elt F) ((c : Thread nD τ).loc cc0_stg3_0)) :
    ((c : Thread nD τ).loc cc0_stg3_0 ↦{q} g : sProp 𝕄)
      = iprop(ptsAt c (outOwn c) q g ∗ ptsAt c (outOwn (back c 1)) q g ∗ ptsAt c (outOwn (back c 2)) q g ∗ ptsAt c (outOwn (back c 3)) q g ∗ ptsAt c (outOwn (back c 4)) q g ∗ ptsAt c (outOwn (back c 5)) q g ∗ ptsAt c (outOwn (back c 6)) q g ∗ ptsAt c (outOwn (back c 7)) q g ∗ ptsAt c (outOwn (back c 8)) q g ∗ ptsAt c (outOwn (back c 9)) q g ∗ ptsAt c (outOwn (back c 10)) q g ∗ ptsAt c (outOwn (back c 11)) q g ∗ ptsAt c (outOwn (back c 12)) q g ∗ ptsAt c (outOwn (back c 13)) q g ∗ ptsAt c (outOwn (back c 14)) q g ∗ ptsAt c (outOwn (back c 15)) q g) := by
  rw [← out_union_back c, pointsTo_biUnion _ (fun o => outSet c (backRing c o))
    (fun o _ o' _ h => outOwn_disjoint _ _ fun e => h (backRing_inj c o o' e)), bigSep_fin16]
  rfl

/-- THE CUT of the result's buffer: the own block, then the blocks of the devices 1, …, 15 places on. -/
theorem out_cut (c : Dev nD) (g : Buf (Elt F) ((c : Thread nD τ).loc cc0_stg3_0)) :
    ((c : Thread nD τ).loc cc0_stg3_0 ↦{fullShare} g : sProp 𝕄)
      ⊢ iprop(ptsAt c (outOwn c) fullShare g ∗ ptsAt c (outOwn (peer c 1)) fullShare g ∗ ptsAt c (outOwn (peer c 2)) fullShare g ∗ ptsAt c (outOwn (peer c 3)) fullShare g ∗ ptsAt c (outOwn (peer c 4)) fullShare g ∗ ptsAt c (outOwn (peer c 5)) fullShare g ∗ ptsAt c (outOwn (peer c 6)) fullShare g ∗ ptsAt c (outOwn (peer c 7)) fullShare g ∗ ptsAt c (outOwn (peer c 8)) fullShare g ∗ ptsAt c (outOwn (peer c 9)) fullShare g ∗ ptsAt c (outOwn (peer c 10)) fullShare g ∗ ptsAt c (outOwn (peer c 11)) fullShare g ∗ ptsAt c (outOwn (peer c 12)) fullShare g ∗ ptsAt c (outOwn (peer c 13)) fullShare g ∗ ptsAt c (outOwn (peer c 14)) fullShare g ∗ ptsAt c (outOwn (peer c 15)) fullShare g) :=
  Entails.of_eq (out_eq_on c fullShare g)

/-- THE JOIN of the result's buffer: the own block and the blocks of the devices 1, …, 15 places before, at one
    contents. -/
theorem out_join (c : Dev nD) (g : Buf (Elt F) ((c : Thread nD τ).loc cc0_stg3_0)) :
    (iprop(ptsAt c (outOwn c) fullShare g ∗ ptsAt c (outOwn (back c 1)) fullShare g ∗ ptsAt c (outOwn (back c 2)) fullShare g ∗ ptsAt c (outOwn (back c 3)) fullShare g ∗ ptsAt c (outOwn (back c 4)) fullShare g ∗ ptsAt c (outOwn (back c 5)) fullShare g ∗ ptsAt c (outOwn (back c 6)) fullShare g ∗ ptsAt c (outOwn (back c 7)) fullShare g ∗ ptsAt c (outOwn (back c 8)) fullShare g ∗ ptsAt c (outOwn (back c 9)) fullShare g ∗ ptsAt c (outOwn (back c 10)) fullShare g ∗ ptsAt c (outOwn (back c 11)) fullShare g ∗ ptsAt c (outOwn (back c 12)) fullShare g ∗ ptsAt c (outOwn (back c 13)) fullShare g ∗ ptsAt c (outOwn (back c 14)) fullShare g ∗ ptsAt c (outOwn (back c 15)) fullShare g) : sProp 𝕄)
      ⊢ ((c : Thread nD τ).loc cc0_stg3_0 ↦{fullShare} g) :=
  Entails.of_eq (out_eq_back c fullShare g).symm

/-! ## The partial-product buffer: the own row-block and the fifteen sources -/

/-- The device's own row-block of its partial-product buffer, at the row the kernel computes from its device id. -/
def ownRow (c : Dev nD) : Finset (Idx ((c : Thread nD τ).loc cc0_scratch0)) :=
  (Rect.unit (s := S16x128x256) (k0_off2 c) S1x128x256.size (k0_off2_inb c)).set

/-- The own row-block is row-block c. -/
theorem mem_ownRow (c : Dev nD) (i : S16x128x256.Idx) : i ∈ ownRow c ↔ (i 0).val = c.val := by
  refine (Rect.mem_set_unit (s := S16x128x256) (off := k0_off2 c) (size := S1x128x256.size) (inb := k0_off2_inb c) (i := i)).trans ?_
  rw [k0_off2_eq c]
  constructor
  · intro h
    have h0 : c.val ≤ (i 0).val ∧ (i 0).val < c.val + 1 := h 0
    omega
  · intro h a
    match a with
    | ⟨0, _⟩ => show c.val ≤ (i 0).val ∧ (i 0).val < c.val + 1; omega
    | ⟨1, _⟩ => show 0 ≤ (i 1).val ∧ (i 1).val < 0 + 128; have h1 : (i 1).val < 128 := (i 1).isLt; omega
    | ⟨2, _⟩ => show 0 ≤ (i 2).val ∧ (i 2).val < 0 + 256; have h2 : (i 2).val < 256 := (i 2).isLt; omega

/-- The own row-block (offset 0) and the sources of the scatter copies (offsets 1, …, 15), as elements of device c's
    partial-product buffer. -/
def accSet (c : Dev nD) (o : Fin 16) : Finset (Idx ((c : Thread nD τ).loc cc0_scratch0)) :=
  if o = 0 then ownRow c else (accSrc c o).view.set

theorem accSet_zero (c : Dev nD) : accSet c 0 = ownRow c := if_pos rfl
theorem accSet_ne (c : Dev nD) (o : Fin 16) (h : o ≠ 0) : accSet c o = (accSrc c o).view.set := if_neg h

theorem mem_accSet (c : Dev nD) (o : Fin 16) (i : S16x128x256.Idx) : i ∈ accSet c o ↔ (i 0).val = (c.val + o.val) % 16 := by
  have hc : c.val < 16 := c.isLt
  by_cases h : o = 0
  · subst h
    rw [accSet_zero]
    refine (mem_ownRow c i).trans ?_
    show _ ↔ (i 0).val = (c.val + 0) % 16
    omega
  · rw [accSet_ne c o h]
    exact mem_accSrc c o h i

theorem acc_union (c : Dev nD) : (Finset.univ : Finset (Fin 16)).biUnion (accSet c) = Finset.univ :=
  Finset.eq_univ_iff_forall.mpr fun i => by
    have hc : c.val < 16 := c.isLt
    have h0 : ((show S16x128x256.Idx from i) 0).val < 16 := ((show S16x128x256.Idx from i) 0).isLt
    refine Finset.mem_biUnion.mpr ⟨⟨(((show S16x128x256.Idx from i) 0).val + 16 - c.val) % 16, Nat.mod_lt _ (by decide)⟩,
      Finset.mem_univ _, (mem_accSet c _ i).mpr ?_⟩
    show ((show S16x128x256.Idx from i) 0).val = (c.val + (((show S16x128x256.Idx from i) 0).val + 16 - c.val) % 16) % 16
    omega

theorem accSet_disjoint (c : Dev nD) (o o' : Fin 16) (h : o ≠ o') : Disjoint (accSet c o) (accSet c o') :=
  Finset.disjoint_left.mpr fun i hi hi' => h (Fin.ext (by
    have h1 := (mem_accSet c o i).mp hi
    have h2 := (mem_accSet c o' i).mp hi'
    have hc : c.val < 16 := c.isLt
    have := o.isLt; have := o'.isLt
    omega))

/-- The partial-product buffer at one share and contents is the own row-block and the fifteen sources. -/
theorem acc_eq (c : Dev nD) (q : PosShare TreeShare) (f : Buf (Elt F) ((c : Thread nD τ).loc cc0_scratch0)) :
    ((c : Thread nD τ).loc cc0_scratch0 ↦{q} f : sProp 𝕄)
      = iprop(((c : Thread nD τ).loc cc0_scratch0 ↦[ownRow c]{q} f) ∗ ptsAt c (accSrc c 1) q f ∗ ptsAt c (accSrc c 2) q f ∗ ptsAt c (accSrc c 3) q f ∗ ptsAt c (accSrc c 4) q f ∗ ptsAt c (accSrc c 5) q f ∗ ptsAt c (accSrc c 6) q f ∗ ptsAt c (accSrc c 7) q f ∗ ptsAt c (accSrc c 8) q f ∗ ptsAt c (accSrc c 9) q f ∗ ptsAt c (accSrc c 10) q f ∗ ptsAt c (accSrc c 11) q f ∗ ptsAt c (accSrc c 12) q f ∗ ptsAt c (accSrc c 13) q f ∗ ptsAt c (accSrc c 14) q f ∗ ptsAt c (accSrc c 15) q f) := by
  rw [← acc_union c, pointsTo_biUnion _ (accSet c) (fun o _ o' _ h => accSet_disjoint c o o' h), bigSep_fin16]
  rfl

/-- THE CUT of the partial-product buffer into the own row-block and the fifteen sources of the scatter copies. -/
theorem acc_cut (c : Dev nD) (f : Buf (Elt F) ((c : Thread nD τ).loc cc0_scratch0)) :
    ((c : Thread nD τ).loc cc0_scratch0 ↦{fullShare} f : sProp 𝕄)
      ⊢ iprop(((c : Thread nD τ).loc cc0_scratch0 ↦[ownRow c]{fullShare} f) ∗ ptsAt c (accSrc c 1) fullShare f ∗ ptsAt c (accSrc c 2) fullShare f ∗ ptsAt c (accSrc c 3) fullShare f ∗ ptsAt c (accSrc c 4) fullShare f ∗ ptsAt c (accSrc c 5) fullShare f ∗ ptsAt c (accSrc c 6) fullShare f ∗ ptsAt c (accSrc c 7) fullShare f ∗ ptsAt c (accSrc c 8) fullShare f ∗ ptsAt c (accSrc c 9) fullShare f ∗ ptsAt c (accSrc c 10) fullShare f ∗ ptsAt c (accSrc c 11) fullShare f ∗ ptsAt c (accSrc c 12) fullShare f ∗ ptsAt c (accSrc c 13) fullShare f ∗ ptsAt c (accSrc c 14) fullShare f ∗ ptsAt c (accSrc c 15) fullShare f) :=
  Entails.of_eq (acc_eq c fullShare f)

end Cert.Kernel.Proto

end
-- ==== Proof.Bits.CarveCompute.lean ====
/-
  The compute phase of the body on whole buffers: three loads of the input blocks, a load of the partial-product buffer
  whose value is not used, and the store of the partial product. A load of a whole buffer returns its contents and a store
  through the whole buffer replaces them.
-/
import proofs.«900432_g7700000000000433_dist_gconv1d_cshard_i_b4_s512_c256_v7x_i16_bf16_1_alg».proof.Proof.Bits.Protocol
import Idealize.ShloMosaic.Rules.PointsTo
import Idealize.ShloMosaic.Rules.Step

set_option maxRecDepth 16384

noncomputable section

namespace Cert.Kernel.Proto

open Cert.Kernel Cert.Kernel.Gen Cert.Kernel.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => Variants.none

variable (m : (ℓ : Loc nD τ sig) → Buf (Elt F) ℓ)

/-! ## The compute phase on whole buffers -/

theorem zeros3 : (![0, 0, 0] : Fin 3 → Nat) = fun _ => 0 := by
  funext a; match a with | ⟨0, _⟩ => rfl | ⟨1, _⟩ => rfl | ⟨2, _⟩ => rfl
theorem zeros2 : (![0, 0] : Fin 2 → Nat) = fun _ => 0 := by
  funext a; match a with | ⟨0, _⟩ => rfl | ⟨1, _⟩ => rfl

/-- THE COMPUTE PHASE: holding the three input buffers at contents gx, gk, gw and the partial-product buffer at any
    contents, all whole, the three loads, the (unused) load of the partial-product buffer and the store leave the inputs
    as they were and the partial-product buffer at the payload of gx, gk, gw. -/
theorem wp_compute (c : Dev nD)
    (gx : Buf (Elt F) ((c : Thread nD τ).loc cc0_stg0_0)) (gk : Buf (Elt F) ((c : Thread nD τ).loc cc0_stg1_0))
    (gw : Buf (Elt F) ((c : Thread nD τ).loc cc0_stg2_0)) (facc : Buf (Elt F) ((c : Thread nD τ).loc cc0_scratch0))
    (inb0 : ∀ a, (![0, 0, 0] : Fin 3 → Nat) a + S4x512x256.size a ≤ S4x512x256.size a)
    (inb1 : ∀ a, (![0, 0] : Fin 2 → Nat) a + S4x256.size a ≤ S4x256.size a)
    (inb2 : ∀ a, (![0, 0] : Fin 2 → Nat) a + S256x256.size a ≤ S256x256.size a)
    (inb4 : ∀ a, (![0, 0, 0] : Fin 3 → Nat) a + S16x128x256.size a ≤ S16x128x256.size a)
    {h0 : xM.view.LoadsAt (Rect.unit (s := S4x512x256) ![0, 0, 0] S4x512x256.size inb0).toLoadRect}
    {h1 : kM.view.LoadsAt (Rect.unit (s := S4x256) ![0, 0] S4x256.size inb1).toLoadRect}
    {h2 : wM.view.LoadsAt (Rect.unit (s := S256x256) ![0, 0] S256x256.size inb2).toLoadRect}
    {h4 : accM.view.LoadsAt (Rect.unit (s := S16x128x256) ![0, 0, 0] S16x128x256.size inb4).toLoadRect}
    {hx : (accM.access (Rect.unit (s := S16x128x256) ![0, 0, 0] S16x128x256.size inb4)).Stores Finset.univ}
    {hm : (Finset.univ : Finset (Rect.unit (s := S16x128x256) ![0, 0, 0] S16x128x256.size inb4).shape.Idx) = Finset.univ
      ∨ ∀ a, (Rect.unit (s := S16x128x256) ![0, 0, 0] S16x128x256.size inb4).stride a = 1}
    {α : Type} {Q : α → sProp 𝕄} {k : PUnit → Prog (TpuEff nD τ sig (Elt F) Λ₀ .tc) α} :
    iprop((((c : Thread nD τ).loc cc0_stg0_0) ↦{fullShare} gx) ∗ (((c : Thread nD τ).loc cc0_stg1_0) ↦{fullShare} gk)
        ∗ (((c : Thread nD τ).loc cc0_stg2_0) ↦{fullShare} gw) ∗ (((c : Thread nD τ).loc cc0_scratch0) ↦{fullShare} facc)
        ∗ (((((c : Thread nD τ).loc cc0_stg0_0) ↦{fullShare} gx) ∗ (((c : Thread nD τ).loc cc0_stg1_0) ↦{fullShare} gk)
            ∗ (((c : Thread nD τ).loc cc0_stg2_0) ↦{fullShare} gw)
            ∗ (((c : Thread nD τ).loc cc0_scratch0) ↦{fullShare} (k0_pay4 (k0_pay1 gx) (k0_pay2 gk) (k0_pay3 gk) gw : FVec F S16x128x256 .bf16)))
          -∗ wp frame (wpE (defs₀ (F := F)) 𝒱₀ (c : Thread nD τ) none) Set.univ (k ⟨⟩) Q))
      ⊢ wp frame (wpE (defs₀ (F := F)) 𝒱₀ (c : Thread nD τ) none) Set.univ
          (.op (.load xM (Rect.unit (s := S4x512x256) ![0, 0, 0] S4x512x256.size inb0).toLoadRect h0) fun x =>
           .op (.load kM (Rect.unit (s := S4x256) ![0, 0] S4x256.size inb1).toLoadRect h1) fun x_1 =>
           .op (.load wM (Rect.unit (s := S256x256) ![0, 0] S256x256.size inb2).toLoadRect h2) fun x_2 =>
           .op (.load accM (Rect.unit (s := S16x128x256) ![0, 0, 0] S16x128x256.size inb4).toLoadRect h4) fun _ =>
           .op (.store accM (Rect.unit (s := S16x128x256) ![0, 0, 0] S16x128x256.size inb4)
              (k0_pay4 (k0_pay1 x) (k0_pay2 x_1) (k0_pay3 x_1) x_2) Finset.univ hx hm) k) Q := by
  have r0 : xM.view.readAt (Elt F) (Rect.unit (s := S4x512x256) ![0, 0, 0] S4x512x256.size inb0).toLoadRect gx = gx :=
    Memref.readAt_unit_zero (Elt F) cc0_stg0_0 zeros3 inb0 gx
  have r1 : kM.view.readAt (Elt F) (Rect.unit (s := S4x256) ![0, 0] S4x256.size inb1).toLoadRect gk = gk :=
    Memref.readAt_unit_zero (Elt F) cc0_stg1_0 zeros2 inb1 gk
  have r2 : wM.view.readAt (Elt F) (Rect.unit (s := S256x256) ![0, 0] S256x256.size inb2).toLoadRect gw = gw :=
    Memref.readAt_unit_zero (Elt F) cc0_stg2_0 zeros2 inb2 gw
  have w4 : ∀ w : FVec F S16x128x256 .bf16,
      (accM.access (Rect.unit (s := S16x128x256) ![0, 0, 0] S16x128x256.size inb4)).write (Elt F) facc w Finset.univ = w :=
    fun w => Memref.write_access_unit_zero_univ (Elt F) cc0_scratch0 zeros3 inb4 facc w
  iintro ⟨Hx, Hk', Hw, Hacc, Hk⟩
  iapply (wp_load 𝒱₀ (c : Thread nD τ) none Set.univ (m := xM) (S := Finset.univ) (q := fullShare) (f := gx) (Finset.subset_univ _)) $$ Hx
  iintro Hx
  rw [r0]
  iapply (wp_load 𝒱₀ (c : Thread nD τ) none Set.univ (m := kM) (S := Finset.univ) (q := fullShare) (f := gk) (Finset.subset_univ _)) $$ Hk'
  iintro Hk'
  rw [r1]
  iapply (wp_load 𝒱₀ (c : Thread nD τ) none Set.univ (m := wM) (S := Finset.univ) (q := fullShare) (f := gw) (Finset.subset_univ _)) $$ Hw
  iintro Hw
  rw [r2]
  iapply (wp_load 𝒱₀ (c : Thread nD τ) none Set.univ (m := accM) (S := Finset.univ) (q := fullShare) (f := facc) (Finset.subset_univ _)) $$ Hacc
  iintro Hacc
  iapply (wp_store 𝒱₀ (c : Thread nD τ) none Set.univ (m := accM)
    (r := Rect.unit (s := S16x128x256) ![0, 0, 0] S16x128x256.size inb4) (Mk := Finset.univ) (S := Finset.univ) (f := facc)
    (Finset.subset_univ _)) $$ Hacc
  iintro Hacc
  rw [w4]
  iapply Hk
  isplitl [Hx]; · iexact Hx
  isplitl [Hk']; · iexact Hk'
  isplitl [Hw]; · iexact Hw
  iexact Hacc

/-- The compute phase at the device's own input blocks: the partial-product buffer ends holding the device's partial product. -/
theorem wp_compute_own (c : Dev nD) (facc : Buf (Elt F) ((c : Thread nD τ).loc cc0_scratch0))
    (inb0 : ∀ a, (![0, 0, 0] : Fin 3 → Nat) a + S4x512x256.size a ≤ S4x512x256.size a)
    (inb1 : ∀ a, (![0, 0] : Fin 2 → Nat) a + S4x256.size a ≤ S4x256.size a)
    (inb2 : ∀ a, (![0, 0] : Fin 2 → Nat) a + S256x256.size a ≤ S256x256.size a)
    (inb4 : ∀ a, (![0, 0, 0] : Fin 3 → Nat) a + S16x128x256.size a ≤ S16x128x256.size a)
    {h0 : xM.view.LoadsAt (Rect.unit (s := S4x512x256) ![0, 0, 0] S4x512x256.size inb0).toLoadRect}
    {h1 : kM.view.LoadsAt (Rect.unit (s := S4x256) ![0, 0] S4x256.size inb1).toLoadRect}
    {h2 : wM.view.LoadsAt (Rect.unit (s := S256x256) ![0, 0] S256x256.size inb2).toLoadRect}
    {h4 : accM.view.LoadsAt (Rect.unit (s := S16x128x256) ![0, 0, 0] S16x128x256.size inb4).toLoadRect}
    {hx : (accM.access (Rect.unit (s := S16x128x256) ![0, 0, 0] S16x128x256.size inb4)).Stores Finset.univ}
    {hm : (Finset.univ : Finset (Rect.unit (s := S16x128x256) ![0, 0, 0] S16x128x256.size inb4).shape.Idx) = Finset.univ
      ∨ ∀ a, (Rect.unit (s := S16x128x256) ![0, 0, 0] S16x128x256.size inb4).stride a = 1}
    {α : Type} {Q : α → sProp 𝕄} {k : PUnit → Prog (TpuEff nD τ sig (Elt F) Λ₀ .tc) α} :
    iprop((((c : Thread nD τ).loc cc0_stg0_0) ↦{fullShare} xB m c) ∗ (((c : Thread nD τ).loc cc0_stg1_0) ↦{fullShare} kB m c)
        ∗ (((c : Thread nD τ).loc cc0_stg2_0) ↦{fullShare} wB m c) ∗ (((c : Thread nD τ).loc cc0_scratch0) ↦{fullShare} facc)
        ∗ (((((c : Thread nD τ).loc cc0_stg0_0) ↦{fullShare} xB m c) ∗ (((c : Thread nD τ).loc cc0_stg1_0) ↦{fullShare} kB m c)
            ∗ (((c : Thread nD τ).loc cc0_stg2_0) ↦{fullShare} wB m c)
            ∗ (((c : Thread nD τ).loc cc0_scratch0) ↦{fullShare} partialOf m c))
          -∗ wp frame (wpE (defs₀ (F := F)) 𝒱₀ (c : Thread nD τ) none) Set.univ (k ⟨⟩) Q))
      ⊢ wp frame (wpE (defs₀ (F := F)) 𝒱₀ (c : Thread nD τ) none) Set.univ
          (.op (.load xM (Rect.unit (s := S4x512x256) ![0, 0, 0] S4x512x256.size inb0).toLoadRect h0) fun x =>
           .op (.load kM (Rect.unit (s := S4x256) ![0, 0] S4x256.size inb1).toLoadRect h1) fun x_1 =>
           .op (.load wM (Rect.unit (s := S256x256) ![0, 0] S256x256.size inb2).toLoadRect h2) fun x_2 =>
           .op (.load accM (Rect.unit (s := S16x128x256) ![0, 0, 0] S16x128x256.size inb4).toLoadRect h4) fun _ =>
           .op (.store accM (Rect.unit (s := S16x128x256) ![0, 0, 0] S16x128x256.size inb4)
              (k0_pay4 (k0_pay1 x) (k0_pay2 x_1) (k0_pay3 x_1) x_2) Finset.univ hx hm) k) Q :=
  wp_compute c (xB m c) (kB m c) (wB m c) facc inb0 inb1 inb2 inb4

end Cert.Kernel.Proto

end
-- ==== Proof.Bits.CarveSteps.lean ====
/-
  The loads and the stores of the body on the pieces the buffers are cut into: one step of the program each.

  A load through a rectangle of a buffer needs only the elements under the rectangle, at any share, and returns what the
  buffer holds there; a store needs them at the full share and leaves the stored vector there.
-/
import proofs.«900432_g7700000000000433_dist_gconv1d_cshard_i_b4_s512_c256_v7x_i16_bf16_1_alg».proof.Proof.Bits.Carve
import Idealize.ShloMosaic.Rules.Step

set_option maxRecDepth 16384

noncomputable section

namespace Cert.Kernel.Proto

open Cert.Kernel Cert.Kernel.Gen Cert.Kernel.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => Variants.none

variable (m : (ℓ : Loc nD τ sig) → Buf (Elt F) ℓ)

/-! ## The loads of the sum -/

/-- THE LOAD OF SLOT n of the temporary buffer, on the slot alone: holding the slot at its landed contents, the load
    returns row-block c of the partial product of the device n places before c. -/
theorem wp_load_slot (c : Dev nD) (n : Nat) (hn : n < 16)
    (inb : ∀ a, (![n, 0, 0] : Fin 3 → Nat) a + S1x128x256.size a ≤ S16x128x256.size a)
    {hload : tmpM.view.LoadsAt (Rect.unit (s := S16x128x256) ![n, 0, 0] S1x128x256.size inb).toLoadRect}
    {α : Type} {Q : α → sProp 𝕄}
    {k : ((Rect.unit (s := S16x128x256) ![n, 0, 0] S1x128x256.size inb).toLoadRect.shape.Idx → Elt F .bf16)
      → Prog (TpuEff nD τ sig (Elt F) Λ₀ .tc) α} :
    iprop(ptsAt c (tmpRow ⟨n, hn⟩) fullShare (tmpBufAt m c ⟨n, hn⟩)
        ∗ (ptsAt c (tmpRow ⟨n, hn⟩) fullShare (tmpBufAt m c ⟨n, hn⟩)
            -∗ wp frame (wpE (defs₀ (F := F)) 𝒱₀ (c : Thread nD τ) none) Set.univ (k (rowOf m (back c n) c)) Q))
      ⊢ wp frame (wpE (defs₀ (F := F)) 𝒱₀ (c : Thread nD τ) none) Set.univ
          (.op (.load tmpM (Rect.unit (s := S16x128x256) ![n, 0, 0] S1x128x256.size inb).toLoadRect hload) k) Q := by
  have hS : tmpM.view.setOn (Rect.unit (s := S16x128x256) ![n, 0, 0] S1x128x256.size inb).toLoadRect.set
      ⊆ (tmpRow ⟨n, hn⟩).view.set := by
    intro i hi
    obtain ⟨x, hx, rfl⟩ := Finset.mem_map.mp hi
    exact (Finset.ext_iff.mp (set_tmpRow ⟨n, hn⟩) _).mpr hx
  have hrd := load_slot m c n hn inb (tmpBufAt m c ⟨n, hn⟩) (fun i _ => rfl)
  unfold ptsAt
  rw [← hrd]
  have h := wp_load (defs := defs₀ (F := F)) 𝒱₀ (c : Thread nD τ) none (Γ := .empty) Set.univ (Q := Q) (m := tmpM)
    (r := (Rect.unit (s := S16x128x256) ![n, 0, 0] S1x128x256.size inb).toLoadRect) (hl := hload) (k := k)
    (S := (tmpRow ⟨n, hn⟩).view.set) (q := fullShare) (f := tmpBufAt m c ⟨n, hn⟩) hS
  exact BIClass.wand_elim h

/-- THE LOAD OF THE OWN ROW-BLOCK of the partial product, on that row-block alone. -/
theorem wp_load_own (c : Dev nD) (q : PosShare TreeShare)
    {hload : accM.view.LoadsAt (Rect.unit (s := S16x128x256) (k0_off2 c) S1x128x256.size (k0_off2_inb c)).toLoadRect}
    {α : Type} {Q : α → sProp 𝕄}
    {k : ((Rect.unit (s := S16x128x256) (k0_off2 c) S1x128x256.size (k0_off2_inb c)).toLoadRect.shape.Idx → Elt F .bf16)
      → Prog (TpuEff nD τ sig (Elt F) Λ₀ .tc) α} :
    iprop(((c : Thread nD τ).loc cc0_scratch0 ↦[ownRow c]{q} partialOf m c)
        ∗ (((c : Thread nD τ).loc cc0_scratch0 ↦[ownRow c]{q} partialOf m c)
            -∗ wp frame (wpE (defs₀ (F := F)) 𝒱₀ (c : Thread nD τ) none) Set.univ (k (rowOf m c c)) Q))
      ⊢ wp frame (wpE (defs₀ (F := F)) 𝒱₀ (c : Thread nD τ) none) Set.univ
          (.op (.load accM (Rect.unit (s := S16x128x256) (k0_off2 c) S1x128x256.size (k0_off2_inb c)).toLoadRect hload) k) Q := by
  have hS : accM.view.setOn (Rect.unit (s := S16x128x256) (k0_off2 c) S1x128x256.size (k0_off2_inb c)).toLoadRect.set
      ⊆ ownRow c := by
    intro i hi
    obtain ⟨x, hx, rfl⟩ := Finset.mem_map.mp hi
    exact hx
  have hrd := load_own m c
  rw [← hrd]
  have h := wp_load (defs := defs₀ (F := F)) 𝒱₀ (c : Thread nD τ) none (Γ := .empty) Set.univ (Q := Q) (m := accM)
    (r := (Rect.unit (s := S16x128x256) (k0_off2 c) S1x128x256.size (k0_off2_inb c)).toLoadRect) (hl := hload) (k := k)
    (S := ownRow c) (q := q) (f := partialOf m c) hS
  exact BIClass.wand_elim h

/-! ## The store of the sum -/

/-- The rectangle the sum is stored through is the block the device owns. -/
theorem mem_sumRect (c : Dev nD) (i : S4x512x256.Idx) :
    i ∈ (Rect.unit (s := S4x512x256) (k0_off3 c) S1x128x256.size (k0_off3_inb c)).set
      ↔ (i 0).val = c.val / 4 ∧ (i 1).val / 128 = c.val % 4 := by
  refine Rect.mem_set_unit.trans ?_
  rw [off3_eq c]
  constructor
  · intro h
    have h0 : c.val / 4 ≤ (i 0).val ∧ (i 0).val < c.val / 4 + 1 := h 0
    have h1 : c.val % 4 * 128 ≤ (i 1).val ∧ (i 1).val < c.val % 4 * 128 + 128 := h 1
    constructor <;> omega
  · rintro ⟨h0, h1⟩ a
    match a with
    | ⟨0, _⟩ => show c.val / 4 ≤ (i 0).val ∧ (i 0).val < c.val / 4 + 1; omega
    | ⟨1, _⟩ => show c.val % 4 * 128 ≤ (i 1).val ∧ (i 1).val < c.val % 4 * 128 + 128; omega
    | ⟨2, _⟩ => show 0 ≤ (i 2).val ∧ (i 2).val < 0 + 256; have h2 : (i 2).val < 256 := (i 2).isLt; omega

/-- THE LOAD AND THE STORE ON THE OWN BLOCK of the result: holding the block the device owns at any contents, the load
    (its value unused) and the store of the device's sum leave the block at what the gathered result holds there. -/
theorem wp_store_sum (c : Dev nD) (f : Buf (Elt F) ((outOwn c).view.loc ((c : Dev nD) : Thread nD τ)))
    {hload : oM.view.LoadsAt (Rect.unit (s := S4x512x256) (k0_off3 c) S1x128x256.size (k0_off3_inb c)).toLoadRect}
    {hx : (oM.access (Rect.unit (s := S4x512x256) (k0_off3 c) S1x128x256.size (k0_off3_inb c))).Stores Finset.univ}
    {hm : (Finset.univ : Finset (Rect.unit (s := S4x512x256) (k0_off3 c) S1x128x256.size (k0_off3_inb c)).shape.Idx) = Finset.univ
      ∨ ∀ a, (Rect.unit (s := S4x512x256) (k0_off3 c) S1x128x256.size (k0_off3_inb c)).stride a = 1}
    {α : Type} {Q : α → sProp 𝕄} {k : PUnit → Prog (TpuEff nD τ sig (Elt F) Λ₀ .tc) α} :
    iprop(ptsAt c (outOwn c) fullShare f
        ∗ (ptsAt c (outOwn c) fullShare (outBufAt m c c)
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.load oM (Rect.unit (s := S4x512x256) (k0_off3 c) S1x128x256.size (k0_off3_inb c)).toLoadRect hload) fun _ =>
            .op (.store oM (Rect.unit (s := S4x512x256) (k0_off3 c) S1x128x256.size (k0_off3_inb c)) (redOf m c) Finset.univ hx hm) k) Q := by
  have hS : oM.view.setOn (Rect.unit (s := S4x512x256) (k0_off3 c) S1x128x256.size (k0_off3_inb c)).toLoadRect.set
      ⊆ (outOwn c).view.set := by
    intro i hi
    obtain ⟨x, hx, rfl⟩ := Finset.mem_map.mp hi
    exact (mem_outOwn c x).mpr ((mem_sumRect c x).mp hx)
  have hS' : (oM.access (Rect.unit (s := S4x512x256) (k0_off3 c) S1x128x256.size (k0_off3_inb c))).setOn Finset.univ
      ⊆ (outOwn c).view.set := by
    intro i hi
    have hi' : i ∈ (Rect.unit (s := S4x512x256) (k0_off3 c) S1x128x256.size (k0_off3_inb c)).set :=
      (Finset.ext_iff.mp (View.set_slice_whole cc0_stg3_0 _) i).mp hi
    exact (mem_outOwn c i).mpr ((mem_sumRect c i).mp hi')
  have hfin : (((outOwn c).view.loc ((c : Dev nD) : Thread nD τ)) ↦[(outOwn c).view.set]{fullShare}
        ((oM.access (Rect.unit (s := S4x512x256) (k0_off3 c) S1x128x256.size (k0_off3_inb c))).write (Elt F) f (redOf m c) Finset.univ)
          : sProp 𝕄)
      = (((outOwn c).view.loc ((c : Dev nD) : Thread nD τ)) ↦[(outOwn c).view.set]{fullShare} outBufAt m c c) :=
    pointsTo_congr (store_sum m c f)
  unfold ptsAt
  rw [← hfin]
  have hst := wp_store (defs := defs₀ (F := F)) 𝒱₀ (c : Thread nD τ) none (Γ := .empty) Set.univ (Q := Q) (m := oM)
    (r := Rect.unit (s := S4x512x256) (k0_off3 c) S1x128x256.size (k0_off3_inb c)) (w := redOf m c) (Mk := Finset.univ)
    (hx := hx) (hm := hm) (k := k) (S := (outOwn c).view.set) (f := f) hS'
  have hld := wp_load (defs := defs₀ (F := F)) 𝒱₀ (c : Thread nD τ) none (Γ := .empty) Set.univ (Q := Q) (m := oM)
    (r := (Rect.unit (s := S4x512x256) (k0_off3 c) S1x128x256.size (k0_off3_inb c)).toLoadRect) (hl := hload)
    (k := fun _ => .op (.store oM (Rect.unit (s := S4x512x256) (k0_off3 c) S1x128x256.size (k0_off3_inb c)) (redOf m c) Finset.univ hx hm) k)
    (S := (outOwn c).view.set) (q := fullShare) (f := f) hS
  exact (sep_mono_right (wand_intro_left (BIClass.wand_elim hst))).trans (BIClass.wand_elim hld)

end Cert.Kernel.Proto

end
-- ==== Proof.Bits.CarveJoin.lean ====
/-
  Shares of the own block, and the buffers joined back from pieces at different contents.

  The full share of a block is split into fifteen shares by halving fourteen times: the k-th copy reads at the left half of
  what the first k - 1 left, the last at all that is left. Pieces of one buffer on pairwise disjoint element sets, each at
  contents of its own, join into the buffer on the union at the contents pieced together.
-/
import proofs.«900432_g7700000000000433_dist_gconv1d_cshard_i_b4_s512_c256_v7x_i16_bf16_1_alg».proof.Proof.Bits.Carve

set_option maxRecDepth 16384

noncomputable section

namespace Cert.Kernel.Proto

open Cert.Kernel Cert.Kernel.Gen Cert.Kernel.Chains

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => Variants.none

variable (m : (ℓ : Loc nD τ sig) → Buf (Elt F) ℓ)

/-! ## The fifteen shares -/

/-- One halving: what is left after n halvings is its left half and what is left after n + 1. -/
theorem pts_shr (p : Dev nD) (v : Memref sig .tc .vmem S128x256 .bf16) (f : Buf (Elt F) (v.view.loc (p : Thread nD τ))) (n : Nat) :
    (ptsAt p v (shr n) f : sProp 𝕄) = iprop(ptsAt p v (shr n).left f ∗ ptsAt p v (shr (n + 1)) f) := by
  have hu : (v.view.loc (p : Thread nD τ) ↦[v.view.set]{shr n} f : sProp 𝕄)
      ⊣⊢ iprop((v.view.loc (p : Thread nD τ) ↦[v.view.set]{(shr n).left} f) ∗ v.view.loc (p : Thread nD τ) ↦[v.view.set]{(shr n).right} f) :=
    pointsTo_share (PosShare.mem_left_op_right (shr n))
  exact BI.equiv_iff.mp ⟨hu.1, hu.2⟩

/-- THE SHARES: a block at the full share is the block at the fifteen shares of the gather copies. -/
theorem pts_shares_eq (p : Dev nD) (v : Memref sig .tc .vmem S128x256 .bf16) (f : Buf (Elt F) (v.view.loc (p : Thread nD τ))) :
    (ptsAt p v fullShare f : sProp 𝕄)
      = iprop(ptsAt p v (shareOf 1) f ∗ ptsAt p v (shareOf 2) f ∗ ptsAt p v (shareOf 3) f ∗ ptsAt p v (shareOf 4) f ∗ ptsAt p v (shareOf 5) f ∗ ptsAt p v (shareOf 6) f ∗ ptsAt p v (shareOf 7) f ∗ ptsAt p v (shareOf 8) f ∗ ptsAt p v (shareOf 9) f ∗ ptsAt p v (shareOf 10) f ∗ ptsAt p v (shareOf 11) f ∗ ptsAt p v (shareOf 12) f ∗ ptsAt p v (shareOf 13) f ∗ ptsAt p v (shareOf 14) f ∗ ptsAt p v (shareOf 15) f) := by
  rw [show (fullShare : PosShare TreeShare) = shr 0 from rfl, pts_shr p v f 0, pts_shr p v f 1, pts_shr p v f 2, pts_shr p v f 3, pts_shr p v f 4, pts_shr p v f 5, pts_shr p v f 6, pts_shr p v f 7, pts_shr p v f 8, pts_shr p v f 9, pts_shr p v f 10, pts_shr p v f 11, pts_shr p v f 12, pts_shr p v f 13]
  rfl

theorem own_shares_cut (c : Dev nD) (f : Buf (Elt F) ((outOwn c).view.loc ((c : Dev nD) : Thread nD τ))) :
    (ptsAt c (outOwn c) fullShare f : sProp 𝕄)
      ⊢ iprop(ptsAt c (outOwn c) (shareOf 1) f ∗ ptsAt c (outOwn c) (shareOf 2) f ∗ ptsAt c (outOwn c) (shareOf 3) f ∗ ptsAt c (outOwn c) (shareOf 4) f ∗ ptsAt c (outOwn c) (shareOf 5) f ∗ ptsAt c (outOwn c) (shareOf 6) f ∗ ptsAt c (outOwn c) (shareOf 7) f ∗ ptsAt c (outOwn c) (shareOf 8) f ∗ ptsAt c (outOwn c) (shareOf 9) f ∗ ptsAt c (outOwn c) (shareOf 10) f ∗ ptsAt c (outOwn c) (shareOf 11) f ∗ ptsAt c (outOwn c) (shareOf 12) f ∗ ptsAt c (outOwn c) (shareOf 13) f ∗ ptsAt c (outOwn c) (shareOf 14) f ∗ ptsAt c (outOwn c) (shareOf 15) f) :=
  Entails.of_eq (pts_shares_eq c (outOwn c) f)

theorem own_shares_join (c : Dev nD) (f : Buf (Elt F) ((outOwn c).view.loc ((c : Dev nD) : Thread nD τ))) :
    (iprop(ptsAt c (outOwn c) (shareOf 1) f ∗ ptsAt c (outOwn c) (shareOf 2) f ∗ ptsAt c (outOwn c) (shareOf 3) f ∗ ptsAt c (outOwn c) (shareOf 4) f ∗ ptsAt c (outOwn c) (shareOf 5) f ∗ ptsAt c (outOwn c) (shareOf 6) f ∗ ptsAt c (outOwn c) (shareOf 7) f ∗ ptsAt c (outOwn c) (shareOf 8) f ∗ ptsAt c (outOwn c) (shareOf 9) f ∗ ptsAt c (outOwn c) (shareOf 10) f ∗ ptsAt c (outOwn c) (shareOf 11) f ∗ ptsAt c (outOwn c) (shareOf 12) f ∗ ptsAt c (outOwn c) (shareOf 13) f ∗ ptsAt c (outOwn c) (shareOf 14) f ∗ ptsAt c (outOwn c) (shareOf 15) f) : sProp 𝕄)
      ⊢ ptsAt c (outOwn c) fullShare f :=
  Entails.of_eq (pts_shares_eq c (outOwn c) f).symm

/-! ## Joining pieces at different contents -/

/-- Pieces of one buffer on pairwise disjoint element sets, each at some contents, join into the buffer on their union
    at some contents. -/
theorem pointsTo_biUnion_join_ex {ℓ : Loc nD τ sig} {T : Type} [DecidableEq T] (S : Finset T) (K : T → Finset (Idx ℓ))
    (q : PosShare TreeShare) (h : ∀ t ∈ S, ∀ t' ∈ S, t ≠ t' → Disjoint (K t) (K t')) :
    bigSep S (fun t => (iprop(∃ f : Buf (Elt F) ℓ, ℓ ↦[K t]{q} f) : sProp 𝕄))
      ⊢ (iprop(∃ g : Buf (Elt F) ℓ, ℓ ↦[S.biUnion K]{q} g) : sProp 𝕄) := by
  induction S using Finset.induction_on with
  | empty =>
    iintro -
    iexists (fun _ => default)
    rw [Finset.biUnion_empty, pointsTo_empty]; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f : Buf (Elt F) ℓ, ℓ ↦[K t]{q} f) ∗ bigSep S (fun t => (iprop(∃ f : Buf (Elt F) ℓ, ℓ ↦[K t]{q} f) : sProp 𝕄))) ⊢ _ from ?_)
    iintro ⟨Ht, HS⟩
    icases Ht with ⟨%f, Ht⟩
    ihave H := (ih fun t₁ h₁ t₂ h₂ => h t₁ (Finset.mem_insert_of_mem h₁) t₂ (Finset.mem_insert_of_mem h₂)) $$ HS
    icases H with ⟨%g, HS⟩
    iexists (S.biUnion K).piecewise g f
    iapply (pointsTo_join hd)
    isplitl [Ht]; · iexact Ht
    iexact HS

/-- THE JOIN of the temporary buffer from its sixteen slots, each at some contents. -/
theorem tmp_join (c : Dev nD) :
    (iprop((∃ f, ptsAt c (tmpRow 0) fullShare f) ∗ (∃ f, ptsAt c (tmpRow 1) fullShare f) ∗ (∃ f, ptsAt c (tmpRow 2) fullShare f) ∗ (∃ f, ptsAt c (tmpRow 3) fullShare f) ∗ (∃ f, ptsAt c (tmpRow 4) fullShare f) ∗ (∃ f, ptsAt c (tmpRow 5) fullShare f) ∗ (∃ f, ptsAt c (tmpRow 6) fullShare f) ∗ (∃ f, ptsAt c (tmpRow 7) fullShare f) ∗ (∃ f, ptsAt c (tmpRow 8) fullShare f) ∗ (∃ f, ptsAt c (tmpRow 9) fullShare f) ∗ (∃ f, ptsAt c (tmpRow 10) fullShare f) ∗ (∃ f, ptsAt c (tmpRow 11) fullShare f) ∗ (∃ f, ptsAt c (tmpRow 12) fullShare f) ∗ (∃ f, ptsAt c (tmpRow 13) fullShare f) ∗ (∃ f, ptsAt c (tmpRow 14) fullShare f) ∗ (∃ f, ptsAt c (tmpRow 15) fullShare f)) : sProp 𝕄)
      ⊢ iprop(∃ f, ((c : Thread nD τ).loc cc0_scratch1) ↦{fullShare} f) := by
  have hj := pointsTo_biUnion_join_ex (F := F) (Finset.univ : Finset (Fin 16)) (tmpSet c) fullShare
    (fun o _ o' _ h => tmpRow_disjoint o o' h)
  rw [bigSep_fin16, tmp_union c] at hj
  exact hj

/-- THE JOIN of the partial-product buffer from the own row-block and the fifteen sources, each at some contents. -/
theorem acc_join (c : Dev nD) :
    (iprop((∃ f, ((c : Thread nD τ).loc cc0_scratch0) ↦[ownRow c]{fullShare} f) ∗ (∃ f, ptsAt c (accSrc c 1) fullShare f) ∗ (∃ f, ptsAt c (accSrc c 2) fullShare f) ∗ (∃ f, ptsAt c (accSrc c 3) fullShare f) ∗ (∃ f, ptsAt c (accSrc c 4) fullShare f) ∗ (∃ f, ptsAt c (accSrc c 5) fullShare f) ∗ (∃ f, ptsAt c (accSrc c 6) fullShare f) ∗ (∃ f, ptsAt c (accSrc c 7) fullShare f) ∗ (∃ f, ptsAt c (accSrc c 8) fullShare f) ∗ (∃ f, ptsAt c (accSrc c 9) fullShare f) ∗ (∃ f, ptsAt c (accSrc c 10) fullShare f) ∗ (∃ f, ptsAt c (accSrc c 11) fullShare f) ∗ (∃ f, ptsAt c (accSrc c 12) fullShare f) ∗ (∃ f, ptsAt c (accSrc c 13) fullShare f) ∗ (∃ f, ptsAt c (accSrc c 14) fullShare f) ∗ (∃ f, ptsAt c (accSrc c 15) fullShare f)) : sProp 𝕄)
      ⊢ iprop(∃ f, ((c : Thread nD τ).loc cc0_scratch0) ↦{fullShare} f) := by
  have hj := pointsTo_biUnion_join_ex (F := F) (Finset.univ : Finset (Fin 16)) (accSet c) fullShare
    (fun o _ o' _ h => accSet_disjoint c o o' h)
  rw [bigSep_fin16, acc_union c] at hj
  exact hj

end Cert.Kernel.Proto

end
-- ==== Proof.Bits.Body.lean ====
/-
  One device's kernel body, stepped from what it starts with to what it leaves.
  The body cuts its temporary buffer into sixteen slots and its result's buffer into sixteen blocks and, with its fifteen
  barrier signals, hands each other device the slot and the block that device will write.  It loads its three input
  blocks and stores its partial product; waits for the fifteen signals addressed to it, which bring the slots and blocks
  it may write; cuts the partial product into its own row-block and fifteen sources and sends each source to the slot of
  the device it belongs to; adds its own row-block and the fifteen that land in its slots, in the order of the offsets;
  stores the sum as its own block of the result and sends that block to every other device; waits for the fifteen blocks
  sent to it, for its sources and for the shares of its own block; closes its sixty transfer cells; and joins the three
  buffers again.  Each step is one rule at a symbolic offset, applied at the offsets 1, …, 15 in turn.
-/
import proofs.«900432_g7700000000000433_dist_gconv1d_cshard_i_b4_s512_c256_v7x_i16_bf16_1_alg».proof.Proof.Bits.BodyWrap
import proofs.«900432_g7700000000000433_dist_gconv1d_cshard_i_b4_s512_c256_v7x_i16_bf16_1_alg».proof.Proof.Bits.StepsSig
import proofs.«900432_g7700000000000433_dist_gconv1d_cshard_i_b4_s512_c256_v7x_i16_bf16_1_alg».proof.Proof.Bits.Steps
import proofs.«900432_g7700000000000433_dist_gconv1d_cshard_i_b4_s512_c256_v7x_i16_bf16_1_alg».proof.Proof.Bits.StepsBar
import proofs.«900432_g7700000000000433_dist_gconv1d_cshard_i_b4_s512_c256_v7x_i16_bf16_1_alg».proof.Proof.Bits.Carve
import proofs.«900432_g7700000000000433_dist_gconv1d_cshard_i_b4_s512_c256_v7x_i16_bf16_1_alg».proof.Proof.Bits.CarveCompute
import proofs.«900432_g7700000000000433_dist_gconv1d_cshard_i_b4_s512_c256_v7x_i16_bf16_1_alg».proof.Proof.Bits.CarveSteps
import proofs.«900432_g7700000000000433_dist_gconv1d_cshard_i_b4_s512_c256_v7x_i16_bf16_1_alg».proof.Proof.Bits.CarveJoin

set_option maxRecDepth 65536
set_option maxHeartbeats 4000000

noncomputable section
namespace Cert.Kernel.Proto
open Cert.Kernel Cert.Kernel.Gen Cert.Kernel.Chains
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The body, one rule per effect in program order. -/
theorem sound_body_steps (K : Dev nD × CellIx → ℕ) (c : Dev nD) (W : Waits sig Unit)
    (gout : Buf (Elt F) ((c : Thread nD τ).loc cc0_stg3_0)) (facc : Buf (Elt F) ((c : Thread nD τ).loc cc0_scratch0))
    (ftmp : Buf (Elt F) ((c : Thread nD τ).loc cc0_scratch1)) (Kt : PUnit → sProp 𝕄) :
    iprop(bodyPre m K c W gout facc ftmp ∗ (bodyPost m c -∗ Kt ⟨⟩))
      ⊢ wp frame (wpE (defs₀ (F := F)) 𝒱₀ (c : Thread nD τ) none) Set.univ theBody Kt := by
  unfold theBody
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel
  simp only [semSignalWord, semWaitWord, Prog.lift, Prog.bind_op, Prog.bind_ret, Prog.pure_eq_ret, wp_deviceId]
  unfold bodyPre offChain
  rw [Onest_eq c]
  iintro ⟨⟨#Hrec, #Hlev, HatB, ⟨Hps1, Hps2, Hps3, Hps4, Hps5, Hps6, Hps7, Hps8, Hps9, Hps10, Hps11, Hps12, Hps13, Hps14, Hps15⟩, ⟨Hpr1, Hpr2, Hpr3, Hpr4, Hpr5, Hpr6, Hpr7, Hpr8, Hpr9, Hpr10, Hpr11, Hpr12, Hpr13, Hpr14, Hpr15⟩, ⟨Hpas1, Hpas2, Hpas3, Hpas4, Hpas5, Hpas6, Hpas7, Hpas8, Hpas9, Hpas10, Hpas11, Hpas12, Hpas13, Hpas14, Hpas15⟩, ⟨Hpar1, Hpar2, Hpar3, Hpar4, Hpar5, Hpar6, Hpar7, Hpar8, Hpar9, Hpar10, Hpar11, Hpar12, Hpar13, Hpar14, Hpar15⟩, ⟨Htb1, Htb2, Htb3, Htb4, Htb5, Htb6, Htb7, Htb8, Htb9, Htb10, Htb11, Htb12, Htb13, Htb14, Htb15⟩, ⟨Hts1, Hts2, Hts3, Hts4, Hts5, Hts6, Hts7, Hts8, Hts9, Hts10, Hts11, Hts12, Hts13, Hts14, Hts15⟩, ⟨Htr1, Htr2, Htr3, Htr4, Htr5, Htr6, Htr7, Htr8, Htr9, Htr10, Htr11, Htr12, Htr13, Htr14, Htr15⟩, ⟨Htas1, Htas2, Htas3, Htas4, Htas5, Htas6, Htas7, Htas8, Htas9, Htas10, Htas11, Htas12, Htas13, Htas14, Htas15⟩, ⟨Htar1, Htar2, Htar3, Htar4, Htar5, Htar6, Htar7, Htar8, Htar9, Htar10, Htar11, Htar12, Htar13, Htar14, Htar15⟩, HcB, ⟨Hcr1, Hcr2, Hcr3, Hcr4, Hcr5, Hcr6, Hcr7, Hcr8, Hcr9, Hcr10, Hcr11, Hcr12, Hcr13, Hcr14, Hcr15⟩, ⟨Hca1, Hca2, Hca3, Hca4, Hca5, Hca6, Hca7, Hca8, Hca9, Hca10, Hca11, Hca12, Hca13, Hca14, Hca15⟩, HO, Hx, Hkk, Hw, Hout, Hacc, Htmp⟩, Hk⟩
  -- the temporary buffer cut into its sixteen slots, the result's buffer into its sixteen blocks
  ihave Htmp' := (tmp_cut c ftmp) $$ Htmp
  icases Htmp' with ⟨Htm0, Htm1, Htm2, Htm3, Htm4, Htm5, Htm6, Htm7, Htm8, Htm9, Htm10, Htm11, Htm12, Htm13, Htm14, Htm15⟩
  ihave Hout' := (out_cut c gout) $$ Hout
  icases Hout' with ⟨Hoo, Hob1, Hob2, Hob3, Hob4, Hob5, Hob6, Hob7, Hob8, Hob9, Hob10, Hob11, Hob12, Hob13, Hob14, Hob15⟩
  -- the fifteen signals: each hands the receiver the slot and the block it will write
  iapply (wp_sig m c _ (1 : Fin 16) (by decide) (dev1_eq c) (K (peer c 1, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1 + tallyAt (barCell (peer c 5)) () 1 + tallyAt (barCell (peer c 4)) () 1 + tallyAt (barCell (peer c 3)) () 1 + tallyAt (barCell (peer c 2)) () 1) W ftmp gout) $$ [HO Htb1 Htm15 Hob1]
  · isplitr; · iapply (records_inv (Rd m) K (peer c 1, .inl ())); iexact Hrec
    isplitl [HO]; · iexact HO
    isplitl [Htb1]; · iexact Htb1
    isplitl [Htm15]; · iexact Htm15
    isplitl [Hob1]; · iexact Hob1
    isplitr; · iapply (records_reached (Rd m) K (c, .inr (1, (14 : Off)))); iexact Hrec
    isplitr; · iapply (records_reached (Rd m) K (c, .inr (3, (14 : Off)))); iexact Hrec
    iapply (records_reached (Rd m) K (peer c 1, .inl ())); iexact Hrec
  iintro HO
  iapply (wp_sig m c _ (2 : Fin 16) (by decide) (dev2_eq c) (K (peer c 2, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1 + tallyAt (barCell (peer c 5)) () 1 + tallyAt (barCell (peer c 4)) () 1 + tallyAt (barCell (peer c 3)) () 1) W ftmp gout) $$ [HO Htb2 Htm14 Hob2]
  · isplitr; · iapply (records_inv (Rd m) K (peer c 2, .inl ())); iexact Hrec
    isplitl [HO]; · iexact HO
    isplitl [Htb2]; · iexact Htb2
    isplitl [Htm14]; · iexact Htm14
    isplitl [Hob2]; · iexact Hob2
    isplitr; · iapply (records_reached (Rd m) K (c, .inr (1, (13 : Off)))); iexact Hrec
    isplitr; · iapply (records_reached (Rd m) K (c, .inr (3, (13 : Off)))); iexact Hrec
    iapply (records_reached (Rd m) K (peer c 2, .inl ())); iexact Hrec
  iintro HO
  iapply (wp_sig m c _ (3 : Fin 16) (by decide) (dev3_eq c) (K (peer c 3, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1 + tallyAt (barCell (peer c 5)) () 1 + tallyAt (barCell (peer c 4)) () 1) W ftmp gout) $$ [HO Htb3 Htm13 Hob3]
  · isplitr; · iapply (records_inv (Rd m) K (peer c 3, .inl ())); iexact Hrec
    isplitl [HO]; · iexact HO
    isplitl [Htb3]; · iexact Htb3
    isplitl [Htm13]; · iexact Htm13
    isplitl [Hob3]; · iexact Hob3
    isplitr; · iapply (records_reached (Rd m) K (c, .inr (1, (12 : Off)))); iexact Hrec
    isplitr; · iapply (records_reached (Rd m) K (c, .inr (3, (12 : Off)))); iexact Hrec
    iapply (records_reached (Rd m) K (peer c 3, .inl ())); iexact Hrec
  iintro HO
  iapply (wp_sig m c _ (4 : Fin 16) (by decide) (dev4_eq c) (K (peer c 4, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1 + tallyAt (barCell (peer c 5)) () 1) W ftmp gout) $$ [HO Htb4 Htm12 Hob4]
  · isplitr; · iapply (records_inv (Rd m) K (peer c 4, .inl ())); iexact Hrec
    isplitl [HO]; · iexact HO
    isplitl [Htb4]; · iexact Htb4
    isplitl [Htm12]; · iexact Htm12
    isplitl [Hob4]; · iexact Hob4
    isplitr; · iapply (records_reached (Rd m) K (c, .inr (1, (11 : Off)))); iexact Hrec
    isplitr; · iapply (records_reached (Rd m) K (c, .inr (3, (11 : Off)))); iexact Hrec
    iapply (records_reached (Rd m) K (peer c 4, .inl ())); iexact Hrec
  iintro HO
  iapply (wp_sig m c _ (5 : Fin 16) (by decide) (dev5_eq c) (K (peer c 5, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1) W ftmp gout) $$ [HO Htb5 Htm11 Hob5]
  · isplitr; · iapply (records_inv (Rd m) K (peer c 5, .inl ())); iexact Hrec
    isplitl [HO]; · iexact HO
    isplitl [Htb5]; · iexact Htb5
    isplitl [Htm11]; · iexact Htm11
    isplitl [Hob5]; · iexact Hob5
    isplitr; · iapply (records_reached (Rd m) K (c, .inr (1, (10 : Off)))); iexact Hrec
    isplitr; · iapply (records_reached (Rd m) K (c, .inr (3, (10 : Off)))); iexact Hrec
    iapply (records_reached (Rd m) K (peer c 5, .inl ())); iexact Hrec
  iintro HO
  iapply (wp_sig m c _ (6 : Fin 16) (by decide) (dev6_eq c) (K (peer c 6, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1) W ftmp gout) $$ [HO Htb6 Htm10 Hob6]
  · isplitr; · iapply (records_inv (Rd m) K (peer c 6, .inl ())); iexact Hrec
    isplitl [HO]; · iexact HO
    isplitl [Htb6]; · iexact Htb6
    isplitl [Htm10]; · iexact Htm10
    isplitl [Hob6]; · iexact Hob6
    isplitr; · iapply (records_reached (Rd m) K (c, .inr (1, (9 : Off)))); iexact Hrec
    isplitr; · iapply (records_reached (Rd m) K (c, .inr (3, (9 : Off)))); iexact Hrec
    iapply (records_reached (Rd m) K (peer c 6, .inl ())); iexact Hrec
  iintro HO
  iapply (wp_sig m c _ (7 : Fin 16) (by decide) (dev7_eq c) (K (peer c 7, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1) W ftmp gout) $$ [HO Htb7 Htm9 Hob7]
  · isplitr; · iapply (records_inv (Rd m) K (peer c 7, .inl ())); iexact Hrec
    isplitl [HO]; · iexact HO
    isplitl [Htb7]; · iexact Htb7
    isplitl [Htm9]; · iexact Htm9
    isplitl [Hob7]; · iexact Hob7
    isplitr; · iapply (records_reached (Rd m) K (c, .inr (1, (8 : Off)))); iexact Hrec
    isplitr; · iapply (records_reached (Rd m) K (c, .inr (3, (8 : Off)))); iexact Hrec
    iapply (records_reached (Rd m) K (peer c 7, .inl ())); iexact Hrec
  iintro HO
  iapply (wp_sig m c _ (8 : Fin 16) (by decide) (dev8_eq c) (K (peer c 8, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1) W ftmp gout) $$ [HO Htb8 Htm8 Hob8]
  · isplitr; · iapply (records_inv (Rd m) K (peer c 8, .inl ())); iexact Hrec
    isplitl [HO]; · iexact HO
    isplitl [Htb8]; · iexact Htb8
    isplitl [Htm8]; · iexact Htm8
    isplitl [Hob8]; · iexact Hob8
    isplitr; · iapply (records_reached (Rd m) K (c, .inr (1, (7 : Off)))); iexact Hrec
    isplitr; · iapply (records_reached (Rd m) K (c, .inr (3, (7 : Off)))); iexact Hrec
    iapply (records_reached (Rd m) K (peer c 8, .inl ())); iexact Hrec
  iintro HO
  iapply (wp_sig m c _ (9 : Fin 16) (by decide) (dev9_eq c) (K (peer c 9, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1) W ftmp gout) $$ [HO Htb9 Htm7 Hob9]
  · isplitr; · iapply (records_inv (Rd m) K (peer c 9, .inl ())); iexact Hrec
    isplitl [HO]; · iexact HO
    isplitl [Htb9]; · iexact Htb9
    isplitl [Htm7]; · iexact Htm7
    isplitl [Hob9]; · iexact Hob9
    isplitr; · iapply (records_reached (Rd m) K (c, .inr (1, (6 : Off)))); iexact Hrec
    isplitr; · iapply (records_reached (Rd m) K (c, .inr (3, (6 : Off)))); iexact Hrec
    iapply (records_reached (Rd m) K (peer c 9, .inl ())); iexact Hrec
  iintro HO
  iapply (wp_sig m c _ (10 : Fin 16) (by decide) (dev10_eq c) (K (peer c 10, .inl ())) (OnestRsAg c + tallyAt (barCell (peer c 15)) () 1 + tallyAt (barCell (peer c 14)) () 1 + tallyAt (barCell (peer c 13)) () 1 + tallyAt (barCell (peer c 12)) () 1 + tallyAt (barCell (peer c 11)) () 1) W ftmp gout) $$ [HO Htb10 Htm6 Hob10]
  · isplitr; · iapply (records_inv (Rd m) K (peer c 10, .inl ())); iexact Hrec
    isplitl [HO]; · iexact HO
    isplitl [Htb10]; · iexact Htb10
    isplitl [Htm6]; · iexact Htm6
    isplitl [Hob10]; · iexact Hob10
    isplitr; · iapply (records_reached (Rd m) K (c, .inr (1, (5 : Off)))); iexact Hrec
    isplitr; · iapply (records_reached (Rd m) K (c, .inr (3, (5 : Off)))); iexact Hrec
    iapply (records_reached (Rd m) K (peer c 10, .inl ())); iexact Hrec
  iintro HO
  iapply (wp_sig m c _ (11 : Fin 16) (by decide) (dev11_eq c) (K (peer c 11, .inl ())) (OnestRsAg c + tallyAt (barCell (peer c 15)) () 1 + tallyAt (barCell (peer c 14)) () 1 + tallyAt (barCell (peer c 13)) () 1 + tallyAt (barCell (peer c 12)) () 1) W ftmp gout) $$ [HO Htb11 Htm5 Hob11]
  · isplitr; · iapply (records_inv (Rd m) K (peer c 11, .inl ())); iexact Hrec
    isplitl [HO]; · iexact HO
    isplitl [Htb11]; · iexact Htb11
    isplitl [Htm5]; · iexact Htm5
    isplitl [Hob11]; · iexact Hob11
    isplitr; · iapply (records_reached (Rd m) K (c, .inr (1, (4 : Off)))); iexact Hrec
    isplitr; · iapply (records_reached (Rd m) K (c, .inr (3, (4 : Off)))); iexact Hrec
    iapply (records_reached (Rd m) K (peer c 11, .inl ())); iexact Hrec
  iintro HO
  iapply (wp_sig m c _ (12 : Fin 16) (by decide) (dev12_eq c) (K (peer c 12, .inl ())) (OnestRsAg c + tallyAt (barCell (peer c 15)) () 1 + tallyAt (barCell (peer c 14)) () 1 + tallyAt (barCell (peer c 13)) () 1) W ftmp gout) $$ [HO Htb12 Htm4 Hob12]
  · isplitr; · iapply (records_inv (Rd m) K (peer c 12, .inl ())); iexact Hrec
    isplitl [HO]; · iexact HO
    isplitl [Htb12]; · iexact Htb12
    isplitl [Htm4]; · iexact Htm4
    isplitl [Hob12]; · iexact Hob12
    isplitr; · iapply (records_reached (Rd m) K (c, .inr (1, (3 : Off)))); iexact Hrec
    isplitr; · iapply (records_reached (Rd m) K (c, .inr (3, (3 : Off)))); iexact Hrec
    iapply (records_reached (Rd m) K (peer c 12, .inl ())); iexact Hrec
  iintro HO
  iapply (wp_sig m c _ (13 : Fin 16) (by decide) (dev13_eq c) (K (peer c 13, .inl ())) (OnestRsAg c + tallyAt (barCell (peer c 15)) () 1 + tallyAt (barCell (peer c 14)) () 1) W ftmp gout) $$ [HO Htb13 Htm3 Hob13]
  · isplitr; · iapply (records_inv (Rd m) K (peer c 13, .inl ())); iexact Hrec
    isplitl [HO]; · iexact HO
    isplitl [Htb13]; · iexact Htb13
    isplitl [Htm3]; · iexact Htm3
    isplitl [Hob13]; · iexact Hob13
    isplitr; · iapply (records_reached (Rd m) K (c, .inr (1, (2 : Off)))); iexact Hrec
    isplitr; · iapply (records_reached (Rd m) K (c, .inr (3, (2 : Off)))); iexact Hrec
    iapply (records_reached (Rd m) K (peer c 13, .inl ())); iexact Hrec
  iintro HO
  iapply (wp_sig m c _ (14 : Fin 16) (by decide) (dev14_eq c) (K (peer c 14, .inl ())) (OnestRsAg c + tallyAt (barCell (peer c 15)) () 1) W ftmp gout) $$ [HO Htb14 Htm2 Hob14]
  · isplitr; · iapply (records_inv (Rd m) K (peer c 14, .inl ())); iexact Hrec
    isplitl [HO]; · iexact HO
    isplitl [Htb14]; · iexact Htb14
    isplitl [Htm2]; · iexact Htm2
    isplitl [Hob14]; · iexact Hob14
    isplitr; · iapply (records_reached (Rd m) K (c, .inr (1, (1 : Off)))); iexact Hrec
    isplitr; · iapply (records_reached (Rd m) K (c, .inr (3, (1 : Off)))); iexact Hrec
    iapply (records_reached (Rd m) K (peer c 14, .inl ())); iexact Hrec
  iintro HO
  iapply (wp_sig m c _ (15 : Fin 16) (by decide) (dev15_eq c) (K (peer c 15, .inl ())) (OnestRsAg c) W ftmp gout) $$ [HO Htb15 Htm1 Hob15]
  · isplitr; · iapply (records_inv (Rd m) K (peer c 15, .inl ())); iexact Hrec
    isplitl [HO]; · iexact HO
    isplitl [Htb15]; · iexact Htb15
    isplitl [Htm1]; · iexact Htm1
    isplitl [Hob15]; · iexact Hob15
    isplitr; · iapply (records_reached (Rd m) K (c, .inr (1, (0 : Off)))); iexact Hrec
    isplitr; · iapply (records_reached (Rd m) K (c, .inr (3, (0 : Off)))); iexact Hrec
    iapply (records_reached (Rd m) K (peer c 15, .inl ())); iexact Hrec
  iintro HO
  -- the three input blocks loaded, the partial product stored
  iapply (wp_compute_own m c facc _ _ _ _)
  isplitl [Hx]; · iexact Hx
  isplitl [Hkk]; · iexact Hkk
  isplitl [Hw]; · iexact Hw
  isplitl [Hacc]; · iexact Hacc
  iintro ⟨Hx, Hkk, Hw, Hacc⟩
  -- the wait for the fifteen peers' signals: each peer's slot and block to write come with it
  iapply (wp_bar_wait m c (K (c, .inl ())) (OnestRsAg c) W) $$ [HcB HO HatB]
  · isplitr; · iapply (records_inv (Rd m) K (c, .inl ())); iexact Hrec
    isplitl [HcB]; · iexact HcB
    isplitl [HO]; · iexact HO
    isplitr; · iapply (mayWait_bar c); iexact Hlev
    iexact HatB
  iintro ⟨HO, HatB, #HrB1, Hpays⟩
  unfold barPays peerPay
  icases Hpays with ⟨⟨⟨%t1, Ht1⟩, ⟨%u1, Hu1⟩, #Hrs1, #Hag1⟩, ⟨⟨%t2, Ht2⟩, ⟨%u2, Hu2⟩, #Hrs2, #Hag2⟩, ⟨⟨%t3, Ht3⟩, ⟨%u3, Hu3⟩, #Hrs3, #Hag3⟩, ⟨⟨%t4, Ht4⟩, ⟨%u4, Hu4⟩, #Hrs4, #Hag4⟩, ⟨⟨%t5, Ht5⟩, ⟨%u5, Hu5⟩, #Hrs5, #Hag5⟩, ⟨⟨%t6, Ht6⟩, ⟨%u6, Hu6⟩, #Hrs6, #Hag6⟩, ⟨⟨%t7, Ht7⟩, ⟨%u7, Hu7⟩, #Hrs7, #Hag7⟩, ⟨⟨%t8, Ht8⟩, ⟨%u8, Hu8⟩, #Hrs8, #Hag8⟩, ⟨⟨%t9, Ht9⟩, ⟨%u9, Hu9⟩, #Hrs9, #Hag9⟩, ⟨⟨%t10, Ht10⟩, ⟨%u10, Hu10⟩, #Hrs10, #Hag10⟩, ⟨⟨%t11, Ht11⟩, ⟨%u11, Hu11⟩, #Hrs11, #Hag11⟩, ⟨⟨%t12, Ht12⟩, ⟨%u12, Hu12⟩, #Hrs12, #Hag12⟩, ⟨⟨%t13, Ht13⟩, ⟨%u13, Hu13⟩, #Hrs13, #Hag13⟩, ⟨⟨%t14, Ht14⟩, ⟨%u14, Hu14⟩, #Hrs14, #Hag14⟩, ⟨⟨%t15, Ht15⟩, ⟨%u15, Hu15⟩, #Hrs15, #Hag15⟩⟩
  -- the partial-product buffer cut into the own row-block and the fifteen sources of the scatter copies
  ihave Hacc' := (acc_cut c (partialOf m c)) $$ Hacc
  icases Hacc' with ⟨Hao, Has1, Has2, Has3, Has4, Has5, Has6, Has7, Has8, Has9, Has10, Has11, Has12, Has13, Has14, Has15⟩
  -- the fifteen scatter copies: row-block (c + o) mod 16 into slot o of the device o places on
  iapply (wp_rs_copy m c _ (1 : Fin 16) (by decide) (dev16_eq c) (K (c, .inr (0, (0 : Off)))) (K (peer c 1, .inr (1, (0 : Off)))) t1 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N + tallyAt (rsRecvCell (peer c 7) 7) () N + tallyAt (rsRecvCell (peer c 6) 6) () N + tallyAt (rsRecvCell (peer c 5) 5) () N + tallyAt (rsRecvCell (peer c 4) 4) () N + tallyAt (rsRecvCell (peer c 3) 3) () N + tallyAt (rsRecvCell (peer c 2) 2) () N) _ (scatter_landing m c (1 : Fin 16) (by decide) t1)) $$ [Has1 Ht1 HO Hts1 Htr1]
  · isplitr; · iapply (records_inv (Rd m) K (c, .inr (0, (0 : Off)))); iexact Hrec
    isplitr; · iapply (records_inv (Rd m) K (peer c 1, .inr (1, (0 : Off)))); iexact Hrec
    isplitl [Has1]; · iexact Has1
    isplitl [Ht1]; · iexact Ht1
    isplitl [HO]; · iexact HO
    isplitl [Hts1]; · iexact Hts1
    isplitr; · iapply (records_reached (Rd m) K (c, .inr (0, (0 : Off)))); iexact Hrec
    isplitl [Htr1]; · iexact Htr1
    iexact Hrs1
  iintro ⟨Hcs1, HO⟩
  iapply (wp_rs_copy m c _ (2 : Fin 16) (by decide) (dev17_eq c) (K (c, .inr (0, (1 : Off)))) (K (peer c 2, .inr (1, (1 : Off)))) t2 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N + tallyAt (rsRecvCell (peer c 7) 7) () N + tallyAt (rsRecvCell (peer c 6) 6) () N + tallyAt (rsRecvCell (peer c 5) 5) () N + tallyAt (rsRecvCell (peer c 4) 4) () N + tallyAt (rsRecvCell (peer c 3) 3) () N) _ (scatter_landing m c (2 : Fin 16) (by decide) t2)) $$ [Has2 Ht2 HO Hts2 Htr2]
  · isplitr; · iapply (records_inv (Rd m) K (c, .inr (0, (1 : Off)))); iexact Hrec
    isplitr; · iapply (records_inv (Rd m) K (peer c 2, .inr (1, (1 : Off)))); iexact Hrec
    isplitl [Has2]; · iexact Has2
    isplitl [Ht2]; · iexact Ht2
    isplitl [HO]; · iexact HO
    isplitl [Hts2]; · iexact Hts2
    isplitr; · iapply (records_reached (Rd m) K (c, .inr (0, (1 : Off)))); iexact Hrec
    isplitl [Htr2]; · iexact Htr2
    iexact Hrs2
  iintro ⟨Hcs2, HO⟩
  iapply (wp_rs_copy m c _ (3 : Fin 16) (by decide) (dev18_eq c) (K (c, .inr (0, (2 : Off)))) (K (peer c 3, .inr (1, (2 : Off)))) t3 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N + tallyAt (rsRecvCell (peer c 7) 7) () N + tallyAt (rsRecvCell (peer c 6) 6) () N + tallyAt (rsRecvCell (peer c 5) 5) () N + tallyAt (rsRecvCell (peer c 4) 4) () N) _ (scatter_landing m c (3 : Fin 16) (by decide) t3)) $$ [Has3 Ht3 HO Hts3 Htr3]
  · isplitr; · iapply (records_inv (Rd m) K (c, .inr (0, (2 : Off)))); iexact Hrec
    isplitr; · iapply (records_inv (Rd m) K (peer c 3, .inr (1, (2 : Off)))); iexact Hrec
    isplitl [Has3]; · iexact Has3
    isplitl [Ht3]; · iexact Ht3
    isplitl [HO]; · iexact HO
    isplitl [Hts3]; · iexact Hts3
    isplitr; · iapply (records_reached (Rd m) K (c, .inr (0, (2 : Off)))); iexact Hrec
    isplitl [Htr3]; · iexact Htr3
    iexact Hrs3
  iintro ⟨Hcs3, HO⟩
  iapply (wp_rs_copy m c _ (4 : Fin 16) (by decide) (dev19_eq c) (K (c, .inr (0, (3 : Off)))) (K (peer c 4, .inr (1, (3 : Off)))) t4 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N + tallyAt (rsRecvCell (peer c 7) 7) () N + tallyAt (rsRecvCell (peer c 6) 6) () N + tallyAt (rsRecvCell (peer c 5) 5) () N) _ (scatter_landing m c (4 : Fin 16) (by decide) t4)) $$ [Has4 Ht4 HO Hts4 Htr4]
  · isplitr; · iapply (records_inv (Rd m) K (c, .inr (0, (3 : Off)))); iexact Hrec
    isplitr; · iapply (records_inv (Rd m) K (peer c 4, .inr (1, (3 : Off)))); iexact Hrec
    isplitl [Has4]; · iexact Has4
    isplitl [Ht4]; · iexact Ht4
    isplitl [HO]; · iexact HO
    isplitl [Hts4]; · iexact Hts4
    isplitr; · iapply (records_reached (Rd m) K (c, .inr (0, (3 : Off)))); iexact Hrec
    isplitl [Htr4]; · iexact Htr4
    iexact Hrs4
  iintro ⟨Hcs4, HO⟩
  iapply (wp_rs_copy m c _ (5 : Fin 16) (by decide) (dev20_eq c) (K (c, .inr (0, (4 : Off)))) (K (peer c 5, .inr (1, (4 : Off)))) t5 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N + tallyAt (rsRecvCell (peer c 7) 7) () N + tallyAt (rsRecvCell (peer c 6) 6) () N) _ (scatter_landing m c (5 : Fin 16) (by decide) t5)) $$ [Has5 Ht5 HO Hts5 Htr5]
  · isplitr; · iapply (records_inv (Rd m) K (c, .inr (0, (4 : Off)))); iexact Hrec
    isplitr; · iapply (records_inv (Rd m) K (peer c 5, .inr (1, (4 : Off)))); iexact Hrec
    isplitl [Has5]; · iexact Has5
    isplitl [Ht5]; · iexact Ht5
    isplitl [HO]; · iexact HO
    isplitl [Hts5]; · iexact Hts5
    isplitr; · iapply (records_reached (Rd m) K (c, .inr (0, (4 : Off)))); iexact Hrec
    isplitl [Htr5]; · iexact Htr5
    iexact Hrs5
  iintro ⟨Hcs5, HO⟩
  iapply (wp_rs_copy m c _ (6 : Fin 16) (by decide) (dev21_eq c) (K (c, .inr (0, (5 : Off)))) (K (peer c 6, .inr (1, (5 : Off)))) t6 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N + tallyAt (rsRecvCell (peer c 7) 7) () N) _ (scatter_landing m c (6 : Fin 16) (by decide) t6)) $$ [Has6 Ht6 HO Hts6 Htr6]
  · isplitr; · iapply (records_inv (Rd m) K (c, .inr (0, (5 : Off)))); iexact Hrec
    isplitr; · iapply (records_inv (Rd m) K (peer c 6, .inr (1, (5 : Off)))); iexact Hrec
    isplitl [Has6]; · iexact Has6
    isplitl [Ht6]; · iexact Ht6
    isplitl [HO]; · iexact HO
    isplitl [Hts6]; · iexact Hts6
    isplitr; · iapply (records_reached (Rd m) K (c, .inr (0, (5 : Off)))); iexact Hrec
    isplitl [Htr6]; · iexact Htr6
    iexact Hrs6
  iintro ⟨Hcs6, HO⟩
  iapply (wp_rs_copy m c _ (7 : Fin 16) (by decide) (dev22_eq c) (K (c, .inr (0, (6 : Off)))) (K (peer c 7, .inr (1, (6 : Off)))) t7 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N + tallyAt (rsRecvCell (peer c 8) 8) () N) _ (scatter_landing m c (7 : Fin 16) (by decide) t7)) $$ [Has7 Ht7 HO Hts7 Htr7]
  · isplitr; · iapply (records_inv (Rd m) K (c, .inr (0, (6 : Off)))); iexact Hrec
    isplitr; · iapply (records_inv (Rd m) K (peer c 7, .inr (1, (6 : Off)))); iexact Hrec
    isplitl [Has7]; · iexact Has7
    isplitl [Ht7]; · iexact Ht7
    isplitl [HO]; · iexact HO
    isplitl [Hts7]; · iexact Hts7
    isplitr; · iapply (records_reached (Rd m) K (c, .inr (0, (6 : Off)))); iexact Hrec
    isplitl [Htr7]; · iexact Htr7
    iexact Hrs7
  iintro ⟨Hcs7, HO⟩
  iapply (wp_rs_copy m c _ (8 : Fin 16) (by decide) (dev23_eq c) (K (c, .inr (0, (7 : Off)))) (K (peer c 8, .inr (1, (7 : Off)))) t8 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N + tallyAt (rsRecvCell (peer c 9) 9) () N) _ (scatter_landing m c (8 : Fin 16) (by decide) t8)) $$ [Has8 Ht8 HO Hts8 Htr8]
  · isplitr; · iapply (records_inv (Rd m) K (c, .inr (0, (7 : Off)))); iexact Hrec
    isplitr; · iapply (records_inv (Rd m) K (peer c 8, .inr (1, (7 : Off)))); iexact Hrec
    isplitl [Has8]; · iexact Has8
    isplitl [Ht8]; · iexact Ht8
    isplitl [HO]; · iexact HO
    isplitl [Hts8]; · iexact Hts8
    isplitr; · iapply (records_reached (Rd m) K (c, .inr (0, (7 : Off)))); iexact Hrec
    isplitl [Htr8]; · iexact Htr8
    iexact Hrs8
  iintro ⟨Hcs8, HO⟩
  iapply (wp_rs_copy m c _ (9 : Fin 16) (by decide) (dev24_eq c) (K (c, .inr (0, (8 : Off)))) (K (peer c 9, .inr (1, (8 : Off)))) t9 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N + tallyAt (rsRecvCell (peer c 10) 10) () N) _ (scatter_landing m c (9 : Fin 16) (by decide) t9)) $$ [Has9 Ht9 HO Hts9 Htr9]
  · isplitr; · iapply (records_inv (Rd m) K (c, .inr (0, (8 : Off)))); iexact Hrec
    isplitr; · iapply (records_inv (Rd m) K (peer c 9, .inr (1, (8 : Off)))); iexact Hrec
    isplitl [Has9]; · iexact Has9
    isplitl [Ht9]; · iexact Ht9
    isplitl [HO]; · iexact HO
    isplitl [Hts9]; · iexact Hts9
    isplitr; · iapply (records_reached (Rd m) K (c, .inr (0, (8 : Off)))); iexact Hrec
    isplitl [Htr9]; · iexact Htr9
    iexact Hrs9
  iintro ⟨Hcs9, HO⟩
  iapply (wp_rs_copy m c _ (10 : Fin 16) (by decide) (dev25_eq c) (K (c, .inr (0, (9 : Off)))) (K (peer c 10, .inr (1, (9 : Off)))) t10 (OnestAg c + tallyAt (rsRecvCell (peer c 15) 15) () N + tallyAt (rsRecvCell (peer c 14) 14) () N + tallyAt (rsRecvCell (peer c 13) 13) () N + tallyAt (rsRecvCell (peer c 12) 12) () N + tallyAt (rsRecvCell (peer c 11) 11) () N) _ (scatter_landing m c (10 : Fin 16) (by decide) t10)) $$ [Has10 Ht10 HO Hts10 Htr10]
  · isplitr; · iapply (records_inv (Rd m) K (c, .inr (0, (9 : Off)))); iexact Hrec
    isplitr; · iapply (records_inv (Rd m) K (peer c 10, .inr (1, (9 : Off)))); iexact Hrec
    isplitl [Has10]; · iexact Has10
    isplitl [Ht10]; · iexact Ht10
    isplitl [HO]; · iexact HO
    isplitl [Hts10]; · iexact Hts10
    isplitr; · iapply (records_reached (Rd m) K (c, .inr (0, (9 : Off)))); iexact Hrec
    isplitl [Htr10]; · iexact Htr10
    iexact Hrs10
  iintro ⟨Hcs10, HO⟩
  iapply (wp_rs_copy m c _ (11 : Fin 16) (by decide) (dev26_eq c) (K (c, .inr (0, (10 : Off)))) (K (peer c 11, .inr (1, (10 : Off)))) t11 (OnestAg c + tallyAt (rsRecvCell (peer c 15) 15) () N + tallyAt (rsRecvCell (peer c 14) 14) () N + tallyAt (rsRecvCell (peer c 13) 13) () N + tallyAt (rsRecvCell (peer c 12) 12) () N) _ (scatter_landing m c (11 : Fin 16) (by decide) t11)) $$ [Has11 Ht11 HO Hts11 Htr11]
  · isplitr; · iapply (records_inv (Rd m) K (c, .inr (0, (10 : Off)))); iexact Hrec
    isplitr; · iapply (records_inv (Rd m) K (peer c 11, .inr (1, (10 : Off)))); iexact Hrec
    isplitl [Has11]; · iexact Has11
    isplitl [Ht11]; · iexact Ht11
    isplitl [HO]; · iexact HO
    isplitl [Hts11]; · iexact Hts11
    isplitr; · iapply (records_reached (Rd m) K (c, .inr (0, (10 : Off)))); iexact Hrec
    isplitl [Htr11]; · iexact Htr11
    iexact Hrs11
  iintro ⟨Hcs11, HO⟩
  iapply (wp_rs_copy m c _ (12 : Fin 16) (by decide) (dev27_eq c) (K (c, .inr (0, (11 : Off)))) (K (peer c 12, .inr (1, (11 : Off)))) t12 (OnestAg c + tallyAt (rsRecvCell (peer c 15) 15) () N + tallyAt (rsRecvCell (peer c 14) 14) () N + tallyAt (rsRecvCell (peer c 13) 13) () N) _ (scatter_landing m c (12 : Fin 16) (by decide) t12)) $$ [Has12 Ht12 HO Hts12 Htr12]
  · isplitr; · iapply (records_inv (Rd m) K (c, .inr (0, (11 : Off)))); iexact Hrec
    isplitr; · iapply (records_inv (Rd m) K (peer c 12, .inr (1, (11 : Off)))); iexact Hrec
    isplitl [Has12]; · iexact Has12
    isplitl [Ht12]; · iexact Ht12
    isplitl [HO]; · iexact HO
    isplitl [Hts12]; · iexact Hts12
    isplitr; · iapply (records_reached (Rd m) K (c, .inr (0, (11 : Off)))); iexact Hrec
    isplitl [Htr12]; · iexact Htr12
    iexact Hrs12
  iintro ⟨Hcs12, HO⟩
  iapply (wp_rs_copy m c _ (13 : Fin 16) (by decide) (dev28_eq c) (K (c, .inr (0, (12 : Off)))) (K (peer c 13, .inr (1, (12 : Off)))) t13 (OnestAg c + tallyAt (rsRecvCell (peer c 15) 15) () N + tallyAt (rsRecvCell (peer c 14) 14) () N) _ (scatter_landing m c (13 : Fin 16) (by decide) t13)) $$ [Has13 Ht13 HO Hts13 Htr13]
  · isplitr; · iapply (records_inv (Rd m) K (c, .inr (0, (12 : Off)))); iexact Hrec
    isplitr; · iapply (records_inv (Rd m) K (peer c 13, .inr (1, (12 : Off)))); iexact Hrec
    isplitl [Has13]; · iexact Has13
    isplitl [Ht13]; · iexact Ht13
    isplitl [HO]; · iexact HO
    isplitl [Hts13]; · iexact Hts13
    isplitr; · iapply (records_reached (Rd m) K (c, .inr (0, (12 : Off)))); iexact Hrec
    isplitl [Htr13]; · iexact Htr13
    iexact Hrs13
  iintro ⟨Hcs13, HO⟩
  iapply (wp_rs_copy m c _ (14 : Fin 16) (by decide) (dev29_eq c) (K (c, .inr (0, (13 : Off)))) (K (peer c 14, .inr (1, (13 : Off)))) t14 (OnestAg c + tallyAt (rsRecvCell (peer c 15) 15) () N) _ (scatter_landing m c (14 : Fin 16) (by decide) t14)) $$ [Has14 Ht14 HO Hts14 Htr14]
  · isplitr; · iapply (records_inv (Rd m) K (c, .inr (0, (13 : Off)))); iexact Hrec
    isplitr; · iapply (records_inv (Rd m) K (peer c 14, .inr (1, (13 : Off)))); iexact Hrec
    isplitl [Has14]; · iexact Has14
    isplitl [Ht14]; · iexact Ht14
    isplitl [HO]; · iexact HO
    isplitl [Hts14]; · iexact Hts14
    isplitr; · iapply (records_reached (Rd m) K (c, .inr (0, (13 : Off)))); iexact Hrec
    isplitl [Htr14]; · iexact Htr14
    iexact Hrs14
  iintro ⟨Hcs14, HO⟩
  iapply (wp_rs_copy m c _ (15 : Fin 16) (by decide) (dev30_eq c) (K (c, .inr (0, (14 : Off)))) (K (peer c 15, .inr (1, (14 : Off)))) t15 (OnestAg c) _ (scatter_landing m c (15 : Fin 16) (by decide) t15)) $$ [Has15 Ht15 HO Hts15 Htr15]
  · isplitr; · iapply (records_inv (Rd m) K (c, .inr (0, (14 : Off)))); iexact Hrec
    isplitr; · iapply (records_inv (Rd m) K (peer c 15, .inr (1, (14 : Off)))); iexact Hrec
    isplitl [Has15]; · iexact Has15
    isplitl [Ht15]; · iexact Ht15
    isplitl [HO]; · iexact HO
    isplitl [Hts15]; · iexact Hts15
    isplitr; · iapply (records_reached (Rd m) K (c, .inr (0, (14 : Off)))); iexact Hrec
    isplitl [Htr15]; · iexact Htr15
    iexact Hrs15
  iintro ⟨Hcs15, HO⟩
  -- the device's own row-block
  iapply (wp_load_own m c fullShare)
  isplitl [Hao]; · iexact Hao
  iintro Hao
  -- each landed block, as its wait passes
  iapply (wp_rsRecv_wait m c (1 : Fin 16) (by decide) (w := TpuEff.waitDma2 (rsRecv (1 : Fin 16)) (accSrc c (1 : Fin 16)) (tmpRow (1 : Fin 16)) _ _) (wpE_waitDma2_eq 𝒱₀ (c : Thread nD τ) none Set.univ) (K (c, .inr (1, (0 : Off)))) (OnestAg c) _) $$ [Hcr1 HO Hpr1]
  · isplitr; · iapply (records_inv (Rd m) K (c, .inr (1, (0 : Off)))); iexact Hrec
    isplitl [Hcr1]; · iexact Hcr1
    isplitl [HO]; · iexact HO
    isplitr; · iapply (mayWait_rsRecv c (1 : Fin 16)); iexact Hlev
    iexact Hpr1
  iintro ⟨HO, Hpr1, -, Hland1⟩
  ihave Hland1 := (Entails.of_eq (show (rsRecvPay m c (1 : Fin 16) : sProp 𝕄) = ptsAt c (tmpRow ⟨1, by decide⟩) fullShare (tmpBufAt m c ⟨1, by decide⟩) from rfl)) $$ Hland1
  iapply (wp_load_slot m c 1 (by decide) _)
  isplitl [Hland1]; · iexact Hland1
  iintro Hland1
  iapply (wp_rsRecv_wait m c (2 : Fin 16) (by decide) (w := TpuEff.waitDma2 (rsRecv (2 : Fin 16)) (accSrc c (2 : Fin 16)) (tmpRow (2 : Fin 16)) _ _) (wpE_waitDma2_eq 𝒱₀ (c : Thread nD τ) none Set.univ) (K (c, .inr (1, (1 : Off)))) (OnestAg c) _) $$ [Hcr2 HO Hpr2]
  · isplitr; · iapply (records_inv (Rd m) K (c, .inr (1, (1 : Off)))); iexact Hrec
    isplitl [Hcr2]; · iexact Hcr2
    isplitl [HO]; · iexact HO
    isplitr; · iapply (mayWait_rsRecv c (2 : Fin 16)); iexact Hlev
    iexact Hpr2
  iintro ⟨HO, Hpr2, -, Hland2⟩
  ihave Hland2 := (Entails.of_eq (show (rsRecvPay m c (2 : Fin 16) : sProp 𝕄) = ptsAt c (tmpRow ⟨2, by decide⟩) fullShare (tmpBufAt m c ⟨2, by decide⟩) from rfl)) $$ Hland2
  iapply (wp_load_slot m c 2 (by decide) _)
  isplitl [Hland2]; · iexact Hland2
  iintro Hland2
  iapply (wp_rsRecv_wait m c (3 : Fin 16) (by decide) (w := TpuEff.waitDma2 (rsRecv (3 : Fin 16)) (accSrc c (3 : Fin 16)) (tmpRow (3 : Fin 16)) _ _) (wpE_waitDma2_eq 𝒱₀ (c : Thread nD τ) none Set.univ) (K (c, .inr (1, (2 : Off)))) (OnestAg c) _) $$ [Hcr3 HO Hpr3]
  · isplitr; · iapply (records_inv (Rd m) K (c, .inr (1, (2 : Off)))); iexact Hrec
    isplitl [Hcr3]; · iexact Hcr3
    isplitl [HO]; · iexact HO
    isplitr; · iapply (mayWait_rsRecv c (3 : Fin 16)); iexact Hlev
    iexact Hpr3
  iintro ⟨HO, Hpr3, -, Hland3⟩
  ihave Hland3 := (Entails.of_eq (show (rsRecvPay m c (3 : Fin 16) : sProp 𝕄) = ptsAt c (tmpRow ⟨3, by decide⟩) fullShare (tmpBufAt m c ⟨3, by decide⟩) from rfl)) $$ Hland3
  iapply (wp_load_slot m c 3 (by decide) _)
  isplitl [Hland3]; · iexact Hland3
  iintro Hland3
  iapply (wp_rsRecv_wait m c (4 : Fin 16) (by decide) (w := TpuEff.waitDma2 (rsRecv (4 : Fin 16)) (accSrc c (4 : Fin 16)) (tmpRow (4 : Fin 16)) _ _) (wpE_waitDma2_eq 𝒱₀ (c : Thread nD τ) none Set.univ) (K (c, .inr (1, (3 : Off)))) (OnestAg c) _) $$ [Hcr4 HO Hpr4]
  · isplitr; · iapply (records_inv (Rd m) K (c, .inr (1, (3 : Off)))); iexact Hrec
    isplitl [Hcr4]; · iexact Hcr4
    isplitl [HO]; · iexact HO
    isplitr; · iapply (mayWait_rsRecv c (4 : Fin 16)); iexact Hlev
    iexact Hpr4
  iintro ⟨HO, Hpr4, -, Hland4⟩
  ihave Hland4 := (Entails.of_eq (show (rsRecvPay m c (4 : Fin 16) : sProp 𝕄) = ptsAt c (tmpRow ⟨4, by decide⟩) fullShare (tmpBufAt m c ⟨4, by decide⟩) from rfl)) $$ Hland4
  iapply (wp_load_slot m c 4 (by decide) _)
  isplitl [Hland4]; · iexact Hland4
  iintro Hland4
  iapply (wp_rsRecv_wait m c (5 : Fin 16) (by decide) (w := TpuEff.waitDma2 (rsRecv (5 : Fin 16)) (accSrc c (5 : Fin 16)) (tmpRow (5 : Fin 16)) _ _) (wpE_waitDma2_eq 𝒱₀ (c : Thread nD τ) none Set.univ) (K (c, .inr (1, (4 : Off)))) (OnestAg c) _) $$ [Hcr5 HO Hpr5]
  · isplitr; · iapply (records_inv (Rd m) K (c, .inr (1, (4 : Off)))); iexact Hrec
    isplitl [Hcr5]; · iexact Hcr5
    isplitl [HO]; · iexact HO
    isplitr; · iapply (mayWait_rsRecv c (5 : Fin 16)); iexact Hlev
    iexact Hpr5
  iintro ⟨HO, Hpr5, -, Hland5⟩
  ihave Hland5 := (Entails.of_eq (show (rsRecvPay m c (5 : Fin 16) : sProp 𝕄) = ptsAt c (tmpRow ⟨5, by decide⟩) fullShare (tmpBufAt m c ⟨5, by decide⟩) from rfl)) $$ Hland5
  iapply (wp_load_slot m c 5 (by decide) _)
  isplitl [Hland5]; · iexact Hland5
  iintro Hland5
  iapply (wp_rsRecv_wait m c (6 : Fin 16) (by decide) (w := TpuEff.waitDma2 (rsRecv (6 : Fin 16)) (accSrc c (6 : Fin 16)) (tmpRow (6 : Fin 16)) _ _) (wpE_waitDma2_eq 𝒱₀ (c : Thread nD τ) none Set.univ) (K (c, .inr (1, (5 : Off)))) (OnestAg c) _) $$ [Hcr6 HO Hpr6]
  · isplitr; · iapply (records_inv (Rd m) K (c, .inr (1, (5 : Off)))); iexact Hrec
    isplitl [Hcr6]; · iexact Hcr6
    isplitl [HO]; · iexact HO
    isplitr; · iapply (mayWait_rsRecv c (6 : Fin 16)); iexact Hlev
    iexact Hpr6
  iintro ⟨HO, Hpr6, -, Hland6⟩
  ihave Hland6 := (Entails.of_eq (show (rsRecvPay m c (6 : Fin 16) : sProp 𝕄) = ptsAt c (tmpRow ⟨6, by decide⟩) fullShare (tmpBufAt m c ⟨6, by decide⟩) from rfl)) $$ Hland6
  iapply (wp_load_slot m c 6 (by decide) _)
  isplitl [Hland6]; · iexact Hland6
  iintro Hland6
  iapply (wp_rsRecv_wait m c (7 : Fin 16) (by decide) (w := TpuEff.waitDma2 (rsRecv (7 : Fin 16)) (accSrc c (7 : Fin 16)) (tmpRow (7 : Fin 16)) _ _) (wpE_waitDma2_eq 𝒱₀ (c : Thread nD τ) none Set.univ) (K (c, .inr (1, (6 : Off)))) (OnestAg c) _) $$ [Hcr7 HO Hpr7]
  · isplitr; · iapply (records_inv (Rd m) K (c, .inr (1, (6 : Off)))); iexact Hrec
    isplitl [Hcr7]; · iexact Hcr7
    isplitl [HO]; · iexact HO
    isplitr; · iapply (mayWait_rsRecv c (7 : Fin 16)); iexact Hlev
    iexact Hpr7
  iintro ⟨HO, Hpr7, -, Hland7⟩
  ihave Hland7 := (Entails.of_eq (show (rsRecvPay m c (7 : Fin 16) : sProp 𝕄) = ptsAt c (tmpRow ⟨7, by decide⟩) fullShare (tmpBufAt m c ⟨7, by decide⟩) from rfl)) $$ Hland7
  iapply (wp_load_slot m c 7 (by decide) _)
  isplitl [Hland7]; · iexact Hland7
  iintro Hland7
  iapply (wp_rsRecv_wait m c (8 : Fin 16) (by decide) (w := TpuEff.waitDma2 (rsRecv (8 : Fin 16)) (accSrc c (8 : Fin 16)) (tmpRow (8 : Fin 16)) _ _) (wpE_waitDma2_eq 𝒱₀ (c : Thread nD τ) none Set.univ) (K (c, .inr (1, (7 : Off)))) (OnestAg c) _) $$ [Hcr8 HO Hpr8]
  · isplitr; · iapply (records_inv (Rd m) K (c, .inr (1, (7 : Off)))); iexact Hrec
    isplitl [Hcr8]; · iexact Hcr8
    isplitl [HO]; · iexact HO
    isplitr; · iapply (mayWait_rsRecv c (8 : Fin 16)); iexact Hlev
    iexact Hpr8
  iintro ⟨HO, Hpr8, -, Hland8⟩
  ihave Hland8 := (Entails.of_eq (show (rsRecvPay m c (8 : Fin 16) : sProp 𝕄) = ptsAt c (tmpRow ⟨8, by decide⟩) fullShare (tmpBufAt m c ⟨8, by decide⟩) from rfl)) $$ Hland8
  iapply (wp_load_slot m c 8 (by decide) _)
  isplitl [Hland8]; · iexact Hland8
  iintro Hland8
  iapply (wp_rsRecv_wait m c (9 : Fin 16) (by decide) (w := TpuEff.waitDma2 (rsRecv (9 : Fin 16)) (accSrc c (9 : Fin 16)) (tmpRow (9 : Fin 16)) _ _) (wpE_waitDma2_eq 𝒱₀ (c : Thread nD τ) none Set.univ) (K (c, .inr (1, (8 : Off)))) (OnestAg c) _) $$ [Hcr9 HO Hpr9]
  · isplitr; · iapply (records_inv (Rd m) K (c, .inr (1, (8 : Off)))); iexact Hrec
    isplitl [Hcr9]; · iexact Hcr9
    isplitl [HO]; · iexact HO
    isplitr; · iapply (mayWait_rsRecv c (9 : Fin 16)); iexact Hlev
    iexact Hpr9
  iintro ⟨HO, Hpr9, -, Hland9⟩
  ihave Hland9 := (Entails.of_eq (show (rsRecvPay m c (9 : Fin 16) : sProp 𝕄) = ptsAt c (tmpRow ⟨9, by decide⟩) fullShare (tmpBufAt m c ⟨9, by decide⟩) from rfl)) $$ Hland9
  iapply (wp_load_slot m c 9 (by decide) _)
  isplitl [Hland9]; · iexact Hland9
  iintro Hland9
  iapply (wp_rsRecv_wait m c (10 : Fin 16) (by decide) (w := TpuEff.waitDma2 (rsRecv (10 : Fin 16)) (accSrc c (10 : Fin 16)) (tmpRow (10 : Fin 16)) _ _) (wpE_waitDma2_eq 𝒱₀ (c : Thread nD τ) none Set.univ) (K (c, .inr (1, (9 : Off)))) (OnestAg c) _) $$ [Hcr10 HO Hpr10]
  · isplitr; · iapply (records_inv (Rd m) K (c, .inr (1, (9 : Off)))); iexact Hrec
    isplitl [Hcr10]; · iexact Hcr10
    isplitl [HO]; · iexact HO
    isplitr; · iapply (mayWait_rsRecv c (10 : Fin 16)); iexact Hlev
    iexact Hpr10
  iintro ⟨HO, Hpr10, -, Hland10⟩
  ihave Hland10 := (Entails.of_eq (show (rsRecvPay m c (10 : Fin 16) : sProp 𝕄) = ptsAt c (tmpRow ⟨10, by decide⟩) fullShare (tmpBufAt m c ⟨10, by decide⟩) from rfl)) $$ Hland10
  iapply (wp_load_slot m c 10 (by decide) _)
  isplitl [Hland10]; · iexact Hland10
  iintro Hland10
  iapply (wp_rsRecv_wait m c (11 : Fin 16) (by decide) (w := TpuEff.waitDma2 (rsRecv (11 : Fin 16)) (accSrc c (11 : Fin 16)) (tmpRow (11 : Fin 16)) _ _) (wpE_waitDma2_eq 𝒱₀ (c : Thread nD τ) none Set.univ) (K (c, .inr (1, (10 : Off)))) (OnestAg c) _) $$ [Hcr11 HO Hpr11]
  · isplitr; · iapply (records_inv (Rd m) K (c, .inr (1, (10 : Off)))); iexact Hrec
    isplitl [Hcr11]; · iexact Hcr11
    isplitl [HO]; · iexact HO
    isplitr; · iapply (mayWait_rsRecv c (11 : Fin 16)); iexact Hlev
    iexact Hpr11
  iintro ⟨HO, Hpr11, -, Hland11⟩
  ihave Hland11 := (Entails.of_eq (show (rsRecvPay m c (11 : Fin 16) : sProp 𝕄) = ptsAt c (tmpRow ⟨11, by decide⟩) fullShare (tmpBufAt m c ⟨11, by decide⟩) from rfl)) $$ Hland11
  iapply (wp_load_slot m c 11 (by decide) _)
  isplitl [Hland11]; · iexact Hland11
  iintro Hland11
  iapply (wp_rsRecv_wait m c (12 : Fin 16) (by decide) (w := TpuEff.waitDma2 (rsRecv (12 : Fin 16)) (accSrc c (12 : Fin 16)) (tmpRow (12 : Fin 16)) _ _) (wpE_waitDma2_eq 𝒱₀ (c : Thread nD τ) none Set.univ) (K (c, .inr (1, (11 : Off)))) (OnestAg c) _) $$ [Hcr12 HO Hpr12]
  · isplitr; · iapply (records_inv (Rd m) K (c, .inr (1, (11 : Off)))); iexact Hrec
    isplitl [Hcr12]; · iexact Hcr12
    isplitl [HO]; · iexact HO
    isplitr; · iapply (mayWait_rsRecv c (12 : Fin 16)); iexact Hlev
    iexact Hpr12
  iintro ⟨HO, Hpr12, -, Hland12⟩
  ihave Hland12 := (Entails.of_eq (show (rsRecvPay m c (12 : Fin 16) : sProp 𝕄) = ptsAt c (tmpRow ⟨12, by decide⟩) fullShare (tmpBufAt m c ⟨12, by decide⟩) from rfl)) $$ Hland12
  iapply (wp_load_slot m c 12 (by decide) _)
  isplitl [Hland12]; · iexact Hland12
  iintro Hland12
  iapply (wp_rsRecv_wait m c (13 : Fin 16) (by decide) (w := TpuEff.waitDma2 (rsRecv (13 : Fin 16)) (accSrc c (13 : Fin 16)) (tmpRow (13 : Fin 16)) _ _) (wpE_waitDma2_eq 𝒱₀ (c : Thread nD τ) none Set.univ) (K (c, .inr (1, (12 : Off)))) (OnestAg c) _) $$ [Hcr13 HO Hpr13]
  · isplitr; · iapply (records_inv (Rd m) K (c, .inr (1, (12 : Off)))); iexact Hrec
    isplitl [Hcr13]; · iexact Hcr13
    isplitl [HO]; · iexact HO
    isplitr; · iapply (mayWait_rsRecv c (13 : Fin 16)); iexact Hlev
    iexact Hpr13
  iintro ⟨HO, Hpr13, -, Hland13⟩
  ihave Hland13 := (Entails.of_eq (show (rsRecvPay m c (13 : Fin 16) : sProp 𝕄) = ptsAt c (tmpRow ⟨13, by decide⟩) fullShare (tmpBufAt m c ⟨13, by decide⟩) from rfl)) $$ Hland13
  iapply (wp_load_slot m c 13 (by decide) _)
  isplitl [Hland13]; · iexact Hland13
  iintro Hland13
  iapply (wp_rsRecv_wait m c (14 : Fin 16) (by decide) (w := TpuEff.waitDma2 (rsRecv (14 : Fin 16)) (accSrc c (14 : Fin 16)) (tmpRow (14 : Fin 16)) _ _) (wpE_waitDma2_eq 𝒱₀ (c : Thread nD τ) none Set.univ) (K (c, .inr (1, (13 : Off)))) (OnestAg c) _) $$ [Hcr14 HO Hpr14]
  · isplitr; · iapply (records_inv (Rd m) K (c, .inr (1, (13 : Off)))); iexact Hrec
    isplitl [Hcr14]; · iexact Hcr14
    isplitl [HO]; · iexact HO
    isplitr; · iapply (mayWait_rsRecv c (14 : Fin 16)); iexact Hlev
    iexact Hpr14
  iintro ⟨HO, Hpr14, -, Hland14⟩
  ihave Hland14 := (Entails.of_eq (show (rsRecvPay m c (14 : Fin 16) : sProp 𝕄) = ptsAt c (tmpRow ⟨14, by decide⟩) fullShare (tmpBufAt m c ⟨14, by decide⟩) from rfl)) $$ Hland14
  iapply (wp_load_slot m c 14 (by decide) _)
  isplitl [Hland14]; · iexact Hland14
  iintro Hland14
  iapply (wp_rsRecv_wait m c (15 : Fin 16) (by decide) (w := TpuEff.waitDma2 (rsRecv (15 : Fin 16)) (accSrc c (15 : Fin 16)) (tmpRow (15 : Fin 16)) _ _) (wpE_waitDma2_eq 𝒱₀ (c : Thread nD τ) none Set.univ) (K (c, .inr (1, (14 : Off)))) (OnestAg c) _) $$ [Hcr15 HO Hpr15]
  · isplitr; · iapply (records_inv (Rd m) K (c, .inr (1, (14 : Off)))); iexact Hrec
    isplitl [Hcr15]; · iexact Hcr15
    isplitl [HO]; · iexact HO
    isplitr; · iapply (mayWait_rsRecv c (15 : Fin 16)); iexact Hlev
    iexact Hpr15
  iintro ⟨HO, Hpr15, -, Hland15⟩
  ihave Hland15 := (Entails.of_eq (show (rsRecvPay m c (15 : Fin 16) : sProp 𝕄) = ptsAt c (tmpRow ⟨15, by decide⟩) fullShare (tmpBufAt m c ⟨15, by decide⟩) from rfl)) $$ Hland15
  iapply (wp_load_slot m c 15 (by decide) _)
  isplitl [Hland15]; · iexact Hland15
  iintro Hland15
  -- the sum stored as the device's own block of the result
  iapply (wp_store_sum m c gout)
  isplitl [Hoo]; · iexact Hoo
  iintro Hoo
  -- the device's own block read by the fifteen gather copies at once: its share split in fifteen
  ihave Hoo' := (own_shares_cut c (outBufAt m c c)) $$ Hoo
  icases Hoo' with ⟨Hsh1, Hsh2, Hsh3, Hsh4, Hsh5, Hsh6, Hsh7, Hsh8, Hsh9, Hsh10, Hsh11, Hsh12, Hsh13, Hsh14, Hsh15⟩
  -- the fifteen gather copies: the device's own block into block c of the device o places on
  iapply (wp_ag_copy m c _ (1 : Fin 16) (by decide) (dev31_eq c) (K (c, .inr (2, (0 : Off)))) (K (peer c 1, .inr (3, (0 : Off)))) u1 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N + tallyAt (agRecvCell (peer c 7) 7) () N + tallyAt (agRecvCell (peer c 6) 6) () N + tallyAt (agRecvCell (peer c 5) 5) () N + tallyAt (agRecvCell (peer c 4) 4) () N + tallyAt (agRecvCell (peer c 3) 3) () N + tallyAt (agRecvCell (peer c 2) 2) () N) _ (gather_landing m c (peer c 1) (outBufAt m c c) (fun _ _ => rfl) u1)) $$ [Hsh1 Hu1 HO Htas1 Htar1]
  · isplitr; · iapply (records_inv (Rd m) K (c, .inr (2, (0 : Off)))); iexact Hrec
    isplitr; · iapply (records_inv (Rd m) K (peer c 1, .inr (3, (0 : Off)))); iexact Hrec
    isplitl [Hsh1]; · iexact Hsh1
    isplitl [Hu1]; · iexact Hu1
    isplitl [HO]; · iexact HO
    isplitl [Htas1]; · iexact Htas1
    isplitr; · iapply (records_reached (Rd m) K (c, .inr (2, (0 : Off)))); iexact Hrec
    isplitl [Htar1]; · iexact Htar1
    iexact Hag1
  iintro ⟨Hcas1, HO⟩
  iapply (wp_ag_copy m c _ (2 : Fin 16) (by decide) (dev32_eq c) (K (c, .inr (2, (1 : Off)))) (K (peer c 2, .inr (3, (1 : Off)))) u2 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N + tallyAt (agRecvCell (peer c 7) 7) () N + tallyAt (agRecvCell (peer c 6) 6) () N + tallyAt (agRecvCell (peer c 5) 5) () N + tallyAt (agRecvCell (peer c 4) 4) () N + tallyAt (agRecvCell (peer c 3) 3) () N) _ (gather_landing m c (peer c 2) (outBufAt m c c) (fun _ _ => rfl) u2)) $$ [Hsh2 Hu2 HO Htas2 Htar2]
  · isplitr; · iapply (records_inv (Rd m) K (c, .inr (2, (1 : Off)))); iexact Hrec
    isplitr; · iapply (records_inv (Rd m) K (peer c 2, .inr (3, (1 : Off)))); iexact Hrec
    isplitl [Hsh2]; · iexact Hsh2
    isplitl [Hu2]; · iexact Hu2
    isplitl [HO]; · iexact HO
    isplitl [Htas2]; · iexact Htas2
    isplitr; · iapply (records_reached (Rd m) K (c, .inr (2, (1 : Off)))); iexact Hrec
    isplitl [Htar2]; · iexact Htar2
    iexact Hag2
  iintro ⟨Hcas2, HO⟩
  iapply (wp_ag_copy m c _ (3 : Fin 16) (by decide) (dev33_eq c) (K (c, .inr (2, (2 : Off)))) (K (peer c 3, .inr (3, (2 : Off)))) u3 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N + tallyAt (agRecvCell (peer c 7) 7) () N + tallyAt (agRecvCell (peer c 6) 6) () N + tallyAt (agRecvCell (peer c 5) 5) () N + tallyAt (agRecvCell (peer c 4) 4) () N) _ (gather_landing m c (peer c 3) (outBufAt m c c) (fun _ _ => rfl) u3)) $$ [Hsh3 Hu3 HO Htas3 Htar3]
  · isplitr; · iapply (records_inv (Rd m) K (c, .inr (2, (2 : Off)))); iexact Hrec
    isplitr; · iapply (records_inv (Rd m) K (peer c 3, .inr (3, (2 : Off)))); iexact Hrec
    isplitl [Hsh3]; · iexact Hsh3
    isplitl [Hu3]; · iexact Hu3
    isplitl [HO]; · iexact HO
    isplitl [Htas3]; · iexact Htas3
    isplitr; · iapply (records_reached (Rd m) K (c, .inr (2, (2 : Off)))); iexact Hrec
    isplitl [Htar3]; · iexact Htar3
    iexact Hag3
  iintro ⟨Hcas3, HO⟩
  iapply (wp_ag_copy m c _ (4 : Fin 16) (by decide) (dev34_eq c) (K (c, .inr (2, (3 : Off)))) (K (peer c 4, .inr (3, (3 : Off)))) u4 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N + tallyAt (agRecvCell (peer c 7) 7) () N + tallyAt (agRecvCell (peer c 6) 6) () N + tallyAt (agRecvCell (peer c 5) 5) () N) _ (gather_landing m c (peer c 4) (outBufAt m c c) (fun _ _ => rfl) u4)) $$ [Hsh4 Hu4 HO Htas4 Htar4]
  · isplitr; · iapply (records_inv (Rd m) K (c, .inr (2, (3 : Off)))); iexact Hrec
    isplitr; · iapply (records_inv (Rd m) K (peer c 4, .inr (3, (3 : Off)))); iexact Hrec
    isplitl [Hsh4]; · iexact Hsh4
    isplitl [Hu4]; · iexact Hu4
    isplitl [HO]; · iexact HO
    isplitl [Htas4]; · iexact Htas4
    isplitr; · iapply (records_reached (Rd m) K (c, .inr (2, (3 : Off)))); iexact Hrec
    isplitl [Htar4]; · iexact Htar4
    iexact Hag4
  iintro ⟨Hcas4, HO⟩
  iapply (wp_ag_copy m c _ (5 : Fin 16) (by decide) (dev35_eq c) (K (c, .inr (2, (4 : Off)))) (K (peer c 5, .inr (3, (4 : Off)))) u5 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N + tallyAt (agRecvCell (peer c 7) 7) () N + tallyAt (agRecvCell (peer c 6) 6) () N) _ (gather_landing m c (peer c 5) (outBufAt m c c) (fun _ _ => rfl) u5)) $$ [Hsh5 Hu5 HO Htas5 Htar5]
  · isplitr; · iapply (records_inv (Rd m) K (c, .inr (2, (4 : Off)))); iexact Hrec
    isplitr; · iapply (records_inv (Rd m) K (peer c 5, .inr (3, (4 : Off)))); iexact Hrec
    isplitl [Hsh5]; · iexact Hsh5
    isplitl [Hu5]; · iexact Hu5
    isplitl [HO]; · iexact HO
    isplitl [Htas5]; · iexact Htas5
    isplitr; · iapply (records_reached (Rd m) K (c, .inr (2, (4 : Off)))); iexact Hrec
    isplitl [Htar5]; · iexact Htar5
    iexact Hag5
  iintro ⟨Hcas5, HO⟩
  iapply (wp_ag_copy m c _ (6 : Fin 16) (by decide) (dev36_eq c) (K (c, .inr (2, (5 : Off)))) (K (peer c 6, .inr (3, (5 : Off)))) u6 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N + tallyAt (agRecvCell (peer c 7) 7) () N) _ (gather_landing m c (peer c 6) (outBufAt m c c) (fun _ _ => rfl) u6)) $$ [Hsh6 Hu6 HO Htas6 Htar6]
  · isplitr; · iapply (records_inv (Rd m) K (c, .inr (2, (5 : Off)))); iexact Hrec
    isplitr; · iapply (records_inv (Rd m) K (peer c 6, .inr (3, (5 : Off)))); iexact Hrec
    isplitl [Hsh6]; · iexact Hsh6
    isplitl [Hu6]; · iexact Hu6
    isplitl [HO]; · iexact HO
    isplitl [Htas6]; · iexact Htas6
    isplitr; · iapply (records_reached (Rd m) K (c, .inr (2, (5 : Off)))); iexact Hrec
    isplitl [Htar6]; · iexact Htar6
    iexact Hag6
  iintro ⟨Hcas6, HO⟩
  iapply (wp_ag_copy m c _ (7 : Fin 16) (by decide) (dev37_eq c) (K (c, .inr (2, (6 : Off)))) (K (peer c 7, .inr (3, (6 : Off)))) u7 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N + tallyAt (agRecvCell (peer c 8) 8) () N) _ (gather_landing m c (peer c 7) (outBufAt m c c) (fun _ _ => rfl) u7)) $$ [Hsh7 Hu7 HO Htas7 Htar7]
  · isplitr; · iapply (records_inv (Rd m) K (c, .inr (2, (6 : Off)))); iexact Hrec
    isplitr; · iapply (records_inv (Rd m) K (peer c 7, .inr (3, (6 : Off)))); iexact Hrec
    isplitl [Hsh7]; · iexact Hsh7
    isplitl [Hu7]; · iexact Hu7
    isplitl [HO]; · iexact HO
    isplitl [Htas7]; · iexact Htas7
    isplitr; · iapply (records_reached (Rd m) K (c, .inr (2, (6 : Off)))); iexact Hrec
    isplitl [Htar7]; · iexact Htar7
    iexact Hag7
  iintro ⟨Hcas7, HO⟩
  iapply (wp_ag_copy m c _ (8 : Fin 16) (by decide) (dev38_eq c) (K (c, .inr (2, (7 : Off)))) (K (peer c 8, .inr (3, (7 : Off)))) u8 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N + tallyAt (agRecvCell (peer c 9) 9) () N) _ (gather_landing m c (peer c 8) (outBufAt m c c) (fun _ _ => rfl) u8)) $$ [Hsh8 Hu8 HO Htas8 Htar8]
  · isplitr; · iapply (records_inv (Rd m) K (c, .inr (2, (7 : Off)))); iexact Hrec
    isplitr; · iapply (records_inv (Rd m) K (peer c 8, .inr (3, (7 : Off)))); iexact Hrec
    isplitl [Hsh8]; · iexact Hsh8
    isplitl [Hu8]; · iexact Hu8
    isplitl [HO]; · iexact HO
    isplitl [Htas8]; · iexact Htas8
    isplitr; · iapply (records_reached (Rd m) K (c, .inr (2, (7 : Off)))); iexact Hrec
    isplitl [Htar8]; · iexact Htar8
    iexact Hag8
  iintro ⟨Hcas8, HO⟩
  iapply (wp_ag_copy m c _ (9 : Fin 16) (by decide) (dev39_eq c) (K (c, .inr (2, (8 : Off)))) (K (peer c 9, .inr (3, (8 : Off)))) u9 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N + tallyAt (agRecvCell (peer c 10) 10) () N) _ (gather_landing m c (peer c 9) (outBufAt m c c) (fun _ _ => rfl) u9)) $$ [Hsh9 Hu9 HO Htas9 Htar9]
  · isplitr; · iapply (records_inv (Rd m) K (c, .inr (2, (8 : Off)))); iexact Hrec
    isplitr; · iapply (records_inv (Rd m) K (peer c 9, .inr (3, (8 : Off)))); iexact Hrec
    isplitl [Hsh9]; · iexact Hsh9
    isplitl [Hu9]; · iexact Hu9
    isplitl [HO]; · iexact HO
    isplitl [Htas9]; · iexact Htas9
    isplitr; · iapply (records_reached (Rd m) K (c, .inr (2, (8 : Off)))); iexact Hrec
    isplitl [Htar9]; · iexact Htar9
    iexact Hag9
  iintro ⟨Hcas9, HO⟩
  iapply (wp_ag_copy m c _ (10 : Fin 16) (by decide) (dev40_eq c) (K (c, .inr (2, (9 : Off)))) (K (peer c 10, .inr (3, (9 : Off)))) u10 ((0 : CellTallies nD τ sig Unit) + tallyAt (agRecvCell (peer c 15) 15) () N + tallyAt (agRecvCell (peer c 14) 14) () N + tallyAt (agRecvCell (peer c 13) 13) () N + tallyAt (agRecvCell (peer c 12) 12) () N + tallyAt (agRecvCell (peer c 11) 11) () N) _ (gather_landing m c (peer c 10) (outBufAt m c c) (fun _ _ => rfl) u10)) $$ [Hsh10 Hu10 HO Htas10 Htar10]
  · isplitr; · iapply (records_inv (Rd m) K (c, .inr (2, (9 : Off)))); iexact Hrec
    isplitr; · iapply (records_inv (Rd m) K (peer c 10, .inr (3, (9 : Off)))); iexact Hrec
    isplitl [Hsh10]; · iexact Hsh10
    isplitl [Hu10]; · iexact Hu10
    isplitl [HO]; · iexact HO
    isplitl [Htas10]; · iexact Htas10
    isplitr; · iapply (records_reached (Rd m) K (c, .inr (2, (9 : Off)))); iexact Hrec
    isplitl [Htar10]; · iexact Htar10
    iexact Hag10
  iintro ⟨Hcas10, HO⟩
  iapply (wp_ag_copy m c _ (11 : Fin 16) (by decide) (dev41_eq c) (K (c, .inr (2, (10 : Off)))) (K (peer c 11, .inr (3, (10 : Off)))) u11 ((0 : CellTallies nD τ sig Unit) + tallyAt (agRecvCell (peer c 15) 15) () N + tallyAt (agRecvCell (peer c 14) 14) () N + tallyAt (agRecvCell (peer c 13) 13) () N + tallyAt (agRecvCell (peer c 12) 12) () N) _ (gather_landing m c (peer c 11) (outBufAt m c c) (fun _ _ => rfl) u11)) $$ [Hsh11 Hu11 HO Htas11 Htar11]
  · isplitr; · iapply (records_inv (Rd m) K (c, .inr (2, (10 : Off)))); iexact Hrec
    isplitr; · iapply (records_inv (Rd m) K (peer c 11, .inr (3, (10 : Off)))); iexact Hrec
    isplitl [Hsh11]; · iexact Hsh11
    isplitl [Hu11]; · iexact Hu11
    isplitl [HO]; · iexact HO
    isplitl [Htas11]; · iexact Htas11
    isplitr; · iapply (records_reached (Rd m) K (c, .inr (2, (10 : Off)))); iexact Hrec
    isplitl [Htar11]; · iexact Htar11
    iexact Hag11
  iintro ⟨Hcas11, HO⟩
  iapply (wp_ag_copy m c _ (12 : Fin 16) (by decide) (dev42_eq c) (K (c, .inr (2, (11 : Off)))) (K (peer c 12, .inr (3, (11 : Off)))) u12 ((0 : CellTallies nD τ sig Unit) + tallyAt (agRecvCell (peer c 15) 15) () N + tallyAt (agRecvCell (peer c 14) 14) () N + tallyAt (agRecvCell (peer c 13) 13) () N) _ (gather_landing m c (peer c 12) (outBufAt m c c) (fun _ _ => rfl) u12)) $$ [Hsh12 Hu12 HO Htas12 Htar12]
  · isplitr; · iapply (records_inv (Rd m) K (c, .inr (2, (11 : Off)))); iexact Hrec
    isplitr; · iapply (records_inv (Rd m) K (peer c 12, .inr (3, (11 : Off)))); iexact Hrec
    isplitl [Hsh12]; · iexact Hsh12
    isplitl [Hu12]; · iexact Hu12
    isplitl [HO]; · iexact HO
    isplitl [Htas12]; · iexact Htas12
    isplitr; · iapply (records_reached (Rd m) K (c, .inr (2, (11 : Off)))); iexact Hrec
    isplitl [Htar12]; · iexact Htar12
    iexact Hag12
  iintro ⟨Hcas12, HO⟩
  iapply (wp_ag_copy m c _ (13 : Fin 16) (by decide) (dev43_eq c) (K (c, .inr (2, (12 : Off)))) (K (peer c 13, .inr (3, (12 : Off)))) u13 ((0 : CellTallies nD τ sig Unit) + tallyAt (agRecvCell (peer c 15) 15) () N + tallyAt (agRecvCell (peer c 14) 14) () N) _ (gather_landing m c (peer c 13) (outBufAt m c c) (fun _ _ => rfl) u13)) $$ [Hsh13 Hu13 HO Htas13 Htar13]
  · isplitr; · iapply (records_inv (Rd m) K (c, .inr (2, (12 : Off)))); iexact Hrec
    isplitr; · iapply (records_inv (Rd m) K (peer c 13, .inr (3, (12 : Off)))); iexact Hrec
    isplitl [Hsh13]; · iexact Hsh13
    isplitl [Hu13]; · iexact Hu13
    isplitl [HO]; · iexact HO
    isplitl [Htas13]; · iexact Htas13
    isplitr; · iapply (records_reached (Rd m) K (c, .inr (2, (12 : Off)))); iexact Hrec
    isplitl [Htar13]; · iexact Htar13
    iexact Hag13
  iintro ⟨Hcas13, HO⟩
  iapply (wp_ag_copy m c _ (14 : Fin 16) (by decide) (dev44_eq c) (K (c, .inr (2, (13 : Off)))) (K (peer c 14, .inr (3, (13 : Off)))) u14 ((0 : CellTallies nD τ sig Unit) + tallyAt (agRecvCell (peer c 15) 15) () N) _ (gather_landing m c (peer c 14) (outBufAt m c c) (fun _ _ => rfl) u14)) $$ [Hsh14 Hu14 HO Htas14 Htar14]
  · isplitr; · iapply (records_inv (Rd m) K (c, .inr (2, (13 : Off)))); iexact Hrec
    isplitr; · iapply (records_inv (Rd m) K (peer c 14, .inr (3, (13 : Off)))); iexact Hrec
    isplitl [Hsh14]; · iexact Hsh14
    isplitl [Hu14]; · iexact Hu14
    isplitl [HO]; · iexact HO
    isplitl [Htas14]; · iexact Htas14
    isplitr; · iapply (records_reached (Rd m) K (c, .inr (2, (13 : Off)))); iexact Hrec
    isplitl [Htar14]; · iexact Htar14
    iexact Hag14
  iintro ⟨Hcas14, HO⟩
  iapply (wp_ag_copy m c _ (15 : Fin 16) (by decide) (dev45_eq c) (K (c, .inr (2, (14 : Off)))) (K (peer c 15, .inr (3, (14 : Off)))) u15 ((0 : CellTallies nD τ sig Unit)) _ (gather_landing m c (peer c 15) (outBufAt m c c) (fun _ _ => rfl) u15)) $$ [Hsh15 Hu15 HO Htas15 Htar15]
  · isplitr; · iapply (records_inv (Rd m) K (c, .inr (2, (14 : Off)))); iexact Hrec
    isplitr; · iapply (records_inv (Rd m) K (peer c 15, .inr (3, (14 : Off)))); iexact Hrec
    isplitl [Hsh15]; · iexact Hsh15
    isplitl [Hu15]; · iexact Hu15
    isplitl [HO]; · iexact HO
    isplitl [Htas15]; · iexact Htas15
    isplitr; · iapply (records_reached (Rd m) K (c, .inr (2, (14 : Off)))); iexact Hrec
    isplitl [Htar15]; · iexact Htar15
    iexact Hag15
  iintro ⟨Hcas15, HO⟩
  -- the fifteen waits for the gathered blocks
  iapply (wp_agRecv_wait m c (1 : Fin 16) (by decide) (w := TpuEff.waitDma2 (agRecv (1 : Fin 16)) (outOwn c) (outOwn c) _ _) (wpE_waitDma2_eq 𝒱₀ (c : Thread nD τ) none Set.univ) (K (c, .inr (3, (0 : Off)))) (0 : CellTallies nD τ sig Unit) _) $$ [Hca1 HO Hpar1]
  · isplitr; · iapply (records_inv (Rd m) K (c, .inr (3, (0 : Off)))); iexact Hrec
    isplitl [Hca1]; · iexact Hca1
    isplitl [HO]; · iexact HO
    isplitr; · rw [MayWait_zero]; iempintro
    iexact Hpar1
  iintro ⟨HO, Hpar1, -, Hgot1⟩
  iapply (wp_agRecv_wait m c (2 : Fin 16) (by decide) (w := TpuEff.waitDma2 (agRecv (2 : Fin 16)) (outOwn c) (outOwn c) _ _) (wpE_waitDma2_eq 𝒱₀ (c : Thread nD τ) none Set.univ) (K (c, .inr (3, (1 : Off)))) (0 : CellTallies nD τ sig Unit) _) $$ [Hca2 HO Hpar2]
  · isplitr; · iapply (records_inv (Rd m) K (c, .inr (3, (1 : Off)))); iexact Hrec
    isplitl [Hca2]; · iexact Hca2
    isplitl [HO]; · iexact HO
    isplitr; · rw [MayWait_zero]; iempintro
    iexact Hpar2
  iintro ⟨HO, Hpar2, -, Hgot2⟩
  iapply (wp_agRecv_wait m c (3 : Fin 16) (by decide) (w := TpuEff.waitDma2 (agRecv (3 : Fin 16)) (outOwn c) (outOwn c) _ _) (wpE_waitDma2_eq 𝒱₀ (c : Thread nD τ) none Set.univ) (K (c, .inr (3, (2 : Off)))) (0 : CellTallies nD τ sig Unit) _) $$ [Hca3 HO Hpar3]
  · isplitr; · iapply (records_inv (Rd m) K (c, .inr (3, (2 : Off)))); iexact Hrec
    isplitl [Hca3]; · iexact Hca3
    isplitl [HO]; · iexact HO
    isplitr; · rw [MayWait_zero]; iempintro
    iexact Hpar3
  iintro ⟨HO, Hpar3, -, Hgot3⟩
  iapply (wp_agRecv_wait m c (4 : Fin 16) (by decide) (w := TpuEff.waitDma2 (agRecv (4 : Fin 16)) (outOwn c) (outOwn c) _ _) (wpE_waitDma2_eq 𝒱₀ (c : Thread nD τ) none Set.univ) (K (c, .inr (3, (3 : Off)))) (0 : CellTallies nD τ sig Unit) _) $$ [Hca4 HO Hpar4]
  · isplitr; · iapply (records_inv (Rd m) K (c, .inr (3, (3 : Off)))); iexact Hrec
    isplitl [Hca4]; · iexact Hca4
    isplitl [HO]; · iexact HO
    isplitr; · rw [MayWait_zero]; iempintro
    iexact Hpar4
  iintro ⟨HO, Hpar4, -, Hgot4⟩
  iapply (wp_agRecv_wait m c (5 : Fin 16) (by decide) (w := TpuEff.waitDma2 (agRecv (5 : Fin 16)) (outOwn c) (outOwn c) _ _) (wpE_waitDma2_eq 𝒱₀ (c : Thread nD τ) none Set.univ) (K (c, .inr (3, (4 : Off)))) (0 : CellTallies nD τ sig Unit) _) $$ [Hca5 HO Hpar5]
  · isplitr; · iapply (records_inv (Rd m) K (c, .inr (3, (4 : Off)))); iexact Hrec
    isplitl [Hca5]; · iexact Hca5
    isplitl [HO]; · iexact HO
    isplitr; · rw [MayWait_zero]; iempintro
    iexact Hpar5
  iintro ⟨HO, Hpar5, -, Hgot5⟩
  iapply (wp_agRecv_wait m c (6 : Fin 16) (by decide) (w := TpuEff.waitDma2 (agRecv (6 : Fin 16)) (outOwn c) (outOwn c) _ _) (wpE_waitDma2_eq 𝒱₀ (c : Thread nD τ) none Set.univ) (K (c, .inr (3, (5 : Off)))) (0 : CellTallies nD τ sig Unit) _) $$ [Hca6 HO Hpar6]
  · isplitr; · iapply (records_inv (Rd m) K (c, .inr (3, (5 : Off)))); iexact Hrec
    isplitl [Hca6]; · iexact Hca6
    isplitl [HO]; · iexact HO
    isplitr; · rw [MayWait_zero]; iempintro
    iexact Hpar6
  iintro ⟨HO, Hpar6, -, Hgot6⟩
  iapply (wp_agRecv_wait m c (7 : Fin 16) (by decide) (w := TpuEff.waitDma2 (agRecv (7 : Fin 16)) (outOwn c) (outOwn c) _ _) (wpE_waitDma2_eq 𝒱₀ (c : Thread nD τ) none Set.univ) (K (c, .inr (3, (6 : Off)))) (0 : CellTallies nD τ sig Unit) _) $$ [Hca7 HO Hpar7]
  · isplitr; · iapply (records_inv (Rd m) K (c, .inr (3, (6 : Off)))); iexact Hrec
    isplitl [Hca7]; · iexact Hca7
    isplitl [HO]; · iexact HO
    isplitr; · rw [MayWait_zero]; iempintro
    iexact Hpar7
  iintro ⟨HO, Hpar7, -, Hgot7⟩
  iapply (wp_agRecv_wait m c (8 : Fin 16) (by decide) (w := TpuEff.waitDma2 (agRecv (8 : Fin 16)) (outOwn c) (outOwn c) _ _) (wpE_waitDma2_eq 𝒱₀ (c : Thread nD τ) none Set.univ) (K (c, .inr (3, (7 : Off)))) (0 : CellTallies nD τ sig Unit) _) $$ [Hca8 HO Hpar8]
  · isplitr; · iapply (records_inv (Rd m) K (c, .inr (3, (7 : Off)))); iexact Hrec
    isplitl [Hca8]; · iexact Hca8
    isplitl [HO]; · iexact HO
    isplitr; · rw [MayWait_zero]; iempintro
    iexact Hpar8
  iintro ⟨HO, Hpar8, -, Hgot8⟩
  iapply (wp_agRecv_wait m c (9 : Fin 16) (by decide) (w := TpuEff.waitDma2 (agRecv (9 : Fin 16)) (outOwn c) (outOwn c) _ _) (wpE_waitDma2_eq 𝒱₀ (c : Thread nD τ) none Set.univ) (K (c, .inr (3, (8 : Off)))) (0 : CellTallies nD τ sig Unit) _) $$ [Hca9 HO Hpar9]
  · isplitr; · iapply (records_inv (Rd m) K (c, .inr (3, (8 : Off)))); iexact Hrec
    isplitl [Hca9]; · iexact Hca9
    isplitl [HO]; · iexact HO
    isplitr; · rw [MayWait_zero]; iempintro
    iexact Hpar9
  iintro ⟨HO, Hpar9, -, Hgot9⟩
  iapply (wp_agRecv_wait m c (10 : Fin 16) (by decide) (w := TpuEff.waitDma2 (agRecv (10 : Fin 16)) (outOwn c) (outOwn c) _ _) (wpE_waitDma2_eq 𝒱₀ (c : Thread nD τ) none Set.univ) (K (c, .inr (3, (9 : Off)))) (0 : CellTallies nD τ sig Unit) _) $$ [Hca10 HO Hpar10]
  · isplitr; · iapply (records_inv (Rd m) K (c, .inr (3, (9 : Off)))); iexact Hrec
    isplitl [Hca10]; · iexact Hca10
    isplitl [HO]; · iexact HO
    isplitr; · rw [MayWait_zero]; iempintro
    iexact Hpar10
  iintro ⟨HO, Hpar10, -, Hgot10⟩
  iapply (wp_agRecv_wait m c (11 : Fin 16) (by decide) (w := TpuEff.waitDma2 (agRecv (11 : Fin 16)) (outOwn c) (outOwn c) _ _) (wpE_waitDma2_eq 𝒱₀ (c : Thread nD τ) none Set.univ) (K (c, .inr (3, (10 : Off)))) (0 : CellTallies nD τ sig Unit) _) $$ [Hca11 HO Hpar11]
  · isplitr; · iapply (records_inv (Rd m) K (c, .inr (3, (10 : Off)))); iexact Hrec
    isplitl [Hca11]; · iexact Hca11
    isplitl [HO]; · iexact HO
    isplitr; · rw [MayWait_zero]; iempintro
    iexact Hpar11
  iintro ⟨HO, Hpar11, -, Hgot11⟩
  iapply (wp_agRecv_wait m c (12 : Fin 16) (by decide) (w := TpuEff.waitDma2 (agRecv (12 : Fin 16)) (outOwn c) (outOwn c) _ _) (wpE_waitDma2_eq 𝒱₀ (c : Thread nD τ) none Set.univ) (K (c, .inr (3, (11 : Off)))) (0 : CellTallies nD τ sig Unit) _) $$ [Hca12 HO Hpar12]
  · isplitr; · iapply (records_inv (Rd m) K (c, .inr (3, (11 : Off)))); iexact Hrec
    isplitl [Hca12]; · iexact Hca12
    isplitl [HO]; · iexact HO
    isplitr; · rw [MayWait_zero]; iempintro
    iexact Hpar12
  iintro ⟨HO, Hpar12, -, Hgot12⟩
  iapply (wp_agRecv_wait m c (13 : Fin 16) (by decide) (w := TpuEff.waitDma2 (agRecv (13 : Fin 16)) (outOwn c) (outOwn c) _ _) (wpE_waitDma2_eq 𝒱₀ (c : Thread nD τ) none Set.univ) (K (c, .inr (3, (12 : Off)))) (0 : CellTallies nD τ sig Unit) _) $$ [Hca13 HO Hpar13]
  · isplitr; · iapply (records_inv (Rd m) K (c, .inr (3, (12 : Off)))); iexact Hrec
    isplitl [Hca13]; · iexact Hca13
    isplitl [HO]; · iexact HO
    isplitr; · rw [MayWait_zero]; iempintro
    iexact Hpar13
  iintro ⟨HO, Hpar13, -, Hgot13⟩
  iapply (wp_agRecv_wait m c (14 : Fin 16) (by decide) (w := TpuEff.waitDma2 (agRecv (14 : Fin 16)) (outOwn c) (outOwn c) _ _) (wpE_waitDma2_eq 𝒱₀ (c : Thread nD τ) none Set.univ) (K (c, .inr (3, (13 : Off)))) (0 : CellTallies nD τ sig Unit) _) $$ [Hca14 HO Hpar14]
  · isplitr; · iapply (records_inv (Rd m) K (c, .inr (3, (13 : Off)))); iexact Hrec
    isplitl [Hca14]; · iexact Hca14
    isplitl [HO]; · iexact HO
    isplitr; · rw [MayWait_zero]; iempintro
    iexact Hpar14
  iintro ⟨HO, Hpar14, -, Hgot14⟩
  iapply (wp_agRecv_wait m c (15 : Fin 16) (by decide) (w := TpuEff.waitDma2 (agRecv (15 : Fin 16)) (outOwn c) (outOwn c) _ _) (wpE_waitDma2_eq 𝒱₀ (c : Thread nD τ) none Set.univ) (K (c, .inr (3, (14 : Off)))) (0 : CellTallies nD τ sig Unit) _) $$ [Hca15 HO Hpar15]
  · isplitr; · iapply (records_inv (Rd m) K (c, .inr (3, (14 : Off)))); iexact Hrec
    isplitl [Hca15]; · iexact Hca15
    isplitl [HO]; · iexact HO
    isplitr; · rw [MayWait_zero]; iempintro
    iexact Hpar15
  iintro ⟨HO, Hpar15, -, Hgot15⟩
  -- the fifteen waits for the scatter copies' sources
  iapply (wp_rsSend_wait m c (1 : Fin 16) (by decide) (w := TpuEff.waitDma2 (rsSend (1 : Fin 16)) (tmpRow (1 : Fin 16)) (accSrc c (1 : Fin 16)) _ _) (wpE_waitDma2_eq 𝒱₀ (c : Thread nD τ) none Set.univ) (K (c, .inr (0, (0 : Off)))) (0 : CellTallies nD τ sig Unit) _) $$ [Hcs1 HO Hps1]
  · isplitr; · iapply (records_inv (Rd m) K (c, .inr (0, (0 : Off)))); iexact Hrec
    isplitl [Hcs1]; · iexact Hcs1
    isplitl [HO]; · iexact HO
    isplitr; · rw [MayWait_zero]; iempintro
    iexact Hps1
  iintro ⟨HO, Hps1, -, Hback1⟩
  iapply (wp_rsSend_wait m c (2 : Fin 16) (by decide) (w := TpuEff.waitDma2 (rsSend (2 : Fin 16)) (tmpRow (2 : Fin 16)) (accSrc c (2 : Fin 16)) _ _) (wpE_waitDma2_eq 𝒱₀ (c : Thread nD τ) none Set.univ) (K (c, .inr (0, (1 : Off)))) (0 : CellTallies nD τ sig Unit) _) $$ [Hcs2 HO Hps2]
  · isplitr; · iapply (records_inv (Rd m) K (c, .inr (0, (1 : Off)))); iexact Hrec
    isplitl [Hcs2]; · iexact Hcs2
    isplitl [HO]; · iexact HO
    isplitr; · rw [MayWait_zero]; iempintro
    iexact Hps2
  iintro ⟨HO, Hps2, -, Hback2⟩
  iapply (wp_rsSend_wait m c (3 : Fin 16) (by decide) (w := TpuEff.waitDma2 (rsSend (3 : Fin 16)) (tmpRow (3 : Fin 16)) (accSrc c (3 : Fin 16)) _ _) (wpE_waitDma2_eq 𝒱₀ (c : Thread nD τ) none Set.univ) (K (c, .inr (0, (2 : Off)))) (0 : CellTallies nD τ sig Unit) _) $$ [Hcs3 HO Hps3]
  · isplitr; · iapply (records_inv (Rd m) K (c, .inr (0, (2 : Off)))); iexact Hrec
    isplitl [Hcs3]; · iexact Hcs3
    isplitl [HO]; · iexact HO
    isplitr; · rw [MayWait_zero]; iempintro
    iexact Hps3
  iintro ⟨HO, Hps3, -, Hback3⟩
  iapply (wp_rsSend_wait m c (4 : Fin 16) (by decide) (w := TpuEff.waitDma2 (rsSend (4 : Fin 16)) (tmpRow (4 : Fin 16)) (accSrc c (4 : Fin 16)) _ _) (wpE_waitDma2_eq 𝒱₀ (c : Thread nD τ) none Set.univ) (K (c, .inr (0, (3 : Off)))) (0 : CellTallies nD τ sig Unit) _) $$ [Hcs4 HO Hps4]
  · isplitr; · iapply (records_inv (Rd m) K (c, .inr (0, (3 : Off)))); iexact Hrec
    isplitl [Hcs4]; · iexact Hcs4
    isplitl [HO]; · iexact HO
    isplitr; · rw [MayWait_zero]; iempintro
    iexact Hps4
  iintro ⟨HO, Hps4, -, Hback4⟩
  iapply (wp_rsSend_wait m c (5 : Fin 16) (by decide) (w := TpuEff.waitDma2 (rsSend (5 : Fin 16)) (tmpRow (5 : Fin 16)) (accSrc c (5 : Fin 16)) _ _) (wpE_waitDma2_eq 𝒱₀ (c : Thread nD τ) none Set.univ) (K (c, .inr (0, (4 : Off)))) (0 : CellTallies nD τ sig Unit) _) $$ [Hcs5 HO Hps5]
  · isplitr; · iapply (records_inv (Rd m) K (c, .inr (0, (4 : Off)))); iexact Hrec
    isplitl [Hcs5]; · iexact Hcs5
    isplitl [HO]; · iexact HO
    isplitr; · rw [MayWait_zero]; iempintro
    iexact Hps5
  iintro ⟨HO, Hps5, -, Hback5⟩
  iapply (wp_rsSend_wait m c (6 : Fin 16) (by decide) (w := TpuEff.waitDma2 (rsSend (6 : Fin 16)) (tmpRow (6 : Fin 16)) (accSrc c (6 : Fin 16)) _ _) (wpE_waitDma2_eq 𝒱₀ (c : Thread nD τ) none Set.univ) (K (c, .inr (0, (5 : Off)))) (0 : CellTallies nD τ sig Unit) _) $$ [Hcs6 HO Hps6]
  · isplitr; · iapply (records_inv (Rd m) K (c, .inr (0, (5 : Off)))); iexact Hrec
    isplitl [Hcs6]; · iexact Hcs6
    isplitl [HO]; · iexact HO
    isplitr; · rw [MayWait_zero]; iempintro
    iexact Hps6
  iintro ⟨HO, Hps6, -, Hback6⟩
  iapply (wp_rsSend_wait m c (7 : Fin 16) (by decide) (w := TpuEff.waitDma2 (rsSend (7 : Fin 16)) (tmpRow (7 : Fin 16)) (accSrc c (7 : Fin 16)) _ _) (wpE_waitDma2_eq 𝒱₀ (c : Thread nD τ) none Set.univ) (K (c, .inr (0, (6 : Off)))) (0 : CellTallies nD τ sig Unit) _) $$ [Hcs7 HO Hps7]
  · isplitr; · iapply (records_inv (Rd m) K (c, .inr (0, (6 : Off)))); iexact Hrec
    isplitl [Hcs7]; · iexact Hcs7
    isplitl [HO]; · iexact HO
    isplitr; · rw [MayWait_zero]; iempintro
    iexact Hps7
  iintro ⟨HO, Hps7, -, Hback7⟩
  iapply (wp_rsSend_wait m c (8 : Fin 16) (by decide) (w := TpuEff.waitDma2 (rsSend (8 : Fin 16)) (tmpRow (8 : Fin 16)) (accSrc c (8 : Fin 16)) _ _) (wpE_waitDma2_eq 𝒱₀ (c : Thread nD τ) none Set.univ) (K (c, .inr (0, (7 : Off)))) (0 : CellTallies nD τ sig Unit) _) $$ [Hcs8 HO Hps8]
  · isplitr; · iapply (records_inv (Rd m) K (c, .inr (0, (7 : Off)))); iexact Hrec
    isplitl [Hcs8]; · iexact Hcs8
    isplitl [HO]; · iexact HO
    isplitr; · rw [MayWait_zero]; iempintro
    iexact Hps8
  iintro ⟨HO, Hps8, -, Hback8⟩
  iapply (wp_rsSend_wait m c (9 : Fin 16) (by decide) (w := TpuEff.waitDma2 (rsSend (9 : Fin 16)) (tmpRow (9 : Fin 16)) (accSrc c (9 : Fin 16)) _ _) (wpE_waitDma2_eq 𝒱₀ (c : Thread nD τ) none Set.univ) (K (c, .inr (0, (8 : Off)))) (0 : CellTallies nD τ sig Unit) _) $$ [Hcs9 HO Hps9]
  · isplitr; · iapply (records_inv (Rd m) K (c, .inr (0, (8 : Off)))); iexact Hrec
    isplitl [Hcs9]; · iexact Hcs9
    isplitl [HO]; · iexact HO
    isplitr; · rw [MayWait_zero]; iempintro
    iexact Hps9
  iintro ⟨HO, Hps9, -, Hback9⟩
  iapply (wp_rsSend_wait m c (10 : Fin 16) (by decide) (w := TpuEff.waitDma2 (rsSend (10 : Fin 16)) (tmpRow (10 : Fin 16)) (accSrc c (10 : Fin 16)) _ _) (wpE_waitDma2_eq 𝒱₀ (c : Thread nD τ) none Set.univ) (K (c, .inr (0, (9 : Off)))) (0 : CellTallies nD τ sig Unit) _) $$ [Hcs10 HO Hps10]
  · isplitr; · iapply (records_inv (Rd m) K (c, .inr (0, (9 : Off)))); iexact Hrec
    isplitl [Hcs10]; · iexact Hcs10
    isplitl [HO]; · iexact HO
    isplitr; · rw [MayWait_zero]; iempintro
    iexact Hps10
  iintro ⟨HO, Hps10, -, Hback10⟩
  iapply (wp_rsSend_wait m c (11 : Fin 16) (by decide) (w := TpuEff.waitDma2 (rsSend (11 : Fin 16)) (tmpRow (11 : Fin 16)) (accSrc c (11 : Fin 16)) _ _) (wpE_waitDma2_eq 𝒱₀ (c : Thread nD τ) none Set.univ) (K (c, .inr (0, (10 : Off)))) (0 : CellTallies nD τ sig Unit) _) $$ [Hcs11 HO Hps11]
  · isplitr; · iapply (records_inv (Rd m) K (c, .inr (0, (10 : Off)))); iexact Hrec
    isplitl [Hcs11]; · iexact Hcs11
    isplitl [HO]; · iexact HO
    isplitr; · rw [MayWait_zero]; iempintro
    iexact Hps11
  iintro ⟨HO, Hps11, -, Hback11⟩
  iapply (wp_rsSend_wait m c (12 : Fin 16) (by decide) (w := TpuEff.waitDma2 (rsSend (12 : Fin 16)) (tmpRow (12 : Fin 16)) (accSrc c (12 : Fin 16)) _ _) (wpE_waitDma2_eq 𝒱₀ (c : Thread nD τ) none Set.univ) (K (c, .inr (0, (11 : Off)))) (0 : CellTallies nD τ sig Unit) _) $$ [Hcs12 HO Hps12]
  · isplitr; · iapply (records_inv (Rd m) K (c, .inr (0, (11 : Off)))); iexact Hrec
    isplitl [Hcs12]; · iexact Hcs12
    isplitl [HO]; · iexact HO
    isplitr; · rw [MayWait_zero]; iempintro
    iexact Hps12
  iintro ⟨HO, Hps12, -, Hback12⟩
  iapply (wp_rsSend_wait m c (13 : Fin 16) (by decide) (w := TpuEff.waitDma2 (rsSend (13 : Fin 16)) (tmpRow (13 : Fin 16)) (accSrc c (13 : Fin 16)) _ _) (wpE_waitDma2_eq 𝒱₀ (c : Thread nD τ) none Set.univ) (K (c, .inr (0, (12 : Off)))) (0 : CellTallies nD τ sig Unit) _) $$ [Hcs13 HO Hps13]
  · isplitr; · iapply (records_inv (Rd m) K (c, .inr (0, (12 : Off)))); iexact Hrec
    isplitl [Hcs13]; · iexact Hcs13
    isplitl [HO]; · iexact HO
    isplitr; · rw [MayWait_zero]; iempintro
    iexact Hps13
  iintro ⟨HO, Hps13, -, Hback13⟩
  iapply (wp_rsSend_wait m c (14 : Fin 16) (by decide) (w := TpuEff.waitDma2 (rsSend (14 : Fin 16)) (tmpRow (14 : Fin 16)) (accSrc c (14 : Fin 16)) _ _) (wpE_waitDma2_eq 𝒱₀ (c : Thread nD τ) none Set.univ) (K (c, .inr (0, (13 : Off)))) (0 : CellTallies nD τ sig Unit) _) $$ [Hcs14 HO Hps14]
  · isplitr; · iapply (records_inv (Rd m) K (c, .inr (0, (13 : Off)))); iexact Hrec
    isplitl [Hcs14]; · iexact Hcs14
    isplitl [HO]; · iexact HO
    isplitr; · rw [MayWait_zero]; iempintro
    iexact Hps14
  iintro ⟨HO, Hps14, -, Hback14⟩
  iapply (wp_rsSend_wait m c (15 : Fin 16) (by decide) (w := TpuEff.waitDma2 (rsSend (15 : Fin 16)) (tmpRow (15 : Fin 16)) (accSrc c (15 : Fin 16)) _ _) (wpE_waitDma2_eq 𝒱₀ (c : Thread nD τ) none Set.univ) (K (c, .inr (0, (14 : Off)))) (0 : CellTallies nD τ sig Unit) _) $$ [Hcs15 HO Hps15]
  · isplitr; · iapply (records_inv (Rd m) K (c, .inr (0, (14 : Off)))); iexact Hrec
    isplitl [Hcs15]; · iexact Hcs15
    isplitl [HO]; · iexact HO
    isplitr; · rw [MayWait_zero]; iempintro
    iexact Hps15
  iintro ⟨HO, Hps15, -, Hback15⟩
  -- the fifteen waits for the gather copies' source shares
  iapply (wp_agSend_wait m c (1 : Fin 16) (by decide) (w := TpuEff.waitDma2 (agSend (1 : Fin 16)) (outOwn c) (outOwn c) _ _) (wpE_waitDma2_eq 𝒱₀ (c : Thread nD τ) none Set.univ) (K (c, .inr (2, (0 : Off)))) (0 : CellTallies nD τ sig Unit) _) $$ [Hcas1 HO Hpas1]
  · isplitr; · iapply (records_inv (Rd m) K (c, .inr (2, (0 : Off)))); iexact Hrec
    isplitl [Hcas1]; · iexact Hcas1
    isplitl [HO]; · iexact HO
    isplitr; · rw [MayWait_zero]; iempintro
    iexact Hpas1
  iintro ⟨HO, Hpas1, -, Hshb1⟩
  iapply (wp_agSend_wait m c (2 : Fin 16) (by decide) (w := TpuEff.waitDma2 (agSend (2 : Fin 16)) (outOwn c) (outOwn c) _ _) (wpE_waitDma2_eq 𝒱₀ (c : Thread nD τ) none Set.univ) (K (c, .inr (2, (1 : Off)))) (0 : CellTallies nD τ sig Unit) _) $$ [Hcas2 HO Hpas2]
  · isplitr; · iapply (records_inv (Rd m) K (c, .inr (2, (1 : Off)))); iexact Hrec
    isplitl [Hcas2]; · iexact Hcas2
    isplitl [HO]; · iexact HO
    isplitr; · rw [MayWait_zero]; iempintro
    iexact Hpas2
  iintro ⟨HO, Hpas2, -, Hshb2⟩
  iapply (wp_agSend_wait m c (3 : Fin 16) (by decide) (w := TpuEff.waitDma2 (agSend (3 : Fin 16)) (outOwn c) (outOwn c) _ _) (wpE_waitDma2_eq 𝒱₀ (c : Thread nD τ) none Set.univ) (K (c, .inr (2, (2 : Off)))) (0 : CellTallies nD τ sig Unit) _) $$ [Hcas3 HO Hpas3]
  · isplitr; · iapply (records_inv (Rd m) K (c, .inr (2, (2 : Off)))); iexact Hrec
    isplitl [Hcas3]; · iexact Hcas3
    isplitl [HO]; · iexact HO
    isplitr; · rw [MayWait_zero]; iempintro
    iexact Hpas3
  iintro ⟨HO, Hpas3, -, Hshb3⟩
  iapply (wp_agSend_wait m c (4 : Fin 16) (by decide) (w := TpuEff.waitDma2 (agSend (4 : Fin 16)) (outOwn c) (outOwn c) _ _) (wpE_waitDma2_eq 𝒱₀ (c : Thread nD τ) none Set.univ) (K (c, .inr (2, (3 : Off)))) (0 : CellTallies nD τ sig Unit) _) $$ [Hcas4 HO Hpas4]
  · isplitr; · iapply (records_inv (Rd m) K (c, .inr (2, (3 : Off)))); iexact Hrec
    isplitl [Hcas4]; · iexact Hcas4
    isplitl [HO]; · iexact HO
    isplitr; · rw [MayWait_zero]; iempintro
    iexact Hpas4
  iintro ⟨HO, Hpas4, -, Hshb4⟩
  iapply (wp_agSend_wait m c (5 : Fin 16) (by decide) (w := TpuEff.waitDma2 (agSend (5 : Fin 16)) (outOwn c) (outOwn c) _ _) (wpE_waitDma2_eq 𝒱₀ (c : Thread nD τ) none Set.univ) (K (c, .inr (2, (4 : Off)))) (0 : CellTallies nD τ sig Unit) _) $$ [Hcas5 HO Hpas5]
  · isplitr; · iapply (records_inv (Rd m) K (c, .inr (2, (4 : Off)))); iexact Hrec
    isplitl [Hcas5]; · iexact Hcas5
    isplitl [HO]; · iexact HO
    isplitr; · rw [MayWait_zero]; iempintro
    iexact Hpas5
  iintro ⟨HO, Hpas5, -, Hshb5⟩
  iapply (wp_agSend_wait m c (6 : Fin 16) (by decide) (w := TpuEff.waitDma2 (agSend (6 : Fin 16)) (outOwn c) (outOwn c) _ _) (wpE_waitDma2_eq 𝒱₀ (c : Thread nD τ) none Set.univ) (K (c, .inr (2, (5 : Off)))) (0 : CellTallies nD τ sig Unit) _) $$ [Hcas6 HO Hpas6]
  · isplitr; · iapply (records_inv (Rd m) K (c, .inr (2, (5 : Off)))); iexact Hrec
    isplitl [Hcas6]; · iexact Hcas6
    isplitl [HO]; · iexact HO
    isplitr; · rw [MayWait_zero]; iempintro
    iexact Hpas6
  iintro ⟨HO, Hpas6, -, Hshb6⟩
  iapply (wp_agSend_wait m c (7 : Fin 16) (by decide) (w := TpuEff.waitDma2 (agSend (7 : Fin 16)) (outOwn c) (outOwn c) _ _) (wpE_waitDma2_eq 𝒱₀ (c : Thread nD τ) none Set.univ) (K (c, .inr (2, (6 : Off)))) (0 : CellTallies nD τ sig Unit) _) $$ [Hcas7 HO Hpas7]
  · isplitr; · iapply (records_inv (Rd m) K (c, .inr (2, (6 : Off)))); iexact Hrec
    isplitl [Hcas7]; · iexact Hcas7
    isplitl [HO]; · iexact HO
    isplitr; · rw [MayWait_zero]; iempintro
    iexact Hpas7
  iintro ⟨HO, Hpas7, -, Hshb7⟩
  iapply (wp_agSend_wait m c (8 : Fin 16) (by decide) (w := TpuEff.waitDma2 (agSend (8 : Fin 16)) (outOwn c) (outOwn c) _ _) (wpE_waitDma2_eq 𝒱₀ (c : Thread nD τ) none Set.univ) (K (c, .inr (2, (7 : Off)))) (0 : CellTallies nD τ sig Unit) _) $$ [Hcas8 HO Hpas8]
  · isplitr; · iapply (records_inv (Rd m) K (c, .inr (2, (7 : Off)))); iexact Hrec
    isplitl [Hcas8]; · iexact Hcas8
    isplitl [HO]; · iexact HO
    isplitr; · rw [MayWait_zero]; iempintro
    iexact Hpas8
  iintro ⟨HO, Hpas8, -, Hshb8⟩
  iapply (wp_agSend_wait m c (9 : Fin 16) (by decide) (w := TpuEff.waitDma2 (agSend (9 : Fin 16)) (outOwn c) (outOwn c) _ _) (wpE_waitDma2_eq 𝒱₀ (c : Thread nD τ) none Set.univ) (K (c, .inr (2, (8 : Off)))) (0 : CellTallies nD τ sig Unit) _) $$ [Hcas9 HO Hpas9]
  · isplitr; · iapply (records_inv (Rd m) K (c, .inr (2, (8 : Off)))); iexact Hrec
    isplitl [Hcas9]; · iexact Hcas9
    isplitl [HO]; · iexact HO
    isplitr; · rw [MayWait_zero]; iempintro
    iexact Hpas9
  iintro ⟨HO, Hpas9, -, Hshb9⟩
  iapply (wp_agSend_wait m c (10 : Fin 16) (by decide) (w := TpuEff.waitDma2 (agSend (10 : Fin 16)) (outOwn c) (outOwn c) _ _) (wpE_waitDma2_eq 𝒱₀ (c : Thread nD τ) none Set.univ) (K (c, .inr (2, (9 : Off)))) (0 : CellTallies nD τ sig Unit) _) $$ [Hcas10 HO Hpas10]
  · isplitr; · iapply (records_inv (Rd m) K (c, .inr (2, (9 : Off)))); iexact Hrec
    isplitl [Hcas10]; · iexact Hcas10
    isplitl [HO]; · iexact HO
    isplitr; · rw [MayWait_zero]; iempintro
    iexact Hpas10
  iintro ⟨HO, Hpas10, -, Hshb10⟩
  iapply (wp_agSend_wait m c (11 : Fin 16) (by decide) (w := TpuEff.waitDma2 (agSend (11 : Fin 16)) (outOwn c) (outOwn c) _ _) (wpE_waitDma2_eq 𝒱₀ (c : Thread nD τ) none Set.univ) (K (c, .inr (2, (10 : Off)))) (0 : CellTallies nD τ sig Unit) _) $$ [Hcas11 HO Hpas11]
  · isplitr; · iapply (records_inv (Rd m) K (c, .inr (2, (10 : Off)))); iexact Hrec
    isplitl [Hcas11]; · iexact Hcas11
    isplitl [HO]; · iexact HO
    isplitr; · rw [MayWait_zero]; iempintro
    iexact Hpas11
  iintro ⟨HO, Hpas11, -, Hshb11⟩
  iapply (wp_agSend_wait m c (12 : Fin 16) (by decide) (w := TpuEff.waitDma2 (agSend (12 : Fin 16)) (outOwn c) (outOwn c) _ _) (wpE_waitDma2_eq 𝒱₀ (c : Thread nD τ) none Set.univ) (K (c, .inr (2, (11 : Off)))) (0 : CellTallies nD τ sig Unit) _) $$ [Hcas12 HO Hpas12]
  · isplitr; · iapply (records_inv (Rd m) K (c, .inr (2, (11 : Off)))); iexact Hrec
    isplitl [Hcas12]; · iexact Hcas12
    isplitl [HO]; · iexact HO
    isplitr; · rw [MayWait_zero]; iempintro
    iexact Hpas12
  iintro ⟨HO, Hpas12, -, Hshb12⟩
  iapply (wp_agSend_wait m c (13 : Fin 16) (by decide) (w := TpuEff.waitDma2 (agSend (13 : Fin 16)) (outOwn c) (outOwn c) _ _) (wpE_waitDma2_eq 𝒱₀ (c : Thread nD τ) none Set.univ) (K (c, .inr (2, (12 : Off)))) (0 : CellTallies nD τ sig Unit) _) $$ [Hcas13 HO Hpas13]
  · isplitr; · iapply (records_inv (Rd m) K (c, .inr (2, (12 : Off)))); iexact Hrec
    isplitl [Hcas13]; · iexact Hcas13
    isplitl [HO]; · iexact HO
    isplitr; · rw [MayWait_zero]; iempintro
    iexact Hpas13
  iintro ⟨HO, Hpas13, -, Hshb13⟩
  iapply (wp_agSend_wait m c (14 : Fin 16) (by decide) (w := TpuEff.waitDma2 (agSend (14 : Fin 16)) (outOwn c) (outOwn c) _ _) (wpE_waitDma2_eq 𝒱₀ (c : Thread nD τ) none Set.univ) (K (c, .inr (2, (13 : Off)))) (0 : CellTallies nD τ sig Unit) _) $$ [Hcas14 HO Hpas14]
  · isplitr; · iapply (records_inv (Rd m) K (c, .inr (2, (13 : Off)))); iexact Hrec
    isplitl [Hcas14]; · iexact Hcas14
    isplitl [HO]; · iexact HO
    isplitr; · rw [MayWait_zero]; iempintro
    iexact Hpas14
  iintro ⟨HO, Hpas14, -, Hshb14⟩
  iapply (wp_agSend_wait m c (15 : Fin 16) (by decide) (w := TpuEff.waitDma2 (agSend (15 : Fin 16)) (outOwn c) (outOwn c) _ _) (wpE_waitDma2_eq 𝒱₀ (c : Thread nD τ) none Set.univ) (K (c, .inr (2, (14 : Off)))) (0 : CellTallies nD τ sig Unit) _) $$ [Hcas15 HO Hpas15]
  · isplitr; · iapply (records_inv (Rd m) K (c, .inr (2, (14 : Off)))); iexact Hrec
    isplitl [Hcas15]; · iexact Hcas15
    isplitl [HO]; · iexact HO
    isplitr; · rw [MayWait_zero]; iempintro
    iexact Hpas15
  iintro ⟨HO, Hpas15, -, Hshb15⟩
  -- the sixty transfer cells close: their counters at zero are the device's again
  imod (dma_cell_close m c (rsSend (1 : Fin 16)) (K (c, .inr (0, (0 : Off))))) $$ [Hps1] with Hzs1
  · isplitr; · iapply (records_inv (Rd m) K (c, .inr (0, (0 : Off)))); iexact Hrec
    iexact Hps1
  imod (dma_cell_close m c (rsSend (2 : Fin 16)) (K (c, .inr (0, (1 : Off))))) $$ [Hps2] with Hzs2
  · isplitr; · iapply (records_inv (Rd m) K (c, .inr (0, (1 : Off)))); iexact Hrec
    iexact Hps2
  imod (dma_cell_close m c (rsSend (3 : Fin 16)) (K (c, .inr (0, (2 : Off))))) $$ [Hps3] with Hzs3
  · isplitr; · iapply (records_inv (Rd m) K (c, .inr (0, (2 : Off)))); iexact Hrec
    iexact Hps3
  imod (dma_cell_close m c (rsSend (4 : Fin 16)) (K (c, .inr (0, (3 : Off))))) $$ [Hps4] with Hzs4
  · isplitr; · iapply (records_inv (Rd m) K (c, .inr (0, (3 : Off)))); iexact Hrec
    iexact Hps4
  imod (dma_cell_close m c (rsSend (5 : Fin 16)) (K (c, .inr (0, (4 : Off))))) $$ [Hps5] with Hzs5
  · isplitr; · iapply (records_inv (Rd m) K (c, .inr (0, (4 : Off)))); iexact Hrec
    iexact Hps5
  imod (dma_cell_close m c (rsSend (6 : Fin 16)) (K (c, .inr (0, (5 : Off))))) $$ [Hps6] with Hzs6
  · isplitr; · iapply (records_inv (Rd m) K (c, .inr (0, (5 : Off)))); iexact Hrec
    iexact Hps6
  imod (dma_cell_close m c (rsSend (7 : Fin 16)) (K (c, .inr (0, (6 : Off))))) $$ [Hps7] with Hzs7
  · isplitr; · iapply (records_inv (Rd m) K (c, .inr (0, (6 : Off)))); iexact Hrec
    iexact Hps7
  imod (dma_cell_close m c (rsSend (8 : Fin 16)) (K (c, .inr (0, (7 : Off))))) $$ [Hps8] with Hzs8
  · isplitr; · iapply (records_inv (Rd m) K (c, .inr (0, (7 : Off)))); iexact Hrec
    iexact Hps8
  imod (dma_cell_close m c (rsSend (9 : Fin 16)) (K (c, .inr (0, (8 : Off))))) $$ [Hps9] with Hzs9
  · isplitr; · iapply (records_inv (Rd m) K (c, .inr (0, (8 : Off)))); iexact Hrec
    iexact Hps9
  imod (dma_cell_close m c (rsSend (10 : Fin 16)) (K (c, .inr (0, (9 : Off))))) $$ [Hps10] with Hzs10
  · isplitr; · iapply (records_inv (Rd m) K (c, .inr (0, (9 : Off)))); iexact Hrec
    iexact Hps10
  imod (dma_cell_close m c (rsSend (11 : Fin 16)) (K (c, .inr (0, (10 : Off))))) $$ [Hps11] with Hzs11
  · isplitr; · iapply (records_inv (Rd m) K (c, .inr (0, (10 : Off)))); iexact Hrec
    iexact Hps11
  imod (dma_cell_close m c (rsSend (12 : Fin 16)) (K (c, .inr (0, (11 : Off))))) $$ [Hps12] with Hzs12
  · isplitr; · iapply (records_inv (Rd m) K (c, .inr (0, (11 : Off)))); iexact Hrec
    iexact Hps12
  imod (dma_cell_close m c (rsSend (13 : Fin 16)) (K (c, .inr (0, (12 : Off))))) $$ [Hps13] with Hzs13
  · isplitr; · iapply (records_inv (Rd m) K (c, .inr (0, (12 : Off)))); iexact Hrec
    iexact Hps13
  imod (dma_cell_close m c (rsSend (14 : Fin 16)) (K (c, .inr (0, (13 : Off))))) $$ [Hps14] with Hzs14
  · isplitr; · iapply (records_inv (Rd m) K (c, .inr (0, (13 : Off)))); iexact Hrec
    iexact Hps14
  imod (dma_cell_close m c (rsSend (15 : Fin 16)) (K (c, .inr (0, (14 : Off))))) $$ [Hps15] with Hzs15
  · isplitr; · iapply (records_inv (Rd m) K (c, .inr (0, (14 : Off)))); iexact Hrec
    iexact Hps15
  imod (dma_cell_close m c (rsRecv (1 : Fin 16)) (K (c, .inr (1, (0 : Off))))) $$ [Hpr1] with Hzr1
  · isplitr; · iapply (records_inv (Rd m) K (c, .inr (1, (0 : Off)))); iexact Hrec
    iexact Hpr1
  imod (dma_cell_close m c (rsRecv (2 : Fin 16)) (K (c, .inr (1, (1 : Off))))) $$ [Hpr2] with Hzr2
  · isplitr; · iapply (records_inv (Rd m) K (c, .inr (1, (1 : Off)))); iexact Hrec
    iexact Hpr2
  imod (dma_cell_close m c (rsRecv (3 : Fin 16)) (K (c, .inr (1, (2 : Off))))) $$ [Hpr3] with Hzr3
  · isplitr; · iapply (records_inv (Rd m) K (c, .inr (1, (2 : Off)))); iexact Hrec
    iexact Hpr3
  imod (dma_cell_close m c (rsRecv (4 : Fin 16)) (K (c, .inr (1, (3 : Off))))) $$ [Hpr4] with Hzr4
  · isplitr; · iapply (records_inv (Rd m) K (c, .inr (1, (3 : Off)))); iexact Hrec
    iexact Hpr4
  imod (dma_cell_close m c (rsRecv (5 : Fin 16)) (K (c, .inr (1, (4 : Off))))) $$ [Hpr5] with Hzr5
  · isplitr; · iapply (records_inv (Rd m) K (c, .inr (1, (4 : Off)))); iexact Hrec
    iexact Hpr5
  imod (dma_cell_close m c (rsRecv (6 : Fin 16)) (K (c, .inr (1, (5 : Off))))) $$ [Hpr6] with Hzr6
  · isplitr; · iapply (records_inv (Rd m) K (c, .inr (1, (5 : Off)))); iexact Hrec
    iexact Hpr6
  imod (dma_cell_close m c (rsRecv (7 : Fin 16)) (K (c, .inr (1, (6 : Off))))) $$ [Hpr7] with Hzr7
  · isplitr; · iapply (records_inv (Rd m) K (c, .inr (1, (6 : Off)))); iexact Hrec
    iexact Hpr7
  imod (dma_cell_close m c (rsRecv (8 : Fin 16)) (K (c, .inr (1, (7 : Off))))) $$ [Hpr8] with Hzr8
  · isplitr; · iapply (records_inv (Rd m) K (c, .inr (1, (7 : Off)))); iexact Hrec
    iexact Hpr8
  imod (dma_cell_close m c (rsRecv (9 : Fin 16)) (K (c, .inr (1, (8 : Off))))) $$ [Hpr9] with Hzr9
  · isplitr; · iapply (records_inv (Rd m) K (c, .inr (1, (8 : Off)))); iexact Hrec
    iexact Hpr9
  imod (dma_cell_close m c (rsRecv (10 : Fin 16)) (K (c, .inr (1, (9 : Off))))) $$ [Hpr10] with Hzr10
  · isplitr; · iapply (records_inv (Rd m) K (c, .inr (1, (9 : Off)))); iexact Hrec
    iexact Hpr10
  imod (dma_cell_close m c (rsRecv (11 : Fin 16)) (K (c, .inr (1, (10 : Off))))) $$ [Hpr11] with Hzr11
  · isplitr; · iapply (records_inv (Rd m) K (c, .inr (1, (10 : Off)))); iexact Hrec
    iexact Hpr11
  imod (dma_cell_close m c (rsRecv (12 : Fin 16)) (K (c, .inr (1, (11 : Off))))) $$ [Hpr12] with Hzr12
  · isplitr; · iapply (records_inv (Rd m) K (c, .inr (1, (11 : Off)))); iexact Hrec
    iexact Hpr12
  imod (dma_cell_close m c (rsRecv (13 : Fin 16)) (K (c, .inr (1, (12 : Off))))) $$ [Hpr13] with Hzr13
  · isplitr; · iapply (records_inv (Rd m) K (c, .inr (1, (12 : Off)))); iexact Hrec
    iexact Hpr13
  imod (dma_cell_close m c (rsRecv (14 : Fin 16)) (K (c, .inr (1, (13 : Off))))) $$ [Hpr14] with Hzr14
  · isplitr; · iapply (records_inv (Rd m) K (c, .inr (1, (13 : Off)))); iexact Hrec
    iexact Hpr14
  imod (dma_cell_close m c (rsRecv (15 : Fin 16)) (K (c, .inr (1, (14 : Off))))) $$ [Hpr15] with Hzr15
  · isplitr; · iapply (records_inv (Rd m) K (c, .inr (1, (14 : Off)))); iexact Hrec
    iexact Hpr15
  imod (dma_cell_close m c (agSend (1 : Fin 16)) (K (c, .inr (2, (0 : Off))))) $$ [Hpas1] with Hzas1
  · isplitr; · iapply (records_inv (Rd m) K (c, .inr (2, (0 : Off)))); iexact Hrec
    iexact Hpas1
  imod (dma_cell_close m c (agSend (2 : Fin 16)) (K (c, .inr (2, (1 : Off))))) $$ [Hpas2] with Hzas2
  · isplitr; · iapply (records_inv (Rd m) K (c, .inr (2, (1 : Off)))); iexact Hrec
    iexact Hpas2
  imod (dma_cell_close m c (agSend (3 : Fin 16)) (K (c, .inr (2, (2 : Off))))) $$ [Hpas3] with Hzas3
  · isplitr; · iapply (records_inv (Rd m) K (c, .inr (2, (2 : Off)))); iexact Hrec
    iexact Hpas3
  imod (dma_cell_close m c (agSend (4 : Fin 16)) (K (c, .inr (2, (3 : Off))))) $$ [Hpas4] with Hzas4
  · isplitr; · iapply (records_inv (Rd m) K (c, .inr (2, (3 : Off)))); iexact Hrec
    iexact Hpas4
  imod (dma_cell_close m c (agSend (5 : Fin 16)) (K (c, .inr (2, (4 : Off))))) $$ [Hpas5] with Hzas5
  · isplitr; · iapply (records_inv (Rd m) K (c, .inr (2, (4 : Off)))); iexact Hrec
    iexact Hpas5
  imod (dma_cell_close m c (agSend (6 : Fin 16)) (K (c, .inr (2, (5 : Off))))) $$ [Hpas6] with Hzas6
  · isplitr; · iapply (records_inv (Rd m) K (c, .inr (2, (5 : Off)))); iexact Hrec
    iexact Hpas6
  imod (dma_cell_close m c (agSend (7 : Fin 16)) (K (c, .inr (2, (6 : Off))))) $$ [Hpas7] with Hzas7
  · isplitr; · iapply (records_inv (Rd m) K (c, .inr (2, (6 : Off)))); iexact Hrec
    iexact Hpas7
  imod (dma_cell_close m c (agSend (8 : Fin 16)) (K (c, .inr (2, (7 : Off))))) $$ [Hpas8] with Hzas8
  · isplitr; · iapply (records_inv (Rd m) K (c, .inr (2, (7 : Off)))); iexact Hrec
    iexact Hpas8
  imod (dma_cell_close m c (agSend (9 : Fin 16)) (K (c, .inr (2, (8 : Off))))) $$ [Hpas9] with Hzas9
  · isplitr; · iapply (records_inv (Rd m) K (c, .inr (2, (8 : Off)))); iexact Hrec
    iexact Hpas9
  imod (dma_cell_close m c (agSend (10 : Fin 16)) (K (c, .inr (2, (9 : Off))))) $$ [Hpas10] with Hzas10
  · isplitr; · iapply (records_inv (Rd m) K (c, .inr (2, (9 : Off)))); iexact Hrec
    iexact Hpas10
  imod (dma_cell_close m c (agSend (11 : Fin 16)) (K (c, .inr (2, (10 : Off))))) $$ [Hpas11] with Hzas11
  · isplitr; · iapply (records_inv (Rd m) K (c, .inr (2, (10 : Off)))); iexact Hrec
    iexact Hpas11
  imod (dma_cell_close m c (agSend (12 : Fin 16)) (K (c, .inr (2, (11 : Off))))) $$ [Hpas12] with Hzas12
  · isplitr; · iapply (records_inv (Rd m) K (c, .inr (2, (11 : Off)))); iexact Hrec
    iexact Hpas12
  imod (dma_cell_close m c (agSend (13 : Fin 16)) (K (c, .inr (2, (12 : Off))))) $$ [Hpas13] with Hzas13
  · isplitr; · iapply (records_inv (Rd m) K (c, .inr (2, (12 : Off)))); iexact Hrec
    iexact Hpas13
  imod (dma_cell_close m c (agSend (14 : Fin 16)) (K (c, .inr (2, (13 : Off))))) $$ [Hpas14] with Hzas14
  · isplitr; · iapply (records_inv (Rd m) K (c, .inr (2, (13 : Off)))); iexact Hrec
    iexact Hpas14
  imod (dma_cell_close m c (agSend (15 : Fin 16)) (K (c, .inr (2, (14 : Off))))) $$ [Hpas15] with Hzas15
  · isplitr; · iapply (records_inv (Rd m) K (c, .inr (2, (14 : Off)))); iexact Hrec
    iexact Hpas15
  imod (dma_cell_close m c (agRecv (1 : Fin 16)) (K (c, .inr (3, (0 : Off))))) $$ [Hpar1] with Hzar1
  · isplitr; · iapply (records_inv (Rd m) K (c, .inr (3, (0 : Off)))); iexact Hrec
    iexact Hpar1
  imod (dma_cell_close m c (agRecv (2 : Fin 16)) (K (c, .inr (3, (1 : Off))))) $$ [Hpar2] with Hzar2
  · isplitr; · iapply (records_inv (Rd m) K (c, .inr (3, (1 : Off)))); iexact Hrec
    iexact Hpar2
  imod (dma_cell_close m c (agRecv (3 : Fin 16)) (K (c, .inr (3, (2 : Off))))) $$ [Hpar3] with Hzar3
  · isplitr; · iapply (records_inv (Rd m) K (c, .inr (3, (2 : Off)))); iexact Hrec
    iexact Hpar3
  imod (dma_cell_close m c (agRecv (4 : Fin 16)) (K (c, .inr (3, (3 : Off))))) $$ [Hpar4] with Hzar4
  · isplitr; · iapply (records_inv (Rd m) K (c, .inr (3, (3 : Off)))); iexact Hrec
    iexact Hpar4
  imod (dma_cell_close m c (agRecv (5 : Fin 16)) (K (c, .inr (3, (4 : Off))))) $$ [Hpar5] with Hzar5
  · isplitr; · iapply (records_inv (Rd m) K (c, .inr (3, (4 : Off)))); iexact Hrec
    iexact Hpar5
  imod (dma_cell_close m c (agRecv (6 : Fin 16)) (K (c, .inr (3, (5 : Off))))) $$ [Hpar6] with Hzar6
  · isplitr; · iapply (records_inv (Rd m) K (c, .inr (3, (5 : Off)))); iexact Hrec
    iexact Hpar6
  imod (dma_cell_close m c (agRecv (7 : Fin 16)) (K (c, .inr (3, (6 : Off))))) $$ [Hpar7] with Hzar7
  · isplitr; · iapply (records_inv (Rd m) K (c, .inr (3, (6 : Off)))); iexact Hrec
    iexact Hpar7
  imod (dma_cell_close m c (agRecv (8 : Fin 16)) (K (c, .inr (3, (7 : Off))))) $$ [Hpar8] with Hzar8
  · isplitr; · iapply (records_inv (Rd m) K (c, .inr (3, (7 : Off)))); iexact Hrec
    iexact Hpar8
  imod (dma_cell_close m c (agRecv (9 : Fin 16)) (K (c, .inr (3, (8 : Off))))) $$ [Hpar9] with Hzar9
  · isplitr; · iapply (records_inv (Rd m) K (c, .inr (3, (8 : Off)))); iexact Hrec
    iexact Hpar9
  imod (dma_cell_close m c (agRecv (10 : Fin 16)) (K (c, .inr (3, (9 : Off))))) $$ [Hpar10] with Hzar10
  · isplitr; · iapply (records_inv (Rd m) K (c, .inr (3, (9 : Off)))); iexact Hrec
    iexact Hpar10
  imod (dma_cell_close m c (agRecv (11 : Fin 16)) (K (c, .inr (3, (10 : Off))))) $$ [Hpar11] with Hzar11
  · isplitr; · iapply (records_inv (Rd m) K (c, .inr (3, (10 : Off)))); iexact Hrec
    iexact Hpar11
  imod (dma_cell_close m c (agRecv (12 : Fin 16)) (K (c, .inr (3, (11 : Off))))) $$ [Hpar12] with Hzar12
  · isplitr; · iapply (records_inv (Rd m) K (c, .inr (3, (11 : Off)))); iexact Hrec
    iexact Hpar12
  imod (dma_cell_close m c (agRecv (13 : Fin 16)) (K (c, .inr (3, (12 : Off))))) $$ [Hpar13] with Hzar13
  · isplitr; · iapply (records_inv (Rd m) K (c, .inr (3, (12 : Off)))); iexact Hrec
    iexact Hpar13
  imod (dma_cell_close m c (agRecv (14 : Fin 16)) (K (c, .inr (3, (13 : Off))))) $$ [Hpar14] with Hzar14
  · isplitr; · iapply (records_inv (Rd m) K (c, .inr (3, (13 : Off)))); iexact Hrec
    iexact Hpar14
  imod (dma_cell_close m c (agRecv (15 : Fin 16)) (K (c, .inr (3, (14 : Off))))) $$ [Hpar15] with Hzar15
  · isplitr; · iapply (records_inv (Rd m) K (c, .inr (3, (14 : Off)))); iexact Hrec
    iexact Hpar15
  -- what the waits returned, spelt as the pieces of the three buffers
  ihave Hback1 := (Entails.of_eq (show (rsSendPay m c (1 : Fin 16) : sProp 𝕄) = ptsAt c (accSrc c 1) fullShare (partialOf m c) from rfl)) $$ Hback1
  ihave Hshb1 := (Entails.of_eq (show (agSendPay m c (1 : Fin 16) : sProp 𝕄) = ptsAt c (outOwn c) (shareOf 1) (outFull m) from rfl)) $$ Hshb1
  ihave Hgot1 := (Entails.of_eq (show (agRecvPay m c (1 : Fin 16) : sProp 𝕄) = ptsAt c (outOwn (back c 1)) fullShare (outFull m) from rfl)) $$ Hgot1
  ihave Hback2 := (Entails.of_eq (show (rsSendPay m c (2 : Fin 16) : sProp 𝕄) = ptsAt c (accSrc c 2) fullShare (partialOf m c) from rfl)) $$ Hback2
  ihave Hshb2 := (Entails.of_eq (show (agSendPay m c (2 : Fin 16) : sProp 𝕄) = ptsAt c (outOwn c) (shareOf 2) (outFull m) from rfl)) $$ Hshb2
  ihave Hgot2 := (Entails.of_eq (show (agRecvPay m c (2 : Fin 16) : sProp 𝕄) = ptsAt c (outOwn (back c 2)) fullShare (outFull m) from rfl)) $$ Hgot2
  ihave Hback3 := (Entails.of_eq (show (rsSendPay m c (3 : Fin 16) : sProp 𝕄) = ptsAt c (accSrc c 3) fullShare (partialOf m c) from rfl)) $$ Hback3
  ihave Hshb3 := (Entails.of_eq (show (agSendPay m c (3 : Fin 16) : sProp 𝕄) = ptsAt c (outOwn c) (shareOf 3) (outFull m) from rfl)) $$ Hshb3
  ihave Hgot3 := (Entails.of_eq (show (agRecvPay m c (3 : Fin 16) : sProp 𝕄) = ptsAt c (outOwn (back c 3)) fullShare (outFull m) from rfl)) $$ Hgot3
  ihave Hback4 := (Entails.of_eq (show (rsSendPay m c (4 : Fin 16) : sProp 𝕄) = ptsAt c (accSrc c 4) fullShare (partialOf m c) from rfl)) $$ Hback4
  ihave Hshb4 := (Entails.of_eq (show (agSendPay m c (4 : Fin 16) : sProp 𝕄) = ptsAt c (outOwn c) (shareOf 4) (outFull m) from rfl)) $$ Hshb4
  ihave Hgot4 := (Entails.of_eq (show (agRecvPay m c (4 : Fin 16) : sProp 𝕄) = ptsAt c (outOwn (back c 4)) fullShare (outFull m) from rfl)) $$ Hgot4
  ihave Hback5 := (Entails.of_eq (show (rsSendPay m c (5 : Fin 16) : sProp 𝕄) = ptsAt c (accSrc c 5) fullShare (partialOf m c) from rfl)) $$ Hback5
  ihave Hshb5 := (Entails.of_eq (show (agSendPay m c (5 : Fin 16) : sProp 𝕄) = ptsAt c (outOwn c) (shareOf 5) (outFull m) from rfl)) $$ Hshb5
  ihave Hgot5 := (Entails.of_eq (show (agRecvPay m c (5 : Fin 16) : sProp 𝕄) = ptsAt c (outOwn (back c 5)) fullShare (outFull m) from rfl)) $$ Hgot5
  ihave Hback6 := (Entails.of_eq (show (rsSendPay m c (6 : Fin 16) : sProp 𝕄) = ptsAt c (accSrc c 6) fullShare (partialOf m c) from rfl)) $$ Hback6
  ihave Hshb6 := (Entails.of_eq (show (agSendPay m c (6 : Fin 16) : sProp 𝕄) = ptsAt c (outOwn c) (shareOf 6) (outFull m) from rfl)) $$ Hshb6
  ihave Hgot6 := (Entails.of_eq (show (agRecvPay m c (6 : Fin 16) : sProp 𝕄) = ptsAt c (outOwn (back c 6)) fullShare (outFull m) from rfl)) $$ Hgot6
  ihave Hback7 := (Entails.of_eq (show (rsSendPay m c (7 : Fin 16) : sProp 𝕄) = ptsAt c (accSrc c 7) fullShare (partialOf m c) from rfl)) $$ Hback7
  ihave Hshb7 := (Entails.of_eq (show (agSendPay m c (7 : Fin 16) : sProp 𝕄) = ptsAt c (outOwn c) (shareOf 7) (outFull m) from rfl)) $$ Hshb7
  ihave Hgot7 := (Entails.of_eq (show (agRecvPay m c (7 : Fin 16) : sProp 𝕄) = ptsAt c (outOwn (back c 7)) fullShare (outFull m) from rfl)) $$ Hgot7
  ihave Hback8 := (Entails.of_eq (show (rsSendPay m c (8 : Fin 16) : sProp 𝕄) = ptsAt c (accSrc c 8) fullShare (partialOf m c) from rfl)) $$ Hback8
  ihave Hshb8 := (Entails.of_eq (show (agSendPay m c (8 : Fin 16) : sProp 𝕄) = ptsAt c (outOwn c) (shareOf 8) (outFull m) from rfl)) $$ Hshb8
  ihave Hgot8 := (Entails.of_eq (show (agRecvPay m c (8 : Fin 16) : sProp 𝕄) = ptsAt c (outOwn (back c 8)) fullShare (outFull m) from rfl)) $$ Hgot8
  ihave Hback9 := (Entails.of_eq (show (rsSendPay m c (9 : Fin 16) : sProp 𝕄) = ptsAt c (accSrc c 9) fullShare (partialOf m c) from rfl)) $$ Hback9
  ihave Hshb9 := (Entails.of_eq (show (agSendPay m c (9 : Fin 16) : sProp 𝕄) = ptsAt c (outOwn c) (shareOf 9) (outFull m) from rfl)) $$ Hshb9
  ihave Hgot9 := (Entails.of_eq (show (agRecvPay m c (9 : Fin 16) : sProp 𝕄) = ptsAt c (outOwn (back c 9)) fullShare (outFull m) from rfl)) $$ Hgot9
  ihave Hback10 := (Entails.of_eq (show (rsSendPay m c (10 : Fin 16) : sProp 𝕄) = ptsAt c (accSrc c 10) fullShare (partialOf m c) from rfl)) $$ Hback10
  ihave Hshb10 := (Entails.of_eq (show (agSendPay m c (10 : Fin 16) : sProp 𝕄) = ptsAt c (outOwn c) (shareOf 10) (outFull m) from rfl)) $$ Hshb10
  ihave Hgot10 := (Entails.of_eq (show (agRecvPay m c (10 : Fin 16) : sProp 𝕄) = ptsAt c (outOwn (back c 10)) fullShare (outFull m) from rfl)) $$ Hgot10
  ihave Hback11 := (Entails.of_eq (show (rsSendPay m c (11 : Fin 16) : sProp 𝕄) = ptsAt c (accSrc c 11) fullShare (partialOf m c) from rfl)) $$ Hback11
  ihave Hshb11 := (Entails.of_eq (show (agSendPay m c (11 : Fin 16) : sProp 𝕄) = ptsAt c (outOwn c) (shareOf 11) (outFull m) from rfl)) $$ Hshb11
  ihave Hgot11 := (Entails.of_eq (show (agRecvPay m c (11 : Fin 16) : sProp 𝕄) = ptsAt c (outOwn (back c 11)) fullShare (outFull m) from rfl)) $$ Hgot11
  ihave Hback12 := (Entails.of_eq (show (rsSendPay m c (12 : Fin 16) : sProp 𝕄) = ptsAt c (accSrc c 12) fullShare (partialOf m c) from rfl)) $$ Hback12
  ihave Hshb12 := (Entails.of_eq (show (agSendPay m c (12 : Fin 16) : sProp 𝕄) = ptsAt c (outOwn c) (shareOf 12) (outFull m) from rfl)) $$ Hshb12
  ihave Hgot12 := (Entails.of_eq (show (agRecvPay m c (12 : Fin 16) : sProp 𝕄) = ptsAt c (outOwn (back c 12)) fullShare (outFull m) from rfl)) $$ Hgot12
  ihave Hback13 := (Entails.of_eq (show (rsSendPay m c (13 : Fin 16) : sProp 𝕄) = ptsAt c (accSrc c 13) fullShare (partialOf m c) from rfl)) $$ Hback13
  ihave Hshb13 := (Entails.of_eq (show (agSendPay m c (13 : Fin 16) : sProp 𝕄) = ptsAt c (outOwn c) (shareOf 13) (outFull m) from rfl)) $$ Hshb13
  ihave Hgot13 := (Entails.of_eq (show (agRecvPay m c (13 : Fin 16) : sProp 𝕄) = ptsAt c (outOwn (back c 13)) fullShare (outFull m) from rfl)) $$ Hgot13
  ihave Hback14 := (Entails.of_eq (show (rsSendPay m c (14 : Fin 16) : sProp 𝕄) = ptsAt c (accSrc c 14) fullShare (partialOf m c) from rfl)) $$ Hback14
  ihave Hshb14 := (Entails.of_eq (show (agSendPay m c (14 : Fin 16) : sProp 𝕄) = ptsAt c (outOwn c) (shareOf 14) (outFull m) from rfl)) $$ Hshb14
  ihave Hgot14 := (Entails.of_eq (show (agRecvPay m c (14 : Fin 16) : sProp 𝕄) = ptsAt c (outOwn (back c 14)) fullShare (outFull m) from rfl)) $$ Hgot14
  ihave Hback15 := (Entails.of_eq (show (rsSendPay m c (15 : Fin 16) : sProp 𝕄) = ptsAt c (accSrc c 15) fullShare (partialOf m c) from rfl)) $$ Hback15
  ihave Hshb15 := (Entails.of_eq (show (agSendPay m c (15 : Fin 16) : sProp 𝕄) = ptsAt c (outOwn c) (shareOf 15) (outFull m) from rfl)) $$ Hshb15
  ihave Hgot15 := (Entails.of_eq (show (agRecvPay m c (15 : Fin 16) : sProp 𝕄) = ptsAt c (outOwn (back c 15)) fullShare (outFull m) from rfl)) $$ Hgot15
  -- the body returns: the buffers joined again, the sixty counters at zero, nothing owed, the result at the full product
  rw [wp_ret]; imodintro
  iapply Hk
  unfold bodyPost offChain
  isplitl [Hao Hback1 Hback2 Hback3 Hback4 Hback5 Hback6 Hback7 Hback8 Hback9 Hback10 Hback11 Hback12 Hback13 Hback14 Hback15]
  · iexists (partialOf m c)
    iapply (Entails.of_eq (acc_eq c fullShare (partialOf m c)).symm)
    isplitl [Hao]; · iexact Hao
    isplitl [Hback1]; · iexact Hback1
    isplitl [Hback2]; · iexact Hback2
    isplitl [Hback3]; · iexact Hback3
    isplitl [Hback4]; · iexact Hback4
    isplitl [Hback5]; · iexact Hback5
    isplitl [Hback6]; · iexact Hback6
    isplitl [Hback7]; · iexact Hback7
    isplitl [Hback8]; · iexact Hback8
    isplitl [Hback9]; · iexact Hback9
    isplitl [Hback10]; · iexact Hback10
    isplitl [Hback11]; · iexact Hback11
    isplitl [Hback12]; · iexact Hback12
    isplitl [Hback13]; · iexact Hback13
    isplitl [Hback14]; · iexact Hback14
    iexact Hback15
  isplitl [Htm0 Hland1 Hland2 Hland3 Hland4 Hland5 Hland6 Hland7 Hland8 Hland9 Hland10 Hland11 Hland12 Hland13 Hland14 Hland15]
  · iapply (tmp_join c)
    isplitl [Htm0]; · iexists _; iexact Htm0
    isplitl [Hland1]; · iexists _; iexact Hland1
    isplitl [Hland2]; · iexists _; iexact Hland2
    isplitl [Hland3]; · iexists _; iexact Hland3
    isplitl [Hland4]; · iexists _; iexact Hland4
    isplitl [Hland5]; · iexists _; iexact Hland5
    isplitl [Hland6]; · iexists _; iexact Hland6
    isplitl [Hland7]; · iexists _; iexact Hland7
    isplitl [Hland8]; · iexists _; iexact Hland8
    isplitl [Hland9]; · iexists _; iexact Hland9
    isplitl [Hland10]; · iexists _; iexact Hland10
    isplitl [Hland11]; · iexists _; iexact Hland11
    isplitl [Hland12]; · iexists _; iexact Hland12
    isplitl [Hland13]; · iexists _; iexact Hland13
    isplitl [Hland14]; · iexists _; iexact Hland14
    iexists _; iexact Hland15
  isplitl [Hzs1 Hzs2 Hzs3 Hzs4 Hzs5 Hzs6 Hzs7 Hzs8 Hzs9 Hzs10 Hzs11 Hzs12 Hzs13 Hzs14 Hzs15]
  · skip
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzs6]; · iexact Hzs6
    isplitl [Hzs7]; · iexact Hzs7
    isplitl [Hzs8]; · iexact Hzs8
    isplitl [Hzs9]; · iexact Hzs9
    isplitl [Hzs10]; · iexact Hzs10
    isplitl [Hzs11]; · iexact Hzs11
    isplitl [Hzs12]; · iexact Hzs12
    isplitl [Hzs13]; · iexact Hzs13
    isplitl [Hzs14]; · iexact Hzs14
    iexact Hzs15
  isplitl [Hzr1 Hzr2 Hzr3 Hzr4 Hzr5 Hzr6 Hzr7 Hzr8 Hzr9 Hzr10 Hzr11 Hzr12 Hzr13 Hzr14 Hzr15]
  · skip
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    isplitl [Hzr7]; · iexact Hzr7
    isplitl [Hzr8]; · iexact Hzr8
    isplitl [Hzr9]; · iexact Hzr9
    isplitl [Hzr10]; · iexact Hzr10
    isplitl [Hzr11]; · iexact Hzr11
    isplitl [Hzr12]; · iexact Hzr12
    isplitl [Hzr13]; · iexact Hzr13
    isplitl [Hzr14]; · iexact Hzr14
    iexact Hzr15
  isplitl [Hzas1 Hzas2 Hzas3 Hzas4 Hzas5 Hzas6 Hzas7 Hzas8 Hzas9 Hzas10 Hzas11 Hzas12 Hzas13 Hzas14 Hzas15]
  · skip
    isplitl [Hzas1]; · iexact Hzas1
    isplitl [Hzas2]; · iexact Hzas2
    isplitl [Hzas3]; · iexact Hzas3
    isplitl [Hzas4]; · iexact Hzas4
    isplitl [Hzas5]; · iexact Hzas5
    isplitl [Hzas6]; · iexact Hzas6
    isplitl [Hzas7]; · iexact Hzas7
    isplitl [Hzas8]; · iexact Hzas8
    isplitl [Hzas9]; · iexact Hzas9
    isplitl [Hzas10]; · iexact Hzas10
    isplitl [Hzas11]; · iexact Hzas11
    isplitl [Hzas12]; · iexact Hzas12
    isplitl [Hzas13]; · iexact Hzas13
    isplitl [Hzas14]; · iexact Hzas14
    iexact Hzas15
  isplitl [Hzar1 Hzar2 Hzar3 Hzar4 Hzar5 Hzar6 Hzar7 Hzar8 Hzar9 Hzar10 Hzar11 Hzar12 Hzar13 Hzar14 Hzar15]
  · skip
    isplitl [Hzar1]; · iexact Hzar1
    isplitl [Hzar2]; · iexact Hzar2
    isplitl [Hzar3]; · iexact Hzar3
    isplitl [Hzar4]; · iexact Hzar4
    isplitl [Hzar5]; · iexact Hzar5
    isplitl [Hzar6]; · iexact Hzar6
    isplitl [Hzar7]; · iexact Hzar7
    isplitl [Hzar8]; · iexact Hzar8
    isplitl [Hzar9]; · iexact Hzar9
    isplitl [Hzar10]; · iexact Hzar10
    isplitl [Hzar11]; · iexact Hzar11
    isplitl [Hzar12]; · iexact Hzar12
    isplitl [Hzar13]; · iexact Hzar13
    isplitl [Hzar14]; · iexact Hzar14
    iexact Hzar15
  isplitl [HO]; · iexists _; iexact HO
  isplitl [Hx]; · iexact Hx
  isplitl [Hkk]; · iexact Hkk
  isplitl [Hw]; · iexact Hw
  iapply (out_join c (outFull m))
  isplitl [Hshb1 Hshb2 Hshb3 Hshb4 Hshb5 Hshb6 Hshb7 Hshb8 Hshb9 Hshb10 Hshb11 Hshb12 Hshb13 Hshb14 Hshb15]
  · iapply (own_shares_join c (outFull m))
    isplitl [Hshb1]; · iexact Hshb1
    isplitl [Hshb2]; · iexact Hshb2
    isplitl [Hshb3]; · iexact Hshb3
    isplitl [Hshb4]; · iexact Hshb4
    isplitl [Hshb5]; · iexact Hshb5
    isplitl [Hshb6]; · iexact Hshb6
    isplitl [Hshb7]; · iexact Hshb7
    isplitl [Hshb8]; · iexact Hshb8
    isplitl [Hshb9]; · iexact Hshb9
    isplitl [Hshb10]; · iexact Hshb10
    isplitl [Hshb11]; · iexact Hshb11
    isplitl [Hshb12]; · iexact Hshb12
    isplitl [Hshb13]; · iexact Hshb13
    isplitl [Hshb14]; · iexact Hshb14
    iexact Hshb15
  isplitl [Hgot1]; · iexact Hgot1
  isplitl [Hgot2]; · iexact Hgot2
  isplitl [Hgot3]; · iexact Hgot3
  isplitl [Hgot4]; · iexact Hgot4
  isplitl [Hgot5]; · iexact Hgot5
  isplitl [Hgot6]; · iexact Hgot6
  isplitl [Hgot7]; · iexact Hgot7
  isplitl [Hgot8]; · iexact Hgot8
  isplitl [Hgot9]; · iexact Hgot9
  isplitl [Hgot10]; · iexact Hgot10
  isplitl [Hgot11]; · iexact Hgot11
  isplitl [Hgot12]; · iexact Hgot12
  isplitl [Hgot13]; · iexact Hgot13
  isplitl [Hgot14]; · iexact Hgot14
  iexact Hgot15

/-- The body meets its specification on every device. -/
theorem sound_body : BodySound (F := F) m :=
  fun K c W gout facc ftmp Kt => sound_body_steps m K c W gout facc ftmp Kt

end Cert.Kernel.Proto
end
-- ==== Proof.lean ====
/-
  The certificate of the gated one-dimensional convolution, computed on sixteen devices, against its one-device reference.

  Sixteen devices each hold one block of 256 input channels of x : [4, 512, 4096], the matching block of the four filter
  taps k : [4, 4096] and the matching 256 rows of the projection W : [4096, 256]. Each device forms the causal
  four-tap convolution of its channels along the sequence, gates it by its own logistic, and multiplies by its rows of W:
  a partial product over all 2048 output rows, kept as sixteen row-blocks of 128 rows in sixteen-bit floats. The devices
  then exchange row-blocks, each adding the sixteen contributions to its own row-block (its own first, then the others in
  ring order), and finally hand every device every summed row-block: each ends with the whole result [4, 512, 256].
  The reference computes, on the whole arrays, the padded convolution, the gate out / (1 + exp (-out)) and the product
  with W.

  The claim has five conjuncts.
  1. The frame of the kernel at the word-level float instance: from any memory with every semaphore at zero, every
     fair interleaving of the sixteen devices' threads terminates, nothing faults, and every device's three argument
     arrays end as they began.
  2. The same frame of the kernel read over the extended reals.
  3. The frame of the reference, on one device.
  4. That reading the kernel over the extended reals rewrote no operation (nothing to prove).
  5. Over the extended reals the two programs agree: where each device's argument arrays are its blocks of the
     reference's arrays, every device's result array ends at the reference's result.

  Conjuncts 1, 2 and 5 come from ONE run of the kernel, proved once for any float instance and read at the two
  instances: on every device the arguments are unchanged and the result array holds the sum over the devices of their
  partial products (Proof/BodyWrap.lean `run_kernel`, and the same text at the word-level program under Proof/Bits/).
  That run is assembled from
    * the protocol: per device one barrier cell with fifteen unit duties and, per offset, a send and a receive cell for
      the scatter and for the gather, each with one duty of a block's credit; what each landing hands its waiter
      (Proof/Protocol.lean, Proof/Tables.lean, Proof/Contents.lean);
    * the proof of one device's body from its invariant, one step per effect (Proof/Body.lean over Proof/Steps*.lean,
      Proof/Carve*.lean, Proof/Landing*.lean);
    * the launch: the cells' invariants allocated for all devices at once, the duty tokens handed to their payers,
      the levels that order the waits, and the run of the mesh from the devices' bodies (Proof/LaunchShape.lean, Proof/LaunchIdeal.lean,
      Proof/LevelFacts.lean, Proof/BodyGlue.lean, Proof/BodyWrap.lean).
  Conjunct 5 joins the kernel's result to the reference's: a sum over sixteen channel blocks of block products is the
  product over all 4096 channels, the convolution and the gate act channel by channel, and sixteen-bit rounding is the
  identity over the extended reals (Proof/Spec.lean, Proof/Shards.lean, Proof/Pay*.lean, Proof/ValueBridge.lean,
  Proof/ValueJoin.lean, Proof/RefIsSpec.lean, Proof/ClaimsIdeal.lean). Conjunct 1 forgets the result
  (Proof/ClaimsBits.lean); conjuncts 3 and 4 need nothing of the kernel (Proof/RefFrame.lean).
-/
import proofs.«900432_g7700000000000433_dist_gconv1d_cshard_i_b4_s512_c256_v7x_i16_bf16_1_alg».proof.Defs
import proofs.«900432_g7700000000000433_dist_gconv1d_cshard_i_b4_s512_c256_v7x_i16_bf16_1_alg».proof.Proof.Gen.Kernel
import proofs.«900432_g7700000000000433_dist_gconv1d_cshard_i_b4_s512_c256_v7x_i16_bf16_1_alg».proof.Proof.Gen.Kernel.Skeleton
import proofs.«900432_g7700000000000433_dist_gconv1d_cshard_i_b4_s512_c256_v7x_i16_bf16_1_alg».proof.Proof.Gen.Kernel.Launch
import proofs.«900432_g7700000000000433_dist_gconv1d_cshard_i_b4_s512_c256_v7x_i16_bf16_1_alg».proof.Proof.Gen.Kernel.Points
import proofs.«900432_g7700000000000433_dist_gconv1d_cshard_i_b4_s512_c256_v7x_i16_bf16_1_alg».proof.Proof.Gen.Kernel.Frame
import proofs.«900432_g7700000000000433_dist_gconv1d_cshard_i_b4_s512_c256_v7x_i16_bf16_1_alg».proof.Proof.Gen.KernelIdeal
import proofs.«900432_g7700000000000433_dist_gconv1d_cshard_i_b4_s512_c256_v7x_i16_bf16_1_alg».proof.Proof.Gen.KernelIdeal.Skeleton
import proofs.«900432_g7700000000000433_dist_gconv1d_cshard_i_b4_s512_c256_v7x_i16_bf16_1_alg».proof.Proof.Gen.KernelIdeal.Launch
import proofs.«900432_g7700000000000433_dist_gconv1d_cshard_i_b4_s512_c256_v7x_i16_bf16_1_alg».proof.Proof.Gen.KernelIdeal.Points
import proofs.«900432_g7700000000000433_dist_gconv1d_cshard_i_b4_s512_c256_v7x_i16_bf16_1_alg».proof.Proof.Gen.KernelIdeal.Frame
import proofs.«900432_g7700000000000433_dist_gconv1d_cshard_i_b4_s512_c256_v7x_i16_bf16_1_alg».proof.Proof.Gen.ReferenceIdeal
import proofs.«900432_g7700000000000433_dist_gconv1d_cshard_i_b4_s512_c256_v7x_i16_bf16_1_alg».proof.Proof.Gen.Pre_finite_inputs_Kernel
import proofs.«900432_g7700000000000433_dist_gconv1d_cshard_i_b4_s512_c256_v7x_i16_bf16_1_alg».proof.Proof.Gen.Pre_finite_inputs_ReferenceIdeal
import proofs.«900432_g7700000000000433_dist_gconv1d_cshard_i_b4_s512_c256_v7x_i16_bf16_1_alg».proof.Proof.RefFrame
import proofs.«900432_g7700000000000433_dist_gconv1d_cshard_i_b4_s512_c256_v7x_i16_bf16_1_alg».proof.Proof.ClaimsIdeal
import proofs.«900432_g7700000000000433_dist_gconv1d_cshard_i_b4_s512_c256_v7x_i16_bf16_1_alg».proof.Proof.ClaimsBits
import proofs.«900432_g7700000000000433_dist_gconv1d_cshard_i_b4_s512_c256_v7x_i16_bf16_1_alg».proof.Proof.BodyWrap
import proofs.«900432_g7700000000000433_dist_gconv1d_cshard_i_b4_s512_c256_v7x_i16_bf16_1_alg».proof.Proof.Bits.BodyWrap
import proofs.«900432_g7700000000000433_dist_gconv1d_cshard_i_b4_s512_c256_v7x_i16_bf16_1_alg».proof.Proof.Body
import proofs.«900432_g7700000000000433_dist_gconv1d_cshard_i_b4_s512_c256_v7x_i16_bf16_1_alg».proof.Proof.Bits.Body
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  BitsClaims.frame_Kernel_of (fun m => Cert.Kernel.Proto.outFull (F := Bits) m)
    (fun m ρ => Cert.Kernel.Proto.run_kernel m ρ (Cert.Kernel.Proto.sound_body m)),
  IdealClaims.frame_KernelIdeal_of (fun m ρ => Cert.KernelIdeal.Proto.run_kernel m ρ (Cert.KernelIdeal.Proto.sound_body m)),
  RefClaims.frame_ref,
  RefClaims.preserves,
  IdealClaims.algebraic_of (fun m ρ => Cert.KernelIdeal.Proto.run_kernel m ρ (Cert.KernelIdeal.Proto.sound_body m))⟩

end Cert.Proof

end
